-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x384 : Shape := ⟨2, ![100000, 384]⟩
abbrev S2x3200000 : Shape := ⟨2, ![2, 3200000]⟩
abbrev S3200000x9 : Shape := ⟨2, ![3200000, 9]⟩
abbrev S100000 : Shape := ⟨1, ![100000]⟩
abbrev S384x32 : Shape := ⟨2, ![384, 32]⟩
abbrev S2x32x32 : Shape := ⟨3, ![2, 32, 32]⟩
abbrev S3x32 : Shape := ⟨2, ![3, 32]⟩
abbrev S32x2 : Shape := ⟨2, ![32, 2]⟩
abbrev S2 : Shape := ⟨1, ![2]⟩
abbrev S_ : Shape := ⟨0, ![]⟩

class Facts : Prop where
  bcast_S_S100000x384 : S_.BroadcastsInDim S100000x384 (![] : Fin 0 → Fin S100000x384.rank)
  reducesTo_S100000x384_S_d0_1 : S100000x384.ReducesTo [0, 1] S_
  h_S_ : 0 < S_.numel
  bcast_S_S3200000x9 : S_.BroadcastsInDim S3200000x9 (![] : Fin 0 → Fin S3200000x9.rank)
  reducesTo_S3200000x9_S_d0_1 : S3200000x9.ReducesTo [0, 1] S_
  bcast_S_S384x32 : S_.BroadcastsInDim S384x32 (![] : Fin 0 → Fin S384x32.rank)
  reducesTo_S384x32_S_d0_1 : S384x32.ReducesTo [0, 1] S_
  bcast_S_S2x32x32 : S_.BroadcastsInDim S2x32x32 (![] : Fin 0 → Fin S2x32x32.rank)
  reducesTo_S2x32x32_S_d0_1_2 : S2x32x32.ReducesTo [0, 1, 2] S_
  bcast_S_S3x32 : S_.BroadcastsInDim S3x32 (![] : Fin 0 → Fin S3x32.rank)
  reducesTo_S3x32_S_d0_1 : S3x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32x2 .f32) (main_arg10 : FVec F S2 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S3x32 .f32) (main_arg7 : FVec F S3x32 .f32) (main_arg8 : FVec F S3x32 .f32) (main_arg9 : FVec F S32x2 .f32) (main_arg10 : FVec F S2 .f32) (main_v13 : IVec S_ 1) (main_v16 : IVec S2x32x32 1) : IVec S_ 1 :=
  let main_c_5 : IVec S_ 1 := constantI S_ 1 1#1
  let main_v17 : IVec S_ 1 := (fun x v => Host.reduce IntOp.andi x v reducesTo_S2x32x32_S_d0_1_2 h_S_) main_v16 main_c_5
  let main_v18 : IVec S_ 1 := andi main_v13 main_v17
  let main_v19 : FVec F S3x32 .f32 := Host.absf main_arg6
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S3x32 .f32 := Host.absf main_arg7
  let main_cst_8 : FVec F S_ .f32 := constant S_ .f32 0x7F800000#32
  let main_v25 : FVec F S3x32 .f32 := broadcastInDim S3x32 ![] bcast_S_S3x32 main_cst_8
  let main_v26 : IVec S3x32 1 := cmpf .olt main_v24 main_v25
  let main_c_9 : IVec S_ 1 := constantI S_ 1 1#1
  let main_v27 : IVec S_ 1 := (fun x v => Host.reduce IntOp.andi x v reducesTo_S3x32_S_d0_1 h_S_) main_v26 main_c_9
  let main_v28 : IVec S_ 1 := andi main_v23 main_v27
  let main_v29 : FVec F S3x32 .f32 := Host.absf main_arg8
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg9 main_arg10 main_v33

def fn {F : FTy → Type} [FloatOps F] (main_arg0 : FVec F S100000x384 .f32) (main_arg1 : IVec S2x3200000 32) (main_arg2 : FVec F S3200000x9 .f32) (main_arg3 : IVec S100000 32) (main_arg4 : FVec F S384x32 .f32) (main_arg5 : FVec F S2x32x32 .f32) (main_arg6 : FVec F S3x32 .f32) (main_arg7 : FVec F S3x32 .f32) (main_arg8 : FVec F S3x32 .f32) (main_arg9 : FVec F S32x2 .f32) (main_arg10 : FVec F S2 .f32) : IVec S_ 1 :=
  let main_v0 : FVec F S100000x384 .f32 := Host.absf main_arg0
  let main_cst : FVec F S_ .f32 := constant S_ .f32 0x7F800000#32
  let main_v1 : FVec F S100000x384 .f32 := broadcastInDim S100000x384 ![] bcast_S_S100000x384 main_cst
  let main_v2 : IVec S100000x384 1 := cmpf .olt main_v0 main_v1
  let main_c : IVec S_ 1 := constantI S_ 1 1#1
  let main_v3 : IVec S_ 1 := (fun x v => Host.reduce IntOp.andi x v reducesTo_S100000x384_S_d0_1 h_S_) main_v2 main_c
  let main_v4 : FVec F S3200000x9 .f32 := Host.absf main_arg2
  let main_cst_0 : FVec F S_ .f32 := constant S_ .f32 0x7F800000#32
  let main_v5 : FVec F S3200000x9 .f32 := broadcastInDim S3200000x9 ![] bcast_S_S3200000x9 main_cst_0
  let main_v6 : IVec S3200000x9 1 := cmpf .olt main_v4 main_v5
  let main_c_1 : IVec S_ 1 := constantI S_ 1 1#1
  let main_v7 : IVec S_ 1 := (fun x v => Host.reduce IntOp.andi x v reducesTo_S3200000x9_S_d0_1 h_S_) main_v6 main_c_1
  let main_v8 : IVec S_ 1 := andi main_v3 main_v7
  let main_v9 : FVec F S384x32 .f32 := Host.absf main_arg4
  let main_cst_2 : FVec F S_ .f32 := constant S_ .f32 0x7F800000#32
  let main_v10 : FVec F S384x32 .f32 := broadcastInDim S384x32 ![] bcast_S_S384x32 main_cst_2
  let main_v11 : IVec S384x32 1 := cmpf .olt main_v9 main_v10
  let main_c_3 : IVec S_ 1 := constantI S_ 1 1#1
  let main_v12 : IVec S_ 1 := (fun x v => Host.reduce IntOp.andi x v reducesTo_S384x32_S_d0_1 h_S_) main_v11 main_c_3
  let main_v13 : IVec S_ 1 := andi main_v8 main_v12
  let main_v14 : FVec F S2x32x32 .f32 := Host.absf main_arg5
  let main_cst_4 : FVec F S_ .f32 := constant S_ .f32 0x7F800000#32
  let main_v15 : FVec F S2x32x32 .f32 := broadcastInDim S2x32x32 ![] bcast_S_S2x32x32 main_cst_4
  let main_v16 : IVec S2x32x32 1 := cmpf .olt main_v14 main_v15
  fn_part1 (F := F) main_arg6 main_arg7 main_arg8 main_arg9 main_arg10 main_v13 main_v16
-- ==== Kernel.lean ====
abbrev S100000x384 : Shape := ⟨2, ![100000, 384]⟩
abbrev S2x3200000 : Shape := ⟨2, ![2, 3200000]⟩
abbrev S3200000x9 : Shape := ⟨2, ![3200000, 9]⟩
abbrev S100000 : Shape := ⟨1, ![100000]⟩
abbrev S384x32 : Shape := ⟨2, ![384, 32]⟩
abbrev S2x32x32 : Shape := ⟨3, ![2, 32, 32]⟩
abbrev S3x32 : Shape := ⟨2, ![3, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x32x32 : Shape := ⟨3, ![1, 32, 32]⟩
abbrev S32x32 : Shape := ⟨2, ![32, 32]⟩
abbrev S100000x32 : Shape := ⟨2, ![100000, 32]⟩
abbrev S5000x384 : Shape := ⟨2, ![5000, 384]⟩
abbrev S5000x32 : Shape := ⟨2, ![5000, 32]⟩
abbrev S3300000x32 : Shape := ⟨2, ![3300000, 32]⟩
abbrev S100000x1 : Shape := ⟨2, ![100000, 1]⟩
abbrev S1x32 : Shape := ⟨2, ![1, 32]⟩
abbrev S32 : Shape := ⟨1, ![32]⟩
abbrev S100x32 : Shape := ⟨2, ![100, 32]⟩
abbrev S100 : Shape := ⟨1, ![100]⟩
abbrev S100x1 : Shape := ⟨2, ![100, 1]⟩
abbrev S1x2 : Shape := ⟨2, ![1, 2]⟩
abbrev S100x2 : Shape := ⟨2, ![100, 2]⟩

abbrev nBuf : Space → Nat
  | .hbm => 166
  | .vmem => 62
  | .smem => 0
  | _ => 0

abbrev hbmTy0_0 (i : Nat) : BufTy := match i % 128 with
  | 0 => ⟨S100000x384, .f32⟩
  | 1 => ⟨S2x3200000, .i32⟩
  | 2 => ⟨S3200000x9, .f32⟩
  | 3 => ⟨S100000, .i32⟩
  | 4 => ⟨S384x32, .f32⟩
  | 5 => ⟨S2x32x32, .f32⟩
  | 6 => ⟨S3x32, .f32⟩
  | 7 => ⟨S3x32, .f32⟩
  | 8 => ⟨S3x32, .f32⟩
  | 9 => ⟨S32x2, .f32⟩
  | 10 => ⟨S2, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S100000, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S3300000, .f32⟩
  | 44 => ⟨S_, .f32⟩
  | 45 => ⟨S100000, .f32⟩
  | 46 => ⟨S100000, .f32⟩
  | 47 => ⟨S1x32x32, .f32⟩
  | 48 => ⟨S32x32, .f32⟩
  | 49 => ⟨S1x32x32, .f32⟩
  | 50 => ⟨S32x32, .f32⟩
  | 51 => ⟨S100000x32, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x32, .f32⟩
  | 62 => ⟨S3300000x32, .f32⟩
  | 63 => ⟨S3300000x32, .f32⟩
  | 64 => ⟨S_, .f32⟩
  | 65 => ⟨S100000x32, .f32⟩
  | 66 => ⟨S3300000x1, .i32⟩
  | 67 => ⟨S100000x32, .f32⟩
  | 68 => ⟨S100000x1, .f32⟩
  | 69 => ⟨S100000x32, .f32⟩
  | 70 => ⟨S100000x32, .f32⟩
  | 71 => ⟨S1x32, .f32⟩
  | 72 => ⟨S32, .f32⟩
  | 73 => ⟨S1x32, .f32⟩
  | 74 => ⟨S100000x32, .f32⟩
  | 75 => ⟨S100000x32, .f32⟩
  | 76 => ⟨S1x32, .f32⟩
  | 77 => ⟨S1x32, .f32⟩
  | 78 => ⟨S1x32, .f32⟩
  | 79 => ⟨S32, .f32⟩
  | 80 => ⟨S1x32, .f32⟩
  | 81 => ⟨S1x32, .f32⟩
  | 82 => ⟨S32, .f32⟩
  | 83 => ⟨S1x32, .f32⟩
  | 84 => ⟨S100000x32, .f32⟩
  | 85 => ⟨S100000x32, .f32⟩
  | 86 => ⟨S3300000x1, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000x32, .f32⟩
  | 96 => ⟨S3300000x32, .f32⟩
  | 97 => ⟨S3300000x32, .f32⟩
  | 98 => ⟨S_, .f32⟩
  | 99 => ⟨S100000x32, .f32⟩
  | 100 => ⟨S3300000x1, .i32⟩
  | 101 => ⟨S100000x32, .f32⟩
  | 102 => ⟨S100000x1, .f32⟩
  | 103 => ⟨S100000x32, .f32⟩
  | 104 => ⟨S100000x32, .f32⟩
  | 105 => ⟨S1x32, .f32⟩
  | 106 => ⟨S32, .f32⟩
  | 107 => ⟨S1x32, .f32⟩
  | 108 => ⟨S100000x32, .f32⟩
  | 109 => ⟨S100000x32, .f32⟩
  | 110 => ⟨S1x32, .f32⟩
  | 111 => ⟨S1x32, .f32⟩
  | 112 => ⟨S1x32, .f32⟩
  | 113 => ⟨S32, .f32⟩
  | 114 => ⟨S1x32, .f32⟩
  | 115 => ⟨S1x32, .f32⟩
  | 116 => ⟨S32, .f32⟩
  | 117 => ⟨S1x32, .f32⟩
  | 118 => ⟨S100000x32, .f32⟩
  | 119 => ⟨S100000x32, .f32⟩
  | 120 => ⟨S3300000x1, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x384, .f32⟩

abbrev hbmTy0_1 (i : Nat) : BufTy := match i % 128 with
  | 0 => ⟨S3300000x1, .i32⟩
  | 1 => ⟨S3300000x32, .f32⟩
  | 2 => ⟨S3300000x32, .f32⟩
  | 3 => ⟨S3300000x32, .f32⟩
  | 4 => ⟨S_, .f32⟩
  | 5 => ⟨S100000x32, .f32⟩
  | 6 => ⟨S3300000x1, .i32⟩
  | 7 => ⟨S100000x32, .f32⟩
  | 8 => ⟨S100000x1, .f32⟩
  | 9 => ⟨S100000x32, .f32⟩
  | 10 => ⟨S100000x32, .f32⟩
  | 11 => ⟨S1x32, .f32⟩
  | 12 => ⟨S32, .f32⟩
  | 13 => ⟨S1x32, .f32⟩
  | 14 => ⟨S100000x32, .f32⟩
  | 15 => ⟨S100000x32, .f32⟩
  | 16 => ⟨S1x32, .f32⟩
  | 17 => ⟨S1x32, .f32⟩
  | 18 => ⟨S1x32, .f32⟩
  | 19 => ⟨S32, .f32⟩
  | 20 => ⟨S1x32, .f32⟩
  | 21 => ⟨S1x32, .f32⟩
  | 22 => ⟨S32, .f32⟩
  | 23 => ⟨S1x32, .f32⟩
  | 24 => ⟨S100000x32, .f32⟩
  | 25 => ⟨S_, .f32⟩
  | 26 => ⟨S100x32, .f32⟩
  | 27 => ⟨S100000x1, .i32⟩
  | 28 => ⟨S100x32, .f32⟩
  | 29 => ⟨S_, .f32⟩
  | 30 => ⟨S100000, .f32⟩
  | 31 => ⟨S_, .f32⟩
  | 32 => ⟨S100, .f32⟩
  | 33 => ⟨S100000x1, .i32⟩
  | 34 => ⟨S100, .f32⟩
  | 35 => ⟨S100x1, .f32⟩
  | 36 => ⟨S1x2, .f32⟩
  | 37 => ⟨S100x2, .f32⟩
  | _ => ⟨S100000x384, .f32⟩

abbrev hbmTy (i : Nat) : BufTy := match i / 128 with
  | 0 => hbmTy0_0 i
  | 1 => hbmTy0_1 i
  | _ => ⟨S100000x384, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S32x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S32x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S1x32, .f32⟩
  | .local _ .vmem, ⟨49, _⟩ => ⟨S5000x32, .f32⟩
  | .local _ .vmem, ⟨50, _⟩ => ⟨S5000x32, .f32⟩
  | .local _ .vmem, ⟨51, _⟩ => ⟨S1x32, .f32⟩
  | .local _ .vmem, ⟨52, _⟩ => ⟨S1x32, .f32⟩
  | .local _ .vmem, ⟨53, _⟩ => ⟨S1x32, .f32⟩
  | .local _ .vmem, ⟨54, _⟩ => ⟨S1x32, .f32⟩
  | .local _ .vmem, ⟨55, _⟩ => ⟨S5000x32, .f32⟩
  | .local _ .vmem, ⟨56, _⟩ => ⟨S5000x32, .f32⟩
  | .local _ .vmem, ⟨57, _⟩ => ⟨S100x32, .f32⟩
  | .local _ .vmem, ⟨58, _⟩ => ⟨S100x1, .f32⟩
  | .local _ .vmem, ⟨59, _⟩ => ⟨S32x2, .f32⟩
  | .local _ .vmem, ⟨60, _⟩ => ⟨S1x2, .f32⟩
  | .local _ .vmem, ⟨61, _⟩ => ⟨S100x2, .f32⟩
  | _, _ => ⟨S100000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_8 : Ref sig .tc := ⟨.hbm, 87, rfl⟩
abbrev main_v65 : Ref sig .tc := ⟨.hbm, 88, rfl⟩
abbrev main_v66 : Ref sig .tc := ⟨.hbm, 89, rfl⟩
abbrev main_c_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85_0 : Ref sig .tc := ⟨.hbm, 110, rfl⟩
abbrev main_v85_1 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_11 : Ref sig .tc := ⟨.hbm, 121, rfl⟩
abbrev main_v95 : Ref sig .tc := ⟨.hbm, 122, rfl⟩
abbrev main_v96 : Ref sig .tc := ⟨.hbm, 123, rfl⟩
abbrev main_c_12 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_13 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115_0 : Ref sig .tc := ⟨.hbm, 144, rfl⟩
abbrev main_v115_1 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_14 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_15 : Ref sig .tc := ⟨.hbm, 157, rfl⟩
abbrev main_v126 : Ref sig .tc := ⟨.hbm, 158, rfl⟩
abbrev main_cst_16 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_scratch0 : Ref sig .tc := ⟨.vmem, 47, rfl⟩
abbrev cc7_scratch1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc9_stg0_0 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg4_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem1_0 : DmaSem sig := 52
abbrev cc9_sem2_0 : DmaSem sig := 53
abbrev cc9_sem3_0 : DmaSem sig := 54
abbrev cc9_sem4_0 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S100x32 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S100x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S32x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x2 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S100x2 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  slices_S2x32x32_S1x32x32_0_0_0 : S2x32x32.Slices ![0, 0, 0] S1x32x32
  shapeCasts_S1x32x32_S32x32 : S1x32x32.ShapeCasts S32x32
  slices_S2x32x32_S1x32x32_1_0_0 : S2x32x32.Slices ![1, 0, 0] S1x32x32
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x32_S384x32_0_0 : ∀ a, (![0, 0] : Fin 2 → Nat) a + S384x32.size a ≤ S384x32.size a
  h_S384x32 : 0 < S384x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S5000x32_S5000x32 : S5000x32.ShapeCasts S5000x32
  reduces_S5000x32_S32 : S5000x32.Reduces [0] S32
  shapeCasts_S32_S1x32 : S32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S3x32_S1x32_1_0 : S3x32.Slices ![1, 0] S1x32
  slices_S3x32_S1x32_2_0 : S3x32.Slices ![2, 0] S1x32
  bcast_S_S100x32 : S_.BroadcastsInDim S100x32 (![] : Fin 0 → Fin S100x32.rank)
  bcast_S_S100 : S_.BroadcastsInDim S100 (![] : Fin 0 → Fin S100.rank)
  bcast_S100_S100x1_0 : S100.BroadcastsInDim S100x1 (![0] : Fin 1 → Fin S100x1.rank)
  bcast_S2_S1x2_1 : S2.BroadcastsInDim S1x2 (![1] : Fin 1 → Fin S1x2.rank)
  inb_S100x32_S100x32_0_0 : ∀ a, (![0, 0] : Fin 2 → Nat) a + S100x32.size a ≤ S100x32.size a
  h_S100x32 : 0 < S100x32.numel
  shapeCasts_S100x32_S100x32 : S100x32.ShapeCasts S100x32
  inb_S100x1_S100x1_0_0 : ∀ a, (![0, 0] : Fin 2 → Nat) a + S100x1.size a ≤ S100x1.size a
  h_S100x1 : 0 < S100x1.numel
  shapeCasts_S100x1_S100x1 : S100x1.ShapeCasts S100x1
  broadcasts_S100x1_S100x32 : S100x1.Broadcasts S100x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S100x2 : S1x2.Broadcasts S100x2
  inb_S100x2_S100x2_0_0 : ∀ a, (![0, 0] : Fin 2 → Nat) a + S100x2.size a ≤ S100x2.size a
  h_S100x2 : 0 < S100x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x384_S384x32_S5000x32_1_0_0_1_n_n_wf : DotDims.WF S5000x384 S384x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  scatter_S100x32_S100000x1_S100000x32_1_0_0_1_wf : ScatterDims.WF S100x32 S100000x1 S100000x32 [1] [0] [0] 1
  scatter_S100_S100000x1_S100000_n_0_0_1_wf : ScatterDims.WF S100 S100000x1 S100000 [] [0] [0] 1
  dot_S100x32_S32x2_S100x2_1_0_0_1_n_n_wf : DotDims.WF S100x32 S32x2 S100x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S100000x384.size a
  hwx0_0 : ∀ i : grid0.Coords, EltTy.bits .f32 = 32 ∨ (Rect.block (s := S100000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x32.size a ≤ S384x32.size a
  hwx0_1 : ∀ i : grid0.Coords, EltTy.bits .f32 = 32 ∨ (Rect.block (s := S384x32) S384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S100000x32.size a
  hwx5_5 : ∀ i : grid5.Coords, EltTy.bits .f32 = 32 ∨ (Rect.block (s := S100000x32) S5000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S100000x32.size a
  hwx6_2 : ∀ i : grid6.Coords, EltTy.bits .f32 = 32 ∨ (Rect.block (s := S100000x32) S5000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x32.size a ≤ S100000x32.size a
  hwx8_5 : ∀ i : grid8.Coords, EltTy.bits .f32 = 32 ∨ (Rect.block (s := S100000x32) S5000x32.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S100x32.size a ≤ S100x32.size a
  hwx9_0 : ∀ i : grid9.Coords, EltTy.bits .f32 = 32 ∨ (Rect.block (s := S100x32) S100x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S100x1.size a ≤ S100x1.size a
  hwx9_1 : ∀ i : grid9.Coords, EltTy.bits .f32 = 32 ∨ (Rect.block (s := S100x1) S100x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S32x2.size a ≤ S32x2.size a
  hwx9_2 : ∀ i : grid9.Coords, EltTy.bits .f32 = 32 ∨ (Rect.block (s := S32x2) S32x2.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x2.size a ≤ S1x2.size a
  hwx9_3 : ∀ i : grid9.Coords, EltTy.bits .f32 = 32 ∨ (Rect.block (s := S1x2) S1x2.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S100x2.size a ≤ S100x2.size a
  hwx9_4 : ∀ i : grid9.Coords, EltTy.bits .f32 = 32 ∨ (Rect.block (s := S100x2) S100x2.size (cc9_transform_4 i) (hinb9_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x384_S384x32_S5000x32_1_0_0_1_n_n : DotDims S5000x384 S384x32 S5000x32 where
  lhsContracting := [1]
  rhsContracting := [0]
  lhsNonContracting := [0]
  rhsNonContracting := [1]
  lhsBatch := []
  rhsBatch := []
  wf := dot_S5000x384_S384x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def scatter_S100x32_S100000x1_S100000x32_1_0_0_1 : ScatterDims S100x32 S100000x1 S100000x32 where
  updateWindowDims := [1]
  insertedWindowDims := [0]
  scatterDimsToOperandDims := [0]
  indexVectorDim := 1
  wf := scatter_S100x32_S100000x1_S100000x32_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x32_S32x2_S100x2_1_0_0_1_n_n : DotDims S100x32 S32x2 S100x2 where
  lhsContracting := [1]
  rhsContracting := [0]
  lhsNonContracting := [0]
  rhsNonContracting := [1]
  lhsBatch := []
  rhsBatch := []
  wf := dot_S100x32_S32x2_S100x2_1_0_0_1_n_n_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55_0) S1x32.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55_1) S1x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v54) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55_0) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55_1) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v84) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85_0) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85_1) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S5000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v92) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v114) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115_0) S1x32.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115_1) S1x32.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v114) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115_0) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v115_1) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v118) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v121) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v122) S5000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v125) S100x32.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v130) S100x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg9) S32x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x2.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S100x2.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x384 : Shape := ⟨2, ![100000, 384]⟩
abbrev S2x3200000 : Shape := ⟨2, ![2, 3200000]⟩
abbrev S3200000x9 : Shape := ⟨2, ![3200000, 9]⟩
abbrev S100000 : Shape := ⟨1, ![100000]⟩
abbrev S384x32 : Shape := ⟨2, ![384, 32]⟩
abbrev S2x32x32 : Shape := ⟨3, ![2, 32, 32]⟩
abbrev S3x32 : Shape := ⟨2, ![3, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x32x32 : Shape := ⟨3, ![1, 32, 32]⟩
abbrev S32x32 : Shape := ⟨2, ![32, 32]⟩
abbrev S100000x32 : Shape := ⟨2, ![100000, 32]⟩
abbrev S3300000x32 : Shape := ⟨2, ![3300000, 32]⟩
abbrev S1x32 : Shape := ⟨2, ![1, 32]⟩
abbrev S32 : Shape := ⟨1, ![32]⟩
abbrev S100x32 : Shape := ⟨2, ![100, 32]⟩
abbrev S100 : Shape := ⟨1, ![100]⟩
abbrev S100x1 : Shape := ⟨2, ![100, 1]⟩
abbrev S100x2 : Shape := ⟨2, ![100, 2]⟩
abbrev S1x2 : Shape := ⟨2, ![1, 2]⟩

abbrev nBuf : Space → Nat
  | .hbm => 298
  | .vmem => 0
  | .smem => 0
  | _ => 0

abbrev hbmTy0_0 (i : Nat) : BufTy := match i % 128 with
  | 0 => ⟨S100000x384, .f32⟩
  | 1 => ⟨S2x3200000, .i32⟩
  | 2 => ⟨S3200000x9, .f32⟩
  | 3 => ⟨S100000, .i32⟩
  | 4 => ⟨S384x32, .f32⟩
  | 5 => ⟨S2x32x32, .f32⟩
  | 6 => ⟨S3x32, .f32⟩
  | 7 => ⟨S3x32, .f32⟩
  | 8 => ⟨S3x32, .f32⟩
  | 9 => ⟨S32x2, .f32⟩
  | 10 => ⟨S2, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S100000, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S3300000, .f32⟩
  | 44 => ⟨S_, .f32⟩
  | 45 => ⟨S100000, .f32⟩
  | 46 => ⟨S100000, .f32⟩
  | 47 => ⟨S100000x1, .f32⟩
  | 48 => ⟨S1x32x32, .f32⟩
  | 49 => ⟨S32x32, .f32⟩
  | 50 => ⟨S1x32x32, .f32⟩
  | 51 => ⟨S32x32, .f32⟩
  | 52 => ⟨S100000x32, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x32, .f32⟩
  | 63 => ⟨S3300000x32, .f32⟩
  | 64 => ⟨S3300000x32, .f32⟩
  | 65 => ⟨S_, .f32⟩
  | 66 => ⟨S100000x32, .f32⟩
  | 67 => ⟨S3300000x1, .i32⟩
  | 68 => ⟨S100000x32, .f32⟩
  | 69 => ⟨S100000x32, .f32⟩
  | 70 => ⟨S100000x32, .f32⟩
  | 71 => ⟨S1x32, .f32⟩
  | 72 => ⟨S32, .f32⟩
  | 73 => ⟨S1x32, .f32⟩
  | 74 => ⟨S100000x32, .f32⟩
  | 75 => ⟨S100000x32, .f32⟩
  | 76 => ⟨S_, .f32⟩
  | 77 => ⟨S32, .f32⟩
  | 78 => ⟨S_, .f32⟩
  | 79 => ⟨S32, .f32⟩
  | 80 => ⟨S32, .f32⟩
  | 81 => ⟨S_, .i32⟩
  | 82 => ⟨S_, .f32⟩
  | 83 => ⟨S32, .f32⟩
  | 84 => ⟨S1x32, .f32⟩
  | 85 => ⟨S_, .f32⟩
  | 86 => ⟨S1x32, .f32⟩
  | 87 => ⟨S1x32, .f32⟩
  | 88 => ⟨S100000x32, .f32⟩
  | 89 => ⟨S100000x32, .f32⟩
  | 90 => ⟨S100000x32, .f32⟩
  | 91 => ⟨S_, .f32⟩
  | 92 => ⟨S_, .f32⟩
  | 93 => ⟨S_, .f32⟩
  | 94 => ⟨S_, .f32⟩
  | 95 => ⟨S32, .f32⟩
  | 96 => ⟨S32, .f32⟩
  | 97 => ⟨S32, .f32⟩
  | 98 => ⟨S_, .f32⟩
  | 99 => ⟨S_, .i1⟩
  | 100 => ⟨S_, .f32⟩
  | 101 => ⟨S_, .f32⟩
  | 102 => ⟨S32, .f32⟩
  | 103 => ⟨S32, .f32⟩
  | 104 => ⟨S1x32, .f32⟩
  | 105 => ⟨S100000x32, .f32⟩
  | 106 => ⟨S100000x32, .f32⟩
  | 107 => ⟨S_, .f32⟩
  | 108 => ⟨S32, .f32⟩
  | 109 => ⟨S32, .f32⟩
  | 110 => ⟨S32, .f32⟩
  | 111 => ⟨S1x32, .f32⟩
  | 112 => ⟨S100000x32, .f32⟩
  | 113 => ⟨S100000x32, .f32⟩
  | 114 => ⟨S1x32, .f32⟩
  | 115 => ⟨S32, .f32⟩
  | 116 => ⟨S1x32, .f32⟩
  | 117 => ⟨S100000x32, .f32⟩
  | 118 => ⟨S100000x32, .f32⟩
  | 119 => ⟨S1x32, .f32⟩
  | 120 => ⟨S32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S100000x32, .f32⟩
  | _ => ⟨S100000x384, .f32⟩

abbrev hbmTy0_1 (i : Nat) : BufTy := match i % 128 with
  | 0 => ⟨S3300000x1, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x32, .f32⟩
  | 10 => ⟨S3300000x32, .f32⟩
  | 11 => ⟨S3300000x32, .f32⟩
  | 12 => ⟨S_, .f32⟩
  | 13 => ⟨S100000x32, .f32⟩
  | 14 => ⟨S3300000x1, .i32⟩
  | 15 => ⟨S100000x32, .f32⟩
  | 16 => ⟨S100000x32, .f32⟩
  | 17 => ⟨S100000x32, .f32⟩
  | 18 => ⟨S1x32, .f32⟩
  | 19 => ⟨S32, .f32⟩
  | 20 => ⟨S1x32, .f32⟩
  | 21 => ⟨S100000x32, .f32⟩
  | 22 => ⟨S100000x32, .f32⟩
  | 23 => ⟨S_, .f32⟩
  | 24 => ⟨S32, .f32⟩
  | 25 => ⟨S_, .f32⟩
  | 26 => ⟨S32, .f32⟩
  | 27 => ⟨S32, .f32⟩
  | 28 => ⟨S_, .i32⟩
  | 29 => ⟨S_, .f32⟩
  | 30 => ⟨S32, .f32⟩
  | 31 => ⟨S1x32, .f32⟩
  | 32 => ⟨S_, .f32⟩
  | 33 => ⟨S1x32, .f32⟩
  | 34 => ⟨S1x32, .f32⟩
  | 35 => ⟨S100000x32, .f32⟩
  | 36 => ⟨S100000x32, .f32⟩
  | 37 => ⟨S100000x32, .f32⟩
  | 38 => ⟨S_, .f32⟩
  | 39 => ⟨S_, .f32⟩
  | 40 => ⟨S_, .f32⟩
  | 41 => ⟨S_, .f32⟩
  | 42 => ⟨S32, .f32⟩
  | 43 => ⟨S32, .f32⟩
  | 44 => ⟨S32, .f32⟩
  | 45 => ⟨S_, .f32⟩
  | 46 => ⟨S_, .i1⟩
  | 47 => ⟨S_, .f32⟩
  | 48 => ⟨S_, .f32⟩
  | 49 => ⟨S32, .f32⟩
  | 50 => ⟨S32, .f32⟩
  | 51 => ⟨S1x32, .f32⟩
  | 52 => ⟨S100000x32, .f32⟩
  | 53 => ⟨S100000x32, .f32⟩
  | 54 => ⟨S_, .f32⟩
  | 55 => ⟨S32, .f32⟩
  | 56 => ⟨S32, .f32⟩
  | 57 => ⟨S32, .f32⟩
  | 58 => ⟨S1x32, .f32⟩
  | 59 => ⟨S100000x32, .f32⟩
  | 60 => ⟨S100000x32, .f32⟩
  | 61 => ⟨S1x32, .f32⟩
  | 62 => ⟨S32, .f32⟩
  | 63 => ⟨S1x32, .f32⟩
  | 64 => ⟨S100000x32, .f32⟩
  | 65 => ⟨S100000x32, .f32⟩
  | 66 => ⟨S1x32, .f32⟩
  | 67 => ⟨S32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x32, .f32⟩
  | 75 => ⟨S3300000x1, .f32⟩
  | 76 => ⟨S_, .i32⟩
  | 77 => ⟨S3300000, .i32⟩
  | 78 => ⟨S3300000, .i1⟩
  | 79 => ⟨S_, .i32⟩
  | 80 => ⟨S3300000, .i32⟩
  | 81 => ⟨S3300000, .i32⟩
  | 82 => ⟨S3300000, .i32⟩
  | 83 => ⟨S3300000x1, .i32⟩
  | 84 => ⟨S3300000x32, .f32⟩
  | 85 => ⟨S3300000x32, .f32⟩
  | 86 => ⟨S3300000x32, .f32⟩
  | 87 => ⟨S_, .f32⟩
  | 88 => ⟨S100000x32, .f32⟩
  | 89 => ⟨S3300000x1, .i32⟩
  | 90 => ⟨S100000x32, .f32⟩
  | 91 => ⟨S100000x32, .f32⟩
  | 92 => ⟨S100000x32, .f32⟩
  | 93 => ⟨S1x32, .f32⟩
  | 94 => ⟨S32, .f32⟩
  | 95 => ⟨S1x32, .f32⟩
  | 96 => ⟨S100000x32, .f32⟩
  | 97 => ⟨S100000x32, .f32⟩
  | 98 => ⟨S_, .f32⟩
  | 99 => ⟨S32, .f32⟩
  | 100 => ⟨S_, .f32⟩
  | 101 => ⟨S32, .f32⟩
  | 102 => ⟨S32, .f32⟩
  | 103 => ⟨S_, .i32⟩
  | 104 => ⟨S_, .f32⟩
  | 105 => ⟨S32, .f32⟩
  | 106 => ⟨S1x32, .f32⟩
  | 107 => ⟨S_, .f32⟩
  | 108 => ⟨S1x32, .f32⟩
  | 109 => ⟨S1x32, .f32⟩
  | 110 => ⟨S100000x32, .f32⟩
  | 111 => ⟨S100000x32, .f32⟩
  | 112 => ⟨S100000x32, .f32⟩
  | 113 => ⟨S_, .f32⟩
  | 114 => ⟨S_, .f32⟩
  | 115 => ⟨S_, .f32⟩
  | 116 => ⟨S_, .f32⟩
  | 117 => ⟨S32, .f32⟩
  | 118 => ⟨S32, .f32⟩
  | 119 => ⟨S32, .f32⟩
  | 120 => ⟨S_, .f32⟩
  | 121 => ⟨S_, .i1⟩
  | 122 => ⟨S_, .f32⟩
  | 123 => ⟨S_, .f32⟩
  | 124 => ⟨S32, .f32⟩
  | 125 => ⟨S32, .f32⟩
  | 126 => ⟨S1x32, .f32⟩
  | 127 => ⟨S100000x32, .f32⟩
  | _ => ⟨S100000x384, .f32⟩

abbrev hbmTy0_2 (i : Nat) : BufTy := match i % 128 with
  | 0 => ⟨S100000x32, .f32⟩
  | 1 => ⟨S_, .f32⟩
  | 2 => ⟨S32, .f32⟩
  | 3 => ⟨S32, .f32⟩
  | 4 => ⟨S32, .f32⟩
  | 5 => ⟨S1x32, .f32⟩
  | 6 => ⟨S100000x32, .f32⟩
  | 7 => ⟨S100000x32, .f32⟩
  | 8 => ⟨S1x32, .f32⟩
  | 9 => ⟨S32, .f32⟩
  | 10 => ⟨S1x32, .f32⟩
  | 11 => ⟨S100000x32, .f32⟩
  | 12 => ⟨S100000x32, .f32⟩
  | 13 => ⟨S1x32, .f32⟩
  | 14 => ⟨S32, .f32⟩
  | 15 => ⟨S1x32, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S_, .f32⟩
  | 22 => ⟨S100x32, .f32⟩
  | 23 => ⟨S100000x1, .i32⟩
  | 24 => ⟨S100x32, .f32⟩
  | 25 => ⟨S_, .f32⟩
  | 26 => ⟨S100000, .f32⟩
  | 27 => ⟨S_, .f32⟩
  | 28 => ⟨S100, .f32⟩
  | 29 => ⟨S100000x1, .i32⟩
  | 30 => ⟨S100, .f32⟩
  | 31 => ⟨S_, .f32⟩
  | 32 => ⟨S_, .f32⟩
  | 33 => ⟨S100, .f32⟩
  | 34 => ⟨S100, .f32⟩
  | 35 => ⟨S100x1, .f32⟩
  | 36 => ⟨S100x32, .f32⟩
  | 37 => ⟨S100x32, .f32⟩
  | 38 => ⟨S100x2, .f32⟩
  | 39 => ⟨S1x2, .f32⟩
  | 40 => ⟨S100x2, .f32⟩
  | 41 => ⟨S100x2, .f32⟩
  | _ => ⟨S100000x384, .f32⟩

abbrev hbmTy (i : Nat) : BufTy := match i / 128 with
  | 0 => hbmTy0_0 i
  | 1 => hbmTy0_1 i
  | 2 => hbmTy0_2 i
  | _ => ⟨S100000x384, .f32⟩

abbrev bufTy : (tb : Table) → Fin (tcTables nBuf tb) → BufTy
  | .hbm, ⟨i, _⟩ => hbmTy i
  | _, _ => ⟨S100000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_cst_3 : Ref sig .tc := ⟨.hbm, 98, rfl⟩
abbrev main_call0_v12 : Ref sig .tc := ⟨.hbm, 99, rfl⟩
abbrev main_call0_cst_4 : Ref sig .tc := ⟨.hbm, 100, rfl⟩
abbrev main_call0_call0_v0 : Ref sig .tc := ⟨.hbm, 101, rfl⟩
abbrev main_call0_call0_v1 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_11 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_call1_cst : Ref sig .tc := ⟨.hbm, 124, rfl⟩
abbrev main_call1_v0 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_12 : Ref sig .tc := ⟨.hbm, 129, rfl⟩
abbrev main_v81 : Ref sig .tc := ⟨.hbm, 130, rfl⟩
abbrev main_v82 : Ref sig .tc := ⟨.hbm, 131, rfl⟩
abbrev main_c_13 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_14 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_15 : Ref sig .tc := ⟨.hbm, 151, rfl⟩
abbrev main_v100 : Ref sig .tc := ⟨.hbm, 152, rfl⟩
abbrev main_cst_16 : Ref sig .tc := ⟨.hbm, 153, rfl⟩
abbrev main_v101 : Ref sig .tc := ⟨.hbm, 154, rfl⟩
abbrev main_v102 : Ref sig .tc := ⟨.hbm, 155, rfl⟩
abbrev main_c_17 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_cst_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_cst_1 : Ref sig .tc := ⟨.hbm, 167, rfl⟩
abbrev main_call2_v8 : Ref sig .tc := ⟨.hbm, 168, rfl⟩
abbrev main_call2_cst_2 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_cst_3 : Ref sig .tc := ⟨.hbm, 173, rfl⟩
abbrev main_call2_v12 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_18 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_call3_cst : Ref sig .tc := ⟨.hbm, 199, rfl⟩
abbrev main_call3_v0 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_c_19 : Ref sig .tc := ⟨.hbm, 204, rfl⟩
abbrev main_v126 : Ref sig .tc := ⟨.hbm, 205, rfl⟩
abbrev main_v127 : Ref sig .tc := ⟨.hbm, 206, rfl⟩
abbrev main_c_20 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_cst_21 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_cst_22 : Ref sig .tc := ⟨.hbm, 226, rfl⟩
abbrev main_v145 : Ref sig .tc := ⟨.hbm, 227, rfl⟩
abbrev main_cst_23 : Ref sig .tc := ⟨.hbm, 228, rfl⟩
abbrev main_v146 : Ref sig .tc := ⟨.hbm, 229, rfl⟩
abbrev main_v147 : Ref sig .tc := ⟨.hbm, 230, rfl⟩
abbrev main_c_24 : Ref sig .tc := ⟨.hbm, 231, rfl⟩
abbrev main_call4_cst : Ref sig .tc := ⟨.hbm, 232, rfl⟩
abbrev main_call4_v0 : Ref sig .tc := ⟨.hbm, 233, rfl⟩
abbrev main_call4_v1 : Ref sig .tc := ⟨.hbm, 234, rfl⟩
abbrev main_call4_cst_0 : Ref sig .tc := ⟨.hbm, 235, rfl⟩
abbrev main_call4_v2 : Ref sig .tc := ⟨.hbm, 236, rfl⟩
abbrev main_call4_v3 : Ref sig .tc := ⟨.hbm, 237, rfl⟩
abbrev main_call4_v4 : Ref sig .tc := ⟨.hbm, 238, rfl⟩
abbrev main_call4_v5 : Ref sig .tc := ⟨.hbm, 239, rfl⟩
abbrev main_call4_v6 : Ref sig .tc := ⟨.hbm, 240, rfl⟩
abbrev main_call4_v7 : Ref sig .tc := ⟨.hbm, 241, rfl⟩
abbrev main_call4_cst_1 : Ref sig .tc := ⟨.hbm, 242, rfl⟩
abbrev main_call4_v8 : Ref sig .tc := ⟨.hbm, 243, rfl⟩
abbrev main_call4_cst_2 : Ref sig .tc := ⟨.hbm, 244, rfl⟩
abbrev main_call4_v9 : Ref sig .tc := ⟨.hbm, 245, rfl⟩
abbrev main_call4_v10 : Ref sig .tc := ⟨.hbm, 246, rfl⟩
abbrev main_call4_v11 : Ref sig .tc := ⟨.hbm, 247, rfl⟩
abbrev main_call4_cst_3 : Ref sig .tc := ⟨.hbm, 248, rfl⟩
abbrev main_call4_v12 : Ref sig .tc := ⟨.hbm, 249, rfl⟩
abbrev main_call4_cst_4 : Ref sig .tc := ⟨.hbm, 250, rfl⟩
abbrev main_call4_call0_v0 : Ref sig .tc := ⟨.hbm, 251, rfl⟩
abbrev main_call4_call0_v1 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_25 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_call5_cst : Ref sig .tc := ⟨.hbm, 274, rfl⟩
abbrev main_call5_v0 : Ref sig .tc := ⟨.hbm, 275, rfl⟩
abbrev main_v168 : Ref sig .tc := ⟨.hbm, 276, rfl⟩
abbrev main_cst_26 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_cst_27 : Ref sig .tc := ⟨.hbm, 281, rfl⟩
abbrev main_v172 : Ref sig .tc := ⟨.hbm, 282, rfl⟩
abbrev main_cst_28 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_cst_29 : Ref sig .tc := ⟨.hbm, 287, rfl⟩
abbrev main_call6_v0 : Ref sig .tc := ⟨.hbm, 288, rfl⟩
abbrev main_call6_v1 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  slices_S2x32x32_S1x32x32_0_0_0 : S2x32x32.Slices ![0, 0, 0] S1x32x32
  shapeCasts_S1x32x32_S32x32 : S1x32x32.ShapeCasts S32x32
  slices_S2x32x32_S1x32x32_1_0_0 : S2x32x32.Slices ![1, 0, 0] S1x32x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S3x32_S1x32_1_0 : S3x32.Slices ![1, 0] S1x32
  slices_S3x32_S1x32_2_0 : S3x32.Slices ![2, 0] S1x32
  bcast_S_S100x32 : S_.BroadcastsInDim S100x32 (![] : Fin 0 → Fin S100x32.rank)
  bcast_S_S100 : S_.BroadcastsInDim S100 (![] : Fin 0 → Fin S100.rank)
  bcast_S100_S100x1_0 : S100.BroadcastsInDim S100x1 (![0] : Fin 1 → Fin S100x1.rank)
  bcast_S100x1_S100x32_0_1 : S100x1.BroadcastsInDim S100x32 (![0, 1] : Fin 2 → Fin S100x32.rank)
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x384_S384x32_S100000x32_1_0_0_1_n_n_wf : DotDims.WF S100000x384 S384x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  scatter_S100x32_S100000x1_S100000x32_1_0_0_1_wf : ScatterDims.WF S100x32 S100000x1 S100000x32 [1] [0] [0] 1
  scatter_S100_S100000x1_S100000_n_0_0_1_wf : ScatterDims.WF S100 S100000x1 S100000 [] [0] [0] 1
  dot_S100x32_S32x2_S100x2_1_0_0_1_n_n_wf : DotDims.WF S100x32 S32x2 S100x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x384_S384x32_S100000x32_1_0_0_1_n_n : DotDims S100000x384 S384x32 S100000x32 where
  lhsContracting := [1]
  rhsContracting := [0]
  lhsNonContracting := [0]
  rhsNonContracting := [1]
  lhsBatch := []
  rhsBatch := []
  wf := dot_S100000x384_S384x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100x32_S100000x1_S100000x32_1_0_0_1 : ScatterDims S100x32 S100000x1 S100000x32 where
  updateWindowDims := [1]
  insertedWindowDims := [0]
  scatterDimsToOperandDims := [0]
  indexVectorDim := 1
  wf := scatter_S100x32_S100000x1_S100000x32_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S100x32_S32x2_S100x2_1_0_0_1_n_n : DotDims S100x32 S32x2 S100x2 where
  lhsContracting := [1]
  rhsContracting := [0]
  lhsNonContracting := [0]
  rhsNonContracting := [1]
  lhsBatch := []
  rhsBatch := []
  wf := dot_S100x32_S32x2_S100x2_1_0_0_1_n_n_wf

class Facts : Prop extends Facts₀ where

variable [Facts]
-- ==== Proof.K.Algebra.lean ====
/-
  The resources that ride beside the buffers through every item of the program: the core's generator register at some state and
  the core owing nothing. The launch makes them on every core at once, and at the end they still say that nothing is owed.
-/
import proofs.«177080_j35828617183700_2_alg».proof.Proof.K.RunCond
import Idealize.ShloMosaic.Lib.Pipeline.Kit
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-- What rides beside the buffers: the generator register at some state, and nothing owed. -/
abbrev Rst (c : Dev nD) : sProp 𝕄 :=
  iprop((∃ r, prngReg c r) ∗ ∃ W, owes (c : Thread nD τ) (0 : CellTallies nD τ sig Unit) W)

/-- The same on every item boundary. -/
abbrev Est : Fin 11 → Dev nD → sProp 𝕄 := fun _ c => Rst (F := F) c

theorem launch_algebra :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Est (F := F) 0) : sProp 𝕄) := by
  have hc : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ Est (F := F) 0 c := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Est (F := F) 0) : sProp 𝕄) :=
    bigSep_mono fun c _ => hc c
  iintro ⟨H, -⟩
  imodintro
  iapply hm; iexact H

theorem rest_owes_nothing (c : Dev nD) :
    Est (F := F) 10 c ⊢ (iprop(∃ W, owes (c : Thread nD τ) (0 : CellTallies nD τ sig Unit) W) : sProp 𝕄) := by
  iintro ⟨-, H⟩; iexact H

end Cert.Kernel.Hand

end
-- ==== Proof.K.Reg0.lean ====
/- Region 0 of @main, the first linear layer (custom call 0): a 20-point grid; at each point the body multiplies a
   5000x384 block of the node features by the whole 384x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import proofs.«177080_j35828617183700_2_alg».proof.Proof.Gen.Kernel.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point: it is fetched at every point, and the body leaves it
    in place. For any proof data with the entry array and that keeps the block. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's buffer holds the weight at every point: fetched at the first point only, its block index never
    moves, so a point that does not fetch finds the previous point's block, which is its own. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev allX0 : Rect S5000x384 := Rect.unit (s := S5000x384) ![0, 0] S5000x384.size inb_S5000x384_S5000x384_0_0
abbrev allW0 : Rect S384x32 := Rect.unit (s := S384x32) ![0, 0] S384x32.size inb_S384x32_S384x32_0_0
abbrev allY0 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod0 (x : Vec F S5000x384 .f32) (wt : Vec F S384x32 .f32) : Vec F S5000x32 .f32 :=
  View.canon [⟨allY0, k0_pay1 (View.ld x allX0) (View.ld wt allW0)⟩]

/-- The one store covers the buffer. -/
theorem cover0 (p : Vec F S5000x32 .f32) (y : S5000x32.Idx) :
    ∃ pc ∈ ([⟨allY0, p⟩] : List (View.Piece (Elt F) S5000x32 .f32)), y ∈ pc.1.set :=
  View.cover_of_tiled [⟨allY0, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple0 (c : Dev nD) (E : Set ℕ) (i : grid0.Coords)
    (a1 : Memref sig .tc .vmem S5000x384 .f32) (h1 : a1.IsWhole) (a2 : Memref sig .tc .vmem S384x32 .f32) (h2 : a2.IsWhole)
    (a3 : Memref sig .tc .vmem S5000x32 .f32) (h3 : a3.IsWhole)
    (x : Vec F S5000x384 .f32) (wt : Vec F S384x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod0 x wt)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The proof data -/

/-- The proof data of the region on core c: the arrays at the entry contents; after the body at point t each input's
    buffer at its block and the output's at the product of the two blocks; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

/-- Each input's current buffer holds its block at every point. -/
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

/-- What the body is called with at point t: the invariant, the core's debt, each window's current buffer at what the
    pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the debt
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant against the thread state around the region -/

/-- The invariant at the first point, from the generator register and the scoped buffers no window stages (the region
    has no prefetched table). -/
theorem hin0 (c : Dev nD) :
    iprop((∃ r, prngReg c r) ∗ Pipeline.prefHeld (pcfgs (F := F) 0).pre c (fun _ => fullShare) (adm (F := F) 0).1 ∗ Pipeline.scopedRest spec0 c)
      ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives them back; the kernel has no semaphore of its own. -/
theorem hout0 (c : Dev nD) :
    (dat0 V c).Φ (Fin.last _) ⊢ iprop((∃ r, prngReg c r) ∗ Pipeline.ownSems0 (fun k : PEmpty => k.elim) c ∗ Pipeline.scopedRest spec0 c) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.Kernel.Hand

end
-- ==== Proof.K.Reg1.lean ====
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the region finds in every buffer of the core when it is entered
variable (V : (c : Dev nD) → (b : Ref sig .tc) → Buf (Elt F) ((c : Thread nD τ).loc b))

/-! # Region 1: column sums and sums of squares over the 20 row blocks, mean and variance at the last block -/

/-! ## The input block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: every access is of a whole buffer -/

/-- The whole 1x32 row. -/
abbrev rS1 : Rect S1x32 := Rect.unit (s := S1x32) ![0, 0] S1x32.size inb_S1x32_S1x32_0_0
/-- The whole 5000x32 block. -/
abbrev rX1 : Rect S5000x32 := Rect.unit (s := S5000x32) ![0, 0] S5000x32.size inb_S5000x32_S5000x32_0_0

/-- One store of the whole row covers it. -/
theorem coverS1 (p0 : Vec F S1x32 .f32) (y : S1x32.Idx) :
    ∃ pc ∈ ([⟨rS1, p0⟩] : List (View.Piece (Elt F) S1x32 .f32)), y ∈ pc.1.set :=
  View.cover_of_tiled [⟨rS1, p0⟩] S1x32.size (by rfl) y

/-- So does a list whose last store is of the whole row. -/
theorem coverS1_cons (p0 : Vec F S1x32 .f32) (L : List (View.Piece (Elt F) S1x32 .f32)) (y : S1x32.Idx) :
    ∃ pc ∈ ((⟨rS1, p0⟩ : View.Piece (Elt F) S1x32 .f32) :: L), y ∈ pc.1.set := by
  obtain ⟨pc, hm, hy⟩ := coverS1 p0 y
  rw [List.mem_singleton] at hm; subst hm
  exact ⟨_, List.mem_cons_self, hy⟩

/-- A store of the whole row hides every earlier store. -/
theorem canon_row1_cons (p0 : Vec F S1x32 .f32) (L : List (View.Piece (Elt F) S1x32 .f32)) :
    View.canon ((⟨rS1, p0⟩ : View.Piece (Elt F) S1x32 .f32) :: L) = View.canon [⟨rS1, p0⟩] := by
  funext y
  obtain ⟨pc, hm, hy⟩ := coverS1 p0 y
  rw [List.mem_singleton] at hm; subst hm
  obtain ⟨x, rfl⟩ := (rS1).exists_idx_of_mem hy
  exact (View.canon_cons_emb _ p0 L x).trans (View.canon_cons_emb _ p0 [] x).symm

/-- A load of the whole row after a store of the whole row reads the stored value. -/
theorem ld_canon_row1 (p0 : Vec F S1x32 .f32) :
    View.ld (View.canon [(⟨rS1, p0⟩ : View.Piece (Elt F) S1x32 .f32)]) rS1 = p0 :=
  funext fun j => View.canon_cons_emb rS1 p0 [] j

/-! ## The body's two conditions, in closed form over the grid -/

/-- The condition of the first `scf.if` (the grid's first point: the accumulators are zeroed). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The condition of the second `scf.if` (the grid's last point: mean and variance are stored). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-- The input window is never idle. -/
theorem liveAt1_0 : ∀ t : Fin cfg1.N, cfg1.idle 0 (grid1.coords t) = false := by decide +kernel
/-- The two output windows are idle at every point but the last, and not written back there; live at the last. -/
theorem idleAt1_1 : ∀ t : Fin cfg1.N, ¬t.val % 20 = 19 → cfg1.idle 1 (grid1.coords t) = true := by decide +kernel
theorem idleAt1_2 : ∀ t : Fin cfg1.N, ¬t.val % 20 = 19 → cfg1.idle 2 (grid1.coords t) = true := by decide +kernel
theorem liveAt1_1 : ∀ t : Fin cfg1.N, t.val % 20 = 19 → cfg1.idle 1 (grid1.coords t) = false := by decide +kernel
theorem liveAt1_2 : ∀ t : Fin cfg1.N, t.val % 20 = 19 → cfg1.idle 2 (grid1.coords t) = false := by decide +kernel
theorem noFlush1_1 (t : Fin cfg1.N) (h : ¬t.val % 20 = 19) : (cfg1.win 1).flush t = false :=
  Bool.eq_false_iff.mpr fun hf => h ((flush1_1 t).mp hf)
theorem noFlush1_2 (t : Fin cfg1.N) (h : ¬t.val % 20 = 19) : (cfg1.win 2).flush t = false :=
  Bool.eq_false_iff.mpr fun hf => h ((flush1_2 t).mp hf)

/-! ## The body's triple, case by case -/

set_option maxHeartbeats 1000000 in
/-- A MIDDLE point (neither condition): the two accumulator rows, at `s0` and `s1`, each get the block's column
    reduction added; the output rows are handed back untouched. -/
theorem run1_B (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : ¬cond1_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) (View.ld s0 rS1)⟩])
            ∗ owns (c : Thread nD τ) arg5 fullShare (View.canon [⟨rS1, k1_pay5 (View.ld x0 rX1) (View.ld s1 rS1)⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS1 _)
  iexists _; isplitr
  swap; · iexact H4
  ipureintro
  exact View.read_writes_eq_canon _ _ _ (coverS1 _)

/-- The same with the accumulator rows given by the values last stored into them. -/
theorem run1_B' (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : ¬cond1_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS1, a⟩]) ∗ owns (c : Thread nD τ) arg5 fullShare (View.canon [⟨rS1, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) a⟩])
            ∗ owns (c : Thread nD τ) arg5 fullShare (View.canon [⟨rS1, k1_pay5 (View.ld x0 rX1) b⟩])) -∗ K ⟨⟩))
      ⊢ wp frame (wpE (defs₀ (F := F)) Variants.none c none) E (cc1__bn_stats_kernel i arg1 harg1 arg2 harg2 arg3 harg3 arg4 harg4 arg5 harg5) K := by
  have h := run1_B c E i arg1 harg1 arg2 harg2 arg3 harg3 arg4 harg4 arg5 harg5 hc0 hc1 x0 y1 y2 (View.canon [⟨rS1, a⟩]) (View.canon [⟨rS1, b⟩]) K
  rw [ld_canon_row1, ld_canon_row1] at h
  exact h

set_option maxHeartbeats 1000000 in
/-- The FIRST point (first condition only): the accumulator rows, at anything, are zeroed and then get the block's
    column reduction added; the output rows are handed back untouched. -/
theorem run1_A (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond1_0 i) (hc1 : ¬cond1_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) k1_pay1⟩])
            ∗ owns (c : Thread nD τ) arg5 fullShare (View.canon [⟨rS1, k1_pay5 (View.ld x0 rX1) k1_pay2⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS1_cons _ _), canon_row1_cons]
    unfold run1_A.sl.v5 run1_A.sl.H3_1
    rw [View.readCov_cons_toLoadRect]
    rfl
  iexists _; isplitr
  swap; · iexact H4
  ipureintro
  rw [View.read_writes_eq_canon _ _ _ (coverS1_cons _ _), canon_row1_cons]
  unfold run1_A.sl.v12 run1_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run1_C (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : cond1_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS1, a⟩]) ∗ owns (c : Thread nD τ) arg5 fullShare (View.canon [⟨rS1, b⟩])
        ∗ (iprop(owns (c : Thread nD τ) arg1 fullShare x0
            ∗ owns (c : Thread nD τ) arg2 fullShare (View.canon [⟨rS1, k1_pay6 (k1_pay4 (View.ld x0 rX1) a)⟩])
            ∗ owns (c : Thread nD τ) arg3 fullShare (View.canon [⟨rS1, k1_pay7 (k1_pay4 (View.ld x0 rX1) a) (k1_pay5 (View.ld x0 rX1) b)⟩])
            ∗ owns (c : Thread nD τ) arg4 fullShare (View.canon [⟨rS1, k1_pay4 (View.ld x0 rX1) a⟩])
            ∗ owns (c : Thread nD τ) arg5 fullShare (View.canon [⟨rS1, k1_pay5 (View.ld x0 rX1) b⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS1).toLoadRect f3 = a := by
    rw [View.readAt_eq_ld, hf3, ld_canon_row1]
  have e4 : View.readAt (Elt F) arg5.view (rS1).toLoadRect f4 = b := by
    rw [View.readAt_eq_ld, hf4, ld_canon_row1]
  iapply Hk
  isplitl [H0]
  · iexists f0; isplitr; · ipureintro; rfl
    iexact H0
  isplitl [H1]
  · iexists _; isplitr
    swap; · iexact H1
    ipureintro
    rw [View.read_writes_eq_canon _ _ _ (coverS1 _)]
    unfold run1_C.sl.v23 run1_C.sl.H3_1
    rw [View.readCov_cons_toLoadRect, e3]
    rfl
  isplitl [H2]
  · iexists _; isplitr
    swap; · iexact H2
    ipureintro
    rw [View.read_writes_eq_canon _ _ _ (coverS1 _)]
    unfold run1_C.sl.v23 run1_C.sl.H3_1 run1_C.sl.v26 run1_C.sl.H4_1
    rw [View.readCov_cons_toLoadRect, View.readCov_cons_toLoadRect, e3, e4]
    rfl
  isplitl [H3]
  · iexists _; isplitr
    swap; · iexact H3
    ipureintro
    unfold run1_C.sl.H3_1
    rw [View.read_writes_eq_canon _ _ _ (coverS1 _), e3]
    rfl
  iexists _; isplitr
  swap; · iexact H4
  ipureintro
  unfold run1_C.sl.H4_1
  rw [View.read_writes_eq_canon _ _ _ (coverS1 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt1 (c : Dev nD) : (n : ℕ) → n < cfg1.N → Vec F S1x32 .f32 × Vec F S1x32 .f32
  | 0, hn => (k1_pay4 (View.ld (iblk1 V c 0 ⟨0, hn⟩) rX1) k1_pay1, k1_pay5 (View.ld (iblk1 V c 0 ⟨0, hn⟩) rX1) k1_pay2)
  | n + 1, hn => (k1_pay4 (View.ld (iblk1 V c 0 ⟨n + 1, hn⟩) rX1) (accAt1 c n (Nat.lt_of_succ_lt hn)).1,
      k1_pay5 (View.ld (iblk1 V c 0 ⟨n + 1, hn⟩) rX1) (accAt1 c n (Nat.lt_of_succ_lt hn)).2)

/-- At the first point: the block's reductions added to the zero rows. -/
theorem accAt1_zero (c : Dev nD) (t : Fin cfg1.N) (h0 : t.val = 0) :
    accAt1 V c t.val t.isLt = (k1_pay4 (View.ld (iblk1 V c 0 t) rX1) k1_pay1, k1_pay5 (View.ld (iblk1 V c 0 t) rX1) k1_pay2) := by
  obtain ⟨n, hn⟩ := t
  cases n with
  | zero => rfl
  | succ n => exact absurd h0 (Nat.succ_ne_zero n)

/-- At a later point: the block's reductions added to what the point before left. -/
theorem accAt1_pos (c : Dev nD) (t : Fin cfg1.N) (h0 : t.val ≠ 0) :
    accAt1 V c t.val t.isLt = (k1_pay4 (View.ld (iblk1 V c 0 t) rX1) (accAt1 V c (t.val - 1) (Nat.lt_of_le_of_lt (Nat.sub_le _ _) t.isLt)).1,
      k1_pay5 (View.ld (iblk1 V c 0 t) rX1) (accAt1 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean1 (c : Dev nD) (n : ℕ) (hn : n < cfg1.N) : Vec F S1x32 .f32 :=
  View.canon [⟨rS1, k1_pay6 (accAt1 V c n hn).1⟩]
/-- The variance row from the accumulated column sums and sums of squares. -/
def var1 (c : Dev nD) (n : ℕ) (hn : n < cfg1.N) : Vec F S1x32 .f32 :=
  View.canon [⟨rS1, k1_pay7 (accAt1 V c n hn).1 (accAt1 V c n hn).2⟩]

/-! ## The invariant: the two accumulator rows at named contents -/

/-- The two scratch rows as memrefs. -/
abbrev scM1_0 : Memref sig .tc .vmem S1x32 .f32 := Memref.whole cc1_scratch0
abbrev scM1_1 : Memref sig .tc .vmem S1x32 .f32 := Memref.whole cc1_scratch1

/-- The class invariant with the two scratch rows split out of the scoped rest, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- The region invariant before position `n`: before the first point the class invariant (the scratch rows at
    anything); afterwards the scratch rows at the values the point before stored, the rest of the scoped buffers at
    anything and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (View.canon [⟨rS1, (accAt1 V c n hn).1⟩])
        ∗ owns (c : Thread nD τ) scM1_1 fullShare (View.canon [⟨rS1, (accAt1 V c n hn).2⟩]))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (View.canon [⟨rS1, (accAt1 V c n hn).1⟩])
        ∗ owns (c : Thread nD τ) scM1_1 fullShare (View.canon [⟨rS1, (accAt1 V c n hn).2⟩]))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (View.canon [⟨rS1, (accAt1 V c (n - 1) (by omega)).1⟩])
        ∗ owns (c : Thread nD τ) scM1_1 fullShare (View.canon [⟨rS1, (accAt1 V c (n - 1) (by omega)).2⟩]))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => mean1 V c t.val t.isLt
    | ⟨2, _⟩ => var1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = mean1 V c t.val t.isLt := by dsimp only [dat1]
theorem after1_2 (c : Dev nD) (t : Fin cfg1.N) : (dat1 V c).after 2 t = var1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- Each window's current staging memref at point `t`, spelled as the pipeline passes it. -/
abbrev ms1_0 (t : Fin cfg1.N) : Memref sig .tc .vmem S5000x32 .f32 := win1_0.stage (cfg1.slots t 0)
abbrev ms1_1 (t : Fin cfg1.N) : Memref sig .tc .vmem S1x32 .f32 := win1_1.stage (cfg1.slots t 1)
abbrev ms1_2 (t : Fin cfg1.N) : Memref sig .tc .vmem S1x32 .f32 := win1_2.stage (cfg1.slots t 2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h0 : t.val % 20 = 0
  · have h1 : ¬t.val % 20 = 19 := by omega
    have hz : t.val = 0 := by omega
    rw [Dat.leavesExact_idle (dat1 V c) 1 t (idleAt1_1 t h1) (noFlush1_1 t h1),
      Dat.leavesExact_idle (dat1 V c) 2 t (idleAt1_2 t h1) (noFlush1_2 t h1)]
    rw [accAt1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩⟩
    iapply (run1_A c Set.univ (grid1.coords t) _ _ _ _ _ _ _ _ _ _ ((hcond1_0 t).mpr h0) (fun h => h1 ((hcond1_1 t).mp h)) (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat1 V c).leavesExact 1 t = owns (c : Thread nD τ) (ms1_1 t) fullShare ((dat1 V c).after 1 t) from by
        unfold Dat.leavesExact; rw [liveAt1_1 t h1], after1_1]
      rw [show (dat1 V c).leavesExact 2 t = owns (c : Thread nD τ) (ms1_2 t) fullShare ((dat1 V c).after 2 t) from by
        unfold Dat.leavesExact; rw [liveAt1_2 t h1], after1_2]
      unfold mean1 var1
      rw [accAt1_pos V c t hz]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩⟩
      iapply (run1_C c Set.univ (grid1.coords t) _ _ _ _ _ _ _ _ _ _ (fun h => h0 ((hcond1_0 t).mp h)) ((hcond1_1 t).mpr h1) (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat1 V c) 1 t (idleAt1_1 t h1) (noFlush1_1 t h1),
        Dat.leavesExact_idle (dat1 V c) 2 t (idleAt1_2 t h1) (noFlush1_2 t h1)]
      rw [accAt1_pos V c t hz]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩⟩
      iapply (run1_B' c Set.univ (grid1.coords t) _ _ _ _ _ _ _ _ _ _ (fun h => h0 ((hcond1_0 t).mp h)) (fun h => h1 ((hcond1_1 t).mp h)) (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the scoped buffers no window stages make the invariant before the first point
    (whatever rides between them is dropped). -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

/-- After any point but the first the invariant gives the class invariant back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout1 (c : Dev nD) :
    (dat1 V c).Φ (Fin.last cfg1.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec1 c) := by
  rw [Pipeline.ownSems0_none]
  refine (Phi_out1 V c _ (by rw [Fin.val_last]; have : cfg1.N = 20 := N_1; omega)).trans ?_
  unfold Pipeline.ΦA
  iintro ⟨Hr, Hp⟩
  isplitl [Hp]; · iexact Hp
  isplitr; · iempintro
  iexact Hr

end Region1

end Cert.Kernel.Hand
end
-- ==== Proof.K.Reg2.lean ====
/- Region 2 of @main: the batch-norm apply kernel (custom_call 2) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.Kernel.Launch
import proofs.«177080_j35828617183700_2_alg».proof.Proof.Gen.Kernel.Skeleton
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is the entry contents (`hA`) and whose body leaves the block in place (`hafter`): unfetched, the block index has not
    moved, so the block the buffer still holds is this point's. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

/-- The whole block of 5000 rows. -/
abbrev r2_blk : Rect S5000x32 := Rect.unit (s := S5000x32) ![0, 0] S5000x32.size inb_S5000x32_S5000x32_0_0
/-- The whole row. -/
abbrev r2_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out2_5 (x0 : Vec F S5000x32 .f32) (x1 x2 x3 x4 : Vec F S1x32 .f32) : Vec F S5000x32 .f32 :=
  View.canon [⟨r2_blk, k2_pay1 (View.ld x0 r2_blk) (View.ld x1 r2_row) (View.ld x2 r2_row) (View.ld x3 r2_row) (View.ld x4 r2_row)⟩]

/-- The one store is of the whole buffer, so it covers it. -/
theorem cover2_5 (p0 : Vec F S5000x32 .f32) (y : S5000x32.Idx) :
    ∃ pc ∈ ([⟨r2_blk, p0⟩] : List (View.Piece (Elt F) S5000x32 .f32)), y ∈ pc.1.set :=
  View.cover_of_tiled [⟨r2_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out2_5` of the inputs'. -/
theorem sound_kernel2 (c : Dev nD) (E : Set ℕ) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t` each
    input's buffer at its block and the output's at `out2_5` of the five input blocks; the invariant the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the output's holds anything, so the body's triple
    applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- The invariant at the first point, from the generator register and the scoped buffers no window stages (the
    pipeline has no prefetched table: that conjunct is dropped). -/
theorem hin2 (c : Dev nD) :
    iprop((∃ r, prngReg c r) ∗ Pipeline.prefHeld (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, -, Hr⟩
  isplitl [Hr]; · iexact Hr
  iexact Hp

/-- The invariant at the last point gives back the generator register and those scoped buffers; the kernel has no
    semaphore of its own. -/
theorem hout2 (c : Dev nD) :
    ((dat2 V c).Φ (Fin.last cfg2.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 V c).Φ (Fin.last cfg2.N) = Pipeline.ΦA spec2 c from rfl]; unfold Pipeline.ΦA
  iintro ⟨Hr, Hp⟩
  isplitl [Hp]; · iexact Hp
  isplitr; · iempintro
  iexact Hr

end Cert.Kernel.Hand

end
-- ==== Proof.K.Reg3.lean ====
/- Region 3 of @main, the second linear layer (custom call 3): a 20-point grid; at each point the body multiplies a
   5000x32 block of the preceding normalization's output by the whole 32x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import proofs.«177080_j35828617183700_2_alg».proof.Proof.Gen.Kernel.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's buffer holds its block at every point: it is fetched at every point, and the body leaves it
    in place. For any proof data with the entry array and that keeps the block. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weight window's buffer holds the weight at every point: fetched at the first point only, its block index never
    moves, so a point that does not fetch finds the previous point's block, which is its own. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: each buffer whole -/

abbrev allX3 : Rect S5000x32 := Rect.unit (s := S5000x32) ![0, 0] S5000x32.size inb_S5000x32_S5000x32_0_0
abbrev allW3 : Rect S32x32 := Rect.unit (s := S32x32) ![0, 0] S32x32.size inb_S32x32_S32x32_0_0
abbrev allY3 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod3 (x : Vec F S5000x32 .f32) (wt : Vec F S32x32 .f32) : Vec F S5000x32 .f32 :=
  View.canon [⟨allY3, k3_pay1 (View.ld x allX3) (View.ld wt allW3)⟩]

/-- The one store covers the buffer. -/
theorem cover3 (p : Vec F S5000x32 .f32) (y : S5000x32.Idx) :
    ∃ pc ∈ ([⟨allY3, p⟩] : List (View.Piece (Elt F) S5000x32 .f32)), y ∈ pc.1.set :=
  View.cover_of_tiled [⟨allY3, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple3 (c : Dev nD) (E : Set ℕ) (i : grid3.Coords)
    (a1 : Memref sig .tc .vmem S5000x32 .f32) (h1 : a1.IsWhole) (a2 : Memref sig .tc .vmem S32x32 .f32) (h2 : a2.IsWhole)
    (a3 : Memref sig .tc .vmem S5000x32 .f32) (h3 : a3.IsWhole)
    (x : Vec F S5000x32 .f32) (wt : Vec F S32x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod3 x wt)) -∗ K ⟨⟩))
      ⊢ wp frame (wpE (defs₀ (F := F)) Variants.none c none) E (cc3__linear_kernel i a1 h1 a2 h2 a3 h3) K := by
  simp only [cc3__linear_kernel_eq_skeleton]; unfold cc3__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the region on core c: the arrays at the entry contents; after the body at point t each input's
    buffer at its block and the output's at the product of the two blocks; the invariant the scoped buffers no window
    stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => prod3 (blk3 V c 0 t) (blk3 V c 1 t)
  Φ _ := Pipeline.ΦA spec3 c
  q _ := fullShare
  owed _ := 0

/-- The arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = prod3 (blk3 V c 0 t) (blk3 V c 1 t) := by dsimp only [dat3]

/-- Each input's current buffer holds its block at every point. -/
theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d

/-! ## The body obligation -/

/-- What the body is called with at point t: the invariant, the core's debt, each window's current buffer at what the
    pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and the debt
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (triple3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant against the thread state around the region -/

/-- The invariant at the first point, from the generator register and the scoped buffers no window stages (the region
    has no prefetched table). -/
theorem hin3 (c : Dev nD) :
    iprop((∃ r, prngReg c r) ∗ Pipeline.prefHeld (pcfgs (F := F) 3).pre c (fun _ => fullShare) (adm (F := F) 3).1 ∗ Pipeline.scopedRest spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- The invariant at the last point gives them back; the kernel has no semaphore of its own. -/
theorem hout3 (c : Dev nD) :
    (dat3 V c).Φ (Fin.last _) ⊢ iprop((∃ r, prngReg c r) ∗ Pipeline.ownSems0 (fun k : PEmpty => k.elim) c ∗ Pipeline.scopedRest spec3 c) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

end Cert.Kernel.Hand

end
-- ==== Proof.K.Reg4.lean ====
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- what the region finds in every buffer of the core when it is entered
variable (V : (c : Dev nD) → (b : Ref sig .tc) → Buf (Elt F) ((c : Thread nD τ).loc b))

/-! # Region 4: column sums and sums of squares over the 20 row blocks, mean and variance at the last block -/

/-! ## The input block -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's rectangles: every access is of a whole buffer -/

/-- The whole 1x32 row. -/
abbrev rS4 : Rect S1x32 := Rect.unit (s := S1x32) ![0, 0] S1x32.size inb_S1x32_S1x32_0_0
/-- The whole 5000x32 block. -/
abbrev rX4 : Rect S5000x32 := Rect.unit (s := S5000x32) ![0, 0] S5000x32.size inb_S5000x32_S5000x32_0_0

/-- One store of the whole row covers it. -/
theorem coverS4 (p0 : Vec F S1x32 .f32) (y : S1x32.Idx) :
    ∃ pc ∈ ([⟨rS4, p0⟩] : List (View.Piece (Elt F) S1x32 .f32)), y ∈ pc.1.set :=
  View.cover_of_tiled [⟨rS4, p0⟩] S1x32.size (by rfl) y

/-- So does a list whose last store is of the whole row. -/
theorem coverS4_cons (p0 : Vec F S1x32 .f32) (L : List (View.Piece (Elt F) S1x32 .f32)) (y : S1x32.Idx) :
    ∃ pc ∈ ((⟨rS4, p0⟩ : View.Piece (Elt F) S1x32 .f32) :: L), y ∈ pc.1.set := by
  obtain ⟨pc, hm, hy⟩ := coverS4 p0 y
  rw [List.mem_singleton] at hm; subst hm
  exact ⟨_, List.mem_cons_self, hy⟩

/-- A store of the whole row hides every earlier store. -/
theorem canon_row4_cons (p0 : Vec F S1x32 .f32) (L : List (View.Piece (Elt F) S1x32 .f32)) :
    View.canon ((⟨rS4, p0⟩ : View.Piece (Elt F) S1x32 .f32) :: L) = View.canon [⟨rS4, p0⟩] := by
  funext y
  obtain ⟨pc, hm, hy⟩ := coverS4 p0 y
  rw [List.mem_singleton] at hm; subst hm
  obtain ⟨x, rfl⟩ := (rS4).exists_idx_of_mem hy
  exact (View.canon_cons_emb _ p0 L x).trans (View.canon_cons_emb _ p0 [] x).symm

/-- A load of the whole row after a store of the whole row reads the stored value. -/
theorem ld_canon_row4 (p0 : Vec F S1x32 .f32) :
    View.ld (View.canon [(⟨rS4, p0⟩ : View.Piece (Elt F) S1x32 .f32)]) rS4 = p0 :=
  funext fun j => View.canon_cons_emb rS4 p0 [] j

/-! ## The body's two conditions, in closed form over the grid -/

/-- The condition of the first `scf.if` (the grid's first point: the accumulators are zeroed). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)
/-- The condition of the second `scf.if` (the grid's last point: mean and variance are stored). -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-- The input window is never idle. -/
theorem liveAt4_0 : ∀ t : Fin cfg4.N, cfg4.idle 0 (grid4.coords t) = false := by decide +kernel
/-- The two output windows are idle at every point but the last, and not written back there; live at the last. -/
theorem idleAt4_1 : ∀ t : Fin cfg4.N, ¬t.val % 20 = 19 → cfg4.idle 1 (grid4.coords t) = true := by decide +kernel
theorem idleAt4_2 : ∀ t : Fin cfg4.N, ¬t.val % 20 = 19 → cfg4.idle 2 (grid4.coords t) = true := by decide +kernel
theorem liveAt4_1 : ∀ t : Fin cfg4.N, t.val % 20 = 19 → cfg4.idle 1 (grid4.coords t) = false := by decide +kernel
theorem liveAt4_2 : ∀ t : Fin cfg4.N, t.val % 20 = 19 → cfg4.idle 2 (grid4.coords t) = false := by decide +kernel
theorem noFlush4_1 (t : Fin cfg4.N) (h : ¬t.val % 20 = 19) : (cfg4.win 1).flush t = false :=
  Bool.eq_false_iff.mpr fun hf => h ((flush4_1 t).mp hf)
theorem noFlush4_2 (t : Fin cfg4.N) (h : ¬t.val % 20 = 19) : (cfg4.win 2).flush t = false :=
  Bool.eq_false_iff.mpr fun hf => h ((flush4_2 t).mp hf)

/-! ## The body's triple, case by case -/

set_option maxHeartbeats 1000000 in
/-- A MIDDLE point (neither condition): the two accumulator rows, at `s0` and `s1`, each get the block's column
    reduction added; the output rows are handed back untouched. -/
theorem run4_B (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : ¬cond4_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) (View.ld s0 rS4)⟩])
            ∗ owns (c : Thread nD τ) arg5 fullShare (View.canon [⟨rS4, k4_pay5 (View.ld x0 rX4) (View.ld s1 rS4)⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS4 _)
  iexists _; isplitr
  swap; · iexact H4
  ipureintro
  exact View.read_writes_eq_canon _ _ _ (coverS4 _)

/-- The same with the accumulator rows given by the values last stored into them. -/
theorem run4_B' (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : ¬cond4_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS4, a⟩]) ∗ owns (c : Thread nD τ) arg5 fullShare (View.canon [⟨rS4, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) a⟩])
            ∗ owns (c : Thread nD τ) arg5 fullShare (View.canon [⟨rS4, k4_pay5 (View.ld x0 rX4) b⟩])) -∗ K ⟨⟩))
      ⊢ wp frame (wpE (defs₀ (F := F)) Variants.none c none) E (cc4__bn_stats_kernel i arg1 harg1 arg2 harg2 arg3 harg3 arg4 harg4 arg5 harg5) K := by
  have h := run4_B c E i arg1 harg1 arg2 harg2 arg3 harg3 arg4 harg4 arg5 harg5 hc0 hc1 x0 y1 y2 (View.canon [⟨rS4, a⟩]) (View.canon [⟨rS4, b⟩]) K
  rw [ld_canon_row4, ld_canon_row4] at h
  exact h

set_option maxHeartbeats 1000000 in
/-- The FIRST point (first condition only): the accumulator rows, at anything, are zeroed and then get the block's
    column reduction added; the output rows are handed back untouched. -/
theorem run4_A (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond4_0 i) (hc1 : ¬cond4_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) k4_pay1⟩])
            ∗ owns (c : Thread nD τ) arg5 fullShare (View.canon [⟨rS4, k4_pay5 (View.ld x0 rX4) k4_pay2⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS4_cons _ _), canon_row4_cons]
    unfold run4_A.sl.v5 run4_A.sl.H3_1
    rw [View.readCov_cons_toLoadRect]
    rfl
  iexists _; isplitr
  swap; · iexact H4
  ipureintro
  rw [View.read_writes_eq_canon _ _ _ (coverS4_cons _ _), canon_row4_cons]
  unfold run4_A.sl.v12 run4_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run4_C (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : cond4_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS4, a⟩]) ∗ owns (c : Thread nD τ) arg5 fullShare (View.canon [⟨rS4, b⟩])
        ∗ (iprop(owns (c : Thread nD τ) arg1 fullShare x0
            ∗ owns (c : Thread nD τ) arg2 fullShare (View.canon [⟨rS4, k4_pay6 (k4_pay4 (View.ld x0 rX4) a)⟩])
            ∗ owns (c : Thread nD τ) arg3 fullShare (View.canon [⟨rS4, k4_pay7 (k4_pay4 (View.ld x0 rX4) a) (k4_pay5 (View.ld x0 rX4) b)⟩])
            ∗ owns (c : Thread nD τ) arg4 fullShare (View.canon [⟨rS4, k4_pay4 (View.ld x0 rX4) a⟩])
            ∗ owns (c : Thread nD τ) arg5 fullShare (View.canon [⟨rS4, k4_pay5 (View.ld x0 rX4) b⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS4).toLoadRect f3 = a := by
    rw [View.readAt_eq_ld, hf3, ld_canon_row4]
  have e4 : View.readAt (Elt F) arg5.view (rS4).toLoadRect f4 = b := by
    rw [View.readAt_eq_ld, hf4, ld_canon_row4]
  iapply Hk
  isplitl [H0]
  · iexists f0; isplitr; · ipureintro; rfl
    iexact H0
  isplitl [H1]
  · iexists _; isplitr
    swap; · iexact H1
    ipureintro
    rw [View.read_writes_eq_canon _ _ _ (coverS4 _)]
    unfold run4_C.sl.v23 run4_C.sl.H3_1
    rw [View.readCov_cons_toLoadRect, e3]
    rfl
  isplitl [H2]
  · iexists _; isplitr
    swap; · iexact H2
    ipureintro
    rw [View.read_writes_eq_canon _ _ _ (coverS4 _)]
    unfold run4_C.sl.v23 run4_C.sl.H3_1 run4_C.sl.v26 run4_C.sl.H4_1
    rw [View.readCov_cons_toLoadRect, View.readCov_cons_toLoadRect, e3, e4]
    rfl
  isplitl [H3]
  · iexists _; isplitr
    swap; · iexact H3
    ipureintro
    unfold run4_C.sl.H3_1
    rw [View.read_writes_eq_canon _ _ _ (coverS4 _), e3]
    rfl
  iexists _; isplitr
  swap; · iexact H4
  ipureintro
  unfold run4_C.sl.H4_1
  rw [View.read_writes_eq_canon _ _ _ (coverS4 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt4 (c : Dev nD) : (n : ℕ) → n < cfg4.N → Vec F S1x32 .f32 × Vec F S1x32 .f32
  | 0, hn => (k4_pay4 (View.ld (iblk4 V c 0 ⟨0, hn⟩) rX4) k4_pay1, k4_pay5 (View.ld (iblk4 V c 0 ⟨0, hn⟩) rX4) k4_pay2)
  | n + 1, hn => (k4_pay4 (View.ld (iblk4 V c 0 ⟨n + 1, hn⟩) rX4) (accAt4 c n (Nat.lt_of_succ_lt hn)).1,
      k4_pay5 (View.ld (iblk4 V c 0 ⟨n + 1, hn⟩) rX4) (accAt4 c n (Nat.lt_of_succ_lt hn)).2)

/-- At the first point: the block's reductions added to the zero rows. -/
theorem accAt4_zero (c : Dev nD) (t : Fin cfg4.N) (h0 : t.val = 0) :
    accAt4 V c t.val t.isLt = (k4_pay4 (View.ld (iblk4 V c 0 t) rX4) k4_pay1, k4_pay5 (View.ld (iblk4 V c 0 t) rX4) k4_pay2) := by
  obtain ⟨n, hn⟩ := t
  cases n with
  | zero => rfl
  | succ n => exact absurd h0 (Nat.succ_ne_zero n)

/-- At a later point: the block's reductions added to what the point before left. -/
theorem accAt4_pos (c : Dev nD) (t : Fin cfg4.N) (h0 : t.val ≠ 0) :
    accAt4 V c t.val t.isLt = (k4_pay4 (View.ld (iblk4 V c 0 t) rX4) (accAt4 V c (t.val - 1) (Nat.lt_of_le_of_lt (Nat.sub_le _ _) t.isLt)).1,
      k4_pay5 (View.ld (iblk4 V c 0 t) rX4) (accAt4 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean4 (c : Dev nD) (n : ℕ) (hn : n < cfg4.N) : Vec F S1x32 .f32 :=
  View.canon [⟨rS4, k4_pay6 (accAt4 V c n hn).1⟩]
/-- The variance row from the accumulated column sums and sums of squares. -/
def var4 (c : Dev nD) (n : ℕ) (hn : n < cfg4.N) : Vec F S1x32 .f32 :=
  View.canon [⟨rS4, k4_pay7 (accAt4 V c n hn).1 (accAt4 V c n hn).2⟩]

/-! ## The invariant: the two accumulator rows at named contents -/

/-- The two scratch rows as memrefs. -/
abbrev scM4_0 : Memref sig .tc .vmem S1x32 .f32 := Memref.whole cc4_scratch0
abbrev scM4_1 : Memref sig .tc .vmem S1x32 .f32 := Memref.whole cc4_scratch1

/-- The class invariant with the two scratch rows split out of the scoped rest, each at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The region invariant before position `n`: before the first point the class invariant (the scratch rows at
    anything); afterwards the scratch rows at the values the point before stored, the rest of the scoped buffers at
    anything and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (View.canon [⟨rS4, (accAt4 V c n hn).1⟩])
        ∗ owns (c : Thread nD τ) scM4_1 fullShare (View.canon [⟨rS4, (accAt4 V c n hn).2⟩]))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (View.canon [⟨rS4, (accAt4 V c n hn).1⟩])
        ∗ owns (c : Thread nD τ) scM4_1 fullShare (View.canon [⟨rS4, (accAt4 V c n hn).2⟩]))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (View.canon [⟨rS4, (accAt4 V c (n - 1) (by omega)).1⟩])
        ∗ owns (c : Thread nD τ) scM4_1 fullShare (View.canon [⟨rS4, (accAt4 V c (n - 1) (by omega)).2⟩]))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => mean4 V c t.val t.isLt
    | ⟨2, _⟩ => var4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = mean4 V c t.val t.isLt := by dsimp only [dat4]
theorem after4_2 (c : Dev nD) (t : Fin cfg4.N) : (dat4 V c).after 2 t = var4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

/-- Each window's current staging memref at point `t`, spelled as the pipeline passes it. -/
abbrev ms4_0 (t : Fin cfg4.N) : Memref sig .tc .vmem S5000x32 .f32 := win4_0.stage (cfg4.slots t 0)
abbrev ms4_1 (t : Fin cfg4.N) : Memref sig .tc .vmem S1x32 .f32 := win4_1.stage (cfg4.slots t 1)
abbrev ms4_2 (t : Fin cfg4.N) : Memref sig .tc .vmem S1x32 .f32 := win4_2.stage (cfg4.slots t 2)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  by_cases h0 : t.val % 20 = 0
  · have h1 : ¬t.val % 20 = 19 := by omega
    have hz : t.val = 0 := by omega
    rw [Dat.leavesExact_idle (dat4 V c) 1 t (idleAt4_1 t h1) (noFlush4_1 t h1),
      Dat.leavesExact_idle (dat4 V c) 2 t (idleAt4_2 t h1) (noFlush4_2 t h1)]
    rw [accAt4_zero V c t hz]
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩⟩
    iapply (run4_A c Set.univ (grid4.coords t) _ _ _ _ _ _ _ _ _ _ ((hcond4_0 t).mpr h0) (fun h => h1 ((hcond4_1 t).mp h)) (iblk4 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat4 V c).leavesExact 1 t = owns (c : Thread nD τ) (ms4_1 t) fullShare ((dat4 V c).after 1 t) from by
        unfold Dat.leavesExact; rw [liveAt4_1 t h1], after4_1]
      rw [show (dat4 V c).leavesExact 2 t = owns (c : Thread nD τ) (ms4_2 t) fullShare ((dat4 V c).after 2 t) from by
        unfold Dat.leavesExact; rw [liveAt4_2 t h1], after4_2]
      unfold mean4 var4
      rw [accAt4_pos V c t hz]
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩⟩
      iapply (run4_C c Set.univ (grid4.coords t) _ _ _ _ _ _ _ _ _ _ (fun h => h0 ((hcond4_0 t).mp h)) ((hcond4_1 t).mpr h1) (iblk4 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat4 V c) 1 t (idleAt4_1 t h1) (noFlush4_1 t h1),
        Dat.leavesExact_idle (dat4 V c) 2 t (idleAt4_2 t h1) (noFlush4_2 t h1)]
      rw [accAt4_pos V c t hz]
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩⟩
      iapply (run4_B' c Set.univ (grid4.coords t) _ _ _ _ _ _ _ _ _ _ (fun h => h0 ((hcond4_0 t).mp h)) (fun h => h1 ((hcond4_1 t).mp h)) (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- The generator register and the scoped buffers no window stages make the invariant before the first point
    (whatever rides between them is dropped). -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After any point but the first the invariant gives the class invariant back: the rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout4 (c : Dev nD) :
    (dat4 V c).Φ (Fin.last cfg4.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec4 c) := by
  rw [Pipeline.ownSems0_none]
  refine (Phi_out4 V c _ (by rw [Fin.val_last]; have : cfg4.N = 20 := N_4; omega)).trans ?_
  unfold Pipeline.ΦA
  iintro ⟨Hr, Hp⟩
  isplitl [Hp]; · iexact Hp
  isplitr; · iempintro
  iexact Hr

end Region4

end Cert.Kernel.Hand
end
-- ==== Proof.K.Reg5.lean ====
/- Region 5 of @main: the batch-norm apply kernel (custom_call 5) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.Kernel.Launch
import proofs.«177080_j35828617183700_2_alg».proof.Proof.Gen.Kernel.Skeleton
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data whose
    array is the entry contents (`hA`) and whose body leaves the block in place (`hafter`): unfetched, the block index has not
    moved, so the block the buffer still holds is this point's. The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

/-- The whole block of 5000 rows. -/
abbrev r5_blk : Rect S5000x32 := Rect.unit (s := S5000x32) ![0, 0] S5000x32.size inb_S5000x32_S5000x32_0_0
/-- The whole row. -/
abbrev r5_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out5_5 (x0 : Vec F S5000x32 .f32) (x1 x2 x3 x4 : Vec F S1x32 .f32) : Vec F S5000x32 .f32 :=
  View.canon [⟨r5_blk, k5_pay1 (View.ld x0 r5_blk) (View.ld x1 r5_row) (View.ld x2 r5_row) (View.ld x3 r5_row) (View.ld x4 r5_row)⟩]

/-- The one store is of the whole buffer, so it covers it. -/
theorem cover5_5 (p0 : Vec F S5000x32 .f32) (y : S5000x32.Idx) :
    ∃ pc ∈ ([⟨r5_blk, p0⟩] : List (View.Piece (Elt F) S5000x32 .f32)), y ∈ pc.1.set :=
  View.cover_of_tiled [⟨r5_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out5_5` of the inputs'. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t` each
    input's buffer at its block and the output's at `out5_5` of the five input blocks; the invariant the scoped
    buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, the output's holds anything, so the body's triple
    applies; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends -/

/-- The invariant at the first point, from the generator register and the scoped buffers no window stages (the
    pipeline has no prefetched table: that conjunct is dropped). -/
theorem hin5 (c : Dev nD) :
    iprop((∃ r, prngReg c r) ∗ Pipeline.prefHeld (pcfgs (F := F) 5).pre c (fun _ => fullShare) ((cfgs 5).toPCfg_adm (Val := Elt F)).1
        ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, -, Hr⟩
  isplitl [Hr]; · iexact Hr
  iexact Hp

/-- The invariant at the last point gives back the generator register and those scoped buffers; the kernel has no
    semaphore of its own. -/
theorem hout5 (c : Dev nD) :
    ((dat5 V c).Φ (Fin.last cfg5.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none, show (dat5 V c).Φ (Fin.last cfg5.N) = Pipeline.ΦA spec5 c from rfl]; unfold Pipeline.ΦA
  iintro ⟨Hr, Hp⟩
  isplitl [Hp]; · iexact Hp
  isplitr; · iempintro
  iexact Hr

end Cert.Kernel.Hand

end
-- ==== Proof.K.Reg6.lean ====
/- Region 6 of @main, the third linear layer (custom call 6): a 20-point grid; at each point the body multiplies a
   5000x32 block of the preceding normalization's output by the whole 32x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import proofs.«177080_j35828617183700_2_alg».proof.Proof.Gen.Kernel.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The feature window's buffer holds its block at every point: it is fetched at every point, and the body leaves it
    in place. For any proof data with the entry array and that keeps the block. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weight window's buffer holds the weight at every point: fetched at the first point only, its block index never
    moves, so a point that does not fetch finds the previous point's block, which is its own. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-! ## The body's accesses: each buffer whole -/

abbrev allX6 : Rect S5000x32 := Rect.unit (s := S5000x32) ![0, 0] S5000x32.size inb_S5000x32_S5000x32_0_0
abbrev allW6 : Rect S32x32 := Rect.unit (s := S32x32) ![0, 0] S32x32.size inb_S32x32_S32x32_0_0
abbrev allY6 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod6 (x : Vec F S5000x32 .f32) (wt : Vec F S32x32 .f32) : Vec F S5000x32 .f32 :=
  View.canon [⟨allY6, k6_pay1 (View.ld x allX6) (View.ld wt allW6)⟩]

/-- The one store covers the buffer. -/
theorem cover6 (p : Vec F S5000x32 .f32) (y : S5000x32.Idx) :
    ∃ pc ∈ ([⟨allY6, p⟩] : List (View.Piece (Elt F) S5000x32 .f32)), y ∈ pc.1.set :=
  View.cover_of_tiled [⟨allY6, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple6 (c : Dev nD) (E : Set ℕ) (i : grid6.Coords)
    (a1 : Memref sig .tc .vmem S5000x32 .f32) (h1 : a1.IsWhole) (a2 : Memref sig .tc .vmem S32x32 .f32) (h2 : a2.IsWhole)
    (a3 : Memref sig .tc .vmem S5000x32 .f32) (h3 : a3.IsWhole)
    (x : Vec F S5000x32 .f32) (wt : Vec F S32x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod6 x wt)) -∗ K ⟨⟩))
      ⊢ wp frame (wpE (defs₀ (F := F)) Variants.none c none) E (cc6__linear_kernel i a1 h1 a2 h2 a3 h3) K := by
  simp only [cc6__linear_kernel_eq_skeleton]; unfold cc6__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-! ## The proof data -/

/-- The proof data of the region on core c: the arrays at the entry contents; after the body at point t each input's
    buffer at its block and the output's at the product of the two blocks; the invariant the scoped buffers no window
    stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => prod6 (blk6 V c 0 t) (blk6 V c 1 t)
  Φ _ := Pipeline.ΦA spec6 c
  q _ := fullShare
  owed _ := 0

/-- The arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = prod6 (blk6 V c 0 t) (blk6 V c 1 t) := by dsimp only [dat6]

/-- Each input's current buffer holds its block at every point. -/
theorem held6_0 (c : Dev nD) (t : Fin cfg6.N) (d) : (dat6 V c).before 0 t d = blk6 V c 0 t :=
  held6_0_of V (dat6 V c) (A_eq6 V c 0) (after6_0 V c) t d
theorem held6_1 (c : Dev nD) (t : Fin cfg6.N) (d) : (dat6 V c).before 1 t d = blk6 V c 1 t :=
  held6_1_of V (dat6 V c) (A_eq6 V c 1) (after6_1 V c) t d

/-! ## The body obligation -/

/-- What the body is called with at point t: the invariant, the core's debt, each window's current buffer at what the
    pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the triple applies; the invariant and the debt
    pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [held6_0, held6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (triple6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant against the thread state around the region -/

/-- The invariant at the first point, from the generator register and the scoped buffers no window stages (the region
    has no prefetched table). -/
theorem hin6 (c : Dev nD) :
    iprop((∃ r, prngReg c r) ∗ Pipeline.prefHeld (pcfgs (F := F) 6).pre c (fun _ => fullShare) (adm (F := F) 6).1 ∗ Pipeline.scopedRest spec6 c)
      ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

/-- The invariant at the last point gives them back; the kernel has no semaphore of its own. -/
theorem hout6 (c : Dev nD) :
    (dat6 V c).Φ (Fin.last _) ⊢ iprop((∃ r, prngReg c r) ∗ Pipeline.ownSems0 (fun k : PEmpty => k.elim) c ∗ Pipeline.scopedRest spec6 c) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end Cert.Kernel.Hand

end
-- ==== Proof.K.Reg7.lean ====
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- what the region finds in every buffer of the core when it is entered
variable (V : (c : Dev nD) → (b : Ref sig .tc) → Buf (Elt F) ((c : Thread nD τ).loc b))

/-! # Region 7: column sums and sums of squares over the 20 row blocks, mean and variance at the last block -/

/-! ## The input block -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is the
    entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's rectangles: every access is of a whole buffer -/

/-- The whole 1x32 row. -/
abbrev rS7 : Rect S1x32 := Rect.unit (s := S1x32) ![0, 0] S1x32.size inb_S1x32_S1x32_0_0
/-- The whole 5000x32 block. -/
abbrev rX7 : Rect S5000x32 := Rect.unit (s := S5000x32) ![0, 0] S5000x32.size inb_S5000x32_S5000x32_0_0

/-- One store of the whole row covers it. -/
theorem coverS7 (p0 : Vec F S1x32 .f32) (y : S1x32.Idx) :
    ∃ pc ∈ ([⟨rS7, p0⟩] : List (View.Piece (Elt F) S1x32 .f32)), y ∈ pc.1.set :=
  View.cover_of_tiled [⟨rS7, p0⟩] S1x32.size (by rfl) y

/-- So does a list whose last store is of the whole row. -/
theorem coverS7_cons (p0 : Vec F S1x32 .f32) (L : List (View.Piece (Elt F) S1x32 .f32)) (y : S1x32.Idx) :
    ∃ pc ∈ ((⟨rS7, p0⟩ : View.Piece (Elt F) S1x32 .f32) :: L), y ∈ pc.1.set := by
  obtain ⟨pc, hm, hy⟩ := coverS7 p0 y
  rw [List.mem_singleton] at hm; subst hm
  exact ⟨_, List.mem_cons_self, hy⟩

/-- A store of the whole row hides every earlier store. -/
theorem canon_row7_cons (p0 : Vec F S1x32 .f32) (L : List (View.Piece (Elt F) S1x32 .f32)) :
    View.canon ((⟨rS7, p0⟩ : View.Piece (Elt F) S1x32 .f32) :: L) = View.canon [⟨rS7, p0⟩] := by
  funext y
  obtain ⟨pc, hm, hy⟩ := coverS7 p0 y
  rw [List.mem_singleton] at hm; subst hm
  obtain ⟨x, rfl⟩ := (rS7).exists_idx_of_mem hy
  exact (View.canon_cons_emb _ p0 L x).trans (View.canon_cons_emb _ p0 [] x).symm

/-- A load of the whole row after a store of the whole row reads the stored value. -/
theorem ld_canon_row7 (p0 : Vec F S1x32 .f32) :
    View.ld (View.canon [(⟨rS7, p0⟩ : View.Piece (Elt F) S1x32 .f32)]) rS7 = p0 :=
  funext fun j => View.canon_cons_emb rS7 p0 [] j

/-! ## The body's two conditions, in closed form over the grid -/

/-- The condition of the first `scf.if` (the grid's first point: the accumulators are zeroed). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 20 = 0 :=
  (by decide +kernel : ∀ t : Fin grid7.N, cond7_0 (grid7.coords t) ↔ t.val % 20 = 0)
/-- The condition of the second `scf.if` (the grid's last point: mean and variance are stored). -/
abbrev cond7_1 (i : grid7.Coords) : Prop := k7_cond2 i = 1#1
theorem hcond7_1 : ∀ t : Fin cfg7.N, cond7_1 (grid7.coords t) ↔ t.val % 20 = 19 :=
  (by decide +kernel : ∀ t : Fin grid7.N, cond7_1 (grid7.coords t) ↔ t.val % 20 = 19)

/-- The input window is never idle. -/
theorem liveAt7_0 : ∀ t : Fin cfg7.N, cfg7.idle 0 (grid7.coords t) = false := by decide +kernel
/-- The two output windows are idle at every point but the last, and not written back there; live at the last. -/
theorem idleAt7_1 : ∀ t : Fin cfg7.N, ¬t.val % 20 = 19 → cfg7.idle 1 (grid7.coords t) = true := by decide +kernel
theorem idleAt7_2 : ∀ t : Fin cfg7.N, ¬t.val % 20 = 19 → cfg7.idle 2 (grid7.coords t) = true := by decide +kernel
theorem liveAt7_1 : ∀ t : Fin cfg7.N, t.val % 20 = 19 → cfg7.idle 1 (grid7.coords t) = false := by decide +kernel
theorem liveAt7_2 : ∀ t : Fin cfg7.N, t.val % 20 = 19 → cfg7.idle 2 (grid7.coords t) = false := by decide +kernel
theorem noFlush7_1 (t : Fin cfg7.N) (h : ¬t.val % 20 = 19) : (cfg7.win 1).flush t = false :=
  Bool.eq_false_iff.mpr fun hf => h ((flush7_1 t).mp hf)
theorem noFlush7_2 (t : Fin cfg7.N) (h : ¬t.val % 20 = 19) : (cfg7.win 2).flush t = false :=
  Bool.eq_false_iff.mpr fun hf => h ((flush7_2 t).mp hf)

/-! ## The body's triple, case by case -/

set_option maxHeartbeats 1000000 in
/-- A MIDDLE point (neither condition): the two accumulator rows, at `s0` and `s1`, each get the block's column
    reduction added; the output rows are handed back untouched. -/
theorem run7_B (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : ¬cond7_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) (View.ld s0 rS7)⟩])
            ∗ owns (c : Thread nD τ) arg5 fullShare (View.canon [⟨rS7, k7_pay5 (View.ld x0 rX7) (View.ld s1 rS7)⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS7 _)
  iexists _; isplitr
  swap; · iexact H4
  ipureintro
  exact View.read_writes_eq_canon _ _ _ (coverS7 _)

/-- The same with the accumulator rows given by the values last stored into them. -/
theorem run7_B' (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : ¬cond7_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS7, a⟩]) ∗ owns (c : Thread nD τ) arg5 fullShare (View.canon [⟨rS7, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) a⟩])
            ∗ owns (c : Thread nD τ) arg5 fullShare (View.canon [⟨rS7, k7_pay5 (View.ld x0 rX7) b⟩])) -∗ K ⟨⟩))
      ⊢ wp frame (wpE (defs₀ (F := F)) Variants.none c none) E (cc7__bn_stats_kernel i arg1 harg1 arg2 harg2 arg3 harg3 arg4 harg4 arg5 harg5) K := by
  have h := run7_B c E i arg1 harg1 arg2 harg2 arg3 harg3 arg4 harg4 arg5 harg5 hc0 hc1 x0 y1 y2 (View.canon [⟨rS7, a⟩]) (View.canon [⟨rS7, b⟩]) K
  rw [ld_canon_row7, ld_canon_row7] at h
  exact h

set_option maxHeartbeats 1000000 in
/-- The FIRST point (first condition only): the accumulator rows, at anything, are zeroed and then get the block's
    column reduction added; the output rows are handed back untouched. -/
theorem run7_A (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond7_0 i) (hc1 : ¬cond7_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) k7_pay1⟩])
            ∗ owns (c : Thread nD τ) arg5 fullShare (View.canon [⟨rS7, k7_pay5 (View.ld x0 rX7) k7_pay2⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS7_cons _ _), canon_row7_cons]
    unfold run7_A.sl.v5 run7_A.sl.H3_1
    rw [View.readCov_cons_toLoadRect]
    rfl
  iexists _; isplitr
  swap; · iexact H4
  ipureintro
  rw [View.read_writes_eq_canon _ _ _ (coverS7_cons _ _), canon_row7_cons]
  unfold run7_A.sl.v12 run7_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run7_C (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : cond7_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS7, a⟩]) ∗ owns (c : Thread nD τ) arg5 fullShare (View.canon [⟨rS7, b⟩])
        ∗ (iprop(owns (c : Thread nD τ) arg1 fullShare x0
            ∗ owns (c : Thread nD τ) arg2 fullShare (View.canon [⟨rS7, k7_pay6 (k7_pay4 (View.ld x0 rX7) a)⟩])
            ∗ owns (c : Thread nD τ) arg3 fullShare (View.canon [⟨rS7, k7_pay7 (k7_pay4 (View.ld x0 rX7) a) (k7_pay5 (View.ld x0 rX7) b)⟩])
            ∗ owns (c : Thread nD τ) arg4 fullShare (View.canon [⟨rS7, k7_pay4 (View.ld x0 rX7) a⟩])
            ∗ owns (c : Thread nD τ) arg5 fullShare (View.canon [⟨rS7, k7_pay5 (View.ld x0 rX7) b⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS7).toLoadRect f3 = a := by
    rw [View.readAt_eq_ld, hf3, ld_canon_row7]
  have e4 : View.readAt (Elt F) arg5.view (rS7).toLoadRect f4 = b := by
    rw [View.readAt_eq_ld, hf4, ld_canon_row7]
  iapply Hk
  isplitl [H0]
  · iexists f0; isplitr; · ipureintro; rfl
    iexact H0
  isplitl [H1]
  · iexists _; isplitr
    swap; · iexact H1
    ipureintro
    rw [View.read_writes_eq_canon _ _ _ (coverS7 _)]
    unfold run7_C.sl.v23 run7_C.sl.H3_1
    rw [View.readCov_cons_toLoadRect, e3]
    rfl
  isplitl [H2]
  · iexists _; isplitr
    swap; · iexact H2
    ipureintro
    rw [View.read_writes_eq_canon _ _ _ (coverS7 _)]
    unfold run7_C.sl.v23 run7_C.sl.H3_1 run7_C.sl.v26 run7_C.sl.H4_1
    rw [View.readCov_cons_toLoadRect, View.readCov_cons_toLoadRect, e3, e4]
    rfl
  isplitl [H3]
  · iexists _; isplitr
    swap; · iexact H3
    ipureintro
    unfold run7_C.sl.H3_1
    rw [View.read_writes_eq_canon _ _ _ (coverS7 _), e3]
    rfl
  iexists _; isplitr
  swap; · iexact H4
  ipureintro
  unfold run7_C.sl.H4_1
  rw [View.read_writes_eq_canon _ _ _ (coverS7 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt7 (c : Dev nD) : (n : ℕ) → n < cfg7.N → Vec F S1x32 .f32 × Vec F S1x32 .f32
  | 0, hn => (k7_pay4 (View.ld (iblk7 V c 0 ⟨0, hn⟩) rX7) k7_pay1, k7_pay5 (View.ld (iblk7 V c 0 ⟨0, hn⟩) rX7) k7_pay2)
  | n + 1, hn => (k7_pay4 (View.ld (iblk7 V c 0 ⟨n + 1, hn⟩) rX7) (accAt7 c n (Nat.lt_of_succ_lt hn)).1,
      k7_pay5 (View.ld (iblk7 V c 0 ⟨n + 1, hn⟩) rX7) (accAt7 c n (Nat.lt_of_succ_lt hn)).2)

/-- At the first point: the block's reductions added to the zero rows. -/
theorem accAt7_zero (c : Dev nD) (t : Fin cfg7.N) (h0 : t.val = 0) :
    accAt7 V c t.val t.isLt = (k7_pay4 (View.ld (iblk7 V c 0 t) rX7) k7_pay1, k7_pay5 (View.ld (iblk7 V c 0 t) rX7) k7_pay2) := by
  obtain ⟨n, hn⟩ := t
  cases n with
  | zero => rfl
  | succ n => exact absurd h0 (Nat.succ_ne_zero n)

/-- At a later point: the block's reductions added to what the point before left. -/
theorem accAt7_pos (c : Dev nD) (t : Fin cfg7.N) (h0 : t.val ≠ 0) :
    accAt7 V c t.val t.isLt = (k7_pay4 (View.ld (iblk7 V c 0 t) rX7) (accAt7 V c (t.val - 1) (Nat.lt_of_le_of_lt (Nat.sub_le _ _) t.isLt)).1,
      k7_pay5 (View.ld (iblk7 V c 0 t) rX7) (accAt7 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean7 (c : Dev nD) (n : ℕ) (hn : n < cfg7.N) : Vec F S1x32 .f32 :=
  View.canon [⟨rS7, k7_pay6 (accAt7 V c n hn).1⟩]
/-- The variance row from the accumulated column sums and sums of squares. -/
def var7 (c : Dev nD) (n : ℕ) (hn : n < cfg7.N) : Vec F S1x32 .f32 :=
  View.canon [⟨rS7, k7_pay7 (accAt7 V c n hn).1 (accAt7 V c n hn).2⟩]

/-! ## The invariant: the two accumulator rows at named contents -/

/-- The two scratch rows as memrefs. -/
abbrev scM7_0 : Memref sig .tc .vmem S1x32 .f32 := Memref.whole cc7_scratch0
abbrev scM7_1 : Memref sig .tc .vmem S1x32 .f32 := Memref.whole cc7_scratch1

/-- The class invariant with the two scratch rows split out of the scoped rest, each at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-- The region invariant before position `n`: before the first point the class invariant (the scratch rows at
    anything); afterwards the scratch rows at the values the point before stored, the rest of the scoped buffers at
    anything and the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (View.canon [⟨rS7, (accAt7 V c n hn).1⟩])
        ∗ owns (c : Thread nD τ) scM7_1 fullShare (View.canon [⟨rS7, (accAt7 V c n hn).2⟩]))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (View.canon [⟨rS7, (accAt7 V c n hn).1⟩])
        ∗ owns (c : Thread nD τ) scM7_1 fullShare (View.canon [⟨rS7, (accAt7 V c n hn).2⟩]))
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (View.canon [⟨rS7, (accAt7 V c (n - 1) (by omega)).1⟩])
        ∗ owns (c : Thread nD τ) scM7_1 fullShare (View.canon [⟨rS7, (accAt7 V c (n - 1) (by omega)).2⟩]))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => mean7 V c t.val t.isLt
    | ⟨2, _⟩ => var7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = mean7 V c t.val t.isLt := by dsimp only [dat7]
theorem after7_2 (c : Dev nD) (t : Fin cfg7.N) : (dat7 V c).after 2 t = var7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation -/

/-- Each window's current staging memref at point `t`, spelled as the pipeline passes it. -/
abbrev ms7_0 (t : Fin cfg7.N) : Memref sig .tc .vmem S5000x32 .f32 := win7_0.stage (cfg7.slots t 0)
abbrev ms7_1 (t : Fin cfg7.N) : Memref sig .tc .vmem S1x32 .f32 := win7_1.stage (cfg7.slots t 1)
abbrev ms7_2 (t : Fin cfg7.N) : Memref sig .tc .vmem S1x32 .f32 := win7_2.stage (cfg7.slots t 2)

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
    unfold Dat.leavesExact; rw [liveAt7_0 t], after7_0]
  by_cases h0 : t.val % 20 = 0
  · have h1 : ¬t.val % 20 = 19 := by omega
    have hz : t.val = 0 := by omega
    rw [Dat.leavesExact_idle (dat7 V c) 1 t (idleAt7_1 t h1) (noFlush7_1 t h1),
      Dat.leavesExact_idle (dat7 V c) 2 t (idleAt7_2 t h1) (noFlush7_2 t h1)]
    rw [accAt7_zero V c t hz]
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩⟩
    iapply (run7_A c Set.univ (grid7.coords t) _ _ _ _ _ _ _ _ _ _ ((hcond7_0 t).mpr h0) (fun h => h1 ((hcond7_1 t).mp h)) (iblk7 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat7 V c).leavesExact 1 t = owns (c : Thread nD τ) (ms7_1 t) fullShare ((dat7 V c).after 1 t) from by
        unfold Dat.leavesExact; rw [liveAt7_1 t h1], after7_1]
      rw [show (dat7 V c).leavesExact 2 t = owns (c : Thread nD τ) (ms7_2 t) fullShare ((dat7 V c).after 2 t) from by
        unfold Dat.leavesExact; rw [liveAt7_2 t h1], after7_2]
      unfold mean7 var7
      rw [accAt7_pos V c t hz]
      rw [PhiS7_castSucc V c t, PhiS7_pos V c _ _ hz]
      iintro ⟨⟨⟨⟨HS0, HS1⟩, Hrest⟩, Hg⟩, Ho, ⟨%d0, H0⟩, ⟨%d1, H1⟩, ⟨%d2, H2⟩⟩
      iapply (run7_C c Set.univ (grid7.coords t) _ _ _ _ _ _ _ _ _ _ (fun h => h0 ((hcond7_0 t).mp h)) ((hcond7_1 t).mpr h1) (iblk7 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat7 V c) 1 t (idleAt7_1 t h1) (noFlush7_1 t h1),
        Dat.leavesExact_idle (dat7 V c) 2 t (idleAt7_2 t h1) (noFlush7_2 t h1)]
      rw [accAt7_pos V c t hz]
      rw [PhiS7_castSucc V c t, PhiS7_pos V c _ _ hz]
      iintro ⟨⟨⟨⟨HS0, HS1⟩, Hrest⟩, Hg⟩, Ho, ⟨%d0, H0⟩, ⟨%d1, H1⟩, ⟨%d2, H2⟩⟩
      iapply (run7_B' c Set.univ (grid7.coords t) _ _ _ _ _ _ _ _ _ _ (fun h => h0 ((hcond7_0 t).mp h)) (fun h => h1 ((hcond7_1 t).mp h)) (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The generator register and the scoped buffers no window stages make the invariant before the first point
    (whatever rides between them is dropped). -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c) ⊢ (dat7 V c).Φ 0 := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

/-- After any point but the first the invariant gives the class invariant back: the rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout7 (c : Dev nD) :
    (dat7 V c).Φ (Fin.last cfg7.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec7 c) := by
  rw [Pipeline.ownSems0_none]
  refine (Phi_out7 V c _ (by rw [Fin.val_last]; have : cfg7.N = 20 := N_7; omega)).trans ?_
  unfold Pipeline.ΦA
  iintro ⟨Hr, Hp⟩
  isplitl [Hp]; · iexact Hp
  isplitr; · iempintro
  iexact Hr

end Region7

end Cert.Kernel.Hand
end
-- ==== Proof.K.Reg8.lean ====
/- Region 8 of @main: the batch-norm apply kernel (custom_call 8) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.Kernel.Launch
import proofs.«177080_j35828617183700_2_alg».proof.Proof.Gen.Kernel.Skeleton
import proofs.«177080_j35828617183700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data whose
    array is the entry contents (`hA`) and whose body leaves the block in place (`hafter`): unfetched, the block index has not
    moved, so the block the buffer still holds is this point's. The window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

/-- The whole block of 5000 rows. -/
abbrev r8_blk : Rect S5000x32 := Rect.unit (s := S5000x32) ![0, 0] S5000x32.size inb_S5000x32_S5000x32_0_0
/-- The whole row. -/
abbrev r8_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out8_5 (x0 : Vec F S5000x32 .f32) (x1 x2 x3 x4 : Vec F S1x32 .f32) : Vec F S5000x32 .f32 :=
  View.canon [⟨r8_blk, k8_pay1 (View.ld x0 r8_blk) (View.ld x1 r8_row) (View.ld x2 r8_row) (View.ld x3 r8_row) (View.ld x4 r8_row)⟩]

/-- The one store is of the whole buffer, so it covers it. -/
theorem cover8_5 (p0 : Vec F S5000x32 .f32) (y : S5000x32.Idx) :
    ∃ pc ∈ ([⟨r8_blk, p0⟩] : List (View.Piece (Elt F) S5000x32 .f32)), y ∈ pc.1.set :=
  View.cover_of_tiled [⟨r8_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out8_5` of the inputs'. -/
theorem sound_kernel8 (c : Dev nD) (E : Set ℕ) (i : grid8.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the pipeline on core `c`: the arrays as the region finds them; after the body at point `t` each
    input's buffer at its block and the output's at `out8_5` of the five input blocks; the invariant the scoped
    buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, the output's holds anything, so the body's triple
    applies; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The invariant at the first point, from the generator register and the scoped buffers no window stages (the
    pipeline has no prefetched table: that conjunct is dropped). -/
theorem hin8 (c : Dev nD) :
    iprop((∃ r, prngReg c r) ∗ Pipeline.prefHeld (pcfgs (F := F) 8).pre c (fun _ => fullShare) ((cfgs 8).toPCfg_adm (Val := Elt F)).1
        ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, -, Hr⟩
  isplitl [Hr]; · iexact Hr
  iexact Hp

/-- The invariant at the last point gives back the generator register and those scoped buffers; the kernel has no
    semaphore of its own. -/
theorem hout8 (c : Dev nD) :
    ((dat8 V c).Φ (Fin.last cfg8.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none, show (dat8 V c).Φ (Fin.last cfg8.N) = Pipeline.ΦA spec8 c from rfl]; unfold Pipeline.ΦA
  iintro ⟨Hr, Hp⟩
  isplitl [Hp]; · iexact Hp
  isplitr; · iempintro
  iexact Hr

end Cert.Kernel.Hand

end
-- ==== Proof.K.Reg9.lean ====
/- Region 9 of @main, the readout head (custom call 9): a grid of one point; the body divides the 100x32 per-graph sums
   by the per-graph counts (each raised to at least one), multiplies the quotient by the 32x2 weight, adds the 1x2 bias
   and stores the 100x2 result. Stated over the contents V every buffer holds when the region is entered: each window's
   block, what the body leaves in the output window's buffer, the body's triple, the proof data, the body obligation,
   and the two entailments between the region's invariant and the thread state around it. -/
import proofs.«177080_j35828617183700_2_alg».proof.Proof.Gen.Kernel.Skeleton
import proofs.«177080_j35828617183700_2_alg».proof.Proof.Gen.Kernel.Launch
import proofs.«177080_j35828617183700_2_alg».proof.Proof.Gen.Kernel.Points
import proofs.«177080_j35828617183700_2_alg».proof.Proof.Gen.Kernel.Regions
import Idealize.ShloMosaic.Lib.Pipeline.FrameBody
import Idealize.ShloMosaic.Lib.Ring
import Idealize.ShloMosaic.Lib.Tactic

-- membership of an index in a rectangle recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each input window's buffer holds its block at the point: it is fetched there, and the body leaves it in place. For
    any proof data with the entry array and that keeps the block. The sums, -/
theorem held9_0_of {c : Dev nD} (dat : Dat τ (Elt F) Unit ℕ (UR sig nD τ) ℕ cfg9 c) (hA : dat.A 0 = V c (Pipeline.arrRef spec9 0))
    (hafter : ∀ t, dat.after 0 t = blk9 V c 0 t) (t : Fin cfg9.N) (d) : dat.before 0 t d = blk9 V c 0 t :=
  (dat.before_in_eq_fetched 0 rfl (fun _ => rfl) (fun _ _ _ => rfl) (fun t => by rw [hafter]; unfold Dat.blockOf blk9; rw [hA]; try rfl) t d).trans
    (by unfold Dat.fetched Dat.blockOf blk9; rw [hA]; try rfl)
/-- the counts, -/
theorem held9_1_of {c : Dev nD} (dat : Dat τ (Elt F) Unit ℕ (UR sig nD τ) ℕ cfg9 c) (hA : dat.A 1 = V c (Pipeline.arrRef spec9 1))
    (hafter : ∀ t, dat.after 1 t = blk9 V c 1 t) (t : Fin cfg9.N) (d) : dat.before 1 t d = blk9 V c 1 t :=
  (dat.before_in_eq_fetched 1 rfl (fun _ => rfl) (fun _ _ _ => rfl) (fun t => by rw [hafter]; unfold Dat.blockOf blk9; rw [hA]; try rfl) t d).trans
    (by unfold Dat.fetched Dat.blockOf blk9; rw [hA]; try rfl)
/-- the weight, -/
theorem held9_2_of {c : Dev nD} (dat : Dat τ (Elt F) Unit ℕ (UR sig nD τ) ℕ cfg9 c) (hA : dat.A 2 = V c (Pipeline.arrRef spec9 2))
    (hafter : ∀ t, dat.after 2 t = blk9 V c 2 t) (t : Fin cfg9.N) (d) : dat.before 2 t d = blk9 V c 2 t :=
  (dat.before_in_eq_fetched 2 rfl (fun _ => rfl) (fun _ _ _ => rfl) (fun t => by rw [hafter]; unfold Dat.blockOf blk9; rw [hA]; try rfl) t d).trans
    (by unfold Dat.fetched Dat.blockOf blk9; rw [hA]; try rfl)
/-- the bias. -/
theorem held9_3_of {c : Dev nD} (dat : Dat τ (Elt F) Unit ℕ (UR sig nD τ) ℕ cfg9 c) (hA : dat.A 3 = V c (Pipeline.arrRef spec9 3))
    (hafter : ∀ t, dat.after 3 t = blk9 V c 3 t) (t : Fin cfg9.N) (d) : dat.before 3 t d = blk9 V c 3 t :=
  (dat.before_in_eq_fetched 3 rfl (fun _ => rfl) (fun _ _ _ => rfl) (fun t => by rw [hafter]; unfold Dat.blockOf blk9; rw [hA]; try rfl) t d).trans
    (by unfold Dat.fetched Dat.blockOf blk9; rw [hA]; try rfl)

/-! ## The body's accesses: each buffer whole -/

abbrev allS9 : Rect S100x32 := Rect.unit (s := S100x32) ![0, 0] S100x32.size inb_S100x32_S100x32_0_0
abbrev allN9 : Rect S100x1 := Rect.unit (s := S100x1) ![0, 0] S100x1.size inb_S100x1_S100x1_0_0
abbrev allW9 : Rect S32x2 := Rect.unit (s := S32x2) ![0, 0] S32x2.size inb_S32x2_S32x2_0_0
abbrev allB9 : Rect S1x2 := Rect.unit (s := S1x2) ![0, 0] S1x2.size inb_S1x2_S1x2_0_0
abbrev allY9 : Rect S100x2 := Rect.unit (s := S100x2) ![0, 0] S100x2.size inb_S100x2_S100x2_0_0

/-! ## What the body leaves in the output window's buffer -/

/-- The output buffer after the body, from the four input blocks: one store over the whole buffer, of the head's value
    (the sums over the counts raised to at least one, times the weight, plus the bias). -/
def head9 (s : Vec F S100x32 .f32) (n : Vec F S100x1 .f32) (wt : Vec F S32x2 .f32) (b : Vec F S1x2 .f32) : Vec F S100x2 .f32 :=
  View.canon [⟨allY9, k9_pay1 (View.ld s allS9) (View.ld n allN9) (View.ld wt allW9) (View.ld b allB9)⟩]

/-- The one store covers the buffer. -/
theorem cover9 (p : Vec F S100x2 .f32) (y : S100x2.Idx) :
    ∃ pc ∈ ([⟨allY9, p⟩] : List (View.Piece (Elt F) S100x2 .f32)), y ∈ pc.1.set :=
  View.cover_of_tiled [⟨allY9, p⟩] S100x2.size (by rfl) y

/-! ## The body's triple -/

set_option maxHeartbeats 1000000 in
/-- The body on whole staging memrefs — the inputs' at read contents, the output's at ANY contents (the body loads the
    output block before storing into it and does not use what it loaded) — runs to the continuation holding the inputs'
    as they were and the output's at the head's value. -/
theorem triple9 (c : Dev nD) (E : Set ℕ) (i : grid9.Coords)
    (a1 : Memref sig .tc .vmem S100x32 .f32) (h1 : a1.IsWhole) (a2 : Memref sig .tc .vmem S100x1 .f32) (h2 : a2.IsWhole)
    (a3 : Memref sig .tc .vmem S32x2 .f32) (h3 : a3.IsWhole) (a4 : Memref sig .tc .vmem S1x2 .f32) (h4 : a4.IsWhole)
    (a5 : Memref sig .tc .vmem S100x2 .f32) (h5 : a5.IsWhole)
    (s : Vec F S100x32 .f32) (n : Vec F S100x1 .f32) (wt : Vec F S32x2 .f32) (b : Vec F S1x2 .f32) (K : PUnit → sProp 𝕄) :
    iprop(owns (c : Thread nD τ) a1 fullShare s ∗ owns (c : Thread nD τ) a2 fullShare n ∗ owns (c : Thread nD τ) a3 fullShare wt
        ∗ owns (c : Thread nD τ) a4 fullShare b ∗ (∃ d, owns (c : Thread nD τ) a5 fullShare d)
        ∗ (iprop(owns (c : Thread nD τ) a1 fullShare s ∗ owns (c : Thread nD τ) a2 fullShare n ∗ owns (c : Thread nD τ) a3 fullShare wt
            ∗ owns (c : Thread nD τ) a4 fullShare b ∗ owns (c : Thread nD τ) a5 fullShare (head9 s n wt b)) -∗ K ⟨⟩))
      ⊢ wp frame (wpE (defs₀ (F := F)) Variants.none c none) E (cc9__head_kernel i a1 h1 a2 h2 a3 h3 a4 h4 a5 h5) K := by
  simp only [cc9__head_kernel_eq_skeleton]; unfold cc9__head_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The proof data -/

/-- The proof data of the region on core c: the arrays at the entry contents; after the body each input's buffer at its
    block and the output's at the head's value of the four blocks; the invariant the scoped buffers no window stages and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => blk9 V c 3 t
    | ⟨4, _⟩ => head9 (blk9 V c 0 t) (blk9 V c 1 t) (blk9 V c 2 t) (blk9 V c 3 t)
  Φ _ := Pipeline.ΦA spec9 c
  q _ := fullShare
  owed _ := 0

/-- The arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = blk9 V c 3 t := by dsimp only [dat9]
theorem after9_4 (c : Dev nD) (t : Fin cfg9.N) :
    (dat9 V c).after 4 t = head9 (blk9 V c 0 t) (blk9 V c 1 t) (blk9 V c 2 t) (blk9 V c 3 t) := by dsimp only [dat9]

/-- Each input's current buffer holds its block at the point. -/
theorem held9_0 (c : Dev nD) (t : Fin cfg9.N) (d) : (dat9 V c).before 0 t d = blk9 V c 0 t :=
  held9_0_of V (dat9 V c) (A_eq9 V c 0) (after9_0 V c) t d
theorem held9_1 (c : Dev nD) (t : Fin cfg9.N) (d) : (dat9 V c).before 1 t d = blk9 V c 1 t :=
  held9_1_of V (dat9 V c) (A_eq9 V c 1) (after9_1 V c) t d
theorem held9_2 (c : Dev nD) (t : Fin cfg9.N) (d) : (dat9 V c).before 2 t d = blk9 V c 2 t :=
  held9_2_of V (dat9 V c) (A_eq9 V c 2) (after9_2 V c) t d
theorem held9_3 (c : Dev nD) (t : Fin cfg9.N) (d) : (dat9 V c).before 3 t d = blk9 V c 3 t :=
  held9_3_of V (dat9 V c) (A_eq9 V c 3) (after9_3 V c) t d

/-! ## The body obligation -/

/-- What the body is called with at point t: the invariant, the core's debt, each window's current buffer at what the
    pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at the point: the inputs' buffers hold their blocks, so the triple applies; the invariant and the debt
    pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [held9_0, held9_1, held9_2, held9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (triple9 c Set.univ _ _ _ _ _ _ _ _ _ _ _ (blk9 V c 0 t) (blk9 V c 1 t) (blk9 V c 2 t) (blk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at the point. -/
theorem body_obligation9 (c : Dev nD) : BodyObligation (dat9 (F := F) V c) (defs₀ (F := F)) Variants.none () Set.univ := fun t => by
  rw [bigSep_W9, bigSep_W9]
  exact sound_body9 V c t

/-! ## The invariant against the thread state around the region -/

/-- The invariant at the first point, from the generator register and the scoped buffers no window stages (the region
    has no prefetched table). -/
theorem hin9 (c : Dev nD) :
    iprop((∃ r, prngReg c r) ∗ Pipeline.prefHeld (pcfgs (F := F) 9).pre c (fun _ => fullShare) (adm (F := F) 9).1 ∗ Pipeline.scopedRest spec9 c)
      ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

/-- The invariant at the last point gives them back; the kernel has no semaphore of its own. -/
theorem hout9 (c : Dev nD) :
    (dat9 V c).Φ (Fin.last _) ⊢ iprop((∃ r, prngReg c r) ∗ Pipeline.ownSems0 (fun k : PEmpty => k.elim) c ∗ Pipeline.scopedRest spec9 c) := by
  rw [Pipeline.ownSems0_none, show (dat9 V c).Φ (Fin.last _) = Pipeline.ΦA spec9 c from rfl]; unfold Pipeline.ΦA
  iintro ⟨Hr, Hp⟩
  isplitl [Hp]; · iexact Hp
  isplitr; · iempintro
  iexact Hr

end Cert.Kernel.Hand

end
-- ==== Proof.K.Chain.lean ====
/-
  What every unscoped buffer of a core holds between two items of the program: the launch contents, each stretch of host operations
  applied in turn, and after a region its output arrays replaced by the fold of the region's write-backs. The contents the regions
  leave, read item by item off these valuations, are the unknowns of the generated valuations; at them the generated valuations
  are the ones defined here. Then the family of the ten regions' proof data, each at its region's entry contents.
-/
import proofs.«177080_j35828617183700_2_alg».proof.Proof.K.Algebra
import proofs.«177080_j35828617183700_2_alg».proof.Proof.K.Reg0
import proofs.«177080_j35828617183700_2_alg».proof.Proof.K.Reg1
import proofs.«177080_j35828617183700_2_alg».proof.Proof.K.Reg2
import proofs.«177080_j35828617183700_2_alg».proof.Proof.K.Reg3
import proofs.«177080_j35828617183700_2_alg».proof.Proof.K.Reg4
import proofs.«177080_j35828617183700_2_alg».proof.Proof.K.Reg5
import proofs.«177080_j35828617183700_2_alg».proof.Proof.K.Reg6
import proofs.«177080_j35828617183700_2_alg».proof.Proof.K.Reg7
import proofs.«177080_j35828617183700_2_alg».proof.Proof.K.Reg8
import proofs.«177080_j35828617183700_2_alg».proof.Proof.K.Reg9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What every buffer holds between two items -/

/-- After the stretch `hostOps0`. -/
abbrev U1 (c : Dev nD) : Valuation τ sig (Elt F) := StableHlo.after hostOps0 (V0 m c)
/-- The same read at the core's own references. -/
abbrev T1 : (c : Dev nD) → (b : Ref sig .tc) → Buf (Elt F) ((c : Thread nD τ).loc b) := fun c b => U1 m c b

/-- What region 0 leaves in `main_v33`: its output window 2's write-backs folded. -/
def o2_2 (c : Dev nD) : Buf (Elt F) ((c : Thread nD τ).loc main_v33) := (dat0 (T1 m) c).arrAt 2 cfg0.N
/-- After region 0. -/
def U2 (c : Dev nD) : Valuation τ sig (Elt F) := Function.update (U1 m c) main_v33 (o2_2 m c)
theorem U2_def (c : Dev nD) : U2 m c = Function.update (U1 m c) main_v33 (o2_2 m c) := rfl
/-- The same read at the core's own references. -/
abbrev T2 : (c : Dev nD) → (b : Ref sig .tc) → Buf (Elt F) ((c : Thread nD τ).loc b) := fun c b => U2 m c b

/-- After the stretch `hostOps1`. -/
abbrev U3 (c : Dev nD) : Valuation τ sig (Elt F) := StableHlo.after hostOps1 (U2 m c)
/-- The same read at the core's own references. -/
abbrev T3 : (c : Dev nD) → (b : Ref sig .tc) → Buf (Elt F) ((c : Thread nD τ).loc b) := fun c b => U3 m c b

/-- What region 1 leaves in `main_v55_0`: its output window 1's write-backs folded. -/
def o4_1 (c : Dev nD) : Buf (Elt F) ((c : Thread nD τ).loc main_v55_0) := (dat1 (T3 m) c).arrAt 1 cfg1.N
/-- What region 1 leaves in `main_v55_1`: its output window 2's write-backs folded. -/
def o4_2 (c : Dev nD) : Buf (Elt F) ((c : Thread nD τ).loc main_v55_1) := (dat1 (T3 m) c).arrAt 2 cfg1.N
/-- After region 1. -/
def U4 (c : Dev nD) : Valuation τ sig (Elt F) := Function.update (Function.update (U3 m c) main_v55_0 (o4_1 m c)) main_v55_1 (o4_2 m c)
theorem U4_def (c : Dev nD) : U4 m c = Function.update (Function.update (U3 m c) main_v55_0 (o4_1 m c)) main_v55_1 (o4_2 m c) := rfl
/-- The same read at the core's own references. -/
abbrev T4 : (c : Dev nD) → (b : Ref sig .tc) → Buf (Elt F) ((c : Thread nD τ).loc b) := fun c b => U4 m c b

/-- After the stretch `hostOps2`. -/
abbrev U5 (c : Dev nD) : Valuation τ sig (Elt F) := StableHlo.after hostOps2 (U4 m c)
/-- The same read at the core's own references. -/
abbrev T5 : (c : Dev nD) → (b : Ref sig .tc) → Buf (Elt F) ((c : Thread nD τ).loc b) := fun c b => U5 m c b

/-- What region 2 leaves in `main_v62`: its output window 5's write-backs folded. -/
def o6_5 (c : Dev nD) : Buf (Elt F) ((c : Thread nD τ).loc main_v62) := (dat2 (T5 m) c).arrAt 5 cfg2.N
/-- After region 2. -/
def U6 (c : Dev nD) : Valuation τ sig (Elt F) := Function.update (U5 m c) main_v62 (o6_5 m c)
theorem U6_def (c : Dev nD) : U6 m c = Function.update (U5 m c) main_v62 (o6_5 m c) := rfl
/-- The same read at the core's own references. -/
abbrev T6 : (c : Dev nD) → (b : Ref sig .tc) → Buf (Elt F) ((c : Thread nD τ).loc b) := fun c b => U6 m c b

/-- What region 3 leaves in `main_v63`: its output window 2's write-backs folded. -/
def o7_2 (c : Dev nD) : Buf (Elt F) ((c : Thread nD τ).loc main_v63) := (dat3 (T6 m) c).arrAt 2 cfg3.N
/-- After region 3. -/
def U7 (c : Dev nD) : Valuation τ sig (Elt F) := Function.update (U6 m c) main_v63 (o7_2 m c)
theorem U7_def (c : Dev nD) : U7 m c = Function.update (U6 m c) main_v63 (o7_2 m c) := rfl
/-- The same read at the core's own references. -/
abbrev T7 : (c : Dev nD) → (b : Ref sig .tc) → Buf (Elt F) ((c : Thread nD τ).loc b) := fun c b => U7 m c b

/-- After the stretch `hostOps4`. -/
abbrev U8 (c : Dev nD) : Valuation τ sig (Elt F) := StableHlo.after hostOps4 (U7 m c)
/-- The same read at the core's own references. -/
abbrev T8 : (c : Dev nD) → (b : Ref sig .tc) → Buf (Elt F) ((c : Thread nD τ).loc b) := fun c b => U8 m c b

/-- What region 4 leaves in `main_v85_0`: its output window 1's write-backs folded. -/
def o9_1 (c : Dev nD) : Buf (Elt F) ((c : Thread nD τ).loc main_v85_0) := (dat4 (T8 m) c).arrAt 1 cfg4.N
/-- What region 4 leaves in `main_v85_1`: its output window 2's write-backs folded. -/
def o9_2 (c : Dev nD) : Buf (Elt F) ((c : Thread nD τ).loc main_v85_1) := (dat4 (T8 m) c).arrAt 2 cfg4.N
/-- After region 4. -/
def U9 (c : Dev nD) : Valuation τ sig (Elt F) := Function.update (Function.update (U8 m c) main_v85_0 (o9_1 m c)) main_v85_1 (o9_2 m c)
theorem U9_def (c : Dev nD) : U9 m c = Function.update (Function.update (U8 m c) main_v85_0 (o9_1 m c)) main_v85_1 (o9_2 m c) := rfl
/-- The same read at the core's own references. -/
abbrev T9 : (c : Dev nD) → (b : Ref sig .tc) → Buf (Elt F) ((c : Thread nD τ).loc b) := fun c b => U9 m c b

/-- After the stretch `hostOps5`. -/
abbrev U10 (c : Dev nD) : Valuation τ sig (Elt F) := StableHlo.after hostOps5 (U9 m c)
/-- The same read at the core's own references. -/
abbrev T10 : (c : Dev nD) → (b : Ref sig .tc) → Buf (Elt F) ((c : Thread nD τ).loc b) := fun c b => U10 m c b

/-- What region 5 leaves in `main_v92`: its output window 5's write-backs folded. -/
def o11_5 (c : Dev nD) : Buf (Elt F) ((c : Thread nD τ).loc main_v92) := (dat5 (T10 m) c).arrAt 5 cfg5.N
/-- After region 5. -/
def U11 (c : Dev nD) : Valuation τ sig (Elt F) := Function.update (U10 m c) main_v92 (o11_5 m c)
theorem U11_def (c : Dev nD) : U11 m c = Function.update (U10 m c) main_v92 (o11_5 m c) := rfl
/-- The same read at the core's own references. -/
abbrev T11 : (c : Dev nD) → (b : Ref sig .tc) → Buf (Elt F) ((c : Thread nD τ).loc b) := fun c b => U11 m c b

/-- What region 6 leaves in `main_v93`: its output window 2's write-backs folded. -/
def o12_2 (c : Dev nD) : Buf (Elt F) ((c : Thread nD τ).loc main_v93) := (dat6 (T11 m) c).arrAt 2 cfg6.N
/-- After region 6. -/
def U12 (c : Dev nD) : Valuation τ sig (Elt F) := Function.update (U11 m c) main_v93 (o12_2 m c)
theorem U12_def (c : Dev nD) : U12 m c = Function.update (U11 m c) main_v93 (o12_2 m c) := rfl
/-- The same read at the core's own references. -/
abbrev T12 : (c : Dev nD) → (b : Ref sig .tc) → Buf (Elt F) ((c : Thread nD τ).loc b) := fun c b => U12 m c b

/-- After the stretch `hostOps7`. -/
abbrev U13 (c : Dev nD) : Valuation τ sig (Elt F) := StableHlo.after hostOps7 (U12 m c)
/-- The same read at the core's own references. -/
abbrev T13 : (c : Dev nD) → (b : Ref sig .tc) → Buf (Elt F) ((c : Thread nD τ).loc b) := fun c b => U13 m c b

/-- What region 7 leaves in `main_v115_0`: its output window 1's write-backs folded. -/
def o14_1 (c : Dev nD) : Buf (Elt F) ((c : Thread nD τ).loc main_v115_0) := (dat7 (T13 m) c).arrAt 1 cfg7.N
/-- What region 7 leaves in `main_v115_1`: its output window 2's write-backs folded. -/
def o14_2 (c : Dev nD) : Buf (Elt F) ((c : Thread nD τ).loc main_v115_1) := (dat7 (T13 m) c).arrAt 2 cfg7.N
/-- After region 7. -/
def U14 (c : Dev nD) : Valuation τ sig (Elt F) := Function.update (Function.update (U13 m c) main_v115_0 (o14_1 m c)) main_v115_1 (o14_2 m c)
theorem U14_def (c : Dev nD) : U14 m c = Function.update (Function.update (U13 m c) main_v115_0 (o14_1 m c)) main_v115_1 (o14_2 m c) := rfl
/-- The same read at the core's own references. -/
abbrev T14 : (c : Dev nD) → (b : Ref sig .tc) → Buf (Elt F) ((c : Thread nD τ).loc b) := fun c b => U14 m c b

/-- After the stretch `hostOps8`. -/
abbrev U15 (c : Dev nD) : Valuation τ sig (Elt F) := StableHlo.after hostOps8 (U14 m c)
/-- The same read at the core's own references. -/
abbrev T15 : (c : Dev nD) → (b : Ref sig .tc) → Buf (Elt F) ((c : Thread nD τ).loc b) := fun c b => U15 m c b

/-- What region 8 leaves in `main_v122`: its output window 5's write-backs folded. -/
def o16_5 (c : Dev nD) : Buf (Elt F) ((c : Thread nD τ).loc main_v122) := (dat8 (T15 m) c).arrAt 5 cfg8.N
/-- After region 8. -/
def U16 (c : Dev nD) : Valuation τ sig (Elt F) := Function.update (U15 m c) main_v122 (o16_5 m c)
theorem U16_def (c : Dev nD) : U16 m c = Function.update (U15 m c) main_v122 (o16_5 m c) := rfl
/-- The same read at the core's own references. -/
abbrev T16 : (c : Dev nD) → (b : Ref sig .tc) → Buf (Elt F) ((c : Thread nD τ).loc b) := fun c b => U16 m c b

/-- After the stretch `hostOps9`. -/
abbrev U17 (c : Dev nD) : Valuation τ sig (Elt F) := StableHlo.after hostOps9 (U16 m c)
/-- The same read at the core's own references. -/
abbrev T17 : (c : Dev nD) → (b : Ref sig .tc) → Buf (Elt F) ((c : Thread nD τ).loc b) := fun c b => U17 m c b

/-- What region 9 leaves in `main_v132`: its output window 4's write-backs folded. -/
def o18_4 (c : Dev nD) : Buf (Elt F) ((c : Thread nD τ).loc main_v132) := (dat9 (T17 m) c).arrAt 4 cfg9.N
/-- After region 9. -/
def U18 (c : Dev nD) : Valuation τ sig (Elt F) := Function.update (U17 m c) main_v132 (o18_4 m c)
theorem U18_def (c : Dev nD) : U18 m c = Function.update (U17 m c) main_v132 (o18_4 m c) := rfl
/-- The same read at the core's own references. -/
abbrev T18 : (c : Dev nD) → (b : Ref sig .tc) → Buf (Elt F) ((c : Thread nD τ).loc b) := fun c b => U18 m c b

/-- The contents the regions leave, as the unknowns of the generated valuations: item by item, the buffer read off the valuation after the item. -/
def outs : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | 18 => U18 m c r
  | _ => V0 m c r

/-! ## The generated valuations at these contents are the ones above -/

theorem V1_eq (c : Dev nD) : V1 m c = U1 m c := rfl
theorem V2_eq (c : Dev nD) : V2 m (outs m) c = U2 m c := by
  show Function.update (V1 m c) main_v33 (U2 m c main_v33) = U2 m c
  rw [V1_eq, U2_def]
  rw [Function.update_self]
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show Function.update (Function.update (V3 m (outs m) c) main_v55_0 (U4 m c main_v55_0)) main_v55_1 (U4 m c main_v55_1) = U4 m c
  rw [V3_eq, U4_def]
  rw [Function.update_self, Function.update_of_ne (StableHlo.devRef_ne_of_ne (by decide : main_v55_0 ≠ main_v55_1)), Function.update_self]
theorem V5_eq (c : Dev nD) : V5 m (outs m) c = U5 m c := by
  show StableHlo.after hostOps2 (V4 m (outs m) c) = StableHlo.after hostOps2 (U4 m c)
  rw [V4_eq]
theorem V6_eq (c : Dev nD) : V6 m (outs m) c = U6 m c := by
  show Function.update (V5 m (outs m) c) main_v62 (U6 m c main_v62) = U6 m c
  rw [V5_eq, U6_def]
  rw [Function.update_self]
theorem V7_eq (c : Dev nD) : V7 m (outs m) c = U7 m c := by
  show Function.update (V6 m (outs m) c) main_v63 (U7 m c main_v63) = U7 m c
  rw [V6_eq, U7_def]
  rw [Function.update_self]
theorem V8_eq (c : Dev nD) : V8 m (outs m) c = U8 m c := by
  show StableHlo.after hostOps4 (V7 m (outs m) c) = StableHlo.after hostOps4 (U7 m c)
  rw [V7_eq]
theorem V9_eq (c : Dev nD) : V9 m (outs m) c = U9 m c := by
  show Function.update (Function.update (V8 m (outs m) c) main_v85_0 (U9 m c main_v85_0)) main_v85_1 (U9 m c main_v85_1) = U9 m c
  rw [V8_eq, U9_def]
  rw [Function.update_self, Function.update_of_ne (StableHlo.devRef_ne_of_ne (by decide : main_v85_0 ≠ main_v85_1)), Function.update_self]
theorem V10_eq (c : Dev nD) : V10 m (outs m) c = U10 m c := by
  show StableHlo.after hostOps5 (V9 m (outs m) c) = StableHlo.after hostOps5 (U9 m c)
  rw [V9_eq]
theorem V11_eq (c : Dev nD) : V11 m (outs m) c = U11 m c := by
  show Function.update (V10 m (outs m) c) main_v92 (U11 m c main_v92) = U11 m c
  rw [V10_eq, U11_def]
  rw [Function.update_self]
theorem V12_eq (c : Dev nD) : V12 m (outs m) c = U12 m c := by
  show Function.update (V11 m (outs m) c) main_v93 (U12 m c main_v93) = U12 m c
  rw [V11_eq, U12_def]
  rw [Function.update_self]
theorem V13_eq (c : Dev nD) : V13 m (outs m) c = U13 m c := by
  show StableHlo.after hostOps7 (V12 m (outs m) c) = StableHlo.after hostOps7 (U12 m c)
  rw [V12_eq]
theorem V14_eq (c : Dev nD) : V14 m (outs m) c = U14 m c := by
  show Function.update (Function.update (V13 m (outs m) c) main_v115_0 (U14 m c main_v115_0)) main_v115_1 (U14 m c main_v115_1) = U14 m c
  rw [V13_eq, U14_def]
  rw [Function.update_self, Function.update_of_ne (StableHlo.devRef_ne_of_ne (by decide : main_v115_0 ≠ main_v115_1)), Function.update_self]
theorem V15_eq (c : Dev nD) : V15 m (outs m) c = U15 m c := by
  show StableHlo.after hostOps8 (V14 m (outs m) c) = StableHlo.after hostOps8 (U14 m c)
  rw [V14_eq]
theorem V16_eq (c : Dev nD) : V16 m (outs m) c = U16 m c := by
  show Function.update (V15 m (outs m) c) main_v122 (U16 m c main_v122) = U16 m c
  rw [V15_eq, U16_def]
  rw [Function.update_self]
theorem V17_eq (c : Dev nD) : V17 m (outs m) c = U17 m c := by
  show StableHlo.after hostOps9 (V16 m (outs m) c) = StableHlo.after hostOps9 (U16 m c)
  rw [V16_eq]
theorem V18_eq (c : Dev nD) : V18 m (outs m) c = U18 m c := by
  show Function.update (V17 m (outs m) c) main_v132 (U18 m c main_v132) = U18 m c
  rw [V17_eq, U18_def]
  rw [Function.update_self]

/-! ## The proof data of every region, each at its entry contents -/

def pdats : (p : Fin 10) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T6 m) c
  | ⟨4, _⟩ => fun c => dat4 (T8 m) c
  | ⟨5, _⟩ => fun c => dat5 (T10 m) c
  | ⟨6, _⟩ => fun c => dat6 (T11 m) c
  | ⟨7, _⟩ => fun c => dat7 (T13 m) c
  | ⟨8, _⟩ => fun c => dat8 (T15 m) c
  | ⟨9, _⟩ => fun c => dat9 (T17 m) c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
/-
  Region 0 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 0 -/

set_option backward.isDefEq.respectTransparency.types false in
set_option maxHeartbeats 1000000 in
theorem exitArr0_0 (c : Dev nD) : (dat0 (T1 m) c).arrAt (0 : Fin 3) cfg0.N = U2 m c main_arg0 := by
  rw [U2_def]
  exact (((dat0 (T1 m) c).arrAt_in (0 : Fin 3) rfl _).trans (A_eq0 (T1 m) c (0 : Fin 3))).trans (Function.update_of_ne (StableHlo.devRef_ne_of_ne (by decide : main_arg0 ≠ main_v33)) (o2_2 m c) (U1 m c)).symm
set_option backward.isDefEq.respectTransparency.types false in
set_option maxHeartbeats 1000000 in
theorem exitArr0_1 (c : Dev nD) : (dat0 (T1 m) c).arrAt (1 : Fin 3) cfg0.N = U2 m c main_arg4 := by
  rw [U2_def]
  exact (((dat0 (T1 m) c).arrAt_in (1 : Fin 3) rfl _).trans (A_eq0 (T1 m) c (1 : Fin 3))).trans (Function.update_of_ne (StableHlo.devRef_ne_of_ne (by decide : main_arg4 ≠ main_v33)) (o2_2 m c) (U1 m c)).symm
set_option backward.isDefEq.respectTransparency.types false in
set_option maxHeartbeats 1000000 in
theorem exitArr0_2 (c : Dev nD) : (dat0 (T1 m) c).arrAt (2 : Fin 3) cfg0.N = U2 m c main_v33 := by
  rw [U2_def]
  exact (Function.update_self (Proc.devRef (τ := τ) .tc main_v33) (o2_2 m c) (U1 m c)).symm
/-- At region 0's exit each of its arrays holds what the pipeline leaves: an input array its entry contents, an output array the fold of its write-backs. -/
theorem exitArr0 (c : Dev nD) (w : Fin cfg0.W) : (dat0 (T1 m) c).arrAt w cfg0.N = T2 m c (Pipeline.arrRef spec0 w) := by
  match w with
  | ⟨0, _⟩ => exact exitArr0_0 m c
  | ⟨1, _⟩ => exact exitArr0_1 m c
  | ⟨2, _⟩ => exact exitArr0_2 m c
/-- Every buffer that is none of region 0's arrays holds at its exit what it held at its entry. -/
theorem exitRest0 (c : Dev nD) : ∀ b, b ∉ Finset.univ.image (Pipeline.arrRef spec0) → T2 m c b = T1 m c b := fun b hb => by
  have hne_2 : b ≠ main_v33 := fun e => hb (Finset.mem_image.mpr ⟨(2 : Fin 3), Finset.mem_univ _, by rw [e]⟩)
  show U2 m c b = U1 m c b
  rw [U2_def]
  rw [Function.update_of_ne (StableHlo.devRef_ne_of_ne hne_2)]

set_option backward.isDefEq.respectTransparency.types false in
/-- Region 0 over the thread state: entered from every unscoped buffer at the contents before it, left at the contents after it; its arrays split out of the
    unscoped buffers and put back at the exit contents, the generator register into the region's invariant and out, nothing owed, no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun w => A_eq0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (T1 m) c
  hout c := hout0 (T1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 1 -/

set_option backward.isDefEq.respectTransparency.types false in
set_option maxHeartbeats 1000000 in
theorem exitArr1_0 (c : Dev nD) : (dat1 (T3 m) c).arrAt (0 : Fin 3) cfg1.N = U4 m c main_v54 := by
  rw [U4_def]
  exact (((dat1 (T3 m) c).arrAt_in (0 : Fin 3) rfl _).trans (A_eq1 (T3 m) c (0 : Fin 3))).trans ((Function.update_of_ne (StableHlo.devRef_ne_of_ne (by decide : main_v54 ≠ main_v55_1)) (o4_2 m c) (Function.update (U3 m c) main_v55_0 (o4_1 m c))).trans (Function.update_of_ne (StableHlo.devRef_ne_of_ne (by decide : main_v54 ≠ main_v55_0)) (o4_1 m c) (U3 m c))).symm
set_option backward.isDefEq.respectTransparency.types false in
set_option maxHeartbeats 1000000 in
theorem exitArr1_1 (c : Dev nD) : (dat1 (T3 m) c).arrAt (1 : Fin 3) cfg1.N = U4 m c main_v55_0 := by
  rw [U4_def]
  exact ((Function.update_of_ne (StableHlo.devRef_ne_of_ne (by decide : main_v55_0 ≠ main_v55_1)) (o4_2 m c) (Function.update (U3 m c) main_v55_0 (o4_1 m c))).trans (Function.update_self (Proc.devRef (τ := τ) .tc main_v55_0) (o4_1 m c) (U3 m c))).symm
set_option backward.isDefEq.respectTransparency.types false in
set_option maxHeartbeats 1000000 in
theorem exitArr1_2 (c : Dev nD) : (dat1 (T3 m) c).arrAt (2 : Fin 3) cfg1.N = U4 m c main_v55_1 := by
  rw [U4_def]
  exact (Function.update_self (Proc.devRef (τ := τ) .tc main_v55_1) (o4_2 m c) (Function.update (U3 m c) main_v55_0 (o4_1 m c))).symm
/-- At region 1's exit each of its arrays holds what the pipeline leaves: an input array its entry contents, an output array the fold of its write-backs. -/
theorem exitArr1 (c : Dev nD) (w : Fin cfg1.W) : (dat1 (T3 m) c).arrAt w cfg1.N = T4 m c (Pipeline.arrRef spec1 w) := by
  match w with
  | ⟨0, _⟩ => exact exitArr1_0 m c
  | ⟨1, _⟩ => exact exitArr1_1 m c
  | ⟨2, _⟩ => exact exitArr1_2 m c
/-- Every buffer that is none of region 1's arrays holds at its exit what it held at its entry. -/
theorem exitRest1 (c : Dev nD) : ∀ b, b ∉ Finset.univ.image (Pipeline.arrRef spec1) → T4 m c b = T3 m c b := fun b hb => by
  have hne_1 : b ≠ main_v55_0 := fun e => hb (Finset.mem_image.mpr ⟨(1 : Fin 3), Finset.mem_univ _, by rw [e]⟩)
  have hne_2 : b ≠ main_v55_1 := fun e => hb (Finset.mem_image.mpr ⟨(2 : Fin 3), Finset.mem_univ _, by rw [e]⟩)
  show U4 m c b = U3 m c b
  rw [U4_def]
  rw [Function.update_of_ne (StableHlo.devRef_ne_of_ne hne_2), Function.update_of_ne (StableHlo.devRef_ne_of_ne hne_1)]

set_option backward.isDefEq.respectTransparency.types false in
/-- Region 1 over the thread state: entered from every unscoped buffer at the contents before it, left at the contents after it; its arrays split out of the
    unscoped buffers and put back at the exit contents, the generator register into the region's invariant and out, nothing owed, no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun w => A_eq1 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (T3 m) c _
  hout c := hout1 (T3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 2 -/

set_option backward.isDefEq.respectTransparency.types false in
set_option maxHeartbeats 1000000 in
theorem exitArr2_0 (c : Dev nD) : (dat2 (T5 m) c).arrAt (0 : Fin 6) cfg2.N = U6 m c main_v54 := by
  rw [U6_def]
  exact (((dat2 (T5 m) c).arrAt_in (0 : Fin 6) rfl _).trans (A_eq2 (T5 m) c (0 : Fin 6))).trans (Function.update_of_ne (StableHlo.devRef_ne_of_ne (by decide : main_v54 ≠ main_v62)) (o6_5 m c) (U5 m c)).symm
set_option backward.isDefEq.respectTransparency.types false in
set_option maxHeartbeats 1000000 in
theorem exitArr2_1 (c : Dev nD) : (dat2 (T5 m) c).arrAt (1 : Fin 6) cfg2.N = U6 m c main_v55_0 := by
  rw [U6_def]
  exact (((dat2 (T5 m) c).arrAt_in (1 : Fin 6) rfl _).trans (A_eq2 (T5 m) c (1 : Fin 6))).trans (Function.update_of_ne (StableHlo.devRef_ne_of_ne (by decide : main_v55_0 ≠ main_v62)) (o6_5 m c) (U5 m c)).symm
set_option backward.isDefEq.respectTransparency.types false in
set_option maxHeartbeats 1000000 in
theorem exitArr2_2 (c : Dev nD) : (dat2 (T5 m) c).arrAt (2 : Fin 6) cfg2.N = U6 m c main_v55_1 := by
  rw [U6_def]
  exact (((dat2 (T5 m) c).arrAt_in (2 : Fin 6) rfl _).trans (A_eq2 (T5 m) c (2 : Fin 6))).trans (Function.update_of_ne (StableHlo.devRef_ne_of_ne (by decide : main_v55_1 ≠ main_v62)) (o6_5 m c) (U5 m c)).symm
set_option backward.isDefEq.respectTransparency.types false in
set_option maxHeartbeats 1000000 in
theorem exitArr2_3 (c : Dev nD) : (dat2 (T5 m) c).arrAt (3 : Fin 6) cfg2.N = U6 m c main_v58 := by
  rw [U6_def]
  exact (((dat2 (T5 m) c).arrAt_in (3 : Fin 6) rfl _).trans (A_eq2 (T5 m) c (3 : Fin 6))).trans (Function.update_of_ne (StableHlo.devRef_ne_of_ne (by decide : main_v58 ≠ main_v62)) (o6_5 m c) (U5 m c)).symm
set_option backward.isDefEq.respectTransparency.types false in
set_option maxHeartbeats 1000000 in
theorem exitArr2_4 (c : Dev nD) : (dat2 (T5 m) c).arrAt (4 : Fin 6) cfg2.N = U6 m c main_v61 := by
  rw [U6_def]
  exact (((dat2 (T5 m) c).arrAt_in (4 : Fin 6) rfl _).trans (A_eq2 (T5 m) c (4 : Fin 6))).trans (Function.update_of_ne (StableHlo.devRef_ne_of_ne (by decide : main_v61 ≠ main_v62)) (o6_5 m c) (U5 m c)).symm
set_option backward.isDefEq.respectTransparency.types false in
set_option maxHeartbeats 1000000 in
theorem exitArr2_5 (c : Dev nD) : (dat2 (T5 m) c).arrAt (5 : Fin 6) cfg2.N = U6 m c main_v62 := by
  rw [U6_def]
  exact (Function.update_self (Proc.devRef (τ := τ) .tc main_v62) (o6_5 m c) (U5 m c)).symm
/-- At region 2's exit each of its arrays holds what the pipeline leaves: an input array its entry contents, an output array the fold of its write-backs. -/
theorem exitArr2 (c : Dev nD) (w : Fin cfg2.W) : (dat2 (T5 m) c).arrAt w cfg2.N = T6 m c (Pipeline.arrRef spec2 w) := by
  match w with
  | ⟨0, _⟩ => exact exitArr2_0 m c
  | ⟨1, _⟩ => exact exitArr2_1 m c
  | ⟨2, _⟩ => exact exitArr2_2 m c
  | ⟨3, _⟩ => exact exitArr2_3 m c
  | ⟨4, _⟩ => exact exitArr2_4 m c
  | ⟨5, _⟩ => exact exitArr2_5 m c
/-- Every buffer that is none of region 2's arrays holds at its exit what it held at its entry. -/
theorem exitRest2 (c : Dev nD) : ∀ b, b ∉ Finset.univ.image (Pipeline.arrRef spec2) → T6 m c b = T5 m c b := fun b hb => by
  have hne_5 : b ≠ main_v62 := fun e => hb (Finset.mem_image.mpr ⟨(5 : Fin 6), Finset.mem_univ _, by rw [e]⟩)
  show U6 m c b = U5 m c b
  rw [U6_def]
  rw [Function.update_of_ne (StableHlo.devRef_ne_of_ne hne_5)]

set_option backward.isDefEq.respectTransparency.types false in
/-- Region 2 over the thread state: entered from every unscoped buffer at the contents before it, left at the contents after it; its arrays split out of the
    unscoped buffers and put back at the exit contents, the generator register into the region's invariant and out, nothing owed, no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun w => A_eq2 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (T5 m) c
  hout c := hout2 (T5 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 3 -/

set_option backward.isDefEq.respectTransparency.types false in
set_option maxHeartbeats 1000000 in
theorem exitArr3_0 (c : Dev nD) : (dat3 (T6 m) c).arrAt (0 : Fin 3) cfg3.N = U7 m c main_v62 := by
  rw [U7_def]
  exact (((dat3 (T6 m) c).arrAt_in (0 : Fin 3) rfl _).trans (A_eq3 (T6 m) c (0 : Fin 3))).trans (Function.update_of_ne (StableHlo.devRef_ne_of_ne (by decide : main_v62 ≠ main_v63)) (o7_2 m c) (U6 m c)).symm
set_option backward.isDefEq.respectTransparency.types false in
set_option maxHeartbeats 1000000 in
theorem exitArr3_1 (c : Dev nD) : (dat3 (T6 m) c).arrAt (1 : Fin 3) cfg3.N = U7 m c main_v30 := by
  rw [U7_def]
  exact (((dat3 (T6 m) c).arrAt_in (1 : Fin 3) rfl _).trans (A_eq3 (T6 m) c (1 : Fin 3))).trans (Function.update_of_ne (StableHlo.devRef_ne_of_ne (by decide : main_v30 ≠ main_v63)) (o7_2 m c) (U6 m c)).symm
set_option backward.isDefEq.respectTransparency.types false in
set_option maxHeartbeats 1000000 in
theorem exitArr3_2 (c : Dev nD) : (dat3 (T6 m) c).arrAt (2 : Fin 3) cfg3.N = U7 m c main_v63 := by
  rw [U7_def]
  exact (Function.update_self (Proc.devRef (τ := τ) .tc main_v63) (o7_2 m c) (U6 m c)).symm
/-- At region 3's exit each of its arrays holds what the pipeline leaves: an input array its entry contents, an output array the fold of its write-backs. -/
theorem exitArr3 (c : Dev nD) (w : Fin cfg3.W) : (dat3 (T6 m) c).arrAt w cfg3.N = T7 m c (Pipeline.arrRef spec3 w) := by
  match w with
  | ⟨0, _⟩ => exact exitArr3_0 m c
  | ⟨1, _⟩ => exact exitArr3_1 m c
  | ⟨2, _⟩ => exact exitArr3_2 m c
/-- Every buffer that is none of region 3's arrays holds at its exit what it held at its entry. -/
theorem exitRest3 (c : Dev nD) : ∀ b, b ∉ Finset.univ.image (Pipeline.arrRef spec3) → T7 m c b = T6 m c b := fun b hb => by
  have hne_2 : b ≠ main_v63 := fun e => hb (Finset.mem_image.mpr ⟨(2 : Fin 3), Finset.mem_univ _, by rw [e]⟩)
  show U7 m c b = U6 m c b
  rw [U7_def]
  rw [Function.update_of_ne (StableHlo.devRef_ne_of_ne hne_2)]

set_option backward.isDefEq.respectTransparency.types false in
/-- Region 3 over the thread state: entered from every unscoped buffer at the contents before it, left at the contents after it; its arrays split out of the
    unscoped buffers and put back at the exit contents, the generator register into the region's invariant and out, nothing owed, no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (T6 m) c).loose
  hwaits := Pipeline.hwaits_of_owed_zero _ _ _ _ Lz lvz 3 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T6 m c) fun w => A_eq3 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (T6 m) c
  hout c := hout3 (T6 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T6 m c) (T7 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 4 -/

set_option backward.isDefEq.respectTransparency.types false in
set_option maxHeartbeats 1000000 in
theorem exitArr4_0 (c : Dev nD) : (dat4 (T8 m) c).arrAt (0 : Fin 3) cfg4.N = U9 m c main_v84 := by
  rw [U9_def]
  exact (((dat4 (T8 m) c).arrAt_in (0 : Fin 3) rfl _).trans (A_eq4 (T8 m) c (0 : Fin 3))).trans ((Function.update_of_ne (StableHlo.devRef_ne_of_ne (by decide : main_v84 ≠ main_v85_1)) (o9_2 m c) (Function.update (U8 m c) main_v85_0 (o9_1 m c))).trans (Function.update_of_ne (StableHlo.devRef_ne_of_ne (by decide : main_v84 ≠ main_v85_0)) (o9_1 m c) (U8 m c))).symm
set_option backward.isDefEq.respectTransparency.types false in
set_option maxHeartbeats 1000000 in
theorem exitArr4_1 (c : Dev nD) : (dat4 (T8 m) c).arrAt (1 : Fin 3) cfg4.N = U9 m c main_v85_0 := by
  rw [U9_def]
  exact ((Function.update_of_ne (StableHlo.devRef_ne_of_ne (by decide : main_v85_0 ≠ main_v85_1)) (o9_2 m c) (Function.update (U8 m c) main_v85_0 (o9_1 m c))).trans (Function.update_self (Proc.devRef (τ := τ) .tc main_v85_0) (o9_1 m c) (U8 m c))).symm
set_option backward.isDefEq.respectTransparency.types false in
set_option maxHeartbeats 1000000 in
theorem exitArr4_2 (c : Dev nD) : (dat4 (T8 m) c).arrAt (2 : Fin 3) cfg4.N = U9 m c main_v85_1 := by
  rw [U9_def]
  exact (Function.update_self (Proc.devRef (τ := τ) .tc main_v85_1) (o9_2 m c) (Function.update (U8 m c) main_v85_0 (o9_1 m c))).symm
/-- At region 4's exit each of its arrays holds what the pipeline leaves: an input array its entry contents, an output array the fold of its write-backs. -/
theorem exitArr4 (c : Dev nD) (w : Fin cfg4.W) : (dat4 (T8 m) c).arrAt w cfg4.N = T9 m c (Pipeline.arrRef spec4 w) := by
  match w with
  | ⟨0, _⟩ => exact exitArr4_0 m c
  | ⟨1, _⟩ => exact exitArr4_1 m c
  | ⟨2, _⟩ => exact exitArr4_2 m c
/-- Every buffer that is none of region 4's arrays holds at its exit what it held at its entry. -/
theorem exitRest4 (c : Dev nD) : ∀ b, b ∉ Finset.univ.image (Pipeline.arrRef spec4) → T9 m c b = T8 m c b := fun b hb => by
  have hne_1 : b ≠ main_v85_0 := fun e => hb (Finset.mem_image.mpr ⟨(1 : Fin 3), Finset.mem_univ _, by rw [e]⟩)
  have hne_2 : b ≠ main_v85_1 := fun e => hb (Finset.mem_image.mpr ⟨(2 : Fin 3), Finset.mem_univ _, by rw [e]⟩)
  show U9 m c b = U8 m c b
  rw [U9_def]
  rw [Function.update_of_ne (StableHlo.devRef_ne_of_ne hne_2), Function.update_of_ne (StableHlo.devRef_ne_of_ne hne_1)]

set_option backward.isDefEq.respectTransparency.types false in
/-- Region 4 over the thread state: entered from every unscoped buffer at the contents before it, left at the contents after it; its arrays split out of the
    unscoped buffers and put back at the exit contents, the generator register into the region's invariant and out, nothing owed, no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (T8 m) c).loose
  hwaits := Pipeline.hwaits_of_owed_zero _ _ _ _ Lz lvz 4 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec4 c (T8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T8 m c) fun w => A_eq4 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (T8 m) c _
  hout c := hout4 (T8 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T8 m c) (T9 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/-
  Region 5 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 5 -/

set_option backward.isDefEq.respectTransparency.types false in
set_option maxHeartbeats 1000000 in
theorem exitArr5_0 (c : Dev nD) : (dat5 (T10 m) c).arrAt (0 : Fin 6) cfg5.N = U11 m c main_v84 := by
  rw [U11_def]
  exact (((dat5 (T10 m) c).arrAt_in (0 : Fin 6) rfl _).trans (A_eq5 (T10 m) c (0 : Fin 6))).trans (Function.update_of_ne (StableHlo.devRef_ne_of_ne (by decide : main_v84 ≠ main_v92)) (o11_5 m c) (U10 m c)).symm
set_option backward.isDefEq.respectTransparency.types false in
set_option maxHeartbeats 1000000 in
theorem exitArr5_1 (c : Dev nD) : (dat5 (T10 m) c).arrAt (1 : Fin 6) cfg5.N = U11 m c main_v85_0 := by
  rw [U11_def]
  exact (((dat5 (T10 m) c).arrAt_in (1 : Fin 6) rfl _).trans (A_eq5 (T10 m) c (1 : Fin 6))).trans (Function.update_of_ne (StableHlo.devRef_ne_of_ne (by decide : main_v85_0 ≠ main_v92)) (o11_5 m c) (U10 m c)).symm
set_option backward.isDefEq.respectTransparency.types false in
set_option maxHeartbeats 1000000 in
theorem exitArr5_2 (c : Dev nD) : (dat5 (T10 m) c).arrAt (2 : Fin 6) cfg5.N = U11 m c main_v85_1 := by
  rw [U11_def]
  exact (((dat5 (T10 m) c).arrAt_in (2 : Fin 6) rfl _).trans (A_eq5 (T10 m) c (2 : Fin 6))).trans (Function.update_of_ne (StableHlo.devRef_ne_of_ne (by decide : main_v85_1 ≠ main_v92)) (o11_5 m c) (U10 m c)).symm
set_option backward.isDefEq.respectTransparency.types false in
set_option maxHeartbeats 1000000 in
theorem exitArr5_3 (c : Dev nD) : (dat5 (T10 m) c).arrAt (3 : Fin 6) cfg5.N = U11 m c main_v88 := by
  rw [U11_def]
  exact (((dat5 (T10 m) c).arrAt_in (3 : Fin 6) rfl _).trans (A_eq5 (T10 m) c (3 : Fin 6))).trans (Function.update_of_ne (StableHlo.devRef_ne_of_ne (by decide : main_v88 ≠ main_v92)) (o11_5 m c) (U10 m c)).symm
set_option backward.isDefEq.respectTransparency.types false in
set_option maxHeartbeats 1000000 in
theorem exitArr5_4 (c : Dev nD) : (dat5 (T10 m) c).arrAt (4 : Fin 6) cfg5.N = U11 m c main_v91 := by
  rw [U11_def]
  exact (((dat5 (T10 m) c).arrAt_in (4 : Fin 6) rfl _).trans (A_eq5 (T10 m) c (4 : Fin 6))).trans (Function.update_of_ne (StableHlo.devRef_ne_of_ne (by decide : main_v91 ≠ main_v92)) (o11_5 m c) (U10 m c)).symm
set_option backward.isDefEq.respectTransparency.types false in
set_option maxHeartbeats 1000000 in
theorem exitArr5_5 (c : Dev nD) : (dat5 (T10 m) c).arrAt (5 : Fin 6) cfg5.N = U11 m c main_v92 := by
  rw [U11_def]
  exact (Function.update_self (Proc.devRef (τ := τ) .tc main_v92) (o11_5 m c) (U10 m c)).symm
/-- At region 5's exit each of its arrays holds what the pipeline leaves: an input array its entry contents, an output array the fold of its write-backs. -/
theorem exitArr5 (c : Dev nD) (w : Fin cfg5.W) : (dat5 (T10 m) c).arrAt w cfg5.N = T11 m c (Pipeline.arrRef spec5 w) := by
  match w with
  | ⟨0, _⟩ => exact exitArr5_0 m c
  | ⟨1, _⟩ => exact exitArr5_1 m c
  | ⟨2, _⟩ => exact exitArr5_2 m c
  | ⟨3, _⟩ => exact exitArr5_3 m c
  | ⟨4, _⟩ => exact exitArr5_4 m c
  | ⟨5, _⟩ => exact exitArr5_5 m c
/-- Every buffer that is none of region 5's arrays holds at its exit what it held at its entry. -/
theorem exitRest5 (c : Dev nD) : ∀ b, b ∉ Finset.univ.image (Pipeline.arrRef spec5) → T11 m c b = T10 m c b := fun b hb => by
  have hne_5 : b ≠ main_v92 := fun e => hb (Finset.mem_image.mpr ⟨(5 : Fin 6), Finset.mem_univ _, by rw [e]⟩)
  show U11 m c b = U10 m c b
  rw [U11_def]
  rw [Function.update_of_ne (StableHlo.devRef_ne_of_ne hne_5)]

set_option backward.isDefEq.respectTransparency.types false in
/-- Region 5 over the thread state: entered from every unscoped buffer at the contents before it, left at the contents after it; its arrays split out of the
    unscoped buffers and put back at the exit contents, the generator register into the region's invariant and out, nothing owed, no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ Lz lvz 5 fun _ _ => rfl
  pre c := iprop(StableHlo.held (c : Thread nD τ) (Pipeline.ucRefs τ sig) (U10 m c) ∗ Rst c)
  post c := iprop(StableHlo.held (c : Thread nD τ) (Pipeline.ucRefs τ sig) (U11 m c) ∗ Rst c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T10 m c) fun w => A_eq5 (T10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin5 (T10 m) c
  hout c := hout5 (T10 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T10 m c) (T11 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/-
  Region 6 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 6 -/

set_option backward.isDefEq.respectTransparency.types false in
set_option maxHeartbeats 1000000 in
theorem exitArr6_0 (c : Dev nD) : (dat6 (T11 m) c).arrAt (0 : Fin 3) cfg6.N = U12 m c main_v92 := by
  rw [U12_def]
  exact (((dat6 (T11 m) c).arrAt_in (0 : Fin 3) rfl _).trans (A_eq6 (T11 m) c (0 : Fin 3))).trans (Function.update_of_ne (StableHlo.devRef_ne_of_ne (by decide : main_v92 ≠ main_v93)) (o12_2 m c) (U11 m c)).symm
set_option backward.isDefEq.respectTransparency.types false in
set_option maxHeartbeats 1000000 in
theorem exitArr6_1 (c : Dev nD) : (dat6 (T11 m) c).arrAt (1 : Fin 3) cfg6.N = U12 m c main_v32 := by
  rw [U12_def]
  exact (((dat6 (T11 m) c).arrAt_in (1 : Fin 3) rfl _).trans (A_eq6 (T11 m) c (1 : Fin 3))).trans (Function.update_of_ne (StableHlo.devRef_ne_of_ne (by decide : main_v32 ≠ main_v93)) (o12_2 m c) (U11 m c)).symm
set_option backward.isDefEq.respectTransparency.types false in
set_option maxHeartbeats 1000000 in
theorem exitArr6_2 (c : Dev nD) : (dat6 (T11 m) c).arrAt (2 : Fin 3) cfg6.N = U12 m c main_v93 := by
  rw [U12_def]
  exact (Function.update_self (Proc.devRef (τ := τ) .tc main_v93) (o12_2 m c) (U11 m c)).symm
/-- At region 6's exit each of its arrays holds what the pipeline leaves: an input array its entry contents, an output array the fold of its write-backs. -/
theorem exitArr6 (c : Dev nD) (w : Fin cfg6.W) : (dat6 (T11 m) c).arrAt w cfg6.N = T12 m c (Pipeline.arrRef spec6 w) := by
  match w with
  | ⟨0, _⟩ => exact exitArr6_0 m c
  | ⟨1, _⟩ => exact exitArr6_1 m c
  | ⟨2, _⟩ => exact exitArr6_2 m c
/-- Every buffer that is none of region 6's arrays holds at its exit what it held at its entry. -/
theorem exitRest6 (c : Dev nD) : ∀ b, b ∉ Finset.univ.image (Pipeline.arrRef spec6) → T12 m c b = T11 m c b := fun b hb => by
  have hne_2 : b ≠ main_v93 := fun e => hb (Finset.mem_image.mpr ⟨(2 : Fin 3), Finset.mem_univ _, by rw [e]⟩)
  show U12 m c b = U11 m c b
  rw [U12_def]
  rw [Function.update_of_ne (StableHlo.devRef_ne_of_ne hne_2)]

set_option backward.isDefEq.respectTransparency.types false in
/-- Region 6 over the thread state: entered from every unscoped buffer at the contents before it, left at the contents after it; its arrays split out of the
    unscoped buffers and put back at the exit contents, the generator register into the region's invariant and out, nothing owed, no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (T11 m) c).loose
  hwaits := Pipeline.hwaits_of_owed_zero _ _ _ _ Lz lvz 6 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec6 c (T11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T11 m c) fun w => A_eq6 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (T11 m) c
  hout c := hout6 (T11 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T11 m c) (T12 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
/-
  Region 7 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 7 -/

set_option backward.isDefEq.respectTransparency.types false in
set_option maxHeartbeats 1000000 in
theorem exitArr7_0 (c : Dev nD) : (dat7 (T13 m) c).arrAt (0 : Fin 3) cfg7.N = U14 m c main_v114 := by
  rw [U14_def]
  exact (((dat7 (T13 m) c).arrAt_in (0 : Fin 3) rfl _).trans (A_eq7 (T13 m) c (0 : Fin 3))).trans ((Function.update_of_ne (StableHlo.devRef_ne_of_ne (by decide : main_v114 ≠ main_v115_1)) (o14_2 m c) (Function.update (U13 m c) main_v115_0 (o14_1 m c))).trans (Function.update_of_ne (StableHlo.devRef_ne_of_ne (by decide : main_v114 ≠ main_v115_0)) (o14_1 m c) (U13 m c))).symm
set_option backward.isDefEq.respectTransparency.types false in
set_option maxHeartbeats 1000000 in
theorem exitArr7_1 (c : Dev nD) : (dat7 (T13 m) c).arrAt (1 : Fin 3) cfg7.N = U14 m c main_v115_0 := by
  rw [U14_def]
  exact ((Function.update_of_ne (StableHlo.devRef_ne_of_ne (by decide : main_v115_0 ≠ main_v115_1)) (o14_2 m c) (Function.update (U13 m c) main_v115_0 (o14_1 m c))).trans (Function.update_self (Proc.devRef (τ := τ) .tc main_v115_0) (o14_1 m c) (U13 m c))).symm
set_option backward.isDefEq.respectTransparency.types false in
set_option maxHeartbeats 1000000 in
theorem exitArr7_2 (c : Dev nD) : (dat7 (T13 m) c).arrAt (2 : Fin 3) cfg7.N = U14 m c main_v115_1 := by
  rw [U14_def]
  exact (Function.update_self (Proc.devRef (τ := τ) .tc main_v115_1) (o14_2 m c) (Function.update (U13 m c) main_v115_0 (o14_1 m c))).symm
/-- At region 7's exit each of its arrays holds what the pipeline leaves: an input array its entry contents, an output array the fold of its write-backs. -/
theorem exitArr7 (c : Dev nD) (w : Fin cfg7.W) : (dat7 (T13 m) c).arrAt w cfg7.N = T14 m c (Pipeline.arrRef spec7 w) := by
  match w with
  | ⟨0, _⟩ => exact exitArr7_0 m c
  | ⟨1, _⟩ => exact exitArr7_1 m c
  | ⟨2, _⟩ => exact exitArr7_2 m c
/-- Every buffer that is none of region 7's arrays holds at its exit what it held at its entry. -/
theorem exitRest7 (c : Dev nD) : ∀ b, b ∉ Finset.univ.image (Pipeline.arrRef spec7) → T14 m c b = T13 m c b := fun b hb => by
  have hne_1 : b ≠ main_v115_0 := fun e => hb (Finset.mem_image.mpr ⟨(1 : Fin 3), Finset.mem_univ _, by rw [e]⟩)
  have hne_2 : b ≠ main_v115_1 := fun e => hb (Finset.mem_image.mpr ⟨(2 : Fin 3), Finset.mem_univ _, by rw [e]⟩)
  show U14 m c b = U13 m c b
  rw [U14_def]
  rw [Function.update_of_ne (StableHlo.devRef_ne_of_ne hne_2), Function.update_of_ne (StableHlo.devRef_ne_of_ne hne_1)]

set_option backward.isDefEq.respectTransparency.types false in
/-- Region 7 over the thread state: entered from every unscoped buffer at the contents before it, left at the contents after it; its arrays split out of the
    unscoped buffers and put back at the exit contents, the generator register into the region's invariant and out, nothing owed, no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (T13 m) c).loose
  hwaits := Pipeline.hwaits_of_owed_zero _ _ _ _ Lz lvz 7 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec7 c (T13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T13 m c) fun w => A_eq7 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (T13 m) c _
  hout c := hout7 (T13 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T13 m c) (T14 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
/-
  Region 8 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 8 -/

set_option backward.isDefEq.respectTransparency.types false in
set_option maxHeartbeats 1000000 in
theorem exitArr8_0 (c : Dev nD) : (dat8 (T15 m) c).arrAt (0 : Fin 6) cfg8.N = U16 m c main_v114 := by
  rw [U16_def]
  exact (((dat8 (T15 m) c).arrAt_in (0 : Fin 6) rfl _).trans (A_eq8 (T15 m) c (0 : Fin 6))).trans (Function.update_of_ne (StableHlo.devRef_ne_of_ne (by decide : main_v114 ≠ main_v122)) (o16_5 m c) (U15 m c)).symm
set_option backward.isDefEq.respectTransparency.types false in
set_option maxHeartbeats 1000000 in
theorem exitArr8_1 (c : Dev nD) : (dat8 (T15 m) c).arrAt (1 : Fin 6) cfg8.N = U16 m c main_v115_0 := by
  rw [U16_def]
  exact (((dat8 (T15 m) c).arrAt_in (1 : Fin 6) rfl _).trans (A_eq8 (T15 m) c (1 : Fin 6))).trans (Function.update_of_ne (StableHlo.devRef_ne_of_ne (by decide : main_v115_0 ≠ main_v122)) (o16_5 m c) (U15 m c)).symm
set_option backward.isDefEq.respectTransparency.types false in
set_option maxHeartbeats 1000000 in
theorem exitArr8_2 (c : Dev nD) : (dat8 (T15 m) c).arrAt (2 : Fin 6) cfg8.N = U16 m c main_v115_1 := by
  rw [U16_def]
  exact (((dat8 (T15 m) c).arrAt_in (2 : Fin 6) rfl _).trans (A_eq8 (T15 m) c (2 : Fin 6))).trans (Function.update_of_ne (StableHlo.devRef_ne_of_ne (by decide : main_v115_1 ≠ main_v122)) (o16_5 m c) (U15 m c)).symm
set_option backward.isDefEq.respectTransparency.types false in
set_option maxHeartbeats 1000000 in
theorem exitArr8_3 (c : Dev nD) : (dat8 (T15 m) c).arrAt (3 : Fin 6) cfg8.N = U16 m c main_v118 := by
  rw [U16_def]
  exact (((dat8 (T15 m) c).arrAt_in (3 : Fin 6) rfl _).trans (A_eq8 (T15 m) c (3 : Fin 6))).trans (Function.update_of_ne (StableHlo.devRef_ne_of_ne (by decide : main_v118 ≠ main_v122)) (o16_5 m c) (U15 m c)).symm
set_option backward.isDefEq.respectTransparency.types false in
set_option maxHeartbeats 1000000 in
theorem exitArr8_4 (c : Dev nD) : (dat8 (T15 m) c).arrAt (4 : Fin 6) cfg8.N = U16 m c main_v121 := by
  rw [U16_def]
  exact (((dat8 (T15 m) c).arrAt_in (4 : Fin 6) rfl _).trans (A_eq8 (T15 m) c (4 : Fin 6))).trans (Function.update_of_ne (StableHlo.devRef_ne_of_ne (by decide : main_v121 ≠ main_v122)) (o16_5 m c) (U15 m c)).symm
set_option backward.isDefEq.respectTransparency.types false in
set_option maxHeartbeats 1000000 in
theorem exitArr8_5 (c : Dev nD) : (dat8 (T15 m) c).arrAt (5 : Fin 6) cfg8.N = U16 m c main_v122 := by
  rw [U16_def]
  exact (Function.update_self (Proc.devRef (τ := τ) .tc main_v122) (o16_5 m c) (U15 m c)).symm
/-- At region 8's exit each of its arrays holds what the pipeline leaves: an input array its entry contents, an output array the fold of its write-backs. -/
theorem exitArr8 (c : Dev nD) (w : Fin cfg8.W) : (dat8 (T15 m) c).arrAt w cfg8.N = T16 m c (Pipeline.arrRef spec8 w) := by
  match w with
  | ⟨0, _⟩ => exact exitArr8_0 m c
  | ⟨1, _⟩ => exact exitArr8_1 m c
  | ⟨2, _⟩ => exact exitArr8_2 m c
  | ⟨3, _⟩ => exact exitArr8_3 m c
  | ⟨4, _⟩ => exact exitArr8_4 m c
  | ⟨5, _⟩ => exact exitArr8_5 m c
/-- Every buffer that is none of region 8's arrays holds at its exit what it held at its entry. -/
theorem exitRest8 (c : Dev nD) : ∀ b, b ∉ Finset.univ.image (Pipeline.arrRef spec8) → T16 m c b = T15 m c b := fun b hb => by
  have hne_5 : b ≠ main_v122 := fun e => hb (Finset.mem_image.mpr ⟨(5 : Fin 6), Finset.mem_univ _, by rw [e]⟩)
  show U16 m c b = U15 m c b
  rw [U16_def]
  rw [Function.update_of_ne (StableHlo.devRef_ne_of_ne hne_5)]

set_option backward.isDefEq.respectTransparency.types false in
/-- Region 8 over the thread state: entered from every unscoped buffer at the contents before it, left at the contents after it; its arrays split out of the
    unscoped buffers and put back at the exit contents, the generator register into the region's invariant and out, nothing owed, no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (T15 m) c).loose
  hwaits := Pipeline.hwaits_of_owed_zero _ _ _ _ Lz lvz 8 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec8 c (T15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T15 m c) fun w => A_eq8 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (T15 m) c
  hout c := hout8 (T15 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T15 m c) (T16 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
/-
  Region 9 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 9 -/

set_option backward.isDefEq.respectTransparency.types false in
set_option maxHeartbeats 1000000 in
theorem exitArr9_0 (c : Dev nD) : (dat9 (T17 m) c).arrAt (0 : Fin 5) cfg9.N = U18 m c main_v125 := by
  rw [U18_def]
  exact (((dat9 (T17 m) c).arrAt_in (0 : Fin 5) rfl _).trans (A_eq9 (T17 m) c (0 : Fin 5))).trans (Function.update_of_ne (StableHlo.devRef_ne_of_ne (by decide : main_v125 ≠ main_v132)) (o18_4 m c) (U17 m c)).symm
set_option backward.isDefEq.respectTransparency.types false in
set_option maxHeartbeats 1000000 in
theorem exitArr9_1 (c : Dev nD) : (dat9 (T17 m) c).arrAt (1 : Fin 5) cfg9.N = U18 m c main_v130 := by
  rw [U18_def]
  exact (((dat9 (T17 m) c).arrAt_in (1 : Fin 5) rfl _).trans (A_eq9 (T17 m) c (1 : Fin 5))).trans (Function.update_of_ne (StableHlo.devRef_ne_of_ne (by decide : main_v130 ≠ main_v132)) (o18_4 m c) (U17 m c)).symm
set_option backward.isDefEq.respectTransparency.types false in
set_option maxHeartbeats 1000000 in
theorem exitArr9_2 (c : Dev nD) : (dat9 (T17 m) c).arrAt (2 : Fin 5) cfg9.N = U18 m c main_arg9 := by
  rw [U18_def]
  exact (((dat9 (T17 m) c).arrAt_in (2 : Fin 5) rfl _).trans (A_eq9 (T17 m) c (2 : Fin 5))).trans (Function.update_of_ne (StableHlo.devRef_ne_of_ne (by decide : main_arg9 ≠ main_v132)) (o18_4 m c) (U17 m c)).symm
set_option backward.isDefEq.respectTransparency.types false in
set_option maxHeartbeats 1000000 in
theorem exitArr9_3 (c : Dev nD) : (dat9 (T17 m) c).arrAt (3 : Fin 5) cfg9.N = U18 m c main_v131 := by
  rw [U18_def]
  exact (((dat9 (T17 m) c).arrAt_in (3 : Fin 5) rfl _).trans (A_eq9 (T17 m) c (3 : Fin 5))).trans (Function.update_of_ne (StableHlo.devRef_ne_of_ne (by decide : main_v131 ≠ main_v132)) (o18_4 m c) (U17 m c)).symm
set_option backward.isDefEq.respectTransparency.types false in
set_option maxHeartbeats 1000000 in
theorem exitArr9_4 (c : Dev nD) : (dat9 (T17 m) c).arrAt (4 : Fin 5) cfg9.N = U18 m c main_v132 := by
  rw [U18_def]
  exact (Function.update_self (Proc.devRef (τ := τ) .tc main_v132) (o18_4 m c) (U17 m c)).symm
/-- At region 9's exit each of its arrays holds what the pipeline leaves: an input array its entry contents, an output array the fold of its write-backs. -/
theorem exitArr9 (c : Dev nD) (w : Fin cfg9.W) : (dat9 (T17 m) c).arrAt w cfg9.N = T18 m c (Pipeline.arrRef spec9 w) := by
  match w with
  | ⟨0, _⟩ => exact exitArr9_0 m c
  | ⟨1, _⟩ => exact exitArr9_1 m c
  | ⟨2, _⟩ => exact exitArr9_2 m c
  | ⟨3, _⟩ => exact exitArr9_3 m c
  | ⟨4, _⟩ => exact exitArr9_4 m c
/-- Every buffer that is none of region 9's arrays holds at its exit what it held at its entry. -/
theorem exitRest9 (c : Dev nD) : ∀ b, b ∉ Finset.univ.image (Pipeline.arrRef spec9) → T18 m c b = T17 m c b := fun b hb => by
  have hne_4 : b ≠ main_v132 := fun e => hb (Finset.mem_image.mpr ⟨(4 : Fin 5), Finset.mem_univ _, by rw [e]⟩)
  show U18 m c b = U17 m c b
  rw [U18_def]
  rw [Function.update_of_ne (StableHlo.devRef_ne_of_ne hne_4)]

set_option backward.isDefEq.respectTransparency.types false in
/-- Region 9 over the thread state: entered from every unscoped buffer at the contents before it, left at the contents after it; its arrays split out of the
    unscoped buffers and put back at the exit contents, the generator register into the region's invariant and out, nothing owed, no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (T17 m) c).loose
  hwaits := Pipeline.hwaits_of_owed_zero _ _ _ _ Lz lvz 9 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec9 c (T17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T17 m c) fun w => A_eq9 (T17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin9 (T17 m) c
  hout c := hout9 (T17 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T17 m c) (T18 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
/-
  The program's frame, and its run with the result named: every weakly fair execution from any memory with zero counters terminates,
  nothing faulting; every argument array ends as launched, and the result array ends at the last valuation's contents — what the
  last region leaves. Both from the conditional run over the ten regions' segment records.
-/
import proofs.«177080_j35828617183700_2_alg».proof.Proof.K.Chain
import proofs.«177080_j35828617183700_2_alg».proof.Proof.K.Seg0
import proofs.«177080_j35828617183700_2_alg».proof.Proof.K.Seg1
import proofs.«177080_j35828617183700_2_alg».proof.Proof.K.Seg2
import proofs.«177080_j35828617183700_2_alg».proof.Proof.K.Seg3
import proofs.«177080_j35828617183700_2_alg».proof.Proof.K.Seg4
import proofs.«177080_j35828617183700_2_alg».proof.Proof.K.Seg5
import proofs.«177080_j35828617183700_2_alg».proof.Proof.K.Seg6
import proofs.«177080_j35828617183700_2_alg».proof.Proof.K.Seg7
import proofs.«177080_j35828617183700_2_alg».proof.Proof.K.Seg8
import proofs.«177080_j35828617183700_2_alg».proof.Proof.K.Seg9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := Lz) (lv := lvz) (hL := fun _ _ => rfl) (ρ := ρ) (outs := outs m) (pdats := pdats m)
    (O₀ := 0) (G := fun _ => (BI.emp : sProp 𝕄)) (u₀ := initOf (Pipeline.cells cfgs cellOf_inj) (Pipeline.launchToks cfgs cellOf_inj))
    (hu₀ := launch_algebra) (E := Est) (hE0 := launch_rest ρ) (hE10 := rest_owes_nothing)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)
    (R4 := reg4 m) (hpre4 := fun c => by rw [V8_eq]; exact .rfl) (hpost4 := fun c => by rw [V9_eq]; exact .rfl)
    (R5 := reg5 m) (hpre5 := fun c => by rw [V10_eq]; exact .rfl) (hpost5 := fun c => by rw [V11_eq]; exact .rfl)
    (R6 := reg6 m) (hpre6 := fun c => by rw [V11_eq]; exact .rfl) (hpost6 := fun c => by rw [V12_eq]; exact .rfl)
    (R7 := reg7 m) (hpre7 := fun c => by rw [V13_eq]; exact .rfl) (hpost7 := fun c => by rw [V14_eq]; exact .rfl)
    (R8 := reg8 m) (hpre8 := fun c => by rw [V15_eq]; exact .rfl) (hpost8 := fun c => by rw [V16_eq]; exact .rfl)
    (R9 := reg9 m) (hpre9 := fun c => by rw [V17_eq]; exact .rfl) (hpost9 := fun c => by rw [V18_eq]; exact .rfl)

set_option backward.isDefEq.respectTransparency.types false in
/-- The run with the result named: the result array ends at what the last region leaves, every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v132) = U18 m c main_v132
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (congrFun (V18_eq m c) _), (h c).2⟩)
    (run_cond m (EP := emb₁) (ι := ()) (𝒱₀ := Variants.none) (L := Lz) (lv := lvz) (hL := fun _ _ => rfl) (ρ := ρ) (outs := outs m) (pdats := pdats m)
    (O₀ := 0) (G := fun _ => (BI.emp : sProp 𝕄)) (u₀ := initOf (Pipeline.cells cfgs cellOf_inj) (Pipeline.launchToks cfgs cellOf_inj))
    (hu₀ := launch_algebra) (E := Est) (hE0 := launch_rest ρ) (hE10 := rest_owes_nothing)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)
    (R4 := reg4 m) (hpre4 := fun c => by rw [V8_eq]; exact .rfl) (hpost4 := fun c => by rw [V9_eq]; exact .rfl)
    (R5 := reg5 m) (hpre5 := fun c => by rw [V10_eq]; exact .rfl) (hpost5 := fun c => by rw [V11_eq]; exact .rfl)
    (R6 := reg6 m) (hpre6 := fun c => by rw [V11_eq]; exact .rfl) (hpost6 := fun c => by rw [V12_eq]; exact .rfl)
    (R7 := reg7 m) (hpre7 := fun c => by rw [V13_eq]; exact .rfl) (hpost7 := fun c => by rw [V14_eq]; exact .rfl)
    (R8 := reg8 m) (hpre8 := fun c => by rw [V15_eq]; exact .rfl) (hpost8 := fun c => by rw [V16_eq]; exact .rfl)
    (R9 := reg9 m) (hpre9 := fun c => by rw [V17_eq]; exact .rfl) (hpost9 := fun c => by rw [V18_eq]; exact .rfl)
    )

end Cert.Kernel.Hand

end
-- ==== Proof.KI.Algebra.lean ====
/-
  The resources that ride beside the buffers through every item of the program: the core's generator register at some state and
  the core owing nothing. The launch makes them on every core at once, and at the end they still say that nothing is owed.
-/
import proofs.«177080_j35828617183700_2_alg».proof.Proof.KI.RunCond
import Idealize.ShloMosaic.Lib.Pipeline.Kit
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- No core owes another anything: no level is assigned. -/
abbrev Lz : GSem nD τ sig → Finset Unit := fun _ => ∅
abbrev lvz : GSem nD τ sig → Unit → ℕ := fun _ _ => 0

/-- What rides beside the buffers: the generator register at some state, and nothing owed. -/
abbrev Rst (c : Dev nD) : sProp 𝕄 :=
  iprop((∃ r, prngReg c r) ∗ ∃ W, owes (c : Thread nD τ) (0 : CellTallies nD τ sig Unit) W)

/-- The same on every item boundary. -/
abbrev Est : Fin 11 → Dev nD → sProp 𝕄 := fun _ c => Rst (F := F) c

theorem launch_algebra :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Est (F := F) 0) : sProp 𝕄) := by
  have hc : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ Est (F := F) 0 c := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Est (F := F) 0) : sProp 𝕄) :=
    bigSep_mono fun c _ => hc c
  iintro ⟨H, -⟩
  imodintro
  iapply hm; iexact H

theorem rest_owes_nothing (c : Dev nD) :
    Est (F := F) 10 c ⊢ (iprop(∃ W, owes (c : Thread nD τ) (0 : CellTallies nD τ sig Unit) W) : sProp 𝕄) := by
  iintro ⟨-, H⟩; iexact H

end Cert.KernelIdeal.Hand

end
-- ==== Proof.KI.Reg0.lean ====
/- Region 0 of @main, the first linear layer (custom call 0): a 20-point grid; at each point the body multiplies a
   5000x384 block of the node features by the whole 384x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import proofs.«177080_j35828617183700_2_alg».proof.Proof.Gen.KernelIdeal.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point: it is fetched at every point, and the body leaves it
    in place. For any proof data with the entry array and that keeps the block. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weight window's buffer holds the weight at every point: fetched at the first point only, its block index never
    moves, so a point that does not fetch finds the previous point's block, which is its own. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev allX0 : Rect S5000x384 := Rect.unit (s := S5000x384) ![0, 0] S5000x384.size inb_S5000x384_S5000x384_0_0
abbrev allW0 : Rect S384x32 := Rect.unit (s := S384x32) ![0, 0] S384x32.size inb_S384x32_S384x32_0_0
abbrev allY0 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod0 (x : Vec F S5000x384 .f32) (wt : Vec F S384x32 .f32) : Vec F S5000x32 .f32 :=
  View.canon [⟨allY0, k0_pay1 (View.ld x allX0) (View.ld wt allW0)⟩]

/-- The one store covers the buffer. -/
theorem cover0 (p : Vec F S5000x32 .f32) (y : S5000x32.Idx) :
    ∃ pc ∈ ([⟨allY0, p⟩] : List (View.Piece (Elt F) S5000x32 .f32)), y ∈ pc.1.set :=
  View.cover_of_tiled [⟨allY0, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple0 (c : Dev nD) (E : Set ℕ) (i : grid0.Coords)
    (a1 : Memref sig .tc .vmem S5000x384 .f32) (h1 : a1.IsWhole) (a2 : Memref sig .tc .vmem S384x32 .f32) (h2 : a2.IsWhole)
    (a3 : Memref sig .tc .vmem S5000x32 .f32) (h3 : a3.IsWhole)
    (x : Vec F S5000x384 .f32) (wt : Vec F S384x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod0 x wt)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The proof data -/

/-- The proof data of the region on core c: the arrays at the entry contents; after the body at point t each input's
    buffer at its block and the output's at the product of the two blocks; the invariant the scoped buffers no window
    stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

/-- Each input's current buffer holds its block at every point. -/
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

/-- What the body is called with at point t: the invariant, the core's debt, each window's current buffer at what the
    pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the debt
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant against the thread state around the region -/

/-- The invariant at the first point, from the generator register and the scoped buffers no window stages (the region
    has no prefetched table). -/
theorem hin0 (c : Dev nD) :
    iprop((∃ r, prngReg c r) ∗ Pipeline.prefHeld (pcfgs (F := F) 0).pre c (fun _ => fullShare) (adm (F := F) 0).1 ∗ Pipeline.scopedRest spec0 c)
      ⊢ (dat0 V c).Φ 0 := by
  rw [show (dat0 V c).Φ 0 = Pipeline.ΦA spec0 c from rfl]; unfold Pipeline.ΦA
  iintro ⟨Hp, -, Hr⟩
  isplitl [Hr]; · iexact Hr
  iexact Hp

/-- The invariant at the last point gives them back; the kernel has no semaphore of its own. -/
theorem hout0 (c : Dev nD) :
    (dat0 V c).Φ (Fin.last _) ⊢ iprop((∃ r, prngReg c r) ∗ Pipeline.ownSems0 (fun k : PEmpty => k.elim) c ∗ Pipeline.scopedRest spec0 c) := by
  rw [Pipeline.ownSems0_none, show (dat0 V c).Φ (Fin.last _) = Pipeline.ΦA spec0 c from rfl]; unfold Pipeline.ΦA
  iintro ⟨Hr, Hp⟩
  isplitl [Hp]; · iexact Hp
  isplitr; · iempintro
  iexact Hr

end Cert.KernelIdeal.Hand

end
-- ==== Proof.KI.Reg1.lean ====
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the region finds in every buffer of the core when it is entered
variable (V : (c : Dev nD) → (b : Ref sig .tc) → Buf (Elt F) ((c : Thread nD τ).loc b))

/-! # Region 1: column sums and sums of squares over the 20 row blocks, mean and variance at the last block -/

/-! ## The input block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: every access is of a whole buffer -/

/-- The whole 1x32 row. -/
abbrev rS1 : Rect S1x32 := Rect.unit (s := S1x32) ![0, 0] S1x32.size inb_S1x32_S1x32_0_0
/-- The whole 5000x32 block. -/
abbrev rX1 : Rect S5000x32 := Rect.unit (s := S5000x32) ![0, 0] S5000x32.size inb_S5000x32_S5000x32_0_0

/-- One store of the whole row covers it. -/
theorem coverS1 (p0 : Vec F S1x32 .f32) (y : S1x32.Idx) :
    ∃ pc ∈ ([⟨rS1, p0⟩] : List (View.Piece (Elt F) S1x32 .f32)), y ∈ pc.1.set :=
  View.cover_of_tiled [⟨rS1, p0⟩] S1x32.size (by rfl) y

/-- So does a list whose last store is of the whole row. -/
theorem coverS1_cons (p0 : Vec F S1x32 .f32) (L : List (View.Piece (Elt F) S1x32 .f32)) (y : S1x32.Idx) :
    ∃ pc ∈ ((⟨rS1, p0⟩ : View.Piece (Elt F) S1x32 .f32) :: L), y ∈ pc.1.set := by
  obtain ⟨pc, hm, hy⟩ := coverS1 p0 y
  rw [List.mem_singleton] at hm; subst hm
  exact ⟨_, List.mem_cons_self, hy⟩

/-- A store of the whole row hides every earlier store. -/
theorem canon_row1_cons (p0 : Vec F S1x32 .f32) (L : List (View.Piece (Elt F) S1x32 .f32)) :
    View.canon ((⟨rS1, p0⟩ : View.Piece (Elt F) S1x32 .f32) :: L) = View.canon [⟨rS1, p0⟩] := by
  funext y
  obtain ⟨pc, hm, hy⟩ := coverS1 p0 y
  rw [List.mem_singleton] at hm; subst hm
  obtain ⟨x, rfl⟩ := (rS1).exists_idx_of_mem hy
  exact (View.canon_cons_emb _ p0 L x).trans (View.canon_cons_emb _ p0 [] x).symm

/-- A load of the whole row after a store of the whole row reads the stored value. -/
theorem ld_canon_row1 (p0 : Vec F S1x32 .f32) :
    View.ld (View.canon [(⟨rS1, p0⟩ : View.Piece (Elt F) S1x32 .f32)]) rS1 = p0 :=
  funext fun j => View.canon_cons_emb rS1 p0 [] j

/-! ## The body's two conditions, in closed form over the grid -/

/-- The condition of the first `scf.if` (the grid's first point: the accumulators are zeroed). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)
/-- The condition of the second `scf.if` (the grid's last point: mean and variance are stored). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-- The input window is never idle. -/
theorem liveAt1_0 : ∀ t : Fin cfg1.N, cfg1.idle 0 (grid1.coords t) = false := by decide +kernel
/-- The two output windows are idle at every point but the last, and not written back there; live at the last. -/
theorem idleAt1_1 : ∀ t : Fin cfg1.N, ¬t.val % 20 = 19 → cfg1.idle 1 (grid1.coords t) = true := by decide +kernel
theorem idleAt1_2 : ∀ t : Fin cfg1.N, ¬t.val % 20 = 19 → cfg1.idle 2 (grid1.coords t) = true := by decide +kernel
theorem liveAt1_1 : ∀ t : Fin cfg1.N, t.val % 20 = 19 → cfg1.idle 1 (grid1.coords t) = false := by decide +kernel
theorem liveAt1_2 : ∀ t : Fin cfg1.N, t.val % 20 = 19 → cfg1.idle 2 (grid1.coords t) = false := by decide +kernel
theorem noFlush1_1 (t : Fin cfg1.N) (h : ¬t.val % 20 = 19) : (cfg1.win 1).flush t = false :=
  Bool.eq_false_iff.mpr fun hf => h ((flush1_1 t).mp hf)
theorem noFlush1_2 (t : Fin cfg1.N) (h : ¬t.val % 20 = 19) : (cfg1.win 2).flush t = false :=
  Bool.eq_false_iff.mpr fun hf => h ((flush1_2 t).mp hf)

/-! ## The body's triple, case by case -/

set_option maxHeartbeats 1000000 in
/-- A MIDDLE point (neither condition): the two accumulator rows, at `s0` and `s1`, each get the block's column
    reduction added; the output rows are handed back untouched. -/
theorem run1_B (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : ¬cond1_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) (View.ld s0 rS1)⟩])
            ∗ owns (c : Thread nD τ) arg5 fullShare (View.canon [⟨rS1, k1_pay5 (View.ld x0 rX1) (View.ld s1 rS1)⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS1 _)
  iexists _; isplitr
  swap; · iexact H4
  ipureintro
  exact View.read_writes_eq_canon _ _ _ (coverS1 _)

/-- The same with the accumulator rows given by the values last stored into them. -/
theorem run1_B' (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : ¬cond1_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS1, a⟩]) ∗ owns (c : Thread nD τ) arg5 fullShare (View.canon [⟨rS1, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) a⟩])
            ∗ owns (c : Thread nD τ) arg5 fullShare (View.canon [⟨rS1, k1_pay5 (View.ld x0 rX1) b⟩])) -∗ K ⟨⟩))
      ⊢ wp frame (wpE (defs₀ (F := F)) Variants.none c none) E (cc1__bn_stats_kernel i arg1 harg1 arg2 harg2 arg3 harg3 arg4 harg4 arg5 harg5) K := by
  have h := run1_B c E i arg1 harg1 arg2 harg2 arg3 harg3 arg4 harg4 arg5 harg5 hc0 hc1 x0 y1 y2 (View.canon [⟨rS1, a⟩]) (View.canon [⟨rS1, b⟩]) K
  rw [ld_canon_row1, ld_canon_row1] at h
  exact h

set_option maxHeartbeats 1000000 in
/-- The FIRST point (first condition only): the accumulator rows, at anything, are zeroed and then get the block's
    column reduction added; the output rows are handed back untouched. -/
theorem run1_A (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond1_0 i) (hc1 : ¬cond1_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS1, k1_pay4 (View.ld x0 rX1) k1_pay1⟩])
            ∗ owns (c : Thread nD τ) arg5 fullShare (View.canon [⟨rS1, k1_pay5 (View.ld x0 rX1) k1_pay2⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS1_cons _ _), canon_row1_cons]
    unfold run1_A.sl.v5 run1_A.sl.H3_1
    rw [View.readCov_cons_toLoadRect]
    rfl
  iexists _; isplitr
  swap; · iexact H4
  ipureintro
  rw [View.read_writes_eq_canon _ _ _ (coverS1_cons _ _), canon_row1_cons]
  unfold run1_A.sl.v12 run1_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run1_C (c : Dev nD) (E : Set ℕ) (i : grid1.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond1_0 i) (hc1 : cond1_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS1, a⟩]) ∗ owns (c : Thread nD τ) arg5 fullShare (View.canon [⟨rS1, b⟩])
        ∗ (iprop(owns (c : Thread nD τ) arg1 fullShare x0
            ∗ owns (c : Thread nD τ) arg2 fullShare (View.canon [⟨rS1, k1_pay6 (k1_pay4 (View.ld x0 rX1) a)⟩])
            ∗ owns (c : Thread nD τ) arg3 fullShare (View.canon [⟨rS1, k1_pay7 (k1_pay4 (View.ld x0 rX1) a) (k1_pay5 (View.ld x0 rX1) b)⟩])
            ∗ owns (c : Thread nD τ) arg4 fullShare (View.canon [⟨rS1, k1_pay4 (View.ld x0 rX1) a⟩])
            ∗ owns (c : Thread nD τ) arg5 fullShare (View.canon [⟨rS1, k1_pay5 (View.ld x0 rX1) b⟩])) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS1).toLoadRect f3 = a := by
    rw [View.readAt_eq_ld, hf3, ld_canon_row1]
  have e4 : View.readAt (Elt F) arg5.view (rS1).toLoadRect f4 = b := by
    rw [View.readAt_eq_ld, hf4, ld_canon_row1]
  iapply Hk
  isplitl [H0]
  · iexists f0; isplitr; · ipureintro; rfl
    iexact H0
  isplitl [H1]
  · iexists _; isplitr
    swap; · iexact H1
    ipureintro
    rw [View.read_writes_eq_canon _ _ _ (coverS1 _)]
    unfold run1_C.sl.v23 run1_C.sl.H3_1
    rw [View.readCov_cons_toLoadRect, e3]
    rfl
  isplitl [H2]
  · iexists _; isplitr
    swap; · iexact H2
    ipureintro
    rw [View.read_writes_eq_canon _ _ _ (coverS1 _)]
    unfold run1_C.sl.v23 run1_C.sl.H3_1 run1_C.sl.v26 run1_C.sl.H4_1
    rw [View.readCov_cons_toLoadRect, View.readCov_cons_toLoadRect, e3, e4]
    rfl
  isplitl [H3]
  · iexists _; isplitr
    swap; · iexact H3
    ipureintro
    unfold run1_C.sl.H3_1
    rw [View.read_writes_eq_canon _ _ _ (coverS1 _), e3]
    rfl
  iexists _; isplitr
  swap; · iexact H4
  ipureintro
  unfold run1_C.sl.H4_1
  rw [View.read_writes_eq_canon _ _ _ (coverS1 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt1 (c : Dev nD) : (n : ℕ) → n < cfg1.N → Vec F S1x32 .f32 × Vec F S1x32 .f32
  | 0, hn => (k1_pay4 (View.ld (iblk1 V c 0 ⟨0, hn⟩) rX1) k1_pay1, k1_pay5 (View.ld (iblk1 V c 0 ⟨0, hn⟩) rX1) k1_pay2)
  | n + 1, hn => (k1_pay4 (View.ld (iblk1 V c 0 ⟨n + 1, hn⟩) rX1) (accAt1 c n (Nat.lt_of_succ_lt hn)).1,
      k1_pay5 (View.ld (iblk1 V c 0 ⟨n + 1, hn⟩) rX1) (accAt1 c n (Nat.lt_of_succ_lt hn)).2)

/-- At the first point: the block's reductions added to the zero rows. -/
theorem accAt1_zero (c : Dev nD) (t : Fin cfg1.N) (h0 : t.val = 0) :
    accAt1 V c t.val t.isLt = (k1_pay4 (View.ld (iblk1 V c 0 t) rX1) k1_pay1, k1_pay5 (View.ld (iblk1 V c 0 t) rX1) k1_pay2) := by
  obtain ⟨n, hn⟩ := t
  cases n with
  | zero => rfl
  | succ n => exact absurd h0 (Nat.succ_ne_zero n)

/-- At a later point: the block's reductions added to what the point before left. -/
theorem accAt1_pos (c : Dev nD) (t : Fin cfg1.N) (h0 : t.val ≠ 0) :
    accAt1 V c t.val t.isLt = (k1_pay4 (View.ld (iblk1 V c 0 t) rX1) (accAt1 V c (t.val - 1) (Nat.lt_of_le_of_lt (Nat.sub_le _ _) t.isLt)).1,
      k1_pay5 (View.ld (iblk1 V c 0 t) rX1) (accAt1 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean1 (c : Dev nD) (n : ℕ) (hn : n < cfg1.N) : Vec F S1x32 .f32 :=
  View.canon [⟨rS1, k1_pay6 (accAt1 V c n hn).1⟩]
/-- The variance row from the accumulated column sums and sums of squares. -/
def var1 (c : Dev nD) (n : ℕ) (hn : n < cfg1.N) : Vec F S1x32 .f32 :=
  View.canon [⟨rS1, k1_pay7 (accAt1 V c n hn).1 (accAt1 V c n hn).2⟩]

/-! ## The invariant: the two accumulator rows at named contents -/

/-- The two scratch rows as memrefs. -/
abbrev scM1_0 : Memref sig .tc .vmem S1x32 .f32 := Memref.whole cc1_scratch0
abbrev scM1_1 : Memref sig .tc .vmem S1x32 .f32 := Memref.whole cc1_scratch1

/-- The class invariant with the two scratch rows split out of the scoped rest, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- The region invariant before position `n`: before the first point the class invariant (the scratch rows at
    anything); afterwards the scratch rows at the values the point before stored, the rest of the scoped buffers at
    anything and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (View.canon [⟨rS1, (accAt1 V c n hn).1⟩])
        ∗ owns (c : Thread nD τ) scM1_1 fullShare (View.canon [⟨rS1, (accAt1 V c n hn).2⟩]))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (View.canon [⟨rS1, (accAt1 V c n hn).1⟩])
        ∗ owns (c : Thread nD τ) scM1_1 fullShare (View.canon [⟨rS1, (accAt1 V c n hn).2⟩]))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (View.canon [⟨rS1, (accAt1 V c (n - 1) (by omega)).1⟩])
        ∗ owns (c : Thread nD τ) scM1_1 fullShare (View.canon [⟨rS1, (accAt1 V c (n - 1) (by omega)).2⟩]))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => mean1 V c t.val t.isLt
    | ⟨2, _⟩ => var1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = mean1 V c t.val t.isLt := by dsimp only [dat1]
theorem after1_2 (c : Dev nD) (t : Fin cfg1.N) : (dat1 V c).after 2 t = var1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- Each window's current staging memref at point `t`, spelled as the pipeline passes it. -/
abbrev ms1_0 (t : Fin cfg1.N) : Memref sig .tc .vmem S5000x32 .f32 := win1_0.stage (cfg1.slots t 0)
abbrev ms1_1 (t : Fin cfg1.N) : Memref sig .tc .vmem S1x32 .f32 := win1_1.stage (cfg1.slots t 1)
abbrev ms1_2 (t : Fin cfg1.N) : Memref sig .tc .vmem S1x32 .f32 := win1_2.stage (cfg1.slots t 2)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h0 : t.val % 20 = 0
  · have h1 : ¬t.val % 20 = 19 := by omega
    have hz : t.val = 0 := by omega
    rw [Dat.leavesExact_idle (dat1 V c) 1 t (idleAt1_1 t h1) (noFlush1_1 t h1),
      Dat.leavesExact_idle (dat1 V c) 2 t (idleAt1_2 t h1) (noFlush1_2 t h1)]
    rw [accAt1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩⟩
    iapply (run1_A c Set.univ (grid1.coords t) _ _ _ _ _ _ _ _ _ _ ((hcond1_0 t).mpr h0) (fun h => h1 ((hcond1_1 t).mp h)) (iblk1 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat1 V c).leavesExact 1 t = owns (c : Thread nD τ) (ms1_1 t) fullShare ((dat1 V c).after 1 t) from by
        unfold Dat.leavesExact; rw [liveAt1_1 t h1], after1_1]
      rw [show (dat1 V c).leavesExact 2 t = owns (c : Thread nD τ) (ms1_2 t) fullShare ((dat1 V c).after 2 t) from by
        unfold Dat.leavesExact; rw [liveAt1_2 t h1], after1_2]
      unfold mean1 var1
      rw [accAt1_pos V c t hz]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩⟩
      iapply (run1_C c Set.univ (grid1.coords t) _ _ _ _ _ _ _ _ _ _ (fun h => h0 ((hcond1_0 t).mp h)) ((hcond1_1 t).mpr h1) (iblk1 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat1 V c) 1 t (idleAt1_1 t h1) (noFlush1_1 t h1),
        Dat.leavesExact_idle (dat1 V c) 2 t (idleAt1_2 t h1) (noFlush1_2 t h1)]
      rw [accAt1_pos V c t hz]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩⟩
      iapply (run1_B' c Set.univ (grid1.coords t) _ _ _ _ _ _ _ _ _ _ (fun h => h0 ((hcond1_0 t).mp h)) (fun h => h1 ((hcond1_1 t).mp h)) (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the scoped buffers no window stages make the invariant before the first point
    (whatever rides between them is dropped). -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]; unfold Pipeline.ΦA
  iintro ⟨Hp, -, Hr⟩
  isplitl [Hr]; · iexact Hr
  iexact Hp

/-- After any point but the first the invariant gives the class invariant back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout1 (c : Dev nD) :
    (dat1 V c).Φ (Fin.last cfg1.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec1 c) := by
  rw [Pipeline.ownSems0_none]
  refine (Phi_out1 V c _ (by rw [Fin.val_last]; have : cfg1.N = 20 := N_1; omega)).trans ?_
  unfold Pipeline.ΦA
  iintro ⟨Hr, Hp⟩
  isplitl [Hp]; · iexact Hp
  isplitr; · iempintro
  iexact Hr

end Region1

end Cert.KernelIdeal.Hand
end
-- ==== Proof.KI.Reg2.lean ====
/- Region 2 of @main: the batch-norm apply kernel (custom_call 2) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.KernelIdeal.Launch
import proofs.«177080_j35828617183700_2_alg».proof.Proof.Gen.KernelIdeal.Skeleton
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is the entry contents (`hA`) and whose body leaves the block in place (`hafter`): unfetched, the block index has not
    moved, so the block the buffer still holds is this point's. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

/-- The whole block of 5000 rows. -/
abbrev r2_blk : Rect S5000x32 := Rect.unit (s := S5000x32) ![0, 0] S5000x32.size inb_S5000x32_S5000x32_0_0
/-- The whole row. -/
abbrev r2_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out2_5 (x0 : Vec F S5000x32 .f32) (x1 x2 x3 x4 : Vec F S1x32 .f32) : Vec F S5000x32 .f32 :=
  View.canon [⟨r2_blk, k2_pay1 (View.ld x0 r2_blk) (View.ld x1 r2_row) (View.ld x2 r2_row) (View.ld x3 r2_row) (View.ld x4 r2_row)⟩]

/-- The one store is of the whole buffer, so it covers it. -/
theorem cover2_5 (p0 : Vec F S5000x32 .f32) (y : S5000x32.Idx) :
    ∃ pc ∈ ([⟨r2_blk, p0⟩] : List (View.Piece (Elt F) S5000x32 .f32)), y ∈ pc.1.set :=
  View.cover_of_tiled [⟨r2_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out2_5` of the inputs'. -/
theorem sound_kernel2 (c : Dev nD) (E : Set ℕ) (i : grid2.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t` each
    input's buffer at its block and the output's at `out2_5` of the five input blocks; the invariant the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the output's holds anything, so the body's triple
    applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- The invariant at the first point, from the generator register and the scoped buffers no window stages (the
    pipeline has no prefetched table: that conjunct is dropped). -/
theorem hin2 (c : Dev nD) :
    iprop((∃ r, prngReg c r) ∗ Pipeline.prefHeld (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, -, Hr⟩
  isplitl [Hr]; · iexact Hr
  iexact Hp

/-- The invariant at the last point gives back the generator register and those scoped buffers; the kernel has no
    semaphore of its own. -/
theorem hout2 (c : Dev nD) :
    ((dat2 V c).Φ (Fin.last cfg2.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 V c).Φ (Fin.last cfg2.N) = Pipeline.ΦA spec2 c from rfl]; unfold Pipeline.ΦA
  iintro ⟨Hr, Hp⟩
  isplitl [Hp]; · iexact Hp
  isplitr; · iempintro
  iexact Hr

end Cert.KernelIdeal.Hand

end
-- ==== Proof.KI.Reg3.lean ====
/- Region 3 of @main, the second linear layer (custom call 3): a 20-point grid; at each point the body multiplies a
   5000x32 block of the preceding normalization's output by the whole 32x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import proofs.«177080_j35828617183700_2_alg».proof.Proof.Gen.KernelIdeal.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature window's buffer holds its block at every point: it is fetched at every point, and the body leaves it
    in place. For any proof data with the entry array and that keeps the block. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The weight window's buffer holds the weight at every point: fetched at the first point only, its block index never
    moves, so a point that does not fetch finds the previous point's block, which is its own. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-! ## The body's accesses: each buffer whole -/

abbrev allX3 : Rect S5000x32 := Rect.unit (s := S5000x32) ![0, 0] S5000x32.size inb_S5000x32_S5000x32_0_0
abbrev allW3 : Rect S32x32 := Rect.unit (s := S32x32) ![0, 0] S32x32.size inb_S32x32_S32x32_0_0
abbrev allY3 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod3 (x : Vec F S5000x32 .f32) (wt : Vec F S32x32 .f32) : Vec F S5000x32 .f32 :=
  View.canon [⟨allY3, k3_pay1 (View.ld x allX3) (View.ld wt allW3)⟩]

/-- The one store covers the buffer. -/
theorem cover3 (p : Vec F S5000x32 .f32) (y : S5000x32.Idx) :
    ∃ pc ∈ ([⟨allY3, p⟩] : List (View.Piece (Elt F) S5000x32 .f32)), y ∈ pc.1.set :=
  View.cover_of_tiled [⟨allY3, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple3 (c : Dev nD) (E : Set ℕ) (i : grid3.Coords)
    (a1 : Memref sig .tc .vmem S5000x32 .f32) (h1 : a1.IsWhole) (a2 : Memref sig .tc .vmem S32x32 .f32) (h2 : a2.IsWhole)
    (a3 : Memref sig .tc .vmem S5000x32 .f32) (h3 : a3.IsWhole)
    (x : Vec F S5000x32 .f32) (wt : Vec F S32x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod3 x wt)) -∗ K ⟨⟩))
      ⊢ wp frame (wpE (defs₀ (F := F)) Variants.none c none) E (cc3__linear_kernel i a1 h1 a2 h2 a3 h3) K := by
  simp only [cc3__linear_kernel_eq_skeleton]; unfold cc3__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the region on core c: the arrays at the entry contents; after the body at point t each input's
    buffer at its block and the output's at the product of the two blocks; the invariant the scoped buffers no window
    stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => prod3 (blk3 V c 0 t) (blk3 V c 1 t)
  Φ _ := Pipeline.ΦA spec3 c
  q _ := fullShare
  owed _ := 0

/-- The arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = prod3 (blk3 V c 0 t) (blk3 V c 1 t) := by dsimp only [dat3]

/-- Each input's current buffer holds its block at every point. -/
theorem held3_0 (c : Dev nD) (t : Fin cfg3.N) (d) : (dat3 V c).before 0 t d = blk3 V c 0 t :=
  held3_0_of V (dat3 V c) (A_eq3 V c 0) (after3_0 V c) t d
theorem held3_1 (c : Dev nD) (t : Fin cfg3.N) (d) : (dat3 V c).before 1 t d = blk3 V c 1 t :=
  held3_1_of V (dat3 V c) (A_eq3 V c 1) (after3_1 V c) t d

/-! ## The body obligation -/

/-- What the body is called with at point t: the invariant, the core's debt, each window's current buffer at what the
    pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and the debt
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [held3_0, held3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (triple3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant against the thread state around the region -/

/-- The invariant at the first point, from the generator register and the scoped buffers no window stages (the region
    has no prefetched table). -/
theorem hin3 (c : Dev nD) :
    iprop((∃ r, prngReg c r) ∗ Pipeline.prefHeld (pcfgs (F := F) 3).pre c (fun _ => fullShare) (adm (F := F) 3).1 ∗ Pipeline.scopedRest spec3 c)
      ⊢ (dat3 V c).Φ 0 := by
  rw [show (dat3 V c).Φ 0 = Pipeline.ΦA spec3 c from rfl]; unfold Pipeline.ΦA
  iintro ⟨Hp, -, Hr⟩
  isplitl [Hr]; · iexact Hr
  iexact Hp

/-- The invariant at the last point gives them back; the kernel has no semaphore of its own. -/
theorem hout3 (c : Dev nD) :
    (dat3 V c).Φ (Fin.last _) ⊢ iprop((∃ r, prngReg c r) ∗ Pipeline.ownSems0 (fun k : PEmpty => k.elim) c ∗ Pipeline.scopedRest spec3 c) := by
  rw [Pipeline.ownSems0_none, show (dat3 V c).Φ (Fin.last _) = Pipeline.ΦA spec3 c from rfl]; unfold Pipeline.ΦA
  iintro ⟨Hr, Hp⟩
  isplitl [Hp]; · iexact Hp
  isplitr; · iempintro
  iexact Hr

end Cert.KernelIdeal.Hand

end
-- ==== Proof.KI.Reg4.lean ====
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- what the region finds in every buffer of the core when it is entered
variable (V : (c : Dev nD) → (b : Ref sig .tc) → Buf (Elt F) ((c : Thread nD τ).loc b))

/-! # Region 4: column sums and sums of squares over the 20 row blocks, mean and variance at the last block -/

/-! ## The input block -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's rectangles: every access is of a whole buffer -/

/-- The whole 1x32 row. -/
abbrev rS4 : Rect S1x32 := Rect.unit (s := S1x32) ![0, 0] S1x32.size inb_S1x32_S1x32_0_0
/-- The whole 5000x32 block. -/
abbrev rX4 : Rect S5000x32 := Rect.unit (s := S5000x32) ![0, 0] S5000x32.size inb_S5000x32_S5000x32_0_0

/-- One store of the whole row covers it. -/
theorem coverS4 (p0 : Vec F S1x32 .f32) (y : S1x32.Idx) :
    ∃ pc ∈ ([⟨rS4, p0⟩] : List (View.Piece (Elt F) S1x32 .f32)), y ∈ pc.1.set :=
  View.cover_of_tiled [⟨rS4, p0⟩] S1x32.size (by rfl) y

/-- So does a list whose last store is of the whole row. -/
theorem coverS4_cons (p0 : Vec F S1x32 .f32) (L : List (View.Piece (Elt F) S1x32 .f32)) (y : S1x32.Idx) :
    ∃ pc ∈ ((⟨rS4, p0⟩ : View.Piece (Elt F) S1x32 .f32) :: L), y ∈ pc.1.set := by
  obtain ⟨pc, hm, hy⟩ := coverS4 p0 y
  rw [List.mem_singleton] at hm; subst hm
  exact ⟨_, List.mem_cons_self, hy⟩

/-- A store of the whole row hides every earlier store. -/
theorem canon_row4_cons (p0 : Vec F S1x32 .f32) (L : List (View.Piece (Elt F) S1x32 .f32)) :
    View.canon ((⟨rS4, p0⟩ : View.Piece (Elt F) S1x32 .f32) :: L) = View.canon [⟨rS4, p0⟩] := by
  funext y
  obtain ⟨pc, hm, hy⟩ := coverS4 p0 y
  rw [List.mem_singleton] at hm; subst hm
  obtain ⟨x, rfl⟩ := (rS4).exists_idx_of_mem hy
  exact (View.canon_cons_emb _ p0 L x).trans (View.canon_cons_emb _ p0 [] x).symm

/-- A load of the whole row after a store of the whole row reads the stored value. -/
theorem ld_canon_row4 (p0 : Vec F S1x32 .f32) :
    View.ld (View.canon [(⟨rS4, p0⟩ : View.Piece (Elt F) S1x32 .f32)]) rS4 = p0 :=
  funext fun j => View.canon_cons_emb rS4 p0 [] j

/-! ## The body's two conditions, in closed form over the grid -/

/-- The condition of the first `scf.if` (the grid's first point: the accumulators are zeroed). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)
/-- The condition of the second `scf.if` (the grid's last point: mean and variance are stored). -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-- The input window is never idle. -/
theorem liveAt4_0 : ∀ t : Fin cfg4.N, cfg4.idle 0 (grid4.coords t) = false := by decide +kernel
/-- The two output windows are idle at every point but the last, and not written back there; live at the last. -/
theorem idleAt4_1 : ∀ t : Fin cfg4.N, ¬t.val % 20 = 19 → cfg4.idle 1 (grid4.coords t) = true := by decide +kernel
theorem idleAt4_2 : ∀ t : Fin cfg4.N, ¬t.val % 20 = 19 → cfg4.idle 2 (grid4.coords t) = true := by decide +kernel
theorem liveAt4_1 : ∀ t : Fin cfg4.N, t.val % 20 = 19 → cfg4.idle 1 (grid4.coords t) = false := by decide +kernel
theorem liveAt4_2 : ∀ t : Fin cfg4.N, t.val % 20 = 19 → cfg4.idle 2 (grid4.coords t) = false := by decide +kernel
theorem noFlush4_1 (t : Fin cfg4.N) (h : ¬t.val % 20 = 19) : (cfg4.win 1).flush t = false :=
  Bool.eq_false_iff.mpr fun hf => h ((flush4_1 t).mp hf)
theorem noFlush4_2 (t : Fin cfg4.N) (h : ¬t.val % 20 = 19) : (cfg4.win 2).flush t = false :=
  Bool.eq_false_iff.mpr fun hf => h ((flush4_2 t).mp hf)

/-! ## The body's triple, case by case -/

set_option maxHeartbeats 1000000 in
/-- A MIDDLE point (neither condition): the two accumulator rows, at `s0` and `s1`, each get the block's column
    reduction added; the output rows are handed back untouched. -/
theorem run4_B (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : ¬cond4_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) (View.ld s0 rS4)⟩])
            ∗ owns (c : Thread nD τ) arg5 fullShare (View.canon [⟨rS4, k4_pay5 (View.ld x0 rX4) (View.ld s1 rS4)⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS4 _)
  iexists _; isplitr
  swap; · iexact H4
  ipureintro
  exact View.read_writes_eq_canon _ _ _ (coverS4 _)

/-- The same with the accumulator rows given by the values last stored into them. -/
theorem run4_B' (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : ¬cond4_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS4, a⟩]) ∗ owns (c : Thread nD τ) arg5 fullShare (View.canon [⟨rS4, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) a⟩])
            ∗ owns (c : Thread nD τ) arg5 fullShare (View.canon [⟨rS4, k4_pay5 (View.ld x0 rX4) b⟩])) -∗ K ⟨⟩))
      ⊢ wp frame (wpE (defs₀ (F := F)) Variants.none c none) E (cc4__bn_stats_kernel i arg1 harg1 arg2 harg2 arg3 harg3 arg4 harg4 arg5 harg5) K := by
  have h := run4_B c E i arg1 harg1 arg2 harg2 arg3 harg3 arg4 harg4 arg5 harg5 hc0 hc1 x0 y1 y2 (View.canon [⟨rS4, a⟩]) (View.canon [⟨rS4, b⟩]) K
  rw [ld_canon_row4, ld_canon_row4] at h
  exact h

set_option maxHeartbeats 1000000 in
/-- The FIRST point (first condition only): the accumulator rows, at anything, are zeroed and then get the block's
    column reduction added; the output rows are handed back untouched. -/
theorem run4_A (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond4_0 i) (hc1 : ¬cond4_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS4, k4_pay4 (View.ld x0 rX4) k4_pay1⟩])
            ∗ owns (c : Thread nD τ) arg5 fullShare (View.canon [⟨rS4, k4_pay5 (View.ld x0 rX4) k4_pay2⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS4_cons _ _), canon_row4_cons]
    unfold run4_A.sl.v5 run4_A.sl.H3_1
    rw [View.readCov_cons_toLoadRect]
    rfl
  iexists _; isplitr
  swap; · iexact H4
  ipureintro
  rw [View.read_writes_eq_canon _ _ _ (coverS4_cons _ _), canon_row4_cons]
  unfold run4_A.sl.v12 run4_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run4_C (c : Dev nD) (E : Set ℕ) (i : grid4.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond4_0 i) (hc1 : cond4_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS4, a⟩]) ∗ owns (c : Thread nD τ) arg5 fullShare (View.canon [⟨rS4, b⟩])
        ∗ (iprop(owns (c : Thread nD τ) arg1 fullShare x0
            ∗ owns (c : Thread nD τ) arg2 fullShare (View.canon [⟨rS4, k4_pay6 (k4_pay4 (View.ld x0 rX4) a)⟩])
            ∗ owns (c : Thread nD τ) arg3 fullShare (View.canon [⟨rS4, k4_pay7 (k4_pay4 (View.ld x0 rX4) a) (k4_pay5 (View.ld x0 rX4) b)⟩])
            ∗ owns (c : Thread nD τ) arg4 fullShare (View.canon [⟨rS4, k4_pay4 (View.ld x0 rX4) a⟩])
            ∗ owns (c : Thread nD τ) arg5 fullShare (View.canon [⟨rS4, k4_pay5 (View.ld x0 rX4) b⟩])) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS4).toLoadRect f3 = a := by
    rw [View.readAt_eq_ld, hf3, ld_canon_row4]
  have e4 : View.readAt (Elt F) arg5.view (rS4).toLoadRect f4 = b := by
    rw [View.readAt_eq_ld, hf4, ld_canon_row4]
  iapply Hk
  isplitl [H0]
  · iexists f0; isplitr; · ipureintro; rfl
    iexact H0
  isplitl [H1]
  · iexists _; isplitr
    swap; · iexact H1
    ipureintro
    rw [View.read_writes_eq_canon _ _ _ (coverS4 _)]
    unfold run4_C.sl.v23 run4_C.sl.H3_1
    rw [View.readCov_cons_toLoadRect, e3]
    rfl
  isplitl [H2]
  · iexists _; isplitr
    swap; · iexact H2
    ipureintro
    rw [View.read_writes_eq_canon _ _ _ (coverS4 _)]
    unfold run4_C.sl.v23 run4_C.sl.H3_1 run4_C.sl.v26 run4_C.sl.H4_1
    rw [View.readCov_cons_toLoadRect, View.readCov_cons_toLoadRect, e3, e4]
    rfl
  isplitl [H3]
  · iexists _; isplitr
    swap; · iexact H3
    ipureintro
    unfold run4_C.sl.H3_1
    rw [View.read_writes_eq_canon _ _ _ (coverS4 _), e3]
    rfl
  iexists _; isplitr
  swap; · iexact H4
  ipureintro
  unfold run4_C.sl.H4_1
  rw [View.read_writes_eq_canon _ _ _ (coverS4 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt4 (c : Dev nD) : (n : ℕ) → n < cfg4.N → Vec F S1x32 .f32 × Vec F S1x32 .f32
  | 0, hn => (k4_pay4 (View.ld (iblk4 V c 0 ⟨0, hn⟩) rX4) k4_pay1, k4_pay5 (View.ld (iblk4 V c 0 ⟨0, hn⟩) rX4) k4_pay2)
  | n + 1, hn => (k4_pay4 (View.ld (iblk4 V c 0 ⟨n + 1, hn⟩) rX4) (accAt4 c n (Nat.lt_of_succ_lt hn)).1,
      k4_pay5 (View.ld (iblk4 V c 0 ⟨n + 1, hn⟩) rX4) (accAt4 c n (Nat.lt_of_succ_lt hn)).2)

/-- At the first point: the block's reductions added to the zero rows. -/
theorem accAt4_zero (c : Dev nD) (t : Fin cfg4.N) (h0 : t.val = 0) :
    accAt4 V c t.val t.isLt = (k4_pay4 (View.ld (iblk4 V c 0 t) rX4) k4_pay1, k4_pay5 (View.ld (iblk4 V c 0 t) rX4) k4_pay2) := by
  obtain ⟨n, hn⟩ := t
  cases n with
  | zero => rfl
  | succ n => exact absurd h0 (Nat.succ_ne_zero n)

/-- At a later point: the block's reductions added to what the point before left. -/
theorem accAt4_pos (c : Dev nD) (t : Fin cfg4.N) (h0 : t.val ≠ 0) :
    accAt4 V c t.val t.isLt = (k4_pay4 (View.ld (iblk4 V c 0 t) rX4) (accAt4 V c (t.val - 1) (Nat.lt_of_le_of_lt (Nat.sub_le _ _) t.isLt)).1,
      k4_pay5 (View.ld (iblk4 V c 0 t) rX4) (accAt4 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean4 (c : Dev nD) (n : ℕ) (hn : n < cfg4.N) : Vec F S1x32 .f32 :=
  View.canon [⟨rS4, k4_pay6 (accAt4 V c n hn).1⟩]
/-- The variance row from the accumulated column sums and sums of squares. -/
def var4 (c : Dev nD) (n : ℕ) (hn : n < cfg4.N) : Vec F S1x32 .f32 :=
  View.canon [⟨rS4, k4_pay7 (accAt4 V c n hn).1 (accAt4 V c n hn).2⟩]

/-! ## The invariant: the two accumulator rows at named contents -/

/-- The two scratch rows as memrefs. -/
abbrev scM4_0 : Memref sig .tc .vmem S1x32 .f32 := Memref.whole cc4_scratch0
abbrev scM4_1 : Memref sig .tc .vmem S1x32 .f32 := Memref.whole cc4_scratch1

/-- The class invariant with the two scratch rows split out of the scoped rest, each at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The region invariant before position `n`: before the first point the class invariant (the scratch rows at
    anything); afterwards the scratch rows at the values the point before stored, the rest of the scoped buffers at
    anything and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (View.canon [⟨rS4, (accAt4 V c n hn).1⟩])
        ∗ owns (c : Thread nD τ) scM4_1 fullShare (View.canon [⟨rS4, (accAt4 V c n hn).2⟩]))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (View.canon [⟨rS4, (accAt4 V c n hn).1⟩])
        ∗ owns (c : Thread nD τ) scM4_1 fullShare (View.canon [⟨rS4, (accAt4 V c n hn).2⟩]))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (View.canon [⟨rS4, (accAt4 V c (n - 1) (by omega)).1⟩])
        ∗ owns (c : Thread nD τ) scM4_1 fullShare (View.canon [⟨rS4, (accAt4 V c (n - 1) (by omega)).2⟩]))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => mean4 V c t.val t.isLt
    | ⟨2, _⟩ => var4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = mean4 V c t.val t.isLt := by dsimp only [dat4]
theorem after4_2 (c : Dev nD) (t : Fin cfg4.N) : (dat4 V c).after 2 t = var4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

/-- Each window's current staging memref at point `t`, spelled as the pipeline passes it. -/
abbrev ms4_0 (t : Fin cfg4.N) : Memref sig .tc .vmem S5000x32 .f32 := win4_0.stage (cfg4.slots t 0)
abbrev ms4_1 (t : Fin cfg4.N) : Memref sig .tc .vmem S1x32 .f32 := win4_1.stage (cfg4.slots t 1)
abbrev ms4_2 (t : Fin cfg4.N) : Memref sig .tc .vmem S1x32 .f32 := win4_2.stage (cfg4.slots t 2)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  by_cases h0 : t.val % 20 = 0
  · have h1 : ¬t.val % 20 = 19 := by omega
    have hz : t.val = 0 := by omega
    rw [Dat.leavesExact_idle (dat4 V c) 1 t (idleAt4_1 t h1) (noFlush4_1 t h1),
      Dat.leavesExact_idle (dat4 V c) 2 t (idleAt4_2 t h1) (noFlush4_2 t h1)]
    rw [accAt4_zero V c t hz]
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩⟩
    iapply (run4_A c Set.univ (grid4.coords t) _ _ _ _ _ _ _ _ _ _ ((hcond4_0 t).mpr h0) (fun h => h1 ((hcond4_1 t).mp h)) (iblk4 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat4 V c).leavesExact 1 t = owns (c : Thread nD τ) (ms4_1 t) fullShare ((dat4 V c).after 1 t) from by
        unfold Dat.leavesExact; rw [liveAt4_1 t h1], after4_1]
      rw [show (dat4 V c).leavesExact 2 t = owns (c : Thread nD τ) (ms4_2 t) fullShare ((dat4 V c).after 2 t) from by
        unfold Dat.leavesExact; rw [liveAt4_2 t h1], after4_2]
      unfold mean4 var4
      rw [accAt4_pos V c t hz]
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩⟩
      iapply (run4_C c Set.univ (grid4.coords t) _ _ _ _ _ _ _ _ _ _ (fun h => h0 ((hcond4_0 t).mp h)) ((hcond4_1 t).mpr h1) (iblk4 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat4 V c) 1 t (idleAt4_1 t h1) (noFlush4_1 t h1),
        Dat.leavesExact_idle (dat4 V c) 2 t (idleAt4_2 t h1) (noFlush4_2 t h1)]
      rw [accAt4_pos V c t hz]
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩⟩
      iapply (run4_B' c Set.univ (grid4.coords t) _ _ _ _ _ _ _ _ _ _ (fun h => h0 ((hcond4_0 t).mp h)) (fun h => h1 ((hcond4_1 t).mp h)) (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- The generator register and the scoped buffers no window stages make the invariant before the first point
    (whatever rides between them is dropped). -/
theorem hin4 (c : Dev nD) (P : sProp 𝕄) :
    iprop((∃ r, prngReg c r) ∗ P ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After any point but the first the invariant gives the class invariant back: the rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout4 (c : Dev nD) :
    (dat4 V c).Φ (Fin.last cfg4.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec4 c) := by
  rw [Pipeline.ownSems0_none]
  refine (Phi_out4 V c _ (by rw [Fin.val_last]; have : cfg4.N = 20 := N_4; omega)).trans ?_
  unfold Pipeline.ΦA
  iintro ⟨Hr, Hp⟩
  isplitl [Hp]; · iexact Hp
  isplitr; · iempintro
  iexact Hr

end Region4

end Cert.KernelIdeal.Hand
end
-- ==== Proof.KI.Reg5.lean ====
/- Region 5 of @main: the batch-norm apply kernel (custom_call 5) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.KernelIdeal.Launch
import proofs.«177080_j35828617183700_2_alg».proof.Proof.Gen.KernelIdeal.Skeleton
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data whose
    array is the entry contents (`hA`) and whose body leaves the block in place (`hafter`): unfetched, the block index has not
    moved, so the block the buffer still holds is this point's. The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

/-- The whole block of 5000 rows. -/
abbrev r5_blk : Rect S5000x32 := Rect.unit (s := S5000x32) ![0, 0] S5000x32.size inb_S5000x32_S5000x32_0_0
/-- The whole row. -/
abbrev r5_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out5_5 (x0 : Vec F S5000x32 .f32) (x1 x2 x3 x4 : Vec F S1x32 .f32) : Vec F S5000x32 .f32 :=
  View.canon [⟨r5_blk, k5_pay1 (View.ld x0 r5_blk) (View.ld x1 r5_row) (View.ld x2 r5_row) (View.ld x3 r5_row) (View.ld x4 r5_row)⟩]

/-- The one store is of the whole buffer, so it covers it. -/
theorem cover5_5 (p0 : Vec F S5000x32 .f32) (y : S5000x32.Idx) :
    ∃ pc ∈ ([⟨r5_blk, p0⟩] : List (View.Piece (Elt F) S5000x32 .f32)), y ∈ pc.1.set :=
  View.cover_of_tiled [⟨r5_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out5_5` of the inputs'. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the pipeline on core `c`: the arrays as the region finds them; after the body at point `t` each
    input's buffer at its block and the output's at `out5_5` of the five input blocks; the invariant the scoped
    buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, the output's holds anything, so the body's triple
    applies; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the two ends -/

/-- The invariant at the first point, from the generator register and the scoped buffers no window stages (the
    pipeline has no prefetched table: that conjunct is dropped). -/
theorem hin5 (c : Dev nD) :
    iprop((∃ r, prngReg c r) ∗ Pipeline.prefHeld (pcfgs (F := F) 5).pre c (fun _ => fullShare) ((cfgs 5).toPCfg_adm (Val := Elt F)).1
        ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, -, Hr⟩
  isplitl [Hr]; · iexact Hr
  iexact Hp

/-- The invariant at the last point gives back the generator register and those scoped buffers; the kernel has no
    semaphore of its own. -/
theorem hout5 (c : Dev nD) :
    ((dat5 V c).Φ (Fin.last cfg5.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec5 c) := by
  rw [Pipeline.ownSems0_none, show (dat5 V c).Φ (Fin.last cfg5.N) = Pipeline.ΦA spec5 c from rfl]; unfold Pipeline.ΦA
  iintro ⟨Hr, Hp⟩
  isplitl [Hp]; · iexact Hp
  isplitr; · iempintro
  iexact Hr

end Cert.KernelIdeal.Hand

end
-- ==== Proof.KI.Reg6.lean ====
/- Region 6 of @main, the third linear layer (custom call 6): a 20-point grid; at each point the body multiplies a
   5000x32 block of the preceding normalization's output by the whole 32x32 weight and stores the 5000x32 product. Stated over the
   contents V every buffer holds when the region is entered: each window's block, what the body leaves in the output
   window's buffer, the body's triple, the proof data, the body obligation at every point, and the two entailments
   between the region's invariant and the thread state around it. -/
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import proofs.«177080_j35828617183700_2_alg».proof.Proof.Gen.KernelIdeal.Regions
import Idealize.ShloMosaic.Lib.Pipeline.FrameBody
import Idealize.ShloMosaic.Lib.Ring
import Idealize.ShloMosaic.Lib.Tactic

-- membership of an index in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The feature window's buffer holds its block at every point: it is fetched at every point, and the body leaves it
    in place. For any proof data with the entry array and that keeps the block. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The weight window's buffer holds the weight at every point: fetched at the first point only, its block index never
    moves, so a point that does not fetch finds the previous point's block, which is its own. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-! ## The body's accesses: each buffer whole -/

abbrev allX6 : Rect S5000x32 := Rect.unit (s := S5000x32) ![0, 0] S5000x32.size inb_S5000x32_S5000x32_0_0
abbrev allW6 : Rect S32x32 := Rect.unit (s := S32x32) ![0, 0] S32x32.size inb_S32x32_S32x32_0_0
abbrev allY6 : Rect S5000x32 := Rect.unit (s := S5000x32) ![0, 0] S5000x32.size inb_S5000x32_S5000x32_0_0

/-! ## What the body leaves in the output window's buffer -/

/-- The output buffer after the body, from the two input blocks: one store over the whole buffer, of the product of the
    block and the weight (each rounded to bf16, accumulated in f32 from zero). -/
def prod6 (x : Vec F S5000x32 .f32) (wt : Vec F S32x32 .f32) : Vec F S5000x32 .f32 :=
  View.canon [⟨allY6, k6_pay1 (View.ld x allX6) (View.ld wt allW6)⟩]

/-- The one store covers the buffer. -/
theorem cover6 (p : Vec F S5000x32 .f32) (y : S5000x32.Idx) :
    ∃ pc ∈ ([⟨allY6, p⟩] : List (View.Piece (Elt F) S5000x32 .f32)), y ∈ pc.1.set :=
  View.cover_of_tiled [⟨allY6, p⟩] S5000x32.size (by rfl) y

/-! ## The body's triple -/

set_option maxHeartbeats 1000000 in
/-- The body on whole staging memrefs — the inputs' at read contents x and wt, the output's at ANY contents (the body
    loads the output block before storing into it and does not use what it loaded) — runs to the continuation holding the
    inputs' as they were and the output's at the product. -/
theorem triple6 (c : Dev nD) (E : Set ℕ) (i : grid6.Coords)
    (a1 : Memref sig .tc .vmem S5000x32 .f32) (h1 : a1.IsWhole) (a2 : Memref sig .tc .vmem S32x32 .f32) (h2 : a2.IsWhole)
    (a3 : Memref sig .tc .vmem S5000x32 .f32) (h3 : a3.IsWhole)
    (x : Vec F S5000x32 .f32) (wt : Vec F S32x32 .f32) (K : PUnit → sProp 𝕄) :
    iprop(owns (c : Thread nD τ) a1 fullShare x ∗ owns (c : Thread nD τ) a2 fullShare wt ∗ (∃ d, owns (c : Thread nD τ) a3 fullShare d)
        ∗ (iprop(owns (c : Thread nD τ) a1 fullShare x ∗ owns (c : Thread nD τ) a2 fullShare wt
            ∗ owns (c : Thread nD τ) a3 fullShare (prod6 x wt)) -∗ K ⟨⟩))
      ⊢ wp frame (wpE (defs₀ (F := F)) Variants.none c none) E (cc6__linear_kernel i a1 h1 a2 h2 a3 h3) K := by
  simp only [cc6__linear_kernel_eq_skeleton]; unfold cc6__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-! ## The proof data -/

/-- The proof data of the region on core c: the arrays at the entry contents; after the body at point t each input's
    buffer at its block and the output's at the product of the two blocks; the invariant the scoped buffers no window
    stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => prod6 (blk6 V c 0 t) (blk6 V c 1 t)
  Φ _ := Pipeline.ΦA spec6 c
  q _ := fullShare
  owed _ := 0

/-- The arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = prod6 (blk6 V c 0 t) (blk6 V c 1 t) := by dsimp only [dat6]

/-- Each input's current buffer holds its block at every point. -/
theorem held6_0 (c : Dev nD) (t : Fin cfg6.N) (d) : (dat6 V c).before 0 t d = blk6 V c 0 t :=
  held6_0_of V (dat6 V c) (A_eq6 V c 0) (after6_0 V c) t d
theorem held6_1 (c : Dev nD) (t : Fin cfg6.N) (d) : (dat6 V c).before 1 t d = blk6 V c 1 t :=
  held6_1_of V (dat6 V c) (A_eq6 V c 1) (after6_1 V c) t d

/-! ## The body obligation -/

/-- What the body is called with at point t: the invariant, the core's debt, each window's current buffer at what the
    pipeline left there, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the triple applies; the invariant and the debt
    pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [held6_0, held6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (triple6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant against the thread state around the region -/

/-- The invariant at the first point, from the generator register and the scoped buffers no window stages (the region
    has no prefetched table). -/
theorem hin6 (c : Dev nD) :
    iprop((∃ r, prngReg c r) ∗ Pipeline.prefHeld (pcfgs (F := F) 6).pre c (fun _ => fullShare) (adm (F := F) 6).1 ∗ Pipeline.scopedRest spec6 c)
      ⊢ (dat6 V c).Φ 0 := by
  rw [show (dat6 V c).Φ 0 = Pipeline.ΦA spec6 c from rfl]; unfold Pipeline.ΦA
  iintro ⟨Hp, -, Hr⟩
  isplitl [Hr]; · iexact Hr
  iexact Hp

/-- The invariant at the last point gives them back; the kernel has no semaphore of its own. -/
theorem hout6 (c : Dev nD) :
    (dat6 V c).Φ (Fin.last _) ⊢ iprop((∃ r, prngReg c r) ∗ Pipeline.ownSems0 (fun k : PEmpty => k.elim) c ∗ Pipeline.scopedRest spec6 c) := by
  rw [Pipeline.ownSems0_none, show (dat6 V c).Φ (Fin.last _) = Pipeline.ΦA spec6 c from rfl]; unfold Pipeline.ΦA
  iintro ⟨Hr, Hp⟩
  isplitl [Hp]; · iexact Hp
  isplitr; · iempintro
  iexact Hr

end Cert.KernelIdeal.Hand

end
-- ==== Proof.KI.Reg7.lean ====
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- what the region finds in every buffer of the core when it is entered
variable (V : (c : Dev nD) → (b : Ref sig .tc) → Buf (Elt F) ((c : Thread nD τ).loc b))

/-! # Region 7: column sums and sums of squares over the 20 row blocks, mean and variance at the last block -/

/-! ## The input block -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is the
    entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's rectangles: every access is of a whole buffer -/

/-- The whole 1x32 row. -/
abbrev rS7 : Rect S1x32 := Rect.unit (s := S1x32) ![0, 0] S1x32.size inb_S1x32_S1x32_0_0
/-- The whole 5000x32 block. -/
abbrev rX7 : Rect S5000x32 := Rect.unit (s := S5000x32) ![0, 0] S5000x32.size inb_S5000x32_S5000x32_0_0

/-- One store of the whole row covers it. -/
theorem coverS7 (p0 : Vec F S1x32 .f32) (y : S1x32.Idx) :
    ∃ pc ∈ ([⟨rS7, p0⟩] : List (View.Piece (Elt F) S1x32 .f32)), y ∈ pc.1.set :=
  View.cover_of_tiled [⟨rS7, p0⟩] S1x32.size (by rfl) y

/-- So does a list whose last store is of the whole row. -/
theorem coverS7_cons (p0 : Vec F S1x32 .f32) (L : List (View.Piece (Elt F) S1x32 .f32)) (y : S1x32.Idx) :
    ∃ pc ∈ ((⟨rS7, p0⟩ : View.Piece (Elt F) S1x32 .f32) :: L), y ∈ pc.1.set := by
  obtain ⟨pc, hm, hy⟩ := coverS7 p0 y
  rw [List.mem_singleton] at hm; subst hm
  exact ⟨_, List.mem_cons_self, hy⟩

/-- A store of the whole row hides every earlier store. -/
theorem canon_row7_cons (p0 : Vec F S1x32 .f32) (L : List (View.Piece (Elt F) S1x32 .f32)) :
    View.canon ((⟨rS7, p0⟩ : View.Piece (Elt F) S1x32 .f32) :: L) = View.canon [⟨rS7, p0⟩] := by
  funext y
  obtain ⟨pc, hm, hy⟩ := coverS7 p0 y
  rw [List.mem_singleton] at hm; subst hm
  obtain ⟨x, rfl⟩ := (rS7).exists_idx_of_mem hy
  exact (View.canon_cons_emb _ p0 L x).trans (View.canon_cons_emb _ p0 [] x).symm

/-- A load of the whole row after a store of the whole row reads the stored value. -/
theorem ld_canon_row7 (p0 : Vec F S1x32 .f32) :
    View.ld (View.canon [(⟨rS7, p0⟩ : View.Piece (Elt F) S1x32 .f32)]) rS7 = p0 :=
  funext fun j => View.canon_cons_emb rS7 p0 [] j

/-! ## The body's two conditions, in closed form over the grid -/

/-- The condition of the first `scf.if` (the grid's first point: the accumulators are zeroed). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 20 = 0 :=
  (by decide +kernel : ∀ t : Fin grid7.N, cond7_0 (grid7.coords t) ↔ t.val % 20 = 0)
/-- The condition of the second `scf.if` (the grid's last point: mean and variance are stored). -/
abbrev cond7_1 (i : grid7.Coords) : Prop := k7_cond2 i = 1#1
theorem hcond7_1 : ∀ t : Fin cfg7.N, cond7_1 (grid7.coords t) ↔ t.val % 20 = 19 :=
  (by decide +kernel : ∀ t : Fin grid7.N, cond7_1 (grid7.coords t) ↔ t.val % 20 = 19)

/-- The input window is never idle. -/
theorem liveAt7_0 : ∀ t : Fin cfg7.N, cfg7.idle 0 (grid7.coords t) = false := by decide +kernel
/-- The two output windows are idle at every point but the last, and not written back there; live at the last. -/
theorem idleAt7_1 : ∀ t : Fin cfg7.N, ¬t.val % 20 = 19 → cfg7.idle 1 (grid7.coords t) = true := by decide +kernel
theorem idleAt7_2 : ∀ t : Fin cfg7.N, ¬t.val % 20 = 19 → cfg7.idle 2 (grid7.coords t) = true := by decide +kernel
theorem liveAt7_1 : ∀ t : Fin cfg7.N, t.val % 20 = 19 → cfg7.idle 1 (grid7.coords t) = false := by decide +kernel
theorem liveAt7_2 : ∀ t : Fin cfg7.N, t.val % 20 = 19 → cfg7.idle 2 (grid7.coords t) = false := by decide +kernel
theorem noFlush7_1 (t : Fin cfg7.N) (h : ¬t.val % 20 = 19) : (cfg7.win 1).flush t = false :=
  Bool.eq_false_iff.mpr fun hf => h ((flush7_1 t).mp hf)
theorem noFlush7_2 (t : Fin cfg7.N) (h : ¬t.val % 20 = 19) : (cfg7.win 2).flush t = false :=
  Bool.eq_false_iff.mpr fun hf => h ((flush7_2 t).mp hf)

/-! ## The body's triple, case by case -/

set_option maxHeartbeats 1000000 in
/-- A MIDDLE point (neither condition): the two accumulator rows, at `s0` and `s1`, each get the block's column
    reduction added; the output rows are handed back untouched. -/
theorem run7_B (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : ¬cond7_1 i)
    (x0 : Vec F S5000x32 .f32) (y1 y2 s0 s1 : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) (View.ld s0 rS7)⟩])
            ∗ owns (c : Thread nD τ) arg5 fullShare (View.canon [⟨rS7, k7_pay5 (View.ld x0 rX7) (View.ld s1 rS7)⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf3; subst hf4
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    exact View.read_writes_eq_canon _ _ _ (coverS7 _)
  iexists _; isplitr
  swap; · iexact H4
  ipureintro
  exact View.read_writes_eq_canon _ _ _ (coverS7 _)

/-- The same with the accumulator rows given by the values last stored into them. -/
theorem run7_B' (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : ¬cond7_1 i)
    (x0 : Vec F S5000x32 .f32) (y1 y2 a b : Vec F S1x32 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare (View.canon [⟨rS7, a⟩]) ∗ owns (c : Thread nD τ) arg5 fullShare (View.canon [⟨rS7, b⟩])
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) a⟩])
            ∗ owns (c : Thread nD τ) arg5 fullShare (View.canon [⟨rS7, k7_pay5 (View.ld x0 rX7) b⟩])) -∗ K ⟨⟩))
      ⊢ wp frame (wpE (defs₀ (F := F)) Variants.none c none) E (cc7__bn_stats_kernel i arg1 harg1 arg2 harg2 arg3 harg3 arg4 harg4 arg5 harg5) K := by
  have h := run7_B c E i arg1 harg1 arg2 harg2 arg3 harg3 arg4 harg4 arg5 harg5 hc0 hc1 x0 y1 y2 (View.canon [⟨rS7, a⟩]) (View.canon [⟨rS7, b⟩]) K
  rw [ld_canon_row7, ld_canon_row7] at h
  exact h

set_option maxHeartbeats 1000000 in
/-- The FIRST point (first condition only): the accumulator rows, at anything, are zeroed and then get the block's
    column reduction added; the output rows are handed back untouched. -/
theorem run7_A (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : cond7_0 i) (hc1 : ¬cond7_1 i)
    (x0 : Vec F S5000x32 .f32) (y1 y2 : Vec F S1x32 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (View.canon [⟨rS7, k7_pay4 (View.ld x0 rX7) k7_pay1⟩])
            ∗ owns (c : Thread nD τ) arg5 fullShare (View.canon [⟨rS7, k7_pay5 (View.ld x0 rX7) k7_pay2⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  sl_exec (disch := first | exact hc0 | exact hc1)
  sl_step
  iapply Hk
  isplitl [H0]
  · iexists f0; isplitr; · ipureintro; rfl
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    rw [View.read_writes_eq_canon _ _ _ (coverS7_cons _ _), canon_row7_cons]
    unfold run7_A.sl.v5 run7_A.sl.H3_1
    rw [View.readCov_cons_toLoadRect]
    rfl
  iexists _; isplitr
  swap; · iexact H4
  ipureintro
  rw [View.read_writes_eq_canon _ _ _ (coverS7_cons _ _), canon_row7_cons]
  unfold run7_A.sl.v12 run7_A.sl.H4_1
  rw [View.readCov_cons_toLoadRect]
  rfl

set_option maxHeartbeats 1000000 in
/-- The LAST point (second condition only): the accumulator rows, at the values `a` and `b` last stored, get the
    block's column reduction added, and the totals' mean and variance are stored into the output rows. -/
theorem run7_C (c : Dev nD) (E : Set ℕ) (i : grid7.Coords)
    (arg1 : Memref sig .tc .vmem S5000x32 .f32) (harg1 : arg1.IsWhole)
    (arg2 : Memref sig .tc .vmem S1x32 .f32) (harg2 : arg2.IsWhole)
    (arg3 : Memref sig .tc .vmem S1x32 .f32) (harg3 : arg3.IsWhole)
    (arg4 : Memref sig .tc .vmem S1x32 .f32) (harg4 : arg4.IsWhole)
    (arg5 : Memref sig .tc .vmem S1x32 .f32) (harg5 : arg5.IsWhole)
    (hc0 : ¬cond7_0 i) (hc1 : cond7_1 i)
    (x0 : Vec F S5000x32 .f32) (a b : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare (View.canon [⟨rS7, a⟩]) ∗ owns (c : Thread nD τ) arg5 fullShare (View.canon [⟨rS7, b⟩])
        ∗ (iprop(owns (c : Thread nD τ) arg1 fullShare x0
            ∗ owns (c : Thread nD τ) arg2 fullShare (View.canon [⟨rS7, k7_pay6 (k7_pay4 (View.ld x0 rX7) a)⟩])
            ∗ owns (c : Thread nD τ) arg3 fullShare (View.canon [⟨rS7, k7_pay7 (k7_pay4 (View.ld x0 rX7) a) (k7_pay5 (View.ld x0 rX7) b)⟩])
            ∗ owns (c : Thread nD τ) arg4 fullShare (View.canon [⟨rS7, k7_pay4 (View.ld x0 rX7) a⟩])
            ∗ owns (c : Thread nD τ) arg5 fullShare (View.canon [⟨rS7, k7_pay5 (View.ld x0 rX7) b⟩])) -∗ K ⟨⟩))
      ⊢ wp frame (wpE (defs₀ (F := F)) Variants.none c none) E (cc7__bn_stats_kernel i arg1 harg1 arg2 harg2 arg3 harg3 arg4 harg4 arg5 harg5) K := by
  simp only [cc7__bn_stats_kernel_eq_skeleton]; unfold cc7__bn_stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0
  sl_exec (disch := first | exact hc0 | exact hc1)
  sl_step
  have e3 : View.readAt (Elt F) arg4.view (rS7).toLoadRect f3 = a := by
    rw [View.readAt_eq_ld, hf3, ld_canon_row7]
  have e4 : View.readAt (Elt F) arg5.view (rS7).toLoadRect f4 = b := by
    rw [View.readAt_eq_ld, hf4, ld_canon_row7]
  iapply Hk
  isplitl [H0]
  · iexists f0; isplitr; · ipureintro; rfl
    iexact H0
  isplitl [H1]
  · iexists _; isplitr
    swap; · iexact H1
    ipureintro
    rw [View.read_writes_eq_canon _ _ _ (coverS7 _)]
    unfold run7_C.sl.v23 run7_C.sl.H3_1
    rw [View.readCov_cons_toLoadRect, e3]
    rfl
  isplitl [H2]
  · iexists _; isplitr
    swap; · iexact H2
    ipureintro
    rw [View.read_writes_eq_canon _ _ _ (coverS7 _)]
    unfold run7_C.sl.v23 run7_C.sl.H3_1 run7_C.sl.v26 run7_C.sl.H4_1
    rw [View.readCov_cons_toLoadRect, View.readCov_cons_toLoadRect, e3, e4]
    rfl
  isplitl [H3]
  · iexists _; isplitr
    swap; · iexact H3
    ipureintro
    unfold run7_C.sl.H3_1
    rw [View.read_writes_eq_canon _ _ _ (coverS7 _), e3]
    rfl
  iexists _; isplitr
  swap; · iexact H4
  ipureintro
  unfold run7_C.sl.H4_1
  rw [View.read_writes_eq_canon _ _ _ (coverS7 _), e4]
  rfl

/-! ## The accumulation, point by point -/

/-- The values the two accumulator rows were last stored with after the body at position `n`: the column sums and
    the column sums of squares of the blocks `0 … n`, added block by block in that order onto the zero rows (the
    first point zeroes the rows and adds its block; each later point adds its block to what the point before left). -/
def accAt7 (c : Dev nD) : (n : ℕ) → n < cfg7.N → Vec F S1x32 .f32 × Vec F S1x32 .f32
  | 0, hn => (k7_pay4 (View.ld (iblk7 V c 0 ⟨0, hn⟩) rX7) k7_pay1, k7_pay5 (View.ld (iblk7 V c 0 ⟨0, hn⟩) rX7) k7_pay2)
  | n + 1, hn => (k7_pay4 (View.ld (iblk7 V c 0 ⟨n + 1, hn⟩) rX7) (accAt7 c n (Nat.lt_of_succ_lt hn)).1,
      k7_pay5 (View.ld (iblk7 V c 0 ⟨n + 1, hn⟩) rX7) (accAt7 c n (Nat.lt_of_succ_lt hn)).2)

/-- At the first point: the block's reductions added to the zero rows. -/
theorem accAt7_zero (c : Dev nD) (t : Fin cfg7.N) (h0 : t.val = 0) :
    accAt7 V c t.val t.isLt = (k7_pay4 (View.ld (iblk7 V c 0 t) rX7) k7_pay1, k7_pay5 (View.ld (iblk7 V c 0 t) rX7) k7_pay2) := by
  obtain ⟨n, hn⟩ := t
  cases n with
  | zero => rfl
  | succ n => exact absurd h0 (Nat.succ_ne_zero n)

/-- At a later point: the block's reductions added to what the point before left. -/
theorem accAt7_pos (c : Dev nD) (t : Fin cfg7.N) (h0 : t.val ≠ 0) :
    accAt7 V c t.val t.isLt = (k7_pay4 (View.ld (iblk7 V c 0 t) rX7) (accAt7 V c (t.val - 1) (Nat.lt_of_le_of_lt (Nat.sub_le _ _) t.isLt)).1,
      k7_pay5 (View.ld (iblk7 V c 0 t) rX7) (accAt7 V c (t.val - 1) (Nat.lt_of_le_of_lt (Nat.sub_le _ _) t.isLt)).2) := by
  obtain ⟨n, hn⟩ := t
  cases n with
  | zero => exact absurd rfl h0
  | succ n => rfl

/-- The mean row from the accumulated column sums. -/
def mean7 (c : Dev nD) (n : ℕ) (hn : n < cfg7.N) : Vec F S1x32 .f32 :=
  View.canon [⟨rS7, k7_pay6 (accAt7 V c n hn).1⟩]
/-- The variance row from the accumulated column sums and sums of squares. -/
def var7 (c : Dev nD) (n : ℕ) (hn : n < cfg7.N) : Vec F S1x32 .f32 :=
  View.canon [⟨rS7, k7_pay7 (accAt7 V c n hn).1 (accAt7 V c n hn).2⟩]

/-! ## The invariant: the two accumulator rows at named contents -/

/-- The two scratch rows as memrefs. -/
abbrev scM7_0 : Memref sig .tc .vmem S1x32 .f32 := Memref.whole cc7_scratch0
abbrev scM7_1 : Memref sig .tc .vmem S1x32 .f32 := Memref.whole cc7_scratch1

/-- The class invariant with the two scratch rows split out of the scoped rest, each at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-- The region invariant before position `n`: before the first point the class invariant (the scratch rows at
    anything); afterwards the scratch rows at the values the point before stored, the rest of the scoped buffers at
    anything and the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare (View.canon [⟨rS7, (accAt7 V c n hn).1⟩])
        ∗ owns (c : Thread nD τ) scM7_1 fullShare (View.canon [⟨rS7, (accAt7 V c n hn).2⟩]))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (View.canon [⟨rS7, (accAt7 V c n hn).1⟩])
        ∗ owns (c : Thread nD τ) scM7_1 fullShare (View.canon [⟨rS7, (accAt7 V c n hn).2⟩]))
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (View.canon [⟨rS7, (accAt7 V c (n - 1) (by omega)).1⟩])
        ∗ owns (c : Thread nD τ) scM7_1 fullShare (View.canon [⟨rS7, (accAt7 V c (n - 1) (by omega)).2⟩]))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The proof data -/

/-- The proof data of the pipeline on core `c`: the arrays as the region finds them; after the body at point `t`
    the input's buffer at its block, the two outputs' at the mean and variance rows of what has been accumulated
    through `t` (consulted at the last point only: elsewhere the windows are idle and not written back); the
    invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => mean7 V c t.val t.isLt
    | ⟨2, _⟩ => var7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = mean7 V c t.val t.isLt := by dsimp only [dat7]
theorem after7_2 (c : Dev nD) (t : Fin cfg7.N) : (dat7 V c).after 2 t = var7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation -/

/-- Each window's current staging memref at point `t`, spelled as the pipeline passes it. -/
abbrev ms7_0 (t : Fin cfg7.N) : Memref sig .tc .vmem S5000x32 .f32 := win7_0.stage (cfg7.slots t 0)
abbrev ms7_1 (t : Fin cfg7.N) : Memref sig .tc .vmem S1x32 .f32 := win7_1.stage (cfg7.slots t 1)
abbrev ms7_2 (t : Fin cfg7.N) : Memref sig .tc .vmem S1x32 .f32 := win7_2.stage (cfg7.slots t 2)

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The input's memref holds its block; the closed forms say which of the three cases the
    point is in; the invariant hands the body the two scratch rows (at anything at the first point, at what the point
    before stored afterwards) and takes them back at this point's values; at every point but the last the output
    rows are handed back as found; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 20 := lt_of_lt_of_eq t.isLt (show cfg7.N = 20 from N_7)
  rw [show (dat7 V c).leavesExact 0 t = owns (c : Thread nD τ) (ms7_0 t) fullShare ((dat7 V c).after 0 t) from by
    unfold Dat.leavesExact; rw [liveAt7_0 t], after7_0]
  by_cases h0 : t.val % 20 = 0
  · have h1 : ¬t.val % 20 = 19 := by omega
    have hz : t.val = 0 := by omega
    rw [Dat.leavesExact_idle (dat7 V c) 1 t (idleAt7_1 t h1) (noFlush7_1 t h1),
      Dat.leavesExact_idle (dat7 V c) 2 t (idleAt7_2 t h1) (noFlush7_2 t h1)]
    rw [accAt7_zero V c t hz]
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩⟩
    iapply (run7_A c Set.univ (grid7.coords t) _ _ _ _ _ _ _ _ _ _ ((hcond7_0 t).mpr h0) (fun h => h1 ((hcond7_1 t).mp h)) (iblk7 V c 0 t) _ _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexists _; iexact H1
    iexists _; iexact H2
  · have hz : t.val ≠ 0 := by omega
    by_cases h1 : t.val % 20 = 19
    · rw [show (dat7 V c).leavesExact 1 t = owns (c : Thread nD τ) (ms7_1 t) fullShare ((dat7 V c).after 1 t) from by
        unfold Dat.leavesExact; rw [liveAt7_1 t h1], after7_1]
      rw [show (dat7 V c).leavesExact 2 t = owns (c : Thread nD τ) (ms7_2 t) fullShare ((dat7 V c).after 2 t) from by
        unfold Dat.leavesExact; rw [liveAt7_2 t h1], after7_2]
      unfold mean7 var7
      rw [accAt7_pos V c t hz]
      rw [PhiS7_castSucc V c t, PhiS7_pos V c _ _ hz]
      iintro ⟨⟨⟨⟨HS0, HS1⟩, Hrest⟩, Hg⟩, Ho, ⟨%d0, H0⟩, ⟨%d1, H1⟩, ⟨%d2, H2⟩⟩
      iapply (run7_C c Set.univ (grid7.coords t) _ _ _ _ _ _ _ _ _ _ (fun h => h0 ((hcond7_0 t).mp h)) ((hcond7_1 t).mpr h1) (iblk7 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · rw [Dat.leavesExact_idle (dat7 V c) 1 t (idleAt7_1 t h1) (noFlush7_1 t h1),
        Dat.leavesExact_idle (dat7 V c) 2 t (idleAt7_2 t h1) (noFlush7_2 t h1)]
      rw [accAt7_pos V c t hz]
      rw [PhiS7_castSucc V c t, PhiS7_pos V c _ _ hz]
      iintro ⟨⟨⟨⟨HS0, HS1⟩, Hrest⟩, Hg⟩, Ho, ⟨%d0, H0⟩, ⟨%d1, H1⟩, ⟨%d2, H2⟩⟩
      iapply (run7_B' c Set.univ (grid7.coords t) _ _ _ _ _ _ _ _ _ _ (fun h => h0 ((hcond7_0 t).mp h)) (fun h => h1 ((hcond7_1 t).mp h)) (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The generator register and the scoped buffers no window stages make the invariant before the first point
    (whatever rides between them is dropped). -/
theorem hin7 (c : Dev nD) (P : sProp 𝕄) :
    iprop((∃ r, prngReg c r) ∗ P ∗ Pipeline.scopedRest (Ix := Unit) (Name := ℕ) (U := UR sig nD τ) (Lvl := ℕ) (Val := Elt F) spec7 c) ⊢ (dat7 V c).Φ 0 := by
  rw [show (dat7 V c).Φ 0 = PhiS7 V c 0 (Nat.zero_le _) from rfl, PhiS7_zero V c 0 _ rfl]; unfold Pipeline.ΦA
  iintro ⟨Hp, -, Hr⟩
  isplitl [Hr]; · iexact Hr
  iexact Hp

/-- After any point but the first the invariant gives the class invariant back: the rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- After the last point: the generator register, no semaphore of the kernel's own, and the scoped buffers back. -/
theorem hout7 (c : Dev nD) :
    (dat7 V c).Φ (Fin.last cfg7.N) ⊢ iprop((∃ r, prngReg c r) ∗ Pipeline.ownSems0 (fun k : PEmpty => k.elim) c
      ∗ Pipeline.scopedRest (Ix := Unit) (Name := ℕ) (U := UR sig nD τ) (Lvl := ℕ) (Val := Elt F) spec7 c) := by
  rw [Pipeline.ownSems0_none]
  refine (Phi_out7 V c _ (by rw [Fin.val_last]; have : cfg7.N = 20 := N_7; omega)).trans ?_
  unfold Pipeline.ΦA
  iintro ⟨Hr, Hp⟩
  isplitl [Hp]; · iexact Hp
  isplitr; · iempintro
  iexact Hr

end Region7

end Cert.KernelIdeal.Hand
end
-- ==== Proof.KI.Reg8.lean ====
/- Region 8 of @main: the batch-norm apply kernel (custom_call 8) on its grid of 20 points.
   Six windows: the activations' block of 5000 rows (fetched at every point), the four rows mean, variance, scale and
   shift (one block each, fetched at the first point and then kept), and the output's block of 5000 rows (written back
   at every point). The body is pointwise: it reads the five input buffers whole, reads the output buffer (the value
   is not used) and overwrites it whole with one payload of the five values read. So what the body leaves in the
   output buffer is a closed function of the five input blocks at the point, whatever the buffer held, and every
   input buffer is left as found. The invariant is the scoped buffers no window stages beside the generator register,
   untouched; the core owes nothing. -/
import proofs.«177080_j35828617183700_2_alg».proof.Proof.Gen.KernelIdeal.Launch
import proofs.«177080_j35828617183700_2_alg».proof.Proof.Gen.KernelIdeal.Skeleton
import proofs.«177080_j35828617183700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the region finds in every buffer of the core when it is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data whose
    array is the entry contents (`hA`) and whose body leaves the block in place (`hafter`): unfetched, the block index has not
    moved, so the block the buffer still holds is this point's. The window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data whose
    array is the entry contents (`hA`) and whose body leaves the block in place (`hafter`): unfetched, the block index has not
    moved, so the block the buffer still holds is this point's. The window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data whose
    array is the entry contents (`hA`) and whose body leaves the block in place (`hafter`): unfetched, the block index has not
    moved, so the block the buffer still holds is this point's. The window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data whose
    array is the entry contents (`hA`) and whose body leaves the block in place (`hafter`): unfetched, the block index has not
    moved, so the block the buffer still holds is this point's. The window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data whose
    array is the entry contents (`hA`) and whose body leaves the block in place (`hafter`): unfetched, the block index has not
    moved, so the block the buffer still holds is this point's. The window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

/-- The whole block of 5000 rows. -/
abbrev r8_blk : Rect S5000x32 := Rect.unit (s := S5000x32) ![0, 0] S5000x32.size inb_S5000x32_S5000x32_0_0
/-- The whole row. -/
abbrev r8_row : Rect S1x32 := Rect.unit (s := S1x32) ![0, 0] S1x32.size inb_S1x32_S1x32_0_0

/-! ## What the body leaves in the output window's buffer -/

/-- The output buffer after the body, from the five input blocks: its one store, of the payload of the five values
    loaded, laid over the whole buffer. The payload stays a name here. -/
def out8_5 (x0 : Vec F S5000x32 .f32) (x1 x2 x3 x4 : Vec F S1x32 .f32) : Vec F S5000x32 .f32 :=
  View.canon [⟨r8_blk, k8_pay1 (View.ld x0 r8_blk) (View.ld x1 r8_row) (View.ld x2 r8_row) (View.ld x3 r8_row) (View.ld x4 r8_row)⟩]

/-- The one store is of the whole buffer, so it covers it. -/
theorem cover8_5 (p0 : Vec F S5000x32 .f32) (y : S5000x32.Idx) :
    ∃ pc ∈ ([⟨r8_blk, p0⟩] : List (View.Piece (Elt F) S5000x32 .f32)), y ∈ pc.1.set :=
  View.cover_of_tiled [⟨r8_blk, p0⟩] S5000x32.size (by rfl) y

/-! ## The body's triple -/

set_option maxHeartbeats 1000000 in
/-- The kernel body on whole staging memrefs, the five inputs' at read contents `x0 … x4` and the output's at ANY
    contents (the body loads it before storing into it, and drops the value), runs to the continuation holding the
    inputs' as they were and the output's at `out8_5` of the inputs'. -/
theorem sound_kernel8 (c : Dev nD) (E : Set ℕ) (i : grid8.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the pipeline on core `c`: the arrays as the region finds them; after the body at point `t` each
    input's buffer at its block and the output's at `out8_5` of the five input blocks; the invariant the scoped
    buffers no window stages and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, the output's holds anything, so the body's triple
    applies; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the two ends -/

/-- The invariant at the first point, from the generator register and the scoped buffers no window stages (the
    pipeline has no prefetched table: that conjunct is dropped). -/
theorem hin8 (c : Dev nD) :
    iprop((∃ r, prngReg c r) ∗ Pipeline.prefHeld (pcfgs (F := F) 8).pre c (fun _ => fullShare) ((cfgs 8).toPCfg_adm (Val := Elt F)).1
        ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, -, Hr⟩
  isplitl [Hr]; · iexact Hr
  iexact Hp

/-- The invariant at the last point gives back the generator register and those scoped buffers; the kernel has no
    semaphore of its own. -/
theorem hout8 (c : Dev nD) :
    ((dat8 V c).Φ (Fin.last cfg8.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec8 c) := by
  rw [Pipeline.ownSems0_none, show (dat8 V c).Φ (Fin.last cfg8.N) = Pipeline.ΦA spec8 c from rfl]; unfold Pipeline.ΦA
  iintro ⟨Hr, Hp⟩
  isplitl [Hp]; · iexact Hp
  isplitr; · iempintro
  iexact Hr

end Cert.KernelIdeal.Hand

end
-- ==== Proof.KI.Reg9.lean ====
/- Region 9 of @main, the readout head (custom call 9): a grid of one point; the body divides the 100x32 per-graph sums
   by the per-graph counts (each raised to at least one), multiplies the quotient by the 32x2 weight, adds the 1x2 bias
   and stores the 100x2 result. Stated over the contents V every buffer holds when the region is entered: each window's
   block, what the body leaves in the output window's buffer, the body's triple, the proof data, the body obligation,
   and the two entailments between the region's invariant and the thread state around it. -/
import proofs.«177080_j35828617183700_2_alg».proof.Proof.Gen.KernelIdeal.Skeleton
import proofs.«177080_j35828617183700_2_alg».proof.Proof.Gen.KernelIdeal.Launch
import proofs.«177080_j35828617183700_2_alg».proof.Proof.Gen.KernelIdeal.Points
import proofs.«177080_j35828617183700_2_alg».proof.Proof.Gen.KernelIdeal.Regions
import Idealize.ShloMosaic.Lib.Pipeline.FrameBody
import Idealize.ShloMosaic.Lib.Ring
import Idealize.ShloMosaic.Lib.Tactic

-- membership of an index in a rectangle recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The windows' blocks -/

/-- Window w's block at point t, read off its array at the entry contents. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each input window's buffer holds its block at the point: it is fetched there, and the body leaves it in place. For
    any proof data with the entry array and that keeps the block. The sums, -/
theorem held9_0_of {c : Dev nD} (dat : Dat τ (Elt F) Unit ℕ (UR sig nD τ) ℕ cfg9 c) (hA : dat.A 0 = V c (Pipeline.arrRef spec9 0))
    (hafter : ∀ t, dat.after 0 t = blk9 V c 0 t) (t : Fin cfg9.N) (d) : dat.before 0 t d = blk9 V c 0 t :=
  (dat.before_in_eq_fetched 0 rfl (fun _ => rfl) (fun _ _ _ => rfl) (fun t => by rw [hafter]; unfold Dat.blockOf blk9; rw [hA]; try rfl) t d).trans
    (by unfold Dat.fetched Dat.blockOf blk9; rw [hA]; try rfl)
/-- the counts, -/
theorem held9_1_of {c : Dev nD} (dat : Dat τ (Elt F) Unit ℕ (UR sig nD τ) ℕ cfg9 c) (hA : dat.A 1 = V c (Pipeline.arrRef spec9 1))
    (hafter : ∀ t, dat.after 1 t = blk9 V c 1 t) (t : Fin cfg9.N) (d) : dat.before 1 t d = blk9 V c 1 t :=
  (dat.before_in_eq_fetched 1 rfl (fun _ => rfl) (fun _ _ _ => rfl) (fun t => by rw [hafter]; unfold Dat.blockOf blk9; rw [hA]; try rfl) t d).trans
    (by unfold Dat.fetched Dat.blockOf blk9; rw [hA]; try rfl)
/-- the weight, -/
theorem held9_2_of {c : Dev nD} (dat : Dat τ (Elt F) Unit ℕ (UR sig nD τ) ℕ cfg9 c) (hA : dat.A 2 = V c (Pipeline.arrRef spec9 2))
    (hafter : ∀ t, dat.after 2 t = blk9 V c 2 t) (t : Fin cfg9.N) (d) : dat.before 2 t d = blk9 V c 2 t :=
  (dat.before_in_eq_fetched 2 rfl (fun _ => rfl) (fun _ _ _ => rfl) (fun t => by rw [hafter]; unfold Dat.blockOf blk9; rw [hA]; try rfl) t d).trans
    (by unfold Dat.fetched Dat.blockOf blk9; rw [hA]; try rfl)
/-- the bias. -/
theorem held9_3_of {c : Dev nD} (dat : Dat τ (Elt F) Unit ℕ (UR sig nD τ) ℕ cfg9 c) (hA : dat.A 3 = V c (Pipeline.arrRef spec9 3))
    (hafter : ∀ t, dat.after 3 t = blk9 V c 3 t) (t : Fin cfg9.N) (d) : dat.before 3 t d = blk9 V c 3 t :=
  (dat.before_in_eq_fetched 3 rfl (fun _ => rfl) (fun _ _ _ => rfl) (fun t => by rw [hafter]; unfold Dat.blockOf blk9; rw [hA]; try rfl) t d).trans
    (by unfold Dat.fetched Dat.blockOf blk9; rw [hA]; try rfl)

/-! ## The body's accesses: each buffer whole -/

abbrev allS9 : Rect S100x32 := Rect.unit (s := S100x32) ![0, 0] S100x32.size inb_S100x32_S100x32_0_0
abbrev allN9 : Rect S100x1 := Rect.unit (s := S100x1) ![0, 0] S100x1.size inb_S100x1_S100x1_0_0
abbrev allW9 : Rect S32x2 := Rect.unit (s := S32x2) ![0, 0] S32x2.size inb_S32x2_S32x2_0_0
abbrev allB9 : Rect S1x2 := Rect.unit (s := S1x2) ![0, 0] S1x2.size inb_S1x2_S1x2_0_0
abbrev allY9 : Rect S100x2 := Rect.unit (s := S100x2) ![0, 0] S100x2.size inb_S100x2_S100x2_0_0

/-! ## What the body leaves in the output window's buffer -/

/-- The output buffer after the body, from the four input blocks: one store over the whole buffer, of the head's value
    (the sums over the counts raised to at least one, times the weight, plus the bias). -/
def head9 (s : Vec F S100x32 .f32) (n : Vec F S100x1 .f32) (wt : Vec F S32x2 .f32) (b : Vec F S1x2 .f32) : Vec F S100x2 .f32 :=
  View.canon [⟨allY9, k9_pay1 (View.ld s allS9) (View.ld n allN9) (View.ld wt allW9) (View.ld b allB9)⟩]

/-- The one store covers the buffer. -/
theorem cover9 (p : Vec F S100x2 .f32) (y : S100x2.Idx) :
    ∃ pc ∈ ([⟨allY9, p⟩] : List (View.Piece (Elt F) S100x2 .f32)), y ∈ pc.1.set :=
  View.cover_of_tiled [⟨allY9, p⟩] S100x2.size (by rfl) y

/-! ## The body's triple -/

set_option maxHeartbeats 1000000 in
/-- The body on whole staging memrefs — the inputs' at read contents, the output's at ANY contents (the body loads the
    output block before storing into it and does not use what it loaded) — runs to the continuation holding the inputs'
    as they were and the output's at the head's value. -/
theorem triple9 (c : Dev nD) (E : Set ℕ) (i : grid9.Coords)
    (a1 : Memref sig .tc .vmem S100x32 .f32) (h1 : a1.IsWhole) (a2 : Memref sig .tc .vmem S100x1 .f32) (h2 : a2.IsWhole)
    (a3 : Memref sig .tc .vmem S32x2 .f32) (h3 : a3.IsWhole) (a4 : Memref sig .tc .vmem S1x2 .f32) (h4 : a4.IsWhole)
    (a5 : Memref sig .tc .vmem S100x2 .f32) (h5 : a5.IsWhole)
    (s : Vec F S100x32 .f32) (n : Vec F S100x1 .f32) (wt : Vec F S32x2 .f32) (b : Vec F S1x2 .f32) (K : PUnit → sProp 𝕄) :
    iprop(owns (c : Thread nD τ) a1 fullShare s ∗ owns (c : Thread nD τ) a2 fullShare n ∗ owns (c : Thread nD τ) a3 fullShare wt
        ∗ owns (c : Thread nD τ) a4 fullShare b ∗ (∃ d, owns (c : Thread nD τ) a5 fullShare d)
        ∗ (iprop(owns (c : Thread nD τ) a1 fullShare s ∗ owns (c : Thread nD τ) a2 fullShare n ∗ owns (c : Thread nD τ) a3 fullShare wt
            ∗ owns (c : Thread nD τ) a4 fullShare b ∗ owns (c : Thread nD τ) a5 fullShare (head9 s n wt b)) -∗ K ⟨⟩))
      ⊢ wp frame (wpE (defs₀ (F := F)) Variants.none c none) E (cc9__head_kernel i a1 h1 a2 h2 a3 h3 a4 h4 a5 h5) K := by
  simp only [cc9__head_kernel_eq_skeleton]; unfold cc9__head_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9 _)

/-! ## The proof data -/

/-- The proof data of the region on core c: the arrays at the entry contents; after the body each input's buffer at its
    block and the output's at the head's value of the four blocks; the invariant the scoped buffers no window stages and
    the generator register, untouched; nothing owed; full shares. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => blk9 V c 3 t
    | ⟨4, _⟩ => head9 (blk9 V c 0 t) (blk9 V c 1 t) (blk9 V c 2 t) (blk9 V c 3 t)
  Φ _ := Pipeline.ΦA spec9 c
  q _ := fullShare
  owed _ := 0

/-- The arrays are the entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = blk9 V c 3 t := by dsimp only [dat9]
theorem after9_4 (c : Dev nD) (t : Fin cfg9.N) :
    (dat9 V c).after 4 t = head9 (blk9 V c 0 t) (blk9 V c 1 t) (blk9 V c 2 t) (blk9 V c 3 t) := by dsimp only [dat9]

/-- Each input's current buffer holds its block at the point. -/
theorem held9_0 (c : Dev nD) (t : Fin cfg9.N) (d) : (dat9 V c).before 0 t d = blk9 V c 0 t :=
  held9_0_of V (dat9 V c) (A_eq9 V c 0) (after9_0 V c) t d
theorem held9_1 (c : Dev nD) (t : Fin cfg9.N) (d) : (dat9 V c).before 1 t d = blk9 V c 1 t :=
  held9_1_of V (dat9 V c) (A_eq9 V c 1) (after9_1 V c) t d
theorem held9_2 (c : Dev nD) (t : Fin cfg9.N) (d) : (dat9 V c).before 2 t d = blk9 V c 2 t :=
  held9_2_of V (dat9 V c) (A_eq9 V c 2) (after9_2 V c) t d
theorem held9_3 (c : Dev nD) (t : Fin cfg9.N) (d) : (dat9 V c).before 3 t d = blk9 V c 3 t :=
  held9_3_of V (dat9 V c) (A_eq9 V c 3) (after9_3 V c) t d

/-! ## The body obligation -/

/-- What the body is called with at point t: the invariant, the core's debt, each window's current buffer at what the
    pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at the point: the inputs' buffers hold their blocks, so the triple applies; the invariant and the debt
    pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [held9_0, held9_1, held9_2, held9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (triple9 c Set.univ _ _ _ _ _ _ _ _ _ _ _ (blk9 V c 0 t) (blk9 V c 1 t) (blk9 V c 2 t) (blk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at the point. -/
theorem body_obligation9 (c : Dev nD) : BodyObligation (dat9 (F := F) V c) (defs₀ (F := F)) Variants.none () Set.univ := fun t => by
  rw [bigSep_W9, bigSep_W9]
  exact sound_body9 V c t

/-! ## The invariant against the thread state around the region -/

/-- The invariant at the first point, from the generator register and the scoped buffers no window stages (the region
    has no prefetched table). -/
theorem hin9 (c : Dev nD) :
    iprop((∃ r, prngReg c r) ∗ Pipeline.prefHeld (pcfgs (F := F) 9).pre c (fun _ => fullShare) (adm (F := F) 9).1 ∗ Pipeline.scopedRest spec9 c)
      ⊢ (dat9 V c).Φ 0 := by
  rw [show (dat9 V c).Φ 0 = Pipeline.ΦA spec9 c from rfl]; unfold Pipeline.ΦA
  iintro ⟨Hp, -, Hr⟩
  isplitl [Hr]; · iexact Hr
  iexact Hp

/-- The invariant at the last point gives them back; the kernel has no semaphore of its own. -/
theorem hout9 (c : Dev nD) :
    (dat9 V c).Φ (Fin.last _) ⊢ iprop((∃ r, prngReg c r) ∗ Pipeline.ownSems0 (fun k : PEmpty => k.elim) c ∗ Pipeline.scopedRest spec9 c) := by
  rw [Pipeline.ownSems0_none, show (dat9 V c).Φ (Fin.last _) = Pipeline.ΦA spec9 c from rfl]; unfold Pipeline.ΦA
  iintro ⟨Hr, Hp⟩
  isplitl [Hp]; · iexact Hp
  isplitr; · iempintro
  iexact Hr

end Cert.KernelIdeal.Hand

end
-- ==== Proof.KI.Chain.lean ====
/-
  What every unscoped buffer of a core holds between two items of the program: the launch contents, each stretch of host operations
  applied in turn, and after a region its output arrays replaced by the fold of the region's write-backs. The contents the regions
  leave, read item by item off these valuations, are the unknowns of the generated valuations; at them the generated valuations
  are the ones defined here. Then the family of the ten regions' proof data, each at its region's entry contents.
-/
import proofs.«177080_j35828617183700_2_alg».proof.Proof.KI.Algebra
import proofs.«177080_j35828617183700_2_alg».proof.Proof.KI.Reg0
import proofs.«177080_j35828617183700_2_alg».proof.Proof.KI.Reg1
import proofs.«177080_j35828617183700_2_alg».proof.Proof.KI.Reg2
import proofs.«177080_j35828617183700_2_alg».proof.Proof.KI.Reg3
import proofs.«177080_j35828617183700_2_alg».proof.Proof.KI.Reg4
import proofs.«177080_j35828617183700_2_alg».proof.Proof.KI.Reg5
import proofs.«177080_j35828617183700_2_alg».proof.Proof.KI.Reg6
import proofs.«177080_j35828617183700_2_alg».proof.Proof.KI.Reg7
import proofs.«177080_j35828617183700_2_alg».proof.Proof.KI.Reg8
import proofs.«177080_j35828617183700_2_alg».proof.Proof.KI.Reg9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What every buffer holds between two items -/

/-- After the stretch `hostOps0`. -/
abbrev U1 (c : Dev nD) : Valuation τ sig (Elt F) := StableHlo.after hostOps0 (V0 m c)
/-- The same read at the core's own references. -/
abbrev T1 : (c : Dev nD) → (b : Ref sig .tc) → Buf (Elt F) ((c : Thread nD τ).loc b) := fun c b => U1 m c b

/-- What region 0 leaves in `main_v33`: its output window 2's write-backs folded. -/
def o2_2 (c : Dev nD) : Buf (Elt F) ((c : Thread nD τ).loc main_v33) := (dat0 (T1 m) c).arrAt 2 cfg0.N
/-- After region 0. -/
def U2 (c : Dev nD) : Valuation τ sig (Elt F) := Function.update (U1 m c) main_v33 (o2_2 m c)
theorem U2_def (c : Dev nD) : U2 m c = Function.update (U1 m c) main_v33 (o2_2 m c) := rfl
/-- The same read at the core's own references. -/
abbrev T2 : (c : Dev nD) → (b : Ref sig .tc) → Buf (Elt F) ((c : Thread nD τ).loc b) := fun c b => U2 m c b

/-- After the stretch `hostOps1`. -/
abbrev U3 (c : Dev nD) : Valuation τ sig (Elt F) := StableHlo.after hostOps1 (U2 m c)
/-- The same read at the core's own references. -/
abbrev T3 : (c : Dev nD) → (b : Ref sig .tc) → Buf (Elt F) ((c : Thread nD τ).loc b) := fun c b => U3 m c b

/-- What region 1 leaves in `main_v55_0`: its output window 1's write-backs folded. -/
def o4_1 (c : Dev nD) : Buf (Elt F) ((c : Thread nD τ).loc main_v55_0) := (dat1 (T3 m) c).arrAt 1 cfg1.N
/-- What region 1 leaves in `main_v55_1`: its output window 2's write-backs folded. -/
def o4_2 (c : Dev nD) : Buf (Elt F) ((c : Thread nD τ).loc main_v55_1) := (dat1 (T3 m) c).arrAt 2 cfg1.N
/-- After region 1. -/
def U4 (c : Dev nD) : Valuation τ sig (Elt F) := Function.update (Function.update (U3 m c) main_v55_0 (o4_1 m c)) main_v55_1 (o4_2 m c)
theorem U4_def (c : Dev nD) : U4 m c = Function.update (Function.update (U3 m c) main_v55_0 (o4_1 m c)) main_v55_1 (o4_2 m c) := rfl
/-- The same read at the core's own references. -/
abbrev T4 : (c : Dev nD) → (b : Ref sig .tc) → Buf (Elt F) ((c : Thread nD τ).loc b) := fun c b => U4 m c b

/-- After the stretch `hostOps2`. -/
abbrev U5 (c : Dev nD) : Valuation τ sig (Elt F) := StableHlo.after hostOps2 (U4 m c)
/-- The same read at the core's own references. -/
abbrev T5 : (c : Dev nD) → (b : Ref sig .tc) → Buf (Elt F) ((c : Thread nD τ).loc b) := fun c b => U5 m c b

/-- What region 2 leaves in `main_v62`: its output window 5's write-backs folded. -/
def o6_5 (c : Dev nD) : Buf (Elt F) ((c : Thread nD τ).loc main_v62) := (dat2 (T5 m) c).arrAt 5 cfg2.N
/-- After region 2. -/
def U6 (c : Dev nD) : Valuation τ sig (Elt F) := Function.update (U5 m c) main_v62 (o6_5 m c)
theorem U6_def (c : Dev nD) : U6 m c = Function.update (U5 m c) main_v62 (o6_5 m c) := rfl
/-- The same read at the core's own references. -/
abbrev T6 : (c : Dev nD) → (b : Ref sig .tc) → Buf (Elt F) ((c : Thread nD τ).loc b) := fun c b => U6 m c b

/-- What region 3 leaves in `main_v63`: its output window 2's write-backs folded. -/
def o7_2 (c : Dev nD) : Buf (Elt F) ((c : Thread nD τ).loc main_v63) := (dat3 (T6 m) c).arrAt 2 cfg3.N
/-- After region 3. -/
def U7 (c : Dev nD) : Valuation τ sig (Elt F) := Function.update (U6 m c) main_v63 (o7_2 m c)
theorem U7_def (c : Dev nD) : U7 m c = Function.update (U6 m c) main_v63 (o7_2 m c) := rfl
/-- The same read at the core's own references. -/
abbrev T7 : (c : Dev nD) → (b : Ref sig .tc) → Buf (Elt F) ((c : Thread nD τ).loc b) := fun c b => U7 m c b

/-- After the stretch `hostOps4`. -/
abbrev U8 (c : Dev nD) : Valuation τ sig (Elt F) := StableHlo.after hostOps4 (U7 m c)
/-- The same read at the core's own references. -/
abbrev T8 : (c : Dev nD) → (b : Ref sig .tc) → Buf (Elt F) ((c : Thread nD τ).loc b) := fun c b => U8 m c b

/-- What region 4 leaves in `main_v85_0`: its output window 1's write-backs folded. -/
def o9_1 (c : Dev nD) : Buf (Elt F) ((c : Thread nD τ).loc main_v85_0) := (dat4 (T8 m) c).arrAt 1 cfg4.N
/-- What region 4 leaves in `main_v85_1`: its output window 2's write-backs folded. -/
def o9_2 (c : Dev nD) : Buf (Elt F) ((c : Thread nD τ).loc main_v85_1) := (dat4 (T8 m) c).arrAt 2 cfg4.N
/-- After region 4. -/
def U9 (c : Dev nD) : Valuation τ sig (Elt F) := Function.update (Function.update (U8 m c) main_v85_0 (o9_1 m c)) main_v85_1 (o9_2 m c)
theorem U9_def (c : Dev nD) : U9 m c = Function.update (Function.update (U8 m c) main_v85_0 (o9_1 m c)) main_v85_1 (o9_2 m c) := rfl
/-- The same read at the core's own references. -/
abbrev T9 : (c : Dev nD) → (b : Ref sig .tc) → Buf (Elt F) ((c : Thread nD τ).loc b) := fun c b => U9 m c b

/-- After the stretch `hostOps5`. -/
abbrev U10 (c : Dev nD) : Valuation τ sig (Elt F) := StableHlo.after hostOps5 (U9 m c)
/-- The same read at the core's own references. -/
abbrev T10 : (c : Dev nD) → (b : Ref sig .tc) → Buf (Elt F) ((c : Thread nD τ).loc b) := fun c b => U10 m c b

/-- What region 5 leaves in `main_v92`: its output window 5's write-backs folded. -/
def o11_5 (c : Dev nD) : Buf (Elt F) ((c : Thread nD τ).loc main_v92) := (dat5 (T10 m) c).arrAt 5 cfg5.N
/-- After region 5. -/
def U11 (c : Dev nD) : Valuation τ sig (Elt F) := Function.update (U10 m c) main_v92 (o11_5 m c)
theorem U11_def (c : Dev nD) : U11 m c = Function.update (U10 m c) main_v92 (o11_5 m c) := rfl
/-- The same read at the core's own references. -/
abbrev T11 : (c : Dev nD) → (b : Ref sig .tc) → Buf (Elt F) ((c : Thread nD τ).loc b) := fun c b => U11 m c b

/-- What region 6 leaves in `main_v93`: its output window 2's write-backs folded. -/
def o12_2 (c : Dev nD) : Buf (Elt F) ((c : Thread nD τ).loc main_v93) := (dat6 (T11 m) c).arrAt 2 cfg6.N
/-- After region 6. -/
def U12 (c : Dev nD) : Valuation τ sig (Elt F) := Function.update (U11 m c) main_v93 (o12_2 m c)
theorem U12_def (c : Dev nD) : U12 m c = Function.update (U11 m c) main_v93 (o12_2 m c) := rfl
/-- The same read at the core's own references. -/
abbrev T12 : (c : Dev nD) → (b : Ref sig .tc) → Buf (Elt F) ((c : Thread nD τ).loc b) := fun c b => U12 m c b

/-- After the stretch `hostOps7`. -/
abbrev U13 (c : Dev nD) : Valuation τ sig (Elt F) := StableHlo.after hostOps7 (U12 m c)
/-- The same read at the core's own references. -/
abbrev T13 : (c : Dev nD) → (b : Ref sig .tc) → Buf (Elt F) ((c : Thread nD τ).loc b) := fun c b => U13 m c b

/-- What region 7 leaves in `main_v115_0`: its output window 1's write-backs folded. -/
def o14_1 (c : Dev nD) : Buf (Elt F) ((c : Thread nD τ).loc main_v115_0) := (dat7 (T13 m) c).arrAt 1 cfg7.N
/-- What region 7 leaves in `main_v115_1`: its output window 2's write-backs folded. -/
def o14_2 (c : Dev nD) : Buf (Elt F) ((c : Thread nD τ).loc main_v115_1) := (dat7 (T13 m) c).arrAt 2 cfg7.N
/-- After region 7. -/
def U14 (c : Dev nD) : Valuation τ sig (Elt F) := Function.update (Function.update (U13 m c) main_v115_0 (o14_1 m c)) main_v115_1 (o14_2 m c)
theorem U14_def (c : Dev nD) : U14 m c = Function.update (Function.update (U13 m c) main_v115_0 (o14_1 m c)) main_v115_1 (o14_2 m c) := rfl
/-- The same read at the core's own references. -/
abbrev T14 : (c : Dev nD) → (b : Ref sig .tc) → Buf (Elt F) ((c : Thread nD τ).loc b) := fun c b => U14 m c b

/-- After the stretch `hostOps8`. -/
abbrev U15 (c : Dev nD) : Valuation τ sig (Elt F) := StableHlo.after hostOps8 (U14 m c)
/-- The same read at the core's own references. -/
abbrev T15 : (c : Dev nD) → (b : Ref sig .tc) → Buf (Elt F) ((c : Thread nD τ).loc b) := fun c b => U15 m c b

/-- What region 8 leaves in `main_v122`: its output window 5's write-backs folded. -/
def o16_5 (c : Dev nD) : Buf (Elt F) ((c : Thread nD τ).loc main_v122) := (dat8 (T15 m) c).arrAt 5 cfg8.N
/-- After region 8. -/
def U16 (c : Dev nD) : Valuation τ sig (Elt F) := Function.update (U15 m c) main_v122 (o16_5 m c)
theorem U16_def (c : Dev nD) : U16 m c = Function.update (U15 m c) main_v122 (o16_5 m c) := rfl
/-- The same read at the core's own references. -/
abbrev T16 : (c : Dev nD) → (b : Ref sig .tc) → Buf (Elt F) ((c : Thread nD τ).loc b) := fun c b => U16 m c b

/-- After the stretch `hostOps9`. -/
abbrev U17 (c : Dev nD) : Valuation τ sig (Elt F) := StableHlo.after hostOps9 (U16 m c)
/-- The same read at the core's own references. -/
abbrev T17 : (c : Dev nD) → (b : Ref sig .tc) → Buf (Elt F) ((c : Thread nD τ).loc b) := fun c b => U17 m c b

/-- What region 9 leaves in `main_v132`: its output window 4's write-backs folded. -/
def o18_4 (c : Dev nD) : Buf (Elt F) ((c : Thread nD τ).loc main_v132) := (dat9 (T17 m) c).arrAt 4 cfg9.N
/-- After region 9. -/
def U18 (c : Dev nD) : Valuation τ sig (Elt F) := Function.update (U17 m c) main_v132 (o18_4 m c)
theorem U18_def (c : Dev nD) : U18 m c = Function.update (U17 m c) main_v132 (o18_4 m c) := rfl
/-- The same read at the core's own references. -/
abbrev T18 : (c : Dev nD) → (b : Ref sig .tc) → Buf (Elt F) ((c : Thread nD τ).loc b) := fun c b => U18 m c b

/-- The contents the regions leave, as the unknowns of the generated valuations: item by item, the buffer read off the valuation after the item. -/
def outs : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | 18 => U18 m c r
  | _ => V0 m c r

/-! ## The generated valuations at these contents are the ones above -/

theorem V1_eq (c : Dev nD) : V1 m c = U1 m c := rfl
theorem V2_eq (c : Dev nD) : V2 m (outs m) c = U2 m c := by
  show Function.update (V1 m c) main_v33 (U2 m c main_v33) = U2 m c
  rw [V1_eq, U2_def]
  rw [Function.update_self]
theorem V3_eq (c : Dev nD) : V3 m (outs m) c = U3 m c := by
  show StableHlo.after hostOps1 (V2 m (outs m) c) = StableHlo.after hostOps1 (U2 m c)
  rw [V2_eq]
theorem V4_eq (c : Dev nD) : V4 m (outs m) c = U4 m c := by
  show Function.update (Function.update (V3 m (outs m) c) main_v55_0 (U4 m c main_v55_0)) main_v55_1 (U4 m c main_v55_1) = U4 m c
  rw [V3_eq, U4_def]
  rw [Function.update_self, Function.update_of_ne (StableHlo.devRef_ne_of_ne (by decide : main_v55_0 ≠ main_v55_1)), Function.update_self]
theorem V5_eq (c : Dev nD) : V5 m (outs m) c = U5 m c := by
  show StableHlo.after hostOps2 (V4 m (outs m) c) = StableHlo.after hostOps2 (U4 m c)
  rw [V4_eq]
theorem V6_eq (c : Dev nD) : V6 m (outs m) c = U6 m c := by
  show Function.update (V5 m (outs m) c) main_v62 (U6 m c main_v62) = U6 m c
  rw [V5_eq, U6_def]
  rw [Function.update_self]
theorem V7_eq (c : Dev nD) : V7 m (outs m) c = U7 m c := by
  show Function.update (V6 m (outs m) c) main_v63 (U7 m c main_v63) = U7 m c
  rw [V6_eq, U7_def]
  rw [Function.update_self]
theorem V8_eq (c : Dev nD) : V8 m (outs m) c = U8 m c := by
  show StableHlo.after hostOps4 (V7 m (outs m) c) = StableHlo.after hostOps4 (U7 m c)
  rw [V7_eq]
theorem V9_eq (c : Dev nD) : V9 m (outs m) c = U9 m c := by
  show Function.update (Function.update (V8 m (outs m) c) main_v85_0 (U9 m c main_v85_0)) main_v85_1 (U9 m c main_v85_1) = U9 m c
  rw [V8_eq, U9_def]
  rw [Function.update_self, Function.update_of_ne (StableHlo.devRef_ne_of_ne (by decide : main_v85_0 ≠ main_v85_1)), Function.update_self]
theorem V10_eq (c : Dev nD) : V10 m (outs m) c = U10 m c := by
  show StableHlo.after hostOps5 (V9 m (outs m) c) = StableHlo.after hostOps5 (U9 m c)
  rw [V9_eq]
theorem V11_eq (c : Dev nD) : V11 m (outs m) c = U11 m c := by
  show Function.update (V10 m (outs m) c) main_v92 (U11 m c main_v92) = U11 m c
  rw [V10_eq, U11_def]
  rw [Function.update_self]
theorem V12_eq (c : Dev nD) : V12 m (outs m) c = U12 m c := by
  show Function.update (V11 m (outs m) c) main_v93 (U12 m c main_v93) = U12 m c
  rw [V11_eq, U12_def]
  rw [Function.update_self]
theorem V13_eq (c : Dev nD) : V13 m (outs m) c = U13 m c := by
  show StableHlo.after hostOps7 (V12 m (outs m) c) = StableHlo.after hostOps7 (U12 m c)
  rw [V12_eq]
theorem V14_eq (c : Dev nD) : V14 m (outs m) c = U14 m c := by
  show Function.update (Function.update (V13 m (outs m) c) main_v115_0 (U14 m c main_v115_0)) main_v115_1 (U14 m c main_v115_1) = U14 m c
  rw [V13_eq, U14_def]
  rw [Function.update_self, Function.update_of_ne (StableHlo.devRef_ne_of_ne (by decide : main_v115_0 ≠ main_v115_1)), Function.update_self]
theorem V15_eq (c : Dev nD) : V15 m (outs m) c = U15 m c := by
  show StableHlo.after hostOps8 (V14 m (outs m) c) = StableHlo.after hostOps8 (U14 m c)
  rw [V14_eq]
theorem V16_eq (c : Dev nD) : V16 m (outs m) c = U16 m c := by
  show Function.update (V15 m (outs m) c) main_v122 (U16 m c main_v122) = U16 m c
  rw [V15_eq, U16_def]
  rw [Function.update_self]
theorem V17_eq (c : Dev nD) : V17 m (outs m) c = U17 m c := by
  show StableHlo.after hostOps9 (V16 m (outs m) c) = StableHlo.after hostOps9 (U16 m c)
  rw [V16_eq]
theorem V18_eq (c : Dev nD) : V18 m (outs m) c = U18 m c := by
  show Function.update (V17 m (outs m) c) main_v132 (U18 m c main_v132) = U18 m c
  rw [V17_eq, U18_def]
  rw [Function.update_self]

/-! ## The proof data of every region, each at its entry contents -/

def pdats : (p : Fin 10) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T6 m) c
  | ⟨4, _⟩ => fun c => dat4 (T8 m) c
  | ⟨5, _⟩ => fun c => dat5 (T10 m) c
  | ⟨6, _⟩ => fun c => dat6 (T11 m) c
  | ⟨7, _⟩ => fun c => dat7 (T13 m) c
  | ⟨8, _⟩ => fun c => dat8 (T15 m) c
  | ⟨9, _⟩ => fun c => dat9 (T17 m) c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/-
  Region 0 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 0 -/

set_option backward.isDefEq.respectTransparency.types false in
set_option maxHeartbeats 1000000 in
theorem exitArr0_0 (c : Dev nD) : (dat0 (T1 m) c).arrAt (0 : Fin 3) cfg0.N = U2 m c main_arg0 := by
  rw [U2_def]
  exact (((dat0 (T1 m) c).arrAt_in (0 : Fin 3) rfl _).trans (A_eq0 (T1 m) c (0 : Fin 3))).trans (Function.update_of_ne (StableHlo.devRef_ne_of_ne (by decide : main_arg0 ≠ main_v33)) (o2_2 m c) (U1 m c)).symm
set_option backward.isDefEq.respectTransparency.types false in
set_option maxHeartbeats 1000000 in
theorem exitArr0_1 (c : Dev nD) : (dat0 (T1 m) c).arrAt (1 : Fin 3) cfg0.N = U2 m c main_arg4 := by
  rw [U2_def]
  exact (((dat0 (T1 m) c).arrAt_in (1 : Fin 3) rfl _).trans (A_eq0 (T1 m) c (1 : Fin 3))).trans (Function.update_of_ne (StableHlo.devRef_ne_of_ne (by decide : main_arg4 ≠ main_v33)) (o2_2 m c) (U1 m c)).symm
set_option backward.isDefEq.respectTransparency.types false in
set_option maxHeartbeats 1000000 in
theorem exitArr0_2 (c : Dev nD) : (dat0 (T1 m) c).arrAt (2 : Fin 3) cfg0.N = U2 m c main_v33 := by
  rw [U2_def]
  exact (Function.update_self (Proc.devRef (τ := τ) .tc main_v33) (o2_2 m c) (U1 m c)).symm
/-- At region 0's exit each of its arrays holds what the pipeline leaves: an input array its entry contents, an output array the fold of its write-backs. -/
theorem exitArr0 (c : Dev nD) (w : Fin cfg0.W) : (dat0 (T1 m) c).arrAt w cfg0.N = T2 m c (Pipeline.arrRef spec0 w) := by
  match w with
  | ⟨0, _⟩ => exact exitArr0_0 m c
  | ⟨1, _⟩ => exact exitArr0_1 m c
  | ⟨2, _⟩ => exact exitArr0_2 m c
/-- Every buffer that is none of region 0's arrays holds at its exit what it held at its entry. -/
theorem exitRest0 (c : Dev nD) : ∀ b, b ∉ Finset.univ.image (Pipeline.arrRef spec0) → T2 m c b = T1 m c b := fun b hb => by
  have hne_2 : b ≠ main_v33 := fun e => hb (Finset.mem_image.mpr ⟨(2 : Fin 3), Finset.mem_univ _, by rw [e]⟩)
  show U2 m c b = U1 m c b
  rw [U2_def]
  rw [Function.update_of_ne (StableHlo.devRef_ne_of_ne hne_2)]

set_option backward.isDefEq.respectTransparency.types false in
/-- Region 0 over the thread state: entered from every unscoped buffer at the contents before it, left at the contents after it; its arrays split out of the
    unscoped buffers and put back at the exit contents, the generator register into the region's invariant and out, nothing owed, no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun w => A_eq0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin0 (T1 m) c
  hout c := hout0 (T1 m) c
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 1 -/

set_option backward.isDefEq.respectTransparency.types false in
set_option maxHeartbeats 1000000 in
theorem exitArr1_0 (c : Dev nD) : (dat1 (T3 m) c).arrAt (0 : Fin 3) cfg1.N = U4 m c main_v54 := by
  rw [U4_def]
  exact (((dat1 (T3 m) c).arrAt_in (0 : Fin 3) rfl _).trans (A_eq1 (T3 m) c (0 : Fin 3))).trans ((Function.update_of_ne (StableHlo.devRef_ne_of_ne (by decide : main_v54 ≠ main_v55_1)) (o4_2 m c) (Function.update (U3 m c) main_v55_0 (o4_1 m c))).trans (Function.update_of_ne (StableHlo.devRef_ne_of_ne (by decide : main_v54 ≠ main_v55_0)) (o4_1 m c) (U3 m c))).symm
set_option backward.isDefEq.respectTransparency.types false in
set_option maxHeartbeats 1000000 in
theorem exitArr1_1 (c : Dev nD) : (dat1 (T3 m) c).arrAt (1 : Fin 3) cfg1.N = U4 m c main_v55_0 := by
  rw [U4_def]
  exact ((Function.update_of_ne (StableHlo.devRef_ne_of_ne (by decide : main_v55_0 ≠ main_v55_1)) (o4_2 m c) (Function.update (U3 m c) main_v55_0 (o4_1 m c))).trans (Function.update_self (Proc.devRef (τ := τ) .tc main_v55_0) (o4_1 m c) (U3 m c))).symm
set_option backward.isDefEq.respectTransparency.types false in
set_option maxHeartbeats 1000000 in
theorem exitArr1_2 (c : Dev nD) : (dat1 (T3 m) c).arrAt (2 : Fin 3) cfg1.N = U4 m c main_v55_1 := by
  rw [U4_def]
  exact (Function.update_self (Proc.devRef (τ := τ) .tc main_v55_1) (o4_2 m c) (Function.update (U3 m c) main_v55_0 (o4_1 m c))).symm
/-- At region 1's exit each of its arrays holds what the pipeline leaves: an input array its entry contents, an output array the fold of its write-backs. -/
theorem exitArr1 (c : Dev nD) (w : Fin cfg1.W) : (dat1 (T3 m) c).arrAt w cfg1.N = T4 m c (Pipeline.arrRef spec1 w) := by
  match w with
  | ⟨0, _⟩ => exact exitArr1_0 m c
  | ⟨1, _⟩ => exact exitArr1_1 m c
  | ⟨2, _⟩ => exact exitArr1_2 m c
/-- Every buffer that is none of region 1's arrays holds at its exit what it held at its entry. -/
theorem exitRest1 (c : Dev nD) : ∀ b, b ∉ Finset.univ.image (Pipeline.arrRef spec1) → T4 m c b = T3 m c b := fun b hb => by
  have hne_1 : b ≠ main_v55_0 := fun e => hb (Finset.mem_image.mpr ⟨(1 : Fin 3), Finset.mem_univ _, by rw [e]⟩)
  have hne_2 : b ≠ main_v55_1 := fun e => hb (Finset.mem_image.mpr ⟨(2 : Fin 3), Finset.mem_univ _, by rw [e]⟩)
  show U4 m c b = U3 m c b
  rw [U4_def]
  rw [Function.update_of_ne (StableHlo.devRef_ne_of_ne hne_2), Function.update_of_ne (StableHlo.devRef_ne_of_ne hne_1)]

set_option backward.isDefEq.respectTransparency.types false in
/-- Region 1 over the thread state: entered from every unscoped buffer at the contents before it, left at the contents after it; its arrays split out of the
    unscoped buffers and put back at the exit contents, the generator register into the region's invariant and out, nothing owed, no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun w => A_eq1 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (T3 m) c _
  hout c := hout1 (T3 m) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 2 -/

set_option backward.isDefEq.respectTransparency.types false in
set_option maxHeartbeats 1000000 in
theorem exitArr2_0 (c : Dev nD) : (dat2 (T5 m) c).arrAt (0 : Fin 6) cfg2.N = U6 m c main_v54 := by
  rw [U6_def]
  exact (((dat2 (T5 m) c).arrAt_in (0 : Fin 6) rfl _).trans (A_eq2 (T5 m) c (0 : Fin 6))).trans (Function.update_of_ne (StableHlo.devRef_ne_of_ne (by decide : main_v54 ≠ main_v62)) (o6_5 m c) (U5 m c)).symm
set_option backward.isDefEq.respectTransparency.types false in
set_option maxHeartbeats 1000000 in
theorem exitArr2_1 (c : Dev nD) : (dat2 (T5 m) c).arrAt (1 : Fin 6) cfg2.N = U6 m c main_v55_0 := by
  rw [U6_def]
  exact (((dat2 (T5 m) c).arrAt_in (1 : Fin 6) rfl _).trans (A_eq2 (T5 m) c (1 : Fin 6))).trans (Function.update_of_ne (StableHlo.devRef_ne_of_ne (by decide : main_v55_0 ≠ main_v62)) (o6_5 m c) (U5 m c)).symm
set_option backward.isDefEq.respectTransparency.types false in
set_option maxHeartbeats 1000000 in
theorem exitArr2_2 (c : Dev nD) : (dat2 (T5 m) c).arrAt (2 : Fin 6) cfg2.N = U6 m c main_v55_1 := by
  rw [U6_def]
  exact (((dat2 (T5 m) c).arrAt_in (2 : Fin 6) rfl _).trans (A_eq2 (T5 m) c (2 : Fin 6))).trans (Function.update_of_ne (StableHlo.devRef_ne_of_ne (by decide : main_v55_1 ≠ main_v62)) (o6_5 m c) (U5 m c)).symm
set_option backward.isDefEq.respectTransparency.types false in
set_option maxHeartbeats 1000000 in
theorem exitArr2_3 (c : Dev nD) : (dat2 (T5 m) c).arrAt (3 : Fin 6) cfg2.N = U6 m c main_v58 := by
  rw [U6_def]
  exact (((dat2 (T5 m) c).arrAt_in (3 : Fin 6) rfl _).trans (A_eq2 (T5 m) c (3 : Fin 6))).trans (Function.update_of_ne (StableHlo.devRef_ne_of_ne (by decide : main_v58 ≠ main_v62)) (o6_5 m c) (U5 m c)).symm
set_option backward.isDefEq.respectTransparency.types false in
set_option maxHeartbeats 1000000 in
theorem exitArr2_4 (c : Dev nD) : (dat2 (T5 m) c).arrAt (4 : Fin 6) cfg2.N = U6 m c main_v61 := by
  rw [U6_def]
  exact (((dat2 (T5 m) c).arrAt_in (4 : Fin 6) rfl _).trans (A_eq2 (T5 m) c (4 : Fin 6))).trans (Function.update_of_ne (StableHlo.devRef_ne_of_ne (by decide : main_v61 ≠ main_v62)) (o6_5 m c) (U5 m c)).symm
set_option backward.isDefEq.respectTransparency.types false in
set_option maxHeartbeats 1000000 in
theorem exitArr2_5 (c : Dev nD) : (dat2 (T5 m) c).arrAt (5 : Fin 6) cfg2.N = U6 m c main_v62 := by
  rw [U6_def]
  exact (Function.update_self (Proc.devRef (τ := τ) .tc main_v62) (o6_5 m c) (U5 m c)).symm
/-- At region 2's exit each of its arrays holds what the pipeline leaves: an input array its entry contents, an output array the fold of its write-backs. -/
theorem exitArr2 (c : Dev nD) (w : Fin cfg2.W) : (dat2 (T5 m) c).arrAt w cfg2.N = T6 m c (Pipeline.arrRef spec2 w) := by
  match w with
  | ⟨0, _⟩ => exact exitArr2_0 m c
  | ⟨1, _⟩ => exact exitArr2_1 m c
  | ⟨2, _⟩ => exact exitArr2_2 m c
  | ⟨3, _⟩ => exact exitArr2_3 m c
  | ⟨4, _⟩ => exact exitArr2_4 m c
  | ⟨5, _⟩ => exact exitArr2_5 m c
/-- Every buffer that is none of region 2's arrays holds at its exit what it held at its entry. -/
theorem exitRest2 (c : Dev nD) : ∀ b, b ∉ Finset.univ.image (Pipeline.arrRef spec2) → T6 m c b = T5 m c b := fun b hb => by
  have hne_5 : b ≠ main_v62 := fun e => hb (Finset.mem_image.mpr ⟨(5 : Fin 6), Finset.mem_univ _, by rw [e]⟩)
  show U6 m c b = U5 m c b
  rw [U6_def]
  rw [Function.update_of_ne (StableHlo.devRef_ne_of_ne hne_5)]

set_option backward.isDefEq.respectTransparency.types false in
/-- Region 2 over the thread state: entered from every unscoped buffer at the contents before it, left at the contents after it; its arrays split out of the
    unscoped buffers and put back at the exit contents, the generator register into the region's invariant and out, nothing owed, no semaphore of the kernel's own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun w => A_eq2 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (T5 m) c
  hout c := hout2 (T5 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 3 -/

set_option backward.isDefEq.respectTransparency.types false in
set_option maxHeartbeats 1000000 in
theorem exitArr3_0 (c : Dev nD) : (dat3 (T6 m) c).arrAt (0 : Fin 3) cfg3.N = U7 m c main_v62 := by
  rw [U7_def]
  exact (((dat3 (T6 m) c).arrAt_in (0 : Fin 3) rfl _).trans (A_eq3 (T6 m) c (0 : Fin 3))).trans (Function.update_of_ne (StableHlo.devRef_ne_of_ne (by decide : main_v62 ≠ main_v63)) (o7_2 m c) (U6 m c)).symm
set_option backward.isDefEq.respectTransparency.types false in
set_option maxHeartbeats 1000000 in
theorem exitArr3_1 (c : Dev nD) : (dat3 (T6 m) c).arrAt (1 : Fin 3) cfg3.N = U7 m c main_v30 := by
  rw [U7_def]
  exact (((dat3 (T6 m) c).arrAt_in (1 : Fin 3) rfl _).trans (A_eq3 (T6 m) c (1 : Fin 3))).trans (Function.update_of_ne (StableHlo.devRef_ne_of_ne (by decide : main_v30 ≠ main_v63)) (o7_2 m c) (U6 m c)).symm
set_option backward.isDefEq.respectTransparency.types false in
set_option maxHeartbeats 1000000 in
theorem exitArr3_2 (c : Dev nD) : (dat3 (T6 m) c).arrAt (2 : Fin 3) cfg3.N = U7 m c main_v63 := by
  rw [U7_def]
  exact (Function.update_self (Proc.devRef (τ := τ) .tc main_v63) (o7_2 m c) (U6 m c)).symm
/-- At region 3's exit each of its arrays holds what the pipeline leaves: an input array its entry contents, an output array the fold of its write-backs. -/
theorem exitArr3 (c : Dev nD) (w : Fin cfg3.W) : (dat3 (T6 m) c).arrAt w cfg3.N = T7 m c (Pipeline.arrRef spec3 w) := by
  match w with
  | ⟨0, _⟩ => exact exitArr3_0 m c
  | ⟨1, _⟩ => exact exitArr3_1 m c
  | ⟨2, _⟩ => exact exitArr3_2 m c
/-- Every buffer that is none of region 3's arrays holds at its exit what it held at its entry. -/
theorem exitRest3 (c : Dev nD) : ∀ b, b ∉ Finset.univ.image (Pipeline.arrRef spec3) → T7 m c b = T6 m c b := fun b hb => by
  have hne_2 : b ≠ main_v63 := fun e => hb (Finset.mem_image.mpr ⟨(2 : Fin 3), Finset.mem_univ _, by rw [e]⟩)
  show U7 m c b = U6 m c b
  rw [U7_def]
  rw [Function.update_of_ne (StableHlo.devRef_ne_of_ne hne_2)]

set_option backward.isDefEq.respectTransparency.types false in
/-- Region 3 over the thread state: entered from every unscoped buffer at the contents before it, left at the contents after it; its arrays split out of the
    unscoped buffers and put back at the exit contents, the generator register into the region's invariant and out, nothing owed, no semaphore of the kernel's own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (T6 m) c).loose
  hwaits := Pipeline.hwaits_of_owed_zero _ _ _ _ Lz lvz 3 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T6 m c) fun w => A_eq3 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (T6 m) c
  hout c := hout3 (T6 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T6 m c) (T7 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 4 -/

set_option backward.isDefEq.respectTransparency.types false in
set_option maxHeartbeats 1000000 in
theorem exitArr4_0 (c : Dev nD) : (dat4 (T8 m) c).arrAt (0 : Fin 3) cfg4.N = U9 m c main_v84 := by
  rw [U9_def]
  exact (((dat4 (T8 m) c).arrAt_in (0 : Fin 3) rfl _).trans (A_eq4 (T8 m) c (0 : Fin 3))).trans ((Function.update_of_ne (StableHlo.devRef_ne_of_ne (by decide : main_v84 ≠ main_v85_1)) (o9_2 m c) (Function.update (U8 m c) main_v85_0 (o9_1 m c))).trans (Function.update_of_ne (StableHlo.devRef_ne_of_ne (by decide : main_v84 ≠ main_v85_0)) (o9_1 m c) (U8 m c))).symm
set_option backward.isDefEq.respectTransparency.types false in
set_option maxHeartbeats 1000000 in
theorem exitArr4_1 (c : Dev nD) : (dat4 (T8 m) c).arrAt (1 : Fin 3) cfg4.N = U9 m c main_v85_0 := by
  rw [U9_def]
  exact ((Function.update_of_ne (StableHlo.devRef_ne_of_ne (by decide : main_v85_0 ≠ main_v85_1)) (o9_2 m c) (Function.update (U8 m c) main_v85_0 (o9_1 m c))).trans (Function.update_self (Proc.devRef (τ := τ) .tc main_v85_0) (o9_1 m c) (U8 m c))).symm
set_option backward.isDefEq.respectTransparency.types false in
set_option maxHeartbeats 1000000 in
theorem exitArr4_2 (c : Dev nD) : (dat4 (T8 m) c).arrAt (2 : Fin 3) cfg4.N = U9 m c main_v85_1 := by
  rw [U9_def]
  exact (Function.update_self (Proc.devRef (τ := τ) .tc main_v85_1) (o9_2 m c) (Function.update (U8 m c) main_v85_0 (o9_1 m c))).symm
/-- At region 4's exit each of its arrays holds what the pipeline leaves: an input array its entry contents, an output array the fold of its write-backs. -/
theorem exitArr4 (c : Dev nD) (w : Fin cfg4.W) : (dat4 (T8 m) c).arrAt w cfg4.N = T9 m c (Pipeline.arrRef spec4 w) := by
  match w with
  | ⟨0, _⟩ => exact exitArr4_0 m c
  | ⟨1, _⟩ => exact exitArr4_1 m c
  | ⟨2, _⟩ => exact exitArr4_2 m c
/-- Every buffer that is none of region 4's arrays holds at its exit what it held at its entry. -/
theorem exitRest4 (c : Dev nD) : ∀ b, b ∉ Finset.univ.image (Pipeline.arrRef spec4) → T9 m c b = T8 m c b := fun b hb => by
  have hne_1 : b ≠ main_v85_0 := fun e => hb (Finset.mem_image.mpr ⟨(1 : Fin 3), Finset.mem_univ _, by rw [e]⟩)
  have hne_2 : b ≠ main_v85_1 := fun e => hb (Finset.mem_image.mpr ⟨(2 : Fin 3), Finset.mem_univ _, by rw [e]⟩)
  show U9 m c b = U8 m c b
  rw [U9_def]
  rw [Function.update_of_ne (StableHlo.devRef_ne_of_ne hne_2), Function.update_of_ne (StableHlo.devRef_ne_of_ne hne_1)]

set_option backward.isDefEq.respectTransparency.types false in
/-- Region 4 over the thread state: entered from every unscoped buffer at the contents before it, left at the contents after it; its arrays split out of the
    unscoped buffers and put back at the exit contents, the generator register into the region's invariant and out, nothing owed, no semaphore of the kernel's own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (T8 m) c).loose
  hwaits := Pipeline.hwaits_of_owed_zero _ _ _ _ Lz lvz 4 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec4 c (T8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T8 m c) fun w => A_eq4 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (T8 m) c _
  hout c := hout4 (T8 m) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T8 m c) (T9 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 5 -/

set_option backward.isDefEq.respectTransparency.types false in
set_option maxHeartbeats 1000000 in
theorem exitArr5_0 (c : Dev nD) : (dat5 (T10 m) c).arrAt (0 : Fin 6) cfg5.N = U11 m c main_v84 := by
  rw [U11_def]
  exact (((dat5 (T10 m) c).arrAt_in (0 : Fin 6) rfl _).trans (A_eq5 (T10 m) c (0 : Fin 6))).trans (Function.update_of_ne (StableHlo.devRef_ne_of_ne (by decide : main_v84 ≠ main_v92)) (o11_5 m c) (U10 m c)).symm
set_option backward.isDefEq.respectTransparency.types false in
set_option maxHeartbeats 1000000 in
theorem exitArr5_1 (c : Dev nD) : (dat5 (T10 m) c).arrAt (1 : Fin 6) cfg5.N = U11 m c main_v85_0 := by
  rw [U11_def]
  exact (((dat5 (T10 m) c).arrAt_in (1 : Fin 6) rfl _).trans (A_eq5 (T10 m) c (1 : Fin 6))).trans (Function.update_of_ne (StableHlo.devRef_ne_of_ne (by decide : main_v85_0 ≠ main_v92)) (o11_5 m c) (U10 m c)).symm
set_option backward.isDefEq.respectTransparency.types false in
set_option maxHeartbeats 1000000 in
theorem exitArr5_2 (c : Dev nD) : (dat5 (T10 m) c).arrAt (2 : Fin 6) cfg5.N = U11 m c main_v85_1 := by
  rw [U11_def]
  exact (((dat5 (T10 m) c).arrAt_in (2 : Fin 6) rfl _).trans (A_eq5 (T10 m) c (2 : Fin 6))).trans (Function.update_of_ne (StableHlo.devRef_ne_of_ne (by decide : main_v85_1 ≠ main_v92)) (o11_5 m c) (U10 m c)).symm
set_option backward.isDefEq.respectTransparency.types false in
set_option maxHeartbeats 1000000 in
theorem exitArr5_3 (c : Dev nD) : (dat5 (T10 m) c).arrAt (3 : Fin 6) cfg5.N = U11 m c main_v88 := by
  rw [U11_def]
  exact (((dat5 (T10 m) c).arrAt_in (3 : Fin 6) rfl _).trans (A_eq5 (T10 m) c (3 : Fin 6))).trans (Function.update_of_ne (StableHlo.devRef_ne_of_ne (by decide : main_v88 ≠ main_v92)) (o11_5 m c) (U10 m c)).symm
set_option backward.isDefEq.respectTransparency.types false in
set_option maxHeartbeats 1000000 in
theorem exitArr5_4 (c : Dev nD) : (dat5 (T10 m) c).arrAt (4 : Fin 6) cfg5.N = U11 m c main_v91 := by
  rw [U11_def]
  exact (((dat5 (T10 m) c).arrAt_in (4 : Fin 6) rfl _).trans (A_eq5 (T10 m) c (4 : Fin 6))).trans (Function.update_of_ne (StableHlo.devRef_ne_of_ne (by decide : main_v91 ≠ main_v92)) (o11_5 m c) (U10 m c)).symm
set_option backward.isDefEq.respectTransparency.types false in
set_option maxHeartbeats 1000000 in
theorem exitArr5_5 (c : Dev nD) : (dat5 (T10 m) c).arrAt (5 : Fin 6) cfg5.N = U11 m c main_v92 := by
  rw [U11_def]
  exact (Function.update_self (Proc.devRef (τ := τ) .tc main_v92) (o11_5 m c) (U10 m c)).symm
/-- At region 5's exit each of its arrays holds what the pipeline leaves: an input array its entry contents, an output array the fold of its write-backs. -/
theorem exitArr5 (c : Dev nD) (w : Fin cfg5.W) : (dat5 (T10 m) c).arrAt w cfg5.N = T11 m c (Pipeline.arrRef spec5 w) := by
  match w with
  | ⟨0, _⟩ => exact exitArr5_0 m c
  | ⟨1, _⟩ => exact exitArr5_1 m c
  | ⟨2, _⟩ => exact exitArr5_2 m c
  | ⟨3, _⟩ => exact exitArr5_3 m c
  | ⟨4, _⟩ => exact exitArr5_4 m c
  | ⟨5, _⟩ => exact exitArr5_5 m c
/-- Every buffer that is none of region 5's arrays holds at its exit what it held at its entry. -/
theorem exitRest5 (c : Dev nD) : ∀ b, b ∉ Finset.univ.image (Pipeline.arrRef spec5) → T11 m c b = T10 m c b := fun b hb => by
  have hne_5 : b ≠ main_v92 := fun e => hb (Finset.mem_image.mpr ⟨(5 : Fin 6), Finset.mem_univ _, by rw [e]⟩)
  show U11 m c b = U10 m c b
  rw [U11_def]
  rw [Function.update_of_ne (StableHlo.devRef_ne_of_ne hne_5)]

set_option backward.isDefEq.respectTransparency.types false in
/-- Region 5 over the thread state: entered from every unscoped buffer at the contents before it, left at the contents after it; its arrays split out of the
    unscoped buffers and put back at the exit contents, the generator register into the region's invariant and out, nothing owed, no semaphore of the kernel's own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (T10 m) c).loose
  hwaits := Pipeline.hwaits_of_owed_zero _ _ _ _ Lz lvz 5 fun _ _ => rfl
  pre c := iprop(StableHlo.held (c : Thread nD τ) (Pipeline.ucRefs τ sig) (U10 m c) ∗ Rst c)
  post c := iprop(StableHlo.held (c : Thread nD τ) (Pipeline.ucRefs τ sig) (U11 m c) ∗ Rst c)
  X c := iprop(∃ r, prngReg c r)
  Y c := iprop(∃ r, prngReg c r)
  Z c := Pipeline.unscopedRest (Ix := Unit) (Name := ℕ) (U := UR sig nD τ) (Lvl := ℕ) spec5 c (T10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T10 m c) fun w => A_eq5 (T10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin5 (T10 m) c
  hout c := hout5 (T10 m) c
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T10 m c) (T11 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 6 -/

set_option backward.isDefEq.respectTransparency.types false in
set_option maxHeartbeats 1000000 in
theorem exitArr6_0 (c : Dev nD) : (dat6 (T11 m) c).arrAt (0 : Fin 3) cfg6.N = U12 m c main_v92 := by
  rw [U12_def]
  exact (((dat6 (T11 m) c).arrAt_in (0 : Fin 3) rfl _).trans (A_eq6 (T11 m) c (0 : Fin 3))).trans (Function.update_of_ne (StableHlo.devRef_ne_of_ne (by decide : main_v92 ≠ main_v93)) (o12_2 m c) (U11 m c)).symm
set_option backward.isDefEq.respectTransparency.types false in
set_option maxHeartbeats 1000000 in
theorem exitArr6_1 (c : Dev nD) : (dat6 (T11 m) c).arrAt (1 : Fin 3) cfg6.N = U12 m c main_v32 := by
  rw [U12_def]
  exact (((dat6 (T11 m) c).arrAt_in (1 : Fin 3) rfl _).trans (A_eq6 (T11 m) c (1 : Fin 3))).trans (Function.update_of_ne (StableHlo.devRef_ne_of_ne (by decide : main_v32 ≠ main_v93)) (o12_2 m c) (U11 m c)).symm
set_option backward.isDefEq.respectTransparency.types false in
set_option maxHeartbeats 1000000 in
theorem exitArr6_2 (c : Dev nD) : (dat6 (T11 m) c).arrAt (2 : Fin 3) cfg6.N = U12 m c main_v93 := by
  rw [U12_def]
  exact (Function.update_self (Proc.devRef (τ := τ) .tc main_v93) (o12_2 m c) (U11 m c)).symm
/-- At region 6's exit each of its arrays holds what the pipeline leaves: an input array its entry contents, an output array the fold of its write-backs. -/
theorem exitArr6 (c : Dev nD) (w : Fin cfg6.W) : (dat6 (T11 m) c).arrAt w cfg6.N = T12 m c (Pipeline.arrRef spec6 w) := by
  match w with
  | ⟨0, _⟩ => exact exitArr6_0 m c
  | ⟨1, _⟩ => exact exitArr6_1 m c
  | ⟨2, _⟩ => exact exitArr6_2 m c
/-- Every buffer that is none of region 6's arrays holds at its exit what it held at its entry. -/
theorem exitRest6 (c : Dev nD) : ∀ b, b ∉ Finset.univ.image (Pipeline.arrRef spec6) → T12 m c b = T11 m c b := fun b hb => by
  have hne_2 : b ≠ main_v93 := fun e => hb (Finset.mem_image.mpr ⟨(2 : Fin 3), Finset.mem_univ _, by rw [e]⟩)
  show U12 m c b = U11 m c b
  rw [U12_def]
  rw [Function.update_of_ne (StableHlo.devRef_ne_of_ne hne_2)]

set_option backward.isDefEq.respectTransparency.types false in
/-- Region 6 over the thread state: entered from every unscoped buffer at the contents before it, left at the contents after it; its arrays split out of the
    unscoped buffers and put back at the exit contents, the generator register into the region's invariant and out, nothing owed, no semaphore of the kernel's own. -/
def reg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (body_obligation6 (T11 m) c).loose
  hwaits := Pipeline.hwaits_of_owed_zero _ _ _ _ Lz lvz 6 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec6 c (T11 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T11 m c) fun w => A_eq6 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (T11 m) c
  hout c := hout6 (T11 m) c
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T11 m c) (T12 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/-
  Region 7 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 7 -/

set_option backward.isDefEq.respectTransparency.types false in
set_option maxHeartbeats 1000000 in
theorem exitArr7_0 (c : Dev nD) : (dat7 (T13 m) c).arrAt (0 : Fin 3) cfg7.N = U14 m c main_v114 := by
  rw [U14_def]
  exact (((dat7 (T13 m) c).arrAt_in (0 : Fin 3) rfl _).trans (A_eq7 (T13 m) c (0 : Fin 3))).trans ((Function.update_of_ne (StableHlo.devRef_ne_of_ne (by decide : main_v114 ≠ main_v115_1)) (o14_2 m c) (Function.update (U13 m c) main_v115_0 (o14_1 m c))).trans (Function.update_of_ne (StableHlo.devRef_ne_of_ne (by decide : main_v114 ≠ main_v115_0)) (o14_1 m c) (U13 m c))).symm
set_option backward.isDefEq.respectTransparency.types false in
set_option maxHeartbeats 1000000 in
theorem exitArr7_1 (c : Dev nD) : (dat7 (T13 m) c).arrAt (1 : Fin 3) cfg7.N = U14 m c main_v115_0 := by
  rw [U14_def]
  exact ((Function.update_of_ne (StableHlo.devRef_ne_of_ne (by decide : main_v115_0 ≠ main_v115_1)) (o14_2 m c) (Function.update (U13 m c) main_v115_0 (o14_1 m c))).trans (Function.update_self (Proc.devRef (τ := τ) .tc main_v115_0) (o14_1 m c) (U13 m c))).symm
set_option backward.isDefEq.respectTransparency.types false in
set_option maxHeartbeats 1000000 in
theorem exitArr7_2 (c : Dev nD) : (dat7 (T13 m) c).arrAt (2 : Fin 3) cfg7.N = U14 m c main_v115_1 := by
  rw [U14_def]
  exact (Function.update_self (Proc.devRef (τ := τ) .tc main_v115_1) (o14_2 m c) (Function.update (U13 m c) main_v115_0 (o14_1 m c))).symm
/-- At region 7's exit each of its arrays holds what the pipeline leaves: an input array its entry contents, an output array the fold of its write-backs. -/
theorem exitArr7 (c : Dev nD) (w : Fin cfg7.W) : (dat7 (T13 m) c).arrAt w cfg7.N = T14 m c (Pipeline.arrRef spec7 w) := by
  match w with
  | ⟨0, _⟩ => exact exitArr7_0 m c
  | ⟨1, _⟩ => exact exitArr7_1 m c
  | ⟨2, _⟩ => exact exitArr7_2 m c
/-- Every buffer that is none of region 7's arrays holds at its exit what it held at its entry. -/
theorem exitRest7 (c : Dev nD) : ∀ b, b ∉ Finset.univ.image (Pipeline.arrRef spec7) → T14 m c b = T13 m c b := fun b hb => by
  have hne_1 : b ≠ main_v115_0 := fun e => hb (Finset.mem_image.mpr ⟨(1 : Fin 3), Finset.mem_univ _, by rw [e]⟩)
  have hne_2 : b ≠ main_v115_1 := fun e => hb (Finset.mem_image.mpr ⟨(2 : Fin 3), Finset.mem_univ _, by rw [e]⟩)
  show U14 m c b = U13 m c b
  rw [U14_def]
  rw [Function.update_of_ne (StableHlo.devRef_ne_of_ne hne_2), Function.update_of_ne (StableHlo.devRef_ne_of_ne hne_1)]

set_option backward.isDefEq.respectTransparency.types false in
/-- Region 7 over the thread state: entered from every unscoped buffer at the contents before it, left at the contents after it; its arrays split out of the
    unscoped buffers and put back at the exit contents, the generator register into the region's invariant and out, nothing owed, no semaphore of the kernel's own. -/
def reg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (body_obligation7 (T13 m) c).loose
  hwaits := Pipeline.hwaits_of_owed_zero _ _ _ _ Lz lvz 7 fun _ _ => rfl
  pre c := iprop(StableHlo.held (c : Thread nD τ) (Pipeline.ucRefs τ sig) (U13 m c) ∗ Rst c)
  post c := iprop(StableHlo.held (c : Thread nD τ) (Pipeline.ucRefs τ sig) (U14 m c) ∗ Rst c)
  X c := iprop(∃ r, prngReg c r)
  Y c := iprop(∃ r, prngReg c r)
  Z c := Pipeline.unscopedRest (Ix := Unit) (Name := ℕ) (U := UR sig nD τ) (Lvl := ℕ) spec7 c (T13 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T13 m c) fun w => A_eq7 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin7 (T13 m) c _
  hout c := hout7 (T13 m) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T13 m c) (T14 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/-
  Region 8 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 8 -/

set_option backward.isDefEq.respectTransparency.types false in
set_option maxHeartbeats 1000000 in
theorem exitArr8_0 (c : Dev nD) : (dat8 (T15 m) c).arrAt (0 : Fin 6) cfg8.N = U16 m c main_v114 := by
  rw [U16_def]
  exact (((dat8 (T15 m) c).arrAt_in (0 : Fin 6) rfl _).trans (A_eq8 (T15 m) c (0 : Fin 6))).trans (Function.update_of_ne (StableHlo.devRef_ne_of_ne (by decide : main_v114 ≠ main_v122)) (o16_5 m c) (U15 m c)).symm
set_option backward.isDefEq.respectTransparency.types false in
set_option maxHeartbeats 1000000 in
theorem exitArr8_1 (c : Dev nD) : (dat8 (T15 m) c).arrAt (1 : Fin 6) cfg8.N = U16 m c main_v115_0 := by
  rw [U16_def]
  exact (((dat8 (T15 m) c).arrAt_in (1 : Fin 6) rfl _).trans (A_eq8 (T15 m) c (1 : Fin 6))).trans (Function.update_of_ne (StableHlo.devRef_ne_of_ne (by decide : main_v115_0 ≠ main_v122)) (o16_5 m c) (U15 m c)).symm
set_option backward.isDefEq.respectTransparency.types false in
set_option maxHeartbeats 1000000 in
theorem exitArr8_2 (c : Dev nD) : (dat8 (T15 m) c).arrAt (2 : Fin 6) cfg8.N = U16 m c main_v115_1 := by
  rw [U16_def]
  exact (((dat8 (T15 m) c).arrAt_in (2 : Fin 6) rfl _).trans (A_eq8 (T15 m) c (2 : Fin 6))).trans (Function.update_of_ne (StableHlo.devRef_ne_of_ne (by decide : main_v115_1 ≠ main_v122)) (o16_5 m c) (U15 m c)).symm
set_option backward.isDefEq.respectTransparency.types false in
set_option maxHeartbeats 1000000 in
theorem exitArr8_3 (c : Dev nD) : (dat8 (T15 m) c).arrAt (3 : Fin 6) cfg8.N = U16 m c main_v118 := by
  rw [U16_def]
  exact (((dat8 (T15 m) c).arrAt_in (3 : Fin 6) rfl _).trans (A_eq8 (T15 m) c (3 : Fin 6))).trans (Function.update_of_ne (StableHlo.devRef_ne_of_ne (by decide : main_v118 ≠ main_v122)) (o16_5 m c) (U15 m c)).symm
set_option backward.isDefEq.respectTransparency.types false in
set_option maxHeartbeats 1000000 in
theorem exitArr8_4 (c : Dev nD) : (dat8 (T15 m) c).arrAt (4 : Fin 6) cfg8.N = U16 m c main_v121 := by
  rw [U16_def]
  exact (((dat8 (T15 m) c).arrAt_in (4 : Fin 6) rfl _).trans (A_eq8 (T15 m) c (4 : Fin 6))).trans (Function.update_of_ne (StableHlo.devRef_ne_of_ne (by decide : main_v121 ≠ main_v122)) (o16_5 m c) (U15 m c)).symm
set_option backward.isDefEq.respectTransparency.types false in
set_option maxHeartbeats 1000000 in
theorem exitArr8_5 (c : Dev nD) : (dat8 (T15 m) c).arrAt (5 : Fin 6) cfg8.N = U16 m c main_v122 := by
  rw [U16_def]
  exact (Function.update_self (Proc.devRef (τ := τ) .tc main_v122) (o16_5 m c) (U15 m c)).symm
/-- At region 8's exit each of its arrays holds what the pipeline leaves: an input array its entry contents, an output array the fold of its write-backs. -/
theorem exitArr8 (c : Dev nD) (w : Fin cfg8.W) : (dat8 (T15 m) c).arrAt w cfg8.N = T16 m c (Pipeline.arrRef spec8 w) := by
  match w with
  | ⟨0, _⟩ => exact exitArr8_0 m c
  | ⟨1, _⟩ => exact exitArr8_1 m c
  | ⟨2, _⟩ => exact exitArr8_2 m c
  | ⟨3, _⟩ => exact exitArr8_3 m c
  | ⟨4, _⟩ => exact exitArr8_4 m c
  | ⟨5, _⟩ => exact exitArr8_5 m c
/-- Every buffer that is none of region 8's arrays holds at its exit what it held at its entry. -/
theorem exitRest8 (c : Dev nD) : ∀ b, b ∉ Finset.univ.image (Pipeline.arrRef spec8) → T16 m c b = T15 m c b := fun b hb => by
  have hne_5 : b ≠ main_v122 := fun e => hb (Finset.mem_image.mpr ⟨(5 : Fin 6), Finset.mem_univ _, by rw [e]⟩)
  show U16 m c b = U15 m c b
  rw [U16_def]
  rw [Function.update_of_ne (StableHlo.devRef_ne_of_ne hne_5)]

set_option backward.isDefEq.respectTransparency.types false in
/-- Region 8 over the thread state: entered from every unscoped buffer at the contents before it, left at the contents after it; its arrays split out of the
    unscoped buffers and put back at the exit contents, the generator register into the region's invariant and out, nothing owed, no semaphore of the kernel's own. -/
def reg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (body_obligation8 (T15 m) c).loose
  hwaits := Pipeline.hwaits_of_owed_zero _ _ _ _ Lz lvz 8 fun _ _ => rfl
  pre c := iprop(StableHlo.held (c : Thread nD τ) (Pipeline.ucRefs τ sig) (U15 m c) ∗ Rst c)
  post c := iprop(StableHlo.held (c : Thread nD τ) (Pipeline.ucRefs τ sig) (U16 m c) ∗ Rst c)
  X c := iprop(∃ r, prngReg c r)
  Y c := iprop(∃ r, prngReg c r)
  Z c := Pipeline.unscopedRest (Ix := Unit) (Name := ℕ) (U := UR sig nD τ) (Lvl := ℕ) spec8 c (T15 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T15 m c) fun w => A_eq8 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin8 (T15 m) c
  hout c := hout8 (T15 m) c
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T15 m c) (T16 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/-
  Region 9 as a segment of the program: at its exit every array of the region holds what the pipeline leaves (an input array
  its entry contents, an output array the fold of its write-backs) and every other buffer what it held at the entry; around the
  thread state "every unscoped buffer at the valuation, the generator register at some state, nothing owed".
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### Region 9 -/

set_option backward.isDefEq.respectTransparency.types false in
set_option maxHeartbeats 1000000 in
theorem exitArr9_0 (c : Dev nD) : (dat9 (T17 m) c).arrAt (0 : Fin 5) cfg9.N = U18 m c main_v125 := by
  rw [U18_def]
  exact (((dat9 (T17 m) c).arrAt_in (0 : Fin 5) rfl _).trans (A_eq9 (T17 m) c (0 : Fin 5))).trans (Function.update_of_ne (StableHlo.devRef_ne_of_ne (by decide : main_v125 ≠ main_v132)) (o18_4 m c) (U17 m c)).symm
set_option backward.isDefEq.respectTransparency.types false in
set_option maxHeartbeats 1000000 in
theorem exitArr9_1 (c : Dev nD) : (dat9 (T17 m) c).arrAt (1 : Fin 5) cfg9.N = U18 m c main_v130 := by
  rw [U18_def]
  exact (((dat9 (T17 m) c).arrAt_in (1 : Fin 5) rfl _).trans (A_eq9 (T17 m) c (1 : Fin 5))).trans (Function.update_of_ne (StableHlo.devRef_ne_of_ne (by decide : main_v130 ≠ main_v132)) (o18_4 m c) (U17 m c)).symm
set_option backward.isDefEq.respectTransparency.types false in
set_option maxHeartbeats 1000000 in
theorem exitArr9_2 (c : Dev nD) : (dat9 (T17 m) c).arrAt (2 : Fin 5) cfg9.N = U18 m c main_arg9 := by
  rw [U18_def]
  exact (((dat9 (T17 m) c).arrAt_in (2 : Fin 5) rfl _).trans (A_eq9 (T17 m) c (2 : Fin 5))).trans (Function.update_of_ne (StableHlo.devRef_ne_of_ne (by decide : main_arg9 ≠ main_v132)) (o18_4 m c) (U17 m c)).symm
set_option backward.isDefEq.respectTransparency.types false in
set_option maxHeartbeats 1000000 in
theorem exitArr9_3 (c : Dev nD) : (dat9 (T17 m) c).arrAt (3 : Fin 5) cfg9.N = U18 m c main_v131 := by
  rw [U18_def]
  exact (((dat9 (T17 m) c).arrAt_in (3 : Fin 5) rfl _).trans (A_eq9 (T17 m) c (3 : Fin 5))).trans (Function.update_of_ne (StableHlo.devRef_ne_of_ne (by decide : main_v131 ≠ main_v132)) (o18_4 m c) (U17 m c)).symm
set_option backward.isDefEq.respectTransparency.types false in
set_option maxHeartbeats 1000000 in
theorem exitArr9_4 (c : Dev nD) : (dat9 (T17 m) c).arrAt (4 : Fin 5) cfg9.N = U18 m c main_v132 := by
  rw [U18_def]
  exact (Function.update_self (Proc.devRef (τ := τ) .tc main_v132) (o18_4 m c) (U17 m c)).symm
/-- At region 9's exit each of its arrays holds what the pipeline leaves: an input array its entry contents, an output array the fold of its write-backs. -/
theorem exitArr9 (c : Dev nD) (w : Fin cfg9.W) : (dat9 (T17 m) c).arrAt w cfg9.N = T18 m c (Pipeline.arrRef spec9 w) := by
  match w with
  | ⟨0, _⟩ => exact exitArr9_0 m c
  | ⟨1, _⟩ => exact exitArr9_1 m c
  | ⟨2, _⟩ => exact exitArr9_2 m c
  | ⟨3, _⟩ => exact exitArr9_3 m c
  | ⟨4, _⟩ => exact exitArr9_4 m c
/-- Every buffer that is none of region 9's arrays holds at its exit what it held at its entry. -/
theorem exitRest9 (c : Dev nD) : ∀ b, b ∉ Finset.univ.image (Pipeline.arrRef spec9) → T18 m c b = T17 m c b := fun b hb => by
  have hne_4 : b ≠ main_v132 := fun e => hb (Finset.mem_image.mpr ⟨(4 : Fin 5), Finset.mem_univ _, by rw [e]⟩)
  show U18 m c b = U17 m c b
  rw [U18_def]
  rw [Function.update_of_ne (StableHlo.devRef_ne_of_ne hne_4)]

set_option backward.isDefEq.respectTransparency.types false in
/-- Region 9 over the thread state: entered from every unscoped buffer at the contents before it, left at the contents after it; its arrays split out of the
    unscoped buffers and put back at the exit contents, the generator register into the region's invariant and out, nothing owed, no semaphore of the kernel's own. -/
def reg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (body_obligation9 (T17 m) c).loose
  hwaits := Pipeline.hwaits_of_owed_zero _ _ _ _ Lz lvz 9 fun _ _ => rfl
  pre c := iprop(StableHlo.held (c : Thread nD τ) (Pipeline.ucRefs τ sig) (U17 m c) ∗ Rst c)
  post c := iprop(StableHlo.held (c : Thread nD τ) (Pipeline.ucRefs τ sig) (U18 m c) ∗ Rst c)
  X c := iprop(∃ r, prngReg c r)
  Y c := iprop(∃ r, prngReg c r)
  Z c := Pipeline.unscopedRest (Ix := Unit) (Name := ℕ) (U := UR sig nD τ) (Lvl := ℕ) spec9 c (T17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T17 m c) fun w => A_eq9 (T17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin9 (T17 m) c
  hout c := hout9 (T17 m) c
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T17 m c) (T18 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The program's frame, and its run with the result named: every weakly fair execution from any memory with zero counters terminates,
  nothing faulting; every argument array ends as launched, and the result array ends at the last valuation's contents — what the
  last region leaves. Both from the conditional run over the ten regions' segment records.
-/
import proofs.«177080_j35828617183700_2_alg».proof.Proof.KI.Chain
import proofs.«177080_j35828617183700_2_alg».proof.Proof.KI.Seg0
import proofs.«177080_j35828617183700_2_alg».proof.Proof.KI.Seg1
import proofs.«177080_j35828617183700_2_alg».proof.Proof.KI.Seg2
import proofs.«177080_j35828617183700_2_alg».proof.Proof.KI.Seg3
import proofs.«177080_j35828617183700_2_alg».proof.Proof.KI.Seg4
import proofs.«177080_j35828617183700_2_alg».proof.Proof.KI.Seg5
import proofs.«177080_j35828617183700_2_alg».proof.Proof.KI.Seg6
import proofs.«177080_j35828617183700_2_alg».proof.Proof.KI.Seg7
import proofs.«177080_j35828617183700_2_alg».proof.Proof.KI.Seg8
import proofs.«177080_j35828617183700_2_alg».proof.Proof.KI.Seg9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := Lz) (lv := lvz) (hL := fun _ _ => rfl) (ρ := ρ) (outs := outs m) (pdats := pdats m)
    (O₀ := 0) (G := fun _ => (BI.emp : sProp 𝕄)) (u₀ := initOf (Pipeline.cells cfgs cellOf_inj) (Pipeline.launchToks cfgs cellOf_inj))
    (hu₀ := launch_algebra) (E := Est) (hE0 := launch_rest ρ) (hE10 := rest_owes_nothing)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)
    (R4 := reg4 m) (hpre4 := fun c => by rw [V8_eq]; exact .rfl) (hpost4 := fun c => by rw [V9_eq]; exact .rfl)
    (R5 := reg5 m) (hpre5 := fun c => by rw [V10_eq]; exact .rfl) (hpost5 := fun c => by rw [V11_eq]; exact .rfl)
    (R6 := reg6 m) (hpre6 := fun c => by rw [V11_eq]; exact .rfl) (hpost6 := fun c => by rw [V12_eq]; exact .rfl)
    (R7 := reg7 m) (hpre7 := fun c => by rw [V13_eq]; exact .rfl) (hpost7 := fun c => by rw [V14_eq]; exact .rfl)
    (R8 := reg8 m) (hpre8 := fun c => by rw [V15_eq]; exact .rfl) (hpost8 := fun c => by rw [V16_eq]; exact .rfl)
    (R9 := reg9 m) (hpre9 := fun c => by rw [V17_eq]; exact .rfl) (hpost9 := fun c => by rw [V18_eq]; exact .rfl)

set_option backward.isDefEq.respectTransparency.types false in
/-- The run with the result named: the result array ends at what the last region leaves, every argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v132) = U18 m c main_v132
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (congrFun (V18_eq m c) _), (h c).2⟩)
    (run_cond m (EP := emb₁) (ι := ()) (𝒱₀ := Variants.none) (L := Lz) (lv := lvz) (hL := fun _ _ => rfl) (ρ := ρ) (outs := outs m) (pdats := pdats m)
    (O₀ := 0) (G := fun _ => (BI.emp : sProp 𝕄)) (u₀ := initOf (Pipeline.cells cfgs cellOf_inj) (Pipeline.launchToks cfgs cellOf_inj))
    (hu₀ := launch_algebra) (E := Est) (hE0 := launch_rest ρ) (hE10 := rest_owes_nothing)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V6_eq]; exact .rfl) (hpost3 := fun c => by rw [V7_eq]; exact .rfl)
    (R4 := reg4 m) (hpre4 := fun c => by rw [V8_eq]; exact .rfl) (hpost4 := fun c => by rw [V9_eq]; exact .rfl)
    (R5 := reg5 m) (hpre5 := fun c => by rw [V10_eq]; exact .rfl) (hpost5 := fun c => by rw [V11_eq]; exact .rfl)
    (R6 := reg6 m) (hpre6 := fun c => by rw [V11_eq]; exact .rfl) (hpost6 := fun c => by rw [V12_eq]; exact .rfl)
    (R7 := reg7 m) (hpre7 := fun c => by rw [V13_eq]; exact .rfl) (hpost7 := fun c => by rw [V14_eq]; exact .rfl)
    (R8 := reg8 m) (hpre8 := fun c => by rw [V15_eq]; exact .rfl) (hpost8 := fun c => by rw [V16_eq]; exact .rfl)
    (R9 := reg9 m) (hpre9 := fun c => by rw [V17_eq]; exact .rfl) (hpost9 := fun c => by rw [V18_eq]; exact .rfl)
    )

end Cert.KernelIdeal.Hand

end
-- ==== Proof.RefRun.lean ====
/- The reference program's @main, read as ONE straight line of host operations, and its run.
   @main is printed in four windows and calls four outlined functions (a variance, itself calling a select;
   a rectifier; a clamp from below). Each call stands for its callee's operations over that call's own buffers, so
   @main is a line of 287 operations: `ops`, the windows' lines `ops_part0 … ops_part3` one after the other.
   `main_eq` says @main IS that line. Every operation writes exactly one buffer, no two the same and none an
   argument; so from any launch memory every weakly fair execution terminates, the result buffer holds the fold of the
   operations over the launch contents (`after ops`, left as that name), and every argument holds what it held (`run`).
   `frame` is the same statement without the result. All of it for any float values `F`. -/
import proofs.«177080_j35828617183700_2_alg».proof.ReferenceIdeal
import proofs.«177080_j35828617183700_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is a member of the list `W` writes inside `W`. -/
theorem writes_mem {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Operations 1 … 60 of 287: the statements of window `main_part0` in order, each call replaced by its callee's
    operations over that call's buffers. -/
abbrev ops_part0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S3300000 ![] bcast_S_S3300000 : (⟨S_, .i32⟩ : BufTy).Contents (Elt F) → (⟨S3300000, .i32⟩ : BufTy).Contents (Elt F)),
    StableHlo.binary main_v3 main_v12 main_v13 (cmpi .slt : (⟨S3300000, .i32⟩ : BufTy).Contents (Elt F) → (⟨S3300000, .i32⟩ : BufTy).Contents (Elt F) → (⟨S3300000, .i1⟩ : BufTy).Contents (Elt F)),
    StableHlo.nullary main_c_1 (constantI S_ 32 100000#32),
    StableHlo.unary main_c_1 main_v14 (broadcastInDim S3300000 ![] bcast_S_S3300000 : (⟨S_, .i32⟩ : BufTy).Contents (Elt F) → (⟨S3300000, .i32⟩ : BufTy).Contents (Elt F)),
    StableHlo.binary main_v3 main_v14 main_v15 (addi : (⟨S3300000, .i32⟩ : BufTy).Contents (Elt F) → (⟨S3300000, .i32⟩ : BufTy).Contents (Elt F) → (⟨S3300000, .i32⟩ : BufTy).Contents (Elt F)),
    StableHlo.ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v16 main_v17 (broadcastInDim S3300000x1 ![0] bcast_S3300000_S3300000x1_0 : (⟨S3300000, .i32⟩ : BufTy).Contents (Elt F) → (⟨S3300000x1, .i32⟩ : BufTy).Contents (Elt F)),
    StableHlo.binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_2 (constantI S_ 32 0#32),
    StableHlo.unary main_c_2 main_v19 (broadcastInDim S3300000 ![] bcast_S_S3300000 : (⟨S_, .i32⟩ : BufTy).Contents (Elt F) → (⟨S3300000, .i32⟩ : BufTy).Contents (Elt F)),
    StableHlo.binary main_v6 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v21 (broadcastInDim S3300000 ![] bcast_S_S3300000 : (⟨S_, .i32⟩ : BufTy).Contents (Elt F) → (⟨S3300000, .i32⟩ : BufTy).Contents (Elt F)),
    StableHlo.binary main_v6 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v18 main_v25 main_v26 (mulf : (⟨S3300000, .f32⟩ : BufTy).Contents (Elt F) → (⟨S3300000, .f32⟩ : BufTy).Contents (Elt F) → (⟨S3300000, .f32⟩ : BufTy).Contents (Elt F)),
    StableHlo.nullary main_cst_4 (constant S_ .f32 0x3F800000#32),
    StableHlo.unary main_cst_4 main_v27 (broadcastInDim S100000 ![] bcast_S_S100000 : (⟨S_, .f32⟩ : BufTy).Contents (Elt F) → (⟨S100000, .f32⟩ : BufTy).Contents (Elt F)),
    StableHlo.binary main_v27 main_v10 main_v28 (Host.divf : (⟨S100000, .f32⟩ : BufTy).Contents (Elt F) → (⟨S100000, .f32⟩ : BufTy).Contents (Elt F) → (⟨S100000, .f32⟩ : BufTy).Contents (Elt F)),
    StableHlo.unary main_v28 main_v29 (broadcastInDim S100000x1 ![0] bcast_S100000_S100000x1_0 : (⟨S100000, .f32⟩ : BufTy).Contents (Elt F) → (⟨S100000x1, .f32⟩ : BufTy).Contents (Elt F)),
    StableHlo.unary main_arg5 main_v30 ((extractStridedSlice S1x32x32 ![0, 0, 0] · slices_S2x32x32_S1x32x32_0_0_0) : (⟨S2x32x32, .f32⟩ : BufTy).Contents (Elt F) → (⟨S1x32x32, .f32⟩ : BufTy).Contents (Elt F)),
    StableHlo.reshape main_v30 main_v31 rfl shapeCasts_S1x32x32_S32x32,
    StableHlo.unary main_arg5 main_v32 ((extractStridedSlice S1x32x32 ![1, 0, 0] · slices_S2x32x32_S1x32x32_1_0_0) : (⟨S2x32x32, .f32⟩ : BufTy).Contents (Elt F) → (⟨S1x32x32, .f32⟩ : BufTy).Contents (Elt F)),
    StableHlo.reshape main_v32 main_v33 rfl shapeCasts_S1x32x32_S32x32,
    StableHlo.binary main_arg0 main_arg4 main_v34 ((fun l r => Host.dotGeneral dot_S100000x384_S384x32_S100000x32_1_0_0_1_n_n none l r) : (⟨S100000x384, .f32⟩ : BufTy).Contents (Elt F) → (⟨S384x32, .f32⟩ : BufTy).Contents (Elt F) → (⟨S100000x32, .f32⟩ : BufTy).Contents (Elt F)),
    StableHlo.unary main_v26 main_v35 (broadcastInDim S3300000x1 ![0] bcast_S3300000_S3300000x1_0 : (⟨S3300000, .f32⟩ : BufTy).Contents (Elt F) → (⟨S3300000x1, .f32⟩ : BufTy).Contents (Elt F)),
    StableHlo.nullary main_c_5 (constantI S_ 32 0#32),
    StableHlo.unary main_c_5 main_v36 (broadcastInDim S3300000 ![] bcast_S_S3300000 : (⟨S_, .i32⟩ : BufTy).Contents (Elt F) → (⟨S3300000, .i32⟩ : BufTy).Contents (Elt F)),
    StableHlo.binary main_v6 main_v36 main_v37 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v38 (broadcastInDim S3300000 ![] bcast_S_S3300000 : (⟨S_, .i32⟩ : BufTy).Contents (Elt F) → (⟨S3300000, .i32⟩ : BufTy).Contents (Elt F)),
    StableHlo.binary main_v6 main_v38 main_v39 (addi : (⟨S3300000, .i32⟩ : BufTy).Contents (Elt F) → (⟨S3300000, .i32⟩ : BufTy).Contents (Elt F) → (⟨S3300000, .i32⟩ : BufTy).Contents (Elt F)),
    StableHlo.ternary main_v37 main_v39 main_v6 main_v40 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v40 main_v41 (broadcastInDim S3300000x1 ![0] bcast_S3300000_S3300000x1_0 : (⟨S3300000, .i32⟩ : BufTy).Contents (Elt F) → (⟨S3300000x1, .i32⟩ : BufTy).Contents (Elt F)),
    StableHlo.binary main_v34 main_v41 main_v42 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v35 main_v43 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v43 main_v42 main_v44 (mulf : (⟨S3300000x32, .f32⟩ : BufTy).Contents (Elt F) → (⟨S3300000x32, .f32⟩ : BufTy).Contents (Elt F) → (⟨S3300000x32, .f32⟩ : BufTy).Contents (Elt F)),
    StableHlo.nullary main_cst_7 (constant S_ .f32 0x00000000#32),
    StableHlo.unary main_cst_7 main_v45 (broadcastInDim S100000x32 ![] bcast_S_S100000x32 : (⟨S_, .f32⟩ : BufTy).Contents (Elt F) → (⟨S100000x32, .f32⟩ : BufTy).Contents (Elt F)),
    StableHlo.unary main_v3 main_v46 (broadcastInDim S3300000x1 ![0] bcast_S3300000_S3300000x1_0 : (⟨S3300000, .i32⟩ : BufTy).Contents (Elt F) → (⟨S3300000x1, .i32⟩ : BufTy).Contents (Elt F)),
    StableHlo.ternary main_v45 main_v46 main_v44 main_v47 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v48 (broadcastInDim S100000x32 ![0, 1] bcast_S100000x1_S100000x32_0_1 : (⟨S100000x1, .f32⟩ : BufTy).Contents (Elt F) → (⟨S100000x32, .f32⟩ : BufTy).Contents (Elt F)),
    StableHlo.binary main_v47 main_v48 main_v49 (mulf : (⟨S100000x32, .f32⟩ : BufTy).Contents (Elt F) → (⟨S100000x32, .f32⟩ : BufTy).Contents (Elt F) → (⟨S100000x32, .f32⟩ : BufTy).Contents (Elt F)) ]

/-- The buffers these operations write, in order. -/
abbrev ops_part0_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_v28, main_v29, main_v30, main_v31, main_v32, main_v33, main_v34, main_v35, main_c_5, main_v36, main_v37, main_c_6, main_v38, main_v39, main_v40, main_v41, main_v42, main_v43, main_v44, main_cst_7, main_v45, main_v46, main_v47, main_v48, main_v49]

set_option maxRecDepth 8192 in
/-- The window is that straight line: both sides are the same chain of steps. -/
theorem main_part0_eq (c : Dev nD) : main_part0 (F := F) c = seq ops_part0 := rfl

set_option maxRecDepth 8192 in
/-- Every buffer an operation of the window touches is a TensorCore reference. -/
theorem ops_part0_sub : (ops_part0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub ..⟩

set_option maxRecDepth 8192 in
/-- No operation of the window leaves a buffer undetermined. -/
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the window writes one buffer, a member of `ops_part0_W`. -/
theorem ops_part0_writes : (ops_part0 : List (HloOp τ sig (Elt F))).Forall fun op => op.writes ⊆ (ops_part0_W.map (Proc.devRef (τ := τ) .tc)).toFinset :=
  ⟨writes_mem (nullary_writes ..) (by decide), writes_mem (unary_writes ..) (by decide), writes_mem (reshape_writes ..) (by decide), writes_mem (binary_writes ..) (by decide), writes_mem (unary_writes ..) (by decide), writes_mem (reshape_writes ..) (by decide), writes_mem (binary_writes ..) (by decide), writes_mem (nullary_writes ..) (by decide), writes_mem (unary_writes ..) (by decide), writes_mem (nullary_writes ..) (by decide), writes_mem (unary_writes ..) (by decide), writes_mem (unary_writes ..) (by decide), writes_mem (ternary_writes ..) (by decide), writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (reshape_writes ..) (by decide), writes_mem (unary_writes ..) (by decide), writes_mem (reshape_writes ..) (by decide), writes_mem (binary_writes ..) (by decide), writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide)⟩

/-- A buffer the window does not write keeps its contents through it. -/
theorem ops_part0_keep (V : Valuation τ sig (Elt F)) (r : Ref sig .tc) (h : r ∉ ops_part0_W) :
    after ops_part0 V (Proc.devRef .tc r) = V (Proc.devRef .tc r) :=
  after_of_writes_sub ops_part0 V ops_part0_writes h

/-- Operations 61 … 143 of 287: the statements of window `main_part1` in order, each call replaced by its callee's
    operations over that call's buffers. -/
abbrev ops_part1 : List (HloOp τ sig (Elt F)) :=
  [ StableHlo.unary main_arg6 main_v50 ((extractStridedSlice S1x32 ![0, 0] · slices_S3x32_S1x32_0_0) : (⟨S3x32, .f32⟩ : BufTy).Contents (Elt F) → (⟨S1x32, .f32⟩ : BufTy).Contents (Elt F)),
    StableHlo.reshape main_v50 main_v51 rfl shapeCasts_S1x32_S32,
    StableHlo.unary main_v51 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S100000x32 ![0, 1] bcast_S1x32_S100000x32_0_1 : (⟨S1x32, .f32⟩ : BufTy).Contents (Elt F) → (⟨S100000x32, .f32⟩ : BufTy).Contents (Elt F)),
    StableHlo.binary main_v49 main_v53 main_v54 (addf : (⟨S100000x32, .f32⟩ : BufTy).Contents (Elt F) → (⟨S100000x32, .f32⟩ : BufTy).Contents (Elt F) → (⟨S100000x32, .f32⟩ : BufTy).Contents (Elt F)),
    StableHlo.nullary main_cst_8 (constant S_ .f32 0x00000000#32),
    StableHlo.binary main_v54 main_cst_8 main_v55 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_9 (constant S_ .f32 0x47C35000#32),
    StableHlo.unary main_cst_9 main_v56 (broadcastInDim S32 ![] bcast_S_S32 : (⟨S_, .f32⟩ : BufTy).Contents (Elt F) → (⟨S32, .f32⟩ : BufTy).Contents (Elt F)),
    StableHlo.binary main_v55 main_v56 main_v57 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary main_call0.cst (constant S_ .f32 0x00000000#32),
    StableHlo.TRef.binary (.of main_v54 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v54 : StableHlo.TRef sig ⟨S100000x32, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v57 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S100000x32 ![0, 1] bcast_S1x32_S100000x32_0_1 : (⟨S1x32, .f32⟩ : BufTy).Contents (Elt F) → (⟨S100000x32, .f32⟩ : BufTy).Contents (Elt F)),
    StableHlo.binary main_v54 main_v60 main_v61 (subf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3727C5AC#32),
    StableHlo.unary main_cst_11 main_v62 (broadcastInDim S32 ![] bcast_S_S32 : (⟨S_, .f32⟩ : BufTy).Contents (Elt F) → (⟨S32, .f32⟩ : BufTy).Contents (Elt F)),
    StableHlo.binary main_v58 main_v62 main_v63 (addf : (⟨S32, .f32⟩ : BufTy).Contents (Elt F) → (⟨S32, .f32⟩ : BufTy).Contents (Elt F) → (⟨S32, .f32⟩ : BufTy).Contents (Elt F)),
    StableHlo.unary main_v63 main_v64 (Host.rsqrt : (⟨S32, .f32⟩ : BufTy).Contents (Elt F) → (⟨S32, .f32⟩ : BufTy).Contents (Elt F)),
    StableHlo.unary main_v64 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S100000x32 ![0, 1] bcast_S1x32_S100000x32_0_1 : (⟨S1x32, .f32⟩ : BufTy).Contents (Elt F) → (⟨S100000x32, .f32⟩ : BufTy).Contents (Elt F)),
    StableHlo.binary main_v61 main_v66 main_v67 (mulf : (⟨S100000x32, .f32⟩ : BufTy).Contents (Elt F) → (⟨S100000x32, .f32⟩ : BufTy).Contents (Elt F) → (⟨S100000x32, .f32⟩ : BufTy).Contents (Elt F)),
    StableHlo.unary main_arg7 main_v68 ((extractStridedSlice S1x32 ![0, 0] · slices_S3x32_S1x32_0_0) : (⟨S3x32, .f32⟩ : BufTy).Contents (Elt F) → (⟨S1x32, .f32⟩ : BufTy).Contents (Elt F)),
    StableHlo.reshape main_v68 main_v69 rfl shapeCasts_S1x32_S32,
    StableHlo.unary main_v69 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S100000x32 ![0, 1] bcast_S1x32_S100000x32_0_1 : (⟨S1x32, .f32⟩ : BufTy).Contents (Elt F) → (⟨S100000x32, .f32⟩ : BufTy).Contents (Elt F)),
    StableHlo.binary main_v67 main_v71 main_v72 (mulf : (⟨S100000x32, .f32⟩ : BufTy).Contents (Elt F) → (⟨S100000x32, .f32⟩ : BufTy).Contents (Elt F) → (⟨S100000x32, .f32⟩ : BufTy).Contents (Elt F)),
    StableHlo.unary main_arg8 main_v73 ((extractStridedSlice S1x32 ![0, 0] · slices_S3x32_S1x32_0_0) : (⟨S3x32, .f32⟩ : BufTy).Contents (Elt F) → (⟨S1x32, .f32⟩ : BufTy).Contents (Elt F)),
    StableHlo.reshape main_v73 main_v74 rfl shapeCasts_S1x32_S32,
    StableHlo.unary main_v74 main_v75 (broadcastInDim S1x32 ![1] bcast_S32_S1x32_1 : (⟨S32, .f32⟩ : BufTy).Contents (Elt F) → (⟨S1x32, .f32⟩ : BufTy).Contents (Elt F)),
    StableHlo.unary main_v75 main_v76 (broadcastInDim S100000x32 ![0, 1] bcast_S1x32_S100000x32_0_1 : (⟨S1x32, .f32⟩ : BufTy).Contents (Elt F) → (⟨S100000x32, .f32⟩ : BufTy).Contents (Elt F)),
    StableHlo.binary main_v72 main_v76 main_v77 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v77 : StableHlo.TRef sig ⟨S100000x32, .f32⟩) main_call1.v0 main_call1.v1 maximumf,
    StableHlo.binary main_v78 main_v31 main_v79 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_v26 main_v80 (broadcastInDim S3300000x1 ![0] bcast_S3300000_S3300000x1_0 : (⟨S3300000, .f32⟩ : BufTy).Contents (Elt F) → (⟨S3300000x1, .f32⟩ : BufTy).Contents (Elt F)),
    StableHlo.nullary main_c_12 (constantI S_ 32 0#32),
    StableHlo.unary main_c_12 main_v81 (broadcastInDim S3300000 ![] bcast_S_S3300000 : (⟨S_, .i32⟩ : BufTy).Contents (Elt F) → (⟨S3300000, .i32⟩ : BufTy).Contents (Elt F)),
    StableHlo.binary main_v6 main_v81 main_v82 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v83 (broadcastInDim S3300000 ![] bcast_S_S3300000 : (⟨S_, .i32⟩ : BufTy).Contents (Elt F) → (⟨S3300000, .i32⟩ : BufTy).Contents (Elt F)),
    StableHlo.binary main_v6 main_v83 main_v84 (addi : (⟨S3300000, .i32⟩ : BufTy).Contents (Elt F) → (⟨S3300000, .i32⟩ : BufTy).Contents (Elt F) → (⟨S3300000, .i32⟩ : BufTy).Contents (Elt F)),
    StableHlo.ternary main_v82 main_v84 main_v6 main_v85 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v85 main_v86 (broadcastInDim S3300000x1 ![0] bcast_S3300000_S3300000x1_0 : (⟨S3300000, .i32⟩ : BufTy).Contents (Elt F) → (⟨S3300000x1, .i32⟩ : BufTy).Contents (Elt F)),
    StableHlo.binary main_v79 main_v86 main_v87 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v80 main_v88 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v88 main_v87 main_v89 (mulf : (⟨S3300000x32, .f32⟩ : BufTy).Contents (Elt F) → (⟨S3300000x32, .f32⟩ : BufTy).Contents (Elt F) → (⟨S3300000x32, .f32⟩ : BufTy).Contents (Elt F)),
    StableHlo.nullary main_cst_14 (constant S_ .f32 0x00000000#32),
    StableHlo.unary main_cst_14 main_v90 (broadcastInDim S100000x32 ![] bcast_S_S100000x32 : (⟨S_, .f32⟩ : BufTy).Contents (Elt F) → (⟨S100000x32, .f32⟩ : BufTy).Contents (Elt F)),
    StableHlo.unary main_v3 main_v91 (broadcastInDim S3300000x1 ![0] bcast_S3300000_S3300000x1_0 : (⟨S3300000, .i32⟩ : BufTy).Contents (Elt F) → (⟨S3300000x1, .i32⟩ : BufTy).Contents (Elt F)),
    StableHlo.ternary main_v90 main_v91 main_v89 main_v92 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v93 (broadcastInDim S100000x32 ![0, 1] bcast_S100000x1_S100000x32_0_1 : (⟨S100000x1, .f32⟩ : BufTy).Contents (Elt F) → (⟨S100000x32, .f32⟩ : BufTy).Contents (Elt F)),
    StableHlo.binary main_v92 main_v93 main_v94 (mulf : (⟨S100000x32, .f32⟩ : BufTy).Contents (Elt F) → (⟨S100000x32, .f32⟩ : BufTy).Contents (Elt F) → (⟨S100000x32, .f32⟩ : BufTy).Contents (Elt F)),
    StableHlo.unary main_arg6 main_v95 ((extractStridedSlice S1x32 ![1, 0] · slices_S3x32_S1x32_1_0) : (⟨S3x32, .f32⟩ : BufTy).Contents (Elt F) → (⟨S1x32, .f32⟩ : BufTy).Contents (Elt F)),
    StableHlo.reshape main_v95 main_v96 rfl shapeCasts_S1x32_S32,
    StableHlo.unary main_v96 main_v97 (broadcastInDim S1x32 ![1] bcast_S32_S1x32_1 : (⟨S32, .f32⟩ : BufTy).Contents (Elt F) → (⟨S1x32, .f32⟩ : BufTy).Contents (Elt F)),
    StableHlo.unary main_v97 main_v98 (broadcastInDim S100000x32 ![0, 1] bcast_S1x32_S100000x32_0_1 : (⟨S1x32, .f32⟩ : BufTy).Contents (Elt F) → (⟨S100000x32, .f32⟩ : BufTy).Contents (Elt F)),
    StableHlo.binary main_v94 main_v98 main_v99 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x00000000#32),
    StableHlo.binary main_v99 main_cst_15 main_v100 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_16 (constant S_ .f32 0x47C35000#32) ]

/-- The buffers these operations write, in order. -/
abbrev ops_part1_W : List (Ref sig .tc) := [main_v50, main_v51, main_v52, main_v53, main_v54, main_cst_8, main_v55, main_cst_9, main_v56, main_v57, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v58, main_v59, main_v60, main_v61, main_cst_11, main_v62, main_v63, main_v64, main_v65, main_v66, main_v67, main_v68, main_v69, main_v70, main_v71, main_v72, main_v73, main_v74, main_v75, main_v76, main_v77, main_call1_cst, main_call1_v0, main_v78, main_v79, main_v80, main_c_12, main_v81, main_v82, main_c_13, main_v83, main_v84, main_v85, main_v86, main_v87, main_v88, main_v89, main_cst_14, main_v90, main_v91, main_v92, main_v93, main_v94, main_v95, main_v96, main_v97, main_v98, main_v99, main_cst_15, main_v100, main_cst_16]

set_option maxRecDepth 8192 in
set_option maxHeartbeats 4000000 in
/-- The window is that straight line: the called functions' definitions unfolded at their calls, both sides are one chain
    of steps once sequencing is reassociated. -/
theorem main_part1_eq (c : Dev nD) : main_part1 (F := F) c = seq ops_part1 := by
  simp only [main_part1, fn_var.body, fn_where.body, fn_relu.body, fn_clip.body, seq, bind_assoc, pure_bind]
  rfl

set_option maxRecDepth 8192 in
/-- Every buffer an operation of the window touches is a TensorCore reference. -/
theorem ops_part1_sub : (ops_part1 : List (HloOp τ sig (Elt F))).Forall fun op => op.bufs ⊆ tcRefs τ sig :=
  ⟨unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., unary_bufs_sub .., binary_bufs_sub .., nullary_bufs_sub .., binary_bufs_sub .., nullary_bufs_sub ..⟩

set_option maxRecDepth 8192 in
/-- No operation of the window leaves a buffer undetermined. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the window writes one buffer, a member of `ops_part1_W`. -/
theorem ops_part1_writes : (ops_part1 : List (HloOp τ sig (Elt F))).Forall fun op => op.writes ⊆ (ops_part1_W.map (Proc.devRef (τ := τ) .tc)).toFinset :=
  ⟨writes_mem (unary_writes ..) (by decide), writes_mem (reshape_writes ..) (by decide), writes_mem (unary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide), writes_mem (binary_writes ..) (by decide), writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (binary_writes ..) (by decide), writes_mem (nullary_writes ..) (by decide)⟩

/-- A buffer the window does not write keeps its contents through it. -/
theorem ops_part1_keep (V : Valuation τ sig (Elt F)) (r : Ref sig .tc) (h : r ∉ ops_part1_W) :
    after ops_part1 V (Proc.devRef .tc r) = V (Proc.devRef .tc r) :=
  after_of_writes_sub ops_part1 V ops_part1_writes h

/-- Operations 144 … 247 of 287: the statements of window `main_part2` in order, each call replaced by its callee's
    operations over that call's buffers. -/
abbrev ops_part2 : List (HloOp τ sig (Elt F)) :=
  [ StableHlo.unary main_cst_16 main_v101 (broadcastInDim S32 ![] bcast_S_S32 : (⟨S_, .f32⟩ : BufTy).Contents (Elt F) → (⟨S32, .f32⟩ : BufTy).Contents (Elt F)),
    StableHlo.binary main_v100 main_v101 main_v102 (Host.divf : (⟨S32, .f32⟩ : BufTy).Contents (Elt F) → (⟨S32, .f32⟩ : BufTy).Contents (Elt F) → (⟨S32, .f32⟩ : BufTy).Contents (Elt F)),
    StableHlo.nullary main_c_17 (constantI S_ 32 0#32),
    StableHlo.TRef.nullary main_call2.cst (constant S_ .f32 0x00000000#32),
    StableHlo.TRef.binary (.of main_v99 : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v99 : StableHlo.TRef sig ⟨S100000x32, .f32⟩) main_call2.v4 main_call2.v5 subf,
    StableHlo.TRef.binary main_call2.v5 main_call2.v5 main_call2.v6 mulf,
    StableHlo.TRef.unary (.of main_c_17 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v102 main_v104 (broadcastInDim S1x32 ![1] bcast_S32_S1x32_1 : (⟨S32, .f32⟩ : BufTy).Contents (Elt F) → (⟨S1x32, .f32⟩ : BufTy).Contents (Elt F)),
    StableHlo.unary main_v104 main_v105 (broadcastInDim S100000x32 ![0, 1] bcast_S1x32_S100000x32_0_1 : (⟨S1x32, .f32⟩ : BufTy).Contents (Elt F) → (⟨S100000x32, .f32⟩ : BufTy).Contents (Elt F)),
    StableHlo.binary main_v99 main_v105 main_v106 (subf : (⟨S100000x32, .f32⟩ : BufTy).Contents (Elt F) → (⟨S100000x32, .f32⟩ : BufTy).Contents (Elt F) → (⟨S100000x32, .f32⟩ : BufTy).Contents (Elt F)),
    StableHlo.nullary main_cst_18 (constant S_ .f32 0x3727C5AC#32),
    StableHlo.unary main_cst_18 main_v107 (broadcastInDim S32 ![] bcast_S_S32 : (⟨S_, .f32⟩ : BufTy).Contents (Elt F) → (⟨S32, .f32⟩ : BufTy).Contents (Elt F)),
    StableHlo.binary main_v103 main_v107 main_v108 (addf : (⟨S32, .f32⟩ : BufTy).Contents (Elt F) → (⟨S32, .f32⟩ : BufTy).Contents (Elt F) → (⟨S32, .f32⟩ : BufTy).Contents (Elt F)),
    StableHlo.unary main_v108 main_v109 (Host.rsqrt : (⟨S32, .f32⟩ : BufTy).Contents (Elt F) → (⟨S32, .f32⟩ : BufTy).Contents (Elt F)),
    StableHlo.unary main_v109 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S100000x32 ![0, 1] bcast_S1x32_S100000x32_0_1 : (⟨S1x32, .f32⟩ : BufTy).Contents (Elt F) → (⟨S100000x32, .f32⟩ : BufTy).Contents (Elt F)),
    StableHlo.binary main_v106 main_v111 main_v112 (mulf : (⟨S100000x32, .f32⟩ : BufTy).Contents (Elt F) → (⟨S100000x32, .f32⟩ : BufTy).Contents (Elt F) → (⟨S100000x32, .f32⟩ : BufTy).Contents (Elt F)),
    StableHlo.unary main_arg7 main_v113 ((extractStridedSlice S1x32 ![1, 0] · slices_S3x32_S1x32_1_0) : (⟨S3x32, .f32⟩ : BufTy).Contents (Elt F) → (⟨S1x32, .f32⟩ : BufTy).Contents (Elt F)),
    StableHlo.reshape main_v113 main_v114 rfl shapeCasts_S1x32_S32,
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
    StableHlo.binary main_v112 main_v116 main_v117 (mulf : (⟨S100000x32, .f32⟩ : BufTy).Contents (Elt F) → (⟨S100000x32, .f32⟩ : BufTy).Contents (Elt F) → (⟨S100000x32, .f32⟩ : BufTy).Contents (Elt F)),
    StableHlo.unary main_arg8 main_v118 ((extractStridedSlice S1x32 ![1, 0] · slices_S3x32_S1x32_1_0) : (⟨S3x32, .f32⟩ : BufTy).Contents (Elt F) → (⟨S1x32, .f32⟩ : BufTy).Contents (Elt F)),
    StableHlo.reshape main_v118 main_v119 rfl shapeCasts_S1x32_S32,
    StableHlo.unary main_v119 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v117 main_v121 main_v122 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v122 : StableHlo.TRef sig ⟨S100000x32, .f32⟩) main_call3.v0 main_call3.v1 maximumf,
    StableHlo.binary main_v123 main_v33 main_v124 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_v26 main_v125 (broadcastInDim S3300000x1 ![0] bcast_S3300000_S3300000x1_0 : (⟨S3300000, .f32⟩ : BufTy).Contents (Elt F) → (⟨S3300000x1, .f32⟩ : BufTy).Contents (Elt F)),
    StableHlo.nullary main_c_19 (constantI S_ 32 0#32),
    StableHlo.unary main_c_19 main_v126 (broadcastInDim S3300000 ![] bcast_S_S3300000 : (⟨S_, .i32⟩ : BufTy).Contents (Elt F) → (⟨S3300000, .i32⟩ : BufTy).Contents (Elt F)),
    StableHlo.binary main_v6 main_v126 main_v127 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v128 (broadcastInDim S3300000 ![] bcast_S_S3300000 : (⟨S_, .i32⟩ : BufTy).Contents (Elt F) → (⟨S3300000, .i32⟩ : BufTy).Contents (Elt F)),
    StableHlo.binary main_v6 main_v128 main_v129 (addi : (⟨S3300000, .i32⟩ : BufTy).Contents (Elt F) → (⟨S3300000, .i32⟩ : BufTy).Contents (Elt F) → (⟨S3300000, .i32⟩ : BufTy).Contents (Elt F)),
    StableHlo.ternary main_v127 main_v129 main_v6 main_v130 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v130 main_v131 (broadcastInDim S3300000x1 ![0] bcast_S3300000_S3300000x1_0 : (⟨S3300000, .i32⟩ : BufTy).Contents (Elt F) → (⟨S3300000x1, .i32⟩ : BufTy).Contents (Elt F)),
    StableHlo.binary main_v124 main_v131 main_v132 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v125 main_v133 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v133 main_v132 main_v134 (mulf : (⟨S3300000x32, .f32⟩ : BufTy).Contents (Elt F) → (⟨S3300000x32, .f32⟩ : BufTy).Contents (Elt F) → (⟨S3300000x32, .f32⟩ : BufTy).Contents (Elt F)),
    StableHlo.nullary main_cst_21 (constant S_ .f32 0x00000000#32),
    StableHlo.unary main_cst_21 main_v135 (broadcastInDim S100000x32 ![] bcast_S_S100000x32 : (⟨S_, .f32⟩ : BufTy).Contents (Elt F) → (⟨S100000x32, .f32⟩ : BufTy).Contents (Elt F)),
    StableHlo.unary main_v3 main_v136 (broadcastInDim S3300000x1 ![0] bcast_S3300000_S3300000x1_0 : (⟨S3300000, .i32⟩ : BufTy).Contents (Elt F) → (⟨S3300000x1, .i32⟩ : BufTy).Contents (Elt F)),
    StableHlo.ternary main_v135 main_v136 main_v134 main_v137 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v138 (broadcastInDim S100000x32 ![0, 1] bcast_S100000x1_S100000x32_0_1 : (⟨S100000x1, .f32⟩ : BufTy).Contents (Elt F) → (⟨S100000x32, .f32⟩ : BufTy).Contents (Elt F)),
    StableHlo.binary main_v137 main_v138 main_v139 (mulf : (⟨S100000x32, .f32⟩ : BufTy).Contents (Elt F) → (⟨S100000x32, .f32⟩ : BufTy).Contents (Elt F) → (⟨S100000x32, .f32⟩ : BufTy).Contents (Elt F)),
    StableHlo.unary main_arg6 main_v140 ((extractStridedSlice S1x32 ![2, 0] · slices_S3x32_S1x32_2_0) : (⟨S3x32, .f32⟩ : BufTy).Contents (Elt F) → (⟨S1x32, .f32⟩ : BufTy).Contents (Elt F)),
    StableHlo.reshape main_v140 main_v141 rfl shapeCasts_S1x32_S32,
    StableHlo.unary main_v141 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S100000x32 ![0, 1] bcast_S1x32_S100000x32_0_1 : (⟨S1x32, .f32⟩ : BufTy).Contents (Elt F) → (⟨S100000x32, .f32⟩ : BufTy).Contents (Elt F)),
    StableHlo.binary main_v139 main_v143 main_v144 (addf : (⟨S100000x32, .f32⟩ : BufTy).Contents (Elt F) → (⟨S100000x32, .f32⟩ : BufTy).Contents (Elt F) → (⟨S100000x32, .f32⟩ : BufTy).Contents (Elt F)),
    StableHlo.nullary main_cst_22 (constant S_ .f32 0x00000000#32),
    StableHlo.binary main_v144 main_cst_22 main_v145 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_23 (constant S_ .f32 0x47C35000#32),
    StableHlo.unary main_cst_23 main_v146 (broadcastInDim S32 ![] bcast_S_S32 : (⟨S_, .f32⟩ : BufTy).Contents (Elt F) → (⟨S32, .f32⟩ : BufTy).Contents (Elt F)),
    StableHlo.binary main_v145 main_v146 main_v147 (Host.divf : (⟨S32, .f32⟩ : BufTy).Contents (Elt F) → (⟨S32, .f32⟩ : BufTy).Contents (Elt F) → (⟨S32, .f32⟩ : BufTy).Contents (Elt F)),
    StableHlo.nullary main_c_24 (constantI S_ 32 0#32),
    StableHlo.TRef.nullary main_call4.cst (constant S_ .f32 0x00000000#32),
    StableHlo.TRef.binary (.of main_v144 : StableHlo.TRef sig ⟨S100000x32, .f32⟩) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v144 : StableHlo.TRef sig ⟨S100000x32, .f32⟩) main_call4.v4 main_call4.v5 subf,
    StableHlo.TRef.binary main_call4.v5 main_call4.v5 main_call4.v6 mulf,
    StableHlo.TRef.unary (.of main_c_24 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v147 main_v149 (broadcastInDim S1x32 ![1] bcast_S32_S1x32_1 : (⟨S32, .f32⟩ : BufTy).Contents (Elt F) → (⟨S1x32, .f32⟩ : BufTy).Contents (Elt F)),
    StableHlo.unary main_v149 main_v150 (broadcastInDim S100000x32 ![0, 1] bcast_S1x32_S100000x32_0_1 : (⟨S1x32, .f32⟩ : BufTy).Contents (Elt F) → (⟨S100000x32, .f32⟩ : BufTy).Contents (Elt F)),
    StableHlo.binary main_v144 main_v150 main_v151 (subf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x3727C5AC#32) ]

/-- The buffers these operations write, in order. -/
abbrev ops_part2_W : List (Ref sig .tc) := [main_v101, main_v102, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v103, main_v104, main_v105, main_v106, main_cst_18, main_v107, main_v108, main_v109, main_v110, main_v111, main_v112, main_v113, main_v114, main_v115, main_v116, main_v117, main_v118, main_v119, main_v120, main_v121, main_v122, main_call3_cst, main_call3_v0, main_v123, main_v124, main_v125, main_c_19, main_v126, main_v127, main_c_20, main_v128, main_v129, main_v130, main_v131, main_v132, main_v133, main_v134, main_cst_21, main_v135, main_v136, main_v137, main_v138, main_v139, main_v140, main_v141, main_v142, main_v143, main_v144, main_cst_22, main_v145, main_cst_23, main_v146, main_v147, main_c_24, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v148, main_v149, main_v150, main_v151, main_cst_25]

set_option maxRecDepth 8192 in
set_option maxHeartbeats 4000000 in
/-- The window is that straight line: the called functions' definitions unfolded at their calls, both sides are one chain
    of steps once sequencing is reassociated. -/
theorem main_part2_eq (c : Dev nD) : main_part2 (F := F) c = seq ops_part2 := by
  simp only [main_part2, fn_var.body, fn_where.body, fn_relu.body, fn_clip.body, seq, bind_assoc, pure_bind]
  rfl

set_option maxRecDepth 8192 in
/-- Every buffer an operation of the window touches is a TensorCore reference. -/
theorem ops_part2_sub : (ops_part2 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub ..⟩

set_option maxRecDepth 8192 in
/-- No operation of the window leaves a buffer undetermined. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the window writes one buffer, a member of `ops_part2_W`. -/
theorem ops_part2_writes : (ops_part2 : List (HloOp τ sig (Elt F))).Forall fun op => op.writes ⊆ (ops_part2_W.map (Proc.devRef (τ := τ) .tc)).toFinset :=
  ⟨writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide), writes_mem (binary_writes ..) (by decide), writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (unary_writes ..) (by decide), writes_mem (binary_writes ..) (by decide), writes_mem (nullary_writes ..) (by decide)⟩

/-- A buffer the window does not write keeps its contents through it. -/
theorem ops_part2_keep (V : Valuation τ sig (Elt F)) (r : Ref sig .tc) (h : r ∉ ops_part2_W) :
    after ops_part2 V (Proc.devRef .tc r) = V (Proc.devRef .tc r) :=
  after_of_writes_sub ops_part2 V ops_part2_writes h

/-- Operations 248 … 287 of 287: the statements of window `main_part3` in order, each call replaced by its callee's
    operations over that call's buffers. -/
abbrev ops_part3 : List (HloOp τ sig (Elt F)) :=
  [ StableHlo.unary main_cst_25 main_v152 (broadcastInDim S32 ![] bcast_S_S32 : (⟨S_, .f32⟩ : BufTy).Contents (Elt F) → (⟨S32, .f32⟩ : BufTy).Contents (Elt F)),
    StableHlo.binary main_v148 main_v152 main_v153 (addf : (⟨S32, .f32⟩ : BufTy).Contents (Elt F) → (⟨S32, .f32⟩ : BufTy).Contents (Elt F) → (⟨S32, .f32⟩ : BufTy).Contents (Elt F)),
    StableHlo.unary main_v153 main_v154 (Host.rsqrt : (⟨S32, .f32⟩ : BufTy).Contents (Elt F) → (⟨S32, .f32⟩ : BufTy).Contents (Elt F)),
    StableHlo.unary main_v154 main_v155 (broadcastInDim S1x32 ![1] bcast_S32_S1x32_1 : (⟨S32, .f32⟩ : BufTy).Contents (Elt F) → (⟨S1x32, .f32⟩ : BufTy).Contents (Elt F)),
    StableHlo.unary main_v155 main_v156 (broadcastInDim S100000x32 ![0, 1] bcast_S1x32_S100000x32_0_1 : (⟨S1x32, .f32⟩ : BufTy).Contents (Elt F) → (⟨S100000x32, .f32⟩ : BufTy).Contents (Elt F)),
    StableHlo.binary main_v151 main_v156 main_v157 (mulf : (⟨S100000x32, .f32⟩ : BufTy).Contents (Elt F) → (⟨S100000x32, .f32⟩ : BufTy).Contents (Elt F) → (⟨S100000x32, .f32⟩ : BufTy).Contents (Elt F)),
    StableHlo.unary main_arg7 main_v158 ((extractStridedSlice S1x32 ![2, 0] · slices_S3x32_S1x32_2_0) : (⟨S3x32, .f32⟩ : BufTy).Contents (Elt F) → (⟨S1x32, .f32⟩ : BufTy).Contents (Elt F)),
    StableHlo.reshape main_v158 main_v159 rfl shapeCasts_S1x32_S32,
    StableHlo.unary main_v159 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S100000x32 ![0, 1] bcast_S1x32_S100000x32_0_1 : (⟨S1x32, .f32⟩ : BufTy).Contents (Elt F) → (⟨S100000x32, .f32⟩ : BufTy).Contents (Elt F)),
    StableHlo.binary main_v157 main_v161 main_v162 (mulf : (⟨S100000x32, .f32⟩ : BufTy).Contents (Elt F) → (⟨S100000x32, .f32⟩ : BufTy).Contents (Elt F) → (⟨S100000x32, .f32⟩ : BufTy).Contents (Elt F)),
    StableHlo.unary main_arg8 main_v163 ((extractStridedSlice S1x32 ![2, 0] · slices_S3x32_S1x32_2_0) : (⟨S3x32, .f32⟩ : BufTy).Contents (Elt F) → (⟨S1x32, .f32⟩ : BufTy).Contents (Elt F)),
    StableHlo.reshape main_v163 main_v164 rfl shapeCasts_S1x32_S32,
    StableHlo.unary main_v164 main_v165 (broadcastInDim S1x32 ![1] bcast_S32_S1x32_1 : (⟨S32, .f32⟩ : BufTy).Contents (Elt F) → (⟨S1x32, .f32⟩ : BufTy).Contents (Elt F)),
    StableHlo.unary main_v165 main_v166 (broadcastInDim S100000x32 ![0, 1] bcast_S1x32_S100000x32_0_1 : (⟨S1x32, .f32⟩ : BufTy).Contents (Elt F) → (⟨S100000x32, .f32⟩ : BufTy).Contents (Elt F)),
    StableHlo.binary main_v162 main_v166 main_v167 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v167 : StableHlo.TRef sig ⟨S100000x32, .f32⟩) main_call5.v0 main_call5.v1 maximumf,
    StableHlo.nullary main_cst_26 (constant S_ .f32 0x00000000#32),
    StableHlo.unary main_cst_26 main_v169 (broadcastInDim S100x32 ![] bcast_S_S100x32 : (⟨S_, .f32⟩ : BufTy).Contents (Elt F) → (⟨S100x32, .f32⟩ : BufTy).Contents (Elt F)),
    StableHlo.unary main_arg3 main_v170 (broadcastInDim S100000x1 ![0] bcast_S100000_S100000x1_0 : (⟨S100000, .i32⟩ : BufTy).Contents (Elt F) → (⟨S100000x1, .i32⟩ : BufTy).Contents (Elt F)),
    StableHlo.ternary main_v169 main_v170 main_v168 main_v171 ((fun x i u => Host.scatterAdd scatter_S100x32_S100000x1_S100000x32_1_0_0_1 x i u) : (⟨S100x32, .f32⟩ : BufTy).Contents (Elt F) → (⟨S100000x1, .i32⟩ : BufTy).Contents (Elt F) → (⟨S100000x32, .f32⟩ : BufTy).Contents (Elt F) → (⟨S100x32, .f32⟩ : BufTy).Contents (Elt F)),
    StableHlo.nullary main_cst_27 (constant S_ .f32 0x3F800000#32),
    StableHlo.unary main_cst_27 main_v172 (broadcastInDim S100000 ![] bcast_S_S100000 : (⟨S_, .f32⟩ : BufTy).Contents (Elt F) → (⟨S100000, .f32⟩ : BufTy).Contents (Elt F)),
    StableHlo.nullary main_cst_28 (constant S_ .f32 0x00000000#32),
    StableHlo.unary main_cst_28 main_v173 (broadcastInDim S100 ![] bcast_S_S100 : (⟨S_, .f32⟩ : BufTy).Contents (Elt F) → (⟨S100, .f32⟩ : BufTy).Contents (Elt F)),
    StableHlo.unary main_arg3 main_v174 (broadcastInDim S100000x1 ![0] bcast_S100000_S100000x1_0 : (⟨S100000, .i32⟩ : BufTy).Contents (Elt F) → (⟨S100000x1, .i32⟩ : BufTy).Contents (Elt F)),
    StableHlo.ternary main_v173 main_v174 main_v172 main_v175 ((fun x i u => Host.scatterAdd scatter_S100_S100000x1_S100000_n_0_0_1 x i u) : (⟨S100, .f32⟩ : BufTy).Contents (Elt F) → (⟨S100000x1, .i32⟩ : BufTy).Contents (Elt F) → (⟨S100000, .f32⟩ : BufTy).Contents (Elt F) → (⟨S100, .f32⟩ : BufTy).Contents (Elt F)),
    StableHlo.nullary main_cst_29 (constant S_ .f32 0x3F800000#32),
    StableHlo.TRef.unary (.of main_cst_29 : StableHlo.TRef sig ⟨S_, .f32⟩) main_call6.v0 id,
    StableHlo.TRef.unary main_call6.v0 main_call6.v1 (broadcastInDim S100 ![] bcast_S_S100),
    StableHlo.TRef.binary main_call6.v1 (.of main_v175 : StableHlo.TRef sig ⟨S100, .f32⟩) main_call6.v2 maximumf,
    StableHlo.unary main_v176 main_v177 (broadcastInDim S100x1 ![0] bcast_S100_S100x1_0 : (⟨S100, .f32⟩ : BufTy).Contents (Elt F) → (⟨S100x1, .f32⟩ : BufTy).Contents (Elt F)),
    StableHlo.unary main_v177 main_v178 (broadcastInDim S100x32 ![0, 1] bcast_S100x1_S100x32_0_1 : (⟨S100x1, .f32⟩ : BufTy).Contents (Elt F) → (⟨S100x32, .f32⟩ : BufTy).Contents (Elt F)),
    StableHlo.binary main_v171 main_v178 main_v179 (Host.divf : (⟨S100x32, .f32⟩ : BufTy).Contents (Elt F) → (⟨S100x32, .f32⟩ : BufTy).Contents (Elt F) → (⟨S100x32, .f32⟩ : BufTy).Contents (Elt F)),
    StableHlo.binary main_v179 main_arg9 main_v180 ((fun l r => Host.dotGeneral dot_S100x32_S32x2_S100x2_1_0_0_1_n_n none l r) : (⟨S100x32, .f32⟩ : BufTy).Contents (Elt F) → (⟨S32x2, .f32⟩ : BufTy).Contents (Elt F) → (⟨S100x2, .f32⟩ : BufTy).Contents (Elt F)),
    StableHlo.unary main_arg10 main_v181 (broadcastInDim S1x2 ![1] bcast_S2_S1x2_1 : (⟨S2, .f32⟩ : BufTy).Contents (Elt F) → (⟨S1x2, .f32⟩ : BufTy).Contents (Elt F)),
    StableHlo.unary main_v181 main_v182 (broadcastInDim S100x2 ![0, 1] bcast_S1x2_S100x2_0_1 : (⟨S1x2, .f32⟩ : BufTy).Contents (Elt F) → (⟨S100x2, .f32⟩ : BufTy).Contents (Elt F)),
    StableHlo.binary main_v180 main_v182 main_v183 (addf : (⟨S100x2, .f32⟩ : BufTy).Contents (Elt F) → (⟨S100x2, .f32⟩ : BufTy).Contents (Elt F) → (⟨S100x2, .f32⟩ : BufTy).Contents (Elt F)) ]

/-- The buffers these operations write, in order. -/
abbrev ops_part3_W : List (Ref sig .tc) := [main_v152, main_v153, main_v154, main_v155, main_v156, main_v157, main_v158, main_v159, main_v160, main_v161, main_v162, main_v163, main_v164, main_v165, main_v166, main_v167, main_call5_cst, main_call5_v0, main_v168, main_cst_26, main_v169, main_v170, main_v171, main_cst_27, main_v172, main_cst_28, main_v173, main_v174, main_v175, main_cst_29, main_call6_v0, main_call6_v1, main_v176, main_v177, main_v178, main_v179, main_v180, main_v181, main_v182, main_v183]

set_option maxRecDepth 8192 in
set_option maxHeartbeats 4000000 in
/-- The window is that straight line: the called functions' definitions unfolded at their calls, both sides are one chain
    of steps once sequencing is reassociated (this window ends in the return, as the line does: the two chains are then the same text). -/
theorem main_part3_eq (c : Dev nD) : main_part3 (F := F) c = seq ops_part3 := by
  simp only [main_part3, fn_var.body, fn_where.body, fn_relu.body, fn_clip.body, seq, bind_assoc, pure_bind]

set_option maxRecDepth 8192 in
/-- Every buffer an operation of the window touches is a TensorCore reference. -/
theorem ops_part3_sub : (ops_part3 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
/-- No operation of the window leaves a buffer undetermined. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of the window writes one buffer, a member of `ops_part3_W`. -/
theorem ops_part3_writes : (ops_part3 : List (HloOp τ sig (Elt F))).Forall fun op => op.writes ⊆ (ops_part3_W.map (Proc.devRef (τ := τ) .tc)).toFinset :=
  ⟨writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (nullary_writes ..) (by decide), writes_mem (unary_writes ..) (by decide), writes_mem (nullary_writes ..) (by decide), writes_mem (unary_writes ..) (by decide), writes_mem (unary_writes ..) (by decide), writes_mem (ternary_writes ..) (by decide), writes_mem (nullary_writes ..) (by decide), writes_mem (unary_writes ..) (by decide), writes_mem (unary_writes ..) (by decide), writes_mem (binary_writes ..) (by decide), writes_mem (unary_writes ..) (by decide), writes_mem (unary_writes ..) (by decide), writes_mem (binary_writes ..) (by decide), writes_mem (binary_writes ..) (by decide), writes_mem (unary_writes ..) (by decide), writes_mem (unary_writes ..) (by decide), writes_mem (binary_writes ..) (by decide)⟩

/-- A buffer the window does not write keeps its contents through it. -/
theorem ops_part3_keep (V : Valuation τ sig (Elt F)) (r : Ref sig .tc) (h : r ∉ ops_part3_W) :
    after ops_part3 V (Proc.devRef .tc r) = V (Proc.devRef .tc r) :=
  after_of_writes_sub ops_part3 V ops_part3_writes h
/-- @main's 287 operations, in order: its four windows one after the other. -/
abbrev ops : List (HloOp τ sig (Elt F)) :=
  ops_part0 ++ (ops_part1 ++ (ops_part2 ++ ops_part3))

set_option maxRecDepth 8192 in
/-- @main runs its windows in order, and each window is its straight line: @main is the whole line. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds of every operation of every window holds of every operation of @main. -/
theorem forall_ops {P : HloOp τ sig (Elt F) → Prop}
    (h0 : (ops_part0 : List (HloOp τ sig (Elt F))).Forall P) (h1 : (ops_part1 : List (HloOp τ sig (Elt F))).Forall P) (h2 : (ops_part2 : List (HloOp τ sig (Elt F))).Forall P) (h3 : (ops_part3 : List (HloOp τ sig (Elt F))).Forall P) :
    ∀ op ∈ (ops : List (HloOp τ sig (Elt F))), P op := by
  intro op h
  simp only [ops, List.mem_append] at h
  rcases h with h | h | h | h
  exacts [List.forall_iff_forall_mem.mp h0 op h, List.forall_iff_forall_mem.mp h1 op h, List.forall_iff_forall_mem.mp h2 op h, List.forall_iff_forall_mem.mp h3 op h]

theorem ops_sub : (ops : List (HloOp τ sig (Elt F))).Forall fun op => op.bufs ⊆ tcRefs τ sig :=
  List.forall_iff_forall_mem.mpr (forall_ops ops_part0_sub ops_part1_sub ops_part2_sub ops_part3_sub)

theorem ops_fresh : ∀ op ∈ (ops : List (HloOp τ sig (Elt F))), op.fresh = ∅ :=
  forall_ops ops_part0_fresh ops_part1_fresh ops_part2_fresh ops_part3_fresh

/-- The contents after @main's operations are the windows' folds, nested in order. -/
theorem after_ops (V : Valuation τ sig (Elt F)) : after ops V = after ops_part3 (after ops_part2 (after ops_part1 (after ops_part0 V))) := by
  simp only [ops, after_append]

/-- A buffer no window writes keeps its contents through @main. -/
theorem ops_keep (V : Valuation τ sig (Elt F)) (r : Ref sig .tc)
    (h0 : r ∉ ops_part0_W) (h1 : r ∉ ops_part1_W) (h2 : r ∉ ops_part2_W) (h3 : r ∉ ops_part3_W) :
    after ops V (Proc.devRef .tc r) = V (Proc.devRef .tc r) := by
  rw [after_ops, ops_part3_keep _ r h3, ops_part2_keep _ r h2, ops_part1_keep _ r h1, ops_part0_keep _ r h0]

/-- On every device, for any float values, from any memory with zero counters: every weakly fair execution of @main
    terminates with the result buffer at the fold of the operations over the launch contents, and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183) = after ops (launchContents m c) (main_v183 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v183,
      (h c main_arg0).trans (ops_keep _ main_arg0 (by decide) (by decide) (by decide) (by decide)),
      (h c main_arg1).trans (ops_keep _ main_arg1 (by decide) (by decide) (by decide) (by decide)),
      (h c main_arg2).trans (ops_keep _ main_arg2 (by decide) (by decide) (by decide) (by decide)),
      (h c main_arg3).trans (ops_keep _ main_arg3 (by decide) (by decide) (by decide) (by decide)),
      (h c main_arg4).trans (ops_keep _ main_arg4 (by decide) (by decide) (by decide) (by decide)),
      (h c main_arg5).trans (ops_keep _ main_arg5 (by decide) (by decide) (by decide) (by decide)),
      (h c main_arg6).trans (ops_keep _ main_arg6 (by decide) (by decide) (by decide) (by decide)),
      (h c main_arg7).trans (ops_keep _ main_arg7 (by decide) (by decide) (by decide) (by decide)),
      (h c main_arg8).trans (ops_keep _ main_arg8 (by decide) (by decide) (by decide) (by decide)),
      (h c main_arg9).trans (ops_keep _ main_arg9 (by decide) (by decide) (by decide) (by decide)),
      (h c main_arg10).trans (ops_keep _ main_arg10 (by decide) (by decide) (by decide) (by decide))⟩)
    (run_seq scopedRefs_eq scopedSems_eq defs main (fun _ => ops) main_eq (fun _ => ops_sub) m ρ (fun _ => ops_fresh))

/-- The same run, the result dropped: @main terminates and leaves every argument as the launch had it. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.ReferenceIdeal.RefRun

end
-- ==== Proof.RefFrame.lean ====
/- The reference's frame claim, as the certificate states it: at the ideal float values, from any launch memory (the
   precondition is not needed), every weakly fair execution of the reference's @main terminates and leaves each of its
   eleven arguments as the launch had it. It is the reference's run (`RefRun.frame`, proved for any float values) read at
   the extended reals. -/
import proofs.«177080_j35828617183700_2_alg».proof.Defs
import proofs.«177080_j35828617183700_2_alg».proof.Proof.RefRun

noncomputable section

namespace Cert.ReferenceIdeal.RefRun

open Idealize.ShloMosaic Idealize.SL.Sem

/-- The frame claim of the reference, for whatever witness of the precondition's stated facts: the precondition is not used. -/
theorem frame_ri (hPre : Cert.Pre_finite_inputs.Facts) :
    Cert.frame_ReferenceIdeal (hReferenceIdeal := Cert.ReferenceIdeal.Gen.facts) (hPre_finite_inputs := hPre) :=
  fun m g _ => frame (F := Ideal) m g

end Cert.ReferenceIdeal.RefRun

end
-- ==== Proof.KI.Keep.lean ====
/-
  Each buffer is written by one item of the program and read by later ones: over an item that does not write it, a buffer keeps its
  contents. Hence what an item reads is what the writing item left (for an argument: the launch contents).
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer an item does not write keeps its contents over the item -/

theorem U1_of (c : Dev nD) (r : Ref sig .tc) (h : r ∉ hostOps0_W) : U1 m c r = m ((c : Thread nD τ).loc r) := V1_of m c r h
theorem U2_of (c : Dev nD) (r : Ref sig .tc) (h : r ∉ ([main_v33] : List (Ref sig .tc))) : U2 m c r = U1 m c r := by
  rw [← V2_eq m c, ← V1_eq m c]; exact V2_of m (outs m) c r h
theorem U3_of (c : Dev nD) (r : Ref sig .tc) (h : r ∉ hostOps1_W) : U3 m c r = U2 m c r := by
  rw [← V3_eq m c, ← V2_eq m c]; exact V3_of m (outs m) c r h
theorem U4_of (c : Dev nD) (r : Ref sig .tc) (h : r ∉ ([main_v55_0, main_v55_1] : List (Ref sig .tc))) : U4 m c r = U3 m c r := by
  rw [← V4_eq m c, ← V3_eq m c]; exact V4_of m (outs m) c r h
theorem U5_of (c : Dev nD) (r : Ref sig .tc) (h : r ∉ hostOps2_W) : U5 m c r = U4 m c r := by
  rw [← V5_eq m c, ← V4_eq m c]; exact V5_of m (outs m) c r h
theorem U6_of (c : Dev nD) (r : Ref sig .tc) (h : r ∉ ([main_v62] : List (Ref sig .tc))) : U6 m c r = U5 m c r := by
  rw [← V6_eq m c, ← V5_eq m c]; exact V6_of m (outs m) c r h
theorem U7_of (c : Dev nD) (r : Ref sig .tc) (h : r ∉ ([main_v63] : List (Ref sig .tc))) : U7 m c r = U6 m c r := by
  rw [← V7_eq m c, ← V6_eq m c]; exact V7_of m (outs m) c r h
theorem U8_of (c : Dev nD) (r : Ref sig .tc) (h : r ∉ hostOps4_W) : U8 m c r = U7 m c r := by
  rw [← V8_eq m c, ← V7_eq m c]; exact V8_of m (outs m) c r h
theorem U9_of (c : Dev nD) (r : Ref sig .tc) (h : r ∉ ([main_v85_0, main_v85_1] : List (Ref sig .tc))) : U9 m c r = U8 m c r := by
  rw [← V9_eq m c, ← V8_eq m c]; exact V9_of m (outs m) c r h
theorem U10_of (c : Dev nD) (r : Ref sig .tc) (h : r ∉ hostOps5_W) : U10 m c r = U9 m c r := by
  rw [← V10_eq m c, ← V9_eq m c]; exact V10_of m (outs m) c r h
theorem U11_of (c : Dev nD) (r : Ref sig .tc) (h : r ∉ ([main_v92] : List (Ref sig .tc))) : U11 m c r = U10 m c r := by
  rw [← V11_eq m c, ← V10_eq m c]; exact V11_of m (outs m) c r h
theorem U12_of (c : Dev nD) (r : Ref sig .tc) (h : r ∉ ([main_v93] : List (Ref sig .tc))) : U12 m c r = U11 m c r := by
  rw [← V12_eq m c, ← V11_eq m c]; exact V12_of m (outs m) c r h
theorem U13_of (c : Dev nD) (r : Ref sig .tc) (h : r ∉ hostOps7_W) : U13 m c r = U12 m c r := by
  rw [← V13_eq m c, ← V12_eq m c]; exact V13_of m (outs m) c r h
theorem U14_of (c : Dev nD) (r : Ref sig .tc) (h : r ∉ ([main_v115_0, main_v115_1] : List (Ref sig .tc))) : U14 m c r = U13 m c r := by
  rw [← V14_eq m c, ← V13_eq m c]; exact V14_of m (outs m) c r h
theorem U15_of (c : Dev nD) (r : Ref sig .tc) (h : r ∉ hostOps8_W) : U15 m c r = U14 m c r := by
  rw [← V15_eq m c, ← V14_eq m c]; exact V15_of m (outs m) c r h
theorem U16_of (c : Dev nD) (r : Ref sig .tc) (h : r ∉ ([main_v122] : List (Ref sig .tc))) : U16 m c r = U15 m c r := by
  rw [← V16_eq m c, ← V15_eq m c]; exact V16_of m (outs m) c r h
theorem U17_of (c : Dev nD) (r : Ref sig .tc) (h : r ∉ hostOps9_W) : U17 m c r = U16 m c r := by
  rw [← V17_eq m c, ← V16_eq m c]; exact V17_of m (outs m) c r h
theorem U18_of (c : Dev nD) (r : Ref sig .tc) (h : r ∉ ([main_v132] : List (Ref sig .tc))) : U18 m c r = U17 m c r := by
  rw [← V18_eq m c, ← V17_eq m c]; exact V18_of m (outs m) c r h

/-! ## The buffers each item reads, traced back to the item that wrote them -/

theorem keep_arg0_1 (c : Dev nD) : U1 m c main_arg0 = m ((c : Thread nD τ).loc main_arg0) := by
  rw [U1_of m c main_arg0 (by decide)]
theorem keep_arg4_1 (c : Dev nD) : U1 m c main_arg4 = m ((c : Thread nD τ).loc main_arg4) := by
  rw [U1_of m c main_arg4 (by decide)]
theorem keep_arg6_2 (c : Dev nD) : U2 m c main_arg6 = m ((c : Thread nD τ).loc main_arg6) := by
  rw [U2_of m c main_arg6 (by decide), U1_of m c main_arg6 (by decide)]
theorem keep_arg7_4 (c : Dev nD) : U4 m c main_arg7 = m ((c : Thread nD τ).loc main_arg7) := by
  rw [U4_of m c main_arg7 (by decide), U3_of m c main_arg7 (by decide), U2_of m c main_arg7 (by decide), U1_of m c main_arg7 (by decide)]
theorem keep_arg8_4 (c : Dev nD) : U4 m c main_arg8 = m ((c : Thread nD τ).loc main_arg8) := by
  rw [U4_of m c main_arg8 (by decide), U3_of m c main_arg8 (by decide), U2_of m c main_arg8 (by decide), U1_of m c main_arg8 (by decide)]
theorem keep_arg6_7 (c : Dev nD) : U7 m c main_arg6 = m ((c : Thread nD τ).loc main_arg6) := by
  rw [U7_of m c main_arg6 (by decide), U6_of m c main_arg6 (by decide), U5_of m c main_arg6 (by decide), U4_of m c main_arg6 (by decide), U3_of m c main_arg6 (by decide), U2_of m c main_arg6 (by decide), U1_of m c main_arg6 (by decide)]
theorem keep_arg7_9 (c : Dev nD) : U9 m c main_arg7 = m ((c : Thread nD τ).loc main_arg7) := by
  rw [U9_of m c main_arg7 (by decide), U8_of m c main_arg7 (by decide), U7_of m c main_arg7 (by decide), U6_of m c main_arg7 (by decide), U5_of m c main_arg7 (by decide), U4_of m c main_arg7 (by decide), U3_of m c main_arg7 (by decide), U2_of m c main_arg7 (by decide), U1_of m c main_arg7 (by decide)]
theorem keep_arg8_9 (c : Dev nD) : U9 m c main_arg8 = m ((c : Thread nD τ).loc main_arg8) := by
  rw [U9_of m c main_arg8 (by decide), U8_of m c main_arg8 (by decide), U7_of m c main_arg8 (by decide), U6_of m c main_arg8 (by decide), U5_of m c main_arg8 (by decide), U4_of m c main_arg8 (by decide), U3_of m c main_arg8 (by decide), U2_of m c main_arg8 (by decide), U1_of m c main_arg8 (by decide)]
theorem keep_arg6_12 (c : Dev nD) : U12 m c main_arg6 = m ((c : Thread nD τ).loc main_arg6) := by
  rw [U12_of m c main_arg6 (by decide), U11_of m c main_arg6 (by decide), U10_of m c main_arg6 (by decide), U9_of m c main_arg6 (by decide), U8_of m c main_arg6 (by decide), U7_of m c main_arg6 (by decide), U6_of m c main_arg6 (by decide), U5_of m c main_arg6 (by decide), U4_of m c main_arg6 (by decide), U3_of m c main_arg6 (by decide), U2_of m c main_arg6 (by decide), U1_of m c main_arg6 (by decide)]
theorem keep_arg7_14 (c : Dev nD) : U14 m c main_arg7 = m ((c : Thread nD τ).loc main_arg7) := by
  rw [U14_of m c main_arg7 (by decide), U13_of m c main_arg7 (by decide), U12_of m c main_arg7 (by decide), U11_of m c main_arg7 (by decide), U10_of m c main_arg7 (by decide), U9_of m c main_arg7 (by decide), U8_of m c main_arg7 (by decide), U7_of m c main_arg7 (by decide), U6_of m c main_arg7 (by decide), U5_of m c main_arg7 (by decide), U4_of m c main_arg7 (by decide), U3_of m c main_arg7 (by decide), U2_of m c main_arg7 (by decide), U1_of m c main_arg7 (by decide)]
theorem keep_arg8_14 (c : Dev nD) : U14 m c main_arg8 = m ((c : Thread nD τ).loc main_arg8) := by
  rw [U14_of m c main_arg8 (by decide), U13_of m c main_arg8 (by decide), U12_of m c main_arg8 (by decide), U11_of m c main_arg8 (by decide), U10_of m c main_arg8 (by decide), U9_of m c main_arg8 (by decide), U8_of m c main_arg8 (by decide), U7_of m c main_arg8 (by decide), U6_of m c main_arg8 (by decide), U5_of m c main_arg8 (by decide), U4_of m c main_arg8 (by decide), U3_of m c main_arg8 (by decide), U2_of m c main_arg8 (by decide), U1_of m c main_arg8 (by decide)]
theorem keep_arg3_16 (c : Dev nD) : U16 m c main_arg3 = m ((c : Thread nD τ).loc main_arg3) := by
  rw [U16_of m c main_arg3 (by decide), U15_of m c main_arg3 (by decide), U14_of m c main_arg3 (by decide), U13_of m c main_arg3 (by decide), U12_of m c main_arg3 (by decide), U11_of m c main_arg3 (by decide), U10_of m c main_arg3 (by decide), U9_of m c main_arg3 (by decide), U8_of m c main_arg3 (by decide), U7_of m c main_arg3 (by decide), U6_of m c main_arg3 (by decide), U5_of m c main_arg3 (by decide), U4_of m c main_arg3 (by decide), U3_of m c main_arg3 (by decide), U2_of m c main_arg3 (by decide), U1_of m c main_arg3 (by decide)]
theorem keep_arg10_16 (c : Dev nD) : U16 m c main_arg10 = m ((c : Thread nD τ).loc main_arg10) := by
  rw [U16_of m c main_arg10 (by decide), U15_of m c main_arg10 (by decide), U14_of m c main_arg10 (by decide), U13_of m c main_arg10 (by decide), U12_of m c main_arg10 (by decide), U11_of m c main_arg10 (by decide), U10_of m c main_arg10 (by decide), U9_of m c main_arg10 (by decide), U8_of m c main_arg10 (by decide), U7_of m c main_arg10 (by decide), U6_of m c main_arg10 (by decide), U5_of m c main_arg10 (by decide), U4_of m c main_arg10 (by decide), U3_of m c main_arg10 (by decide), U2_of m c main_arg10 (by decide), U1_of m c main_arg10 (by decide)]
theorem keep_arg9_17 (c : Dev nD) : U17 m c main_arg9 = m ((c : Thread nD τ).loc main_arg9) := by
  rw [U17_of m c main_arg9 (by decide), U16_of m c main_arg9 (by decide), U15_of m c main_arg9 (by decide), U14_of m c main_arg9 (by decide), U13_of m c main_arg9 (by decide), U12_of m c main_arg9 (by decide), U11_of m c main_arg9 (by decide), U10_of m c main_arg9 (by decide), U9_of m c main_arg9 (by decide), U8_of m c main_arg9 (by decide), U7_of m c main_arg9 (by decide), U6_of m c main_arg9 (by decide), U5_of m c main_arg9 (by decide), U4_of m c main_arg9 (by decide), U3_of m c main_arg9 (by decide), U2_of m c main_arg9 (by decide), U1_of m c main_arg9 (by decide)]
theorem keep_v26_2 (c : Dev nD) : U2 m c main_v26 = U1 m c main_v26 := by
  rw [U2_of m c main_v26 (by decide)]
theorem keep_v6_2 (c : Dev nD) : U2 m c main_v6 = U1 m c main_v6 := by
  rw [U2_of m c main_v6 (by decide)]
theorem keep_v3_2 (c : Dev nD) : U2 m c main_v3 = U1 m c main_v3 := by
  rw [U2_of m c main_v3 (by decide)]
theorem keep_v28_2 (c : Dev nD) : U2 m c main_v28 = U1 m c main_v28 := by
  rw [U2_of m c main_v28 (by decide)]
theorem keep_v26_7 (c : Dev nD) : U7 m c main_v26 = U1 m c main_v26 := by
  rw [U7_of m c main_v26 (by decide), U6_of m c main_v26 (by decide), U5_of m c main_v26 (by decide), U4_of m c main_v26 (by decide), U3_of m c main_v26 (by decide), U2_of m c main_v26 (by decide)]
theorem keep_v6_7 (c : Dev nD) : U7 m c main_v6 = U1 m c main_v6 := by
  rw [U7_of m c main_v6 (by decide), U6_of m c main_v6 (by decide), U5_of m c main_v6 (by decide), U4_of m c main_v6 (by decide), U3_of m c main_v6 (by decide), U2_of m c main_v6 (by decide)]
theorem keep_v3_7 (c : Dev nD) : U7 m c main_v3 = U1 m c main_v3 := by
  rw [U7_of m c main_v3 (by decide), U6_of m c main_v3 (by decide), U5_of m c main_v3 (by decide), U4_of m c main_v3 (by decide), U3_of m c main_v3 (by decide), U2_of m c main_v3 (by decide)]
theorem keep_v28_7 (c : Dev nD) : U7 m c main_v28 = U1 m c main_v28 := by
  rw [U7_of m c main_v28 (by decide), U6_of m c main_v28 (by decide), U5_of m c main_v28 (by decide), U4_of m c main_v28 (by decide), U3_of m c main_v28 (by decide), U2_of m c main_v28 (by decide)]
theorem keep_v26_12 (c : Dev nD) : U12 m c main_v26 = U1 m c main_v26 := by
  rw [U12_of m c main_v26 (by decide), U11_of m c main_v26 (by decide), U10_of m c main_v26 (by decide), U9_of m c main_v26 (by decide), U8_of m c main_v26 (by decide), U7_of m c main_v26 (by decide), U6_of m c main_v26 (by decide), U5_of m c main_v26 (by decide), U4_of m c main_v26 (by decide), U3_of m c main_v26 (by decide), U2_of m c main_v26 (by decide)]
theorem keep_v6_12 (c : Dev nD) : U12 m c main_v6 = U1 m c main_v6 := by
  rw [U12_of m c main_v6 (by decide), U11_of m c main_v6 (by decide), U10_of m c main_v6 (by decide), U9_of m c main_v6 (by decide), U8_of m c main_v6 (by decide), U7_of m c main_v6 (by decide), U6_of m c main_v6 (by decide), U5_of m c main_v6 (by decide), U4_of m c main_v6 (by decide), U3_of m c main_v6 (by decide), U2_of m c main_v6 (by decide)]
theorem keep_v3_12 (c : Dev nD) : U12 m c main_v3 = U1 m c main_v3 := by
  rw [U12_of m c main_v3 (by decide), U11_of m c main_v3 (by decide), U10_of m c main_v3 (by decide), U9_of m c main_v3 (by decide), U8_of m c main_v3 (by decide), U7_of m c main_v3 (by decide), U6_of m c main_v3 (by decide), U5_of m c main_v3 (by decide), U4_of m c main_v3 (by decide), U3_of m c main_v3 (by decide), U2_of m c main_v3 (by decide)]
theorem keep_v28_12 (c : Dev nD) : U12 m c main_v28 = U1 m c main_v28 := by
  rw [U12_of m c main_v28 (by decide), U11_of m c main_v28 (by decide), U10_of m c main_v28 (by decide), U9_of m c main_v28 (by decide), U8_of m c main_v28 (by decide), U7_of m c main_v28 (by decide), U6_of m c main_v28 (by decide), U5_of m c main_v28 (by decide), U4_of m c main_v28 (by decide), U3_of m c main_v28 (by decide), U2_of m c main_v28 (by decide)]
theorem keep_v30_6 (c : Dev nD) : U6 m c main_v30 = U1 m c main_v30 := by
  rw [U6_of m c main_v30 (by decide), U5_of m c main_v30 (by decide), U4_of m c main_v30 (by decide), U3_of m c main_v30 (by decide), U2_of m c main_v30 (by decide)]
theorem keep_v32_11 (c : Dev nD) : U11 m c main_v32 = U1 m c main_v32 := by
  rw [U11_of m c main_v32 (by decide), U10_of m c main_v32 (by decide), U9_of m c main_v32 (by decide), U8_of m c main_v32 (by decide), U7_of m c main_v32 (by decide), U6_of m c main_v32 (by decide), U5_of m c main_v32 (by decide), U4_of m c main_v32 (by decide), U3_of m c main_v32 (by decide), U2_of m c main_v32 (by decide)]
theorem keep_v54_5 (c : Dev nD) : U5 m c main_v54 = U3 m c main_v54 := by
  rw [U5_of m c main_v54 (by decide), U4_of m c main_v54 (by decide)]
theorem keep_v55_0_5 (c : Dev nD) : U5 m c main_v55_0 = U4 m c main_v55_0 := by
  rw [U5_of m c main_v55_0 (by decide)]
theorem keep_v55_1_5 (c : Dev nD) : U5 m c main_v55_1 = U4 m c main_v55_1 := by
  rw [U5_of m c main_v55_1 (by decide)]
theorem keep_v84_10 (c : Dev nD) : U10 m c main_v84 = U8 m c main_v84 := by
  rw [U10_of m c main_v84 (by decide), U9_of m c main_v84 (by decide)]
theorem keep_v85_0_10 (c : Dev nD) : U10 m c main_v85_0 = U9 m c main_v85_0 := by
  rw [U10_of m c main_v85_0 (by decide)]
theorem keep_v85_1_10 (c : Dev nD) : U10 m c main_v85_1 = U9 m c main_v85_1 := by
  rw [U10_of m c main_v85_1 (by decide)]
theorem keep_v114_15 (c : Dev nD) : U15 m c main_v114 = U13 m c main_v114 := by
  rw [U15_of m c main_v114 (by decide), U14_of m c main_v114 (by decide)]
theorem keep_v115_0_15 (c : Dev nD) : U15 m c main_v115_0 = U14 m c main_v115_0 := by
  rw [U15_of m c main_v115_0 (by decide)]
theorem keep_v115_1_15 (c : Dev nD) : U15 m c main_v115_1 = U14 m c main_v115_1 := by
  rw [U15_of m c main_v115_1 (by decide)]

end Cert.KernelIdeal.Hand

end
-- ==== Proof.KI.Fresh.lean ====
/-
  Right after a region each of its output arrays holds what the region leaves: the fold of that window's write-backs.
-/
import proofs.«177080_j35828617183700_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Right after a region, each of its output arrays holds the fold of its write-backs -/

theorem fresh_v33 (c : Dev nD) : U2 m c main_v33 = o2_2 m c := by
  rw [U2_def]
  exact Function.update_self (Proc.devRef (τ := τ) .tc main_v33) (o2_2 m c) (U1 m c)
theorem fresh_v55_0 (c : Dev nD) : U4 m c main_v55_0 = o4_1 m c := by
  rw [U4_def]
  exact (Function.update_of_ne (StableHlo.devRef_ne_of_ne (by decide : main_v55_0 ≠ main_v55_1)) (o4_2 m c) (Function.update (U3 m c) main_v55_0 (o4_1 m c))).trans (Function.update_self (Proc.devRef (τ := τ) .tc main_v55_0) (o4_1 m c) (U3 m c))
theorem fresh_v55_1 (c : Dev nD) : U4 m c main_v55_1 = o4_2 m c := by
  rw [U4_def]
  exact Function.update_self (Proc.devRef (τ := τ) .tc main_v55_1) (o4_2 m c) (Function.update (U3 m c) main_v55_0 (o4_1 m c))
theorem fresh_v62 (c : Dev nD) : U6 m c main_v62 = o6_5 m c := by
  rw [U6_def]
  exact Function.update_self (Proc.devRef (τ := τ) .tc main_v62) (o6_5 m c) (U5 m c)
theorem fresh_v63 (c : Dev nD) : U7 m c main_v63 = o7_2 m c := by
  rw [U7_def]
  exact Function.update_self (Proc.devRef (τ := τ) .tc main_v63) (o7_2 m c) (U6 m c)
theorem fresh_v85_0 (c : Dev nD) : U9 m c main_v85_0 = o9_1 m c := by
  rw [U9_def]
  exact (Function.update_of_ne (StableHlo.devRef_ne_of_ne (by decide : main_v85_0 ≠ main_v85_1)) (o9_2 m c) (Function.update (U8 m c) main_v85_0 (o9_1 m c))).trans (Function.update_self (Proc.devRef (τ := τ) .tc main_v85_0) (o9_1 m c) (U8 m c))
theorem fresh_v85_1 (c : Dev nD) : U9 m c main_v85_1 = o9_2 m c := by
  rw [U9_def]
  exact Function.update_self (Proc.devRef (τ := τ) .tc main_v85_1) (o9_2 m c) (Function.update (U8 m c) main_v85_0 (o9_1 m c))
theorem fresh_v92 (c : Dev nD) : U11 m c main_v92 = o11_5 m c := by
  rw [U11_def]
  exact Function.update_self (Proc.devRef (τ := τ) .tc main_v92) (o11_5 m c) (U10 m c)
theorem fresh_v93 (c : Dev nD) : U12 m c main_v93 = o12_2 m c := by
  rw [U12_def]
  exact Function.update_self (Proc.devRef (τ := τ) .tc main_v93) (o12_2 m c) (U11 m c)
theorem fresh_v115_0 (c : Dev nD) : U14 m c main_v115_0 = o14_1 m c := by
  rw [U14_def]
  exact (Function.update_of_ne (StableHlo.devRef_ne_of_ne (by decide : main_v115_0 ≠ main_v115_1)) (o14_2 m c) (Function.update (U13 m c) main_v115_0 (o14_1 m c))).trans (Function.update_self (Proc.devRef (τ := τ) .tc main_v115_0) (o14_1 m c) (U13 m c))
theorem fresh_v115_1 (c : Dev nD) : U14 m c main_v115_1 = o14_2 m c := by
  rw [U14_def]
  exact Function.update_self (Proc.devRef (τ := τ) .tc main_v115_1) (o14_2 m c) (Function.update (U13 m c) main_v115_0 (o14_1 m c))
theorem fresh_v122 (c : Dev nD) : U16 m c main_v122 = o16_5 m c := by
  rw [U16_def]
  exact Function.update_self (Proc.devRef (τ := τ) .tc main_v122) (o16_5 m c) (U15 m c)
theorem fresh_v132 (c : Dev nD) : U18 m c main_v132 = o18_4 m c := by
  rw [U18_def]
  exact Function.update_self (Proc.devRef (τ := τ) .tc main_v132) (o18_4 m c) (U17 m c)

end Cert.KernelIdeal.Hand

end
-- ==== Proof.Bridge.Sides.lean ====
/-
  The kernel program's arrays named at their vector types: an entry of a buffer read off a valuation has a type that only unfolds to
  the extended reals, so each array the bridge speaks of is named once at its literal shape.
-/
import proofs.«177080_j35828617183700_2_alg».proof.Proof.KI.Keep
import proofs.«177080_j35828617183700_2_alg».proof.Proof.KI.Fresh
import Idealize.ShloMosaic.PureOps.Ideal

noncomputable section

namespace Cert.Bridge

open Idealize.ShloMosaic Idealize.ShloMosaic.TcCoe

abbrev k_v26 (W : Valuation Cert.KernelIdeal.τ Cert.KernelIdeal.sig (Elt Ideal)) : FVec Ideal Cert.KernelIdeal.S3300000 .f32 := W (Proc.devRef .tc Cert.KernelIdeal.main_v26)
abbrev k_v28 (W : Valuation Cert.KernelIdeal.τ Cert.KernelIdeal.sig (Elt Ideal)) : FVec Ideal Cert.KernelIdeal.S100000 .f32 := W (Proc.devRef .tc Cert.KernelIdeal.main_v28)
abbrev k_v30 (W : Valuation Cert.KernelIdeal.τ Cert.KernelIdeal.sig (Elt Ideal)) : FVec Ideal Cert.KernelIdeal.S32x32 .f32 := W (Proc.devRef .tc Cert.KernelIdeal.main_v30)
abbrev k_v32 (W : Valuation Cert.KernelIdeal.τ Cert.KernelIdeal.sig (Elt Ideal)) : FVec Ideal Cert.KernelIdeal.S32x32 .f32 := W (Proc.devRef .tc Cert.KernelIdeal.main_v32)
abbrev k_v33 (W : Valuation Cert.KernelIdeal.τ Cert.KernelIdeal.sig (Elt Ideal)) : FVec Ideal Cert.KernelIdeal.S100000x32 .f32 := W (Proc.devRef .tc Cert.KernelIdeal.main_v33)
abbrev k_v54 (W : Valuation Cert.KernelIdeal.τ Cert.KernelIdeal.sig (Elt Ideal)) : FVec Ideal Cert.KernelIdeal.S100000x32 .f32 := W (Proc.devRef .tc Cert.KernelIdeal.main_v54)
abbrev k_v55_0 (W : Valuation Cert.KernelIdeal.τ Cert.KernelIdeal.sig (Elt Ideal)) : FVec Ideal Cert.KernelIdeal.S1x32 .f32 := W (Proc.devRef .tc Cert.KernelIdeal.main_v55_0)
abbrev k_v55_1 (W : Valuation Cert.KernelIdeal.τ Cert.KernelIdeal.sig (Elt Ideal)) : FVec Ideal Cert.KernelIdeal.S1x32 .f32 := W (Proc.devRef .tc Cert.KernelIdeal.main_v55_1)
abbrev k_v58 (W : Valuation Cert.KernelIdeal.τ Cert.KernelIdeal.sig (Elt Ideal)) : FVec Ideal Cert.KernelIdeal.S1x32 .f32 := W (Proc.devRef .tc Cert.KernelIdeal.main_v58)
abbrev k_v61 (W : Valuation Cert.KernelIdeal.τ Cert.KernelIdeal.sig (Elt Ideal)) : FVec Ideal Cert.KernelIdeal.S1x32 .f32 := W (Proc.devRef .tc Cert.KernelIdeal.main_v61)
abbrev k_v62 (W : Valuation Cert.KernelIdeal.τ Cert.KernelIdeal.sig (Elt Ideal)) : FVec Ideal Cert.KernelIdeal.S100000x32 .f32 := W (Proc.devRef .tc Cert.KernelIdeal.main_v62)
abbrev k_v63 (W : Valuation Cert.KernelIdeal.τ Cert.KernelIdeal.sig (Elt Ideal)) : FVec Ideal Cert.KernelIdeal.S100000x32 .f32 := W (Proc.devRef .tc Cert.KernelIdeal.main_v63)
abbrev k_v84 (W : Valuation Cert.KernelIdeal.τ Cert.KernelIdeal.sig (Elt Ideal)) : FVec Ideal Cert.KernelIdeal.S100000x32 .f32 := W (Proc.devRef .tc Cert.KernelIdeal.main_v84)
abbrev k_v85_0 (W : Valuation Cert.KernelIdeal.τ Cert.KernelIdeal.sig (Elt Ideal)) : FVec Ideal Cert.KernelIdeal.S1x32 .f32 := W (Proc.devRef .tc Cert.KernelIdeal.main_v85_0)
abbrev k_v85_1 (W : Valuation Cert.KernelIdeal.τ Cert.KernelIdeal.sig (Elt Ideal)) : FVec Ideal Cert.KernelIdeal.S1x32 .f32 := W (Proc.devRef .tc Cert.KernelIdeal.main_v85_1)
abbrev k_v88 (W : Valuation Cert.KernelIdeal.τ Cert.KernelIdeal.sig (Elt Ideal)) : FVec Ideal Cert.KernelIdeal.S1x32 .f32 := W (Proc.devRef .tc Cert.KernelIdeal.main_v88)
abbrev k_v91 (W : Valuation Cert.KernelIdeal.τ Cert.KernelIdeal.sig (Elt Ideal)) : FVec Ideal Cert.KernelIdeal.S1x32 .f32 := W (Proc.devRef .tc Cert.KernelIdeal.main_v91)
abbrev k_v92 (W : Valuation Cert.KernelIdeal.τ Cert.KernelIdeal.sig (Elt Ideal)) : FVec Ideal Cert.KernelIdeal.S100000x32 .f32 := W (Proc.devRef .tc Cert.KernelIdeal.main_v92)
abbrev k_v93 (W : Valuation Cert.KernelIdeal.τ Cert.KernelIdeal.sig (Elt Ideal)) : FVec Ideal Cert.KernelIdeal.S100000x32 .f32 := W (Proc.devRef .tc Cert.KernelIdeal.main_v93)
abbrev k_v114 (W : Valuation Cert.KernelIdeal.τ Cert.KernelIdeal.sig (Elt Ideal)) : FVec Ideal Cert.KernelIdeal.S100000x32 .f32 := W (Proc.devRef .tc Cert.KernelIdeal.main_v114)
abbrev k_v115_0 (W : Valuation Cert.KernelIdeal.τ Cert.KernelIdeal.sig (Elt Ideal)) : FVec Ideal Cert.KernelIdeal.S1x32 .f32 := W (Proc.devRef .tc Cert.KernelIdeal.main_v115_0)
abbrev k_v115_1 (W : Valuation Cert.KernelIdeal.τ Cert.KernelIdeal.sig (Elt Ideal)) : FVec Ideal Cert.KernelIdeal.S1x32 .f32 := W (Proc.devRef .tc Cert.KernelIdeal.main_v115_1)
abbrev k_v118 (W : Valuation Cert.KernelIdeal.τ Cert.KernelIdeal.sig (Elt Ideal)) : FVec Ideal Cert.KernelIdeal.S1x32 .f32 := W (Proc.devRef .tc Cert.KernelIdeal.main_v118)
abbrev k_v121 (W : Valuation Cert.KernelIdeal.τ Cert.KernelIdeal.sig (Elt Ideal)) : FVec Ideal Cert.KernelIdeal.S1x32 .f32 := W (Proc.devRef .tc Cert.KernelIdeal.main_v121)
abbrev k_v122 (W : Valuation Cert.KernelIdeal.τ Cert.KernelIdeal.sig (Elt Ideal)) : FVec Ideal Cert.KernelIdeal.S100000x32 .f32 := W (Proc.devRef .tc Cert.KernelIdeal.main_v122)
abbrev k_v125 (W : Valuation Cert.KernelIdeal.τ Cert.KernelIdeal.sig (Elt Ideal)) : FVec Ideal Cert.KernelIdeal.S100x32 .f32 := W (Proc.devRef .tc Cert.KernelIdeal.main_v125)
abbrev k_v130 (W : Valuation Cert.KernelIdeal.τ Cert.KernelIdeal.sig (Elt Ideal)) : FVec Ideal Cert.KernelIdeal.S100x1 .f32 := W (Proc.devRef .tc Cert.KernelIdeal.main_v130)
abbrev k_v131 (W : Valuation Cert.KernelIdeal.τ Cert.KernelIdeal.sig (Elt Ideal)) : FVec Ideal Cert.KernelIdeal.S1x2 .f32 := W (Proc.devRef .tc Cert.KernelIdeal.main_v131)
abbrev k_v132 (W : Valuation Cert.KernelIdeal.τ Cert.KernelIdeal.sig (Elt Ideal)) : FVec Ideal Cert.KernelIdeal.S100x2 .f32 := W (Proc.devRef .tc Cert.KernelIdeal.main_v132)
abbrev k_arg0 (W : Valuation Cert.KernelIdeal.τ Cert.KernelIdeal.sig (Elt Ideal)) : FVec Ideal Cert.KernelIdeal.S100000x384 .f32 := W (Proc.devRef .tc Cert.KernelIdeal.main_arg0)
abbrev k_arg4 (W : Valuation Cert.KernelIdeal.τ Cert.KernelIdeal.sig (Elt Ideal)) : FVec Ideal Cert.KernelIdeal.S384x32 .f32 := W (Proc.devRef .tc Cert.KernelIdeal.main_arg4)
abbrev k_arg5 (W : Valuation Cert.KernelIdeal.τ Cert.KernelIdeal.sig (Elt Ideal)) : FVec Ideal Cert.KernelIdeal.S2x32x32 .f32 := W (Proc.devRef .tc Cert.KernelIdeal.main_arg5)
abbrev k_arg6 (W : Valuation Cert.KernelIdeal.τ Cert.KernelIdeal.sig (Elt Ideal)) : FVec Ideal Cert.KernelIdeal.S3x32 .f32 := W (Proc.devRef .tc Cert.KernelIdeal.main_arg6)
abbrev k_arg7 (W : Valuation Cert.KernelIdeal.τ Cert.KernelIdeal.sig (Elt Ideal)) : FVec Ideal Cert.KernelIdeal.S3x32 .f32 := W (Proc.devRef .tc Cert.KernelIdeal.main_arg7)
abbrev k_arg8 (W : Valuation Cert.KernelIdeal.τ Cert.KernelIdeal.sig (Elt Ideal)) : FVec Ideal Cert.KernelIdeal.S3x32 .f32 := W (Proc.devRef .tc Cert.KernelIdeal.main_arg8)
abbrev k_arg9 (W : Valuation Cert.KernelIdeal.τ Cert.KernelIdeal.sig (Elt Ideal)) : FVec Ideal Cert.KernelIdeal.S32x2 .f32 := W (Proc.devRef .tc Cert.KernelIdeal.main_arg9)
abbrev k_arg10 (W : Valuation Cert.KernelIdeal.τ Cert.KernelIdeal.sig (Elt Ideal)) : FVec Ideal Cert.KernelIdeal.S2 .f32 := W (Proc.devRef .tc Cert.KernelIdeal.main_arg10)
abbrev k_v3 (W : Valuation Cert.KernelIdeal.τ Cert.KernelIdeal.sig (Elt Ideal)) : IVec Cert.KernelIdeal.S3300000 32 := W (Proc.devRef .tc Cert.KernelIdeal.main_v3)
abbrev k_v6 (W : Valuation Cert.KernelIdeal.τ Cert.KernelIdeal.sig (Elt Ideal)) : IVec Cert.KernelIdeal.S3300000 32 := W (Proc.devRef .tc Cert.KernelIdeal.main_v6)
abbrev k_arg1 (W : Valuation Cert.KernelIdeal.τ Cert.KernelIdeal.sig (Elt Ideal)) : IVec Cert.KernelIdeal.S2x3200000 32 := W (Proc.devRef .tc Cert.KernelIdeal.main_arg1)
abbrev k_arg3 (W : Valuation Cert.KernelIdeal.τ Cert.KernelIdeal.sig (Elt Ideal)) : IVec Cert.KernelIdeal.S100000 32 := W (Proc.devRef .tc Cert.KernelIdeal.main_arg3)

/-- The launch contents of core `c` as a valuation. -/
abbrev launchK (m : (ℓ : Loc Cert.KernelIdeal.nD Cert.KernelIdeal.τ Cert.KernelIdeal.sig) → Buf (Elt Ideal) ℓ) (c : Dev Cert.KernelIdeal.nD) : Valuation Cert.KernelIdeal.τ Cert.KernelIdeal.sig (Elt Ideal) := Cert.KernelIdeal.Gen.V0 m c

end Cert.Bridge

end
-- ==== Proof.RefStages.lean ====
/- The reference's line of operations cut into consecutive stages along the source's lines, and the buffer contents after each.
   G0: the edge lists with self loops, the degrees, their inverse square roots, the edge weights, the inverse degrees, and the two
   later layers' weight matrices. Then per layer i = 0, 1, 2: L_i the matrix product; G_{i+1} the weighted gather of source rows, their
   sum per target, the division by the degree and the bias; St_i the column mean and the column variance; A_i the normalisation,
   scale, shift and rectifier. Then Pl, the two sums per graph, and Hd, the clamp, the division, the last matrix product and
   its bias. The line IS the stages one after the other (`ops_stages`); `afterG0 V, afterL0 V, …, afterHd V` are the contents
   after each stage from contents `V`, the last being the contents after the whole line (`after_ops_stages`). Every operation
   writes one buffer of its own, so a buffer keeps through every later stage what its own stage left in it: `kept_‹stage›_‹buffer›`
   says what a stage finds in each buffer it reads, `last_‹buffer›` what the end finds in each stage's output. Any float values. -/
import proofs.«177080_j35828617183700_2_alg».proof.Proof.RefRun

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41 of 287: the edge lists with self loops, degrees, edge weights, inverse degrees, and the later layers' weight matrices. -/
abbrev G0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v3 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S3300000 ![] bcast_S_S3300000 : (⟨S_, .i32⟩ : BufTy).Contents (Elt F) → (⟨S3300000, .i32⟩ : BufTy).Contents (Elt F)),
    StableHlo.binary main_v3 main_v12 main_v13 (cmpi .slt : (⟨S3300000, .i32⟩ : BufTy).Contents (Elt F) → (⟨S3300000, .i32⟩ : BufTy).Contents (Elt F) → (⟨S3300000, .i1⟩ : BufTy).Contents (Elt F)),
    StableHlo.nullary main_c_1 (constantI S_ 32 100000#32),
    StableHlo.unary main_c_1 main_v14 (broadcastInDim S3300000 ![] bcast_S_S3300000 : (⟨S_, .i32⟩ : BufTy).Contents (Elt F) → (⟨S3300000, .i32⟩ : BufTy).Contents (Elt F)),
    StableHlo.binary main_v3 main_v14 main_v15 (addi : (⟨S3300000, .i32⟩ : BufTy).Contents (Elt F) → (⟨S3300000, .i32⟩ : BufTy).Contents (Elt F) → (⟨S3300000, .i32⟩ : BufTy).Contents (Elt F)),
    StableHlo.ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v16 main_v17 (broadcastInDim S3300000x1 ![0] bcast_S3300000_S3300000x1_0 : (⟨S3300000, .i32⟩ : BufTy).Contents (Elt F) → (⟨S3300000x1, .i32⟩ : BufTy).Contents (Elt F)),
    StableHlo.binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_2 (constantI S_ 32 0#32),
    StableHlo.unary main_c_2 main_v19 (broadcastInDim S3300000 ![] bcast_S_S3300000 : (⟨S_, .i32⟩ : BufTy).Contents (Elt F) → (⟨S3300000, .i32⟩ : BufTy).Contents (Elt F)),
    StableHlo.binary main_v6 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v21 (broadcastInDim S3300000 ![] bcast_S_S3300000 : (⟨S_, .i32⟩ : BufTy).Contents (Elt F) → (⟨S3300000, .i32⟩ : BufTy).Contents (Elt F)),
    StableHlo.binary main_v6 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v18 main_v25 main_v26 (mulf : (⟨S3300000, .f32⟩ : BufTy).Contents (Elt F) → (⟨S3300000, .f32⟩ : BufTy).Contents (Elt F) → (⟨S3300000, .f32⟩ : BufTy).Contents (Elt F)),
    StableHlo.nullary main_cst_4 (constant S_ .f32 0x3F800000#32),
    StableHlo.unary main_cst_4 main_v27 (broadcastInDim S100000 ![] bcast_S_S100000 : (⟨S_, .f32⟩ : BufTy).Contents (Elt F) → (⟨S100000, .f32⟩ : BufTy).Contents (Elt F)),
    StableHlo.binary main_v27 main_v10 main_v28 (Host.divf : (⟨S100000, .f32⟩ : BufTy).Contents (Elt F) → (⟨S100000, .f32⟩ : BufTy).Contents (Elt F) → (⟨S100000, .f32⟩ : BufTy).Contents (Elt F)),
    StableHlo.unary main_v28 main_v29 (broadcastInDim S100000x1 ![0] bcast_S100000_S100000x1_0 : (⟨S100000, .f32⟩ : BufTy).Contents (Elt F) → (⟨S100000x1, .f32⟩ : BufTy).Contents (Elt F)),
    StableHlo.unary main_arg5 main_v30 ((extractStridedSlice S1x32x32 ![0, 0, 0] · slices_S2x32x32_S1x32x32_0_0_0) : (⟨S2x32x32, .f32⟩ : BufTy).Contents (Elt F) → (⟨S1x32x32, .f32⟩ : BufTy).Contents (Elt F)),
    StableHlo.reshape main_v30 main_v31 rfl shapeCasts_S1x32x32_S32x32,
    StableHlo.unary main_arg5 main_v32 ((extractStridedSlice S1x32x32 ![1, 0, 0] · slices_S2x32x32_S1x32x32_1_0_0) : (⟨S2x32x32, .f32⟩ : BufTy).Contents (Elt F) → (⟨S1x32x32, .f32⟩ : BufTy).Contents (Elt F)),
    StableHlo.reshape main_v32 main_v33 rfl shapeCasts_S1x32x32_S32x32 ]

/-- The buffers stage `G0` writes, in order. -/
abbrev G0_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_v28, main_v29, main_v30, main_v31, main_v32, main_v33]

set_option maxRecDepth 8192 in
theorem G0_writes : (G0 : List (HloOp τ sig (Elt F))).Forall fun op => op.writes ⊆ (G0_W.map (Proc.devRef (τ := τ) .tc)).toFinset :=
  ⟨writes_mem (nullary_writes ..) (by decide), writes_mem (unary_writes ..) (by decide), writes_mem (reshape_writes ..) (by decide), writes_mem (binary_writes ..) (by decide), writes_mem (unary_writes ..) (by decide), writes_mem (reshape_writes ..) (by decide), writes_mem (binary_writes ..) (by decide), writes_mem (nullary_writes ..) (by decide), writes_mem (unary_writes ..) (by decide), writes_mem (nullary_writes ..) (by decide), writes_mem (unary_writes ..) (by decide), writes_mem (unary_writes ..) (by decide), writes_mem (ternary_writes ..) (by decide), writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (reshape_writes ..) (by decide), writes_mem (unary_writes ..) (by decide), writes_mem (reshape_writes ..) (by decide)⟩

/-- A buffer stage `G0` does not write keeps its contents through it. -/
theorem G0_keep (V : Valuation τ sig (Elt F)) (r : Ref sig .tc) (h : r ∉ G0_W) :
    after G0 V (Proc.devRef .tc r) = V (Proc.devRef .tc r) :=
  after_of_writes_sub G0 V G0_writes h

/-- Operations 42 … 42 of 287: layer 0's matrix product. -/
abbrev L0 : List (HloOp τ sig (Elt F)) :=
  [ StableHlo.binary main_arg0 main_arg4 main_v34 ((fun l r => Host.dotGeneral dot_S100000x384_S384x32_S100000x32_1_0_0_1_n_n none l r) : (⟨S100000x384, .f32⟩ : BufTy).Contents (Elt F) → (⟨S384x32, .f32⟩ : BufTy).Contents (Elt F) → (⟨S100000x32, .f32⟩ : BufTy).Contents (Elt F)) ]

/-- The buffers stage `L0` writes, in order. -/
abbrev L0_W : List (Ref sig .tc) := [main_v34]

set_option maxRecDepth 8192 in
theorem L0_writes : (L0 : List (HloOp τ sig (Elt F))).Forall fun op => op.writes ⊆ (L0_W.map (Proc.devRef (τ := τ) .tc)).toFinset :=
  writes_mem (binary_writes ..) (by decide)

/-- A buffer stage `L0` does not write keeps its contents through it. -/
theorem L0_keep (V : Valuation τ sig (Elt F)) (r : Ref sig .tc) (h : r ∉ L0_W) :
    after L0 V (Proc.devRef .tc r) = V (Proc.devRef .tc r) :=
  after_of_writes_sub L0 V L0_writes h

/-- Operations 43 … 65 of 287: layer 0's weighted gather, sum per target, division by the degree and bias. -/
abbrev G1 : List (HloOp τ sig (Elt F)) :=
  [ StableHlo.unary main_v26 main_v35 (broadcastInDim S3300000x1 ![0] bcast_S3300000_S3300000x1_0 : (⟨S3300000, .f32⟩ : BufTy).Contents (Elt F) → (⟨S3300000x1, .f32⟩ : BufTy).Contents (Elt F)),
    StableHlo.nullary main_c_5 (constantI S_ 32 0#32),
    StableHlo.unary main_c_5 main_v36 (broadcastInDim S3300000 ![] bcast_S_S3300000 : (⟨S_, .i32⟩ : BufTy).Contents (Elt F) → (⟨S3300000, .i32⟩ : BufTy).Contents (Elt F)),
    StableHlo.binary main_v6 main_v36 main_v37 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v38 (broadcastInDim S3300000 ![] bcast_S_S3300000 : (⟨S_, .i32⟩ : BufTy).Contents (Elt F) → (⟨S3300000, .i32⟩ : BufTy).Contents (Elt F)),
    StableHlo.binary main_v6 main_v38 main_v39 (addi : (⟨S3300000, .i32⟩ : BufTy).Contents (Elt F) → (⟨S3300000, .i32⟩ : BufTy).Contents (Elt F) → (⟨S3300000, .i32⟩ : BufTy).Contents (Elt F)),
    StableHlo.ternary main_v37 main_v39 main_v6 main_v40 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v40 main_v41 (broadcastInDim S3300000x1 ![0] bcast_S3300000_S3300000x1_0 : (⟨S3300000, .i32⟩ : BufTy).Contents (Elt F) → (⟨S3300000x1, .i32⟩ : BufTy).Contents (Elt F)),
    StableHlo.binary main_v34 main_v41 main_v42 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v35 main_v43 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v43 main_v42 main_v44 (mulf : (⟨S3300000x32, .f32⟩ : BufTy).Contents (Elt F) → (⟨S3300000x32, .f32⟩ : BufTy).Contents (Elt F) → (⟨S3300000x32, .f32⟩ : BufTy).Contents (Elt F)),
    StableHlo.nullary main_cst_7 (constant S_ .f32 0x00000000#32),
    StableHlo.unary main_cst_7 main_v45 (broadcastInDim S100000x32 ![] bcast_S_S100000x32 : (⟨S_, .f32⟩ : BufTy).Contents (Elt F) → (⟨S100000x32, .f32⟩ : BufTy).Contents (Elt F)),
    StableHlo.unary main_v3 main_v46 (broadcastInDim S3300000x1 ![0] bcast_S3300000_S3300000x1_0 : (⟨S3300000, .i32⟩ : BufTy).Contents (Elt F) → (⟨S3300000x1, .i32⟩ : BufTy).Contents (Elt F)),
    StableHlo.ternary main_v45 main_v46 main_v44 main_v47 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v48 (broadcastInDim S100000x32 ![0, 1] bcast_S100000x1_S100000x32_0_1 : (⟨S100000x1, .f32⟩ : BufTy).Contents (Elt F) → (⟨S100000x32, .f32⟩ : BufTy).Contents (Elt F)),
    StableHlo.binary main_v47 main_v48 main_v49 (mulf : (⟨S100000x32, .f32⟩ : BufTy).Contents (Elt F) → (⟨S100000x32, .f32⟩ : BufTy).Contents (Elt F) → (⟨S100000x32, .f32⟩ : BufTy).Contents (Elt F)),
    StableHlo.unary main_arg6 main_v50 ((extractStridedSlice S1x32 ![0, 0] · slices_S3x32_S1x32_0_0) : (⟨S3x32, .f32⟩ : BufTy).Contents (Elt F) → (⟨S1x32, .f32⟩ : BufTy).Contents (Elt F)),
    StableHlo.reshape main_v50 main_v51 rfl shapeCasts_S1x32_S32,
    StableHlo.unary main_v51 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S100000x32 ![0, 1] bcast_S1x32_S100000x32_0_1 : (⟨S1x32, .f32⟩ : BufTy).Contents (Elt F) → (⟨S100000x32, .f32⟩ : BufTy).Contents (Elt F)),
    StableHlo.binary main_v49 main_v53 main_v54 (addf : (⟨S100000x32, .f32⟩ : BufTy).Contents (Elt F) → (⟨S100000x32, .f32⟩ : BufTy).Contents (Elt F) → (⟨S100000x32, .f32⟩ : BufTy).Contents (Elt F)) ]

/-- The buffers stage `G1` writes, in order. -/
abbrev G1_W : List (Ref sig .tc) := [main_v35, main_c_5, main_v36, main_v37, main_c_6, main_v38, main_v39, main_v40, main_v41, main_v42, main_v43, main_v44, main_cst_7, main_v45, main_v46, main_v47, main_v48, main_v49, main_v50, main_v51, main_v52, main_v53, main_v54]

set_option maxRecDepth 8192 in
theorem G1_writes : (G1 : List (HloOp τ sig (Elt F))).Forall fun op => op.writes ⊆ (G1_W.map (Proc.devRef (τ := τ) .tc)).toFinset :=
  ⟨writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide)⟩

/-- A buffer stage `G1` does not write keeps its contents through it. -/
theorem G1_keep (V : Valuation τ sig (Elt F)) (r : Ref sig .tc) (h : r ∉ G1_W) :
    after G1 V (Proc.devRef .tc r) = V (Proc.devRef .tc r) :=
  after_of_writes_sub G1 V G1_writes h

/-- Operations 66 … 93 of 287: layer 0's column mean and column variance. -/
abbrev St0 : List (HloOp τ sig (Elt F)) :=
  [ StableHlo.nullary main_cst_8 (constant S_ .f32 0x00000000#32),
    StableHlo.binary main_v54 main_cst_8 main_v55 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_9 (constant S_ .f32 0x47C35000#32),
    StableHlo.unary main_cst_9 main_v56 (broadcastInDim S32 ![] bcast_S_S32 : (⟨S_, .f32⟩ : BufTy).Contents (Elt F) → (⟨S32, .f32⟩ : BufTy).Contents (Elt F)),
    StableHlo.binary main_v55 main_v56 main_v57 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary main_call0.cst (constant S_ .f32 0x00000000#32),
    StableHlo.TRef.binary (.of main_v54 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v54 : StableHlo.TRef sig ⟨S100000x32, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b) ]

/-- The buffers stage `St0` writes, in order. -/
abbrev St0_W : List (Ref sig .tc) := [main_cst_8, main_v55, main_cst_9, main_v56, main_v57, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v58]

set_option maxRecDepth 8192 in
theorem St0_writes : (St0 : List (HloOp τ sig (Elt F))).Forall fun op => op.writes ⊆ (St0_W.map (Proc.devRef (τ := τ) .tc)).toFinset :=
  ⟨writes_mem (nullary_writes ..) (by decide), writes_mem (binary_writes ..) (by decide), writes_mem (nullary_writes ..) (by decide), writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide)⟩

/-- A buffer stage `St0` does not write keeps its contents through it. -/
theorem St0_keep (V : Valuation τ sig (Elt F)) (r : Ref sig .tc) (h : r ∉ St0_W) :
    after St0 V (Proc.devRef .tc r) = V (Proc.devRef .tc r) :=
  after_of_writes_sub St0 V St0_writes h

/-- Operations 94 … 116 of 287: layer 0's normalisation, scale, shift and rectifier. -/
abbrev A0 : List (HloOp τ sig (Elt F)) :=
  [ StableHlo.unary main_v57 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S100000x32 ![0, 1] bcast_S1x32_S100000x32_0_1 : (⟨S1x32, .f32⟩ : BufTy).Contents (Elt F) → (⟨S100000x32, .f32⟩ : BufTy).Contents (Elt F)),
    StableHlo.binary main_v54 main_v60 main_v61 (subf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3727C5AC#32),
    StableHlo.unary main_cst_11 main_v62 (broadcastInDim S32 ![] bcast_S_S32 : (⟨S_, .f32⟩ : BufTy).Contents (Elt F) → (⟨S32, .f32⟩ : BufTy).Contents (Elt F)),
    StableHlo.binary main_v58 main_v62 main_v63 (addf : (⟨S32, .f32⟩ : BufTy).Contents (Elt F) → (⟨S32, .f32⟩ : BufTy).Contents (Elt F) → (⟨S32, .f32⟩ : BufTy).Contents (Elt F)),
    StableHlo.unary main_v63 main_v64 (Host.rsqrt : (⟨S32, .f32⟩ : BufTy).Contents (Elt F) → (⟨S32, .f32⟩ : BufTy).Contents (Elt F)),
    StableHlo.unary main_v64 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S100000x32 ![0, 1] bcast_S1x32_S100000x32_0_1 : (⟨S1x32, .f32⟩ : BufTy).Contents (Elt F) → (⟨S100000x32, .f32⟩ : BufTy).Contents (Elt F)),
    StableHlo.binary main_v61 main_v66 main_v67 (mulf : (⟨S100000x32, .f32⟩ : BufTy).Contents (Elt F) → (⟨S100000x32, .f32⟩ : BufTy).Contents (Elt F) → (⟨S100000x32, .f32⟩ : BufTy).Contents (Elt F)),
    StableHlo.unary main_arg7 main_v68 ((extractStridedSlice S1x32 ![0, 0] · slices_S3x32_S1x32_0_0) : (⟨S3x32, .f32⟩ : BufTy).Contents (Elt F) → (⟨S1x32, .f32⟩ : BufTy).Contents (Elt F)),
    StableHlo.reshape main_v68 main_v69 rfl shapeCasts_S1x32_S32,
    StableHlo.unary main_v69 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S100000x32 ![0, 1] bcast_S1x32_S100000x32_0_1 : (⟨S1x32, .f32⟩ : BufTy).Contents (Elt F) → (⟨S100000x32, .f32⟩ : BufTy).Contents (Elt F)),
    StableHlo.binary main_v67 main_v71 main_v72 (mulf : (⟨S100000x32, .f32⟩ : BufTy).Contents (Elt F) → (⟨S100000x32, .f32⟩ : BufTy).Contents (Elt F) → (⟨S100000x32, .f32⟩ : BufTy).Contents (Elt F)),
    StableHlo.unary main_arg8 main_v73 ((extractStridedSlice S1x32 ![0, 0] · slices_S3x32_S1x32_0_0) : (⟨S3x32, .f32⟩ : BufTy).Contents (Elt F) → (⟨S1x32, .f32⟩ : BufTy).Contents (Elt F)),
    StableHlo.reshape main_v73 main_v74 rfl shapeCasts_S1x32_S32,
    StableHlo.unary main_v74 main_v75 (broadcastInDim S1x32 ![1] bcast_S32_S1x32_1 : (⟨S32, .f32⟩ : BufTy).Contents (Elt F) → (⟨S1x32, .f32⟩ : BufTy).Contents (Elt F)),
    StableHlo.unary main_v75 main_v76 (broadcastInDim S100000x32 ![0, 1] bcast_S1x32_S100000x32_0_1 : (⟨S1x32, .f32⟩ : BufTy).Contents (Elt F) → (⟨S100000x32, .f32⟩ : BufTy).Contents (Elt F)),
    StableHlo.binary main_v72 main_v76 main_v77 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v77 : StableHlo.TRef sig ⟨S100000x32, .f32⟩) main_call1.v0 main_call1.v1 maximumf ]

/-- The buffers stage `A0` writes, in order. -/
abbrev A0_W : List (Ref sig .tc) := [main_v59, main_v60, main_v61, main_cst_11, main_v62, main_v63, main_v64, main_v65, main_v66, main_v67, main_v68, main_v69, main_v70, main_v71, main_v72, main_v73, main_v74, main_v75, main_v76, main_v77, main_call1_cst, main_call1_v0, main_v78]

set_option maxRecDepth 8192 in
theorem A0_writes : (A0 : List (HloOp τ sig (Elt F))).Forall fun op => op.writes ⊆ (A0_W.map (Proc.devRef (τ := τ) .tc)).toFinset :=
  ⟨writes_mem (unary_writes ..) (by decide), writes_mem (unary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide)⟩

/-- A buffer stage `A0` does not write keeps its contents through it. -/
theorem A0_keep (V : Valuation τ sig (Elt F)) (r : Ref sig .tc) (h : r ∉ A0_W) :
    after A0 V (Proc.devRef .tc r) = V (Proc.devRef .tc r) :=
  after_of_writes_sub A0 V A0_writes h

/-- Operations 117 … 117 of 287: layer 1's matrix product. -/
abbrev L1 : List (HloOp τ sig (Elt F)) :=
  [ StableHlo.binary main_v78 main_v31 main_v79 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- The buffers stage `L1` writes, in order. -/
abbrev L1_W : List (Ref sig .tc) := [main_v79]

set_option maxRecDepth 8192 in
theorem L1_writes : (L1 : List (HloOp τ sig (Elt F))).Forall fun op => op.writes ⊆ (L1_W.map (Proc.devRef (τ := τ) .tc)).toFinset :=
  writes_mem (binary_writes ..) (by decide)

/-- A buffer stage `L1` does not write keeps its contents through it. -/
theorem L1_keep (V : Valuation τ sig (Elt F)) (r : Ref sig .tc) (h : r ∉ L1_W) :
    after L1 V (Proc.devRef .tc r) = V (Proc.devRef .tc r) :=
  after_of_writes_sub L1 V L1_writes h

/-- Operations 118 … 140 of 287: layer 1's weighted gather, sum per target, division by the degree and bias. -/
abbrev G2 : List (HloOp τ sig (Elt F)) :=
  [ StableHlo.unary main_v26 main_v80 (broadcastInDim S3300000x1 ![0] bcast_S3300000_S3300000x1_0 : (⟨S3300000, .f32⟩ : BufTy).Contents (Elt F) → (⟨S3300000x1, .f32⟩ : BufTy).Contents (Elt F)),
    StableHlo.nullary main_c_12 (constantI S_ 32 0#32),
    StableHlo.unary main_c_12 main_v81 (broadcastInDim S3300000 ![] bcast_S_S3300000 : (⟨S_, .i32⟩ : BufTy).Contents (Elt F) → (⟨S3300000, .i32⟩ : BufTy).Contents (Elt F)),
    StableHlo.binary main_v6 main_v81 main_v82 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v83 (broadcastInDim S3300000 ![] bcast_S_S3300000 : (⟨S_, .i32⟩ : BufTy).Contents (Elt F) → (⟨S3300000, .i32⟩ : BufTy).Contents (Elt F)),
    StableHlo.binary main_v6 main_v83 main_v84 (addi : (⟨S3300000, .i32⟩ : BufTy).Contents (Elt F) → (⟨S3300000, .i32⟩ : BufTy).Contents (Elt F) → (⟨S3300000, .i32⟩ : BufTy).Contents (Elt F)),
    StableHlo.ternary main_v82 main_v84 main_v6 main_v85 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v85 main_v86 (broadcastInDim S3300000x1 ![0] bcast_S3300000_S3300000x1_0 : (⟨S3300000, .i32⟩ : BufTy).Contents (Elt F) → (⟨S3300000x1, .i32⟩ : BufTy).Contents (Elt F)),
    StableHlo.binary main_v79 main_v86 main_v87 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v80 main_v88 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v88 main_v87 main_v89 (mulf : (⟨S3300000x32, .f32⟩ : BufTy).Contents (Elt F) → (⟨S3300000x32, .f32⟩ : BufTy).Contents (Elt F) → (⟨S3300000x32, .f32⟩ : BufTy).Contents (Elt F)),
    StableHlo.nullary main_cst_14 (constant S_ .f32 0x00000000#32),
    StableHlo.unary main_cst_14 main_v90 (broadcastInDim S100000x32 ![] bcast_S_S100000x32 : (⟨S_, .f32⟩ : BufTy).Contents (Elt F) → (⟨S100000x32, .f32⟩ : BufTy).Contents (Elt F)),
    StableHlo.unary main_v3 main_v91 (broadcastInDim S3300000x1 ![0] bcast_S3300000_S3300000x1_0 : (⟨S3300000, .i32⟩ : BufTy).Contents (Elt F) → (⟨S3300000x1, .i32⟩ : BufTy).Contents (Elt F)),
    StableHlo.ternary main_v90 main_v91 main_v89 main_v92 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v93 (broadcastInDim S100000x32 ![0, 1] bcast_S100000x1_S100000x32_0_1 : (⟨S100000x1, .f32⟩ : BufTy).Contents (Elt F) → (⟨S100000x32, .f32⟩ : BufTy).Contents (Elt F)),
    StableHlo.binary main_v92 main_v93 main_v94 (mulf : (⟨S100000x32, .f32⟩ : BufTy).Contents (Elt F) → (⟨S100000x32, .f32⟩ : BufTy).Contents (Elt F) → (⟨S100000x32, .f32⟩ : BufTy).Contents (Elt F)),
    StableHlo.unary main_arg6 main_v95 ((extractStridedSlice S1x32 ![1, 0] · slices_S3x32_S1x32_1_0) : (⟨S3x32, .f32⟩ : BufTy).Contents (Elt F) → (⟨S1x32, .f32⟩ : BufTy).Contents (Elt F)),
    StableHlo.reshape main_v95 main_v96 rfl shapeCasts_S1x32_S32,
    StableHlo.unary main_v96 main_v97 (broadcastInDim S1x32 ![1] bcast_S32_S1x32_1 : (⟨S32, .f32⟩ : BufTy).Contents (Elt F) → (⟨S1x32, .f32⟩ : BufTy).Contents (Elt F)),
    StableHlo.unary main_v97 main_v98 (broadcastInDim S100000x32 ![0, 1] bcast_S1x32_S100000x32_0_1 : (⟨S1x32, .f32⟩ : BufTy).Contents (Elt F) → (⟨S100000x32, .f32⟩ : BufTy).Contents (Elt F)),
    StableHlo.binary main_v94 main_v98 main_v99 (addf : (⟨S100000x32, .f32⟩ : BufTy).Contents (Elt F) → (⟨S100000x32, .f32⟩ : BufTy).Contents (Elt F) → (⟨S100000x32, .f32⟩ : BufTy).Contents (Elt F)) ]

/-- The buffers stage `G2` writes, in order. -/
abbrev G2_W : List (Ref sig .tc) := [main_v80, main_c_12, main_v81, main_v82, main_c_13, main_v83, main_v84, main_v85, main_v86, main_v87, main_v88, main_v89, main_cst_14, main_v90, main_v91, main_v92, main_v93, main_v94, main_v95, main_v96, main_v97, main_v98, main_v99]

set_option maxRecDepth 8192 in
theorem G2_writes : (G2 : List (HloOp τ sig (Elt F))).Forall fun op => op.writes ⊆ (G2_W.map (Proc.devRef (τ := τ) .tc)).toFinset :=
  ⟨writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide)⟩

/-- A buffer stage `G2` does not write keeps its contents through it. -/
theorem G2_keep (V : Valuation τ sig (Elt F)) (r : Ref sig .tc) (h : r ∉ G2_W) :
    after G2 V (Proc.devRef .tc r) = V (Proc.devRef .tc r) :=
  after_of_writes_sub G2 V G2_writes h

/-- Operations 141 … 168 of 287: layer 1's column mean and column variance. -/
abbrev St1 : List (HloOp τ sig (Elt F)) :=
  [ StableHlo.nullary main_cst_15 (constant S_ .f32 0x00000000#32),
    StableHlo.binary main_v99 main_cst_15 main_v100 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_16 (constant S_ .f32 0x47C35000#32),
    StableHlo.unary main_cst_16 main_v101 (broadcastInDim S32 ![] bcast_S_S32 : (⟨S_, .f32⟩ : BufTy).Contents (Elt F) → (⟨S32, .f32⟩ : BufTy).Contents (Elt F)),
    StableHlo.binary main_v100 main_v101 main_v102 (Host.divf : (⟨S32, .f32⟩ : BufTy).Contents (Elt F) → (⟨S32, .f32⟩ : BufTy).Contents (Elt F) → (⟨S32, .f32⟩ : BufTy).Contents (Elt F)),
    StableHlo.nullary main_c_17 (constantI S_ 32 0#32),
    StableHlo.TRef.nullary main_call2.cst (constant S_ .f32 0x00000000#32),
    StableHlo.TRef.binary (.of main_v99 : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v99 : StableHlo.TRef sig ⟨S100000x32, .f32⟩) main_call2.v4 main_call2.v5 subf,
    StableHlo.TRef.binary main_call2.v5 main_call2.v5 main_call2.v6 mulf,
    StableHlo.TRef.unary (.of main_c_17 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b) ]

/-- The buffers stage `St1` writes, in order. -/
abbrev St1_W : List (Ref sig .tc) := [main_cst_15, main_v100, main_cst_16, main_v101, main_v102, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v103]

set_option maxRecDepth 8192 in
theorem St1_writes : (St1 : List (HloOp τ sig (Elt F))).Forall fun op => op.writes ⊆ (St1_W.map (Proc.devRef (τ := τ) .tc)).toFinset :=
  ⟨writes_mem (nullary_writes ..) (by decide), writes_mem (binary_writes ..) (by decide), writes_mem (nullary_writes ..) (by decide), writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide)⟩

/-- A buffer stage `St1` does not write keeps its contents through it. -/
theorem St1_keep (V : Valuation τ sig (Elt F)) (r : Ref sig .tc) (h : r ∉ St1_W) :
    after St1 V (Proc.devRef .tc r) = V (Proc.devRef .tc r) :=
  after_of_writes_sub St1 V St1_writes h

/-- Operations 169 … 191 of 287: layer 1's normalisation, scale, shift and rectifier. -/
abbrev A1 : List (HloOp τ sig (Elt F)) :=
  [ StableHlo.unary main_v102 main_v104 (broadcastInDim S1x32 ![1] bcast_S32_S1x32_1 : (⟨S32, .f32⟩ : BufTy).Contents (Elt F) → (⟨S1x32, .f32⟩ : BufTy).Contents (Elt F)),
    StableHlo.unary main_v104 main_v105 (broadcastInDim S100000x32 ![0, 1] bcast_S1x32_S100000x32_0_1 : (⟨S1x32, .f32⟩ : BufTy).Contents (Elt F) → (⟨S100000x32, .f32⟩ : BufTy).Contents (Elt F)),
    StableHlo.binary main_v99 main_v105 main_v106 (subf : (⟨S100000x32, .f32⟩ : BufTy).Contents (Elt F) → (⟨S100000x32, .f32⟩ : BufTy).Contents (Elt F) → (⟨S100000x32, .f32⟩ : BufTy).Contents (Elt F)),
    StableHlo.nullary main_cst_18 (constant S_ .f32 0x3727C5AC#32),
    StableHlo.unary main_cst_18 main_v107 (broadcastInDim S32 ![] bcast_S_S32 : (⟨S_, .f32⟩ : BufTy).Contents (Elt F) → (⟨S32, .f32⟩ : BufTy).Contents (Elt F)),
    StableHlo.binary main_v103 main_v107 main_v108 (addf : (⟨S32, .f32⟩ : BufTy).Contents (Elt F) → (⟨S32, .f32⟩ : BufTy).Contents (Elt F) → (⟨S32, .f32⟩ : BufTy).Contents (Elt F)),
    StableHlo.unary main_v108 main_v109 (Host.rsqrt : (⟨S32, .f32⟩ : BufTy).Contents (Elt F) → (⟨S32, .f32⟩ : BufTy).Contents (Elt F)),
    StableHlo.unary main_v109 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S100000x32 ![0, 1] bcast_S1x32_S100000x32_0_1 : (⟨S1x32, .f32⟩ : BufTy).Contents (Elt F) → (⟨S100000x32, .f32⟩ : BufTy).Contents (Elt F)),
    StableHlo.binary main_v106 main_v111 main_v112 (mulf : (⟨S100000x32, .f32⟩ : BufTy).Contents (Elt F) → (⟨S100000x32, .f32⟩ : BufTy).Contents (Elt F) → (⟨S100000x32, .f32⟩ : BufTy).Contents (Elt F)),
    StableHlo.unary main_arg7 main_v113 ((extractStridedSlice S1x32 ![1, 0] · slices_S3x32_S1x32_1_0) : (⟨S3x32, .f32⟩ : BufTy).Contents (Elt F) → (⟨S1x32, .f32⟩ : BufTy).Contents (Elt F)),
    StableHlo.reshape main_v113 main_v114 rfl shapeCasts_S1x32_S32,
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
    StableHlo.binary main_v112 main_v116 main_v117 (mulf : (⟨S100000x32, .f32⟩ : BufTy).Contents (Elt F) → (⟨S100000x32, .f32⟩ : BufTy).Contents (Elt F) → (⟨S100000x32, .f32⟩ : BufTy).Contents (Elt F)),
    StableHlo.unary main_arg8 main_v118 ((extractStridedSlice S1x32 ![1, 0] · slices_S3x32_S1x32_1_0) : (⟨S3x32, .f32⟩ : BufTy).Contents (Elt F) → (⟨S1x32, .f32⟩ : BufTy).Contents (Elt F)),
    StableHlo.reshape main_v118 main_v119 rfl shapeCasts_S1x32_S32,
    StableHlo.unary main_v119 main_v120 (broadcastInDim S1x32 ![1] bcast_S32_S1x32_1 : (⟨S32, .f32⟩ : BufTy).Contents (Elt F) → (⟨S1x32, .f32⟩ : BufTy).Contents (Elt F)),
    StableHlo.unary main_v120 main_v121 (broadcastInDim S100000x32 ![0, 1] bcast_S1x32_S100000x32_0_1 : (⟨S1x32, .f32⟩ : BufTy).Contents (Elt F) → (⟨S100000x32, .f32⟩ : BufTy).Contents (Elt F)),
    StableHlo.binary main_v117 main_v121 main_v122 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v122 : StableHlo.TRef sig ⟨S100000x32, .f32⟩) main_call3.v0 main_call3.v1 maximumf ]

/-- The buffers stage `A1` writes, in order. -/
abbrev A1_W : List (Ref sig .tc) := [main_v104, main_v105, main_v106, main_cst_18, main_v107, main_v108, main_v109, main_v110, main_v111, main_v112, main_v113, main_v114, main_v115, main_v116, main_v117, main_v118, main_v119, main_v120, main_v121, main_v122, main_call3_cst, main_call3_v0, main_v123]

set_option maxRecDepth 8192 in
theorem A1_writes : (A1 : List (HloOp τ sig (Elt F))).Forall fun op => op.writes ⊆ (A1_W.map (Proc.devRef (τ := τ) .tc)).toFinset :=
  ⟨writes_mem (unary_writes ..) (by decide), writes_mem (unary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide)⟩

/-- A buffer stage `A1` does not write keeps its contents through it. -/
theorem A1_keep (V : Valuation τ sig (Elt F)) (r : Ref sig .tc) (h : r ∉ A1_W) :
    after A1 V (Proc.devRef .tc r) = V (Proc.devRef .tc r) :=
  after_of_writes_sub A1 V A1_writes h

/-- Operations 192 … 192 of 287: layer 2's matrix product. -/
abbrev L2 : List (HloOp τ sig (Elt F)) :=
  [ StableHlo.binary main_v123 main_v33 main_v124 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- The buffers stage `L2` writes, in order. -/
abbrev L2_W : List (Ref sig .tc) := [main_v124]

set_option maxRecDepth 8192 in
theorem L2_writes : (L2 : List (HloOp τ sig (Elt F))).Forall fun op => op.writes ⊆ (L2_W.map (Proc.devRef (τ := τ) .tc)).toFinset :=
  writes_mem (binary_writes ..) (by decide)

/-- A buffer stage `L2` does not write keeps its contents through it. -/
theorem L2_keep (V : Valuation τ sig (Elt F)) (r : Ref sig .tc) (h : r ∉ L2_W) :
    after L2 V (Proc.devRef .tc r) = V (Proc.devRef .tc r) :=
  after_of_writes_sub L2 V L2_writes h

/-- Operations 193 … 215 of 287: layer 2's weighted gather, sum per target, division by the degree and bias. -/
abbrev G3 : List (HloOp τ sig (Elt F)) :=
  [ StableHlo.unary main_v26 main_v125 (broadcastInDim S3300000x1 ![0] bcast_S3300000_S3300000x1_0 : (⟨S3300000, .f32⟩ : BufTy).Contents (Elt F) → (⟨S3300000x1, .f32⟩ : BufTy).Contents (Elt F)),
    StableHlo.nullary main_c_19 (constantI S_ 32 0#32),
    StableHlo.unary main_c_19 main_v126 (broadcastInDim S3300000 ![] bcast_S_S3300000 : (⟨S_, .i32⟩ : BufTy).Contents (Elt F) → (⟨S3300000, .i32⟩ : BufTy).Contents (Elt F)),
    StableHlo.binary main_v6 main_v126 main_v127 (cmpi .slt : (⟨S3300000, .i32⟩ : BufTy).Contents (Elt F) → (⟨S3300000, .i32⟩ : BufTy).Contents (Elt F) → (⟨S3300000, .i1⟩ : BufTy).Contents (Elt F)),
    StableHlo.nullary main_c_20 (constantI S_ 32 100000#32),
    StableHlo.unary main_c_20 main_v128 (broadcastInDim S3300000 ![] bcast_S_S3300000 : (⟨S_, .i32⟩ : BufTy).Contents (Elt F) → (⟨S3300000, .i32⟩ : BufTy).Contents (Elt F)),
    StableHlo.binary main_v6 main_v128 main_v129 (addi : (⟨S3300000, .i32⟩ : BufTy).Contents (Elt F) → (⟨S3300000, .i32⟩ : BufTy).Contents (Elt F) → (⟨S3300000, .i32⟩ : BufTy).Contents (Elt F)),
    StableHlo.ternary main_v127 main_v129 main_v6 main_v130 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v130 main_v131 (broadcastInDim S3300000x1 ![0] bcast_S3300000_S3300000x1_0 : (⟨S3300000, .i32⟩ : BufTy).Contents (Elt F) → (⟨S3300000x1, .i32⟩ : BufTy).Contents (Elt F)),
    StableHlo.binary main_v124 main_v131 main_v132 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v125 main_v133 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v133 main_v132 main_v134 (mulf : (⟨S3300000x32, .f32⟩ : BufTy).Contents (Elt F) → (⟨S3300000x32, .f32⟩ : BufTy).Contents (Elt F) → (⟨S3300000x32, .f32⟩ : BufTy).Contents (Elt F)),
    StableHlo.nullary main_cst_21 (constant S_ .f32 0x00000000#32),
    StableHlo.unary main_cst_21 main_v135 (broadcastInDim S100000x32 ![] bcast_S_S100000x32 : (⟨S_, .f32⟩ : BufTy).Contents (Elt F) → (⟨S100000x32, .f32⟩ : BufTy).Contents (Elt F)),
    StableHlo.unary main_v3 main_v136 (broadcastInDim S3300000x1 ![0] bcast_S3300000_S3300000x1_0 : (⟨S3300000, .i32⟩ : BufTy).Contents (Elt F) → (⟨S3300000x1, .i32⟩ : BufTy).Contents (Elt F)),
    StableHlo.ternary main_v135 main_v136 main_v134 main_v137 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_v29 main_v138 (broadcastInDim S100000x32 ![0, 1] bcast_S100000x1_S100000x32_0_1 : (⟨S100000x1, .f32⟩ : BufTy).Contents (Elt F) → (⟨S100000x32, .f32⟩ : BufTy).Contents (Elt F)),
    StableHlo.binary main_v137 main_v138 main_v139 (mulf : (⟨S100000x32, .f32⟩ : BufTy).Contents (Elt F) → (⟨S100000x32, .f32⟩ : BufTy).Contents (Elt F) → (⟨S100000x32, .f32⟩ : BufTy).Contents (Elt F)),
    StableHlo.unary main_arg6 main_v140 ((extractStridedSlice S1x32 ![2, 0] · slices_S3x32_S1x32_2_0) : (⟨S3x32, .f32⟩ : BufTy).Contents (Elt F) → (⟨S1x32, .f32⟩ : BufTy).Contents (Elt F)),
    StableHlo.reshape main_v140 main_v141 rfl shapeCasts_S1x32_S32,
    StableHlo.unary main_v141 main_v142 (broadcastInDim S1x32 ![1] bcast_S32_S1x32_1 : (⟨S32, .f32⟩ : BufTy).Contents (Elt F) → (⟨S1x32, .f32⟩ : BufTy).Contents (Elt F)),
    StableHlo.unary main_v142 main_v143 (broadcastInDim S100000x32 ![0, 1] bcast_S1x32_S100000x32_0_1 : (⟨S1x32, .f32⟩ : BufTy).Contents (Elt F) → (⟨S100000x32, .f32⟩ : BufTy).Contents (Elt F)),
    StableHlo.binary main_v139 main_v143 main_v144 (addf : (⟨S100000x32, .f32⟩ : BufTy).Contents (Elt F) → (⟨S100000x32, .f32⟩ : BufTy).Contents (Elt F) → (⟨S100000x32, .f32⟩ : BufTy).Contents (Elt F)) ]

/-- The buffers stage `G3` writes, in order. -/
abbrev G3_W : List (Ref sig .tc) := [main_v125, main_c_19, main_v126, main_v127, main_c_20, main_v128, main_v129, main_v130, main_v131, main_v132, main_v133, main_v134, main_cst_21, main_v135, main_v136, main_v137, main_v138, main_v139, main_v140, main_v141, main_v142, main_v143, main_v144]

set_option maxRecDepth 8192 in
theorem G3_writes : (G3 : List (HloOp τ sig (Elt F))).Forall fun op => op.writes ⊆ (G3_W.map (Proc.devRef (τ := τ) .tc)).toFinset :=
  ⟨writes_mem (unary_writes ..) (by decide), writes_mem (nullary_writes ..) (by decide), writes_mem (unary_writes ..) (by decide), writes_mem (binary_writes ..) (by decide), writes_mem (nullary_writes ..) (by decide), writes_mem (unary_writes ..) (by decide), writes_mem (binary_writes ..) (by decide), writes_mem (ternary_writes ..) (by decide), writes_mem (unary_writes ..) (by decide), writes_mem (binary_writes ..) (by decide), writes_mem (unary_writes ..) (by decide), writes_mem (binary_writes ..) (by decide), writes_mem (nullary_writes ..) (by decide), writes_mem (unary_writes ..) (by decide), writes_mem (unary_writes ..) (by decide), writes_mem (ternary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide)⟩

/-- A buffer stage `G3` does not write keeps its contents through it. -/
theorem G3_keep (V : Valuation τ sig (Elt F)) (r : Ref sig .tc) (h : r ∉ G3_W) :
    after G3 V (Proc.devRef .tc r) = V (Proc.devRef .tc r) :=
  after_of_writes_sub G3 V G3_writes h

/-- Operations 216 … 243 of 287: layer 2's column mean and column variance. -/
abbrev St2 : List (HloOp τ sig (Elt F)) :=
  [ StableHlo.nullary main_cst_22 (constant S_ .f32 0x00000000#32),
    StableHlo.binary main_v144 main_cst_22 main_v145 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_23 (constant S_ .f32 0x47C35000#32),
    StableHlo.unary main_cst_23 main_v146 (broadcastInDim S32 ![] bcast_S_S32 : (⟨S_, .f32⟩ : BufTy).Contents (Elt F) → (⟨S32, .f32⟩ : BufTy).Contents (Elt F)),
    StableHlo.binary main_v145 main_v146 main_v147 (Host.divf : (⟨S32, .f32⟩ : BufTy).Contents (Elt F) → (⟨S32, .f32⟩ : BufTy).Contents (Elt F) → (⟨S32, .f32⟩ : BufTy).Contents (Elt F)),
    StableHlo.nullary main_c_24 (constantI S_ 32 0#32),
    StableHlo.TRef.nullary main_call4.cst (constant S_ .f32 0x00000000#32),
    StableHlo.TRef.binary (.of main_v144 : StableHlo.TRef sig ⟨S100000x32, .f32⟩) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v144 : StableHlo.TRef sig ⟨S100000x32, .f32⟩) main_call4.v4 main_call4.v5 subf,
    StableHlo.TRef.binary main_call4.v5 main_call4.v5 main_call4.v6 mulf,
    StableHlo.TRef.unary (.of main_c_24 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b) ]

/-- The buffers stage `St2` writes, in order. -/
abbrev St2_W : List (Ref sig .tc) := [main_cst_22, main_v145, main_cst_23, main_v146, main_v147, main_c_24, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v148]

set_option maxRecDepth 8192 in
theorem St2_writes : (St2 : List (HloOp τ sig (Elt F))).Forall fun op => op.writes ⊆ (St2_W.map (Proc.devRef (τ := τ) .tc)).toFinset :=
  ⟨writes_mem (nullary_writes ..) (by decide), writes_mem (binary_writes ..) (by decide), writes_mem (nullary_writes ..) (by decide), writes_mem (unary_writes ..) (by decide), writes_mem (binary_writes ..) (by decide), writes_mem (nullary_writes ..) (by decide), writes_mem (nullary_writes ..) (by decide), writes_mem (binary_writes ..) (by decide), writes_mem (unary_writes ..) (by decide), writes_mem (nullary_writes ..) (by decide), writes_mem (unary_writes ..) (by decide), writes_mem (binary_writes ..) (by decide), writes_mem (unary_writes ..) (by decide), writes_mem (binary_writes ..) (by decide), writes_mem (binary_writes ..) (by decide), writes_mem (unary_writes ..) (by decide), writes_mem (nullary_writes ..) (by decide), writes_mem (binary_writes ..) (by decide), writes_mem (nullary_writes ..) (by decide), writes_mem (binary_writes ..) (by decide), writes_mem (unary_writes ..) (by decide), writes_mem (binary_writes ..) (by decide), writes_mem (nullary_writes ..) (by decide), writes_mem (binary_writes ..) (by decide), writes_mem (nullary_writes ..) (by decide), writes_mem (unary_writes ..) (by decide), writes_mem (unary_writes ..) (by decide), writes_mem (ternary_writes ..) (by decide)⟩

/-- A buffer stage `St2` does not write keeps its contents through it. -/
theorem St2_keep (V : Valuation τ sig (Elt F)) (r : Ref sig .tc) (h : r ∉ St2_W) :
    after St2 V (Proc.devRef .tc r) = V (Proc.devRef .tc r) :=
  after_of_writes_sub St2 V St2_writes h

/-- Operations 244 … 266 of 287: layer 2's normalisation, scale, shift and rectifier. -/
abbrev A2 : List (HloOp τ sig (Elt F)) :=
  [ StableHlo.unary main_v147 main_v149 (broadcastInDim S1x32 ![1] bcast_S32_S1x32_1 : (⟨S32, .f32⟩ : BufTy).Contents (Elt F) → (⟨S1x32, .f32⟩ : BufTy).Contents (Elt F)),
    StableHlo.unary main_v149 main_v150 (broadcastInDim S100000x32 ![0, 1] bcast_S1x32_S100000x32_0_1 : (⟨S1x32, .f32⟩ : BufTy).Contents (Elt F) → (⟨S100000x32, .f32⟩ : BufTy).Contents (Elt F)),
    StableHlo.binary main_v144 main_v150 main_v151 (subf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x3727C5AC#32),
    StableHlo.unary main_cst_25 main_v152 (broadcastInDim S32 ![] bcast_S_S32 : (⟨S_, .f32⟩ : BufTy).Contents (Elt F) → (⟨S32, .f32⟩ : BufTy).Contents (Elt F)),
    StableHlo.binary main_v148 main_v152 main_v153 (addf : (⟨S32, .f32⟩ : BufTy).Contents (Elt F) → (⟨S32, .f32⟩ : BufTy).Contents (Elt F) → (⟨S32, .f32⟩ : BufTy).Contents (Elt F)),
    StableHlo.unary main_v153 main_v154 (Host.rsqrt : (⟨S32, .f32⟩ : BufTy).Contents (Elt F) → (⟨S32, .f32⟩ : BufTy).Contents (Elt F)),
    StableHlo.unary main_v154 main_v155 (broadcastInDim S1x32 ![1] bcast_S32_S1x32_1 : (⟨S32, .f32⟩ : BufTy).Contents (Elt F) → (⟨S1x32, .f32⟩ : BufTy).Contents (Elt F)),
    StableHlo.unary main_v155 main_v156 (broadcastInDim S100000x32 ![0, 1] bcast_S1x32_S100000x32_0_1 : (⟨S1x32, .f32⟩ : BufTy).Contents (Elt F) → (⟨S100000x32, .f32⟩ : BufTy).Contents (Elt F)),
    StableHlo.binary main_v151 main_v156 main_v157 (mulf : (⟨S100000x32, .f32⟩ : BufTy).Contents (Elt F) → (⟨S100000x32, .f32⟩ : BufTy).Contents (Elt F) → (⟨S100000x32, .f32⟩ : BufTy).Contents (Elt F)),
    StableHlo.unary main_arg7 main_v158 ((extractStridedSlice S1x32 ![2, 0] · slices_S3x32_S1x32_2_0) : (⟨S3x32, .f32⟩ : BufTy).Contents (Elt F) → (⟨S1x32, .f32⟩ : BufTy).Contents (Elt F)),
    StableHlo.reshape main_v158 main_v159 rfl shapeCasts_S1x32_S32,
    StableHlo.unary main_v159 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S100000x32 ![0, 1] bcast_S1x32_S100000x32_0_1 : (⟨S1x32, .f32⟩ : BufTy).Contents (Elt F) → (⟨S100000x32, .f32⟩ : BufTy).Contents (Elt F)),
    StableHlo.binary main_v157 main_v161 main_v162 (mulf : (⟨S100000x32, .f32⟩ : BufTy).Contents (Elt F) → (⟨S100000x32, .f32⟩ : BufTy).Contents (Elt F) → (⟨S100000x32, .f32⟩ : BufTy).Contents (Elt F)),
    StableHlo.unary main_arg8 main_v163 ((extractStridedSlice S1x32 ![2, 0] · slices_S3x32_S1x32_2_0) : (⟨S3x32, .f32⟩ : BufTy).Contents (Elt F) → (⟨S1x32, .f32⟩ : BufTy).Contents (Elt F)),
    StableHlo.reshape main_v163 main_v164 rfl shapeCasts_S1x32_S32,
    StableHlo.unary main_v164 main_v165 (broadcastInDim S1x32 ![1] bcast_S32_S1x32_1 : (⟨S32, .f32⟩ : BufTy).Contents (Elt F) → (⟨S1x32, .f32⟩ : BufTy).Contents (Elt F)),
    StableHlo.unary main_v165 main_v166 (broadcastInDim S100000x32 ![0, 1] bcast_S1x32_S100000x32_0_1 : (⟨S1x32, .f32⟩ : BufTy).Contents (Elt F) → (⟨S100000x32, .f32⟩ : BufTy).Contents (Elt F)),
    StableHlo.binary main_v162 main_v166 main_v167 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v167 : StableHlo.TRef sig ⟨S100000x32, .f32⟩) main_call5.v0 main_call5.v1 maximumf ]

/-- The buffers stage `A2` writes, in order. -/
abbrev A2_W : List (Ref sig .tc) := [main_v149, main_v150, main_v151, main_cst_25, main_v152, main_v153, main_v154, main_v155, main_v156, main_v157, main_v158, main_v159, main_v160, main_v161, main_v162, main_v163, main_v164, main_v165, main_v166, main_v167, main_call5_cst, main_call5_v0, main_v168]

set_option maxRecDepth 8192 in
theorem A2_writes : (A2 : List (HloOp τ sig (Elt F))).Forall fun op => op.writes ⊆ (A2_W.map (Proc.devRef (τ := τ) .tc)).toFinset :=
  ⟨writes_mem (unary_writes ..) (by decide), writes_mem (unary_writes ..) (by decide), writes_mem (binary_writes ..) (by decide), writes_mem (nullary_writes ..) (by decide), writes_mem (unary_writes ..) (by decide), writes_mem (binary_writes ..) (by decide), writes_mem (unary_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (unary_writes ..) (by decide), writes_mem (reshape_writes ..) (by decide), writes_mem (unary_writes ..) (by decide), writes_mem (unary_writes ..) (by decide), writes_mem (binary_writes ..) (by decide), writes_mem (nullary_writes ..) (by decide), writes_mem (unary_writes ..) (by decide), writes_mem (binary_writes ..) (by decide)⟩

/-- A buffer stage `A2` does not write keeps its contents through it. -/
theorem A2_keep (V : Valuation τ sig (Elt F)) (r : Ref sig .tc) (h : r ∉ A2_W) :
    after A2 V (Proc.devRef .tc r) = V (Proc.devRef .tc r) :=
  after_of_writes_sub A2 V A2_writes h

/-- Operations 267 … 276 of 287: the sums per graph of the last layer's rows and of ones. -/
abbrev Pl : List (HloOp τ sig (Elt F)) :=
  [ StableHlo.nullary main_cst_26 (constant S_ .f32 0x00000000#32),
    StableHlo.unary main_cst_26 main_v169 (broadcastInDim S100x32 ![] bcast_S_S100x32 : (⟨S_, .f32⟩ : BufTy).Contents (Elt F) → (⟨S100x32, .f32⟩ : BufTy).Contents (Elt F)),
    StableHlo.unary main_arg3 main_v170 (broadcastInDim S100000x1 ![0] bcast_S100000_S100000x1_0 : (⟨S100000, .i32⟩ : BufTy).Contents (Elt F) → (⟨S100000x1, .i32⟩ : BufTy).Contents (Elt F)),
    StableHlo.ternary main_v169 main_v170 main_v168 main_v171 ((fun x i u => Host.scatterAdd scatter_S100x32_S100000x1_S100000x32_1_0_0_1 x i u) : (⟨S100x32, .f32⟩ : BufTy).Contents (Elt F) → (⟨S100000x1, .i32⟩ : BufTy).Contents (Elt F) → (⟨S100000x32, .f32⟩ : BufTy).Contents (Elt F) → (⟨S100x32, .f32⟩ : BufTy).Contents (Elt F)),
    StableHlo.nullary main_cst_27 (constant S_ .f32 0x3F800000#32),
    StableHlo.unary main_cst_27 main_v172 (broadcastInDim S100000 ![] bcast_S_S100000 : (⟨S_, .f32⟩ : BufTy).Contents (Elt F) → (⟨S100000, .f32⟩ : BufTy).Contents (Elt F)),
    StableHlo.nullary main_cst_28 (constant S_ .f32 0x00000000#32),
    StableHlo.unary main_cst_28 main_v173 (broadcastInDim S100 ![] bcast_S_S100 : (⟨S_, .f32⟩ : BufTy).Contents (Elt F) → (⟨S100, .f32⟩ : BufTy).Contents (Elt F)),
    StableHlo.unary main_arg3 main_v174 (broadcastInDim S100000x1 ![0] bcast_S100000_S100000x1_0 : (⟨S100000, .i32⟩ : BufTy).Contents (Elt F) → (⟨S100000x1, .i32⟩ : BufTy).Contents (Elt F)),
    StableHlo.ternary main_v173 main_v174 main_v172 main_v175 ((fun x i u => Host.scatterAdd scatter_S100_S100000x1_S100000_n_0_0_1 x i u) : (⟨S100, .f32⟩ : BufTy).Contents (Elt F) → (⟨S100000x1, .i32⟩ : BufTy).Contents (Elt F) → (⟨S100000, .f32⟩ : BufTy).Contents (Elt F) → (⟨S100, .f32⟩ : BufTy).Contents (Elt F)) ]

/-- The buffers stage `Pl` writes, in order. -/
abbrev Pl_W : List (Ref sig .tc) := [main_cst_26, main_v169, main_v170, main_v171, main_cst_27, main_v172, main_cst_28, main_v173, main_v174, main_v175]

set_option maxRecDepth 8192 in
theorem Pl_writes : (Pl : List (HloOp τ sig (Elt F))).Forall fun op => op.writes ⊆ (Pl_W.map (Proc.devRef (τ := τ) .tc)).toFinset :=
  ⟨writes_mem (nullary_writes ..) (by decide), writes_mem (unary_writes ..) (by decide), writes_mem (unary_writes ..) (by decide), writes_mem (ternary_writes ..) (by decide), writes_mem (nullary_writes ..) (by decide), writes_mem (unary_writes ..) (by decide), writes_mem (nullary_writes ..) (by decide), writes_mem (unary_writes ..) (by decide), writes_mem (unary_writes ..) (by decide), writes_mem (ternary_writes ..) (by decide)⟩

/-- A buffer stage `Pl` does not write keeps its contents through it. -/
theorem Pl_keep (V : Valuation τ sig (Elt F)) (r : Ref sig .tc) (h : r ∉ Pl_W) :
    after Pl V (Proc.devRef .tc r) = V (Proc.devRef .tc r) :=
  after_of_writes_sub Pl V Pl_writes h

/-- Operations 277 … 287 of 287: the clamp of the counts, the division, the last matrix product and its bias. -/
abbrev Hd : List (HloOp τ sig (Elt F)) :=
  [ StableHlo.nullary main_cst_29 (constant S_ .f32 0x3F800000#32),
    StableHlo.TRef.unary (.of main_cst_29 : StableHlo.TRef sig ⟨S_, .f32⟩) main_call6.v0 id,
    StableHlo.TRef.unary main_call6.v0 main_call6.v1 (broadcastInDim S100 ![] bcast_S_S100),
    StableHlo.TRef.binary main_call6.v1 (.of main_v175 : StableHlo.TRef sig ⟨S100, .f32⟩) main_call6.v2 maximumf,
    StableHlo.unary main_v176 main_v177 (broadcastInDim S100x1 ![0] bcast_S100_S100x1_0 : (⟨S100, .f32⟩ : BufTy).Contents (Elt F) → (⟨S100x1, .f32⟩ : BufTy).Contents (Elt F)),
    StableHlo.unary main_v177 main_v178 (broadcastInDim S100x32 ![0, 1] bcast_S100x1_S100x32_0_1 : (⟨S100x1, .f32⟩ : BufTy).Contents (Elt F) → (⟨S100x32, .f32⟩ : BufTy).Contents (Elt F)),
    StableHlo.binary main_v171 main_v178 main_v179 (Host.divf : (⟨S100x32, .f32⟩ : BufTy).Contents (Elt F) → (⟨S100x32, .f32⟩ : BufTy).Contents (Elt F) → (⟨S100x32, .f32⟩ : BufTy).Contents (Elt F)),
    StableHlo.binary main_v179 main_arg9 main_v180 ((fun l r => Host.dotGeneral dot_S100x32_S32x2_S100x2_1_0_0_1_n_n none l r) : (⟨S100x32, .f32⟩ : BufTy).Contents (Elt F) → (⟨S32x2, .f32⟩ : BufTy).Contents (Elt F) → (⟨S100x2, .f32⟩ : BufTy).Contents (Elt F)),
    StableHlo.unary main_arg10 main_v181 (broadcastInDim S1x2 ![1] bcast_S2_S1x2_1 : (⟨S2, .f32⟩ : BufTy).Contents (Elt F) → (⟨S1x2, .f32⟩ : BufTy).Contents (Elt F)),
    StableHlo.unary main_v181 main_v182 (broadcastInDim S100x2 ![0, 1] bcast_S1x2_S100x2_0_1 : (⟨S1x2, .f32⟩ : BufTy).Contents (Elt F) → (⟨S100x2, .f32⟩ : BufTy).Contents (Elt F)),
    StableHlo.binary main_v180 main_v182 main_v183 (addf : (⟨S100x2, .f32⟩ : BufTy).Contents (Elt F) → (⟨S100x2, .f32⟩ : BufTy).Contents (Elt F) → (⟨S100x2, .f32⟩ : BufTy).Contents (Elt F)) ]

/-- The buffers stage `Hd` writes, in order. -/
abbrev Hd_W : List (Ref sig .tc) := [main_cst_29, main_call6_v0, main_call6_v1, main_v176, main_v177, main_v178, main_v179, main_v180, main_v181, main_v182, main_v183]

set_option maxRecDepth 8192 in
theorem Hd_writes : (Hd : List (HloOp τ sig (Elt F))).Forall fun op => op.writes ⊆ (Hd_W.map (Proc.devRef (τ := τ) .tc)).toFinset :=
  ⟨writes_mem (nullary_writes ..) (by decide), writes_mem (unary_writes ..) (by decide), writes_mem (unary_writes ..) (by decide), writes_mem (binary_writes ..) (by decide), writes_mem (unary_writes ..) (by decide), writes_mem (unary_writes ..) (by decide), writes_mem (binary_writes ..) (by decide), writes_mem (binary_writes ..) (by decide), writes_mem (unary_writes ..) (by decide), writes_mem (unary_writes ..) (by decide), writes_mem (binary_writes ..) (by decide)⟩

/-- A buffer stage `Hd` does not write keeps its contents through it. -/
theorem Hd_keep (V : Valuation τ sig (Elt F)) (r : Ref sig .tc) (h : r ∉ Hd_W) :
    after Hd V (Proc.devRef .tc r) = V (Proc.devRef .tc r) :=
  after_of_writes_sub Hd V Hd_writes h

set_option maxRecDepth 16384 in
/-- The line is its stages, one after the other. -/
theorem ops_stages : (ops : List (HloOp τ sig (Elt F))) = G0 ++ (L0 ++ (G1 ++ (St0 ++ (A0 ++ (L1 ++ (G2 ++ (St1 ++ (A1 ++ (L2 ++ (G3 ++ (St2 ++ (A2 ++ (Pl ++ (Hd)))))))))))))) := rfl

/-- The contents after stage `G0`, from contents `V`. -/
def afterG0 (V : Valuation τ sig (Elt F)) : Valuation τ sig (Elt F) := after G0 V
/-- The contents after stage `L0` (and all before it), from contents `V`. -/
def afterL0 (V : Valuation τ sig (Elt F)) : Valuation τ sig (Elt F) := after L0 (afterG0 V)
/-- The contents after stage `G1` (and all before it), from contents `V`. -/
def afterG1 (V : Valuation τ sig (Elt F)) : Valuation τ sig (Elt F) := after G1 (afterL0 V)
/-- The contents after stage `St0` (and all before it), from contents `V`. -/
def afterSt0 (V : Valuation τ sig (Elt F)) : Valuation τ sig (Elt F) := after St0 (afterG1 V)
/-- The contents after stage `A0` (and all before it), from contents `V`. -/
def afterA0 (V : Valuation τ sig (Elt F)) : Valuation τ sig (Elt F) := after A0 (afterSt0 V)
/-- The contents after stage `L1` (and all before it), from contents `V`. -/
def afterL1 (V : Valuation τ sig (Elt F)) : Valuation τ sig (Elt F) := after L1 (afterA0 V)
/-- The contents after stage `G2` (and all before it), from contents `V`. -/
def afterG2 (V : Valuation τ sig (Elt F)) : Valuation τ sig (Elt F) := after G2 (afterL1 V)
/-- The contents after stage `St1` (and all before it), from contents `V`. -/
def afterSt1 (V : Valuation τ sig (Elt F)) : Valuation τ sig (Elt F) := after St1 (afterG2 V)
/-- The contents after stage `A1` (and all before it), from contents `V`. -/
def afterA1 (V : Valuation τ sig (Elt F)) : Valuation τ sig (Elt F) := after A1 (afterSt1 V)
/-- The contents after stage `L2` (and all before it), from contents `V`. -/
def afterL2 (V : Valuation τ sig (Elt F)) : Valuation τ sig (Elt F) := after L2 (afterA1 V)
/-- The contents after stage `G3` (and all before it), from contents `V`. -/
def afterG3 (V : Valuation τ sig (Elt F)) : Valuation τ sig (Elt F) := after G3 (afterL2 V)
/-- The contents after stage `St2` (and all before it), from contents `V`. -/
def afterSt2 (V : Valuation τ sig (Elt F)) : Valuation τ sig (Elt F) := after St2 (afterG3 V)
/-- The contents after stage `A2` (and all before it), from contents `V`. -/
def afterA2 (V : Valuation τ sig (Elt F)) : Valuation τ sig (Elt F) := after A2 (afterSt2 V)
/-- The contents after stage `Pl` (and all before it), from contents `V`. -/
def afterPl (V : Valuation τ sig (Elt F)) : Valuation τ sig (Elt F) := after Pl (afterA2 V)
/-- The contents after stage `Hd` (and all before it), from contents `V`. -/
def afterHd (V : Valuation τ sig (Elt F)) : Valuation τ sig (Elt F) := after Hd (afterPl V)

/-- The contents after the whole line are the contents after its last stage. -/
theorem after_ops_stages (V : Valuation τ sig (Elt F)) : after ops V = afterHd V := by
  rw [ops_stages]
  simp only [after_append]
  rfl

/-! ## What each stage finds in the buffers it reads -/

theorem kept_L0_main_arg0 (V : Valuation τ sig (Elt F)) : afterG0 V (Proc.devRef .tc main_arg0) = V (Proc.devRef .tc main_arg0) :=
  G0_keep _ main_arg0 (by decide)
theorem kept_L0_main_arg4 (V : Valuation τ sig (Elt F)) : afterG0 V (Proc.devRef .tc main_arg4) = V (Proc.devRef .tc main_arg4) :=
  G0_keep _ main_arg4 (by decide)
theorem kept_G1_main_v26 (V : Valuation τ sig (Elt F)) : afterL0 V (Proc.devRef .tc main_v26) = afterG0 V (Proc.devRef .tc main_v26) :=
  L0_keep _ main_v26 (by decide)
theorem kept_G1_main_v6 (V : Valuation τ sig (Elt F)) : afterL0 V (Proc.devRef .tc main_v6) = afterG0 V (Proc.devRef .tc main_v6) :=
  L0_keep _ main_v6 (by decide)
theorem kept_G1_main_v3 (V : Valuation τ sig (Elt F)) : afterL0 V (Proc.devRef .tc main_v3) = afterG0 V (Proc.devRef .tc main_v3) :=
  L0_keep _ main_v3 (by decide)
theorem kept_G1_main_v29 (V : Valuation τ sig (Elt F)) : afterL0 V (Proc.devRef .tc main_v29) = afterG0 V (Proc.devRef .tc main_v29) :=
  L0_keep _ main_v29 (by decide)
theorem kept_G1_main_arg6 (V : Valuation τ sig (Elt F)) : afterL0 V (Proc.devRef .tc main_arg6) = V (Proc.devRef .tc main_arg6) :=
  (L0_keep _ main_arg6 (by decide)).trans (G0_keep _ main_arg6 (by decide))
theorem kept_A0_main_v54 (V : Valuation τ sig (Elt F)) : afterSt0 V (Proc.devRef .tc main_v54) = afterG1 V (Proc.devRef .tc main_v54) :=
  St0_keep _ main_v54 (by decide)
theorem kept_A0_main_arg7 (V : Valuation τ sig (Elt F)) : afterSt0 V (Proc.devRef .tc main_arg7) = V (Proc.devRef .tc main_arg7) :=
  (St0_keep _ main_arg7 (by decide)).trans ((G1_keep _ main_arg7 (by decide)).trans ((L0_keep _ main_arg7 (by decide)).trans (G0_keep _ main_arg7 (by decide))))
theorem kept_A0_main_arg8 (V : Valuation τ sig (Elt F)) : afterSt0 V (Proc.devRef .tc main_arg8) = V (Proc.devRef .tc main_arg8) :=
  (St0_keep _ main_arg8 (by decide)).trans ((G1_keep _ main_arg8 (by decide)).trans ((L0_keep _ main_arg8 (by decide)).trans (G0_keep _ main_arg8 (by decide))))
theorem kept_L1_main_v31 (V : Valuation τ sig (Elt F)) : afterA0 V (Proc.devRef .tc main_v31) = afterG0 V (Proc.devRef .tc main_v31) :=
  (A0_keep _ main_v31 (by decide)).trans ((St0_keep _ main_v31 (by decide)).trans ((G1_keep _ main_v31 (by decide)).trans (L0_keep _ main_v31 (by decide))))
theorem kept_G2_main_v26 (V : Valuation τ sig (Elt F)) : afterL1 V (Proc.devRef .tc main_v26) = afterG0 V (Proc.devRef .tc main_v26) :=
  (L1_keep _ main_v26 (by decide)).trans ((A0_keep _ main_v26 (by decide)).trans ((St0_keep _ main_v26 (by decide)).trans ((G1_keep _ main_v26 (by decide)).trans (L0_keep _ main_v26 (by decide)))))
theorem kept_G2_main_v6 (V : Valuation τ sig (Elt F)) : afterL1 V (Proc.devRef .tc main_v6) = afterG0 V (Proc.devRef .tc main_v6) :=
  (L1_keep _ main_v6 (by decide)).trans ((A0_keep _ main_v6 (by decide)).trans ((St0_keep _ main_v6 (by decide)).trans ((G1_keep _ main_v6 (by decide)).trans (L0_keep _ main_v6 (by decide)))))
theorem kept_G2_main_v3 (V : Valuation τ sig (Elt F)) : afterL1 V (Proc.devRef .tc main_v3) = afterG0 V (Proc.devRef .tc main_v3) :=
  (L1_keep _ main_v3 (by decide)).trans ((A0_keep _ main_v3 (by decide)).trans ((St0_keep _ main_v3 (by decide)).trans ((G1_keep _ main_v3 (by decide)).trans (L0_keep _ main_v3 (by decide)))))
theorem kept_G2_main_v29 (V : Valuation τ sig (Elt F)) : afterL1 V (Proc.devRef .tc main_v29) = afterG0 V (Proc.devRef .tc main_v29) :=
  (L1_keep _ main_v29 (by decide)).trans ((A0_keep _ main_v29 (by decide)).trans ((St0_keep _ main_v29 (by decide)).trans ((G1_keep _ main_v29 (by decide)).trans (L0_keep _ main_v29 (by decide)))))
theorem kept_G2_main_arg6 (V : Valuation τ sig (Elt F)) : afterL1 V (Proc.devRef .tc main_arg6) = V (Proc.devRef .tc main_arg6) :=
  (L1_keep _ main_arg6 (by decide)).trans ((A0_keep _ main_arg6 (by decide)).trans ((St0_keep _ main_arg6 (by decide)).trans ((G1_keep _ main_arg6 (by decide)).trans ((L0_keep _ main_arg6 (by decide)).trans (G0_keep _ main_arg6 (by decide))))))
theorem kept_A1_main_v99 (V : Valuation τ sig (Elt F)) : afterSt1 V (Proc.devRef .tc main_v99) = afterG2 V (Proc.devRef .tc main_v99) :=
  St1_keep _ main_v99 (by decide)
theorem kept_A1_main_arg7 (V : Valuation τ sig (Elt F)) : afterSt1 V (Proc.devRef .tc main_arg7) = V (Proc.devRef .tc main_arg7) :=
  (St1_keep _ main_arg7 (by decide)).trans ((G2_keep _ main_arg7 (by decide)).trans ((L1_keep _ main_arg7 (by decide)).trans ((A0_keep _ main_arg7 (by decide)).trans ((St0_keep _ main_arg7 (by decide)).trans ((G1_keep _ main_arg7 (by decide)).trans ((L0_keep _ main_arg7 (by decide)).trans (G0_keep _ main_arg7 (by decide))))))))
theorem kept_A1_main_arg8 (V : Valuation τ sig (Elt F)) : afterSt1 V (Proc.devRef .tc main_arg8) = V (Proc.devRef .tc main_arg8) :=
  (St1_keep _ main_arg8 (by decide)).trans ((G2_keep _ main_arg8 (by decide)).trans ((L1_keep _ main_arg8 (by decide)).trans ((A0_keep _ main_arg8 (by decide)).trans ((St0_keep _ main_arg8 (by decide)).trans ((G1_keep _ main_arg8 (by decide)).trans ((L0_keep _ main_arg8 (by decide)).trans (G0_keep _ main_arg8 (by decide))))))))
theorem kept_L2_main_v33 (V : Valuation τ sig (Elt F)) : afterA1 V (Proc.devRef .tc main_v33) = afterG0 V (Proc.devRef .tc main_v33) :=
  (A1_keep _ main_v33 (by decide)).trans ((St1_keep _ main_v33 (by decide)).trans ((G2_keep _ main_v33 (by decide)).trans ((L1_keep _ main_v33 (by decide)).trans ((A0_keep _ main_v33 (by decide)).trans ((St0_keep _ main_v33 (by decide)).trans ((G1_keep _ main_v33 (by decide)).trans (L0_keep _ main_v33 (by decide))))))))
theorem kept_G3_main_v26 (V : Valuation τ sig (Elt F)) : afterL2 V (Proc.devRef .tc main_v26) = afterG0 V (Proc.devRef .tc main_v26) :=
  (L2_keep _ main_v26 (by decide)).trans ((A1_keep _ main_v26 (by decide)).trans ((St1_keep _ main_v26 (by decide)).trans ((G2_keep _ main_v26 (by decide)).trans ((L1_keep _ main_v26 (by decide)).trans ((A0_keep _ main_v26 (by decide)).trans ((St0_keep _ main_v26 (by decide)).trans ((G1_keep _ main_v26 (by decide)).trans (L0_keep _ main_v26 (by decide)))))))))
theorem kept_G3_main_v6 (V : Valuation τ sig (Elt F)) : afterL2 V (Proc.devRef .tc main_v6) = afterG0 V (Proc.devRef .tc main_v6) :=
  (L2_keep _ main_v6 (by decide)).trans ((A1_keep _ main_v6 (by decide)).trans ((St1_keep _ main_v6 (by decide)).trans ((G2_keep _ main_v6 (by decide)).trans ((L1_keep _ main_v6 (by decide)).trans ((A0_keep _ main_v6 (by decide)).trans ((St0_keep _ main_v6 (by decide)).trans ((G1_keep _ main_v6 (by decide)).trans (L0_keep _ main_v6 (by decide)))))))))
theorem kept_G3_main_v3 (V : Valuation τ sig (Elt F)) : afterL2 V (Proc.devRef .tc main_v3) = afterG0 V (Proc.devRef .tc main_v3) :=
  (L2_keep _ main_v3 (by decide)).trans ((A1_keep _ main_v3 (by decide)).trans ((St1_keep _ main_v3 (by decide)).trans ((G2_keep _ main_v3 (by decide)).trans ((L1_keep _ main_v3 (by decide)).trans ((A0_keep _ main_v3 (by decide)).trans ((St0_keep _ main_v3 (by decide)).trans ((G1_keep _ main_v3 (by decide)).trans (L0_keep _ main_v3 (by decide)))))))))
theorem kept_G3_main_v29 (V : Valuation τ sig (Elt F)) : afterL2 V (Proc.devRef .tc main_v29) = afterG0 V (Proc.devRef .tc main_v29) :=
  (L2_keep _ main_v29 (by decide)).trans ((A1_keep _ main_v29 (by decide)).trans ((St1_keep _ main_v29 (by decide)).trans ((G2_keep _ main_v29 (by decide)).trans ((L1_keep _ main_v29 (by decide)).trans ((A0_keep _ main_v29 (by decide)).trans ((St0_keep _ main_v29 (by decide)).trans ((G1_keep _ main_v29 (by decide)).trans (L0_keep _ main_v29 (by decide)))))))))
theorem kept_G3_main_arg6 (V : Valuation τ sig (Elt F)) : afterL2 V (Proc.devRef .tc main_arg6) = V (Proc.devRef .tc main_arg6) :=
  (L2_keep _ main_arg6 (by decide)).trans ((A1_keep _ main_arg6 (by decide)).trans ((St1_keep _ main_arg6 (by decide)).trans ((G2_keep _ main_arg6 (by decide)).trans ((L1_keep _ main_arg6 (by decide)).trans ((A0_keep _ main_arg6 (by decide)).trans ((St0_keep _ main_arg6 (by decide)).trans ((G1_keep _ main_arg6 (by decide)).trans ((L0_keep _ main_arg6 (by decide)).trans (G0_keep _ main_arg6 (by decide))))))))))
theorem kept_A2_main_v144 (V : Valuation τ sig (Elt F)) : afterSt2 V (Proc.devRef .tc main_v144) = afterG3 V (Proc.devRef .tc main_v144) :=
  St2_keep _ main_v144 (by decide)
theorem kept_A2_main_arg7 (V : Valuation τ sig (Elt F)) : afterSt2 V (Proc.devRef .tc main_arg7) = V (Proc.devRef .tc main_arg7) :=
  (St2_keep _ main_arg7 (by decide)).trans ((G3_keep _ main_arg7 (by decide)).trans ((L2_keep _ main_arg7 (by decide)).trans ((A1_keep _ main_arg7 (by decide)).trans ((St1_keep _ main_arg7 (by decide)).trans ((G2_keep _ main_arg7 (by decide)).trans ((L1_keep _ main_arg7 (by decide)).trans ((A0_keep _ main_arg7 (by decide)).trans ((St0_keep _ main_arg7 (by decide)).trans ((G1_keep _ main_arg7 (by decide)).trans ((L0_keep _ main_arg7 (by decide)).trans (G0_keep _ main_arg7 (by decide))))))))))))
theorem kept_A2_main_arg8 (V : Valuation τ sig (Elt F)) : afterSt2 V (Proc.devRef .tc main_arg8) = V (Proc.devRef .tc main_arg8) :=
  (St2_keep _ main_arg8 (by decide)).trans ((G3_keep _ main_arg8 (by decide)).trans ((L2_keep _ main_arg8 (by decide)).trans ((A1_keep _ main_arg8 (by decide)).trans ((St1_keep _ main_arg8 (by decide)).trans ((G2_keep _ main_arg8 (by decide)).trans ((L1_keep _ main_arg8 (by decide)).trans ((A0_keep _ main_arg8 (by decide)).trans ((St0_keep _ main_arg8 (by decide)).trans ((G1_keep _ main_arg8 (by decide)).trans ((L0_keep _ main_arg8 (by decide)).trans (G0_keep _ main_arg8 (by decide))))))))))))
theorem kept_Pl_main_arg3 (V : Valuation τ sig (Elt F)) : afterA2 V (Proc.devRef .tc main_arg3) = V (Proc.devRef .tc main_arg3) :=
  (A2_keep _ main_arg3 (by decide)).trans ((St2_keep _ main_arg3 (by decide)).trans ((G3_keep _ main_arg3 (by decide)).trans ((L2_keep _ main_arg3 (by decide)).trans ((A1_keep _ main_arg3 (by decide)).trans ((St1_keep _ main_arg3 (by decide)).trans ((G2_keep _ main_arg3 (by decide)).trans ((L1_keep _ main_arg3 (by decide)).trans ((A0_keep _ main_arg3 (by decide)).trans ((St0_keep _ main_arg3 (by decide)).trans ((G1_keep _ main_arg3 (by decide)).trans ((L0_keep _ main_arg3 (by decide)).trans (G0_keep _ main_arg3 (by decide)))))))))))))
theorem kept_Hd_main_arg9 (V : Valuation τ sig (Elt F)) : afterPl V (Proc.devRef .tc main_arg9) = V (Proc.devRef .tc main_arg9) :=
  (Pl_keep _ main_arg9 (by decide)).trans ((A2_keep _ main_arg9 (by decide)).trans ((St2_keep _ main_arg9 (by decide)).trans ((G3_keep _ main_arg9 (by decide)).trans ((L2_keep _ main_arg9 (by decide)).trans ((A1_keep _ main_arg9 (by decide)).trans ((St1_keep _ main_arg9 (by decide)).trans ((G2_keep _ main_arg9 (by decide)).trans ((L1_keep _ main_arg9 (by decide)).trans ((A0_keep _ main_arg9 (by decide)).trans ((St0_keep _ main_arg9 (by decide)).trans ((G1_keep _ main_arg9 (by decide)).trans ((L0_keep _ main_arg9 (by decide)).trans (G0_keep _ main_arg9 (by decide))))))))))))))
theorem kept_Hd_main_arg10 (V : Valuation τ sig (Elt F)) : afterPl V (Proc.devRef .tc main_arg10) = V (Proc.devRef .tc main_arg10) :=
  (Pl_keep _ main_arg10 (by decide)).trans ((A2_keep _ main_arg10 (by decide)).trans ((St2_keep _ main_arg10 (by decide)).trans ((G3_keep _ main_arg10 (by decide)).trans ((L2_keep _ main_arg10 (by decide)).trans ((A1_keep _ main_arg10 (by decide)).trans ((St1_keep _ main_arg10 (by decide)).trans ((G2_keep _ main_arg10 (by decide)).trans ((L1_keep _ main_arg10 (by decide)).trans ((A0_keep _ main_arg10 (by decide)).trans ((St0_keep _ main_arg10 (by decide)).trans ((G1_keep _ main_arg10 (by decide)).trans ((L0_keep _ main_arg10 (by decide)).trans (G0_keep _ main_arg10 (by decide))))))))))))))

/-! ## What the end finds in each stage's output -/

theorem last_main_v3 (V : Valuation τ sig (Elt F)) : afterHd V (Proc.devRef .tc main_v3) = afterG0 V (Proc.devRef .tc main_v3) :=
  (Hd_keep _ main_v3 (by decide)).trans ((Pl_keep _ main_v3 (by decide)).trans ((A2_keep _ main_v3 (by decide)).trans ((St2_keep _ main_v3 (by decide)).trans ((G3_keep _ main_v3 (by decide)).trans ((L2_keep _ main_v3 (by decide)).trans ((A1_keep _ main_v3 (by decide)).trans ((St1_keep _ main_v3 (by decide)).trans ((G2_keep _ main_v3 (by decide)).trans ((L1_keep _ main_v3 (by decide)).trans ((A0_keep _ main_v3 (by decide)).trans ((St0_keep _ main_v3 (by decide)).trans ((G1_keep _ main_v3 (by decide)).trans (L0_keep _ main_v3 (by decide))))))))))))))
theorem last_main_v6 (V : Valuation τ sig (Elt F)) : afterHd V (Proc.devRef .tc main_v6) = afterG0 V (Proc.devRef .tc main_v6) :=
  (Hd_keep _ main_v6 (by decide)).trans ((Pl_keep _ main_v6 (by decide)).trans ((A2_keep _ main_v6 (by decide)).trans ((St2_keep _ main_v6 (by decide)).trans ((G3_keep _ main_v6 (by decide)).trans ((L2_keep _ main_v6 (by decide)).trans ((A1_keep _ main_v6 (by decide)).trans ((St1_keep _ main_v6 (by decide)).trans ((G2_keep _ main_v6 (by decide)).trans ((L1_keep _ main_v6 (by decide)).trans ((A0_keep _ main_v6 (by decide)).trans ((St0_keep _ main_v6 (by decide)).trans ((G1_keep _ main_v6 (by decide)).trans (L0_keep _ main_v6 (by decide))))))))))))))
theorem last_main_v26 (V : Valuation τ sig (Elt F)) : afterHd V (Proc.devRef .tc main_v26) = afterG0 V (Proc.devRef .tc main_v26) :=
  (Hd_keep _ main_v26 (by decide)).trans ((Pl_keep _ main_v26 (by decide)).trans ((A2_keep _ main_v26 (by decide)).trans ((St2_keep _ main_v26 (by decide)).trans ((G3_keep _ main_v26 (by decide)).trans ((L2_keep _ main_v26 (by decide)).trans ((A1_keep _ main_v26 (by decide)).trans ((St1_keep _ main_v26 (by decide)).trans ((G2_keep _ main_v26 (by decide)).trans ((L1_keep _ main_v26 (by decide)).trans ((A0_keep _ main_v26 (by decide)).trans ((St0_keep _ main_v26 (by decide)).trans ((G1_keep _ main_v26 (by decide)).trans (L0_keep _ main_v26 (by decide))))))))))))))
theorem last_main_v29 (V : Valuation τ sig (Elt F)) : afterHd V (Proc.devRef .tc main_v29) = afterG0 V (Proc.devRef .tc main_v29) :=
  (Hd_keep _ main_v29 (by decide)).trans ((Pl_keep _ main_v29 (by decide)).trans ((A2_keep _ main_v29 (by decide)).trans ((St2_keep _ main_v29 (by decide)).trans ((G3_keep _ main_v29 (by decide)).trans ((L2_keep _ main_v29 (by decide)).trans ((A1_keep _ main_v29 (by decide)).trans ((St1_keep _ main_v29 (by decide)).trans ((G2_keep _ main_v29 (by decide)).trans ((L1_keep _ main_v29 (by decide)).trans ((A0_keep _ main_v29 (by decide)).trans ((St0_keep _ main_v29 (by decide)).trans ((G1_keep _ main_v29 (by decide)).trans (L0_keep _ main_v29 (by decide))))))))))))))
theorem last_main_v31 (V : Valuation τ sig (Elt F)) : afterHd V (Proc.devRef .tc main_v31) = afterG0 V (Proc.devRef .tc main_v31) :=
  (Hd_keep _ main_v31 (by decide)).trans ((Pl_keep _ main_v31 (by decide)).trans ((A2_keep _ main_v31 (by decide)).trans ((St2_keep _ main_v31 (by decide)).trans ((G3_keep _ main_v31 (by decide)).trans ((L2_keep _ main_v31 (by decide)).trans ((A1_keep _ main_v31 (by decide)).trans ((St1_keep _ main_v31 (by decide)).trans ((G2_keep _ main_v31 (by decide)).trans ((L1_keep _ main_v31 (by decide)).trans ((A0_keep _ main_v31 (by decide)).trans ((St0_keep _ main_v31 (by decide)).trans ((G1_keep _ main_v31 (by decide)).trans (L0_keep _ main_v31 (by decide))))))))))))))
theorem last_main_v33 (V : Valuation τ sig (Elt F)) : afterHd V (Proc.devRef .tc main_v33) = afterG0 V (Proc.devRef .tc main_v33) :=
  (Hd_keep _ main_v33 (by decide)).trans ((Pl_keep _ main_v33 (by decide)).trans ((A2_keep _ main_v33 (by decide)).trans ((St2_keep _ main_v33 (by decide)).trans ((G3_keep _ main_v33 (by decide)).trans ((L2_keep _ main_v33 (by decide)).trans ((A1_keep _ main_v33 (by decide)).trans ((St1_keep _ main_v33 (by decide)).trans ((G2_keep _ main_v33 (by decide)).trans ((L1_keep _ main_v33 (by decide)).trans ((A0_keep _ main_v33 (by decide)).trans ((St0_keep _ main_v33 (by decide)).trans ((G1_keep _ main_v33 (by decide)).trans (L0_keep _ main_v33 (by decide))))))))))))))
theorem last_main_v34 (V : Valuation τ sig (Elt F)) : afterHd V (Proc.devRef .tc main_v34) = afterL0 V (Proc.devRef .tc main_v34) :=
  (Hd_keep _ main_v34 (by decide)).trans ((Pl_keep _ main_v34 (by decide)).trans ((A2_keep _ main_v34 (by decide)).trans ((St2_keep _ main_v34 (by decide)).trans ((G3_keep _ main_v34 (by decide)).trans ((L2_keep _ main_v34 (by decide)).trans ((A1_keep _ main_v34 (by decide)).trans ((St1_keep _ main_v34 (by decide)).trans ((G2_keep _ main_v34 (by decide)).trans ((L1_keep _ main_v34 (by decide)).trans ((A0_keep _ main_v34 (by decide)).trans ((St0_keep _ main_v34 (by decide)).trans (G1_keep _ main_v34 (by decide)))))))))))))
theorem last_main_v54 (V : Valuation τ sig (Elt F)) : afterHd V (Proc.devRef .tc main_v54) = afterG1 V (Proc.devRef .tc main_v54) :=
  (Hd_keep _ main_v54 (by decide)).trans ((Pl_keep _ main_v54 (by decide)).trans ((A2_keep _ main_v54 (by decide)).trans ((St2_keep _ main_v54 (by decide)).trans ((G3_keep _ main_v54 (by decide)).trans ((L2_keep _ main_v54 (by decide)).trans ((A1_keep _ main_v54 (by decide)).trans ((St1_keep _ main_v54 (by decide)).trans ((G2_keep _ main_v54 (by decide)).trans ((L1_keep _ main_v54 (by decide)).trans ((A0_keep _ main_v54 (by decide)).trans (St0_keep _ main_v54 (by decide))))))))))))
theorem last_main_v57 (V : Valuation τ sig (Elt F)) : afterHd V (Proc.devRef .tc main_v57) = afterSt0 V (Proc.devRef .tc main_v57) :=
  (Hd_keep _ main_v57 (by decide)).trans ((Pl_keep _ main_v57 (by decide)).trans ((A2_keep _ main_v57 (by decide)).trans ((St2_keep _ main_v57 (by decide)).trans ((G3_keep _ main_v57 (by decide)).trans ((L2_keep _ main_v57 (by decide)).trans ((A1_keep _ main_v57 (by decide)).trans ((St1_keep _ main_v57 (by decide)).trans ((G2_keep _ main_v57 (by decide)).trans ((L1_keep _ main_v57 (by decide)).trans (A0_keep _ main_v57 (by decide)))))))))))
theorem last_main_v58 (V : Valuation τ sig (Elt F)) : afterHd V (Proc.devRef .tc main_v58) = afterSt0 V (Proc.devRef .tc main_v58) :=
  (Hd_keep _ main_v58 (by decide)).trans ((Pl_keep _ main_v58 (by decide)).trans ((A2_keep _ main_v58 (by decide)).trans ((St2_keep _ main_v58 (by decide)).trans ((G3_keep _ main_v58 (by decide)).trans ((L2_keep _ main_v58 (by decide)).trans ((A1_keep _ main_v58 (by decide)).trans ((St1_keep _ main_v58 (by decide)).trans ((G2_keep _ main_v58 (by decide)).trans ((L1_keep _ main_v58 (by decide)).trans (A0_keep _ main_v58 (by decide)))))))))))
theorem last_main_v78 (V : Valuation τ sig (Elt F)) : afterHd V (Proc.devRef .tc main_v78) = afterA0 V (Proc.devRef .tc main_v78) :=
  (Hd_keep _ main_v78 (by decide)).trans ((Pl_keep _ main_v78 (by decide)).trans ((A2_keep _ main_v78 (by decide)).trans ((St2_keep _ main_v78 (by decide)).trans ((G3_keep _ main_v78 (by decide)).trans ((L2_keep _ main_v78 (by decide)).trans ((A1_keep _ main_v78 (by decide)).trans ((St1_keep _ main_v78 (by decide)).trans ((G2_keep _ main_v78 (by decide)).trans (L1_keep _ main_v78 (by decide))))))))))
theorem last_main_v79 (V : Valuation τ sig (Elt F)) : afterHd V (Proc.devRef .tc main_v79) = afterL1 V (Proc.devRef .tc main_v79) :=
  (Hd_keep _ main_v79 (by decide)).trans ((Pl_keep _ main_v79 (by decide)).trans ((A2_keep _ main_v79 (by decide)).trans ((St2_keep _ main_v79 (by decide)).trans ((G3_keep _ main_v79 (by decide)).trans ((L2_keep _ main_v79 (by decide)).trans ((A1_keep _ main_v79 (by decide)).trans ((St1_keep _ main_v79 (by decide)).trans (G2_keep _ main_v79 (by decide)))))))))
theorem last_main_v99 (V : Valuation τ sig (Elt F)) : afterHd V (Proc.devRef .tc main_v99) = afterG2 V (Proc.devRef .tc main_v99) :=
  (Hd_keep _ main_v99 (by decide)).trans ((Pl_keep _ main_v99 (by decide)).trans ((A2_keep _ main_v99 (by decide)).trans ((St2_keep _ main_v99 (by decide)).trans ((G3_keep _ main_v99 (by decide)).trans ((L2_keep _ main_v99 (by decide)).trans ((A1_keep _ main_v99 (by decide)).trans (St1_keep _ main_v99 (by decide))))))))
theorem last_main_v102 (V : Valuation τ sig (Elt F)) : afterHd V (Proc.devRef .tc main_v102) = afterSt1 V (Proc.devRef .tc main_v102) :=
  (Hd_keep _ main_v102 (by decide)).trans ((Pl_keep _ main_v102 (by decide)).trans ((A2_keep _ main_v102 (by decide)).trans ((St2_keep _ main_v102 (by decide)).trans ((G3_keep _ main_v102 (by decide)).trans ((L2_keep _ main_v102 (by decide)).trans (A1_keep _ main_v102 (by decide)))))))
theorem last_main_v103 (V : Valuation τ sig (Elt F)) : afterHd V (Proc.devRef .tc main_v103) = afterSt1 V (Proc.devRef .tc main_v103) :=
  (Hd_keep _ main_v103 (by decide)).trans ((Pl_keep _ main_v103 (by decide)).trans ((A2_keep _ main_v103 (by decide)).trans ((St2_keep _ main_v103 (by decide)).trans ((G3_keep _ main_v103 (by decide)).trans ((L2_keep _ main_v103 (by decide)).trans (A1_keep _ main_v103 (by decide)))))))
theorem last_main_v123 (V : Valuation τ sig (Elt F)) : afterHd V (Proc.devRef .tc main_v123) = afterA1 V (Proc.devRef .tc main_v123) :=
  (Hd_keep _ main_v123 (by decide)).trans ((Pl_keep _ main_v123 (by decide)).trans ((A2_keep _ main_v123 (by decide)).trans ((St2_keep _ main_v123 (by decide)).trans ((G3_keep _ main_v123 (by decide)).trans (L2_keep _ main_v123 (by decide))))))
theorem last_main_v124 (V : Valuation τ sig (Elt F)) : afterHd V (Proc.devRef .tc main_v124) = afterL2 V (Proc.devRef .tc main_v124) :=
  (Hd_keep _ main_v124 (by decide)).trans ((Pl_keep _ main_v124 (by decide)).trans ((A2_keep _ main_v124 (by decide)).trans ((St2_keep _ main_v124 (by decide)).trans (G3_keep _ main_v124 (by decide)))))
theorem last_main_v144 (V : Valuation τ sig (Elt F)) : afterHd V (Proc.devRef .tc main_v144) = afterG3 V (Proc.devRef .tc main_v144) :=
  (Hd_keep _ main_v144 (by decide)).trans ((Pl_keep _ main_v144 (by decide)).trans ((A2_keep _ main_v144 (by decide)).trans (St2_keep _ main_v144 (by decide))))
theorem last_main_v147 (V : Valuation τ sig (Elt F)) : afterHd V (Proc.devRef .tc main_v147) = afterSt2 V (Proc.devRef .tc main_v147) :=
  (Hd_keep _ main_v147 (by decide)).trans ((Pl_keep _ main_v147 (by decide)).trans (A2_keep _ main_v147 (by decide)))
theorem last_main_v148 (V : Valuation τ sig (Elt F)) : afterHd V (Proc.devRef .tc main_v148) = afterSt2 V (Proc.devRef .tc main_v148) :=
  (Hd_keep _ main_v148 (by decide)).trans ((Pl_keep _ main_v148 (by decide)).trans (A2_keep _ main_v148 (by decide)))
theorem last_main_v168 (V : Valuation τ sig (Elt F)) : afterHd V (Proc.devRef .tc main_v168) = afterA2 V (Proc.devRef .tc main_v168) :=
  (Hd_keep _ main_v168 (by decide)).trans (Pl_keep _ main_v168 (by decide))
theorem last_main_v171 (V : Valuation τ sig (Elt F)) : afterHd V (Proc.devRef .tc main_v171) = afterPl V (Proc.devRef .tc main_v171) :=
  Hd_keep _ main_v171 (by decide)
theorem last_main_v175 (V : Valuation τ sig (Elt F)) : afterHd V (Proc.devRef .tc main_v175) = afterPl V (Proc.devRef .tc main_v175) :=
  Hd_keep _ main_v175 (by decide)

end Cert.ReferenceIdeal.RefRun

end
-- ==== Proof.Bridge.Agree.lean ====
/-
  The host operations between the kernel regions are the same operations, in the same order, as the corresponding operations of the
  reference: from contents that agree on what a stretch reads, the stretch and its counterpart leave equal arrays — the edge lists with
  the self loops, the symmetric normalisation, the reciprocal degrees, the two inner weight matrices; per layer the aggregated and
  shifted features; the pooled sums and the graph sizes.
-/
import proofs.«177080_j35828617183700_2_alg».proof.Proof.Gen.KernelIdeal.Launch
import proofs.«177080_j35828617183700_2_alg».proof.Proof.RefStages
import Idealize.ShloMosaic.Lib.StableHlo.Run
import Idealize.ShloMosaic.PureOps.Ideal
import Idealize.ShloMosaic.Lib.Pipeline.Frame

set_option maxRecDepth 1000000

noncomputable section

namespace Cert.Bridge

open Idealize.ShloMosaic Idealize.ShloMosaic.TcCoe

variable (WK : Valuation Cert.KernelIdeal.τ Cert.KernelIdeal.sig (Elt Ideal)) (WR : Valuation Cert.ReferenceIdeal.τ Cert.ReferenceIdeal.sig (Elt Ideal))

/-! ### Before the first layer: the edge lists first (two concatenations with the self loops), then everything computed from them -/

set_option maxHeartbeats 4000000 in
theorem agree_lists_dst (harg1 : (WK (Proc.devRef .tc Cert.KernelIdeal.main_arg1) : IVec Cert.KernelIdeal.S2x3200000 32) = WR (Proc.devRef .tc Cert.ReferenceIdeal.main_arg1)) :
    (StableHlo.after (Cert.KernelIdeal.Gen.hostOps0.take 7) WK (Proc.devRef .tc Cert.KernelIdeal.main_v3) : IVec Cert.KernelIdeal.S3300000 32) = StableHlo.after (Cert.ReferenceIdeal.RefRun.G0.take 7) WR (Proc.devRef .tc Cert.ReferenceIdeal.main_v3) := by
  dsimp only [Cert.KernelIdeal.Gen.hostOps0, Cert.ReferenceIdeal.RefRun.G0, List.take]
  after_results
  rw [harg1]
  rfl

set_option maxHeartbeats 4000000 in
theorem agree_lists_src (harg1 : (WK (Proc.devRef .tc Cert.KernelIdeal.main_arg1) : IVec Cert.KernelIdeal.S2x3200000 32) = WR (Proc.devRef .tc Cert.ReferenceIdeal.main_arg1)) :
    (StableHlo.after (Cert.KernelIdeal.Gen.hostOps0.take 7) WK (Proc.devRef .tc Cert.KernelIdeal.main_v6) : IVec Cert.KernelIdeal.S3300000 32) = StableHlo.after (Cert.ReferenceIdeal.RefRun.G0.take 7) WR (Proc.devRef .tc Cert.ReferenceIdeal.main_v6) := by
  dsimp only [Cert.KernelIdeal.Gen.hostOps0, Cert.ReferenceIdeal.RefRun.G0, List.take]
  after_results
  rw [harg1]
  rfl

set_option maxHeartbeats 4000000 in
theorem agree_lists_w (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.take 7) WK (Proc.devRef .tc Cert.KernelIdeal.main_arg5) : Cert.KernelIdeal.S2x32x32.Idx → EReal) = StableHlo.after (Cert.ReferenceIdeal.RefRun.G0.take 7) WR (Proc.devRef .tc Cert.ReferenceIdeal.main_arg5) := by
  dsimp only [Cert.KernelIdeal.Gen.hostOps0, Cert.ReferenceIdeal.RefRun.G0, List.take]
  after_results
  exact harg5

set_option maxHeartbeats 4000000 in
theorem agree_rest_dst (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.drop 7) WK (Proc.devRef .tc Cert.KernelIdeal.main_v3) : IVec Cert.KernelIdeal.S3300000 32) = StableHlo.after (Cert.ReferenceIdeal.RefRun.G0.drop 7) WR (Proc.devRef .tc Cert.ReferenceIdeal.main_v3) := by
  dsimp only [Cert.KernelIdeal.Gen.hostOps0, Cert.ReferenceIdeal.RefRun.G0, List.drop]
  after_results_simp
  exact hdst

set_option maxHeartbeats 4000000 in
theorem agree_rest_src (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.drop 7) WK (Proc.devRef .tc Cert.KernelIdeal.main_v6) : IVec Cert.KernelIdeal.S3300000 32) = StableHlo.after (Cert.ReferenceIdeal.RefRun.G0.drop 7) WR (Proc.devRef .tc Cert.ReferenceIdeal.main_v6) := by
  dsimp only [Cert.KernelIdeal.Gen.hostOps0, Cert.ReferenceIdeal.RefRun.G0, List.drop]
  after_results_simp
  exact hsrc

set_option maxHeartbeats 4000000 in
theorem agree_rest_norm (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.drop 7) WK (Proc.devRef .tc Cert.KernelIdeal.main_v26) : Cert.KernelIdeal.S3300000.Idx → EReal) = StableHlo.after (Cert.ReferenceIdeal.RefRun.G0.drop 7) WR (Proc.devRef .tc Cert.ReferenceIdeal.main_v26) := by
  dsimp only [Cert.KernelIdeal.Gen.hostOps0, Cert.ReferenceIdeal.RefRun.G0, List.drop]
  after_results_simp
  rw [hdst, hsrc]
  rfl

set_option maxHeartbeats 4000000 in
theorem agree_rest_w1 (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.drop 7) WK (Proc.devRef .tc Cert.KernelIdeal.main_v30) : Cert.KernelIdeal.S32x32.Idx → EReal) = StableHlo.after (Cert.ReferenceIdeal.RefRun.G0.drop 7) WR (Proc.devRef .tc Cert.ReferenceIdeal.main_v31) := by
  dsimp only [Cert.KernelIdeal.Gen.hostOps0, Cert.ReferenceIdeal.RefRun.G0, List.drop]
  after_results_simp
  rw [harg5]
  rfl

set_option maxHeartbeats 4000000 in
theorem agree_rest_w2 (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (StableHlo.after (Cert.KernelIdeal.Gen.hostOps0.drop 7) WK (Proc.devRef .tc Cert.KernelIdeal.main_v32) : Cert.KernelIdeal.S32x32.Idx → EReal) = StableHlo.after (Cert.ReferenceIdeal.RefRun.G0.drop 7) WR (Proc.devRef .tc Cert.ReferenceIdeal.main_v33) := by
  dsimp only [Cert.KernelIdeal.Gen.hostOps0, Cert.ReferenceIdeal.RefRun.G0, List.drop]
  after_results_simp
  rw [harg5]
  rfl

set_option maxHeartbeats 4000000 in
theorem agree_rest_invdeg (hdst : (WK (Proc.devRef .tc Cert.KernelIdeal.main_v3) : IVec Cert.KernelIdeal.S3300000 32) = WR (Proc.devRef .tc Cert.ReferenceIdeal.main_v3)) (hsrc : (WK (Proc.devRef .tc Cert.KernelIdeal.main_v6) : IVec Cert.KernelIdeal.S3300000 32) = WR (Proc.devRef .tc Cert.ReferenceIdeal.main_v6)) (harg5 : (WK (Proc.devRef .tc Cert.KernelIdeal.main_arg5) : Cert.KernelIdeal.S2x32x32.Idx → EReal) = WR (Proc.devRef .tc Cert.ReferenceIdeal.main_arg5)) :
    (broadcastInDim Cert.KernelIdeal.S100000x1 ![0] Cert.KernelIdeal.Gen.bcast_S100000_S100000x1_0 (StableHlo.after (Cert.KernelIdeal.Gen.hostOps0.drop 7) WK (Proc.devRef .tc Cert.KernelIdeal.main_v28) : Cert.KernelIdeal.S100000.Idx → EReal) : Cert.KernelIdeal.S100000x1.Idx → EReal) = StableHlo.after (Cert.ReferenceIdeal.RefRun.G0.drop 7) WR (Proc.devRef .tc Cert.ReferenceIdeal.main_v29) := by
  dsimp only [Cert.KernelIdeal.Gen.hostOps0, Cert.ReferenceIdeal.RefRun.G0, List.drop]
  after_results_simp
  rw [hdst]
  rfl

theorem agree_G0_dst (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (StableHlo.after Cert.KernelIdeal.Gen.hostOps0 WK (Proc.devRef .tc Cert.KernelIdeal.main_v3) : IVec Cert.KernelIdeal.S3300000 32) = StableHlo.after Cert.ReferenceIdeal.RefRun.G0 WR (Proc.devRef .tc Cert.ReferenceIdeal.main_v3) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_dst _ _ (agree_lists_dst WK WR harg1) (agree_lists_src WK WR harg1) (agree_lists_w WK WR harg5)

theorem agree_G0_src (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (StableHlo.after Cert.KernelIdeal.Gen.hostOps0 WK (Proc.devRef .tc Cert.KernelIdeal.main_v6) : IVec Cert.KernelIdeal.S3300000 32) = StableHlo.after Cert.ReferenceIdeal.RefRun.G0 WR (Proc.devRef .tc Cert.ReferenceIdeal.main_v6) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_src _ _ (agree_lists_dst WK WR harg1) (agree_lists_src WK WR harg1) (agree_lists_w WK WR harg5)

theorem agree_G0_norm (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (StableHlo.after Cert.KernelIdeal.Gen.hostOps0 WK (Proc.devRef .tc Cert.KernelIdeal.main_v26) : Cert.KernelIdeal.S3300000.Idx → EReal) = StableHlo.after Cert.ReferenceIdeal.RefRun.G0 WR (Proc.devRef .tc Cert.ReferenceIdeal.main_v26) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_norm _ _ (agree_lists_dst WK WR harg1) (agree_lists_src WK WR harg1) (agree_lists_w WK WR harg5)

theorem agree_G0_w1 (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (StableHlo.after Cert.KernelIdeal.Gen.hostOps0 WK (Proc.devRef .tc Cert.KernelIdeal.main_v30) : Cert.KernelIdeal.S32x32.Idx → EReal) = StableHlo.after Cert.ReferenceIdeal.RefRun.G0 WR (Proc.devRef .tc Cert.ReferenceIdeal.main_v31) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_w1 _ _ (agree_lists_dst WK WR harg1) (agree_lists_src WK WR harg1) (agree_lists_w WK WR harg5)

theorem agree_G0_w2 (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (StableHlo.after Cert.KernelIdeal.Gen.hostOps0 WK (Proc.devRef .tc Cert.KernelIdeal.main_v32) : Cert.KernelIdeal.S32x32.Idx → EReal) = StableHlo.after Cert.ReferenceIdeal.RefRun.G0 WR (Proc.devRef .tc Cert.ReferenceIdeal.main_v33) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_w2 _ _ (agree_lists_dst WK WR harg1) (agree_lists_src WK WR harg1) (agree_lists_w WK WR harg5)

theorem agree_G0_invdeg (harg1 : (WK (Proc.devRef .tc Cert.KernelIdeal.main_arg1) : IVec Cert.KernelIdeal.S2x3200000 32) = WR (Proc.devRef .tc Cert.ReferenceIdeal.main_arg1)) (harg5 : (WK (Proc.devRef .tc Cert.KernelIdeal.main_arg5) : Cert.KernelIdeal.S2x32x32.Idx → EReal) = WR (Proc.devRef .tc Cert.ReferenceIdeal.main_arg5)) :
    (broadcastInDim Cert.KernelIdeal.S100000x1 ![0] Cert.KernelIdeal.Gen.bcast_S100000_S100000x1_0 (StableHlo.after Cert.KernelIdeal.Gen.hostOps0 WK (Proc.devRef .tc Cert.KernelIdeal.main_v28) : Cert.KernelIdeal.S100000.Idx → EReal) : Cert.KernelIdeal.S100000x1.Idx → EReal) = StableHlo.after Cert.ReferenceIdeal.RefRun.G0 WR (Proc.devRef .tc Cert.ReferenceIdeal.main_v29) := by
  rw [(show Cert.KernelIdeal.Gen.hostOps0 = Cert.KernelIdeal.Gen.hostOps0.take 7 ++ Cert.KernelIdeal.Gen.hostOps0.drop 7 from (List.take_append_drop 7 _).symm), (show Cert.ReferenceIdeal.RefRun.G0 = Cert.ReferenceIdeal.RefRun.G0.take 7 ++ Cert.ReferenceIdeal.RefRun.G0.drop 7 from (List.take_append_drop 7 _).symm), StableHlo.after_append, StableHlo.after_append]
  exact agree_rest_invdeg _ _ (agree_lists_dst WK WR harg1) (agree_lists_src WK WR harg1) (agree_lists_w WK WR harg5)

set_option maxHeartbeats 4000000 in
theorem agree_G1 (hz : (WK (Proc.devRef .tc Cert.KernelIdeal.main_v33) : Cert.KernelIdeal.S100000x32.Idx → EReal) = WR (Proc.devRef .tc Cert.ReferenceIdeal.main_v34)) (hnorm : (WK (Proc.devRef .tc Cert.KernelIdeal.main_v26) : Cert.KernelIdeal.S3300000.Idx → EReal) = WR (Proc.devRef .tc Cert.ReferenceIdeal.main_v26))
    (hsrc : (WK (Proc.devRef .tc Cert.KernelIdeal.main_v6) : IVec Cert.KernelIdeal.S3300000 32) = WR (Proc.devRef .tc Cert.ReferenceIdeal.main_v6)) (hdst : (WK (Proc.devRef .tc Cert.KernelIdeal.main_v3) : IVec Cert.KernelIdeal.S3300000 32) = WR (Proc.devRef .tc Cert.ReferenceIdeal.main_v3))
    (hinv : (broadcastInDim Cert.KernelIdeal.S100000x1 ![0] Cert.KernelIdeal.Gen.bcast_S100000_S100000x1_0 (WK (Proc.devRef .tc Cert.KernelIdeal.main_v28) : Cert.KernelIdeal.S100000.Idx → EReal) : Cert.KernelIdeal.S100000x1.Idx → EReal) = WR (Proc.devRef .tc Cert.ReferenceIdeal.main_v29))
    (hb : (WK (Proc.devRef .tc Cert.KernelIdeal.main_arg6) : Cert.KernelIdeal.S3x32.Idx → EReal) = WR (Proc.devRef .tc Cert.ReferenceIdeal.main_arg6)) :
    (StableHlo.after Cert.KernelIdeal.Gen.hostOps1 WK (Proc.devRef .tc Cert.KernelIdeal.main_v54) : Cert.KernelIdeal.S100000x32.Idx → EReal) = StableHlo.after Cert.ReferenceIdeal.RefRun.G1 WR (Proc.devRef .tc Cert.ReferenceIdeal.main_v54) := by
  dsimp only [Cert.KernelIdeal.Gen.hostOps1, Cert.ReferenceIdeal.RefRun.G1]
  after_results_simp
  rw [hz, hnorm, hsrc, hdst, hinv, hb]
  rfl

set_option maxHeartbeats 4000000 in
theorem agree_G2 (hz : (WK (Proc.devRef .tc Cert.KernelIdeal.main_v63) : Cert.KernelIdeal.S100000x32.Idx → EReal) = WR (Proc.devRef .tc Cert.ReferenceIdeal.main_v79)) (hnorm : (WK (Proc.devRef .tc Cert.KernelIdeal.main_v26) : Cert.KernelIdeal.S3300000.Idx → EReal) = WR (Proc.devRef .tc Cert.ReferenceIdeal.main_v26))
    (hsrc : (WK (Proc.devRef .tc Cert.KernelIdeal.main_v6) : IVec Cert.KernelIdeal.S3300000 32) = WR (Proc.devRef .tc Cert.ReferenceIdeal.main_v6)) (hdst : (WK (Proc.devRef .tc Cert.KernelIdeal.main_v3) : IVec Cert.KernelIdeal.S3300000 32) = WR (Proc.devRef .tc Cert.ReferenceIdeal.main_v3))
    (hinv : (broadcastInDim Cert.KernelIdeal.S100000x1 ![0] Cert.KernelIdeal.Gen.bcast_S100000_S100000x1_0 (WK (Proc.devRef .tc Cert.KernelIdeal.main_v28) : Cert.KernelIdeal.S100000.Idx → EReal) : Cert.KernelIdeal.S100000x1.Idx → EReal) = WR (Proc.devRef .tc Cert.ReferenceIdeal.main_v29))
    (hb : (WK (Proc.devRef .tc Cert.KernelIdeal.main_arg6) : Cert.KernelIdeal.S3x32.Idx → EReal) = WR (Proc.devRef .tc Cert.ReferenceIdeal.main_arg6)) :
    (StableHlo.after Cert.KernelIdeal.Gen.hostOps4 WK (Proc.devRef .tc Cert.KernelIdeal.main_v84) : Cert.KernelIdeal.S100000x32.Idx → EReal) = StableHlo.after Cert.ReferenceIdeal.RefRun.G2 WR (Proc.devRef .tc Cert.ReferenceIdeal.main_v99) := by
  dsimp only [Cert.KernelIdeal.Gen.hostOps4, Cert.ReferenceIdeal.RefRun.G2]
  after_results_simp
  rw [hz, hnorm, hsrc, hdst, hinv, hb]
  rfl

set_option maxHeartbeats 4000000 in
theorem agree_G3 (hz : (WK (Proc.devRef .tc Cert.KernelIdeal.main_v93) : Cert.KernelIdeal.S100000x32.Idx → EReal) = WR (Proc.devRef .tc Cert.ReferenceIdeal.main_v124)) (hnorm : (WK (Proc.devRef .tc Cert.KernelIdeal.main_v26) : Cert.KernelIdeal.S3300000.Idx → EReal) = WR (Proc.devRef .tc Cert.ReferenceIdeal.main_v26))
    (hsrc : (WK (Proc.devRef .tc Cert.KernelIdeal.main_v6) : IVec Cert.KernelIdeal.S3300000 32) = WR (Proc.devRef .tc Cert.ReferenceIdeal.main_v6)) (hdst : (WK (Proc.devRef .tc Cert.KernelIdeal.main_v3) : IVec Cert.KernelIdeal.S3300000 32) = WR (Proc.devRef .tc Cert.ReferenceIdeal.main_v3))
    (hinv : (broadcastInDim Cert.KernelIdeal.S100000x1 ![0] Cert.KernelIdeal.Gen.bcast_S100000_S100000x1_0 (WK (Proc.devRef .tc Cert.KernelIdeal.main_v28) : Cert.KernelIdeal.S100000.Idx → EReal) : Cert.KernelIdeal.S100000x1.Idx → EReal) = WR (Proc.devRef .tc Cert.ReferenceIdeal.main_v29))
    (hb : (WK (Proc.devRef .tc Cert.KernelIdeal.main_arg6) : Cert.KernelIdeal.S3x32.Idx → EReal) = WR (Proc.devRef .tc Cert.ReferenceIdeal.main_arg6)) :
    (StableHlo.after Cert.KernelIdeal.Gen.hostOps7 WK (Proc.devRef .tc Cert.KernelIdeal.main_v114) : Cert.KernelIdeal.S100000x32.Idx → EReal) = StableHlo.after Cert.ReferenceIdeal.RefRun.G3 WR (Proc.devRef .tc Cert.ReferenceIdeal.main_v144) := by
  dsimp only [Cert.KernelIdeal.Gen.hostOps7, Cert.ReferenceIdeal.RefRun.G3]
  after_results_simp
  rw [hz, hnorm, hsrc, hdst, hinv, hb]
  rfl

set_option maxHeartbeats 4000000 in
theorem agree_Pl_sums (hh : (WK (Proc.devRef .tc Cert.KernelIdeal.main_v122) : Cert.KernelIdeal.S100000x32.Idx → EReal) = WR (Proc.devRef .tc Cert.ReferenceIdeal.main_v168)) (hbatch : (WK (Proc.devRef .tc Cert.KernelIdeal.main_arg3) : IVec Cert.KernelIdeal.S100000 32) = WR (Proc.devRef .tc Cert.ReferenceIdeal.main_arg3)) :
    (StableHlo.after Cert.KernelIdeal.Gen.hostOps9 WK (Proc.devRef .tc Cert.KernelIdeal.main_v125) : Cert.KernelIdeal.S100x32.Idx → EReal) = StableHlo.after Cert.ReferenceIdeal.RefRun.Pl WR (Proc.devRef .tc Cert.ReferenceIdeal.main_v171) := by
  dsimp only [Cert.KernelIdeal.Gen.hostOps9, Cert.ReferenceIdeal.RefRun.Pl]
  after_results_simp
  rw [hh, hbatch]
  rfl

set_option maxHeartbeats 4000000 in
theorem agree_Pl_cnt (hbatch : (WK (Proc.devRef .tc Cert.KernelIdeal.main_arg3) : IVec Cert.KernelIdeal.S100000 32) = WR (Proc.devRef .tc Cert.ReferenceIdeal.main_arg3)) :
    (StableHlo.after Cert.KernelIdeal.Gen.hostOps9 WK (Proc.devRef .tc Cert.KernelIdeal.main_v130) : Cert.KernelIdeal.S100x1.Idx → EReal) = broadcastInDim Cert.KernelIdeal.S100x1 ![0] Cert.KernelIdeal.Gen.bcast_S100_S100x1_0 (StableHlo.after Cert.ReferenceIdeal.RefRun.Pl WR (Proc.devRef .tc Cert.ReferenceIdeal.main_v175)) := by
  dsimp only [Cert.KernelIdeal.Gen.hostOps9, Cert.ReferenceIdeal.RefRun.Pl]
  after_results_simp
  rw [hbatch]
  rfl

end Cert.Bridge

end
-- ==== Proof.RefReadDot.lean ====
/- The reference's three matrix products read at an entry, at the ideal float values: each is the sum, over the one contracted
   axis, of the left operand's row entry times the right operand's column entry — no rounding and no order left in it. First the
   float buffers the stages pass to one another, each read as the array of extended reals it holds; then each of the three printed
   dimension records (rows by 384 into 32, rows by 32 into 32, graphs by 32 into 2), from the record's own index maps; then the
   layers' stages L0, L1, L2 from any contents `W` of the buffers. -/
import proofs.«177080_j35828617183700_2_alg».proof.Proof.RefStages
import Idealize.ShloMosaic.Lib.ValueIdx
import Idealize.ShloMosaic.PureOps.Ideal.Laws

open scoped BigOperators

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-! ## The stages' float buffers as arrays

The contents of a buffer in `W`, at the buffer's own array type: the same term, typed so that an entry is an extended real. -/

abbrev arr_main_arg5 (W : Valuation τ sig (Elt Ideal)) : FVec Ideal S2x32x32 .f32 := W (Proc.devRef .tc main_arg5)
abbrev arr_main_v26 (W : Valuation τ sig (Elt Ideal)) : FVec Ideal S3300000 .f32 := W (Proc.devRef .tc main_v26)
abbrev arr_main_v29 (W : Valuation τ sig (Elt Ideal)) : FVec Ideal S100000x1 .f32 := W (Proc.devRef .tc main_v29)
abbrev arr_main_v31 (W : Valuation τ sig (Elt Ideal)) : FVec Ideal S32x32 .f32 := W (Proc.devRef .tc main_v31)
abbrev arr_main_v33 (W : Valuation τ sig (Elt Ideal)) : FVec Ideal S32x32 .f32 := W (Proc.devRef .tc main_v33)
abbrev arr_main_arg0 (W : Valuation τ sig (Elt Ideal)) : FVec Ideal S100000x384 .f32 := W (Proc.devRef .tc main_arg0)
abbrev arr_main_arg4 (W : Valuation τ sig (Elt Ideal)) : FVec Ideal S384x32 .f32 := W (Proc.devRef .tc main_arg4)
abbrev arr_main_v34 (W : Valuation τ sig (Elt Ideal)) : FVec Ideal S100000x32 .f32 := W (Proc.devRef .tc main_v34)
abbrev arr_main_arg6 (W : Valuation τ sig (Elt Ideal)) : FVec Ideal S3x32 .f32 := W (Proc.devRef .tc main_arg6)
abbrev arr_main_v54 (W : Valuation τ sig (Elt Ideal)) : FVec Ideal S100000x32 .f32 := W (Proc.devRef .tc main_v54)
abbrev arr_main_v57 (W : Valuation τ sig (Elt Ideal)) : FVec Ideal S32 .f32 := W (Proc.devRef .tc main_v57)
abbrev arr_main_v58 (W : Valuation τ sig (Elt Ideal)) : FVec Ideal S32 .f32 := W (Proc.devRef .tc main_v58)
abbrev arr_main_arg7 (W : Valuation τ sig (Elt Ideal)) : FVec Ideal S3x32 .f32 := W (Proc.devRef .tc main_arg7)
abbrev arr_main_arg8 (W : Valuation τ sig (Elt Ideal)) : FVec Ideal S3x32 .f32 := W (Proc.devRef .tc main_arg8)
abbrev arr_main_v78 (W : Valuation τ sig (Elt Ideal)) : FVec Ideal S100000x32 .f32 := W (Proc.devRef .tc main_v78)
abbrev arr_main_v79 (W : Valuation τ sig (Elt Ideal)) : FVec Ideal S100000x32 .f32 := W (Proc.devRef .tc main_v79)
abbrev arr_main_v99 (W : Valuation τ sig (Elt Ideal)) : FVec Ideal S100000x32 .f32 := W (Proc.devRef .tc main_v99)
abbrev arr_main_v102 (W : Valuation τ sig (Elt Ideal)) : FVec Ideal S32 .f32 := W (Proc.devRef .tc main_v102)
abbrev arr_main_v103 (W : Valuation τ sig (Elt Ideal)) : FVec Ideal S32 .f32 := W (Proc.devRef .tc main_v103)
abbrev arr_main_v123 (W : Valuation τ sig (Elt Ideal)) : FVec Ideal S100000x32 .f32 := W (Proc.devRef .tc main_v123)
abbrev arr_main_v124 (W : Valuation τ sig (Elt Ideal)) : FVec Ideal S100000x32 .f32 := W (Proc.devRef .tc main_v124)
abbrev arr_main_v144 (W : Valuation τ sig (Elt Ideal)) : FVec Ideal S100000x32 .f32 := W (Proc.devRef .tc main_v144)
abbrev arr_main_v147 (W : Valuation τ sig (Elt Ideal)) : FVec Ideal S32 .f32 := W (Proc.devRef .tc main_v147)
abbrev arr_main_v148 (W : Valuation τ sig (Elt Ideal)) : FVec Ideal S32 .f32 := W (Proc.devRef .tc main_v148)
abbrev arr_main_v168 (W : Valuation τ sig (Elt Ideal)) : FVec Ideal S100000x32 .f32 := W (Proc.devRef .tc main_v168)
abbrev arr_main_v171 (W : Valuation τ sig (Elt Ideal)) : FVec Ideal S100x32 .f32 := W (Proc.devRef .tc main_v171)
abbrev arr_main_v175 (W : Valuation τ sig (Elt Ideal)) : FVec Ideal S100 .f32 := W (Proc.devRef .tc main_v175)
abbrev arr_main_arg9 (W : Valuation τ sig (Elt Ideal)) : FVec Ideal S32x2 .f32 := W (Proc.devRef .tc main_arg9)
abbrev arr_main_arg10 (W : Valuation τ sig (Elt Ideal)) : FVec Ideal S2 .f32 := W (Proc.devRef .tc main_arg10)
abbrev arr_main_v183 (W : Valuation τ sig (Elt Ideal)) : FVec Ideal S100x2 .f32 := W (Proc.devRef .tc main_v183)

/-! ## The product of a [100000, 384] by a [384, 32] array -/

/-- The left operand's row coordinate is the entry's row. -/
theorem lhs_d384_0 (i : S100000x32.Idx) (q : dot_S100000x384_S384x32_S100000x32_1_0_0_1_n_n.contr.Idx) : (dot_S100000x384_S384x32_S100000x32_1_0_0_1_n_n.lhsIdx i q 0).val = (i 0).val := by
  unfold DotDims.lhsIdx
  rw [dif_neg (show ¬(0 : Fin S100000x384.rank) ∈ dot_S100000x384_S384x32_S100000x32_1_0_0_1_n_n.lhsBatch by decide), dif_pos (show (0 : Fin S100000x384.rank) ∈ dot_S100000x384_S384x32_S100000x32_1_0_0_1_n_n.lhsNonContracting by decide)]
  rfl
/-- The left operand's column coordinate is the contraction position. -/
theorem lhs_d384_1 (i : S100000x32.Idx) (q : dot_S100000x384_S384x32_S100000x32_1_0_0_1_n_n.contr.Idx) : (dot_S100000x384_S384x32_S100000x32_1_0_0_1_n_n.lhsIdx i q 1).val = (q ⟨0, by decide⟩).val :=
  dot_S100000x384_S384x32_S100000x32_1_0_0_1_n_n.lhsIdx_val_of_single rfl i q
/-- The right operand's row coordinate is the contraction position. -/
theorem rhs_d384_0 (i : S100000x32.Idx) (q : dot_S100000x384_S384x32_S100000x32_1_0_0_1_n_n.contr.Idx) : (dot_S100000x384_S384x32_S100000x32_1_0_0_1_n_n.rhsIdx i q 0).val = (q ⟨0, by decide⟩).val :=
  dot_S100000x384_S384x32_S100000x32_1_0_0_1_n_n.rhsIdx_val_of_single rfl i q
/-- The right operand's column coordinate is the entry's column. -/
theorem rhs_d384_1 (i : S100000x32.Idx) (q : dot_S100000x384_S384x32_S100000x32_1_0_0_1_n_n.contr.Idx) : (dot_S100000x384_S384x32_S100000x32_1_0_0_1_n_n.rhsIdx i q 1).val = (i 1).val := by
  unfold DotDims.rhsIdx
  rw [dif_neg (show ¬(1 : Fin S384x32.rank) ∈ dot_S100000x384_S384x32_S100000x32_1_0_0_1_n_n.rhsBatch by decide), dif_pos (show (1 : Fin S384x32.rank) ∈ dot_S100000x384_S384x32_S100000x32_1_0_0_1_n_n.rhsNonContracting by decide)]
  rfl

/-- Entry (p, q) of the product is the sum over k of x(p, k) · w(k, q). -/
theorem dot_d384_apply (x : FVec Ideal S100000x384 .f32) (w : FVec Ideal S384x32 .f32) (p : Fin 100000) (q : Fin 32) :
    Host.dotGeneral dot_S100000x384_S384x32_S100000x32_1_0_0_1_n_n none x w (ix2 p q) = ∑ k : Fin 384, x (ix2 p k) * w (ix2 k q) := by
  simp only [Host.dotGeneral]
  rw [Ideal.dotGeneral_apply, ← Equiv.sum_comp (ValueIdx.contrEquiv1 dot_S100000x384_S384x32_S100000x32_1_0_0_1_n_n 384 rfl rfl).symm]
  refine Finset.sum_congr rfl fun k _ => ?_
  have hk := ValueIdx.contrEquiv1_symm_val dot_S100000x384_S384x32_S100000x32_1_0_0_1_n_n 384 rfl rfl k
  have el : dot_S100000x384_S384x32_S100000x32_1_0_0_1_n_n.lhsIdx (ix2 p q) ((ValueIdx.contrEquiv1 dot_S100000x384_S384x32_S100000x32_1_0_0_1_n_n 384 rfl rfl).symm k) = ix2 p k := funext fun a => Fin.ext (by
    match a with
    | ⟨0, _⟩ => exact lhs_d384_0 _ _
    | ⟨1, _⟩ => exact (lhs_d384_1 _ _).trans hk)
  have er : dot_S100000x384_S384x32_S100000x32_1_0_0_1_n_n.rhsIdx (ix2 p q) ((ValueIdx.contrEquiv1 dot_S100000x384_S384x32_S100000x32_1_0_0_1_n_n 384 rfl rfl).symm k) = ix2 k q := funext fun a => Fin.ext (by
    match a with
    | ⟨0, _⟩ => exact (rhs_d384_0 _ _).trans hk
    | ⟨1, _⟩ => exact rhs_d384_1 _ _)
  rw [el, er]

/-! ## The product of a [100000, 32] by a [32, 32] array -/

/-- The left operand's row coordinate is the entry's row. -/
theorem lhs_d32_0 (i : S100000x32.Idx) (q : dot_S100000x32_S32x32_S100000x32_1_0_0_1_n_n.contr.Idx) : (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch by decide), dif_pos (show (0 : Fin S100000x32.rank) ∈ dot_S100000x32_S32x32_S100000x32_1_0_0_1_n_n.lhsNonContracting by decide)]
  rfl
/-- The left operand's column coordinate is the contraction position. -/
theorem lhs_d32_1 (i : S100000x32.Idx) (q : dot_S100000x32_S32x32_S100000x32_1_0_0_1_n_n.contr.Idx) : (dot_S100000x32_S32x32_S100000x32_1_0_0_1_n_n.lhsIdx i q 1).val = (q ⟨0, by decide⟩).val :=
  dot_S100000x32_S32x32_S100000x32_1_0_0_1_n_n.lhsIdx_val_of_single rfl i q
/-- The right operand's row coordinate is the contraction position. -/
theorem rhs_d32_0 (i : S100000x32.Idx) (q : dot_S100000x32_S32x32_S100000x32_1_0_0_1_n_n.contr.Idx) : (dot_S100000x32_S32x32_S100000x32_1_0_0_1_n_n.rhsIdx i q 0).val = (q ⟨0, by decide⟩).val :=
  dot_S100000x32_S32x32_S100000x32_1_0_0_1_n_n.rhsIdx_val_of_single rfl i q
/-- The right operand's column coordinate is the entry's column. -/
theorem rhs_d32_1 (i : S100000x32.Idx) (q : dot_S100000x32_S32x32_S100000x32_1_0_0_1_n_n.contr.Idx) : (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch by decide), dif_pos (show (1 : Fin S32x32.rank) ∈ dot_S100000x32_S32x32_S100000x32_1_0_0_1_n_n.rhsNonContracting by decide)]
  rfl

/-- Entry (p, q) of the product is the sum over k of x(p, k) · w(k, q). -/
theorem dot_d32_apply (x : FVec Ideal S100000x32 .f32) (w : FVec Ideal S32x32 .f32) (p : Fin 100000) (q : Fin 32) :
    Host.dotGeneral dot_S100000x32_S32x32_S100000x32_1_0_0_1_n_n none x w (ix2 p q) = ∑ k : Fin 32, x (ix2 p k) * w (ix2 k q) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 p q) ((ValueIdx.contrEquiv1 dot_S100000x32_S32x32_S100000x32_1_0_0_1_n_n 32 rfl rfl).symm k) = ix2 p k := funext fun a => Fin.ext (by
    match a with
    | ⟨0, _⟩ => exact lhs_d32_0 _ _
    | ⟨1, _⟩ => exact (lhs_d32_1 _ _).trans hk)
  have er : dot_S100000x32_S32x32_S100000x32_1_0_0_1_n_n.rhsIdx (ix2 p q) ((ValueIdx.contrEquiv1 dot_S100000x32_S32x32_S100000x32_1_0_0_1_n_n 32 rfl rfl).symm k) = ix2 k q := funext fun a => Fin.ext (by
    match a with
    | ⟨0, _⟩ => exact (rhs_d32_0 _ _).trans hk
    | ⟨1, _⟩ => exact rhs_d32_1 _ _)
  rw [el, er]

/-! ## The product of a [100, 32] by a [32, 2] array -/

/-- The left operand's row coordinate is the entry's row. -/
theorem lhs_dHd_0 (i : S100x2.Idx) (q : dot_S100x32_S32x2_S100x2_1_0_0_1_n_n.contr.Idx) : (dot_S100x32_S32x2_S100x2_1_0_0_1_n_n.lhsIdx i q 0).val = (i 0).val := by
  unfold DotDims.lhsIdx
  rw [dif_neg (show ¬(0 : Fin S100x32.rank) ∈ dot_S100x32_S32x2_S100x2_1_0_0_1_n_n.lhsBatch by decide), dif_pos (show (0 : Fin S100x32.rank) ∈ dot_S100x32_S32x2_S100x2_1_0_0_1_n_n.lhsNonContracting by decide)]
  rfl
/-- The left operand's column coordinate is the contraction position. -/
theorem lhs_dHd_1 (i : S100x2.Idx) (q : dot_S100x32_S32x2_S100x2_1_0_0_1_n_n.contr.Idx) : (dot_S100x32_S32x2_S100x2_1_0_0_1_n_n.lhsIdx i q 1).val = (q ⟨0, by decide⟩).val :=
  dot_S100x32_S32x2_S100x2_1_0_0_1_n_n.lhsIdx_val_of_single rfl i q
/-- The right operand's row coordinate is the contraction position. -/
theorem rhs_dHd_0 (i : S100x2.Idx) (q : dot_S100x32_S32x2_S100x2_1_0_0_1_n_n.contr.Idx) : (dot_S100x32_S32x2_S100x2_1_0_0_1_n_n.rhsIdx i q 0).val = (q ⟨0, by decide⟩).val :=
  dot_S100x32_S32x2_S100x2_1_0_0_1_n_n.rhsIdx_val_of_single rfl i q
/-- The right operand's column coordinate is the entry's column. -/
theorem rhs_dHd_1 (i : S100x2.Idx) (q : dot_S100x32_S32x2_S100x2_1_0_0_1_n_n.contr.Idx) : (dot_S100x32_S32x2_S100x2_1_0_0_1_n_n.rhsIdx i q 1).val = (i 1).val := by
  unfold DotDims.rhsIdx
  rw [dif_neg (show ¬(1 : Fin S32x2.rank) ∈ dot_S100x32_S32x2_S100x2_1_0_0_1_n_n.rhsBatch by decide), dif_pos (show (1 : Fin S32x2.rank) ∈ dot_S100x32_S32x2_S100x2_1_0_0_1_n_n.rhsNonContracting by decide)]
  rfl

/-- Entry (p, q) of the product is the sum over k of x(p, k) · w(k, q). -/
theorem dot_dHd_apply (x : FVec Ideal S100x32 .f32) (w : FVec Ideal S32x2 .f32) (p : Fin 100) (q : Fin 2) :
    Host.dotGeneral dot_S100x32_S32x2_S100x2_1_0_0_1_n_n none x w (ix2 p q) = ∑ k : Fin 32, x (ix2 p k) * w (ix2 k q) := by
  simp only [Host.dotGeneral]
  rw [Ideal.dotGeneral_apply, ← Equiv.sum_comp (ValueIdx.contrEquiv1 dot_S100x32_S32x2_S100x2_1_0_0_1_n_n 32 rfl rfl).symm]
  refine Finset.sum_congr rfl fun k _ => ?_
  have hk := ValueIdx.contrEquiv1_symm_val dot_S100x32_S32x2_S100x2_1_0_0_1_n_n 32 rfl rfl k
  have el : dot_S100x32_S32x2_S100x2_1_0_0_1_n_n.lhsIdx (ix2 p q) ((ValueIdx.contrEquiv1 dot_S100x32_S32x2_S100x2_1_0_0_1_n_n 32 rfl rfl).symm k) = ix2 p k := funext fun a => Fin.ext (by
    match a with
    | ⟨0, _⟩ => exact lhs_dHd_0 _ _
    | ⟨1, _⟩ => exact (lhs_dHd_1 _ _).trans hk)
  have er : dot_S100x32_S32x2_S100x2_1_0_0_1_n_n.rhsIdx (ix2 p q) ((ValueIdx.contrEquiv1 dot_S100x32_S32x2_S100x2_1_0_0_1_n_n 32 rfl rfl).symm k) = ix2 k q := funext fun a => Fin.ext (by
    match a with
    | ⟨0, _⟩ => exact (rhs_dHd_0 _ _).trans hk
    | ⟨1, _⟩ => exact rhs_dHd_1 _ _)
  rw [el, er]

/-! ## The layers' products, from any contents of the buffers -/

/-- After stage `L0`, entry (p, q) of its output is the sum over k of the layer's input at (p, k) times the weight at (k, q). -/
theorem L0_read (W : Valuation τ sig (Elt Ideal)) (p : Fin 100000) (q : Fin 32) :
    arr_main_v34 (after L0 W) (ix2 p q) = ∑ k : Fin 384, arr_main_arg0 W (ix2 p k) * arr_main_arg4 W (ix2 k q) := by
  simp only [arr_main_v34, arr_main_arg0, arr_main_arg4, after_cons, after_nil]
  rw [binary_result]
  exact dot_d384_apply _ _ p q

/-- After stage `L1`, entry (p, q) of its output is the sum over k of the layer's input at (p, k) times the weight at (k, q). -/
theorem L1_read (W : Valuation τ sig (Elt Ideal)) (p : Fin 100000) (q : Fin 32) :
    arr_main_v79 (after L1 W) (ix2 p q) = ∑ k : Fin 32, arr_main_v78 W (ix2 p k) * arr_main_v31 W (ix2 k q) := by
  simp only [arr_main_v79, arr_main_v78, arr_main_v31, after_cons, after_nil]
  rw [binary_result]
  exact dot_d32_apply _ _ p q

/-- After stage `L2`, entry (p, q) of its output is the sum over k of the layer's input at (p, k) times the weight at (k, q). -/
theorem L2_read (W : Valuation τ sig (Elt Ideal)) (p : Fin 100000) (q : Fin 32) :
    arr_main_v124 (after L2 W) (ix2 p q) = ∑ k : Fin 32, arr_main_v123 W (ix2 p k) * arr_main_v33 W (ix2 k q) := by
  simp only [arr_main_v124, arr_main_v123, arr_main_v33, after_cons, after_nil]
  rw [binary_result]
  exact dot_d32_apply _ _ p q

end Cert.ReferenceIdeal.RefRun

end
-- ==== Proof.Bridge.StageGlue.lean ====
/-
  The stretches of host operations of the kernel program against their counterparts in the reference, at the programs' own valuations:
  from the arguments' agreement the edge lists, the normalisation, the reciprocal degrees and the inner weights agree; from a layer's
  agreeing products its aggregated and shifted features agree; from the last layer's agreeing activations the pooled sums and the graph
  sizes agree.
-/
import proofs.«177080_j35828617183700_2_alg».proof.Proof.Bridge.Sides
import proofs.«177080_j35828617183700_2_alg».proof.Proof.Bridge.Agree
import proofs.«177080_j35828617183700_2_alg».proof.Proof.RefReadDot
import Idealize.ShloMosaic.Lib.Pipeline.Value
import Idealize.ShloMosaic.Lib.ValueIdx

set_option maxRecDepth 1000000

noncomputable section

namespace Cert.Bridge

open Idealize.ShloMosaic Idealize.ShloMosaic.TcCoe Idealize.ShloMosaic.ValueIdx Cert.ReferenceIdeal.RefRun

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

/-! ## Before the first layer -/

theorem stage_G0_dst (harg1 : k_arg1 (launchK m c) = V' (Proc.devRef .tc Cert.ReferenceIdeal.main_arg1)) (harg5 : k_arg5 (launchK m c) = arr_main_arg5 V') : k_v3 (Cert.KernelIdeal.Hand.U1 (F := Ideal) m c) = afterG0 V' (Proc.devRef .tc Cert.ReferenceIdeal.main_v3) := by
  unfold afterG0; exact agree_G0_dst _ _ harg1 harg5

theorem stage_G0_src (harg1 : k_arg1 (launchK m c) = V' (Proc.devRef .tc Cert.ReferenceIdeal.main_arg1)) (harg5 : k_arg5 (launchK m c) = arr_main_arg5 V') : k_v6 (Cert.KernelIdeal.Hand.U1 (F := Ideal) m c) = afterG0 V' (Proc.devRef .tc Cert.ReferenceIdeal.main_v6) := by
  unfold afterG0; exact agree_G0_src _ _ harg1 harg5

theorem stage_G0_norm (harg1 : k_arg1 (launchK m c) = V' (Proc.devRef .tc Cert.ReferenceIdeal.main_arg1)) (harg5 : k_arg5 (launchK m c) = arr_main_arg5 V') : k_v26 (Cert.KernelIdeal.Hand.U1 (F := Ideal) m c) = arr_main_v26 (afterG0 V') := by
  unfold afterG0; exact agree_G0_norm _ _ harg1 harg5

theorem stage_G0_w1 (harg1 : k_arg1 (launchK m c) = V' (Proc.devRef .tc Cert.ReferenceIdeal.main_arg1)) (harg5 : k_arg5 (launchK m c) = arr_main_arg5 V') : k_v30 (Cert.KernelIdeal.Hand.U1 (F := Ideal) m c) = arr_main_v31 (afterG0 V') := by
  unfold afterG0; exact agree_G0_w1 _ _ harg1 harg5

theorem stage_G0_w2 (harg1 : k_arg1 (launchK m c) = V' (Proc.devRef .tc Cert.ReferenceIdeal.main_arg1)) (harg5 : k_arg5 (launchK m c) = arr_main_arg5 V') : k_v32 (Cert.KernelIdeal.Hand.U1 (F := Ideal) m c) = arr_main_v33 (afterG0 V') := by
  unfold afterG0; exact agree_G0_w2 _ _ harg1 harg5

theorem stage_G0_invdeg (harg1 : k_arg1 (launchK m c) = V' (Proc.devRef .tc Cert.ReferenceIdeal.main_arg1)) (harg5 : k_arg5 (launchK m c) = arr_main_arg5 V') :
    (broadcastInDim Cert.KernelIdeal.S100000x1 ![0] Cert.KernelIdeal.Gen.bcast_S100000_S100000x1_0 (k_v28 (Cert.KernelIdeal.Hand.U1 (F := Ideal) m c)) : FVec Ideal Cert.KernelIdeal.S100000x1 .f32) = arr_main_v29 (afterG0 V') := by
  unfold afterG0; exact agree_G0_invdeg _ _ harg1 harg5

/-! ## Per layer: the aggregation -/

theorem stage_G1 (hz : k_v33 (Cert.KernelIdeal.Hand.U2 (F := Ideal) m c) = arr_main_v34 (afterL0 V'))
    (hnorm : k_v26 (Cert.KernelIdeal.Hand.U1 (F := Ideal) m c) = arr_main_v26 (afterG0 V')) (hsrc : k_v6 (Cert.KernelIdeal.Hand.U1 (F := Ideal) m c) = afterG0 V' (Proc.devRef .tc Cert.ReferenceIdeal.main_v6)) (hdst : k_v3 (Cert.KernelIdeal.Hand.U1 (F := Ideal) m c) = afterG0 V' (Proc.devRef .tc Cert.ReferenceIdeal.main_v3))
    (hinv : (broadcastInDim Cert.KernelIdeal.S100000x1 ![0] Cert.KernelIdeal.Gen.bcast_S100000_S100000x1_0 (k_v28 (Cert.KernelIdeal.Hand.U1 (F := Ideal) m c)) : FVec Ideal Cert.KernelIdeal.S100000x1 .f32) = arr_main_v29 (afterG0 V'))
    (hb : k_arg6 (launchK m c) = arr_main_arg6 V') :
    k_v54 (Cert.KernelIdeal.Hand.U3 (F := Ideal) m c) = arr_main_v54 (afterG1 V') := by
  unfold afterG1
  refine agree_G1 (Cert.KernelIdeal.Hand.U2 (F := Ideal) m c) (afterL0 V') hz ?_ ?_ ?_ ?_ ?_
  · exact ((Cert.KernelIdeal.Hand.keep_v26_2 m c).trans hnorm).trans (kept_G1_main_v26 V').symm
  · exact ((Cert.KernelIdeal.Hand.keep_v6_2 m c).trans hsrc).trans (kept_G1_main_v6 V').symm
  · exact ((Cert.KernelIdeal.Hand.keep_v3_2 m c).trans hdst).trans (kept_G1_main_v3 V').symm
  · rw [show ((Cert.KernelIdeal.Hand.U2 (F := Ideal) m c) (Proc.devRef .tc Cert.KernelIdeal.main_v28) : FVec Ideal Cert.KernelIdeal.S100000 .f32) = k_v28 (Cert.KernelIdeal.Hand.U1 (F := Ideal) m c) from Cert.KernelIdeal.Hand.keep_v28_2 m c]
    exact hinv.trans (kept_G1_main_v29 V').symm
  · exact ((Cert.KernelIdeal.Hand.keep_arg6_2 m c).trans hb).trans (kept_G1_main_arg6 V').symm

theorem stage_G2 (hz : k_v63 (Cert.KernelIdeal.Hand.U7 (F := Ideal) m c) = arr_main_v79 (afterL1 V'))
    (hnorm : k_v26 (Cert.KernelIdeal.Hand.U1 (F := Ideal) m c) = arr_main_v26 (afterG0 V')) (hsrc : k_v6 (Cert.KernelIdeal.Hand.U1 (F := Ideal) m c) = afterG0 V' (Proc.devRef .tc Cert.ReferenceIdeal.main_v6)) (hdst : k_v3 (Cert.KernelIdeal.Hand.U1 (F := Ideal) m c) = afterG0 V' (Proc.devRef .tc Cert.ReferenceIdeal.main_v3))
    (hinv : (broadcastInDim Cert.KernelIdeal.S100000x1 ![0] Cert.KernelIdeal.Gen.bcast_S100000_S100000x1_0 (k_v28 (Cert.KernelIdeal.Hand.U1 (F := Ideal) m c)) : FVec Ideal Cert.KernelIdeal.S100000x1 .f32) = arr_main_v29 (afterG0 V'))
    (hb : k_arg6 (launchK m c) = arr_main_arg6 V') :
    k_v84 (Cert.KernelIdeal.Hand.U8 (F := Ideal) m c) = arr_main_v99 (afterG2 V') := by
  unfold afterG2
  refine agree_G2 (Cert.KernelIdeal.Hand.U7 (F := Ideal) m c) (afterL1 V') hz ?_ ?_ ?_ ?_ ?_
  · exact ((Cert.KernelIdeal.Hand.keep_v26_7 m c).trans hnorm).trans (kept_G2_main_v26 V').symm
  · exact ((Cert.KernelIdeal.Hand.keep_v6_7 m c).trans hsrc).trans (kept_G2_main_v6 V').symm
  · exact ((Cert.KernelIdeal.Hand.keep_v3_7 m c).trans hdst).trans (kept_G2_main_v3 V').symm
  · rw [show ((Cert.KernelIdeal.Hand.U7 (F := Ideal) m c) (Proc.devRef .tc Cert.KernelIdeal.main_v28) : FVec Ideal Cert.KernelIdeal.S100000 .f32) = k_v28 (Cert.KernelIdeal.Hand.U1 (F := Ideal) m c) from Cert.KernelIdeal.Hand.keep_v28_7 m c]
    exact hinv.trans (kept_G2_main_v29 V').symm
  · exact ((Cert.KernelIdeal.Hand.keep_arg6_7 m c).trans hb).trans (kept_G2_main_arg6 V').symm

theorem stage_G3 (hz : k_v93 (Cert.KernelIdeal.Hand.U12 (F := Ideal) m c) = arr_main_v124 (afterL2 V'))
    (hnorm : k_v26 (Cert.KernelIdeal.Hand.U1 (F := Ideal) m c) = arr_main_v26 (afterG0 V')) (hsrc : k_v6 (Cert.KernelIdeal.Hand.U1 (F := Ideal) m c) = afterG0 V' (Proc.devRef .tc Cert.ReferenceIdeal.main_v6)) (hdst : k_v3 (Cert.KernelIdeal.Hand.U1 (F := Ideal) m c) = afterG0 V' (Proc.devRef .tc Cert.ReferenceIdeal.main_v3))
    (hinv : (broadcastInDim Cert.KernelIdeal.S100000x1 ![0] Cert.KernelIdeal.Gen.bcast_S100000_S100000x1_0 (k_v28 (Cert.KernelIdeal.Hand.U1 (F := Ideal) m c)) : FVec Ideal Cert.KernelIdeal.S100000x1 .f32) = arr_main_v29 (afterG0 V'))
    (hb : k_arg6 (launchK m c) = arr_main_arg6 V') :
    k_v114 (Cert.KernelIdeal.Hand.U13 (F := Ideal) m c) = arr_main_v144 (afterG3 V') := by
  unfold afterG3
  refine agree_G3 (Cert.KernelIdeal.Hand.U12 (F := Ideal) m c) (afterL2 V') hz ?_ ?_ ?_ ?_ ?_
  · exact ((Cert.KernelIdeal.Hand.keep_v26_12 m c).trans hnorm).trans (kept_G3_main_v26 V').symm
  · exact ((Cert.KernelIdeal.Hand.keep_v6_12 m c).trans hsrc).trans (kept_G3_main_v6 V').symm
  · exact ((Cert.KernelIdeal.Hand.keep_v3_12 m c).trans hdst).trans (kept_G3_main_v3 V').symm
  · rw [show ((Cert.KernelIdeal.Hand.U12 (F := Ideal) m c) (Proc.devRef .tc Cert.KernelIdeal.main_v28) : FVec Ideal Cert.KernelIdeal.S100000 .f32) = k_v28 (Cert.KernelIdeal.Hand.U1 (F := Ideal) m c) from Cert.KernelIdeal.Hand.keep_v28_12 m c]
    exact hinv.trans (kept_G3_main_v29 V').symm
  · exact ((Cert.KernelIdeal.Hand.keep_arg6_12 m c).trans hb).trans (kept_G3_main_arg6 V').symm

/-! ## After the last layer: the pooling -/

theorem stage_Pl_sums (hh : k_v122 (Cert.KernelIdeal.Hand.U16 (F := Ideal) m c) = arr_main_v168 (afterA2 V')) (hbatch : k_arg3 (launchK m c) = V' (Proc.devRef .tc Cert.ReferenceIdeal.main_arg3)) :
    k_v125 (Cert.KernelIdeal.Hand.U17 (F := Ideal) m c) = arr_main_v171 (afterPl V') := by
  unfold afterPl
  refine agree_Pl_sums (Cert.KernelIdeal.Hand.U16 (F := Ideal) m c) (afterA2 V') hh ?_
  exact ((Cert.KernelIdeal.Hand.keep_arg3_16 m c).trans hbatch).trans (kept_Pl_main_arg3 V').symm

theorem stage_Pl_cnt (hbatch : k_arg3 (launchK m c) = V' (Proc.devRef .tc Cert.ReferenceIdeal.main_arg3)) (g : Fin 100) :
    k_v130 (Cert.KernelIdeal.Hand.U17 (F := Ideal) m c) (ix2 g (0 : Fin 1)) = arr_main_v175 (afterPl V') (ix1 g) := by
  have h : k_v130 (Cert.KernelIdeal.Hand.U17 (F := Ideal) m c) = broadcastInDim Cert.KernelIdeal.S100x1 ![0] Cert.KernelIdeal.Gen.bcast_S100_S100x1_0 (arr_main_v175 (afterPl V')) := by
    unfold afterPl
    refine agree_Pl_cnt (Cert.KernelIdeal.Hand.U16 (F := Ideal) m c) (afterA2 V') ?_
    exact ((Cert.KernelIdeal.Hand.keep_arg3_16 m c).trans hbatch).trans (kept_Pl_main_arg3 V').symm
  rw [h]
  exact broadcastInDim_apply _ _ _ _ (ix1 g) (fun a => by match a with | ⟨0, _⟩ => rfl)

end Cert.Bridge

end
-- ==== Proof.KI.Val0.lean ====
/- Region 0 of @main, the first linear layer, at the ideal values: what the region leaves in its output array, entry by
   entry, as a function of the arrays it finds. The block a grid point stores is the product of a 5000-row block of the
   features by the weight, a sum over the 384 contracted positions (the roundings to bf16 are the identity on the
   extended reals, and the product accumulates from zero); the block of point t is rows 5000 t … 5000 t + 4999 of ONE
   whole-array product; the twenty blocks tile the 100000 rows; so the array ends holding that product. -/
import proofs.«177080_j35828617183700_2_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

/-- The dimension numbers of the product: rows by the contracted axis, the contracted axis by columns. -/
abbrev dims0 : DotDims S5000x384 S384x32 S5000x32 := dot_S5000x384_S384x32_S5000x32_1_0_0_1_n_n

theorem dims0_lhs_row (j : S5000x32.Idx) (k : dims0.contr.Idx) : (dims0.lhsIdx j k 0 : ℕ) = j 0 := by
  simp [DotDims.lhsIdx, dims0, dot_S5000x384_S384x32_S5000x32_1_0_0_1_n_n]; rfl
theorem dims0_lhs_col (j : S5000x32.Idx) (k : dims0.contr.Idx) : (dims0.lhsIdx j k 1 : ℕ) = k ⟨0, by decide⟩ := by
  simp [DotDims.lhsIdx, dims0, dot_S5000x384_S384x32_S5000x32_1_0_0_1_n_n]; rfl
theorem dims0_rhs_row (j : S5000x32.Idx) (k : dims0.contr.Idx) : (dims0.rhsIdx j k 0 : ℕ) = k ⟨0, by decide⟩ := by
  simp [DotDims.rhsIdx, dims0, dot_S5000x384_S384x32_S5000x32_1_0_0_1_n_n]; rfl
theorem dims0_rhs_col (j : S5000x32.Idx) (k : dims0.contr.Idx) : (dims0.rhsIdx j k 1 : ℕ) = j 1 := by
  simp [DotDims.rhsIdx, dims0, dot_S5000x384_S384x32_S5000x32_1_0_0_1_n_n]; rfl

/-- The contraction index is its one coordinate, below 384. -/
def contr0 : dims0.contr.Idx ≃ Fin 384 := contrEquiv1 dims0 384 rfl rfl

theorem contr0_symm_val (k : Fin 384) : ((contr0.symm k) ⟨0, by decide⟩ : ℕ) = k.val :=
  contrEquiv1_symm_val dims0 384 rfl rfl k

/-- At the ideal values the stored block, at row p and column q, is the sum over the 384 contracted positions of the
    block's row entry times the weight's column entry: the roundings to bf16 are the identity and the product
    accumulates from zero. -/
theorem pay0_apply (x : Vec Ideal S5000x384 .f32) (wt : Vec Ideal S384x32 .f32) (p : Fin 5000) (q : Fin 32) :
    k0_pay1 x wt (ix2 p q) = ∑ k : Fin 384, x (ix2 p k) * wt (ix2 k q) := by
  unfold k0_pay1
  refine (Ideal.matmul_constant_zero_apply dims0 none _ _ (ix2 p q)).trans ?_
  rw [← Equiv.sum_comp contr0.symm]
  refine Finset.sum_congr rfl fun k _ => ?_
  have hl : dims0.lhsIdx (ix2 p q) (contr0.symm k) = ix2 p k := by
    funext a; apply Fin.ext
    match a with
    | ⟨0, _⟩ => exact dims0_lhs_row _ _
    | ⟨1, _⟩ => exact (dims0_lhs_col _ _).trans (contr0_symm_val k)
  have hr : dims0.rhsIdx (ix2 p q) (contr0.symm k) = ix2 k q := by
    funext a; apply Fin.ext
    match a with
    | ⟨0, _⟩ => exact (dims0_rhs_row _ _).trans (contr0_symm_val k)
    | ⟨1, _⟩ => exact dims0_rhs_col _ _
  show x (dims0.lhsIdx (ix2 p q) (contr0.symm k)) * wt (dims0.rhsIdx (ix2 p q) (contr0.symm k)) = _
  rw [hl, hr]

/-- The same at any index of the block, its coordinates named. -/
theorem pay0_at (x : Vec Ideal S5000x384 .f32) (wt : Vec Ideal S384x32 .f32) (j : S5000x32.Idx) :
    k0_pay1 x wt j = ∑ k : Fin 384, x (ix2 (⟨(j 0).val, idx2_lt0 j⟩ : Fin 5000) k) * wt (ix2 k (⟨(j 1).val, idx2_lt1 j⟩ : Fin 32)) := by
  obtain ⟨p, q, rfl⟩ : ∃ (p : Fin 5000) (q : Fin 32), j = ix2 p q := ⟨j 0, j 1, eq_ix2 j⟩
  exact pay0_apply x wt p q

/-! ## From the blocks to the array -/

-- what every buffer of the core holds when the region is entered, at the ideal values
variable (V : (c : Dev nD) → (b : Ref sig .tc) → Buf (Elt Ideal) ((c : Thread nD τ).loc b))

theorem zeros0 : (![0, 0] : Fin 2 → Nat) = fun _ => 0 := funext fun a => by fin_cases a <;> rfl

/-- The product of the whole feature array and the weight, entry by entry. -/
def lin0 (a : Vec Ideal S100000x384 .f32) (wt : Vec Ideal S384x32 .f32) : Vec Ideal S100000x32 .f32 :=
  fun i => ∑ k : Fin 384, a (ix2 (⟨(i 0).val, idx2_lt0 i⟩ : Fin 100000) k) * wt (ix2 k (⟨(i 1).val, idx2_lt1 i⟩ : Fin 32))

theorem lin0_apply (a : Vec Ideal S100000x384 .f32) (wt : Vec Ideal S384x32 .f32) (p : Fin 100000) (q : Fin 32) :
    lin0 a wt (ix2 p q) = ∑ k : Fin 384, a (ix2 p k) * wt (ix2 k q) := rfl

/-- The printed index maps over the grid: at point t the feature window and the output window are on block row t, the
    weight window on its one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds: row r of the block is row
    5000 t + r of the array, and the weight block is the whole weight. -/
theorem flushed0_eq (c : Dev nD) (t : Fin cfg0.N) :
    (dat0 (F := Ideal) V c).flushed 2 t = ((cfg0.win 2).blk t).view.read (Elt Ideal) (lin0 (V c main_arg0) (V c main_arg4)) := by
  show (cfg0.win 2).cut (grid0.coords t) ((dat0 V c).after 2 t) = _
  rw [after0_2]
  unfold prod0
  rw [View.canon_unit_zero zeros0]
  simp only [View.ld_unit_zero (S := S5000x384) zeros0, View.ld_unit_zero (S := S384x32) zeros0]
  obtain ⟨e0, e1, e2, e3, e4, e5⟩ := idx0 t
  funext j
  show k0_pay1 (blk0 V c 0 t) (blk0 V c 1 t) j = lin0 (V c main_arg0) (V c main_arg4) (((cfg0.win 2).blk t).view.emb j)
  refine (pay0_at _ _ j).trans ?_
  unfold lin0
  refine Finset.sum_congr rfl fun k _ => ?_
  have hx : ((cfg0.win 0).blk t).view.emb (ix2 (⟨(j 0).val, idx2_lt0 j⟩ : Fin 5000) k)
      = ix2 (⟨((((cfg0.win 2).blk t).view.emb j) 0).val, idx2_lt0 _⟩ : Fin 100000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 384 + 1 * k.val = k.val; omega
  have hw : ((cfg0.win 1).blk t).view.emb (ix2 k (⟨(j 1).val, idx2_lt1 j⟩ : Fin 32))
      = ix2 k (⟨((((cfg0.win 2).blk t).view.emb j) 1).val, idx2_lt1 _⟩ : Fin 32) := by
    funext a; apply Fin.ext
    match a with
    | ⟨0, _⟩ => show win0_1.index t (0 : Fin 2) * 384 + 1 * k.val = k.val; omega
    | ⟨1, _⟩ => show win0_1.index t (1 : Fin 2) * 32 + 1 * (j 1).val = win0_2.index t (1 : Fin 2) * 32 + 1 * (j 1).val; omega
  refine congrArg₂ (· * ·) ?_ ?_
  · show V c main_arg0 (((cfg0.win 0).blk t).view.emb (ix2 (⟨(j 0).val, idx2_lt0 j⟩ : Fin 5000) k)) = _
    rw [hx]
  · show V c main_arg4 (((cfg0.win 1).blk t).view.emb (ix2 k (⟨(j 1).val, idx2_lt1 j⟩ : Fin 32))) = _
    rw [hw]

/-- An index of the output array is in point t's block iff each coordinate is in the block's range on its axis. -/
theorem mem_out0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v33).slice (win0_2.rect t)).set ↔ _
  rw [View.set_slice_whole, Rect.mem_set_unit]
  exact Iff.rfl

/-- The blocks tile the output array: row r is in the block of point r / 5000. -/
theorem cover_out0 (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  have hN : grid0.N = 20 := N_0
  have ht : (i 0).val / 5000 < cfg0.N := by show _ < grid0.N; omega
  obtain ⟨-, -, -, -, e4, e5⟩ := idx0 ⟨(i 0).val / 5000, ht⟩
  refine ⟨⟨(i 0).val / 5000, ht⟩, flush0_2 _, ?_⟩
  rw [mem_out0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    rw [e5]; omega

/-- After the region the output array holds the product of the arrays the region found. -/
theorem arr0_eq (c : Dev nD) : (dat0 (F := Ideal) V c).arrAt 2 cfg0.N = lin0 (V c main_arg0) (V c main_arg4) :=
  (dat0 (F := Ideal) V c).arrAt_eq_of_cover 2 _ (fun t _ => flushed0_eq V c t) cover_out0

/-- The arrays the region reads and the array it leaves, at their vector types. -/
abbrev feat0 (c : Dev nD) : Vec Ideal S100000x384 .f32 := V c main_arg0
abbrev wt0 (c : Dev nD) : Vec Ideal S384x32 .f32 := V c main_arg4
abbrev out0 (c : Dev nD) : Vec Ideal S100000x32 .f32 := (dat0 (F := Ideal) V c).arrAt 2 cfg0.N

/-- Entry by entry: row p, column q of the output is the sum over the 384 feature columns of the feature entry times the
    weight entry. -/
theorem val0 (c : Dev nD) (p : Fin 100000) (q : Fin 32) :
    out0 V c (ix2 p q) = ∑ k : Fin 384, feat0 V c (ix2 p k) * wt0 V c (ix2 k q) :=
  (congrFun (arr0_eq V c) (ix2 p q)).trans (lin0_apply _ _ p q)

end Cert.KernelIdeal.Hand

end
-- ==== Proof.KI.Val3.lean ====
/- Region 3 of @main, the second linear layer, at the ideal values: what the region leaves in its output array, entry by
   entry, as a function of the arrays it finds. The block a grid point stores is the product of a 5000-row block of the
   preceding normalization's output by the weight, a sum over the 32 contracted positions (the roundings to bf16 are the identity on the
   extended reals, and the product accumulates from zero); the block of point t is rows 5000 t … 5000 t + 4999 of ONE
   whole-array product; the twenty blocks tile the 100000 rows; so the array ends holding that product. -/
import proofs.«177080_j35828617183700_2_alg».proof.Proof.KI.Reg3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

/-- The dimension numbers of the product: rows by the contracted axis, the contracted axis by columns. -/
abbrev dims3 : DotDims S5000x32 S32x32 S5000x32 := dot_S5000x32_S32x32_S5000x32_1_0_0_1_n_n

theorem dims3_lhs_row (j : S5000x32.Idx) (k : dims3.contr.Idx) : (dims3.lhsIdx j k 0 : ℕ) = j 0 := by
  simp [DotDims.lhsIdx, dims3, dot_S5000x32_S32x32_S5000x32_1_0_0_1_n_n]; rfl
theorem dims3_lhs_col (j : S5000x32.Idx) (k : dims3.contr.Idx) : (dims3.lhsIdx j k 1 : ℕ) = k ⟨0, by decide⟩ := by
  simp [DotDims.lhsIdx, dims3, dot_S5000x32_S32x32_S5000x32_1_0_0_1_n_n]; rfl
theorem dims3_rhs_row (j : S5000x32.Idx) (k : dims3.contr.Idx) : (dims3.rhsIdx j k 0 : ℕ) = k ⟨0, by decide⟩ := by
  simp [DotDims.rhsIdx, dims3, dot_S5000x32_S32x32_S5000x32_1_0_0_1_n_n]; rfl
theorem dims3_rhs_col (j : S5000x32.Idx) (k : dims3.contr.Idx) : (dims3.rhsIdx j k 1 : ℕ) = j 1 := by
  simp [DotDims.rhsIdx, dims3, dot_S5000x32_S32x32_S5000x32_1_0_0_1_n_n]; rfl

/-- The contraction index is its one coordinate, below 32. -/
def contr3 : dims3.contr.Idx ≃ Fin 32 := contrEquiv1 dims3 32 rfl rfl

theorem contr3_symm_val (k : Fin 32) : ((contr3.symm k) ⟨0, by decide⟩ : ℕ) = k.val :=
  contrEquiv1_symm_val dims3 32 rfl rfl k

/-- At the ideal values the stored block, at row p and column q, is the sum over the 32 contracted positions of the
    block's row entry times the weight's column entry: the roundings to bf16 are the identity and the product
    accumulates from zero. -/
theorem pay3_apply (x : Vec Ideal S5000x32 .f32) (wt : Vec Ideal S32x32 .f32) (p : Fin 5000) (q : Fin 32) :
    k3_pay1 x wt (ix2 p q) = ∑ k : Fin 32, x (ix2 p k) * wt (ix2 k q) := by
  unfold k3_pay1
  simp only [shapeCast_self]
  refine (Ideal.matmul_constant_zero_apply dims3 none _ _ (ix2 p q)).trans ?_
  rw [← Equiv.sum_comp contr3.symm]
  refine Finset.sum_congr rfl fun k _ => ?_
  have hl : dims3.lhsIdx (ix2 p q) (contr3.symm k) = ix2 p k := by
    funext a; apply Fin.ext
    match a with
    | ⟨0, _⟩ => exact dims3_lhs_row _ _
    | ⟨1, _⟩ => exact (dims3_lhs_col _ _).trans (contr3_symm_val k)
  have hr : dims3.rhsIdx (ix2 p q) (contr3.symm k) = ix2 k q := by
    funext a; apply Fin.ext
    match a with
    | ⟨0, _⟩ => exact (dims3_rhs_row _ _).trans (contr3_symm_val k)
    | ⟨1, _⟩ => exact dims3_rhs_col _ _
  show x (dims3.lhsIdx (ix2 p q) (contr3.symm k)) * wt (dims3.rhsIdx (ix2 p q) (contr3.symm k)) = _
  rw [hl, hr]

/-- The same at any index of the block, its coordinates named. -/
theorem pay3_at (x : Vec Ideal S5000x32 .f32) (wt : Vec Ideal S32x32 .f32) (j : S5000x32.Idx) :
    k3_pay1 x wt j = ∑ k : Fin 32, x (ix2 (⟨(j 0).val, idx2_lt0 j⟩ : Fin 5000) k) * wt (ix2 k (⟨(j 1).val, idx2_lt1 j⟩ : Fin 32)) := by
  obtain ⟨p, q, rfl⟩ : ∃ (p : Fin 5000) (q : Fin 32), j = ix2 p q := ⟨j 0, j 1, eq_ix2 j⟩
  exact pay3_apply x wt p q

/-! ## From the blocks to the array -/

-- what every buffer of the core holds when the region is entered, at the ideal values
variable (V : (c : Dev nD) → (b : Ref sig .tc) → Buf (Elt Ideal) ((c : Thread nD τ).loc b))

theorem zeros3 : (![0, 0] : Fin 2 → Nat) = fun _ => 0 := funext fun a => by fin_cases a <;> rfl

/-- The product of the whole feature array and the weight, entry by entry. -/
def lin3 (a : Vec Ideal S100000x32 .f32) (wt : Vec Ideal S32x32 .f32) : Vec Ideal S100000x32 .f32 :=
  fun i => ∑ k : Fin 32, a (ix2 (⟨(i 0).val, idx2_lt0 i⟩ : Fin 100000) k) * wt (ix2 k (⟨(i 1).val, idx2_lt1 i⟩ : Fin 32))

theorem lin3_apply (a : Vec Ideal S100000x32 .f32) (wt : Vec Ideal S32x32 .f32) (p : Fin 100000) (q : Fin 32) :
    lin3 a wt (ix2 p q) = ∑ k : Fin 32, a (ix2 p k) * wt (ix2 k q) := rfl

/-- The printed index maps over the grid: at point t the feature window and the output window are on block row t, the
    weight window on its one block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the arrays the region finds: row r of the block is row
    5000 t + r of the array, and the weight block is the whole weight. -/
theorem flushed3_eq (c : Dev nD) (t : Fin cfg3.N) :
    (dat3 (F := Ideal) V c).flushed 2 t = ((cfg3.win 2).blk t).view.read (Elt Ideal) (lin3 (V c main_v62) (V c main_v30)) := by
  show (cfg3.win 2).cut (grid3.coords t) ((dat3 V c).after 2 t) = _
  rw [after3_2]
  unfold prod3
  rw [View.canon_unit_zero zeros3]
  simp only [View.ld_unit_zero (S := S5000x32) zeros3, View.ld_unit_zero (S := S32x32) zeros3]
  obtain ⟨e0, e1, e2, e3, e4, e5⟩ := idx3 t
  funext j
  show k3_pay1 (blk3 V c 0 t) (blk3 V c 1 t) j = lin3 (V c main_v62) (V c main_v30) (((cfg3.win 2).blk t).view.emb j)
  refine (pay3_at _ _ j).trans ?_
  unfold lin3
  refine Finset.sum_congr rfl fun k _ => ?_
  have hx : ((cfg3.win 0).blk t).view.emb (ix2 (⟨(j 0).val, idx2_lt0 j⟩ : Fin 5000) k)
      = ix2 (⟨((((cfg3.win 2).blk t).view.emb j) 0).val, idx2_lt0 _⟩ : Fin 100000) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * k.val = k.val; omega
  have hw : ((cfg3.win 1).blk t).view.emb (ix2 k (⟨(j 1).val, idx2_lt1 j⟩ : Fin 32))
      = ix2 k (⟨((((cfg3.win 2).blk t).view.emb j) 1).val, idx2_lt1 _⟩ : Fin 32) := by
    funext a; apply Fin.ext
    match a with
    | ⟨0, _⟩ => show win3_1.index t (0 : Fin 2) * 32 + 1 * k.val = k.val; omega
    | ⟨1, _⟩ => show win3_1.index t (1 : Fin 2) * 32 + 1 * (j 1).val = win3_2.index t (1 : Fin 2) * 32 + 1 * (j 1).val; omega
  refine congrArg₂ (· * ·) ?_ ?_
  · show V c main_v62 (((cfg3.win 0).blk t).view.emb (ix2 (⟨(j 0).val, idx2_lt0 j⟩ : Fin 5000) k)) = _
    rw [hx]
  · show V c main_v30 (((cfg3.win 1).blk t).view.emb (ix2 k (⟨(j 1).val, idx2_lt1 j⟩ : Fin 32))) = _
    rw [hw]

/-- An index of the output array is in point t's block iff each coordinate is in the block's range on its axis. -/
theorem mem_out3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v63).slice (win3_2.rect t)).set ↔ _
  rw [View.set_slice_whole, Rect.mem_set_unit]
  exact Iff.rfl

/-- The blocks tile the output array: row r is in the block of point r / 5000. -/
theorem cover_out3 (i : S100000x32.Idx) :
    ∃ t : Fin cfg3.N, (cfg3.win 2).flush t = true ∧ i ∈ ((cfg3.win 2).blk t).view.set := by
  have hi0 : (i 0).val < 100000 := idx2_lt0 i
  have hi1 : (i 1).val < 32 := idx2_lt1 i
  have hN : grid3.N = 20 := N_3
  have ht : (i 0).val / 5000 < cfg3.N := by show _ < grid3.N; omega
  obtain ⟨-, -, -, -, e4, e5⟩ := idx3 ⟨(i 0).val / 5000, ht⟩
  refine ⟨⟨(i 0).val / 5000, ht⟩, flush3_2 _, ?_⟩
  rw [mem_out3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 32 ≤ (i 1).val ∧ (i 1).val < win3_2.index ⟨(i 0).val / 5000, ht⟩ (1 : Fin 2) * 32 + 32
    rw [e5]; omega

/-- After the region the output array holds the product of the arrays the region found. -/
theorem arr3_eq (c : Dev nD) : (dat3 (F := Ideal) V c).arrAt 2 cfg3.N = lin3 (V c main_v62) (V c main_v30) :=
  (dat3 (F := Ideal) V c).arrAt_eq_of_cover 2 _ (fun t _ => flushed3_eq V c t) cover_out3

/-- The arrays the region reads and the array it leaves, at their vector types. -/
abbrev feat3 (c : Dev nD) : Vec Ideal S100000x32 .f32 := V c main_v62
abbrev wt3 (c : Dev nD) : Vec Ideal S32x32 .f32 := V c main_v30
abbrev out3 (c : Dev nD) : Vec Ideal S100000x32 .f32 := (dat3 (F := Ideal) V c).arrAt 2 cfg3.N

/-- Entry by entry: row p, column q of the output is the sum over the 32 feature columns of the feature entry times the
    weight entry. -/
theorem val3 (c : Dev nD) (p : Fin 100000) (q : Fin 32) :
    out3 V c (ix2 p q) = ∑ k : Fin 32, feat3 V c (ix2 p k) * wt3 V c (ix2 k q) :=
  (congrFun (arr3_eq V c) (ix2 p q)).trans (lin3_apply _ _ p q)

end Cert.KernelIdeal.Hand

end
-- ==== Proof.KI.Val6.lean ====
/- Region 6 of @main, the third linear layer, at the ideal values: what the region leaves in its output array, entry by
   entry, as a function of the arrays it finds. The block a grid point stores is the product of a 5000-row block of the
   preceding normalization's output by the weight, a sum over the 32 contracted positions (the roundings to bf16 are the identity on the
   extended reals, and the product accumulates from zero); the block of point t is rows 5000 t … 5000 t + 4999 of ONE
   whole-array product; the twenty blocks tile the 100000 rows; so the array ends holding that product. -/
import proofs.«177080_j35828617183700_2_alg».proof.Proof.KI.Reg6
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

/-- The dimension numbers of the product: rows by the contracted axis, the contracted axis by columns. -/
abbrev dims6 : DotDims S5000x32 S32x32 S5000x32 := dot_S5000x32_S32x32_S5000x32_1_0_0_1_n_n

theorem dims6_lhs_row (j : S5000x32.Idx) (k : dims6.contr.Idx) : (dims6.lhsIdx j k 0 : ℕ) = j 0 := by
  simp [DotDims.lhsIdx, dims6, dot_S5000x32_S32x32_S5000x32_1_0_0_1_n_n]; rfl
theorem dims6_lhs_col (j : S5000x32.Idx) (k : dims6.contr.Idx) : (dims6.lhsIdx j k 1 : ℕ) = k ⟨0, by decide⟩ := by
  simp [DotDims.lhsIdx, dims6, dot_S5000x32_S32x32_S5000x32_1_0_0_1_n_n]; rfl
theorem dims6_rhs_row (j : S5000x32.Idx) (k : dims6.contr.Idx) : (dims6.rhsIdx j k 0 : ℕ) = k ⟨0, by decide⟩ := by
  simp [DotDims.rhsIdx, dims6, dot_S5000x32_S32x32_S5000x32_1_0_0_1_n_n]; rfl
theorem dims6_rhs_col (j : S5000x32.Idx) (k : dims6.contr.Idx) : (dims6.rhsIdx j k 1 : ℕ) = j 1 := by
  simp [DotDims.rhsIdx, dims6, dot_S5000x32_S32x32_S5000x32_1_0_0_1_n_n]; rfl

/-- The contraction index is its one coordinate, below 32. -/
def contr6 : dims6.contr.Idx ≃ Fin 32 := contrEquiv1 dims6 32 rfl rfl

theorem contr6_symm_val (k : Fin 32) : ((contr6.symm k) ⟨0, by decide⟩ : ℕ) = k.val :=
  contrEquiv1_symm_val dims6 32 rfl rfl k

/-- At the ideal values the stored block, at row p and column q, is the sum over the 32 contracted positions of the
    block's row entry times the weight's column entry: the roundings to bf16 are the identity and the product
    accumulates from zero. -/
theorem pay6_apply (x : Vec Ideal S5000x32 .f32) (wt : Vec Ideal S32x32 .f32) (p : Fin 5000) (q : Fin 32) :
    k6_pay1 x wt (ix2 p q) = ∑ k : Fin 32, x (ix2 p k) * wt (ix2 k q) := by
  unfold k6_pay1
  simp only [shapeCast_self]
  refine (Ideal.matmul_constant_zero_apply dims6 none _ _ (ix2 p q)).trans ?_
  rw [← Equiv.sum_comp contr6.symm]
  refine Finset.sum_congr rfl fun k _ => ?_
  have hl : dims6.lhsIdx (ix2 p q) (contr6.symm k) = ix2 p k := by
    funext a; apply Fin.ext
    match a with
    | ⟨0, _⟩ => exact dims6_lhs_row _ _
    | ⟨1, _⟩ => exact (dims6_lhs_col _ _).trans (contr6_symm_val k)
  have hr : dims6.rhsIdx (ix2 p q) (contr6.symm k) = ix2 k q := by
    funext a; apply Fin.ext
    match a with
    | ⟨0, _⟩ => exact (dims6_rhs_row _ _).trans (contr6_symm_val k)
    | ⟨1, _⟩ => exact dims6_rhs_col _ _
  show x (dims6.lhsIdx (ix2 p q) (contr6.symm k)) * wt (dims6.rhsIdx (ix2 p q) (contr6.symm k)) = _
  rw [hl, hr]

/-- The same at any index of the block, its coordinates named. -/
theorem pay6_at (x : Vec Ideal S5000x32 .f32) (wt : Vec Ideal S32x32 .f32) (j : S5000x32.Idx) :
    k6_pay1 x wt j = ∑ k : Fin 32, x (ix2 (⟨(j 0).val, idx2_lt0 j⟩ : Fin 5000) k) * wt (ix2 k (⟨(j 1).val, idx2_lt1 j⟩ : Fin 32)) := by
  obtain ⟨p, q, rfl⟩ : ∃ (p : Fin 5000) (q : Fin 32), j = ix2 p q := ⟨j 0, j 1, eq_ix2 j⟩
  exact pay6_apply x wt p q

/-! ## From the blocks to the array -/

-- what every buffer of the core holds when the region is entered, at the ideal values
variable (V : (c : Dev nD) → (b : Ref sig .tc) → Buf (Elt Ideal) ((c : Thread nD τ).loc b))

theorem zeros6 : (![0, 0] : Fin 2 → Nat) = fun _ => 0 := funext fun a => by fin_cases a <;> rfl

/-- The product of the whole feature array and the weight, entry by entry. -/
def lin6 (a : Vec Ideal S100000x32 .f32) (wt : Vec Ideal S32x32 .f32) : Vec Ideal S100000x32 .f32 :=
  fun i => ∑ k : Fin 32, a (ix2 (⟨(i 0).val, idx2_lt0 i⟩ : Fin 100000) k) * wt (ix2 k (⟨(i 1).val, idx2_lt1 i⟩ : Fin 32))

theorem lin6_apply (a : Vec Ideal S100000x32 .f32) (wt : Vec Ideal S32x32 .f32) (p : Fin 100000) (q : Fin 32) :
    lin6 a wt (ix2 p q) = ∑ k : Fin 32, a (ix2 p k) * wt (ix2 k q) := rfl

/-- The printed index maps over the grid: at point t the feature window and the output window are on block row t, the
    weight window on its one block. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the arrays the region finds: row r of the block is row
    5000 t + r of the array, and the weight block is the whole weight. -/
theorem flushed6_eq (c : Dev nD) (t : Fin cfg6.N) :
    (dat6 (F := Ideal) V c).flushed 2 t = ((cfg6.win 2).blk t).view.read (Elt Ideal) (lin6 (V c main_v92) (V c main_v32)) := by
  show (cfg6.win 2).cut (grid6.coords t) ((dat6 V c).after 2 t) = _
  rw [after6_2]
  unfold prod6
  rw [View.canon_unit_zero zeros6]
  simp only [View.ld_unit_zero (S := S5000x32) zeros6, View.ld_unit_zero (S := S32x32) zeros6]
  obtain ⟨e0, e1, e2, e3, e4, e5⟩ := idx6 t
  funext j
  show k6_pay1 (blk6 V c 0 t) (blk6 V c 1 t) j = lin6 (V c main_v92) (V c main_v32) (((cfg6.win 2).blk t).view.emb j)
  refine (pay6_at _ _ j).trans ?_
  unfold lin6
  refine Finset.sum_congr rfl fun k _ => ?_
  have hx : ((cfg6.win 0).blk t).view.emb (ix2 (⟨(j 0).val, idx2_lt0 j⟩ : Fin 5000) k)
      = ix2 (⟨((((cfg6.win 2).blk t).view.emb j) 0).val, idx2_lt0 _⟩ : Fin 100000) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 32 + 1 * k.val = k.val; omega
  have hw : ((cfg6.win 1).blk t).view.emb (ix2 k (⟨(j 1).val, idx2_lt1 j⟩ : Fin 32))
      = ix2 k (⟨((((cfg6.win 2).blk t).view.emb j) 1).val, idx2_lt1 _⟩ : Fin 32) := by
    funext a; apply Fin.ext
    match a with
    | ⟨0, _⟩ => show win6_1.index t (0 : Fin 2) * 32 + 1 * k.val = k.val; omega
    | ⟨1, _⟩ => show win6_1.index t (1 : Fin 2) * 32 + 1 * (j 1).val = win6_2.index t (1 : Fin 2) * 32 + 1 * (j 1).val; omega
  refine congrArg₂ (· * ·) ?_ ?_
  · show V c main_v92 (((cfg6.win 0).blk t).view.emb (ix2 (⟨(j 0).val, idx2_lt0 j⟩ : Fin 5000) k)) = _
    rw [hx]
  · show V c main_v32 (((cfg6.win 1).blk t).view.emb (ix2 k (⟨(j 1).val, idx2_lt1 j⟩ : Fin 32))) = _
    rw [hw]

/-- An index of the output array is in point t's block iff each coordinate is in the block's range on its axis. -/
theorem mem_out6 (t : Fin cfg6.N) (i : S100000x32.Idx) :
    i ∈ ((cfg6.win 2).blk t).view.set ↔ ∀ a : Fin 2, win6_2.index t a * S5000x32.size a ≤ (i a).val ∧ (i a).val < win6_2.index t a * S5000x32.size a + S5000x32.size a := by
  show i ∈ ((View.whole main_v93).slice (win6_2.rect t)).set ↔ _
  rw [View.set_slice_whole, Rect.mem_set_unit]
  exact Iff.rfl

/-- The blocks tile the output array: row r is in the block of point r / 5000. -/
theorem cover_out6 (i : S100000x32.Idx) :
    ∃ t : Fin cfg6.N, (cfg6.win 2).flush t = true ∧ i ∈ ((cfg6.win 2).blk t).view.set := by
  have hi0 : (i 0).val < 100000 := idx2_lt0 i
  have hi1 : (i 1).val < 32 := idx2_lt1 i
  have hN : grid6.N = 20 := N_6
  have ht : (i 0).val / 5000 < cfg6.N := by show _ < grid6.N; omega
  obtain ⟨-, -, -, -, e4, e5⟩ := idx6 ⟨(i 0).val / 5000, ht⟩
  refine ⟨⟨(i 0).val / 5000, ht⟩, flush6_2 _, ?_⟩
  rw [mem_out6]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 32 ≤ (i 1).val ∧ (i 1).val < win6_2.index ⟨(i 0).val / 5000, ht⟩ (1 : Fin 2) * 32 + 32
    rw [e5]; omega

/-- After the region the output array holds the product of the arrays the region found. -/
theorem arr6_eq (c : Dev nD) : (dat6 (F := Ideal) V c).arrAt 2 cfg6.N = lin6 (V c main_v92) (V c main_v32) :=
  (dat6 (F := Ideal) V c).arrAt_eq_of_cover 2 _ (fun t _ => flushed6_eq V c t) cover_out6

/-- The arrays the region reads and the array it leaves, at their vector types. -/
abbrev feat6 (c : Dev nD) : Vec Ideal S100000x32 .f32 := V c main_v92
abbrev wt6 (c : Dev nD) : Vec Ideal S32x32 .f32 := V c main_v32
abbrev out6 (c : Dev nD) : Vec Ideal S100000x32 .f32 := (dat6 (F := Ideal) V c).arrAt 2 cfg6.N

/-- Entry by entry: row p, column q of the output is the sum over the 32 feature columns of the feature entry times the
    weight entry. -/
theorem val6 (c : Dev nD) (p : Fin 100000) (q : Fin 32) :
    out6 V c (ix2 p q) = ∑ k : Fin 32, feat6 V c (ix2 p k) * wt6 V c (ix2 k q) :=
  (congrFun (arr6_eq V c) (ix2 p q)).trans (lin6_apply _ _ p q)

end Cert.KernelIdeal.Hand

end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.KI.Val9.lean ====
/- Region 9 of @main, the readout head, at the ideal values: what the region leaves in its output array, entry by entry, as
   a function of the arrays it finds. The grid has one point and every window's block is its whole array, so what the
   body reads are the arrays themselves and what it stores is the whole output: at graph g and class j, the sum over the
   32 features of (the feature sum of g divided by the count of g raised to at least one) times the weight, plus the
   bias of j. The roundings to bf16 are the identity on the extended reals and the product accumulates from zero. -/
import proofs.«177080_j35828617183700_2_alg».proof.Proof.KI.Reg9
import proofs.«177080_j35828617183700_2_alg».proof.Proof.LibLayoutColumn
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The stored value at an index -/

/-- The dimension numbers of the head's product: graphs by features, features by classes. -/
abbrev dims9 : DotDims S100x32 S32x2 S100x2 := dot_S100x32_S32x2_S100x2_1_0_0_1_n_n

theorem dims9_lhs_row (j : S100x2.Idx) (k : dims9.contr.Idx) : (dims9.lhsIdx j k 0 : ℕ) = j 0 := by
  simp [DotDims.lhsIdx, dims9, dot_S100x32_S32x2_S100x2_1_0_0_1_n_n]; rfl
theorem dims9_lhs_col (j : S100x2.Idx) (k : dims9.contr.Idx) : (dims9.lhsIdx j k 1 : ℕ) = k ⟨0, by decide⟩ := by
  simp [DotDims.lhsIdx, dims9, dot_S100x32_S32x2_S100x2_1_0_0_1_n_n]; rfl
theorem dims9_rhs_row (j : S100x2.Idx) (k : dims9.contr.Idx) : (dims9.rhsIdx j k 0 : ℕ) = k ⟨0, by decide⟩ := by
  simp [DotDims.rhsIdx, dims9, dot_S100x32_S32x2_S100x2_1_0_0_1_n_n]; rfl
theorem dims9_rhs_col (j : S100x2.Idx) (k : dims9.contr.Idx) : (dims9.rhsIdx j k 1 : ℕ) = j 1 := by
  simp [DotDims.rhsIdx, dims9, dot_S100x32_S32x2_S100x2_1_0_0_1_n_n]; rfl

/-- The contraction index is its one coordinate, below 32. -/
def contr9 : dims9.contr.Idx ≃ Fin 32 := contrEquiv1 dims9 32 rfl rfl

theorem contr9_symm_val (k : Fin 32) : ((contr9.symm k) ⟨0, by decide⟩ : ℕ) = k.val :=
  contrEquiv1_symm_val dims9 32 rfl rfl k

/-- The head as ONE function of the four arrays, entry by entry: at graph g and class j, the sum over the features k of
    (sums g k divided by max (counts g) 1) times weight k j, plus bias j. The literal one is the f32 word 0x3F800000. -/
def headArr (s : Vec Ideal S100x32 .f32) (n : Vec Ideal S100x1 .f32) (wt : Vec Ideal S32x2 .f32) (b : Vec Ideal S1x2 .f32) :
    Vec Ideal S100x2 .f32 :=
  fun i => (∑ k : Fin 32, Ideal.div (s (ix2 (⟨(i 0).val, idx2_lt0 i⟩ : Fin 100) k))
        (max (n (ix2 (⟨(i 0).val, idx2_lt0 i⟩ : Fin 100) (0 : Fin 1))) (Ideal.ofBits .f32 0x3F800000#32))
      * wt (ix2 k (⟨(i 1).val, idx2_lt1 i⟩ : Fin 2)))
    + b (ix2 (0 : Fin 1) (⟨(i 1).val, idx2_lt1 i⟩ : Fin 2))

theorem headArr_apply (s : Vec Ideal S100x32 .f32) (n : Vec Ideal S100x1 .f32) (wt : Vec Ideal S32x2 .f32) (b : Vec Ideal S1x2 .f32)
    (g : Fin 100) (j : Fin 2) :
    headArr s n wt b (ix2 g j)
      = (∑ k : Fin 32, Ideal.div (s (ix2 g k)) (max (n (ix2 g (0 : Fin 1))) (Ideal.ofBits .f32 0x3F800000#32)) * wt (ix2 k j))
        + b (ix2 (0 : Fin 1) j) := rfl

/-- The stored value at graph g and class j. -/
theorem pay9_apply (s : Vec Ideal S100x32 .f32) (n : Vec Ideal S100x1 .f32) (wt : Vec Ideal S32x2 .f32) (b : Vec Ideal S1x2 .f32)
    (g : Fin 100) (j : Fin 2) :
    k9_pay1 s n wt b (ix2 g j)
      = (∑ k : Fin 32, Ideal.div (s (ix2 g k)) (max (n (ix2 g (0 : Fin 1))) (Ideal.ofBits .f32 0x3F800000#32)) * wt (ix2 k j))
        + b (ix2 (0 : Fin 1) j) := by
  unfold k9_pay1
  simp only [shapeCast_self]
  refine (addf_apply _ _ _).trans ?_
  refine congrArg₂ (· + ·) ?_ ?_
  · refine (Ideal.matmul_constant_zero_apply dims9 none _ _ (ix2 g j)).trans ?_
    rw [← Equiv.sum_comp contr9.symm]
    refine Finset.sum_congr rfl fun k _ => ?_
    have hl : dims9.lhsIdx (ix2 g j) (contr9.symm k) = ix2 g k := by
      funext a; apply Fin.ext
      match a with
      | ⟨0, _⟩ => exact dims9_lhs_row _ _
      | ⟨1, _⟩ => exact (dims9_lhs_col _ _).trans (contr9_symm_val k)
    have hr : dims9.rhsIdx (ix2 g j) (contr9.symm k) = ix2 k j := by
      funext a; apply Fin.ext
      match a with
      | ⟨0, _⟩ => exact (dims9_rhs_row _ _).trans (contr9_symm_val k)
      | ⟨1, _⟩ => exact dims9_rhs_col _ _
    beta_reduce
    rw [hl, hr]
    refine congrArg₂ (· * ·) ?_ rfl
    refine (truncf_apply (ψ := .bf16) (φ := .f32) _ _ _).trans ?_
    refine (divf_apply _ _ _).trans ?_
    refine congrArg (Ideal.div (s (ix2 g k))) ?_
    refine (Cert.Lib.Layout.broadcastTo_a1_ab_apply _ _ g k).trans ?_
    rfl
  · refine broadcastTo_apply _ _ (ix2 g j) (ix2 (0 : Fin 1) j) fun a => ?_
    match a with
    | ⟨0, _⟩ => rfl
    | ⟨1, _⟩ => rfl

/-- The same at any index of the output, its coordinates named. -/
theorem pay9_at (s : Vec Ideal S100x32 .f32) (n : Vec Ideal S100x1 .f32) (wt : Vec Ideal S32x2 .f32) (b : Vec Ideal S1x2 .f32)
    (i : S100x2.Idx) : k9_pay1 s n wt b i = headArr s n wt b i := by
  obtain ⟨g, j, rfl⟩ : ∃ (g : Fin 100) (j : Fin 2), i = ix2 g j := ⟨i 0, i 1, eq_ix2 i⟩
  exact pay9_apply s n wt b g j

/-! ## From the block to the array -/

-- what every buffer of the core holds when the region is entered, at the ideal values
variable (V : (c : Dev nD) → (b : Ref sig .tc) → Buf (Elt Ideal) ((c : Thread nD τ).loc b))

theorem zeros9 : (![0, 0] : Fin 2 → Nat) = fun _ => 0 := funext fun a => by fin_cases a <;> rfl

/-- The printed index maps over the grid's one point: every window is on its one block. -/
theorem idx9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- The arrays the region reads and the array it leaves, at their vector types. -/
abbrev sums9 (c : Dev nD) : Vec Ideal S100x32 .f32 := V c main_v125
abbrev cnt9 (c : Dev nD) : Vec Ideal S100x1 .f32 := V c main_v130
abbrev wt9 (c : Dev nD) : Vec Ideal S32x2 .f32 := V c main_arg9
abbrev bias9 (c : Dev nD) : Vec Ideal S1x2 .f32 := V c main_v131
abbrev out9 (c : Dev nD) : Vec Ideal S100x2 .f32 := (dat9 (F := Ideal) V c).arrAt 4 cfg9.N

/-- Each input window's block is its whole array: a block element sits in the array at its own coordinates. -/
theorem blk9_0_eq (c : Dev nD) (t : Fin cfg9.N) : blk9 V c 0 t = sums9 V c := by
  obtain ⟨e0, e1, -⟩ := idx9 t
  funext y
  show V c main_v125 (((cfg9.win 0).blk t).view.emb y) = V c main_v125 y
  have h : ((cfg9.win 0).blk t).view.emb y = y := by
    funext a; apply Fin.ext
    match a with
    | ⟨0, _⟩ => show win9_0.index t (0 : Fin 2) * 100 + 1 * (y 0).val = (y 0).val; omega
    | ⟨1, _⟩ => show win9_0.index t (1 : Fin 2) * 32 + 1 * (y 1).val = (y 1).val; omega
  rw [h]
theorem blk9_1_eq (c : Dev nD) (t : Fin cfg9.N) : blk9 V c 1 t = cnt9 V c := by
  obtain ⟨-, -, e0, e1, -⟩ := idx9 t
  funext y
  show V c main_v130 (((cfg9.win 1).blk t).view.emb y) = V c main_v130 y
  have h : ((cfg9.win 1).blk t).view.emb y = y := by
    funext a; apply Fin.ext
    match a with
    | ⟨0, _⟩ => show win9_1.index t (0 : Fin 2) * 100 + 1 * (y 0).val = (y 0).val; omega
    | ⟨1, _⟩ => show win9_1.index t (1 : Fin 2) * 1 + 1 * (y 1).val = (y 1).val; omega
  rw [h]
theorem blk9_2_eq (c : Dev nD) (t : Fin cfg9.N) : blk9 V c 2 t = wt9 V c := by
  obtain ⟨-, -, -, -, e0, e1, -⟩ := idx9 t
  funext y
  show V c main_arg9 (((cfg9.win 2).blk t).view.emb y) = V c main_arg9 y
  have h : ((cfg9.win 2).blk t).view.emb y = y := by
    funext a; apply Fin.ext
    match a with
    | ⟨0, _⟩ => show win9_2.index t (0 : Fin 2) * 32 + 1 * (y 0).val = (y 0).val; omega
    | ⟨1, _⟩ => show win9_2.index t (1 : Fin 2) * 2 + 1 * (y 1).val = (y 1).val; omega
  rw [h]
theorem blk9_3_eq (c : Dev nD) (t : Fin cfg9.N) : blk9 V c 3 t = bias9 V c := by
  obtain ⟨-, -, -, -, -, -, e0, e1, -⟩ := idx9 t
  funext y
  show V c main_v131 (((cfg9.win 3).blk t).view.emb y) = V c main_v131 y
  have h : ((cfg9.win 3).blk t).view.emb y = y := by
    funext a; apply Fin.ext
    match a with
    | ⟨0, _⟩ => show win9_3.index t (0 : Fin 2) * 1 + 1 * (y 0).val = (y 0).val; omega
    | ⟨1, _⟩ => show win9_3.index t (1 : Fin 2) * 2 + 1 * (y 1).val = (y 1).val; omega
  rw [h]

/-- What the point writes back is the whole head of the arrays the region finds. -/
theorem flushed9_eq (c : Dev nD) (t : Fin cfg9.N) :
    (dat9 (F := Ideal) V c).flushed 4 t
      = ((cfg9.win 4).blk t).view.read (Elt Ideal) (headArr (sums9 V c) (cnt9 V c) (wt9 V c) (bias9 V c)) := by
  show (cfg9.win 4).cut (grid9.coords t) ((dat9 V c).after 4 t) = _
  rw [after9_4]
  unfold head9
  rw [View.canon_unit_zero zeros9]
  simp only [View.ld_unit_zero (S := S100x32) zeros9, View.ld_unit_zero (S := S100x1) zeros9,
    View.ld_unit_zero (S := S32x2) zeros9, View.ld_unit_zero (S := S1x2) zeros9]
  rw [blk9_0_eq, blk9_1_eq, blk9_2_eq, blk9_3_eq]
  obtain ⟨-, -, -, -, -, -, -, -, e0, e1⟩ := idx9 t
  funext y
  show k9_pay1 (sums9 V c) (cnt9 V c) (wt9 V c) (bias9 V c) y
    = headArr (sums9 V c) (cnt9 V c) (wt9 V c) (bias9 V c) (((cfg9.win 4).blk t).view.emb y)
  have h : ((cfg9.win 4).blk t).view.emb y = y := by
    funext a; apply Fin.ext
    match a with
    | ⟨0, _⟩ => show win9_4.index t (0 : Fin 2) * 100 + 1 * (y 0).val = (y 0).val; omega
    | ⟨1, _⟩ => show win9_4.index t (1 : Fin 2) * 2 + 1 * (y 1).val = (y 1).val; omega
  rw [h]
  exact pay9_at _ _ _ _ y

/-- An index of the output array is in the point's block iff each coordinate is in the block's range on its axis. -/
theorem mem_out9 (t : Fin cfg9.N) (i : S100x2.Idx) :
    i ∈ ((cfg9.win 4).blk t).view.set ↔ ∀ a : Fin 2, win9_4.index t a * S100x2.size a ≤ (i a).val ∧ (i a).val < win9_4.index t a * S100x2.size a + S100x2.size a := by
  show i ∈ ((View.whole main_v132).slice (win9_4.rect t)).set ↔ _
  rw [View.set_slice_whole, Rect.mem_set_unit]
  exact Iff.rfl

/-- The one block is the whole output array. -/
theorem cover_out9 (i : S100x2.Idx) :
    ∃ t : Fin cfg9.N, (cfg9.win 4).flush t = true ∧ i ∈ ((cfg9.win 4).blk t).view.set := by
  have hi0 : (i 0).val < 100 := idx2_lt0 i
  have hi1 : (i 1).val < 2 := idx2_lt1 i
  obtain ⟨-, -, -, -, -, -, -, -, e0, e1⟩ := idx9 t9_0
  refine ⟨t9_0, flush9_4 _, ?_⟩
  rw [mem_out9]
  intro a
  match a with
  | ⟨0, _⟩ =>
    show win9_4.index t9_0 (0 : Fin 2) * 100 ≤ (i 0).val ∧ (i 0).val < win9_4.index t9_0 (0 : Fin 2) * 100 + 100
    rw [e0]; omega
  | ⟨1, _⟩ =>
    show win9_4.index t9_0 (1 : Fin 2) * 2 ≤ (i 1).val ∧ (i 1).val < win9_4.index t9_0 (1 : Fin 2) * 2 + 2
    rw [e1]; omega

/-- After the region the output array holds the head of the arrays the region found. -/
theorem arr9_eq (c : Dev nD) :
    (dat9 (F := Ideal) V c).arrAt 4 cfg9.N = headArr (sums9 V c) (cnt9 V c) (wt9 V c) (bias9 V c) :=
  (dat9 (F := Ideal) V c).arrAt_eq_of_cover 4 _ (fun t _ => flushed9_eq V c t) cover_out9

/-- Entry by entry: at graph g and class j. -/
theorem val9 (c : Dev nD) (g : Fin 100) (j : Fin 2) :
    out9 V c (ix2 g j)
      = (∑ k : Fin 32, Ideal.div (sums9 V c (ix2 g k)) (max (cnt9 V c (ix2 g (0 : Fin 1))) (Ideal.ofBits .f32 0x3F800000#32))
            * wt9 V c (ix2 k j))
        + bias9 V c (ix2 (0 : Fin 1) j) :=
  (congrFun (arr9_eq V c) (ix2 g j)).trans (headArr_apply _ _ _ _ g j)

end Cert.KernelIdeal.Hand

end
-- ==== Proof.KI.Rows.lean ====
import proofs.«177080_j35828617183700_2_alg».proof.Proof.Gen.KernelIdeal.Launch
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.ShloMosaic.Tactic

/-! # The parameter rows the host prepares for the normalisation kernels, read at an index

Each is one row of a [3,32] parameter matrix: the slice [i:i+1, 0:32], flattened to [32], broadcast along a new
leading axis to [1,32]. Read at column `q` it is the matrix at (i, q). -/

/-- Row `i` of a [3,32] matrix, sliced out, flattened to [32] and broadcast back to a [1,32] row, reads at column
    `q` the matrix at (i, q). -/
theorem row_at {α : Type} (i : Fin 3) (off : Fin 2 → Nat) (hoff : off = ![i.val, 0]) (x : S3x32.Idx → α)
    (hs : S3x32.Slices off S1x32) (hc : S1x32.ShapeCasts S32) (hb : S32.BroadcastsInDim S1x32 ![1]) (q : Fin 32) :
    broadcastInDim S1x32 ![1] hb (shapeCast S32 (extractStridedSlice S1x32 off x hs) hc) (ix2 (0 : Fin 1) q) = x (ix2 i q) := by
  subst hoff
  refine (broadcastInDim_apply (s := S32) (t := S1x32) ![1] hb _ (ix2 (0 : Fin 1) q) (ix1 q) (fun a => ?_)).trans ?_
  · match a with
    | ⟨0, h0⟩ => rw [if_neg (show ¬S32.size ⟨0, h0⟩ = 1 from by show ¬(32 : ℕ) = 1; decide)]; rfl
  refine (shapeCast_dropUnit_apply ![32] _ hc (ix1 q)).trans ?_
  refine extractStridedSlice_apply _ x hs _ (ix2 i q) (fun a => ?_)
  match a with
  | ⟨0, _⟩ => show i.val = i.val + 0; omega
  | ⟨1, _⟩ => show q.val = 0 + q.val; omega

/-! ## Layer 0: row 0 of the two parameter matrices -/

theorem row58 (W : Valuation τ sig (Elt Ideal)) (q : Fin 32) :
    (StableHlo.after hostOps2 W (Proc.devRef .tc main_v58) : S1x32.Idx → EReal) (ix2 (0 : Fin 1) q)
      = (W (Proc.devRef .tc main_arg7) : S3x32.Idx → EReal) (ix2 (0 : Fin 3) q) := by
  dsimp only [hostOps2]; after_results
  exact row_at 0 _ rfl _ _ _ _ q

theorem row61 (W : Valuation τ sig (Elt Ideal)) (q : Fin 32) :
    (StableHlo.after hostOps2 W (Proc.devRef .tc main_v61) : S1x32.Idx → EReal) (ix2 (0 : Fin 1) q)
      = (W (Proc.devRef .tc main_arg8) : S3x32.Idx → EReal) (ix2 (0 : Fin 3) q) := by
  dsimp only [hostOps2]; after_results
  exact row_at 0 _ rfl _ _ _ _ q

/-! ## Layer 1: row 1 -/

theorem row88 (W : Valuation τ sig (Elt Ideal)) (q : Fin 32) :
    (StableHlo.after hostOps5 W (Proc.devRef .tc main_v88) : S1x32.Idx → EReal) (ix2 (0 : Fin 1) q)
      = (W (Proc.devRef .tc main_arg7) : S3x32.Idx → EReal) (ix2 (1 : Fin 3) q) := by
  dsimp only [hostOps5]; after_results
  exact row_at 1 _ rfl _ _ _ _ q

theorem row91 (W : Valuation τ sig (Elt Ideal)) (q : Fin 32) :
    (StableHlo.after hostOps5 W (Proc.devRef .tc main_v91) : S1x32.Idx → EReal) (ix2 (0 : Fin 1) q)
      = (W (Proc.devRef .tc main_arg8) : S3x32.Idx → EReal) (ix2 (1 : Fin 3) q) := by
  dsimp only [hostOps5]; after_results
  exact row_at 1 _ rfl _ _ _ _ q

/-! ## Layer 2: row 2 -/

theorem row118 (W : Valuation τ sig (Elt Ideal)) (q : Fin 32) :
    (StableHlo.after hostOps8 W (Proc.devRef .tc main_v118) : S1x32.Idx → EReal) (ix2 (0 : Fin 1) q)
      = (W (Proc.devRef .tc main_arg7) : S3x32.Idx → EReal) (ix2 (2 : Fin 3) q) := by
  dsimp only [hostOps8]; after_results
  exact row_at 2 _ rfl _ _ _ _ q

theorem row121 (W : Valuation τ sig (Elt Ideal)) (q : Fin 32) :
    (StableHlo.after hostOps8 W (Proc.devRef .tc main_v121) : S1x32.Idx → EReal) (ix2 (0 : Fin 1) q)
      = (W (Proc.devRef .tc main_arg8) : S3x32.Idx → EReal) (ix2 (2 : Fin 3) q) := by
  dsimp only [hostOps8]; after_results
  exact row_at 2 _ rfl _ _ _ _ q

/-! ## The head's bias: a [2] vector broadcast along a new leading axis to [1,2] -/

theorem row131 (W : Valuation τ sig (Elt Ideal)) (j : Fin 2) :
    (StableHlo.after hostOps9 W (Proc.devRef .tc main_v131) : S1x2.Idx → EReal) (ix2 (0 : Fin 1) j)
      = (W (Proc.devRef .tc main_arg10) : S2.Idx → EReal) (ix1 j) := by
  dsimp only [hostOps9]; after_results
  refine broadcastInDim_apply (s := S2) (t := S1x2) ![1] _ _ (ix2 (0 : Fin 1) j) (ix1 j) (fun a => ?_)
  match a with
  | ⟨0, h0⟩ => rw [if_neg (show ¬S2.size ⟨0, h0⟩ = 1 from by show ¬(2 : ℕ) = 1; decide)]; rfl

end Cert.KernelIdeal.Hand
end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«177080_j35828617183700_2_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«177080_j35828617183700_2_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.LibGraphConvNorm.lean ====
/-
  One graph-convolution layer followed by batch normalisation, in the two arrangements the two programs use, and
  the proof that the arrangements agree on real data.

  THE CONVOLUTION. With `xl = h · W`, `dinv n = deg(n)^(-1/2)`, and edges `e` from `src e` to the node whose number is
  the target word `tgt e`, the symmetric-normalised aggregate at node `n`, column `q`, is

      Σ_{e : tgt e = n} xl(src e, q) · (dinv(src e) · dinv(dst e))  +  (dinv n · dinv n) · xl(n, q)  +  b q.

  The other arrangement scales each row once, `xls = xl · dinv`, sums the scaled rows over the incoming edges, adds the
  node's own scaled row and multiplies by `dinv n` at the end:

      dinv n · ( Σ_{e : tgt e = n} xls(src e, q)  +  xls(n, q) )  +  b q.

  They agree because an edge counted at `n` has `dst e = n`, so the factor `dinv(dst e)` is the constant `dinv n` over
  the sum, and a constant factor moves across a finite sum — a law of the reals that fails at the infinities, which
  is why every factor is required to be a real.

  THE MOMENTS. One arrangement takes the mean and the mean of squared deviations over all `T · R` rows; the other sums
  the entries and their squares block by block (`T` blocks of `R` consecutive rows), adds the block sums, and takes
  `E[u²] − E[u]²`. A sum over `T · R` indices is the sum of its block sums, and on real data the two variances are
  the same number.
-/
import proofs.«177080_j35828617183700_2_alg».proof.Proof.LibIsReal
import proofs.«177080_j35828617183700_2_alg».proof.Proof.LibVariance
import proofs.«177080_j35828617183700_2_alg».proof.Proof.LibSumBlocks
import Idealize.ShloMosaic.PureOps.Ideal

open scoped BigOperators

noncomputable section

namespace Cert.Gnn

open Idealize.ShloMosaic Cert.Alg LibERealBridge

/-! ## The convolution -/

section Conv

variable {N E H : ℕ}

/-- The aggregate with each edge weighted by both end points' factors. -/
def convEdgeWeighted (dinv : Fin N → EReal) (src dst : Fin E → Fin N) (tgt : Fin E → ℤ)
    (xl : Fin N → Fin H → EReal) (b : Fin H → EReal) (n : Fin N) (q : Fin H) : EReal :=
  ((0 + ∑ e : Fin E, if tgt e = (n.val : ℤ) then xl (src e) q * (dinv (src e) * dinv (dst e)) else 0)
      + (dinv n * dinv n) * xl n q) + b q

/-- The aggregate of rows scaled once per node, rescaled at the target. -/
def convRowScaled (dinv : Fin N → EReal) (src : Fin E → Fin N) (tgt : Fin E → ℤ)
    (xl : Fin N → Fin H → EReal) (b : Fin H → EReal) (n : Fin N) (q : Fin H) : EReal :=
  dinv n * ((0 + ∑ e : Fin E, if tgt e = (n.val : ℤ) then xl (src e) q * dinv (src e) else 0) + xl n q * dinv n) + b q

/-- On real factors the two aggregates are equal, entry by entry. The bias is any extended real: it is added last on
    both sides. -/
theorem conv_agree (dinv : Fin N → EReal) (src dst : Fin E → Fin N) (tgt : Fin E → ℤ)
    (xl : Fin N → Fin H → EReal) (b : Fin H → EReal)
    (hd : ∀ n, IsReal (dinv n)) (hx : ∀ n q, IsReal (xl n q))
    (hdst : ∀ e (n : Fin N), tgt e = (n.val : ℤ) → dst e = n) (n : Fin N) (q : Fin H) :
    convRowScaled dinv src tgt xl b n q = convEdgeWeighted dinv src dst tgt xl b n q := by
  choose d hd using hd
  choose x hx using hx
  unfold convRowScaled convEdgeWeighted
  refine congrArg (· + b q) ?_
  have hL : ∀ e : Fin E, (if tgt e = (n.val : ℤ) then xl (src e) q * dinv (src e) else 0)
      = (((if tgt e = (n.val : ℤ) then x (src e) q * d (src e) else 0 : ℝ)) : EReal) := by
    intro e
    split_ifs
    · rw [hx, hd, EReal.coe_mul]
    · rfl
  have hR : ∀ e : Fin E, (if tgt e = (n.val : ℤ) then xl (src e) q * (dinv (src e) * dinv (dst e)) else 0)
      = (((if tgt e = (n.val : ℤ) then x (src e) q * d (src e) else 0 : ℝ) * d n : ℝ) : EReal) := by
    intro e
    split_ifs with h
    · rw [hdst e n h, hx, hd, hd, EReal.coe_mul, EReal.coe_mul, mul_assoc]
    · rw [zero_mul]; rfl
  simp only [hL, hR, ← coe_finset_sum, hx n q, hd n, zero_add]
  rw [← EReal.coe_mul, ← EReal.coe_add, ← EReal.coe_mul, ← EReal.coe_mul, ← EReal.coe_mul, ← EReal.coe_add]
  refine congrArg _ ?_
  rw [← Finset.sum_mul]
  ring

/-- The aggregate of real data, with a real bias, is real. -/
theorem convEdgeWeighted_isReal (dinv : Fin N → EReal) (src dst : Fin E → Fin N) (tgt : Fin E → ℤ)
    (xl : Fin N → Fin H → EReal) (b : Fin H → EReal)
    (hd : ∀ n, IsReal (dinv n)) (hx : ∀ n q, IsReal (xl n q)) (hb : ∀ q, IsReal (b q)) (n : Fin N) (q : Fin H) :
    IsReal (convEdgeWeighted dinv src dst tgt xl b n q) := by
  unfold convEdgeWeighted
  refine IsReal.add (IsReal.add (IsReal.add IsReal.zero (IsReal.sum_univ _ fun e => ?_)) ?_) (hb q)
  · split_ifs
    · exact IsReal.mul (hx _ _) (IsReal.mul (hd _) (hd _))
    · exact IsReal.zero
  · exact IsReal.mul (IsReal.mul (hd n) (hd n)) (hx n q)

end Conv

/-! ## The moments -/

section Moments

variable {T R : ℕ}

/-- Row `r` of block `t`. -/
def blockRow (t : Fin T) (r : Fin R) : Fin (T * R) := ⟨t.val * R + r.val, Cert.LibSumBlocks.block_index_lt t r⟩

/-- The mean over all rows. -/
def meanAll (c : EReal) (u : Fin (T * R) → EReal) : EReal := Ideal.div (∑ n, u n) c

/-- The mean of the squared deviations from the mean, over all rows. -/
def varAll (c : EReal) (u : Fin (T * R) → EReal) : EReal :=
  Ideal.div (∑ n, (u n - meanAll c u) * (u n - meanAll c u)) c

/-- The mean from block sums. -/
def meanBlocks (c : EReal) (u : Fin (T * R) → EReal) : EReal := Ideal.div (∑ t : Fin T, ∑ r : Fin R, u (blockRow t r)) c

/-- The mean of squares from block sums, less the squared mean. -/
def varBlocks (c : EReal) (u : Fin (T * R) → EReal) : EReal :=
  Ideal.div (∑ t : Fin T, ∑ r : Fin R, u (blockRow t r) * u (blockRow t r)) c - meanBlocks c u * meanBlocks c u

theorem meanBlocks_eq (c : EReal) (u : Fin (T * R) → EReal) : meanBlocks c u = meanAll c u := by
  unfold meanBlocks meanAll
  rw [Cert.LibSumBlocks.sum_blocks T R u]
  rfl

/-- On real data, with the divisor the number of rows, the two variances are equal. -/
theorem varBlocks_eq (c : ℝ) (u : Fin (T * R) → EReal) (hu : ∀ n, IsReal (u n))
    (hc : c = ((T * R : ℕ) : ℝ)) (hc0 : c ≠ 0) : varBlocks (c : EReal) u = varAll (c : EReal) u := by
  unfold varBlocks varAll
  rw [meanBlocks_eq]
  unfold meanAll
  rw [variance_identity u hu c (by rw [hc, Fintype.card_fin]) hc0, Cert.LibSumBlocks.sum_blocks T R fun n => u n * u n]
  rfl

/-- The mean of real data is real. -/
theorem meanAll_isReal (c : ℝ) (hc0 : c ≠ 0) (u : Fin (T * R) → EReal) (hu : ∀ n, IsReal (u n)) :
    IsReal (meanAll (c : EReal) u) :=
  IsReal.div_coe (IsReal.sum_univ _ hu) hc0

/-- The variance of real data over a positive count is a real that is not negative. -/
theorem varAll_nonneg (c : ℝ) (hc : 0 < c) (u : Fin (T * R) → EReal) (hu : ∀ n, IsReal (u n)) :
    IsReal (varAll (c : EReal) u) ∧ 0 ≤ varAll (c : EReal) u := by
  obtain ⟨μ, hμ⟩ := meanAll_isReal c hc.ne' u hu
  choose v hv using hu
  unfold varAll
  rw [hμ]
  have hs : (∑ n, (u n - (μ : EReal)) * (u n - (μ : EReal))) = ((∑ n, (v n - μ) * (v n - μ) : ℝ) : EReal) := by
    rw [coe_finset_sum]
    refine Finset.sum_congr rfl fun n _ => ?_
    rw [hv n, ← EReal.coe_sub, ← EReal.coe_mul]
  rw [hs, div_coe_coe _ _ hc.ne']
  refine ⟨⟨_, rfl⟩, ?_⟩
  exact_mod_cast div_nonneg (Finset.sum_nonneg fun n _ => mul_self_nonneg _) hc.le

end Moments

/-! ## Normalisation and rectifier -/

/-- One entry normalised by the column's moments, scaled, shifted and rectified. -/
def normRect (x mean var eps g beta : EReal) : EReal :=
  max (((x - mean) * Ideal.rsqrt (var + eps)) * g + beta) 0

/-- A real entry normalised by real moments, the variance not negative and the epsilon positive, is real. -/
theorem normRect_isReal {x mean var eps g beta : EReal} (hx : IsReal x) (hm : IsReal mean) (hv : IsReal var)
    (hv0 : 0 ≤ var) (he : IsReal eps) (he0 : 0 < eps) (hg : IsReal g) (hb : IsReal beta) :
    IsReal (normRect x mean var eps g beta) :=
  IsReal.max (IsReal.add (IsReal.mul (IsReal.mul (IsReal.sub hx hm)
    (IsReal.rsqrt_pos (IsReal.add hv he) (IsReal.add_pos_of_nonneg_of_pos hv0 he0))) hg) hb) IsReal.zero

end Cert.Gnn

end
-- ==== Proof.Net.BnStats.lean ====
/-
  The two ways of taking a column's batch statistics agree on real data.

  One program walks the 100000 rows in 20 blocks of 5000. Two accumulators start at zero; at each block the first
  gains the block's sum and the second the block's sum of squares (each block sum itself started from zero). At the
  end the mean is the first accumulator over n, and the variance is max(second / n − mean², 0). The other program
  takes the mean as (0 + Σ u) / n and the variance as (0 + Σ (u − mean)²) / (n − 0).

  A sum over 100000 = 20 · 5000 indices is the sum of its 20 block sums, and adding zero changes nothing, so the
  means are the same extended real whatever the data. For real data, E[u²] − E[u]² is the mean of the squared
  deviations, a real that is not negative, so the maximum with zero returns it.
-/
import proofs.«177080_j35828617183700_2_alg».proof.Proof.LibIsReal
import proofs.«177080_j35828617183700_2_alg».proof.Proof.LibSumBlocks
import proofs.«177080_j35828617183700_2_alg».proof.Proof.LibGraphConvNorm
import Idealize.ShloMosaic.PureOps.Ideal
import Idealize.ShloMosaic.PureOps.Ideal.Laws

open scoped BigOperators

noncomputable section

namespace Cert.Net

open Idealize.ShloMosaic Cert.Alg Cert.Gnn

/-! ## The row count as a float -/

/-- The word 0x47C35000: exponent field 143, fraction 4411392, so (2²³ + 4411392) · 2^(143 − 127 − 23)
    = 12800000 / 128 = 100000. -/
theorem ofBits_rowCount : Ideal.ofBits .f32 0x47C35000#32 = ((100000 : ℝ) : EReal) := by
  simp [Ideal.ofBits, Ideal.ieee, -EReal.coe_mul]; norm_num

/-- The divisor n − 0 is n. -/
theorem rowCount_sub_zero : Ideal.ofBits .f32 0x47C35000#32 - 0 = ((100000 : ℝ) : EReal) := by
  rw [sub_zero, ofBits_rowCount]

/-- The divisor n − 0 is positive: the comparison "n − 0 > 0" answers 1. -/
theorem rowCount_sub_zero_pos : Ideal.cmp .ogt (Ideal.ofBits .f32 0x47C35000#32 - 0) 0 = 1#1 := by
  rw [rowCount_sub_zero]
  show BitVec.ofBool (decide ((0 : EReal) < ((100000 : ℝ) : EReal))) = 1#1
  rw [decide_eq_true (by exact_mod_cast (by norm_num : (0 : ℝ) < 100000))]
  rfl

/-! ## Accumulating block sums -/

/-- An accumulator that starts at zero and at grid point t gains (0 + s t) holds, after all T points, the sum of
    the s t. -/
theorem acc_eq_sum {T : ℕ} (s : Fin T → EReal) (acc : ℕ → EReal) (h0 : acc 0 = 0)
    (hs : ∀ (t : ℕ) (h : t < T), acc (t + 1) = acc t + (0 + s ⟨t, h⟩)) : acc T = ∑ t : Fin T, s t := by
  have key : ∀ (k : ℕ) (hk : k ≤ T), acc k = ∑ t : Fin k, s (Fin.castLE hk t) := by
    intro k
    induction k with
    | zero => intro _; rw [h0]; rfl
    | succ k ih =>
      intro hk
      rw [hs k hk, ih (Nat.le_of_succ_le hk), zero_add, Fin.sum_univ_castSucc]
      rfl
  have := key T le_rfl
  rw [this]
  rfl

/-- The accumulator written out: zero, then one block sum after another, each started from zero. -/
def accum {T : ℕ} (s : Fin T → EReal) : ℕ → EReal
  | 0 => 0
  | t + 1 => accum s t + (0 + if h : t < T then s ⟨t, h⟩ else 0)

theorem accum_zero {T : ℕ} (s : Fin T → EReal) : accum s 0 = 0 := rfl

theorem accum_succ {T : ℕ} (s : Fin T → EReal) (t : ℕ) (h : t < T) : accum s (t + 1) = accum s t + (0 + s ⟨t, h⟩) := by
  show accum s t + (0 + if h : t < T then s ⟨t, h⟩ else 0) = _
  rw [dif_pos h]

/-- After all T points the written-out accumulator is the plain sum of the block sums. -/
theorem accum_eq_sum {T : ℕ} (s : Fin T → EReal) : accum s T = ∑ t : Fin T, s t :=
  acc_eq_sum s (accum s) (accum_zero s) (accum_succ s)

/-! ## The statistics, for any number of blocks -/

section General

variable {T R : ℕ}

/-- A block-and-row numbering that is the consecutive one is the library's. -/
theorem row_eq_blockRow (row : Fin T → Fin R → Fin (T * R)) (hrow : ∀ t r, (row t r).val = t.val * R + r.val)
    (t : Fin T) (r : Fin R) : row t r = blockRow t r := Fin.ext (hrow t r)

/-- The mean from accumulated block sums is the mean over all rows, for any data. -/
theorem mean_blocks_eq_all (c : EReal) (u : Fin (T * R) → EReal) (row : Fin T → Fin R → Fin (T * R))
    (hrow : ∀ t r, (row t r).val = t.val * R + r.val) :
    Ideal.div (∑ t : Fin T, ∑ r : Fin R, u (row t r)) c = Ideal.div (0 + ∑ p, u p) c := by
  simp only [row_eq_blockRow row hrow, zero_add]
  exact meanBlocks_eq c u

/-- On real data, with the divisor the number of rows: max(E[u²] − E[u]², 0) from accumulated block sums is the mean
    of the squared deviations from the mean, which is a real and not negative; the mean is a real. -/
theorem var_blocks_eq_all (c : ℝ) (hc : c = ((T * R : ℕ) : ℝ)) (hc0 : 0 < c) (u : Fin (T * R) → EReal)
    (hu : ∀ p, IsReal (u p)) (row : Fin T → Fin R → Fin (T * R)) (hrow : ∀ t r, (row t r).val = t.val * R + r.val) :
    max (Ideal.div (∑ t : Fin T, ∑ r : Fin R, u (row t r) * u (row t r)) (c : EReal)
          - Ideal.div (∑ t : Fin T, ∑ r : Fin R, u (row t r)) (c : EReal)
            * Ideal.div (∑ t : Fin T, ∑ r : Fin R, u (row t r)) (c : EReal)) 0
      = Ideal.div (0 + ∑ p, (u p - Ideal.div (0 + ∑ q, u q) (c : EReal)) * (u p - Ideal.div (0 + ∑ q, u q) (c : EReal)))
          ((c : EReal) - 0)
    ∧ IsReal (Ideal.div (0 + ∑ q, u q) (c : EReal))
    ∧ IsReal (Ideal.div (0 + ∑ p, (u p - Ideal.div (0 + ∑ q, u q) (c : EReal)) * (u p - Ideal.div (0 + ∑ q, u q) (c : EReal)))
          ((c : EReal) - 0))
    ∧ 0 ≤ Ideal.div (0 + ∑ p, (u p - Ideal.div (0 + ∑ q, u q) (c : EReal)) * (u p - Ideal.div (0 + ∑ q, u q) (c : EReal)))
          ((c : EReal) - 0) := by
  simp only [row_eq_blockRow row hrow, zero_add, sub_zero]
  have hv : varBlocks (c : EReal) u = varAll (c : EReal) u := varBlocks_eq c u hu hc hc0.ne'
  obtain ⟨hreal, hnn⟩ := varAll_nonneg c hc0 u hu
  have hm := meanAll_isReal c hc0.ne' u hu
  refine ⟨?_, hm, hreal, hnn⟩
  show max (varBlocks (c : EReal) u) 0 = varAll (c : EReal) u
  rw [hv]
  exact max_eq_left hnn

end General

/-! ## The statistics of one column of 100000 rows in 20 blocks of 5000 -/

section Column

variable (u : Fin 100000 → EReal) (row : Fin 20 → Fin 5000 → Fin 100000)

/-- The mean from the first accumulator. -/
def meanK : EReal := Ideal.div (∑ t : Fin 20, ∑ r : Fin 5000, u (row t r)) (Ideal.ofBits .f32 0x47C35000#32)

/-- The variance from the two accumulators: max(E[u²] − mean², 0). -/
def varK : EReal :=
  max (Ideal.div (∑ t : Fin 20, ∑ r : Fin 5000, u (row t r) * u (row t r)) (Ideal.ofBits .f32 0x47C35000#32)
        - meanK u row * meanK u row) 0

/-- The mean over all rows: (0 + Σ u) / n. -/
def meanR : EReal := Ideal.div (0 + ∑ p : Fin 100000, u p) (Ideal.ofBits .f32 0x47C35000#32)

/-- The mean of the squared deviations: (0 + Σ (u − mean)²) / (n − 0). -/
def varR : EReal :=
  Ideal.div (0 + ∑ p : Fin 100000, (u p - meanR u) * (u p - meanR u)) (Ideal.ofBits .f32 0x47C35000#32 - 0)

/-- The mean through the accumulator recursion is the mean from the plain double sum. -/
theorem meanK_of_acc (acc : ℕ → EReal) (h0 : acc 0 = 0)
    (hs : ∀ (t : ℕ) (h : t < 20), acc (t + 1) = acc t + (0 + ∑ r : Fin 5000, u (row ⟨t, h⟩ r))) :
    Ideal.div (acc 20) (Ideal.ofBits .f32 0x47C35000#32) = meanK u row := by
  rw [acc_eq_sum (fun t : Fin 20 => ∑ r : Fin 5000, u (row t r)) acc h0 hs]
  rfl

/-- The variance through the two accumulator recursions is the variance from the plain double sums. -/
theorem varK_of_acc (acc accsq : ℕ → EReal) (h0 : acc 0 = 0)
    (hs : ∀ (t : ℕ) (h : t < 20), acc (t + 1) = acc t + (0 + ∑ r : Fin 5000, u (row ⟨t, h⟩ r)))
    (hq0 : accsq 0 = 0)
    (hq : ∀ (t : ℕ) (h : t < 20), accsq (t + 1) = accsq t + (0 + ∑ r : Fin 5000, u (row ⟨t, h⟩ r) * u (row ⟨t, h⟩ r))) :
    max (Ideal.div (accsq 20) (Ideal.ofBits .f32 0x47C35000#32)
        - Ideal.div (acc 20) (Ideal.ofBits .f32 0x47C35000#32) * Ideal.div (acc 20) (Ideal.ofBits .f32 0x47C35000#32)) 0
      = varK u row := by
  rw [meanK_of_acc u row acc h0 hs,
    acc_eq_sum (fun t : Fin 20 => ∑ r : Fin 5000, u (row t r) * u (row t r)) accsq hq0 hq]
  rfl

variable (hrow : ∀ t r, (row t r).val = 5000 * t.val + r.val)
include hrow

/-- The two means are the same extended real, whatever the data. -/
theorem meanK_eq_meanR : meanK u row = meanR u := by
  unfold meanK meanR
  exact mean_blocks_eq_all (T := 20) (R := 5000) _ u row (fun t r => by rw [hrow t r, Nat.mul_comm])

/-- On real data the two variances are the same, the mean and the variance are reals, and the variance is not
    negative. -/
theorem varK_eq_varR (hu : ∀ p, IsReal (u p)) :
    varK u row = varR u ∧ IsReal (meanR u) ∧ IsReal (varR u) ∧ 0 ≤ varR u := by
  unfold varK varR meanK meanR
  rw [ofBits_rowCount]
  exact var_blocks_eq_all (T := 20) (R := 5000) (100000 : ℝ) (by norm_num) (by norm_num) u hu row
    (fun t r => by rw [hrow t r, Nat.mul_comm])

/-- The same facts about the first program's own values. -/
theorem statsK_isReal (hu : ∀ p, IsReal (u p)) : IsReal (meanK u row) ∧ IsReal (varK u row) ∧ 0 ≤ varK u row := by
  obtain ⟨hv, hm, hr, hn⟩ := varK_eq_varR u row hrow hu
  rw [meanK_eq_meanR u row hrow, hv]
  exact ⟨hm, hr, hn⟩

end Column

end Cert.Net

end
-- ==== Proof.RefReadStats.lean ====
/- The reference's column statistics read at a column, at the ideal float values. Per layer the stage takes the [100000, 32] array
   z and leaves, for each column q: the mean (0 + Σ_p z(p, q)) / n, and the variance (0 + Σ_p (z(p, q) − mean(q))²) / (n − 0) — the
   second guarded by a select on "n − 0 > 0" whose other branch is a NaN; n = 100000 is positive, so the guard is decided and the
   branch never taken. `St_mean` and `St_var` are the two as functions of the array, the same for the three layers; they are the
   column's `Cert.Net.meanR` and `Cert.Net.varR`. Then the stages St0, St1, St2 from any contents `W` of the buffers. -/
import proofs.«177080_j35828617183700_2_alg».proof.Proof.RefReadDot
import proofs.«177080_j35828617183700_2_alg».proof.Proof.Net.BnStats
import Idealize.ShloMosaic.Lib.Pipeline.Value

open scoped BigOperators

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-! ## Two readings used throughout -/

/-- A scalar broadcast to any shape reads the scalar at every index. -/
theorem bcast_scalar_apply {α : Type} {t : Shape} (h : S_.BroadcastsInDim t ![]) (x : S_.Idx → α) (j : t.Idx) :
    broadcastInDim t ![] h x j = x ix0 :=
  broadcastInDim_apply ![] h x j ix0 (fun a => a.elim0)

/-- The sum down the rows of a [100000, 32] array, started from `init`, at column q. -/
theorem colsum_apply (x : FVec Ideal S100000x32 .f32) (init : FVec Ideal S_ .f32) (q : Fin 32) :
    Host.reduceAdd x init reducesTo_S100000x32_S32_d0 h_S_ (ix1 q) = init (Shape.Idx.first h_S_) + ∑ p : Fin 100000, x (ix2 p q) := by
  simp only [Host.reduceAdd, Ideal.hostReduceAdd_def]
  rw [Ideal.hostReduceAdd_single reducesTo_S100000x32_S32_d0 (by decide)]
  refine congrArg (_ + ·) (Finset.sum_congr rfl fun k _ => ?_)
  exact congrArg x (funext fun a => Fin.ext (by match a with | ⟨0, _⟩ => rfl | ⟨1, _⟩ => rfl))

/-! ## The mean -/

/-- The column means of an array, as the operations compose them: the column sums from zero over the row count. -/
def St_mean (x : FVec Ideal S100000x32 .f32) : FVec Ideal S32 .f32 :=
  Host.divf (Host.reduceAdd x (constant (F := Ideal) S_ .f32 0x00000000#32) reducesTo_S100000x32_S32_d0 h_S_) (broadcastInDim S32 ![] bcast_S_S32 (constant (F := Ideal) S_ .f32 0x47C35000#32))

theorem St_mean_apply (x : FVec Ideal S100000x32 .f32) (q : Fin 32) :
    St_mean x (ix1 q) = Cert.Net.meanR (fun p => x (ix2 p q)) := by
  show Ideal.div (Host.reduceAdd x (constant (F := Ideal) S_ .f32 0x00000000#32) reducesTo_S100000x32_S32_d0 h_S_ (ix1 q)) (broadcastInDim S32 ![] bcast_S_S32 (constant (F := Ideal) S_ .f32 0x47C35000#32) (ix1 q)) = _
  rw [colsum_apply, bcast_scalar_apply]
  show Ideal.div (Ideal.ofBits .f32 0x00000000#32 + _) (Ideal.ofBits .f32 0x47C35000#32) = _
  rw [Ideal.ofBits_zero_f32]
  rfl

/-! ## The variance -/

/-- The column means as the variance's own operations take them: a [1, 32] array. -/
def varMean (x : FVec Ideal S100000x32 .f32) : FVec Ideal S1x32 .f32 :=
  Host.divf (broadcastInDim S1x32 ![1] bcast_S32_S1x32_1 (Host.reduceAdd x (constant (F := Ideal) S_ .f32 0x00000000#32) reducesTo_S100000x32_S32_d0 h_S_))
    (broadcastInDim S1x32 ![] bcast_S_S1x32 (constant (F := Ideal) S_ .f32 0x47C35000#32))

theorem varMean_apply (x : FVec Ideal S100000x32 .f32) (q : Fin 32) :
    varMean x (ix2 0 q) = Cert.Net.meanR (fun p => x (ix2 p q)) := by
  show Ideal.div (broadcastInDim S1x32 ![1] bcast_S32_S1x32_1 (Host.reduceAdd x (constant (F := Ideal) S_ .f32 0x00000000#32) reducesTo_S100000x32_S32_d0 h_S_) (ix2 0 q))
      (broadcastInDim S1x32 ![] bcast_S_S1x32 (constant (F := Ideal) S_ .f32 0x47C35000#32) (ix2 0 q)) = _
  rw [broadcastInDim_apply ![1] bcast_S32_S1x32_1 _ (ix2 0 q) (ix1 q) (fun a => by match a with | ⟨0, _⟩ => rfl),
    bcast_scalar_apply, colsum_apply]
  show Ideal.div (Ideal.ofBits .f32 0x00000000#32 + _) (Ideal.ofBits .f32 0x47C35000#32) = _
  rw [Ideal.ofBits_zero_f32]
  rfl

/-- The deviations from the column means. -/
def varDev (x : FVec Ideal S100000x32 .f32) : FVec Ideal S100000x32 .f32 :=
  subf x (broadcastInDim S100000x32 ![0, 1] bcast_S1x32_S100000x32_0_1 (varMean x))

theorem varDev_apply (x : FVec Ideal S100000x32 .f32) (p : Fin 100000) (q : Fin 32) :
    varDev x (ix2 p q) = x (ix2 p q) - Cert.Net.meanR (fun p => x (ix2 p q)) := by
  show x (ix2 p q) - broadcastInDim S100000x32 ![0, 1] bcast_S1x32_S100000x32_0_1 (varMean x) (ix2 p q) = _
  rw [broadcastInDim_apply ![0, 1] bcast_S1x32_S100000x32_0_1 _ (ix2 p q) (ix2 0 q)
      (fun a => by match a with | ⟨0, _⟩ => rfl | ⟨1, _⟩ => rfl), varMean_apply]

/-- The divisor n − ddof, with ddof the integer 0 converted: a scalar. -/
def varCount : FVec Ideal S_ .f32 := subf (constant (F := Ideal) S_ .f32 0x47C35000#32) (sitofp .f32 (constantI S_ 32 0#32))

theorem varCount_apply (i : S_.Idx) : varCount i = Ideal.ofBits .f32 0x47C35000#32 - 0 := by
  show Ideal.ofBits .f32 0x47C35000#32 - (((0#32 : BitVec 32).toInt : ℝ) : EReal) = _
  have h0 : (((0#32 : BitVec 32).toInt : ℝ) : EReal) = 0 := by simp
  rw [h0]

/-- The column variances of an array, as the operations compose them. -/
def St_var (x : FVec Ideal S100000x32 .f32) : FVec Ideal S32 .f32 :=
  select (broadcastInDim S32 ![] bcast_S_S32 (cmpf .ogt varCount (constant (F := Ideal) S_ .f32 0x00000000#32)))
    (Host.divf (Host.reduceAdd (mulf (varDev x) (varDev x)) (constant (F := Ideal) S_ .f32 0x00000000#32) reducesTo_S100000x32_S32_d0 h_S_) (broadcastInDim S32 ![] bcast_S_S32 varCount))
    (broadcastInDim S32 ![] bcast_S_S32 (id (constant (F := Ideal) S_ .f32 0x7FC00000#32)))

theorem St_var_apply (x : FVec Ideal S100000x32 .f32) (q : Fin 32) :
    St_var x (ix1 q) = Cert.Net.varR (fun p => x (ix2 p q)) := by
  show Scalar.select (broadcastInDim S32 ![] bcast_S_S32 (cmpf .ogt varCount (constant (F := Ideal) S_ .f32 0x00000000#32)) (ix1 q))
      (Ideal.div (Host.reduceAdd (mulf (varDev x) (varDev x)) (constant (F := Ideal) S_ .f32 0x00000000#32) reducesTo_S100000x32_S32_d0 h_S_ (ix1 q)) (broadcastInDim S32 ![] bcast_S_S32 varCount (ix1 q)))
      (broadcastInDim S32 ![] bcast_S_S32 (id (constant (F := Ideal) S_ .f32 0x7FC00000#32)) (ix1 q)) = _
  rw [bcast_scalar_apply, bcast_scalar_apply, bcast_scalar_apply, colsum_apply]
  show Scalar.select (Ideal.cmp .ogt (varCount ix0) (Ideal.ofBits .f32 0x00000000#32))
      (Ideal.div (Ideal.ofBits .f32 0x00000000#32 + ∑ p : Fin 100000, varDev x (ix2 p q) * varDev x (ix2 p q)) (varCount ix0)) _ = _
  rw [varCount_apply, Ideal.ofBits_zero_f32, Cert.Net.rowCount_sub_zero_pos, ValueIdx.select_one]
  simp only [varDev_apply]
  rfl

/-! ## The stages, from any contents of the buffers -/

/-- After stage `St0`, the mean buffer at column q is the column's mean over all rows. -/
theorem St0_mean_read (W : Valuation τ sig (Elt Ideal)) (q : Fin 32) :
    arr_main_v57 (after St0 W) (ix1 q) = Cert.Net.meanR (fun p => arr_main_v54 W (ix2 p q)) := by
  have h : after St0 W (Proc.devRef .tc main_v57) = St_mean (W (Proc.devRef .tc main_v54)) := by
    after_results_simp <;> rfl
  simp only [arr_main_v57, arr_main_v54]
  rw [h]
  exact St_mean_apply _ q

set_option maxRecDepth 8192 in
/-- After stage `St0`, the variance buffer at column q is the column's mean squared deviation. -/
theorem St0_var_read (W : Valuation τ sig (Elt Ideal)) (q : Fin 32) :
    arr_main_v58 (after St0 W) (ix1 q) = Cert.Net.varR (fun p => arr_main_v54 W (ix2 p q)) := by
  have h : after St0 W (Proc.devRef .tc main_v58) = St_var (W (Proc.devRef .tc main_v54)) := by
    after_results_simp <;> rfl
  simp only [arr_main_v58, arr_main_v54]
  rw [h]
  exact St_var_apply _ q

/-- After stage `St1`, the mean buffer at column q is the column's mean over all rows. -/
theorem St1_mean_read (W : Valuation τ sig (Elt Ideal)) (q : Fin 32) :
    arr_main_v102 (after St1 W) (ix1 q) = Cert.Net.meanR (fun p => arr_main_v99 W (ix2 p q)) := by
  have h : after St1 W (Proc.devRef .tc main_v102) = St_mean (W (Proc.devRef .tc main_v99)) := by
    after_results_simp <;> rfl
  simp only [arr_main_v102, arr_main_v99]
  rw [h]
  exact St_mean_apply _ q

set_option maxRecDepth 8192 in
/-- After stage `St1`, the variance buffer at column q is the column's mean squared deviation. -/
theorem St1_var_read (W : Valuation τ sig (Elt Ideal)) (q : Fin 32) :
    arr_main_v103 (after St1 W) (ix1 q) = Cert.Net.varR (fun p => arr_main_v99 W (ix2 p q)) := by
  have h : after St1 W (Proc.devRef .tc main_v103) = St_var (W (Proc.devRef .tc main_v99)) := by
    after_results_simp <;> rfl
  simp only [arr_main_v103, arr_main_v99]
  rw [h]
  exact St_var_apply _ q

/-- After stage `St2`, the mean buffer at column q is the column's mean over all rows. -/
theorem St2_mean_read (W : Valuation τ sig (Elt Ideal)) (q : Fin 32) :
    arr_main_v147 (after St2 W) (ix1 q) = Cert.Net.meanR (fun p => arr_main_v144 W (ix2 p q)) := by
  have h : after St2 W (Proc.devRef .tc main_v147) = St_mean (W (Proc.devRef .tc main_v144)) := by
    after_results_simp <;> rfl
  simp only [arr_main_v147, arr_main_v144]
  rw [h]
  exact St_mean_apply _ q

set_option maxRecDepth 8192 in
/-- After stage `St2`, the variance buffer at column q is the column's mean squared deviation. -/
theorem St2_var_read (W : Valuation τ sig (Elt Ideal)) (q : Fin 32) :
    arr_main_v148 (after St2 W) (ix1 q) = Cert.Net.varR (fun p => arr_main_v144 W (ix2 p q)) := by
  have h : after St2 W (Proc.devRef .tc main_v148) = St_var (W (Proc.devRef .tc main_v144)) := by
    after_results_simp <;> rfl
  simp only [arr_main_v148, arr_main_v144]
  rw [h]
  exact St_var_apply _ q

end Cert.ReferenceIdeal.RefRun

end
-- ==== Proof.RefReadHead.lean ====
/- The reference's head read at an entry, at the ideal float values. From the sums per graph (a [100, 32] array), the counts per graph
   (a [100] vector), the last weight matrix and its bias, the stage leaves at (g, j)
     (Σ_k (sums(g, k) / max(1, cnt(g))) · W(k, j)) + b(j),
   the one being the word the program holds and the first operand of the maximum, as the clamp takes it. `headFn` is that as a
   function of the four arrays; then the stage Hd from any contents `W` of the buffers. -/
import proofs.«177080_j35828617183700_2_alg».proof.Proof.RefReadStats

open scoped BigOperators

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-- The divisor: the counts clamped from below by one, spread along the 32 columns (through a [100, 1] array). -/
def headDen (cnt : FVec Ideal S100 .f32) : FVec Ideal S100x32 .f32 :=
  broadcastInDim S100x32 ![0, 1] bcast_S100x1_S100x32_0_1
    (broadcastInDim S100x1 ![0] bcast_S100_S100x1_0 (maximumf (broadcastInDim S100 ![] bcast_S_S100 (id (constant (F := Ideal) S_ .f32 0x3F800000#32))) cnt))

/-- Every column of row g holds max(1, cnt(g)). -/
theorem headDen_apply (cnt : FVec Ideal S100 .f32) (g : Fin 100) (k : Fin 32) :
    headDen cnt (ix2 g k) = max (Ideal.ofBits .f32 0x3F800000#32) (cnt (ix1 g)) := by
  unfold headDen
  rw [broadcastInDim_apply ![0, 1] bcast_S100x1_S100x32_0_1 _ (ix2 g k) (ix2 g 0)
      (fun a => by match a with | ⟨0, _⟩ => rfl | ⟨1, _⟩ => rfl),
    broadcastInDim_apply ![0] bcast_S100_S100x1_0 _ (ix2 g 0) (ix1 g) (fun a => by match a with | ⟨0, _⟩ => rfl)]
  show max (broadcastInDim S100 ![] bcast_S_S100 (id (constant (F := Ideal) S_ .f32 0x3F800000#32)) (ix1 g)) (cnt (ix1 g)) = _
  rw [bcast_scalar_apply]
  rfl

/-- The bias spread down the 100 rows (through a [1, 2] array). -/
def headBias (hb : FVec Ideal S2 .f32) : FVec Ideal S100x2 .f32 :=
  broadcastInDim S100x2 ![0, 1] bcast_S1x2_S100x2_0_1 (broadcastInDim S1x2 ![1] bcast_S2_S1x2_1 hb)

/-- Every row of the spread bias is the bias. -/
theorem headBias_apply (hb : FVec Ideal S2 .f32) (g : Fin 100) (j : Fin 2) : headBias hb (ix2 g j) = hb (ix1 j) := by
  unfold headBias
  rw [broadcastInDim_apply ![0, 1] bcast_S1x2_S100x2_0_1 _ (ix2 g j) (ix2 0 j)
      (fun a => by match a with | ⟨0, _⟩ => rfl | ⟨1, _⟩ => rfl),
    broadcastInDim_apply ![1] bcast_S2_S1x2_1 _ (ix2 0 j) (ix1 j) (fun a => by match a with | ⟨0, _⟩ => rfl)]

/-- The head as the operations compose it: the means per graph, times the weights, plus the bias. -/
def headFn (sums : FVec Ideal S100x32 .f32) (cnt : FVec Ideal S100 .f32) (hw : FVec Ideal S32x2 .f32) (hb : FVec Ideal S2 .f32) :
    FVec Ideal S100x2 .f32 :=
  addf (Host.dotGeneral dot_S100x32_S32x2_S100x2_1_0_0_1_n_n none (Host.divf sums (headDen cnt)) hw) (headBias hb)

theorem headFn_apply (sums : FVec Ideal S100x32 .f32) (cnt : FVec Ideal S100 .f32) (hw : FVec Ideal S32x2 .f32)
    (hb : FVec Ideal S2 .f32) (g : Fin 100) (j : Fin 2) :
    headFn sums cnt hw hb (ix2 g j)
      = (∑ k : Fin 32, Ideal.div (sums (ix2 g k)) (max (Ideal.ofBits .f32 0x3F800000#32) (cnt (ix1 g))) * hw (ix2 k j))
        + hb (ix1 j) := by
  show Host.dotGeneral dot_S100x32_S32x2_S100x2_1_0_0_1_n_n none (Host.divf sums (headDen cnt)) hw (ix2 g j) + headBias hb (ix2 g j) = _
  rw [dot_dHd_apply, headBias_apply]
  refine congrArg (· + _) (Finset.sum_congr rfl fun k _ => ?_)
  show Ideal.div (sums (ix2 g k)) (headDen cnt (ix2 g k)) * hw (ix2 k j) = _
  rw [headDen_apply]

/-- After stage `Hd`, entry (g, j) of the result. -/
theorem Hd_read (W : Valuation τ sig (Elt Ideal)) (g : Fin 100) (j : Fin 2) :
    arr_main_v183 (after Hd W) (ix2 g j)
      = (∑ k : Fin 32, Ideal.div (arr_main_v171 W (ix2 g k)) (max (Ideal.ofBits .f32 0x3F800000#32) (arr_main_v175 W (ix1 g)))
            * arr_main_arg9 W (ix2 k j))
        + arr_main_arg10 W (ix1 j) := by
  have h : after Hd W (Proc.devRef .tc main_v183)
      = headFn (W (Proc.devRef .tc main_v171)) (W (Proc.devRef .tc main_v175)) (W (Proc.devRef .tc main_arg9))
          (W (Proc.devRef .tc main_arg10)) := by
    after_results_simp <;> rfl
  simp only [arr_main_v183, arr_main_v171, arr_main_v175, arr_main_arg9, arr_main_arg10]
  rw [h]
  exact headFn_apply _ _ _ _ g j

end Cert.ReferenceIdeal.RefRun

end
-- ==== Proof.Bridge.StageDot.lean ====
/- The two programs' linear layers and readout heads agree at the ideal values, stage by stage: where the inputs of a
   stage agree, so do its outputs. On the kernel side a layer's output array is what its region leaves, entry (p, q) the sum over the
   contracted axis of the region's input entry times the weight entry; on the reference side the layer's product reads
   the same sum; the operands are traced back on each side to the buffers the hypotheses speak of. The head is the same with the quotient
   of the per-graph sums by the counts raised to at least one as the left operand, and the bias added; the two programs
   take the maximum's operands in opposite orders. -/
import proofs.«177080_j35828617183700_2_alg».proof.Proof.Bridge.Sides
import proofs.«177080_j35828617183700_2_alg».proof.Proof.KI.Val0
import proofs.«177080_j35828617183700_2_alg».proof.Proof.KI.Val3
import proofs.«177080_j35828617183700_2_alg».proof.Proof.KI.Val6
import proofs.«177080_j35828617183700_2_alg».proof.Proof.KI.Val9
import proofs.«177080_j35828617183700_2_alg».proof.Proof.KI.Rows
import proofs.«177080_j35828617183700_2_alg».proof.Proof.RefReadDot
import proofs.«177080_j35828617183700_2_alg».proof.Proof.RefReadHead

set_option maxRecDepth 16384

open scoped BigOperators

noncomputable section

namespace Cert.Bridge

open Idealize.ShloMosaic Idealize.ShloMosaic.TcCoe Idealize.ShloMosaic.ValueIdx
open Cert.KernelIdeal.Hand
open Cert.ReferenceIdeal.RefRun

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

/-! ## The first layer -/

/-- The kernel program's first layer, entry by entry, from the launch contents. -/
theorem k_L0 (p : Fin 100000) (q : Fin 32) :
    k_v33 (U2 (F := Ideal) m c) (ix2 p q) = ∑ k : Fin 384, k_arg0 (launchK m c) (ix2 p k) * k_arg4 (launchK m c) (ix2 k q) := by
  have h1 : k_v33 (U2 (F := Ideal) m c) = out0 (T1 (F := Ideal) m) c := fresh_v33 m c
  have h2 : feat0 (T1 (F := Ideal) m) c = k_arg0 (launchK m c) := keep_arg0_1 m c
  have h3 : wt0 (T1 (F := Ideal) m) c = k_arg4 (launchK m c) := keep_arg4_1 m c
  rw [h1, val0, h2, h3]

/-- The reference's first layer, entry by entry, from its arguments. -/
theorem r_L0 (p : Fin 100000) (q : Fin 32) :
    arr_main_v34 (afterL0 V') (ix2 p q) = ∑ k : Fin 384, arr_main_arg0 V' (ix2 p k) * arr_main_arg4 V' (ix2 k q) := by
  have h := L0_read (afterG0 V') p q
  have e0 : arr_main_arg0 (afterG0 V') = arr_main_arg0 V' := kept_L0_main_arg0 V'
  have e4 : arr_main_arg4 (afterG0 V') = arr_main_arg4 V' := kept_L0_main_arg4 V'
  rw [e0, e4] at h
  exact h

/-- Where the features and the first weight agree, the first layer's outputs agree. -/
theorem stage_L0 (hx : k_arg0 (launchK m c) = arr_main_arg0 V') (hw : k_arg4 (launchK m c) = arr_main_arg4 V') :
    k_v33 (U2 (F := Ideal) m c) = arr_main_v34 (afterL0 V') := by
  funext i
  obtain ⟨p, q, rfl⟩ : ∃ (p : Fin 100000) (q : Fin 32), i = ix2 p q := ⟨i 0, i 1, eq_ix2 i⟩
  rw [k_L0, r_L0, hx, hw]

/-! ## The second layer -/

/-- The kernel program's second layer, entry by entry, from the normalization's output and the weight as first computed. -/
theorem k_L1 (p : Fin 100000) (q : Fin 32) :
    k_v63 (U7 (F := Ideal) m c) (ix2 p q) = ∑ k : Fin 32, k_v62 (U6 (F := Ideal) m c) (ix2 p k) * k_v30 (U1 (F := Ideal) m c) (ix2 k q) := by
  have h1 : k_v63 (U7 (F := Ideal) m c) = out3 (T6 (F := Ideal) m) c := fresh_v63 m c
  have h2 : feat3 (T6 (F := Ideal) m) c = k_v62 (U6 (F := Ideal) m c) := rfl
  have h3 : wt3 (T6 (F := Ideal) m) c = k_v30 (U1 (F := Ideal) m c) := keep_v30_6 m c
  rw [h1, val3, h2, h3]

/-- The reference's second layer, entry by entry. -/
theorem r_L1 (p : Fin 100000) (q : Fin 32) :
    arr_main_v79 (afterL1 V') (ix2 p q) = ∑ k : Fin 32, arr_main_v78 (afterA0 V') (ix2 p k) * arr_main_v31 (afterG0 V') (ix2 k q) := by
  have h := L1_read (afterA0 V') p q
  have e : arr_main_v31 (afterA0 V') = arr_main_v31 (afterG0 V') := kept_L1_main_v31 V'
  rw [e] at h
  exact h

/-- Where the first normalization's outputs and the second weight agree, the second layer's outputs agree. -/
theorem stage_L1 (hh : k_v62 (U6 (F := Ideal) m c) = arr_main_v78 (afterA0 V')) (hw : k_v30 (U1 (F := Ideal) m c) = arr_main_v31 (afterG0 V')) :
    k_v63 (U7 (F := Ideal) m c) = arr_main_v79 (afterL1 V') := by
  funext i
  obtain ⟨p, q, rfl⟩ : ∃ (p : Fin 100000) (q : Fin 32), i = ix2 p q := ⟨i 0, i 1, eq_ix2 i⟩
  rw [k_L1, r_L1, hh, hw]

/-! ## The third layer -/

/-- The kernel program's third layer, entry by entry. -/
theorem k_L2 (p : Fin 100000) (q : Fin 32) :
    k_v93 (U12 (F := Ideal) m c) (ix2 p q) = ∑ k : Fin 32, k_v92 (U11 (F := Ideal) m c) (ix2 p k) * k_v32 (U1 (F := Ideal) m c) (ix2 k q) := by
  have h1 : k_v93 (U12 (F := Ideal) m c) = out6 (T11 (F := Ideal) m) c := fresh_v93 m c
  have h2 : feat6 (T11 (F := Ideal) m) c = k_v92 (U11 (F := Ideal) m c) := rfl
  have h3 : wt6 (T11 (F := Ideal) m) c = k_v32 (U1 (F := Ideal) m c) := keep_v32_11 m c
  rw [h1, val6, h2, h3]

/-- The reference's third layer, entry by entry. -/
theorem r_L2 (p : Fin 100000) (q : Fin 32) :
    arr_main_v124 (afterL2 V') (ix2 p q) = ∑ k : Fin 32, arr_main_v123 (afterA1 V') (ix2 p k) * arr_main_v33 (afterG0 V') (ix2 k q) := by
  have h := L2_read (afterA1 V') p q
  have e : arr_main_v33 (afterA1 V') = arr_main_v33 (afterG0 V') := kept_L2_main_v33 V'
  rw [e] at h
  exact h

/-- Where the second normalization's outputs and the third weight agree, the third layer's outputs agree. -/
theorem stage_L2 (hh : k_v92 (U11 (F := Ideal) m c) = arr_main_v123 (afterA1 V')) (hw : k_v32 (U1 (F := Ideal) m c) = arr_main_v33 (afterG0 V')) :
    k_v93 (U12 (F := Ideal) m c) = arr_main_v124 (afterL2 V') := by
  funext i
  obtain ⟨p, q, rfl⟩ : ∃ (p : Fin 100000) (q : Fin 32), i = ix2 p q := ⟨i 0, i 1, eq_ix2 i⟩
  rw [k_L2, r_L2, hh, hw]

/-! ## The head -/

/-- The kernel program's head, entry by entry: the bias row is the bias argument spread over one row. -/
theorem k_Hd (g : Fin 100) (j : Fin 2) :
    k_v132 (U18 (F := Ideal) m c) (ix2 g j)
      = (∑ k : Fin 32, Ideal.div (k_v125 (U17 (F := Ideal) m c) (ix2 g k))
              (max (k_v130 (U17 (F := Ideal) m c) (ix2 g (0 : Fin 1))) (Ideal.ofBits .f32 0x3F800000#32))
            * k_arg9 (launchK m c) (ix2 k j))
        + k_arg10 (launchK m c) (ix1 j) := by
  have h1 : k_v132 (U18 (F := Ideal) m c) = out9 (T17 (F := Ideal) m) c := fresh_v132 m c
  have h2 : sums9 (T17 (F := Ideal) m) c = k_v125 (U17 (F := Ideal) m c) := rfl
  have h3 : cnt9 (T17 (F := Ideal) m) c = k_v130 (U17 (F := Ideal) m c) := rfl
  have h4 : wt9 (T17 (F := Ideal) m) c = k_arg9 (launchK m c) := keep_arg9_17 m c
  have h5 : bias9 (T17 (F := Ideal) m) c (ix2 (0 : Fin 1) j) = k_arg10 (launchK m c) (ix1 j) := by
    have r := row131 (U16 (F := Ideal) m c) j
    have e : k_arg10 (U16 (F := Ideal) m c) = k_arg10 (launchK m c) := keep_arg10_16 m c
    exact r.trans (congrFun e (ix1 j))
  rw [h1, val9, h2, h3, h4, h5]

/-- The reference's head, entry by entry. -/
theorem r_Hd (g : Fin 100) (j : Fin 2) :
    arr_main_v183 (afterHd V') (ix2 g j)
      = (∑ k : Fin 32, Ideal.div (arr_main_v171 (afterPl V') (ix2 g k))
              (max (Ideal.ofBits .f32 0x3F800000#32) (arr_main_v175 (afterPl V') (ix1 g)))
            * arr_main_arg9 V' (ix2 k j))
        + arr_main_arg10 V' (ix1 j) := by
  have h := Hd_read (afterPl V') g j
  have e9 : arr_main_arg9 (afterPl V') = arr_main_arg9 V' := kept_Hd_main_arg9 V'
  have e10 : arr_main_arg10 (afterPl V') = arr_main_arg10 V' := kept_Hd_main_arg10 V'
  rw [e9, e10] at h
  exact h

/-- Where the per-graph sums, the counts, the head's weight and its bias agree, the heads' outputs agree. -/
theorem stage_Hd (hs : k_v125 (U17 (F := Ideal) m c) = arr_main_v171 (afterPl V'))
    (hc : ∀ g : Fin 100, k_v130 (U17 (F := Ideal) m c) (ix2 g (0 : Fin 1)) = arr_main_v175 (afterPl V') (ix1 g))
    (hw : k_arg9 (launchK m c) = arr_main_arg9 V') (hb : k_arg10 (launchK m c) = arr_main_arg10 V') :
    k_v132 (U18 (F := Ideal) m c) = arr_main_v183 (afterHd V') := by
  funext i
  obtain ⟨g, j, rfl⟩ : ∃ (g : Fin 100) (j : Fin 2), i = ix2 g j := ⟨i 0, i 1, eq_ix2 i⟩
  rw [k_Hd, r_Hd, hs, hc g, hw, hb, max_comm (arr_main_v175 (afterPl V') (ix1 g)) (Ideal.ofBits .f32 0x3F800000#32)]

end Cert.Bridge

end
-- ==== Proof.KI.Val1.lean ====
import proofs.«177080_j35828617183700_2_alg».proof.Proof.KI.Reg1
import proofs.«177080_j35828617183700_2_alg».proof.Proof.Net.BnStats
import Idealize.ShloMosaic.Lib.Pipeline.Value
import Idealize.ShloMosaic.Lib.ValueIdx
import Idealize.ShloMosaic.PureOps.Ideal
import Idealize.ShloMosaic.PureOps.Ideal.Laws

open scoped BigOperators

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic, read at one column -/

/-- The reduced index `q` with row `k` put back is (k, q). -/
theorem lift_col1 (h : S5000x32.Reduces [0] S32) (q : Fin 32) (k : Fin (S5000x32.size 0)) :
    h.lift (ix1 q) k = ix2 (⟨k.val, k.isLt⟩ : Fin 5000) q := by
  funext c; apply Fin.ext
  fin_cases c <;> rfl

/-- A block's column sum: the reduction over the 5000 rows, viewed as a 1x32 row, at column `q`. -/
theorem colsum1_at (x : FVec Ideal S5000x32 .f32) (h : S5000x32.Reduces [0] S32) (hφ : FKind.Formats .f32)
    (hacc : (0x00000000#32 : BitVec 32) = 0x00000000#32) (hc : S32.ShapeCasts S1x32) (q : Fin 32) :
    shapeCast S1x32 (multiReduction .add [0] S32 x 0x00000000#32 h hφ hacc) hc (ix2 (0 : Fin 1) q)
      = ∑ r : Fin 5000, x (ix2 r q) := by
  refine (shapeCast_addUnit_apply ![32] _ hc (ix2 (0 : Fin 1) q)).trans ?_
  have e : (fun a : Fin 1 => ix2 (0 : Fin 1) q a.succ) = ix1 q := funext fun a => by
    match a with
    | ⟨0, _⟩ => rfl
  refine (congrArg (multiReduction .add [0] S32 x 0x00000000#32 h hφ hacc) e).trans ?_
  refine (Ideal.multiReduction_add_single x 0x00000000#32 h hφ hacc (ix1 q)).trans ?_
  exact Finset.sum_congr rfl fun r _ => congrArg x (lift_col1 h q r)

/-- The zero rows. -/
theorem pay1_1_at (q : Fin 32) : k1_pay1 (F := Ideal) (ix2 (0 : Fin 1) q) = 0 := by
  unfold k1_pay1
  rw [shapeCast_self]
  exact Ideal.ofBits_zero_f32
theorem pay2_1_at (q : Fin 32) : k1_pay2 (F := Ideal) (ix2 (0 : Fin 1) q) = 0 := by
  unfold k1_pay2
  rw [shapeCast_self]
  exact Ideal.ofBits_zero_f32

/-- The first accumulator gains the block's column sum (started from zero). -/
theorem pay4_1_at (x : Vec Ideal S5000x32 .f32) (s : Vec Ideal S1x32 .f32) (q : Fin 32) :
    k1_pay4 (F := Ideal) x s (ix2 (0 : Fin 1) q) = s (ix2 (0 : Fin 1) q) + (0 + ∑ r : Fin 5000, x (ix2 r q)) := by
  unfold k1_pay4 k1_pay3
  rw [shapeCast_self, shapeCast_self]
  refine (addf_apply _ _ _).trans ?_
  rw [zero_add]
  exact congrArg (fun z => s (ix2 (0 : Fin 1) q) + z) (colsum1_at x _ _ _ _ q)

/-- The second accumulator gains the block's column sum of squares (started from zero). -/
theorem pay5_1_at (x : Vec Ideal S5000x32 .f32) (s : Vec Ideal S1x32 .f32) (q : Fin 32) :
    k1_pay5 (F := Ideal) x s (ix2 (0 : Fin 1) q) = s (ix2 (0 : Fin 1) q) + (0 + ∑ r : Fin 5000, x (ix2 r q) * x (ix2 r q)) := by
  unfold k1_pay5 k1_pay3
  rw [shapeCast_self, shapeCast_self]
  refine (addf_apply _ _ _).trans ?_
  rw [zero_add]
  exact congrArg (fun z => s (ix2 (0 : Fin 1) q) + z) (colsum1_at (mulf x x) _ _ _ _ q)

/-- The mean: the first accumulator over the row count. -/
theorem pay6_1_at (s : Vec Ideal S1x32 .f32) (q : Fin 32) :
    k1_pay6 (F := Ideal) s (ix2 (0 : Fin 1) q) = Ideal.div (s (ix2 (0 : Fin 1) q)) (Ideal.ofBits .f32 0x47C35000#32) := rfl

/-- The variance: max(second accumulator over the row count − mean², 0). -/
theorem pay7_1_at (s t : Vec Ideal S1x32 .f32) (q : Fin 32) :
    k1_pay7 (F := Ideal) s t (ix2 (0 : Fin 1) q)
      = max (Ideal.div (t (ix2 (0 : Fin 1) q)) (Ideal.ofBits .f32 0x47C35000#32)
          - Ideal.div (s (ix2 (0 : Fin 1) q)) (Ideal.ofBits .f32 0x47C35000#32) * Ideal.div (s (ix2 (0 : Fin 1) q)) (Ideal.ofBits .f32 0x47C35000#32)) 0 := by
  unfold k1_pay7
  refine (maximumf_apply _ _ _).trans ?_
  exact congrArg (fun z => max _ z) Ideal.ofBits_zero_f32

/-! ## The two result arrays after the region: what the last point writes back -/

section Final1
variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The grid's last point, the only one that writes the result rows back. -/
def tLast1 : Fin cfg1.N := ⟨19, by rw [show cfg1.N = 20 from N_1]; decide⟩

theorem lastLt1 : 19 < cfg1.N := by rw [show cfg1.N = 20 from N_1]; decide

/-- The one write-back of the mean row writes the mean of what has been accumulated through the last point: block
    (0, 0) of the 1x32 array read through zero offsets is the array. -/
theorem flushed1_1_eq (c : Dev nD) (t : Fin cfg1.N) (hf : (cfg1.win 1).flush t = true) :
    (dat1 V c).flushed 1 t = ((cfg1.win 1).blk t).view.read (Elt F) (mean1 V c 19 lastLt1) := by
  have hN : cfg1.N = 20 := N_1
  have h19 : t.val = 19 := by have := (flush1_1 t).mp hf; have := t.isLt; omega
  obtain rfl : t = tLast1 := Fin.ext h19
  show (cfg1.win 1).cut (grid1.coords tLast1) ((dat1 V c).after 1 tLast1) = _
  rw [after1_1]
  have hz' : (fun a => win1_1.index tLast1 a * main_v55_0.ty.shape.size a) = fun _ => 0 := funext fun a => by fin_cases a <;> decide +kernel
  exact (Memref.read_access_unit_zero (Elt F) main_v55_0 hz' (fun a => by rw [congrFun hz' a]; simp) (mean1 V c 19 lastLt1)).symm

/-- The same for the variance row. -/
theorem flushed1_2_eq (c : Dev nD) (t : Fin cfg1.N) (hf : (cfg1.win 2).flush t = true) :
    (dat1 V c).flushed 2 t = ((cfg1.win 2).blk t).view.read (Elt F) (var1 V c 19 lastLt1) := by
  have hN : cfg1.N = 20 := N_1
  have h19 : t.val = 19 := by have := (flush1_2 t).mp hf; have := t.isLt; omega
  obtain rfl : t = tLast1 := Fin.ext h19
  show (cfg1.win 2).cut (grid1.coords tLast1) ((dat1 V c).after 2 tLast1) = _
  rw [after1_2]
  have hz' : (fun a => win1_2.index tLast1 a * main_v55_1.ty.shape.size a) = fun _ => 0 := funext fun a => by fin_cases a <;> decide +kernel
  exact (Memref.read_access_unit_zero (Elt F) main_v55_1 hz' (fun a => by rw [congrFun hz' a]; simp) (var1 V c 19 lastLt1)).symm

/-- So the mean array ends holding the mean row of everything accumulated (the last point's block covers it). -/
theorem final1_1 (c : Dev nD) : (dat1 V c).arrAt 1 cfg1.N = mean1 V c 19 lastLt1 :=
  (dat1 V c).arrAt_eq_of_cover 1 (mean1 V c 19 lastLt1) (flushed1_1_eq V c) fun i =>
    ⟨tLast1, (flush1_1 tLast1).mpr rfl, by
      show i ∈ ((View.whole main_v55_0).slice (win1_1.rect tLast1)).set
      rw [View.set_slice_whole, Rect.mem_set_unit]
      intro a
      have h0 : (i 0 : Nat) < 1 := (i 0).isLt
      have h1 : (i 1 : Nat) < 32 := (i 1).isLt
      match a with
      | ⟨0, _⟩ => show win1_1.index tLast1 0 * win1_1.size 0 ≤ (i 0 : Nat) ∧ (i 0 : Nat) < win1_1.index tLast1 0 * win1_1.size 0 + win1_1.xsize (grid1.coords tLast1) 0
                  rw [show win1_1.index tLast1 0 * win1_1.size 0 = 0 from by decide +kernel, show win1_1.xsize (grid1.coords tLast1) 0 = 1 from by decide +kernel]; omega
      | ⟨1, _⟩ => show win1_1.index tLast1 1 * win1_1.size 1 ≤ (i 1 : Nat) ∧ (i 1 : Nat) < win1_1.index tLast1 1 * win1_1.size 1 + win1_1.xsize (grid1.coords tLast1) 1
                  rw [show win1_1.index tLast1 1 * win1_1.size 1 = 0 from by decide +kernel, show win1_1.xsize (grid1.coords tLast1) 1 = 32 from by decide +kernel]; omega⟩

/-- And the variance array the variance row. -/
theorem final1_2 (c : Dev nD) : (dat1 V c).arrAt 2 cfg1.N = var1 V c 19 lastLt1 :=
  (dat1 V c).arrAt_eq_of_cover 2 (var1 V c 19 lastLt1) (flushed1_2_eq V c) fun i =>
    ⟨tLast1, (flush1_2 tLast1).mpr rfl, by
      show i ∈ ((View.whole main_v55_1).slice (win1_2.rect tLast1)).set
      rw [View.set_slice_whole, Rect.mem_set_unit]
      intro a
      have h0 : (i 0 : Nat) < 1 := (i 0).isLt
      have h1 : (i 1 : Nat) < 32 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 32 from by decide +kernel]; omega⟩

/-- The input window's block index is the grid point on the row axis and 0 on the column axis (decided over the grid). -/
theorem idx_in1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Block `t` of the input read at (r, q) is the array at row 5000·t + r, column q. -/
theorem iblk1_at (c : Dev nD) (t : Fin cfg1.N) (r : Fin 5000) (q : Fin 32) (hp : 5000 * t.val + r.val < 100000) :
    View.ld (iblk1 V c 0 t) rX1 (ix2 r q) = V c main_v54 (ix2 (⟨5000 * t.val + r.val, hp⟩ : Fin 100000) q) := by
  obtain ⟨e0, e1⟩ := idx_in1 t
  rw [View.ld_unit_zero (S := S5000x32) hz1]
  unfold iblk1
  rw [View.read_apply]
  show V c main_v54 _ = V c main_v54 _
  refine congrArg (V c main_v54) ?_
  funext a; apply Fin.ext
  match a with
  | ⟨0, _⟩ => show win1_0.index t (0 : Fin 2) * 5000 + 1 * r.val = 5000 * t.val + r.val; rw [e0]; omega
  | ⟨1, _⟩ => show win1_0.index t (1 : Fin 2) * 32 + 1 * q.val = q.val; rw [e1]; omega

end Final1

/-! ## At the extended reals: the two rows are the column's statistics -/

section Ideal1
variable (V : (c : Dev nD) → (b : Ref sig .tc) → Buf (Elt Ideal) ((c : Thread nD τ).loc b))

/-- Column `q` of the input array, as the region finds it. -/
def col1 (c : Dev nD) (q : Fin 32) : Fin 100000 → EReal := fun p => V c main_v54 (ix2 p q)

/-- Row `r` of block `t` is row 5000·t + r of the array. -/
def rowOf1 : Fin 20 → Fin 5000 → Fin 100000 := fun t r => ⟨5000 * t.val + r.val, by have := t.isLt; have := r.isLt; omega⟩

/-- Column `q` of the first accumulator row before position `n`: zero, then what the point before stored. -/
def colS1 (c : Dev nD) (q : Fin 32) : ℕ → EReal
  | 0 => 0
  | n + 1 => if h : n < cfg1.N then (accAt1 V c n h).1 (ix2 (0 : Fin 1) q) else 0
/-- The same for the second accumulator row. -/
def colQ1 (c : Dev nD) (q : Fin 32) : ℕ → EReal
  | 0 => 0
  | n + 1 => if h : n < cfg1.N then (accAt1 V c n h).2 (ix2 (0 : Fin 1) q) else 0

theorem colS1_succ (c : Dev nD) (q : Fin 32) (n : ℕ) (h : n < cfg1.N) : colS1 V c q (n + 1) = (accAt1 V c n h).1 (ix2 (0 : Fin 1) q) := by
  show (if h : n < cfg1.N then (accAt1 V c n h).1 (ix2 (0 : Fin 1) q) else 0) = _
  rw [dif_pos h]
theorem colQ1_succ (c : Dev nD) (q : Fin 32) (n : ℕ) (h : n < cfg1.N) : colQ1 V c q (n + 1) = (accAt1 V c n h).2 (ix2 (0 : Fin 1) q) := by
  show (if h : n < cfg1.N then (accAt1 V c n h).2 (ix2 (0 : Fin 1) q) else 0) = _
  rw [dif_pos h]

/-- Block `t` of the input, as the body loads it. -/
def blk1 (c : Dev nD) (t : Fin cfg1.N) : Vec Ideal S5000x32 .f32 := View.ld (iblk1 V c 0 t) rX1

/-- A block's column sum is the sum of the column over the block's rows. -/
theorem blocksum1 (c : Dev nD) (q : Fin 32) (t : ℕ) (h : t < 20) (h' : t < cfg1.N) :
    (∑ r : Fin 5000, blk1 V c ⟨t, h'⟩ (ix2 r q)) = ∑ r : Fin 5000, col1 V c q (rowOf1 ⟨t, h⟩ r) :=
  Finset.sum_congr rfl fun r _ => iblk1_at V c ⟨t, h'⟩ r q (by have := r.isLt; show 5000 * t + r.val < 100000; omega)
theorem blocksumsq1 (c : Dev nD) (q : Fin 32) (t : ℕ) (h : t < 20) (h' : t < cfg1.N) :
    (∑ r : Fin 5000, blk1 V c ⟨t, h'⟩ (ix2 r q) * blk1 V c ⟨t, h'⟩ (ix2 r q))
      = ∑ r : Fin 5000, col1 V c q (rowOf1 ⟨t, h⟩ r) * col1 V c q (rowOf1 ⟨t, h⟩ r) :=
  Finset.sum_congr rfl fun r _ => by
    have e := iblk1_at V c ⟨t, h'⟩ r q (by have := r.isLt; show 5000 * t + r.val < 100000; omega)
    exact congrArg (fun z : EReal => z * z) e

/-- The first accumulator's column gains each block's column sum, block after block. -/
theorem colS1_step (c : Dev nD) (q : Fin 32) (t : ℕ) (h : t < 20) :
    colS1 V c q (t + 1) = colS1 V c q t + (0 + ∑ r : Fin 5000, col1 V c q (rowOf1 ⟨t, h⟩ r)) := by
  have h' : t < cfg1.N := by rw [show cfg1.N = 20 from N_1]; exact h
  rw [colS1_succ V c q t h', ← blocksum1 V c q t h h']
  cases t with
  | zero =>
    refine (pay4_1_at (blk1 V c ⟨0, h'⟩) (k1_pay1 (F := Ideal)) q).trans ?_
    rw [pay1_1_at]; rfl
  | succ n =>
    have hn : n < cfg1.N := Nat.lt_of_succ_lt h'
    rw [colS1_succ V c q n hn]
    exact pay4_1_at (blk1 V c ⟨n + 1, h'⟩) (accAt1 V c n hn).1 q

/-- The second accumulator's column gains each block's column sum of squares. -/
theorem colQ1_step (c : Dev nD) (q : Fin 32) (t : ℕ) (h : t < 20) :
    colQ1 V c q (t + 1) = colQ1 V c q t + (0 + ∑ r : Fin 5000, col1 V c q (rowOf1 ⟨t, h⟩ r) * col1 V c q (rowOf1 ⟨t, h⟩ r)) := by
  have h' : t < cfg1.N := by rw [show cfg1.N = 20 from N_1]; exact h
  rw [colQ1_succ V c q t h', ← blocksumsq1 V c q t h h']
  cases t with
  | zero =>
    refine (pay5_1_at (blk1 V c ⟨0, h'⟩) (k1_pay2 (F := Ideal)) q).trans ?_
    rw [pay2_1_at]; rfl
  | succ n =>
    have hn : n < cfg1.N := Nat.lt_of_succ_lt h'
    rw [colQ1_succ V c q n hn]
    exact pay5_1_at (blk1 V c ⟨n + 1, h'⟩) (accAt1 V c n hn).2 q

/-- THE MEAN ROW after the region, at column `q`: the column's mean from the accumulated block sums. -/
theorem val1_mean (c : Dev nD) (q : Fin 32) :
    (dat1 (F := Ideal) V c).arrAt 1 cfg1.N (ix2 (0 : Fin 1) q) = Cert.Net.meanK (col1 V c q) rowOf1 := by
  rw [final1_1]
  unfold mean1
  rw [View.canon_unit_zero (S := S1x32) hz1]
  refine (pay6_1_at (accAt1 V c 19 lastLt1).1 q).trans ?_
  rw [← colS1_succ V c q 19 lastLt1]
  exact Cert.Net.meanK_of_acc (col1 V c q) rowOf1 (colS1 V c q) rfl (colS1_step V c q)

/-- THE VARIANCE ROW after the region, at column `q`: max(E[u²] − mean², 0) from the accumulated block sums. -/
theorem val1_var (c : Dev nD) (q : Fin 32) :
    (dat1 (F := Ideal) V c).arrAt 2 cfg1.N (ix2 (0 : Fin 1) q) = Cert.Net.varK (col1 V c q) rowOf1 := by
  rw [final1_2]
  unfold var1
  rw [View.canon_unit_zero (S := S1x32) hz1]
  refine (pay7_1_at (accAt1 V c 19 lastLt1).1 (accAt1 V c 19 lastLt1).2 q).trans ?_
  rw [← colS1_succ V c q 19 lastLt1, ← colQ1_succ V c q 19 lastLt1]
  exact Cert.Net.varK_of_acc (col1 V c q) rowOf1 (colS1 V c q) (colQ1 V c q) rfl (colS1_step V c q) rfl (colQ1_step V c q)

end Ideal1

end Cert.KernelIdeal.Hand
end
-- ==== Proof.KI.Val4.lean ====
import proofs.«177080_j35828617183700_2_alg».proof.Proof.KI.Reg4
import proofs.«177080_j35828617183700_2_alg».proof.Proof.Net.BnStats
import Idealize.ShloMosaic.Lib.Pipeline.Value
import Idealize.ShloMosaic.Lib.ValueIdx
import Idealize.ShloMosaic.PureOps.Ideal
import Idealize.ShloMosaic.PureOps.Ideal.Laws

open scoped BigOperators

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic, read at one column -/

/-- The reduced index `q` with row `k` put back is (k, q). -/
theorem lift_col4 (h : S5000x32.Reduces [0] S32) (q : Fin 32) (k : Fin (S5000x32.size 0)) :
    h.lift (ix1 q) k = ix2 (⟨k.val, k.isLt⟩ : Fin 5000) q := by
  funext c; apply Fin.ext
  fin_cases c <;> rfl

/-- A block's column sum: the reduction over the 5000 rows, viewed as a 1x32 row, at column `q`. -/
theorem colsum4_at (x : FVec Ideal S5000x32 .f32) (h : S5000x32.Reduces [0] S32) (hφ : FKind.Formats .f32)
    (hacc : (0x00000000#32 : BitVec 32) = 0x00000000#32) (hc : S32.ShapeCasts S1x32) (q : Fin 32) :
    shapeCast S1x32 (multiReduction .add [0] S32 x 0x00000000#32 h hφ hacc) hc (ix2 (0 : Fin 1) q)
      = ∑ r : Fin 5000, x (ix2 r q) := by
  refine (shapeCast_addUnit_apply ![32] _ hc (ix2 (0 : Fin 1) q)).trans ?_
  have e : (fun a : Fin 1 => ix2 (0 : Fin 1) q a.succ) = ix1 q := funext fun a => by
    match a with
    | ⟨0, _⟩ => rfl
  refine (congrArg (multiReduction .add [0] S32 x 0x00000000#32 h hφ hacc) e).trans ?_
  refine (Ideal.multiReduction_add_single x 0x00000000#32 h hφ hacc (ix1 q)).trans ?_
  exact Finset.sum_congr rfl fun r _ => congrArg x (lift_col4 h q r)

/-- The zero rows. -/
theorem pay1_4_at (q : Fin 32) : k4_pay1 (F := Ideal) (ix2 (0 : Fin 1) q) = 0 := by
  unfold k4_pay1
  rw [shapeCast_self]
  exact Ideal.ofBits_zero_f32
theorem pay2_4_at (q : Fin 32) : k4_pay2 (F := Ideal) (ix2 (0 : Fin 1) q) = 0 := by
  unfold k4_pay2
  rw [shapeCast_self]
  exact Ideal.ofBits_zero_f32

/-- The first accumulator gains the block's column sum (started from zero). -/
theorem pay4_4_at (x : Vec Ideal S5000x32 .f32) (s : Vec Ideal S1x32 .f32) (q : Fin 32) :
    k4_pay4 (F := Ideal) x s (ix2 (0 : Fin 1) q) = s (ix2 (0 : Fin 1) q) + (0 + ∑ r : Fin 5000, x (ix2 r q)) := by
  unfold k4_pay4 k4_pay3
  rw [shapeCast_self, shapeCast_self]
  refine (addf_apply _ _ _).trans ?_
  rw [zero_add]
  exact congrArg (fun z => s (ix2 (0 : Fin 1) q) + z) (colsum4_at x _ _ _ _ q)

/-- The second accumulator gains the block's column sum of squares (started from zero). -/
theorem pay5_4_at (x : Vec Ideal S5000x32 .f32) (s : Vec Ideal S1x32 .f32) (q : Fin 32) :
    k4_pay5 (F := Ideal) x s (ix2 (0 : Fin 1) q) = s (ix2 (0 : Fin 1) q) + (0 + ∑ r : Fin 5000, x (ix2 r q) * x (ix2 r q)) := by
  unfold k4_pay5 k4_pay3
  rw [shapeCast_self, shapeCast_self]
  refine (addf_apply _ _ _).trans ?_
  rw [zero_add]
  exact congrArg (fun z => s (ix2 (0 : Fin 1) q) + z) (colsum4_at (mulf x x) _ _ _ _ q)

/-- The mean: the first accumulator over the row count. -/
theorem pay6_4_at (s : Vec Ideal S1x32 .f32) (q : Fin 32) :
    k4_pay6 (F := Ideal) s (ix2 (0 : Fin 1) q) = Ideal.div (s (ix2 (0 : Fin 1) q)) (Ideal.ofBits .f32 0x47C35000#32) := rfl

/-- The variance: max(second accumulator over the row count − mean², 0). -/
theorem pay7_4_at (s t : Vec Ideal S1x32 .f32) (q : Fin 32) :
    k4_pay7 (F := Ideal) s t (ix2 (0 : Fin 1) q)
      = max (Ideal.div (t (ix2 (0 : Fin 1) q)) (Ideal.ofBits .f32 0x47C35000#32)
          - Ideal.div (s (ix2 (0 : Fin 1) q)) (Ideal.ofBits .f32 0x47C35000#32) * Ideal.div (s (ix2 (0 : Fin 1) q)) (Ideal.ofBits .f32 0x47C35000#32)) 0 := by
  unfold k4_pay7
  refine (maximumf_apply _ _ _).trans ?_
  exact congrArg (fun z => max _ z) Ideal.ofBits_zero_f32

/-! ## The two result arrays after the region: what the last point writes back -/

section Final4
variable {F : FTy → Type} [FloatOps F]
variable (V : (c : Dev nD) → (b : Ref sig .tc) → Buf (Elt F) ((c : Thread nD τ).loc b))

theorem hz4 : (![0, 0] : Fin 2 → Nat) = fun _ => 0 := funext fun a => by fin_cases a <;> rfl

/-- The grid's last point, the only one that writes the result rows back. -/
def tLast4 : Fin cfg4.N := ⟨19, by rw [show cfg4.N = 20 from N_4]; decide⟩

theorem lastLt4 : 19 < cfg4.N := by rw [show cfg4.N = 20 from N_4]; decide

/-- The one write-back of the mean row writes the mean of what has been accumulated through the last point: block
    (0, 0) of the 1x32 array read through zero offsets is the array. -/
theorem flushed4_1_eq (c : Dev nD) (t : Fin cfg4.N) (hf : (cfg4.win 1).flush t = true) :
    (dat4 V c).flushed 1 t = ((cfg4.win 1).blk t).view.read (Elt F) (mean4 V c 19 lastLt4) := by
  have hN : cfg4.N = 20 := N_4
  have h19 : t.val = 19 := by have := (flush4_1 t).mp hf; have := t.isLt; omega
  obtain rfl : t = tLast4 := Fin.ext h19
  show (cfg4.win 1).cut (grid4.coords tLast4) ((dat4 V c).after 1 tLast4) = _
  rw [after4_1]
  have hz' : (fun a => win4_1.index tLast4 a * main_v85_0.ty.shape.size a) = fun _ => 0 := funext fun a => by fin_cases a <;> decide +kernel
  exact (Memref.read_access_unit_zero (Elt F) main_v85_0 hz' (fun a => by rw [congrFun hz' a]; simp) (mean4 V c 19 lastLt4)).symm

/-- The same for the variance row. -/
theorem flushed4_2_eq (c : Dev nD) (t : Fin cfg4.N) (hf : (cfg4.win 2).flush t = true) :
    (dat4 V c).flushed 2 t = ((cfg4.win 2).blk t).view.read (Elt F) (var4 V c 19 lastLt4) := by
  have hN : cfg4.N = 20 := N_4
  have h19 : t.val = 19 := by have := (flush4_2 t).mp hf; have := t.isLt; omega
  obtain rfl : t = tLast4 := Fin.ext h19
  show (cfg4.win 2).cut (grid4.coords tLast4) ((dat4 V c).after 2 tLast4) = _
  rw [after4_2]
  have hz' : (fun a => win4_2.index tLast4 a * main_v85_1.ty.shape.size a) = fun _ => 0 := funext fun a => by fin_cases a <;> decide +kernel
  exact (Memref.read_access_unit_zero (Elt F) main_v85_1 hz' (fun a => by rw [congrFun hz' a]; simp) (var4 V c 19 lastLt4)).symm

/-- So the mean array ends holding the mean row of everything accumulated (the last point's block covers it). -/
theorem final4_1 (c : Dev nD) : (dat4 V c).arrAt 1 cfg4.N = mean4 V c 19 lastLt4 :=
  (dat4 V c).arrAt_eq_of_cover 1 (mean4 V c 19 lastLt4) (flushed4_1_eq V c) fun i =>
    ⟨tLast4, (flush4_1 tLast4).mpr rfl, by
      show i ∈ ((View.whole main_v85_0).slice (win4_1.rect tLast4)).set
      rw [View.set_slice_whole, Rect.mem_set_unit]
      intro a
      have h0 : (i 0 : Nat) < 1 := (i 0).isLt
      have h1 : (i 1 : Nat) < 32 := (i 1).isLt
      match a with
      | ⟨0, _⟩ => show win4_1.index tLast4 0 * win4_1.size 0 ≤ (i 0 : Nat) ∧ (i 0 : Nat) < win4_1.index tLast4 0 * win4_1.size 0 + win4_1.xsize (grid4.coords tLast4) 0
                  rw [show win4_1.index tLast4 0 * win4_1.size 0 = 0 from by decide +kernel, show win4_1.xsize (grid4.coords tLast4) 0 = 1 from by decide +kernel]; omega
      | ⟨1, _⟩ => show win4_1.index tLast4 1 * win4_1.size 1 ≤ (i 1 : Nat) ∧ (i 1 : Nat) < win4_1.index tLast4 1 * win4_1.size 1 + win4_1.xsize (grid4.coords tLast4) 1
                  rw [show win4_1.index tLast4 1 * win4_1.size 1 = 0 from by decide +kernel, show win4_1.xsize (grid4.coords tLast4) 1 = 32 from by decide +kernel]; omega⟩

/-- And the variance array the variance row. -/
theorem final4_2 (c : Dev nD) : (dat4 V c).arrAt 2 cfg4.N = var4 V c 19 lastLt4 :=
  (dat4 V c).arrAt_eq_of_cover 2 (var4 V c 19 lastLt4) (flushed4_2_eq V c) fun i =>
    ⟨tLast4, (flush4_2 tLast4).mpr rfl, by
      show i ∈ ((View.whole main_v85_1).slice (win4_2.rect tLast4)).set
      rw [View.set_slice_whole, Rect.mem_set_unit]
      intro a
      have h0 : (i 0 : Nat) < 1 := (i 0).isLt
      have h1 : (i 1 : Nat) < 32 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [show win4_2.index tLast4 0 * win4_2.size 0 = 0 from by decide +kernel, show win4_2.xsize (grid4.coords tLast4) 0 = 1 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [show win4_2.index tLast4 1 * win4_2.size 1 = 0 from by decide +kernel, show win4_2.xsize (grid4.coords tLast4) 1 = 32 from by decide +kernel]; omega⟩

/-- The input window's block index is the grid point on the row axis and 0 on the column axis (decided over the grid). -/
theorem idx_in4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Block `t` of the input read at (r, q) is the array at row 5000·t + r, column q. -/
theorem iblk4_at (c : Dev nD) (t : Fin cfg4.N) (r : Fin 5000) (q : Fin 32) (hp : 5000 * t.val + r.val < 100000) :
    View.ld (iblk4 V c 0 t) rX4 (ix2 r q) = V c main_v84 (ix2 (⟨5000 * t.val + r.val, hp⟩ : Fin 100000) q) := by
  obtain ⟨e0, e1⟩ := idx_in4 t
  rw [View.ld_unit_zero (S := S5000x32) hz4]
  unfold iblk4
  rw [View.read_apply]
  show V c main_v84 _ = V c main_v84 _
  refine congrArg (V c main_v84) ?_
  funext a; apply Fin.ext
  match a with
  | ⟨0, _⟩ => show win4_0.index t (0 : Fin 2) * 5000 + 1 * r.val = 5000 * t.val + r.val; rw [e0]; omega
  | ⟨1, _⟩ => show win4_0.index t (1 : Fin 2) * 32 + 1 * q.val = q.val; rw [e1]; omega

end Final4

/-! ## At the extended reals: the two rows are the column's statistics -/

section Ideal4
variable (V : (c : Dev nD) → (b : Ref sig .tc) → Buf (Elt Ideal) ((c : Thread nD τ).loc b))

/-- Column `q` of the input array, as the region finds it. -/
def col4 (c : Dev nD) (q : Fin 32) : Fin 100000 → EReal := fun p => V c main_v84 (ix2 p q)

/-- Row `r` of block `t` is row 5000·t + r of the array. -/
def rowOf4 : Fin 20 → Fin 5000 → Fin 100000 := fun t r => ⟨5000 * t.val + r.val, by have := t.isLt; have := r.isLt; omega⟩

/-- Column `q` of the first accumulator row before position `n`: zero, then what the point before stored. -/
def colS4 (c : Dev nD) (q : Fin 32) : ℕ → EReal
  | 0 => 0
  | n + 1 => if h : n < cfg4.N then (accAt4 V c n h).1 (ix2 (0 : Fin 1) q) else 0
/-- The same for the second accumulator row. -/
def colQ4 (c : Dev nD) (q : Fin 32) : ℕ → EReal
  | 0 => 0
  | n + 1 => if h : n < cfg4.N then (accAt4 V c n h).2 (ix2 (0 : Fin 1) q) else 0

theorem colS4_succ (c : Dev nD) (q : Fin 32) (n : ℕ) (h : n < cfg4.N) : colS4 V c q (n + 1) = (accAt4 V c n h).1 (ix2 (0 : Fin 1) q) := by
  show (if h : n < cfg4.N then (accAt4 V c n h).1 (ix2 (0 : Fin 1) q) else 0) = _
  rw [dif_pos h]
theorem colQ4_succ (c : Dev nD) (q : Fin 32) (n : ℕ) (h : n < cfg4.N) : colQ4 V c q (n + 1) = (accAt4 V c n h).2 (ix2 (0 : Fin 1) q) := by
  show (if h : n < cfg4.N then (accAt4 V c n h).2 (ix2 (0 : Fin 1) q) else 0) = _
  rw [dif_pos h]

/-- Block `t` of the input, as the body loads it. -/
def blk4 (c : Dev nD) (t : Fin cfg4.N) : Vec Ideal S5000x32 .f32 := View.ld (iblk4 V c 0 t) rX4

/-- A block's column sum is the sum of the column over the block's rows. -/
theorem blocksum4 (c : Dev nD) (q : Fin 32) (t : ℕ) (h : t < 20) (h' : t < cfg4.N) :
    (∑ r : Fin 5000, blk4 V c ⟨t, h'⟩ (ix2 r q)) = ∑ r : Fin 5000, col4 V c q (rowOf4 ⟨t, h⟩ r) :=
  Finset.sum_congr rfl fun r _ => iblk4_at V c ⟨t, h'⟩ r q (by have := r.isLt; show 5000 * t + r.val < 100000; omega)
theorem blocksumsq4 (c : Dev nD) (q : Fin 32) (t : ℕ) (h : t < 20) (h' : t < cfg4.N) :
    (∑ r : Fin 5000, blk4 V c ⟨t, h'⟩ (ix2 r q) * blk4 V c ⟨t, h'⟩ (ix2 r q))
      = ∑ r : Fin 5000, col4 V c q (rowOf4 ⟨t, h⟩ r) * col4 V c q (rowOf4 ⟨t, h⟩ r) :=
  Finset.sum_congr rfl fun r _ => by
    have e := iblk4_at V c ⟨t, h'⟩ r q (by have := r.isLt; show 5000 * t + r.val < 100000; omega)
    exact congrArg (fun z : EReal => z * z) e

/-- The first accumulator's column gains each block's column sum, block after block. -/
theorem colS4_step (c : Dev nD) (q : Fin 32) (t : ℕ) (h : t < 20) :
    colS4 V c q (t + 1) = colS4 V c q t + (0 + ∑ r : Fin 5000, col4 V c q (rowOf4 ⟨t, h⟩ r)) := by
  have h' : t < cfg4.N := by rw [show cfg4.N = 20 from N_4]; exact h
  rw [colS4_succ V c q t h', ← blocksum4 V c q t h h']
  cases t with
  | zero =>
    refine (pay4_4_at (blk4 V c ⟨0, h'⟩) (k4_pay1 (F := Ideal)) q).trans ?_
    rw [pay1_4_at]; rfl
  | succ n =>
    have hn : n < cfg4.N := Nat.lt_of_succ_lt h'
    rw [colS4_succ V c q n hn]
    exact pay4_4_at (blk4 V c ⟨n + 1, h'⟩) (accAt4 V c n hn).1 q

/-- The second accumulator's column gains each block's column sum of squares. -/
theorem colQ4_step (c : Dev nD) (q : Fin 32) (t : ℕ) (h : t < 20) :
    colQ4 V c q (t + 1) = colQ4 V c q t + (0 + ∑ r : Fin 5000, col4 V c q (rowOf4 ⟨t, h⟩ r) * col4 V c q (rowOf4 ⟨t, h⟩ r)) := by
  have h' : t < cfg4.N := by rw [show cfg4.N = 20 from N_4]; exact h
  rw [colQ4_succ V c q t h', ← blocksumsq4 V c q t h h']
  cases t with
  | zero =>
    refine (pay5_4_at (blk4 V c ⟨0, h'⟩) (k4_pay2 (F := Ideal)) q).trans ?_
    rw [pay2_4_at]; rfl
  | succ n =>
    have hn : n < cfg4.N := Nat.lt_of_succ_lt h'
    rw [colQ4_succ V c q n hn]
    exact pay5_4_at (blk4 V c ⟨n + 1, h'⟩) (accAt4 V c n hn).2 q

/-- THE MEAN ROW after the region, at column `q`: the column's mean from the accumulated block sums. -/
theorem val4_mean (c : Dev nD) (q : Fin 32) :
    (dat4 (F := Ideal) V c).arrAt 1 cfg4.N (ix2 (0 : Fin 1) q) = Cert.Net.meanK (col4 V c q) rowOf4 := by
  rw [final4_1]
  unfold mean4
  rw [View.canon_unit_zero (S := S1x32) hz4]
  refine (pay6_4_at (accAt4 V c 19 lastLt4).1 q).trans ?_
  rw [← colS4_succ V c q 19 lastLt4]
  exact Cert.Net.meanK_of_acc (col4 V c q) rowOf4 (colS4 V c q) rfl (colS4_step V c q)

/-- THE VARIANCE ROW after the region, at column `q`: max(E[u²] − mean², 0) from the accumulated block sums. -/
theorem val4_var (c : Dev nD) (q : Fin 32) :
    (dat4 (F := Ideal) V c).arrAt 2 cfg4.N (ix2 (0 : Fin 1) q) = Cert.Net.varK (col4 V c q) rowOf4 := by
  rw [final4_2]
  unfold var4
  rw [View.canon_unit_zero (S := S1x32) hz4]
  refine (pay7_4_at (accAt4 V c 19 lastLt4).1 (accAt4 V c 19 lastLt4).2 q).trans ?_
  rw [← colS4_succ V c q 19 lastLt4, ← colQ4_succ V c q 19 lastLt4]
  exact Cert.Net.varK_of_acc (col4 V c q) rowOf4 (colS4 V c q) (colQ4 V c q) rfl (colS4_step V c q) rfl (colQ4_step V c q)

end Ideal4

end Cert.KernelIdeal.Hand
end
-- ==== Proof.KI.Val7.lean ====
import proofs.«177080_j35828617183700_2_alg».proof.Proof.KI.Reg7
import proofs.«177080_j35828617183700_2_alg».proof.Proof.Net.BnStats
import Idealize.ShloMosaic.Lib.Pipeline.Value
import Idealize.ShloMosaic.Lib.ValueIdx
import Idealize.ShloMosaic.PureOps.Ideal
import Idealize.ShloMosaic.PureOps.Ideal.Laws

open scoped BigOperators

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic, read at one column -/

/-- The reduced index `q` with row `k` put back is (k, q). -/
theorem lift_col7 (h : S5000x32.Reduces [0] S32) (q : Fin 32) (k : Fin (S5000x32.size 0)) :
    h.lift (ix1 q) k = ix2 (⟨k.val, k.isLt⟩ : Fin 5000) q := by
  funext c; apply Fin.ext
  fin_cases c <;> rfl

/-- A block's column sum: the reduction over the 5000 rows, viewed as a 1x32 row, at column `q`. -/
theorem colsum7_at (x : FVec Ideal S5000x32 .f32) (h : S5000x32.Reduces [0] S32) (hφ : FKind.Formats .f32)
    (hacc : (0x00000000#32 : BitVec 32) = 0x00000000#32) (hc : S32.ShapeCasts S1x32) (q : Fin 32) :
    shapeCast S1x32 (multiReduction .add [0] S32 x 0x00000000#32 h hφ hacc) hc (ix2 (0 : Fin 1) q)
      = ∑ r : Fin 5000, x (ix2 r q) := by
  refine (shapeCast_addUnit_apply ![32] _ hc (ix2 (0 : Fin 1) q)).trans ?_
  have e : (fun a : Fin 1 => ix2 (0 : Fin 1) q a.succ) = ix1 q := funext fun a => by
    match a with
    | ⟨0, _⟩ => rfl
  refine (congrArg (multiReduction .add [0] S32 x 0x00000000#32 h hφ hacc) e).trans ?_
  refine (Ideal.multiReduction_add_single x 0x00000000#32 h hφ hacc (ix1 q)).trans ?_
  exact Finset.sum_congr rfl fun r _ => congrArg x (lift_col7 h q r)

/-- The zero rows. -/
theorem pay1_7_at (q : Fin 32) : k7_pay1 (F := Ideal) (ix2 (0 : Fin 1) q) = 0 := by
  unfold k7_pay1
  rw [shapeCast_self]
  exact Ideal.ofBits_zero_f32
theorem pay2_7_at (q : Fin 32) : k7_pay2 (F := Ideal) (ix2 (0 : Fin 1) q) = 0 := by
  unfold k7_pay2
  rw [shapeCast_self]
  exact Ideal.ofBits_zero_f32

/-- The first accumulator gains the block's column sum (started from zero). -/
theorem pay4_7_at (x : Vec Ideal S5000x32 .f32) (s : Vec Ideal S1x32 .f32) (q : Fin 32) :
    k7_pay4 (F := Ideal) x s (ix2 (0 : Fin 1) q) = s (ix2 (0 : Fin 1) q) + (0 + ∑ r : Fin 5000, x (ix2 r q)) := by
  unfold k7_pay4 k7_pay3
  rw [shapeCast_self, shapeCast_self]
  refine (addf_apply _ _ _).trans ?_
  rw [zero_add]
  exact congrArg (fun z => s (ix2 (0 : Fin 1) q) + z) (colsum7_at x _ _ _ _ q)

/-- The second accumulator gains the block's column sum of squares (started from zero). -/
theorem pay5_7_at (x : Vec Ideal S5000x32 .f32) (s : Vec Ideal S1x32 .f32) (q : Fin 32) :
    k7_pay5 (F := Ideal) x s (ix2 (0 : Fin 1) q) = s (ix2 (0 : Fin 1) q) + (0 + ∑ r : Fin 5000, x (ix2 r q) * x (ix2 r q)) := by
  unfold k7_pay5 k7_pay3
  rw [shapeCast_self, shapeCast_self]
  refine (addf_apply _ _ _).trans ?_
  rw [zero_add]
  exact congrArg (fun z => s (ix2 (0 : Fin 1) q) + z) (colsum7_at (mulf x x) _ _ _ _ q)

/-- The mean: the first accumulator over the row count. -/
theorem pay6_7_at (s : Vec Ideal S1x32 .f32) (q : Fin 32) :
    k7_pay6 (F := Ideal) s (ix2 (0 : Fin 1) q) = Ideal.div (s (ix2 (0 : Fin 1) q)) (Ideal.ofBits .f32 0x47C35000#32) := rfl

/-- The variance: max(second accumulator over the row count − mean², 0). -/
theorem pay7_7_at (s t : Vec Ideal S1x32 .f32) (q : Fin 32) :
    k7_pay7 (F := Ideal) s t (ix2 (0 : Fin 1) q)
      = max (Ideal.div (t (ix2 (0 : Fin 1) q)) (Ideal.ofBits .f32 0x47C35000#32)
          - Ideal.div (s (ix2 (0 : Fin 1) q)) (Ideal.ofBits .f32 0x47C35000#32) * Ideal.div (s (ix2 (0 : Fin 1) q)) (Ideal.ofBits .f32 0x47C35000#32)) 0 := by
  unfold k7_pay7
  refine (maximumf_apply _ _ _).trans ?_
  exact congrArg (fun z => max _ z) Ideal.ofBits_zero_f32

/-! ## The two result arrays after the region: what the last point writes back -/

section Final7
variable {F : FTy → Type} [FloatOps F]
variable (V : (c : Dev nD) → (b : Ref sig .tc) → Buf (Elt F) ((c : Thread nD τ).loc b))

theorem hz7 : (![0, 0] : Fin 2 → Nat) = fun _ => 0 := funext fun a => by fin_cases a <;> rfl

/-- The grid's last point, the only one that writes the result rows back. -/
def tLast7 : Fin cfg7.N := ⟨19, by rw [show cfg7.N = 20 from N_7]; decide⟩

theorem lastLt7 : 19 < cfg7.N := by rw [show cfg7.N = 20 from N_7]; decide

/-- The one write-back of the mean row writes the mean of what has been accumulated through the last point: block
    (0, 0) of the 1x32 array read through zero offsets is the array. -/
theorem flushed7_1_eq (c : Dev nD) (t : Fin cfg7.N) (hf : (cfg7.win 1).flush t = true) :
    (dat7 V c).flushed 1 t = ((cfg7.win 1).blk t).view.read (Elt F) (mean7 V c 19 lastLt7) := by
  have hN : cfg7.N = 20 := N_7
  have h19 : t.val = 19 := by have := (flush7_1 t).mp hf; have := t.isLt; omega
  obtain rfl : t = tLast7 := Fin.ext h19
  show (cfg7.win 1).cut (grid7.coords tLast7) ((dat7 V c).after 1 tLast7) = _
  rw [after7_1]
  have hz' : (fun a => win7_1.index tLast7 a * main_v115_0.ty.shape.size a) = fun _ => 0 := funext fun a => by fin_cases a <;> decide +kernel
  exact (Memref.read_access_unit_zero (Elt F) main_v115_0 hz' (fun a => by rw [congrFun hz' a]; simp) (mean7 V c 19 lastLt7)).symm

/-- The same for the variance row. -/
theorem flushed7_2_eq (c : Dev nD) (t : Fin cfg7.N) (hf : (cfg7.win 2).flush t = true) :
    (dat7 V c).flushed 2 t = ((cfg7.win 2).blk t).view.read (Elt F) (var7 V c 19 lastLt7) := by
  have hN : cfg7.N = 20 := N_7
  have h19 : t.val = 19 := by have := (flush7_2 t).mp hf; have := t.isLt; omega
  obtain rfl : t = tLast7 := Fin.ext h19
  show (cfg7.win 2).cut (grid7.coords tLast7) ((dat7 V c).after 2 tLast7) = _
  rw [after7_2]
  have hz' : (fun a => win7_2.index tLast7 a * main_v115_1.ty.shape.size a) = fun _ => 0 := funext fun a => by fin_cases a <;> decide +kernel
  exact (Memref.read_access_unit_zero (Elt F) main_v115_1 hz' (fun a => by rw [congrFun hz' a]; simp) (var7 V c 19 lastLt7)).symm

/-- So the mean array ends holding the mean row of everything accumulated (the last point's block covers it). -/
theorem final7_1 (c : Dev nD) : (dat7 V c).arrAt 1 cfg7.N = mean7 V c 19 lastLt7 :=
  (dat7 V c).arrAt_eq_of_cover 1 (mean7 V c 19 lastLt7) (flushed7_1_eq V c) fun i =>
    ⟨tLast7, (flush7_1 tLast7).mpr rfl, by
      show i ∈ ((View.whole main_v115_0).slice (win7_1.rect tLast7)).set
      rw [View.set_slice_whole, Rect.mem_set_unit]
      intro a
      have h0 : (i 0 : Nat) < 1 := (i 0).isLt
      have h1 : (i 1 : Nat) < 32 := (i 1).isLt
      match a with
      | ⟨0, _⟩ => show win7_1.index tLast7 0 * win7_1.size 0 ≤ (i 0 : Nat) ∧ (i 0 : Nat) < win7_1.index tLast7 0 * win7_1.size 0 + win7_1.xsize (grid7.coords tLast7) 0
                  rw [show win7_1.index tLast7 0 * win7_1.size 0 = 0 from by decide +kernel, show win7_1.xsize (grid7.coords tLast7) 0 = 1 from by decide +kernel]; omega
      | ⟨1, _⟩ => show win7_1.index tLast7 1 * win7_1.size 1 ≤ (i 1 : Nat) ∧ (i 1 : Nat) < win7_1.index tLast7 1 * win7_1.size 1 + win7_1.xsize (grid7.coords tLast7) 1
                  rw [show win7_1.index tLast7 1 * win7_1.size 1 = 0 from by decide +kernel, show win7_1.xsize (grid7.coords tLast7) 1 = 32 from by decide +kernel]; omega⟩

/-- And the variance array the variance row. -/
theorem final7_2 (c : Dev nD) : (dat7 V c).arrAt 2 cfg7.N = var7 V c 19 lastLt7 :=
  (dat7 V c).arrAt_eq_of_cover 2 (var7 V c 19 lastLt7) (flushed7_2_eq V c) fun i =>
    ⟨tLast7, (flush7_2 tLast7).mpr rfl, by
      show i ∈ ((View.whole main_v115_1).slice (win7_2.rect tLast7)).set
      rw [View.set_slice_whole, Rect.mem_set_unit]
      intro a
      have h0 : (i 0 : Nat) < 1 := (i 0).isLt
      have h1 : (i 1 : Nat) < 32 := (i 1).isLt
      match a with
      | ⟨0, _⟩ => show win7_2.index tLast7 0 * win7_2.size 0 ≤ (i 0 : Nat) ∧ (i 0 : Nat) < win7_2.index tLast7 0 * win7_2.size 0 + win7_2.xsize (grid7.coords tLast7) 0
                  rw [show win7_2.index tLast7 0 * win7_2.size 0 = 0 from by decide +kernel, show win7_2.xsize (grid7.coords tLast7) 0 = 1 from by decide +kernel]; omega
      | ⟨1, _⟩ => show win7_2.index tLast7 1 * win7_2.size 1 ≤ (i 1 : Nat) ∧ (i 1 : Nat) < win7_2.index tLast7 1 * win7_2.size 1 + win7_2.xsize (grid7.coords tLast7) 1
                  rw [show win7_2.index tLast7 1 * win7_2.size 1 = 0 from by decide +kernel, show win7_2.xsize (grid7.coords tLast7) 1 = 32 from by decide +kernel]; omega⟩

/-- The input window's block index is the grid point on the row axis and 0 on the column axis (decided over the grid). -/
theorem idx_in7 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Block `t` of the input read at (r, q) is the array at row 5000·t + r, column q. -/
theorem iblk7_at (c : Dev nD) (t : Fin cfg7.N) (r : Fin 5000) (q : Fin 32) (hp : 5000 * t.val + r.val < 100000) :
    View.ld (iblk7 V c 0 t) rX7 (ix2 r q) = V c main_v114 (ix2 (⟨5000 * t.val + r.val, hp⟩ : Fin 100000) q) := by
  obtain ⟨e0, e1⟩ := idx_in7 t
  rw [View.ld_unit_zero (S := S5000x32) hz7]
  unfold iblk7
  rw [View.read_apply]
  show V c main_v114 _ = V c main_v114 _
  refine congrArg (V c main_v114) ?_
  funext a; apply Fin.ext
  match a with
  | ⟨0, _⟩ => show win7_0.index t (0 : Fin 2) * 5000 + 1 * r.val = 5000 * t.val + r.val; rw [e0]; omega
  | ⟨1, _⟩ => show win7_0.index t (1 : Fin 2) * 32 + 1 * q.val = q.val; rw [e1]; omega

end Final7

/-! ## At the extended reals: the two rows are the column's statistics -/

section Ideal7
variable (V : (c : Dev nD) → (b : Ref sig .tc) → Buf (Elt Ideal) ((c : Thread nD τ).loc b))

/-- Column `q` of the input array, as the region finds it. -/
def col7 (c : Dev nD) (q : Fin 32) : Fin 100000 → EReal := fun p => V c main_v114 (ix2 p q)

/-- Row `r` of block `t` is row 5000·t + r of the array. -/
def rowOf7 : Fin 20 → Fin 5000 → Fin 100000 := fun t r => ⟨5000 * t.val + r.val, by have := t.isLt; have := r.isLt; omega⟩

/-- Column `q` of the first accumulator row before position `n`: zero, then what the point before stored. -/
def colS7 (c : Dev nD) (q : Fin 32) : ℕ → EReal
  | 0 => 0
  | n + 1 => if h : n < cfg7.N then (accAt7 V c n h).1 (ix2 (0 : Fin 1) q) else 0
/-- The same for the second accumulator row. -/
def colQ7 (c : Dev nD) (q : Fin 32) : ℕ → EReal
  | 0 => 0
  | n + 1 => if h : n < cfg7.N then (accAt7 V c n h).2 (ix2 (0 : Fin 1) q) else 0

theorem colS7_succ (c : Dev nD) (q : Fin 32) (n : ℕ) (h : n < cfg7.N) : colS7 V c q (n + 1) = (accAt7 V c n h).1 (ix2 (0 : Fin 1) q) := by
  show (if h : n < cfg7.N then (accAt7 V c n h).1 (ix2 (0 : Fin 1) q) else 0) = _
  rw [dif_pos h]
theorem colQ7_succ (c : Dev nD) (q : Fin 32) (n : ℕ) (h : n < cfg7.N) : colQ7 V c q (n + 1) = (accAt7 V c n h).2 (ix2 (0 : Fin 1) q) := by
  show (if h : n < cfg7.N then (accAt7 V c n h).2 (ix2 (0 : Fin 1) q) else 0) = _
  rw [dif_pos h]

/-- Block `t` of the input, as the body loads it. -/
def blk7 (c : Dev nD) (t : Fin cfg7.N) : Vec Ideal S5000x32 .f32 := View.ld (iblk7 V c 0 t) rX7

/-- A block's column sum is the sum of the column over the block's rows. -/
theorem blocksum7 (c : Dev nD) (q : Fin 32) (t : ℕ) (h : t < 20) (h' : t < cfg7.N) :
    (∑ r : Fin 5000, blk7 V c ⟨t, h'⟩ (ix2 r q)) = ∑ r : Fin 5000, col7 V c q (rowOf7 ⟨t, h⟩ r) :=
  Finset.sum_congr rfl fun r _ => iblk7_at V c ⟨t, h'⟩ r q (by have := r.isLt; show 5000 * t + r.val < 100000; omega)
theorem blocksumsq7 (c : Dev nD) (q : Fin 32) (t : ℕ) (h : t < 20) (h' : t < cfg7.N) :
    (∑ r : Fin 5000, blk7 V c ⟨t, h'⟩ (ix2 r q) * blk7 V c ⟨t, h'⟩ (ix2 r q))
      = ∑ r : Fin 5000, col7 V c q (rowOf7 ⟨t, h⟩ r) * col7 V c q (rowOf7 ⟨t, h⟩ r) :=
  Finset.sum_congr rfl fun r _ => by
    have e := iblk7_at V c ⟨t, h'⟩ r q (by have := r.isLt; show 5000 * t + r.val < 100000; omega)
    exact congrArg (fun z : EReal => z * z) e

/-- The first accumulator's column gains each block's column sum, block after block. -/
theorem colS7_step (c : Dev nD) (q : Fin 32) (t : ℕ) (h : t < 20) :
    colS7 V c q (t + 1) = colS7 V c q t + (0 + ∑ r : Fin 5000, col7 V c q (rowOf7 ⟨t, h⟩ r)) := by
  have h' : t < cfg7.N := by rw [show cfg7.N = 20 from N_7]; exact h
  rw [colS7_succ V c q t h', ← blocksum7 V c q t h h']
  cases t with
  | zero =>
    refine (pay4_7_at (blk7 V c ⟨0, h'⟩) (k7_pay1 (F := Ideal)) q).trans ?_
    rw [pay1_7_at]; rfl
  | succ n =>
    have hn : n < cfg7.N := Nat.lt_of_succ_lt h'
    rw [colS7_succ V c q n hn]
    exact pay4_7_at (blk7 V c ⟨n + 1, h'⟩) (accAt7 V c n hn).1 q

/-- The second accumulator's column gains each block's column sum of squares. -/
theorem colQ7_step (c : Dev nD) (q : Fin 32) (t : ℕ) (h : t < 20) :
    colQ7 V c q (t + 1) = colQ7 V c q t + (0 + ∑ r : Fin 5000, col7 V c q (rowOf7 ⟨t, h⟩ r) * col7 V c q (rowOf7 ⟨t, h⟩ r)) := by
  have h' : t < cfg7.N := by rw [show cfg7.N = 20 from N_7]; exact h
  rw [colQ7_succ V c q t h', ← blocksumsq7 V c q t h h']
  cases t with
  | zero =>
    refine (pay5_7_at (blk7 V c ⟨0, h'⟩) (k7_pay2 (F := Ideal)) q).trans ?_
    rw [pay2_7_at]; rfl
  | succ n =>
    have hn : n < cfg7.N := Nat.lt_of_succ_lt h'
    rw [colQ7_succ V c q n hn]
    exact pay5_7_at (blk7 V c ⟨n + 1, h'⟩) (accAt7 V c n hn).2 q

/-- THE MEAN ROW after the region, at column `q`: the column's mean from the accumulated block sums. -/
theorem val7_mean (c : Dev nD) (q : Fin 32) :
    (dat7 (F := Ideal) V c).arrAt 1 cfg7.N (ix2 (0 : Fin 1) q) = Cert.Net.meanK (col7 V c q) rowOf7 := by
  rw [final7_1]
  unfold mean7
  rw [View.canon_unit_zero (S := S1x32) hz7]
  refine (pay6_7_at (accAt7 V c 19 lastLt7).1 q).trans ?_
  rw [← colS7_succ V c q 19 lastLt7]
  exact Cert.Net.meanK_of_acc (col7 V c q) rowOf7 (colS7 V c q) rfl (colS7_step V c q)

/-- THE VARIANCE ROW after the region, at column `q`: max(E[u²] − mean², 0) from the accumulated block sums. -/
theorem val7_var (c : Dev nD) (q : Fin 32) :
    (dat7 (F := Ideal) V c).arrAt 2 cfg7.N (ix2 (0 : Fin 1) q) = Cert.Net.varK (col7 V c q) rowOf7 := by
  rw [final7_2]
  unfold var7
  rw [View.canon_unit_zero (S := S1x32) hz7]
  refine (pay7_7_at (accAt7 V c 19 lastLt7).1 (accAt7 V c 19 lastLt7).2 q).trans ?_
  rw [← colS7_succ V c q 19 lastLt7, ← colQ7_succ V c q 19 lastLt7]
  exact Cert.Net.varK_of_acc (col7 V c q) rowOf7 (colS7 V c q) (colQ7 V c q) rfl (colS7_step V c q) rfl (colQ7_step V c q)

end Ideal7

end Cert.KernelIdeal.Hand
end
-- ==== Proof.Bridge.StageStats.lean ====
/-
  The batch statistics of the three layers, kernel against reference. The kernel accumulates, over twenty blocks of 5000 rows, each
  column's sum and sum of squares and takes mean = sum / n and variance = max(sumsq / n − mean², 0); the reference takes the mean over
  all 100000 rows and the mean squared deviation from it. The means are the same extended real whatever the data; on real data the
  variances are too.
-/
import proofs.«177080_j35828617183700_2_alg».proof.Proof.Bridge.Sides
import proofs.«177080_j35828617183700_2_alg».proof.Proof.KI.Val1
import proofs.«177080_j35828617183700_2_alg».proof.Proof.KI.Val4
import proofs.«177080_j35828617183700_2_alg».proof.Proof.KI.Val7
import proofs.«177080_j35828617183700_2_alg».proof.Proof.RefReadStats
import proofs.«177080_j35828617183700_2_alg».proof.Proof.Net.BnStats

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

/-! ## Layer 0's batch statistics -/

/-- The kernel's mean row after the statistics region of layer 0, at column `q`: the mean of that column of the
    array the region read — the twenty block sums accumulated in order are the plain sum over the 100000 rows. -/
theorem kstat0_mean (q : Fin 32) :
    k_v55_0 (Cert.KernelIdeal.Hand.U4 (F := Ideal) m c) (ix2 (0 : Fin 1) q)
      = Cert.Net.meanR (fun p : Fin 100000 => k_v54 (Cert.KernelIdeal.Hand.U3 (F := Ideal) m c) (ix2 p q)) := by
  have h := Cert.KernelIdeal.Hand.val1_mean (Cert.KernelIdeal.Hand.T3 (F := Ideal) m) c q
  refine (congrFun (Cert.KernelIdeal.Hand.fresh_v55_0 (F := Ideal) m c) (ix2 (0 : Fin 1) q)).trans ?_
  refine h.trans ?_
  exact Cert.Net.meanK_eq_meanR _ _ (fun _ _ => rfl)

/-- On real data the kernel's variance row is the mean squared deviation of the column; the mean and it are reals,
    and it is not negative. -/
theorem kstat0_var (hreal : ∀ i, Cert.Alg.IsReal (k_v54 (Cert.KernelIdeal.Hand.U3 (F := Ideal) m c) i)) (q : Fin 32) :
    k_v55_1 (Cert.KernelIdeal.Hand.U4 (F := Ideal) m c) (ix2 (0 : Fin 1) q)
        = Cert.Net.varR (fun p : Fin 100000 => k_v54 (Cert.KernelIdeal.Hand.U3 (F := Ideal) m c) (ix2 p q))
      ∧ Cert.Alg.IsReal (Cert.Net.meanR (fun p : Fin 100000 => k_v54 (Cert.KernelIdeal.Hand.U3 (F := Ideal) m c) (ix2 p q)))
      ∧ Cert.Alg.IsReal (Cert.Net.varR (fun p : Fin 100000 => k_v54 (Cert.KernelIdeal.Hand.U3 (F := Ideal) m c) (ix2 p q)))
      ∧ 0 ≤ Cert.Net.varR (fun p : Fin 100000 => k_v54 (Cert.KernelIdeal.Hand.U3 (F := Ideal) m c) (ix2 p q)) := by
  have h := Cert.KernelIdeal.Hand.val1_var (Cert.KernelIdeal.Hand.T3 (F := Ideal) m) c q
  obtain ⟨hv, hm, hr, hn⟩ := Cert.Net.varK_eq_varR (Cert.KernelIdeal.Hand.col1 (Cert.KernelIdeal.Hand.T3 (F := Ideal) m) c q) Cert.KernelIdeal.Hand.rowOf1 (fun _ _ => rfl)
    (fun p => hreal (ix2 p q))
  exact ⟨(congrFun (Cert.KernelIdeal.Hand.fresh_v55_1 (F := Ideal) m c) (ix2 (0 : Fin 1) q)).trans (h.trans hv), hm, hr, hn⟩

/-- Layer 0's statistics agree: from equal real pre-activations, the kernel's mean and variance rows are the
    reference's mean and variance vectors, column by column. -/
theorem stage_St0
    (hzb : k_v54 (Cert.KernelIdeal.Hand.U3 (F := Ideal) m c) = Cert.ReferenceIdeal.RefRun.arr_main_v54 (Cert.ReferenceIdeal.RefRun.afterG1 V'))
    (hreal : ∀ i, Cert.Alg.IsReal (k_v54 (Cert.KernelIdeal.Hand.U3 (F := Ideal) m c) i)) :
    (∀ q : Fin 32, k_v55_0 (Cert.KernelIdeal.Hand.U4 (F := Ideal) m c) (ix2 (0 : Fin 1) q) = Cert.ReferenceIdeal.RefRun.arr_main_v57 (Cert.ReferenceIdeal.RefRun.afterSt0 V') (ix1 q))
    ∧ (∀ q : Fin 32, k_v55_1 (Cert.KernelIdeal.Hand.U4 (F := Ideal) m c) (ix2 (0 : Fin 1) q) = Cert.ReferenceIdeal.RefRun.arr_main_v58 (Cert.ReferenceIdeal.RefRun.afterSt0 V') (ix1 q)) := by
  refine ⟨fun q => ?_, fun q => ?_⟩
  · refine (kstat0_mean m c q).trans ?_
    rw [hzb]
    exact (Cert.ReferenceIdeal.RefRun.St0_mean_read (Cert.ReferenceIdeal.RefRun.afterG1 V') q).symm
  · refine (kstat0_var m c hreal q).1.trans ?_
    rw [hzb]
    exact (Cert.ReferenceIdeal.RefRun.St0_var_read (Cert.ReferenceIdeal.RefRun.afterG1 V') q).symm

/-! ## Layer 1's batch statistics -/

/-- The kernel's mean row after the statistics region of layer 1, at column `q`: the mean of that column of the
    array the region read — the twenty block sums accumulated in order are the plain sum over the 100000 rows. -/
theorem kstat1_mean (q : Fin 32) :
    k_v85_0 (Cert.KernelIdeal.Hand.U9 (F := Ideal) m c) (ix2 (0 : Fin 1) q)
      = Cert.Net.meanR (fun p : Fin 100000 => k_v84 (Cert.KernelIdeal.Hand.U8 (F := Ideal) m c) (ix2 p q)) := by
  have h := Cert.KernelIdeal.Hand.val4_mean (Cert.KernelIdeal.Hand.T8 (F := Ideal) m) c q
  refine (congrFun (Cert.KernelIdeal.Hand.fresh_v85_0 (F := Ideal) m c) (ix2 (0 : Fin 1) q)).trans ?_
  refine h.trans ?_
  exact Cert.Net.meanK_eq_meanR _ _ (fun _ _ => rfl)

/-- On real data the kernel's variance row is the mean squared deviation of the column; the mean and it are reals,
    and it is not negative. -/
theorem kstat1_var (hreal : ∀ i, Cert.Alg.IsReal (k_v84 (Cert.KernelIdeal.Hand.U8 (F := Ideal) m c) i)) (q : Fin 32) :
    k_v85_1 (Cert.KernelIdeal.Hand.U9 (F := Ideal) m c) (ix2 (0 : Fin 1) q)
        = Cert.Net.varR (fun p : Fin 100000 => k_v84 (Cert.KernelIdeal.Hand.U8 (F := Ideal) m c) (ix2 p q))
      ∧ Cert.Alg.IsReal (Cert.Net.meanR (fun p : Fin 100000 => k_v84 (Cert.KernelIdeal.Hand.U8 (F := Ideal) m c) (ix2 p q)))
      ∧ Cert.Alg.IsReal (Cert.Net.varR (fun p : Fin 100000 => k_v84 (Cert.KernelIdeal.Hand.U8 (F := Ideal) m c) (ix2 p q)))
      ∧ 0 ≤ Cert.Net.varR (fun p : Fin 100000 => k_v84 (Cert.KernelIdeal.Hand.U8 (F := Ideal) m c) (ix2 p q)) := by
  have h := Cert.KernelIdeal.Hand.val4_var (Cert.KernelIdeal.Hand.T8 (F := Ideal) m) c q
  obtain ⟨hv, hm, hr, hn⟩ := Cert.Net.varK_eq_varR (Cert.KernelIdeal.Hand.col4 (Cert.KernelIdeal.Hand.T8 (F := Ideal) m) c q) Cert.KernelIdeal.Hand.rowOf4 (fun _ _ => rfl)
    (fun p => hreal (ix2 p q))
  exact ⟨(congrFun (Cert.KernelIdeal.Hand.fresh_v85_1 (F := Ideal) m c) (ix2 (0 : Fin 1) q)).trans (h.trans hv), hm, hr, hn⟩

/-- Layer 1's statistics agree: from equal real pre-activations, the kernel's mean and variance rows are the
    reference's mean and variance vectors, column by column. -/
theorem stage_St1
    (hzb : k_v84 (Cert.KernelIdeal.Hand.U8 (F := Ideal) m c) = Cert.ReferenceIdeal.RefRun.arr_main_v99 (Cert.ReferenceIdeal.RefRun.afterG2 V'))
    (hreal : ∀ i, Cert.Alg.IsReal (k_v84 (Cert.KernelIdeal.Hand.U8 (F := Ideal) m c) i)) :
    (∀ q : Fin 32, k_v85_0 (Cert.KernelIdeal.Hand.U9 (F := Ideal) m c) (ix2 (0 : Fin 1) q) = Cert.ReferenceIdeal.RefRun.arr_main_v102 (Cert.ReferenceIdeal.RefRun.afterSt1 V') (ix1 q))
    ∧ (∀ q : Fin 32, k_v85_1 (Cert.KernelIdeal.Hand.U9 (F := Ideal) m c) (ix2 (0 : Fin 1) q) = Cert.ReferenceIdeal.RefRun.arr_main_v103 (Cert.ReferenceIdeal.RefRun.afterSt1 V') (ix1 q)) := by
  refine ⟨fun q => ?_, fun q => ?_⟩
  · refine (kstat1_mean m c q).trans ?_
    rw [hzb]
    exact (Cert.ReferenceIdeal.RefRun.St1_mean_read (Cert.ReferenceIdeal.RefRun.afterG2 V') q).symm
  · refine (kstat1_var m c hreal q).1.trans ?_
    rw [hzb]
    exact (Cert.ReferenceIdeal.RefRun.St1_var_read (Cert.ReferenceIdeal.RefRun.afterG2 V') q).symm

/-! ## Layer 2's batch statistics -/

/-- The kernel's mean row after the statistics region of layer 2, at column `q`: the mean of that column of the
    array the region read — the twenty block sums accumulated in order are the plain sum over the 100000 rows. -/
theorem kstat2_mean (q : Fin 32) :
    k_v115_0 (Cert.KernelIdeal.Hand.U14 (F := Ideal) m c) (ix2 (0 : Fin 1) q)
      = Cert.Net.meanR (fun p : Fin 100000 => k_v114 (Cert.KernelIdeal.Hand.U13 (F := Ideal) m c) (ix2 p q)) := by
  have h := Cert.KernelIdeal.Hand.val7_mean (Cert.KernelIdeal.Hand.T13 (F := Ideal) m) c q
  refine (congrFun (Cert.KernelIdeal.Hand.fresh_v115_0 (F := Ideal) m c) (ix2 (0 : Fin 1) q)).trans ?_
  refine h.trans ?_
  exact Cert.Net.meanK_eq_meanR _ _ (fun _ _ => rfl)

/-- On real data the kernel's variance row is the mean squared deviation of the column; the mean and it are reals,
    and it is not negative. -/
theorem kstat2_var (hreal : ∀ i, Cert.Alg.IsReal (k_v114 (Cert.KernelIdeal.Hand.U13 (F := Ideal) m c) i)) (q : Fin 32) :
    k_v115_1 (Cert.KernelIdeal.Hand.U14 (F := Ideal) m c) (ix2 (0 : Fin 1) q)
        = Cert.Net.varR (fun p : Fin 100000 => k_v114 (Cert.KernelIdeal.Hand.U13 (F := Ideal) m c) (ix2 p q))
      ∧ Cert.Alg.IsReal (Cert.Net.meanR (fun p : Fin 100000 => k_v114 (Cert.KernelIdeal.Hand.U13 (F := Ideal) m c) (ix2 p q)))
      ∧ Cert.Alg.IsReal (Cert.Net.varR (fun p : Fin 100000 => k_v114 (Cert.KernelIdeal.Hand.U13 (F := Ideal) m c) (ix2 p q)))
      ∧ 0 ≤ Cert.Net.varR (fun p : Fin 100000 => k_v114 (Cert.KernelIdeal.Hand.U13 (F := Ideal) m c) (ix2 p q)) := by
  have h := Cert.KernelIdeal.Hand.val7_var (Cert.KernelIdeal.Hand.T13 (F := Ideal) m) c q
  obtain ⟨hv, hm, hr, hn⟩ := Cert.Net.varK_eq_varR (Cert.KernelIdeal.Hand.col7 (Cert.KernelIdeal.Hand.T13 (F := Ideal) m) c q) Cert.KernelIdeal.Hand.rowOf7 (fun _ _ => rfl)
    (fun p => hreal (ix2 p q))
  exact ⟨(congrFun (Cert.KernelIdeal.Hand.fresh_v115_1 (F := Ideal) m c) (ix2 (0 : Fin 1) q)).trans (h.trans hv), hm, hr, hn⟩

/-- Layer 2's statistics agree: from equal real pre-activations, the kernel's mean and variance rows are the
    reference's mean and variance vectors, column by column. -/
theorem stage_St2
    (hzb : k_v114 (Cert.KernelIdeal.Hand.U13 (F := Ideal) m c) = Cert.ReferenceIdeal.RefRun.arr_main_v144 (Cert.ReferenceIdeal.RefRun.afterG3 V'))
    (hreal : ∀ i, Cert.Alg.IsReal (k_v114 (Cert.KernelIdeal.Hand.U13 (F := Ideal) m c) i)) :
    (∀ q : Fin 32, k_v115_0 (Cert.KernelIdeal.Hand.U14 (F := Ideal) m c) (ix2 (0 : Fin 1) q) = Cert.ReferenceIdeal.RefRun.arr_main_v147 (Cert.ReferenceIdeal.RefRun.afterSt2 V') (ix1 q))
    ∧ (∀ q : Fin 32, k_v115_1 (Cert.KernelIdeal.Hand.U14 (F := Ideal) m c) (ix2 (0 : Fin 1) q) = Cert.ReferenceIdeal.RefRun.arr_main_v148 (Cert.ReferenceIdeal.RefRun.afterSt2 V') (ix1 q)) := by
  refine ⟨fun q => ?_, fun q => ?_⟩
  · refine (kstat2_mean m c q).trans ?_
    rw [hzb]
    exact (Cert.ReferenceIdeal.RefRun.St2_mean_read (Cert.ReferenceIdeal.RefRun.afterG3 V') q).symm
  · refine (kstat2_var m c hreal q).1.trans ?_
    rw [hzb]
    exact (Cert.ReferenceIdeal.RefRun.St2_var_read (Cert.ReferenceIdeal.RefRun.afterG3 V') q).symm

end Cert.Bridge

end
-- ==== Proof.KI.Val2.lean ====
/- What region 2 of @main (the batch-norm apply kernel) leaves in its output array, at the ideal instance, index by index.
   Every grid point writes back its block of 5000 rows; the block at point `t` is the restriction to rows
   5000·t … 5000·t + 4999 of ONE function of the five arrays the region finds: at row `p`, column `q`, the activation
   less the column's mean, times the reciprocal square root of the column's variance plus the stabiliser, times the
   column's scale, plus the column's shift, cut below at zero. The twenty blocks tile the 100000 rows (row `p` is in
   the block of point `p / 5000`), so the array ends holding that function everywhere. -/
import proofs.«177080_j35828617183700_2_alg».proof.Proof.KI.Reg2
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- what the region finds in every buffer of the core when it is entered
variable (V : (c : Dev nD) → (b : Ref sig .tc) → Buf (Elt Ideal) ((c : Thread nD τ).loc b))

/-! ## The five arrays the region reads, at their literal shapes -/

/-- The activations, `[100000, 32]`. -/
abbrev act2 (c : Dev nD) : S100000x32.Idx → Ideal .f32 := V c main_v54
/-- The column means, `[1, 32]`. -/
abbrev mean2 (c : Dev nD) : S1x32.Idx → Ideal .f32 := V c main_v55_0
/-- The column variances, `[1, 32]`. -/
abbrev var2 (c : Dev nD) : S1x32.Idx → Ideal .f32 := V c main_v55_1
/-- The column scales, `[1, 32]`. -/
abbrev scale2 (c : Dev nD) : S1x32.Idx → Ideal .f32 := V c main_v58
/-- The column shifts, `[1, 32]`. -/
abbrev shift2 (c : Dev nD) : S1x32.Idx → Ideal .f32 := V c main_v61

/-! ## The payload at an index -/

/-- The body's payload read at row `p`, column `q` of the block, at the ideal instance: the activation less the column's
    mean, times the reciprocal square root of the column's variance plus the stabiliser, times the column's scale, plus
    the column's shift, cut below at zero. The four rows are broadcast over the block's rows; the casts are of a shape
    to itself. -/
theorem k2_pay1_apply (x0 : FVec Ideal S5000x32 .f32) (x1 x2 x3 x4 : FVec Ideal S1x32 .f32) (p : Fin 5000) (q : Fin 32) :
    k2_pay1 (F := Ideal) x0 x1 x2 x3 x4 (ix2 p q)
      = max ((((x0 (ix2 p q) - x1 (ix2 (0 : Fin 1) q)) * Ideal.rsqrt (x2 (ix2 (0 : Fin 1) q) + Ideal.ofBits .f32 0x3727C5AC#32)) * x3 (ix2 (0 : Fin 1) q)) + x4 (ix2 (0 : Fin 1) q))
          (Ideal.ofBits .f32 0x00000000#32) := by
  unfold k2_pay1
  simp only [shapeCast_self]
  show max ((((x0 (ix2 p q) - broadcastTo S5000x32 x1 broadcasts_S1x32_S5000x32 (ix2 p q))
        * broadcastTo S5000x32 (rsqrt (F := Ideal) (φ := .f32) (addf (F := Ideal) (φ := .f32) x2 (broadcast S1x32 (Ideal.ofBits .f32 0x3727C5AC#32)))) broadcasts_S1x32_S5000x32 (ix2 p q))
        * broadcastTo S5000x32 x3 broadcasts_S1x32_S5000x32 (ix2 p q))
        + broadcastTo S5000x32 x4 broadcasts_S1x32_S5000x32 (ix2 p q)) (Ideal.ofBits .f32 0x00000000#32) = _
  rw [broadcastTo_1b_ab_apply x1, broadcastTo_1b_ab_apply x3, broadcastTo_1b_ab_apply x4,
    broadcastTo_1b_ab_apply (rsqrt (F := Ideal) (φ := .f32) (addf (F := Ideal) (φ := .f32) x2 (broadcast S1x32 (Ideal.ofBits .f32 0x3727C5AC#32))))]
  rfl

/-! ## The whole-array function -/

/-- Batch normalisation with given column statistics, then the rectifier: entry `(p, q)` from the activation there and
    column `q` of the four rows. -/
def bnRelu2 (z : S100000x32.Idx → Ideal .f32) (mean var scale shift : S1x32.Idx → Ideal .f32) : S100000x32.Idx → Ideal .f32 :=
  fun i => max ((((z i - mean (ix2 (0 : Fin 1) (i 1))) * Ideal.rsqrt (var (ix2 (0 : Fin 1) (i 1)) + Ideal.ofBits .f32 0x3727C5AC#32)) * scale (ix2 (0 : Fin 1) (i 1))) + shift (ix2 (0 : Fin 1) (i 1)))
    (Ideal.ofBits .f32 0x00000000#32)

/-! ## The index maps, decided over the grid -/

theorem zeros2 : (![0, 0] : Fin 2 → Nat) = fun _ => 0 := funext fun a => by fin_cases a <;> rfl

/-- At every point the activations' block is the output's block, both in the one column block; the four rows' one block
    is block 0. -/
theorem index_facts2 : ∀ t : Fin cfg2.N,
    win2_0.index t (0 : Fin 2) = win2_5.index t (0 : Fin 2) ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every one of the twenty row blocks is some point's. -/
theorem index_onto2 : ∀ b : Fin 20, ∃ t : Fin cfg2.N, win2_5.index t = ![b.val, 0] :=
  (by decide +kernel : ∀ b : Fin 20, ∃ t : Fin grid2.N, win2_5.index t = ![b.val, 0])

/-! ## What a point writes back -/

-- each array's index and element types are read off the program's table of buffers, once per occurrence below
set_option maxHeartbeats 1000000 in
/-- What point `t` writes back is block `t` of `bnRelu2` of the five arrays as the region finds them: an entry of a block
    sits in its array, on each axis, at the block index times the block's size plus its coordinate in the block. -/
theorem flushed2_eq (c : Dev nD) (t : Fin cfg2.N) :
    (dat2 (F := Ideal) V c).flushed 5 t
      = ((cfg2.win 5).blk t).view.read (Elt Ideal) (bnRelu2 (act2 V c) (mean2 V c) (var2 V c) (scale2 V c) (shift2 V c)) := by
  show (cfg2.win 5).cut (grid2.coords t) ((dat2 (F := Ideal) V c).after 5 t) = _
  rw [after2_5]
  unfold out2_5
  rw [View.canon_unit_zero zeros2]
  simp only [View.ld_unit_zero (S := S5000x32) zeros2, View.ld_unit_zero (S := S1x32) zeros2]
  obtain ⟨e0, e1, e2, e3, e4, e5, e6, e7, e8, e9, e10⟩ := index_facts2 t
  funext j
  obtain ⟨p, q, rfl⟩ : ∃ (p : Fin 5000) (q : Fin 32), j = ix2 p q := ⟨j 0, j 1, eq_ix2 j⟩
  refine (k2_pay1_apply (iblk2 V c 0 t) (iblk2 V c 1 t) (iblk2 V c 2 t) (iblk2 V c 3 t) (iblk2 V c 4 t) p q).trans ?_
  show max ((((act2 V c (((cfg2.win 0).blk t).view.emb (ix2 p q)) - mean2 V c (((cfg2.win 1).blk t).view.emb (ix2 (0 : Fin 1) q)))
        * Ideal.rsqrt (var2 V c (((cfg2.win 2).blk t).view.emb (ix2 (0 : Fin 1) q)) + Ideal.ofBits .f32 0x3727C5AC#32))
        * scale2 V c (((cfg2.win 3).blk t).view.emb (ix2 (0 : Fin 1) q)))
        + shift2 V c (((cfg2.win 4).blk t).view.emb (ix2 (0 : Fin 1) q))) (Ideal.ofBits .f32 0x00000000#32)
      = bnRelu2 (act2 V c) (mean2 V c) (var2 V c) (scale2 V c) (shift2 V c) (((cfg2.win 5).blk t).view.emb (ix2 p q))
  have hq : (((cfg2.win 5).blk t).view.emb (ix2 p q) 1 : Fin 32) = q := by
    apply Fin.ext
    show win2_5.index t (1 : Fin 2) * 32 + 1 * q.val = q.val
    omega
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 32 + 1 * q.val = win2_5.index t (1 : Fin 2) * 32 + 1 * q.val; omega
  have h1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 32 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 32 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 32 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 32 + 1 * q.val = q.val; omega
  rw [h0, h1, h2, h3, h4]
  unfold bnRelu2
  dsimp only
  rw [hq]

/-! ## The blocks cover the array -/

/-- An index of the array is in point `t`'s block iff each coordinate is in the block's range on its axis. -/
theorem mem_block2 (t : Fin cfg2.N) (i : S100000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole main_v62).slice (win2_5.rect t)).set ↔ _
  rw [View.set_slice_whole, Rect.mem_set_unit]
  exact Iff.rfl

/-- Every index of the array is in the block of a point that writes back: row `p` in that of block `p / 5000`. -/
theorem covered2 (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  obtain ⟨t, ht⟩ := index_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-! ## The output array after the region -/

/-- The output array after the twenty write-backs is `bnRelu2` of the five arrays the region finds. -/
theorem final2 (c : Dev nD) :
    (dat2 (F := Ideal) V c).arrAt 5 cfg2.N = bnRelu2 (act2 V c) (mean2 V c) (var2 V c) (scale2 V c) (shift2 V c) :=
  (dat2 (F := Ideal) V c).arrAt_eq_of_cover 5 (bnRelu2 (act2 V c) (mean2 V c) (var2 V c) (scale2 V c) (shift2 V c))
    (fun t _ => flushed2_eq V c t) covered2

/-- The same, entry by entry: row `p`, column `q`. -/
theorem val2 (c : Dev nD) (p : Fin 100000) (q : Fin 32) :
    (dat2 (F := Ideal) V c).arrAt 5 cfg2.N (ix2 p q)
      = max ((((act2 V c (ix2 p q) - mean2 V c (ix2 (0 : Fin 1) q)) * Ideal.rsqrt (var2 V c (ix2 (0 : Fin 1) q) + Ideal.ofBits .f32 0x3727C5AC#32)) * scale2 V c (ix2 (0 : Fin 1) q)) + shift2 V c (ix2 (0 : Fin 1) q))
          (Ideal.ofBits .f32 0x00000000#32) := by
  rw [final2 V c]
  rfl

end Cert.KernelIdeal.Hand

end
-- ==== Proof.KI.Val5.lean ====
/- What region 5 of @main (the batch-norm apply kernel) leaves in its output array, at the ideal instance, index by index.
   Every grid point writes back its block of 5000 rows; the block at point `t` is the restriction to rows
   5000·t … 5000·t + 4999 of ONE function of the five arrays the region finds: at row `p`, column `q`, the activation
   less the column's mean, times the reciprocal square root of the column's variance plus the stabiliser, times the
   column's scale, plus the column's shift, cut below at zero. The twenty blocks tile the 100000 rows (row `p` is in
   the block of point `p / 5000`), so the array ends holding that function everywhere. -/
import proofs.«177080_j35828617183700_2_alg».proof.Proof.KI.Reg5
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- what the region finds in every buffer of the core when it is entered
variable (V : (c : Dev nD) → (b : Ref sig .tc) → Buf (Elt Ideal) ((c : Thread nD τ).loc b))

/-! ## The five arrays the region reads, at their literal shapes -/

/-- The activations, `[100000, 32]`. -/
abbrev act5 (c : Dev nD) : S100000x32.Idx → Ideal .f32 := V c main_v84
/-- The column means, `[1, 32]`. -/
abbrev mean5 (c : Dev nD) : S1x32.Idx → Ideal .f32 := V c main_v85_0
/-- The column variances, `[1, 32]`. -/
abbrev var5 (c : Dev nD) : S1x32.Idx → Ideal .f32 := V c main_v85_1
/-- The column scales, `[1, 32]`. -/
abbrev scale5 (c : Dev nD) : S1x32.Idx → Ideal .f32 := V c main_v88
/-- The column shifts, `[1, 32]`. -/
abbrev shift5 (c : Dev nD) : S1x32.Idx → Ideal .f32 := V c main_v91

/-! ## The payload at an index -/

/-- The body's payload read at row `p`, column `q` of the block, at the ideal instance: the activation less the column's
    mean, times the reciprocal square root of the column's variance plus the stabiliser, times the column's scale, plus
    the column's shift, cut below at zero. The four rows are broadcast over the block's rows; the casts are of a shape
    to itself. -/
theorem k5_pay1_apply (x0 : FVec Ideal S5000x32 .f32) (x1 x2 x3 x4 : FVec Ideal S1x32 .f32) (p : Fin 5000) (q : Fin 32) :
    k5_pay1 (F := Ideal) x0 x1 x2 x3 x4 (ix2 p q)
      = max ((((x0 (ix2 p q) - x1 (ix2 (0 : Fin 1) q)) * Ideal.rsqrt (x2 (ix2 (0 : Fin 1) q) + Ideal.ofBits .f32 0x3727C5AC#32)) * x3 (ix2 (0 : Fin 1) q)) + x4 (ix2 (0 : Fin 1) q))
          (Ideal.ofBits .f32 0x00000000#32) := by
  unfold k5_pay1
  simp only [shapeCast_self]
  show max ((((x0 (ix2 p q) - broadcastTo S5000x32 x1 broadcasts_S1x32_S5000x32 (ix2 p q))
        * broadcastTo S5000x32 (rsqrt (F := Ideal) (φ := .f32) (addf (F := Ideal) (φ := .f32) x2 (broadcast S1x32 (Ideal.ofBits .f32 0x3727C5AC#32)))) broadcasts_S1x32_S5000x32 (ix2 p q))
        * broadcastTo S5000x32 x3 broadcasts_S1x32_S5000x32 (ix2 p q))
        + broadcastTo S5000x32 x4 broadcasts_S1x32_S5000x32 (ix2 p q)) (Ideal.ofBits .f32 0x00000000#32) = _
  rw [broadcastTo_1b_ab_apply x1, broadcastTo_1b_ab_apply x3, broadcastTo_1b_ab_apply x4,
    broadcastTo_1b_ab_apply (rsqrt (F := Ideal) (φ := .f32) (addf (F := Ideal) (φ := .f32) x2 (broadcast S1x32 (Ideal.ofBits .f32 0x3727C5AC#32))))]
  rfl

/-! ## The whole-array function -/

/-- Batch normalisation with given column statistics, then the rectifier: entry `(p, q)` from the activation there and
    column `q` of the four rows. -/
def bnRelu5 (z : S100000x32.Idx → Ideal .f32) (mean var scale shift : S1x32.Idx → Ideal .f32) : S100000x32.Idx → Ideal .f32 :=
  fun i => max ((((z i - mean (ix2 (0 : Fin 1) (i 1))) * Ideal.rsqrt (var (ix2 (0 : Fin 1) (i 1)) + Ideal.ofBits .f32 0x3727C5AC#32)) * scale (ix2 (0 : Fin 1) (i 1))) + shift (ix2 (0 : Fin 1) (i 1)))
    (Ideal.ofBits .f32 0x00000000#32)

/-! ## The index maps, decided over the grid -/

theorem zeros5 : (![0, 0] : Fin 2 → Nat) = fun _ => 0 := funext fun a => by fin_cases a <;> rfl

/-- At every point the activations' block is the output's block, both in the one column block; the four rows' one block
    is block 0. -/
theorem index_facts5 : ∀ t : Fin cfg5.N,
    win5_0.index t (0 : Fin 2) = win5_5.index t (0 : Fin 2) ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Every one of the twenty row blocks is some point's. -/
theorem index_onto5 : ∀ b : Fin 20, ∃ t : Fin cfg5.N, win5_5.index t = ![b.val, 0] :=
  (by decide +kernel : ∀ b : Fin 20, ∃ t : Fin grid5.N, win5_5.index t = ![b.val, 0])

/-! ## What a point writes back -/

-- each array's index and element types are read off the program's table of buffers, once per occurrence below
set_option maxHeartbeats 1000000 in
/-- What point `t` writes back is block `t` of `bnRelu5` of the five arrays as the region finds them: an entry of a block
    sits in its array, on each axis, at the block index times the block's size plus its coordinate in the block. -/
theorem flushed5_eq (c : Dev nD) (t : Fin cfg5.N) :
    (dat5 (F := Ideal) V c).flushed 5 t
      = ((cfg5.win 5).blk t).view.read (Elt Ideal) (bnRelu5 (act5 V c) (mean5 V c) (var5 V c) (scale5 V c) (shift5 V c)) := by
  show (cfg5.win 5).cut (grid5.coords t) ((dat5 (F := Ideal) V c).after 5 t) = _
  rw [after5_5]
  unfold out5_5
  rw [View.canon_unit_zero zeros5]
  simp only [View.ld_unit_zero (S := S5000x32) zeros5, View.ld_unit_zero (S := S1x32) zeros5]
  obtain ⟨e0, e1, e2, e3, e4, e5, e6, e7, e8, e9, e10⟩ := index_facts5 t
  funext j
  obtain ⟨p, q, rfl⟩ : ∃ (p : Fin 5000) (q : Fin 32), j = ix2 p q := ⟨j 0, j 1, eq_ix2 j⟩
  refine (k5_pay1_apply (iblk5 V c 0 t) (iblk5 V c 1 t) (iblk5 V c 2 t) (iblk5 V c 3 t) (iblk5 V c 4 t) p q).trans ?_
  show max ((((act5 V c (((cfg5.win 0).blk t).view.emb (ix2 p q)) - mean5 V c (((cfg5.win 1).blk t).view.emb (ix2 (0 : Fin 1) q)))
        * Ideal.rsqrt (var5 V c (((cfg5.win 2).blk t).view.emb (ix2 (0 : Fin 1) q)) + Ideal.ofBits .f32 0x3727C5AC#32))
        * scale5 V c (((cfg5.win 3).blk t).view.emb (ix2 (0 : Fin 1) q)))
        + shift5 V c (((cfg5.win 4).blk t).view.emb (ix2 (0 : Fin 1) q))) (Ideal.ofBits .f32 0x00000000#32)
      = bnRelu5 (act5 V c) (mean5 V c) (var5 V c) (scale5 V c) (shift5 V c) (((cfg5.win 5).blk t).view.emb (ix2 p q))
  have hq : (((cfg5.win 5).blk t).view.emb (ix2 p q) 1 : Fin 32) = q := by
    apply Fin.ext
    show win5_5.index t (1 : Fin 2) * 32 + 1 * q.val = q.val
    omega
  have h0 : ((cfg5.win 0).blk t).view.emb (ix2 p q) = ((cfg5.win 5).blk t).view.emb (ix2 p q) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 32 + 1 * q.val = win5_5.index t (1 : Fin 2) * 32 + 1 * q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 32 + 1 * q.val = q.val; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 32 + 1 * q.val = q.val; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 32 + 1 * q.val = q.val; omega
  have h4 : ((cfg5.win 4).blk t).view.emb (ix2 (0 : Fin 1) q) = ix2 (0 : Fin 1) q := by
    funext a; apply Fin.ext
    match a with
    | ⟨0, _⟩ => show win5_4.index t (0 : Fin 2) * 1 + 1 * 0 = 0; omega
    | ⟨1, _⟩ => show win5_4.index t (1 : Fin 2) * 32 + 1 * q.val = q.val; omega
  rw [h0, h1, h2, h3, h4]
  unfold bnRelu5
  dsimp only
  rw [hq]

/-! ## The blocks cover the array -/

/-- An index of the array is in point `t`'s block iff each coordinate is in the block's range on its axis. -/
theorem mem_block5 (t : Fin cfg5.N) (i : S100000x32.Idx) :
    i ∈ ((cfg5.win 5).blk t).view.set ↔ ∀ a : Fin 2, win5_5.index t a * S5000x32.size a ≤ (i a).val ∧ (i a).val < win5_5.index t a * S5000x32.size a + S5000x32.size a := by
  show i ∈ ((View.whole main_v92).slice (win5_5.rect t)).set ↔ _
  rw [View.set_slice_whole, Rect.mem_set_unit]
  exact Iff.rfl

/-- Every index of the array is in the block of a point that writes back: row `p` in that of block `p / 5000`. -/
theorem covered5 (i : S100000x32.Idx) :
    ∃ t : Fin cfg5.N, (cfg5.win 5).flush t = true ∧ i ∈ ((cfg5.win 5).blk t).view.set := by
  have hi0 : (i 0).val < 100000 := (i 0).isLt
  have hi1 : (i 1).val < 32 := (i 1).isLt
  obtain ⟨t, ht⟩ := index_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_block5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 32 ≤ (i 1).val ∧ (i 1).val < win5_5.index t (1 : Fin 2) * 32 + 32; omega

/-! ## The output array after the region -/

/-- The output array after the twenty write-backs is `bnRelu5` of the five arrays the region finds. -/
theorem final5 (c : Dev nD) :
    (dat5 (F := Ideal) V c).arrAt 5 cfg5.N = bnRelu5 (act5 V c) (mean5 V c) (var5 V c) (scale5 V c) (shift5 V c) :=
  (dat5 (F := Ideal) V c).arrAt_eq_of_cover 5 (bnRelu5 (act5 V c) (mean5 V c) (var5 V c) (scale5 V c) (shift5 V c))
    (fun t _ => flushed5_eq V c t) covered5

/-- The same, entry by entry: row `p`, column `q`. -/
theorem val5 (c : Dev nD) (p : Fin 100000) (q : Fin 32) :
    (dat5 (F := Ideal) V c).arrAt 5 cfg5.N (ix2 p q)
      = max ((((act5 V c (ix2 p q) - mean5 V c (ix2 (0 : Fin 1) q)) * Ideal.rsqrt (var5 V c (ix2 (0 : Fin 1) q) + Ideal.ofBits .f32 0x3727C5AC#32)) * scale5 V c (ix2 (0 : Fin 1) q)) + shift5 V c (ix2 (0 : Fin 1) q))
          (Ideal.ofBits .f32 0x00000000#32) := by
  rw [final5 V c]
  rfl

end Cert.KernelIdeal.Hand

end
-- ==== Proof.KI.Val8.lean ====
/- What region 8 of @main (the batch-norm apply kernel) leaves in its output array, at the ideal instance, index by index.
   Every grid point writes back its block of 5000 rows; the block at point `t` is the restriction to rows
   5000·t … 5000·t + 4999 of ONE function of the five arrays the region finds: at row `p`, column `q`, the activation
   less the column's mean, times the reciprocal square root of the column's variance plus the stabiliser, times the
   column's scale, plus the column's shift, cut below at zero. The twenty blocks tile the 100000 rows (row `p` is in
   the block of point `p / 5000`), so the array ends holding that function everywhere. -/
import proofs.«177080_j35828617183700_2_alg».proof.Proof.KI.Reg8
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- what the region finds in every buffer of the core when it is entered
variable (V : (c : Dev nD) → (b : Ref sig .tc) → Buf (Elt Ideal) ((c : Thread nD τ).loc b))

/-! ## The five arrays the region reads, at their literal shapes -/

/-- The activations, `[100000, 32]`. -/
abbrev act8 (c : Dev nD) : S100000x32.Idx → Ideal .f32 := V c main_v114
/-- The column means, `[1, 32]`. -/
abbrev mean8 (c : Dev nD) : S1x32.Idx → Ideal .f32 := V c main_v115_0
/-- The column variances, `[1, 32]`. -/
abbrev var8 (c : Dev nD) : S1x32.Idx → Ideal .f32 := V c main_v115_1
/-- The column scales, `[1, 32]`. -/
abbrev scale8 (c : Dev nD) : S1x32.Idx → Ideal .f32 := V c main_v118
/-- The column shifts, `[1, 32]`. -/
abbrev shift8 (c : Dev nD) : S1x32.Idx → Ideal .f32 := V c main_v121

/-! ## The payload at an index -/

/-- The body's payload read at row `p`, column `q` of the block, at the ideal instance: the activation less the column's
    mean, times the reciprocal square root of the column's variance plus the stabiliser, times the column's scale, plus
    the column's shift, cut below at zero. The four rows are broadcast over the block's rows; the casts are of a shape
    to itself. -/
theorem k8_pay1_apply (x0 : FVec Ideal S5000x32 .f32) (x1 x2 x3 x4 : FVec Ideal S1x32 .f32) (p : Fin 5000) (q : Fin 32) :
    k8_pay1 (F := Ideal) x0 x1 x2 x3 x4 (ix2 p q)
      = max ((((x0 (ix2 p q) - x1 (ix2 (0 : Fin 1) q)) * Ideal.rsqrt (x2 (ix2 (0 : Fin 1) q) + Ideal.ofBits .f32 0x3727C5AC#32)) * x3 (ix2 (0 : Fin 1) q)) + x4 (ix2 (0 : Fin 1) q))
          (Ideal.ofBits .f32 0x00000000#32) := by
  unfold k8_pay1
  simp only [shapeCast_self]
  show max ((((x0 (ix2 p q) - broadcastTo S5000x32 x1 broadcasts_S1x32_S5000x32 (ix2 p q))
        * broadcastTo S5000x32 (rsqrt (F := Ideal) (φ := .f32) (addf (F := Ideal) (φ := .f32) x2 (broadcast S1x32 (Ideal.ofBits .f32 0x3727C5AC#32)))) broadcasts_S1x32_S5000x32 (ix2 p q))
        * broadcastTo S5000x32 x3 broadcasts_S1x32_S5000x32 (ix2 p q))
        + broadcastTo S5000x32 x4 broadcasts_S1x32_S5000x32 (ix2 p q)) (Ideal.ofBits .f32 0x00000000#32) = _
  rw [broadcastTo_1b_ab_apply x1, broadcastTo_1b_ab_apply x3, broadcastTo_1b_ab_apply x4,
    broadcastTo_1b_ab_apply (rsqrt (F := Ideal) (φ := .f32) (addf (F := Ideal) (φ := .f32) x2 (broadcast S1x32 (Ideal.ofBits .f32 0x3727C5AC#32))))]
  rfl

/-! ## The whole-array function -/

/-- Batch normalisation with given column statistics, then the rectifier: entry `(p, q)` from the activation there and
    column `q` of the four rows. -/
def bnRelu8 (z : S100000x32.Idx → Ideal .f32) (mean var scale shift : S1x32.Idx → Ideal .f32) : S100000x32.Idx → Ideal .f32 :=
  fun i => max ((((z i - mean (ix2 (0 : Fin 1) (i 1))) * Ideal.rsqrt (var (ix2 (0 : Fin 1) (i 1)) + Ideal.ofBits .f32 0x3727C5AC#32)) * scale (ix2 (0 : Fin 1) (i 1))) + shift (ix2 (0 : Fin 1) (i 1)))
    (Ideal.ofBits .f32 0x00000000#32)

/-! ## The index maps, decided over the grid -/

theorem zeros8 : (![0, 0] : Fin 2 → Nat) = fun _ => 0 := funext fun a => by fin_cases a <;> rfl

/-- At every point the activations' block is the output's block, both in the one column block; the four rows' one block
    is block 0. -/
theorem index_facts8 : ∀ t : Fin cfg8.N,
    win8_0.index t (0 : Fin 2) = win8_5.index t (0 : Fin 2) ∧ win8_0.index t (1 : Fin 2) = 0 ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Every one of the twenty row blocks is some point's. -/
theorem index_onto8 : ∀ b : Fin 20, ∃ t : Fin cfg8.N, win8_5.index t = ![b.val, 0] :=
  (by decide +kernel : ∀ b : Fin 20, ∃ t : Fin grid8.N, win8_5.index t = ![b.val, 0])

/-! ## What a point writes back -/

-- each array's index and element types are read off the program's table of buffers, once per occurrence below
set_option maxHeartbeats 1000000 in
/-- What point `t` writes back is block `t` of `bnRelu8` of the five arrays as the region finds them: an entry of a block
    sits in its array, on each axis, at the block index times the block's size plus its coordinate in the block. -/
theorem flushed8_eq (c : Dev nD) (t : Fin cfg8.N) :
    (dat8 (F := Ideal) V c).flushed 5 t
      = ((cfg8.win 5).blk t).view.read (Elt Ideal) (bnRelu8 (act8 V c) (mean8 V c) (var8 V c) (scale8 V c) (shift8 V c)) := by
  show (cfg8.win 5).cut (grid8.coords t) ((dat8 (F := Ideal) V c).after 5 t) = _
  rw [after8_5]
  unfold out8_5
  rw [View.canon_unit_zero zeros8]
  simp only [View.ld_unit_zero (S := S5000x32) zeros8, View.ld_unit_zero (S := S1x32) zeros8]
  obtain ⟨e0, e1, e2, e3, e4, e5, e6, e7, e8, e9, e10⟩ := index_facts8 t
  funext j
  obtain ⟨p, q, rfl⟩ : ∃ (p : Fin 5000) (q : Fin 32), j = ix2 p q := ⟨j 0, j 1, eq_ix2 j⟩
  refine (k8_pay1_apply (iblk8 V c 0 t) (iblk8 V c 1 t) (iblk8 V c 2 t) (iblk8 V c 3 t) (iblk8 V c 4 t) p q).trans ?_
  show max ((((act8 V c (((cfg8.win 0).blk t).view.emb (ix2 p q)) - mean8 V c (((cfg8.win 1).blk t).view.emb (ix2 (0 : Fin 1) q)))
        * Ideal.rsqrt (var8 V c (((cfg8.win 2).blk t).view.emb (ix2 (0 : Fin 1) q)) + Ideal.ofBits .f32 0x3727C5AC#32))
        * scale8 V c (((cfg8.win 3).blk t).view.emb (ix2 (0 : Fin 1) q)))
        + shift8 V c (((cfg8.win 4).blk t).view.emb (ix2 (0 : Fin 1) q))) (Ideal.ofBits .f32 0x00000000#32)
      = bnRelu8 (act8 V c) (mean8 V c) (var8 V c) (scale8 V c) (shift8 V c) (((cfg8.win 5).blk t).view.emb (ix2 p q))
  have hq : (((cfg8.win 5).blk t).view.emb (ix2 p q) 1 : Fin 32) = q := by
    apply Fin.ext
    show win8_5.index t (1 : Fin 2) * 32 + 1 * q.val = q.val
    omega
  have h0 : ((cfg8.win 0).blk t).view.emb (ix2 p q) = ((cfg8.win 5).blk t).view.emb (ix2 p q) := by
    funext a; apply Fin.ext
    match a with
    | ⟨0, _⟩ => show win8_0.index t (0 : Fin 2) * 5000 + 1 * p.val = win8_5.index t (0 : Fin 2) * 5000 + 1 * p.val; omega
    | ⟨1, _⟩ => show win8_0.index t (1 : Fin 2) * 32 + 1 * q.val = win8_5.index t (1 : Fin 2) * 32 + 1 * q.val; omega
  have h1 : ((cfg8.win 1).blk t).view.emb (ix2 (0 : Fin 1) q) = ix2 (0 : Fin 1) q := by
    funext a; apply Fin.ext
    match a with
    | ⟨0, _⟩ => show win8_1.index t (0 : Fin 2) * 1 + 1 * 0 = 0; omega
    | ⟨1, _⟩ => show win8_1.index t (1 : Fin 2) * 32 + 1 * q.val = q.val; omega
  have h2 : ((cfg8.win 2).blk t).view.emb (ix2 (0 : Fin 1) q) = ix2 (0 : Fin 1) q := by
    funext a; apply Fin.ext
    match a with
    | ⟨0, _⟩ => show win8_2.index t (0 : Fin 2) * 1 + 1 * 0 = 0; omega
    | ⟨1, _⟩ => show win8_2.index t (1 : Fin 2) * 32 + 1 * q.val = q.val; omega
  have h3 : ((cfg8.win 3).blk t).view.emb (ix2 (0 : Fin 1) q) = ix2 (0 : Fin 1) q := by
    funext a; apply Fin.ext
    match a with
    | ⟨0, _⟩ => show win8_3.index t (0 : Fin 2) * 1 + 1 * 0 = 0; omega
    | ⟨1, _⟩ => show win8_3.index t (1 : Fin 2) * 32 + 1 * q.val = q.val; omega
  have h4 : ((cfg8.win 4).blk t).view.emb (ix2 (0 : Fin 1) q) = ix2 (0 : Fin 1) q := by
    funext a; apply Fin.ext
    match a with
    | ⟨0, _⟩ => show win8_4.index t (0 : Fin 2) * 1 + 1 * 0 = 0; omega
    | ⟨1, _⟩ => show win8_4.index t (1 : Fin 2) * 32 + 1 * q.val = q.val; omega
  rw [h0, h1, h2, h3, h4]
  unfold bnRelu8
  dsimp only
  rw [hq]

/-! ## The blocks cover the array -/

/-- An index of the array is in point `t`'s block iff each coordinate is in the block's range on its axis. -/
theorem mem_block8 (t : Fin cfg8.N) (i : S100000x32.Idx) :
    i ∈ ((cfg8.win 5).blk t).view.set ↔ ∀ a : Fin 2, win8_5.index t a * S5000x32.size a ≤ (i a).val ∧ (i a).val < win8_5.index t a * S5000x32.size a + S5000x32.size a := by
  show i ∈ ((View.whole main_v122).slice (win8_5.rect t)).set ↔ _
  rw [View.set_slice_whole, Rect.mem_set_unit]
  exact Iff.rfl

/-- Every index of the array is in the block of a point that writes back: row `p` in that of block `p / 5000`. -/
theorem covered8 (i : S100000x32.Idx) :
    ∃ t : Fin cfg8.N, (cfg8.win 5).flush t = true ∧ i ∈ ((cfg8.win 5).blk t).view.set := by
  have hi0 : (i 0).val < 100000 := (i 0).isLt
  have hi1 : (i 1).val < 32 := (i 1).isLt
  obtain ⟨t, ht⟩ := index_onto8 ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_block8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 32 ≤ (i 1).val ∧ (i 1).val < win8_5.index t (1 : Fin 2) * 32 + 32; omega

/-! ## The output array after the region -/

/-- The output array after the twenty write-backs is `bnRelu8` of the five arrays the region finds. -/
theorem final8 (c : Dev nD) :
    (dat8 (F := Ideal) V c).arrAt 5 cfg8.N = bnRelu8 (act8 V c) (mean8 V c) (var8 V c) (scale8 V c) (shift8 V c) :=
  (dat8 (F := Ideal) V c).arrAt_eq_of_cover 5 (bnRelu8 (act8 V c) (mean8 V c) (var8 V c) (scale8 V c) (shift8 V c))
    (fun t _ => flushed8_eq V c t) covered8

/-- The same, entry by entry: row `p`, column `q`. -/
theorem val8 (c : Dev nD) (p : Fin 100000) (q : Fin 32) :
    (dat8 (F := Ideal) V c).arrAt 5 cfg8.N (ix2 p q)
      = max ((((act8 V c (ix2 p q) - mean8 V c (ix2 (0 : Fin 1) q)) * Ideal.rsqrt (var8 V c (ix2 (0 : Fin 1) q) + Ideal.ofBits .f32 0x3727C5AC#32)) * scale8 V c (ix2 (0 : Fin 1) q)) + shift8 V c (ix2 (0 : Fin 1) q))
          (Ideal.ofBits .f32 0x00000000#32) := by
  rw [final8 V c]
  rfl

end Cert.KernelIdeal.Hand

end
-- ==== Proof.Bridge.KernelNorm.lean ====
/- The three normalisation regions of the kernel program at the ideal instance, each read entry by entry off the contents
   between the program's items: the output array right after the region from the activations, the column statistics
   and the parameter rows as the items that wrote them left them. -/
import proofs.«177080_j35828617183700_2_alg».proof.Proof.Bridge.Sides
import proofs.«177080_j35828617183700_2_alg».proof.Proof.KI.Rows
import proofs.«177080_j35828617183700_2_alg».proof.Proof.KI.Val2
import proofs.«177080_j35828617183700_2_alg».proof.Proof.KI.Val5
import proofs.«177080_j35828617183700_2_alg».proof.Proof.KI.Val8

set_option maxRecDepth 16384

noncomputable section

namespace Cert.Bridge

open Cert.KernelIdeal.Hand
open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (c : Dev Cert.KernelIdeal.nD)

/-- Layer 0's normalisation region: the array it leaves, entry by entry, from the arrays its inputs were written as — the
    activations (left by the stretch before the statistics region), the column means and variances (left by the
    statistics region), and row 0 of the scale and shift parameters (launch contents; the stretch before the region
    slices the row out and lays it as a `[1, 32]` array). -/
theorem kernel_A0 (p : Fin 100000) (q : Fin 32) :
    k_v62 (U6 (F := Ideal) m c) (ix2 p q)
      = max ((((k_v54 (U3 (F := Ideal) m c) (ix2 p q) - k_v55_0 (U4 (F := Ideal) m c) (ix2 (0 : Fin 1) q))
            * Ideal.rsqrt (k_v55_1 (U4 (F := Ideal) m c) (ix2 (0 : Fin 1) q) + Ideal.ofBits .f32 0x3727C5AC#32))
            * k_arg7 (launchK m c) (ix2 (0 : Fin 3) q))
            + k_arg8 (launchK m c) (ix2 (0 : Fin 3) q))
          (Ideal.ofBits .f32 0x00000000#32) := by
  have hout : k_v62 (U6 (F := Ideal) m c) = (dat2 (F := Ideal) (T5 m) c).arrAt 5 Cert.KernelIdeal.cfg2.N := fresh_v62 m c
  have hz : act2 (T5 (F := Ideal) m) c = k_v54 (U3 (F := Ideal) m c) := keep_v54_5 m c
  have hm : mean2 (T5 (F := Ideal) m) c = k_v55_0 (U4 (F := Ideal) m c) := keep_v55_0_5 m c
  have hv : var2 (T5 (F := Ideal) m) c = k_v55_1 (U4 (F := Ideal) m c) := keep_v55_1_5 m c
  have h7 : k_arg7 (U4 (F := Ideal) m c) = k_arg7 (launchK m c) := keep_arg7_4 m c
  have h8 : k_arg8 (U4 (F := Ideal) m c) = k_arg8 (launchK m c) := keep_arg8_4 m c
  have hg : scale2 (T5 (F := Ideal) m) c (ix2 (0 : Fin 1) q) = k_arg7 (launchK m c) (ix2 (0 : Fin 3) q) :=
    (row58 (U4 (F := Ideal) m c) q).trans (congrFun h7 (ix2 (0 : Fin 3) q))
  have hb : shift2 (T5 (F := Ideal) m) c (ix2 (0 : Fin 1) q) = k_arg8 (launchK m c) (ix2 (0 : Fin 3) q) :=
    (row61 (U4 (F := Ideal) m c) q).trans (congrFun h8 (ix2 (0 : Fin 3) q))
  refine (congrFun hout (ix2 p q)).trans ?_
  refine (val2 (T5 (F := Ideal) m) c p q).trans ?_
  rw [hz, hm, hv, hg, hb]

/-- Layer 1's normalisation region: the array it leaves, entry by entry, from the arrays its inputs were written as — the
    activations (left by the stretch before the statistics region), the column means and variances (left by the
    statistics region), and row 1 of the scale and shift parameters (launch contents; the stretch before the region
    slices the row out and lays it as a `[1, 32]` array). -/
theorem kernel_A1 (p : Fin 100000) (q : Fin 32) :
    k_v92 (U11 (F := Ideal) m c) (ix2 p q)
      = max ((((k_v84 (U8 (F := Ideal) m c) (ix2 p q) - k_v85_0 (U9 (F := Ideal) m c) (ix2 (0 : Fin 1) q))
            * Ideal.rsqrt (k_v85_1 (U9 (F := Ideal) m c) (ix2 (0 : Fin 1) q) + Ideal.ofBits .f32 0x3727C5AC#32))
            * k_arg7 (launchK m c) (ix2 (1 : Fin 3) q))
            + k_arg8 (launchK m c) (ix2 (1 : Fin 3) q))
          (Ideal.ofBits .f32 0x00000000#32) := by
  have hout : k_v92 (U11 (F := Ideal) m c) = (dat5 (F := Ideal) (T10 m) c).arrAt 5 Cert.KernelIdeal.cfg5.N := fresh_v92 m c
  have hz : act5 (T10 (F := Ideal) m) c = k_v84 (U8 (F := Ideal) m c) := keep_v84_10 m c
  have hm : mean5 (T10 (F := Ideal) m) c = k_v85_0 (U9 (F := Ideal) m c) := keep_v85_0_10 m c
  have hv : var5 (T10 (F := Ideal) m) c = k_v85_1 (U9 (F := Ideal) m c) := keep_v85_1_10 m c
  have h7 : k_arg7 (U9 (F := Ideal) m c) = k_arg7 (launchK m c) := keep_arg7_9 m c
  have h8 : k_arg8 (U9 (F := Ideal) m c) = k_arg8 (launchK m c) := keep_arg8_9 m c
  have hg : scale5 (T10 (F := Ideal) m) c (ix2 (0 : Fin 1) q) = k_arg7 (launchK m c) (ix2 (1 : Fin 3) q) :=
    (row88 (U9 (F := Ideal) m c) q).trans (congrFun h7 (ix2 (1 : Fin 3) q))
  have hb : shift5 (T10 (F := Ideal) m) c (ix2 (0 : Fin 1) q) = k_arg8 (launchK m c) (ix2 (1 : Fin 3) q) :=
    (row91 (U9 (F := Ideal) m c) q).trans (congrFun h8 (ix2 (1 : Fin 3) q))
  refine (congrFun hout (ix2 p q)).trans ?_
  refine (val5 (T10 (F := Ideal) m) c p q).trans ?_
  rw [hz, hm, hv, hg, hb]

/-- Layer 2's normalisation region: the array it leaves, entry by entry, from the arrays its inputs were written as — the
    activations (left by the stretch before the statistics region), the column means and variances (left by the
    statistics region), and row 2 of the scale and shift parameters (launch contents; the stretch before the region
    slices the row out and lays it as a `[1, 32]` array). -/
theorem kernel_A2 (p : Fin 100000) (q : Fin 32) :
    k_v122 (U16 (F := Ideal) m c) (ix2 p q)
      = max ((((k_v114 (U13 (F := Ideal) m c) (ix2 p q) - k_v115_0 (U14 (F := Ideal) m c) (ix2 (0 : Fin 1) q))
            * Ideal.rsqrt (k_v115_1 (U14 (F := Ideal) m c) (ix2 (0 : Fin 1) q) + Ideal.ofBits .f32 0x3727C5AC#32))
            * k_arg7 (launchK m c) (ix2 (2 : Fin 3) q))
            + k_arg8 (launchK m c) (ix2 (2 : Fin 3) q))
          (Ideal.ofBits .f32 0x00000000#32) := by
  have hout : k_v122 (U16 (F := Ideal) m c) = (dat8 (F := Ideal) (T15 m) c).arrAt 5 Cert.KernelIdeal.cfg8.N := fresh_v122 m c
  have hz : act8 (T15 (F := Ideal) m) c = k_v114 (U13 (F := Ideal) m c) := keep_v114_15 m c
  have hm : mean8 (T15 (F := Ideal) m) c = k_v115_0 (U14 (F := Ideal) m c) := keep_v115_0_15 m c
  have hv : var8 (T15 (F := Ideal) m) c = k_v115_1 (U14 (F := Ideal) m c) := keep_v115_1_15 m c
  have h7 : k_arg7 (U14 (F := Ideal) m c) = k_arg7 (launchK m c) := keep_arg7_14 m c
  have h8 : k_arg8 (U14 (F := Ideal) m c) = k_arg8 (launchK m c) := keep_arg8_14 m c
  have hg : scale8 (T15 (F := Ideal) m) c (ix2 (0 : Fin 1) q) = k_arg7 (launchK m c) (ix2 (2 : Fin 3) q) :=
    (row118 (U14 (F := Ideal) m c) q).trans (congrFun h7 (ix2 (2 : Fin 3) q))
  have hb : shift8 (T15 (F := Ideal) m) c (ix2 (0 : Fin 1) q) = k_arg8 (launchK m c) (ix2 (2 : Fin 3) q) :=
    (row121 (U14 (F := Ideal) m c) q).trans (congrFun h8 (ix2 (2 : Fin 3) q))
  refine (congrFun hout (ix2 p q)).trans ?_
  refine (val8 (T15 (F := Ideal) m) c p q).trans ?_
  rw [hz, hm, hv, hg, hb]

end Cert.Bridge

end
-- ==== Proof.RefReadNorm.lean ====
/- The reference's normalisation stages read at an entry, at the ideal float values. Per layer i the stage takes the array z, its
   column means and variances, and row i of the scale and shift tables, and leaves at (p, q)
     max ((((z(p, q) − mean(q)) · rsqrt(var(q) + ε)) · γ(i, q)) + β(i, q)) 0,
   the products and the sum bracketed as the operations compose them, ε and the rectifier's zero the words the program holds.
   `normFn` is that as a function of the five arrays and the row, the same for the three layers; then the stages A0, A1, A2 from
   any contents `W` of the buffers. -/
import proofs.«177080_j35828617183700_2_alg».proof.Proof.RefReadStats

open scoped BigOperators

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-! ## A vector spread down the rows, and a row of a table -/

/-- A [32] vector spread down the rows of a [100000, 32] array (through a [1, 32] one). -/
def colBcast (v : FVec Ideal S32 .f32) : FVec Ideal S100000x32 .f32 :=
  broadcastInDim S100000x32 ![0, 1] bcast_S1x32_S100000x32_0_1 (broadcastInDim S1x32 ![1] bcast_S32_S1x32_1 v)

/-- Every row of the spread array is the vector. -/
theorem colBcast_apply (v : FVec Ideal S32 .f32) (p : Fin 100000) (q : Fin 32) : colBcast v (ix2 p q) = v (ix1 q) := by
  unfold colBcast
  rw [broadcastInDim_apply ![0, 1] bcast_S1x32_S100000x32_0_1 _ (ix2 p q) (ix2 0 q)
      (fun a => by match a with | ⟨0, _⟩ => rfl | ⟨1, _⟩ => rfl),
    broadcastInDim_apply ![1] bcast_S32_S1x32_1 _ (ix2 0 q) (ix1 q) (fun a => by match a with | ⟨0, _⟩ => rfl)]

/-- Row r of a [3, 32] table as a [32] vector: the slice of that row, its unit axis dropped. -/
def rowOf (r : ℕ) (hs : S3x32.Slices ![r, 0] S1x32) (g : FVec Ideal S3x32 .f32) : FVec Ideal S32 .f32 :=
  shapeCast S32 (extractStridedSlice S1x32 ![r, 0] g hs) shapeCasts_S1x32_S32

/-- Its entry q is the table's entry (r, q). -/
theorem rowOf_apply (r : ℕ) (hr : r < 3) (hs : S3x32.Slices ![r, 0] S1x32) (g : FVec Ideal S3x32 .f32) (q : Fin 32) :
    rowOf r hs g (ix1 q) = g (ix2 ⟨r, hr⟩ q) := by
  unfold rowOf
  rw [shapeCast_dropUnit_apply ![32] _ shapeCasts_S1x32_S32 (ix1 q)]
  refine extractStridedSlice_apply ![r, 0] g hs _ (ix2 ⟨r, hr⟩ q) ?_
  intro a
  match a with
  | ⟨0, _⟩ => rfl
  | ⟨1, _⟩ => exact (Nat.zero_add _).symm

/-! ## The normalisation as a function of its arrays -/

/-- Normalise, scale by row r of `ga`, shift by row r of `be`, rectify: as the operations compose it. -/
def normFn (r : ℕ) (hs : S3x32.Slices ![r, 0] S1x32) (zb : FVec Ideal S100000x32 .f32) (mu va : FVec Ideal S32 .f32)
    (ga be : FVec Ideal S3x32 .f32) : FVec Ideal S100000x32 .f32 :=
  maximumf
    (addf
      (mulf
        (mulf (subf zb (colBcast mu)) (colBcast (Host.rsqrt (addf va (broadcastInDim S32 ![] bcast_S_S32 (constant (F := Ideal) S_ .f32 0x3727C5AC#32))))))
        (colBcast (rowOf r hs ga)))
      (colBcast (rowOf r hs be)))
    (broadcastInDim S100000x32 ![] bcast_S_S100000x32 (constant (F := Ideal) S_ .f32 0x00000000#32))

theorem normFn_apply (r : ℕ) (hr : r < 3) (hs : S3x32.Slices ![r, 0] S1x32) (zb : FVec Ideal S100000x32 .f32)
    (mu va : FVec Ideal S32 .f32) (ga be : FVec Ideal S3x32 .f32) (p : Fin 100000) (q : Fin 32) :
    normFn r hs zb mu va ga be (ix2 p q)
      = max ((((zb (ix2 p q) - mu (ix1 q)) * Ideal.rsqrt (va (ix1 q) + Ideal.ofBits .f32 0x3727C5AC#32)) * ga (ix2 ⟨r, hr⟩ q))
            + be (ix2 ⟨r, hr⟩ q))
          (Ideal.ofBits .f32 0x00000000#32) := by
  show max ((((zb (ix2 p q) - colBcast mu (ix2 p q))
            * colBcast (Host.rsqrt (addf va (broadcastInDim S32 ![] bcast_S_S32 (constant (F := Ideal) S_ .f32 0x3727C5AC#32)))) (ix2 p q))
          * colBcast (rowOf r hs ga) (ix2 p q))
        + colBcast (rowOf r hs be) (ix2 p q))
      (broadcastInDim S100000x32 ![] bcast_S_S100000x32 (constant (F := Ideal) S_ .f32 0x00000000#32) (ix2 p q)) = _
  simp only [colBcast_apply, rowOf_apply r hr, bcast_scalar_apply]
  show max ((((zb (ix2 p q) - mu (ix1 q))
            * Ideal.rsqrt (va (ix1 q) + broadcastInDim S32 ![] bcast_S_S32 (constant (F := Ideal) S_ .f32 0x3727C5AC#32) (ix1 q))) * _) + _) _ = _
  rw [bcast_scalar_apply]
  rfl

/-! ## The stages, from any contents of the buffers -/

set_option maxRecDepth 8192 in
/-- After stage `A0`, entry (p, q) of its output: normalised, scaled by γ(0, q), shifted by β(0, q), rectified. -/
theorem A0_read (W : Valuation τ sig (Elt Ideal)) (p : Fin 100000) (q : Fin 32) :
    arr_main_v78 (after A0 W) (ix2 p q)
      = max ((((arr_main_v54 W (ix2 p q) - arr_main_v57 W (ix1 q)) * Ideal.rsqrt (arr_main_v58 W (ix1 q) + Ideal.ofBits .f32 0x3727C5AC#32))
              * arr_main_arg7 W (ix2 (0 : Fin 3) q)) + arr_main_arg8 W (ix2 (0 : Fin 3) q))
          (Ideal.ofBits .f32 0x00000000#32) := by
  have h : after A0 W (Proc.devRef .tc main_v78)
      = normFn 0 slices_S3x32_S1x32_0_0 (W (Proc.devRef .tc main_v54)) (W (Proc.devRef .tc main_v57)) (W (Proc.devRef .tc main_v58)) (W (Proc.devRef .tc main_arg7)) (W (Proc.devRef .tc main_arg8)) := by
    after_results_simp <;> rfl
  simp only [arr_main_v78, arr_main_v54, arr_main_v57, arr_main_v58, arr_main_arg7, arr_main_arg8]
  rw [h]
  exact normFn_apply 0 (by decide) _ _ _ _ _ _ p q

set_option maxRecDepth 8192 in
/-- After stage `A1`, entry (p, q) of its output: normalised, scaled by γ(1, q), shifted by β(1, q), rectified. -/
theorem A1_read (W : Valuation τ sig (Elt Ideal)) (p : Fin 100000) (q : Fin 32) :
    arr_main_v123 (after A1 W) (ix2 p q)
      = max ((((arr_main_v99 W (ix2 p q) - arr_main_v102 W (ix1 q)) * Ideal.rsqrt (arr_main_v103 W (ix1 q) + Ideal.ofBits .f32 0x3727C5AC#32))
              * arr_main_arg7 W (ix2 (1 : Fin 3) q)) + arr_main_arg8 W (ix2 (1 : Fin 3) q))
          (Ideal.ofBits .f32 0x00000000#32) := by
  have h : after A1 W (Proc.devRef .tc main_v123)
      = normFn 1 slices_S3x32_S1x32_1_0 (W (Proc.devRef .tc main_v99)) (W (Proc.devRef .tc main_v102)) (W (Proc.devRef .tc main_v103)) (W (Proc.devRef .tc main_arg7)) (W (Proc.devRef .tc main_arg8)) := by
    after_results_simp <;> rfl
  simp only [arr_main_v123, arr_main_v99, arr_main_v102, arr_main_v103, arr_main_arg7, arr_main_arg8]
  rw [h]
  exact normFn_apply 1 (by decide) _ _ _ _ _ _ p q

set_option maxRecDepth 8192 in
/-- After stage `A2`, entry (p, q) of its output: normalised, scaled by γ(2, q), shifted by β(2, q), rectified. -/
theorem A2_read (W : Valuation τ sig (Elt Ideal)) (p : Fin 100000) (q : Fin 32) :
    arr_main_v168 (after A2 W) (ix2 p q)
      = max ((((arr_main_v144 W (ix2 p q) - arr_main_v147 W (ix1 q)) * Ideal.rsqrt (arr_main_v148 W (ix1 q) + Ideal.ofBits .f32 0x3727C5AC#32))
              * arr_main_arg7 W (ix2 (2 : Fin 3) q)) + arr_main_arg8 W (ix2 (2 : Fin 3) q))
          (Ideal.ofBits .f32 0x00000000#32) := by
  have h : after A2 W (Proc.devRef .tc main_v168)
      = normFn 2 slices_S3x32_S1x32_2_0 (W (Proc.devRef .tc main_v144)) (W (Proc.devRef .tc main_v147)) (W (Proc.devRef .tc main_v148)) (W (Proc.devRef .tc main_arg7)) (W (Proc.devRef .tc main_arg8)) := by
    after_results_simp <;> rfl
  simp only [arr_main_v168, arr_main_v144, arr_main_v147, arr_main_v148, arr_main_arg7, arr_main_arg8]
  rw [h]
  exact normFn_apply 2 (by decide) _ _ _ _ _ _ p q

end Cert.ReferenceIdeal.RefRun

end
-- ==== Proof.Bridge.StageNorm.lean ====
/- The two programs' normalisation stages agree at the ideal values, layer by layer: where the activations, their column
   means and variances and the scale and shift arguments agree, so do the stage's outputs. On the kernel side the output
   array is what the normalisation region leaves, read entry by entry; on the reference side the stage's operations
   compose to the same expression of the same five arrays; each operand is traced back, on its side, to the buffer the
   hypotheses speak of. -/
import proofs.«177080_j35828617183700_2_alg».proof.Proof.Bridge.KernelNorm
import proofs.«177080_j35828617183700_2_alg».proof.Proof.RefReadNorm

set_option maxRecDepth 16384

noncomputable section

namespace Cert.Bridge

open Idealize.ShloMosaic Idealize.ShloMosaic.TcCoe Idealize.ShloMosaic.ValueIdx
open Cert.KernelIdeal.Hand
open Cert.ReferenceIdeal.RefRun

variable (m : (ℓ : Loc Cert.KernelIdeal.nD Cert.KernelIdeal.τ Cert.KernelIdeal.sig) → Buf (Elt Ideal) ℓ) (c : Dev Cert.KernelIdeal.nD)
  (V' : Valuation Cert.ReferenceIdeal.τ Cert.ReferenceIdeal.sig (Elt Ideal))

/-! ## Layer 0 -/

/-- The reference's layer-0 normalisation, entry by entry: the activations as the aggregation stage left them, the column
    statistics as the statistics stage left them, row 0 of the scale and shift arguments. -/
theorem ref_A0 (p : Fin 100000) (q : Fin 32) :
    arr_main_v78 (afterA0 V') (ix2 p q)
      = max ((((arr_main_v54 (afterG1 V') (ix2 p q) - arr_main_v57 (afterSt0 V') (ix1 q))
            * Ideal.rsqrt (arr_main_v58 (afterSt0 V') (ix1 q) + Ideal.ofBits .f32 0x3727C5AC#32))
            * arr_main_arg7 V' (ix2 (0 : Fin 3) q))
            + arr_main_arg8 V' (ix2 (0 : Fin 3) q))
          (Ideal.ofBits .f32 0x00000000#32) := by
  have h := A0_read (afterSt0 V') p q
  have ez : arr_main_v54 (afterSt0 V') = arr_main_v54 (afterG1 V') := kept_A0_main_v54 V'
  have e7 : arr_main_arg7 (afterSt0 V') = arr_main_arg7 V' := kept_A0_main_arg7 V'
  have e8 : arr_main_arg8 (afterSt0 V') = arr_main_arg8 V' := kept_A0_main_arg8 V'
  rw [ez, e7, e8] at h
  exact h

/-- Where the activations, the column means, the column variances and the scale and shift arguments agree, the layer-0
    normalisation's outputs agree: both sides compute, at (p, q), the activation less the mean, times the reciprocal
    square root of the variance plus the stabiliser, times the scale, plus the shift, cut below at zero, bracketed alike. -/
theorem stage_A0 (hzb : k_v54 (U3 (F := Ideal) m c) = arr_main_v54 (afterG1 V'))
    (hmean : ∀ q : Fin 32, k_v55_0 (U4 (F := Ideal) m c) (ix2 (0 : Fin 1) q) = arr_main_v57 (afterSt0 V') (ix1 q))
    (hvar : ∀ q : Fin 32, k_v55_1 (U4 (F := Ideal) m c) (ix2 (0 : Fin 1) q) = arr_main_v58 (afterSt0 V') (ix1 q))
    (hg : k_arg7 (launchK m c) = arr_main_arg7 V') (hb : k_arg8 (launchK m c) = arr_main_arg8 V') :
    k_v62 (U6 (F := Ideal) m c) = arr_main_v78 (afterA0 V') := by
  funext i
  obtain ⟨p, q, rfl⟩ : ∃ (p : Fin 100000) (q : Fin 32), i = ix2 p q := ⟨i 0, i 1, eq_ix2 i⟩
  rw [kernel_A0, ref_A0, hzb, hmean, hvar, hg, hb]

/-! ## Layer 1 -/

/-- The reference's layer-1 normalisation, entry by entry: the activations as the aggregation stage left them, the column
    statistics as the statistics stage left them, row 1 of the scale and shift arguments. -/
theorem ref_A1 (p : Fin 100000) (q : Fin 32) :
    arr_main_v123 (afterA1 V') (ix2 p q)
      = max ((((arr_main_v99 (afterG2 V') (ix2 p q) - arr_main_v102 (afterSt1 V') (ix1 q))
            * Ideal.rsqrt (arr_main_v103 (afterSt1 V') (ix1 q) + Ideal.ofBits .f32 0x3727C5AC#32))
            * arr_main_arg7 V' (ix2 (1 : Fin 3) q))
            + arr_main_arg8 V' (ix2 (1 : Fin 3) q))
          (Ideal.ofBits .f32 0x00000000#32) := by
  have h := A1_read (afterSt1 V') p q
  have ez : arr_main_v99 (afterSt1 V') = arr_main_v99 (afterG2 V') := kept_A1_main_v99 V'
  have e7 : arr_main_arg7 (afterSt1 V') = arr_main_arg7 V' := kept_A1_main_arg7 V'
  have e8 : arr_main_arg8 (afterSt1 V') = arr_main_arg8 V' := kept_A1_main_arg8 V'
  rw [ez, e7, e8] at h
  exact h

/-- Where the activations, the column means, the column variances and the scale and shift arguments agree, the layer-1
    normalisation's outputs agree: both sides compute, at (p, q), the activation less the mean, times the reciprocal
    square root of the variance plus the stabiliser, times the scale, plus the shift, cut below at zero, bracketed alike. -/
theorem stage_A1 (hzb : k_v84 (U8 (F := Ideal) m c) = arr_main_v99 (afterG2 V'))
    (hmean : ∀ q : Fin 32, k_v85_0 (U9 (F := Ideal) m c) (ix2 (0 : Fin 1) q) = arr_main_v102 (afterSt1 V') (ix1 q))
    (hvar : ∀ q : Fin 32, k_v85_1 (U9 (F := Ideal) m c) (ix2 (0 : Fin 1) q) = arr_main_v103 (afterSt1 V') (ix1 q))
    (hg : k_arg7 (launchK m c) = arr_main_arg7 V') (hb : k_arg8 (launchK m c) = arr_main_arg8 V') :
    k_v92 (U11 (F := Ideal) m c) = arr_main_v123 (afterA1 V') := by
  funext i
  obtain ⟨p, q, rfl⟩ : ∃ (p : Fin 100000) (q : Fin 32), i = ix2 p q := ⟨i 0, i 1, eq_ix2 i⟩
  rw [kernel_A1, ref_A1, hzb, hmean, hvar, hg, hb]

/-! ## Layer 2 -/

/-- The reference's layer-2 normalisation, entry by entry: the activations as the aggregation stage left them, the column
    statistics as the statistics stage left them, row 2 of the scale and shift arguments. -/
theorem ref_A2 (p : Fin 100000) (q : Fin 32) :
    arr_main_v168 (afterA2 V') (ix2 p q)
      = max ((((arr_main_v144 (afterG3 V') (ix2 p q) - arr_main_v147 (afterSt2 V') (ix1 q))
            * Ideal.rsqrt (arr_main_v148 (afterSt2 V') (ix1 q) + Ideal.ofBits .f32 0x3727C5AC#32))
            * arr_main_arg7 V' (ix2 (2 : Fin 3) q))
            + arr_main_arg8 V' (ix2 (2 : Fin 3) q))
          (Ideal.ofBits .f32 0x00000000#32) := by
  have h := A2_read (afterSt2 V') p q
  have ez : arr_main_v144 (afterSt2 V') = arr_main_v144 (afterG3 V') := kept_A2_main_v144 V'
  have e7 : arr_main_arg7 (afterSt2 V') = arr_main_arg7 V' := kept_A2_main_arg7 V'
  have e8 : arr_main_arg8 (afterSt2 V') = arr_main_arg8 V' := kept_A2_main_arg8 V'
  rw [ez, e7, e8] at h
  exact h

/-- Where the activations, the column means, the column variances and the scale and shift arguments agree, the layer-2
    normalisation's outputs agree: both sides compute, at (p, q), the activation less the mean, times the reciprocal
    square root of the variance plus the stabiliser, times the scale, plus the shift, cut below at zero, bracketed alike. -/
theorem stage_A2 (hzb : k_v114 (U13 (F := Ideal) m c) = arr_main_v144 (afterG3 V'))
    (hmean : ∀ q : Fin 32, k_v115_0 (U14 (F := Ideal) m c) (ix2 (0 : Fin 1) q) = arr_main_v147 (afterSt2 V') (ix1 q))
    (hvar : ∀ q : Fin 32, k_v115_1 (U14 (F := Ideal) m c) (ix2 (0 : Fin 1) q) = arr_main_v148 (afterSt2 V') (ix1 q))
    (hg : k_arg7 (launchK m c) = arr_main_arg7 V') (hb : k_arg8 (launchK m c) = arr_main_arg8 V') :
    k_v122 (U16 (F := Ideal) m c) = arr_main_v168 (afterA2 V') := by
  funext i
  obtain ⟨p, q, rfl⟩ : ∃ (p : Fin 100000) (q : Fin 32), i = ix2 p q := ⟨i 0, i 1, eq_ix2 i⟩
  rw [kernel_A2, ref_A2, hzb, hmean, hvar, hg, hb]

end Cert.Bridge

end
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.Net.Finite.lean ====
/-
  From the finiteness precondition to "every entry is a real".

  The precondition is the conjunction, over the nine float arrays, of "every entry x has |x| < +∞". At the exact
  instance a float is an extended real, |x| is max x (−x), and +∞ is the top element. An extended real x with
  max x (−x) < ⊤ is neither ⊤ (then the maximum is ⊤) nor ⊥ (then −x = ⊤), so it is a real.
-/
import proofs.«177080_j35828617183700_2_alg».proof.Pre_finite_inputs
import proofs.«177080_j35828617183700_2_alg».proof.Proof.Gen.Pre_finite_inputs
import proofs.«177080_j35828617183700_2_alg».proof.Proof.LibIsReal
import proofs.«177080_j35828617183700_2_alg».proof.Proof.LibIdealReal
import Idealize.ShloMosaic.Lib.ReduceAll
import Idealize.ShloMosaic.Lib.ValueIdx

noncomputable section

namespace Cert.Net

open Idealize.ShloMosaic Cert.Alg Cert.Pre_finite_inputs

/-- The shape with no axes has one index. -/
instance subsingleton_scalar_idx : Subsingleton S_.Idx := ⟨fun a b => funext fun d => d.elim0⟩

/-- An extended real whose absolute value max x (−x) lies strictly below +∞ is a real. -/
theorem isReal_of_abs_lt_inf (x : EReal)
    (h : Ideal.cmp .olt (max x (-x)) (Ideal.ofBits .f32 0x7F800000#32) = 1#1) : IsReal x := by
  rw [Cert.IdealReal.ofBits_pos_inf] at h
  induction x using EReal.rec with
  | bot => simp [Ideal.cmp] at h
  | coe r => exact ⟨r, rfl⟩
  | top => simp [Ideal.cmp] at h

/-- One array: if the conjunction over all entries of "|x| < +∞" is 1, every entry is a real. -/
theorem isReal_of_all_abs_lt_inf {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) :=
  isReal_of_abs_lt_inf (x i) (Host.reduce_andi_all _ _ hr hu j e i)

variable [Cert.Pre_finite_inputs.Facts]

/-- Under the finiteness precondition every entry of each of the nine float arrays is a real. -/
theorem finite_inputs_isReal
    (a0 : FVec Ideal S100000x384 .f32) (a1 : IVec S2x3200000 32) (a2 : FVec Ideal S3200000x9 .f32) (a3 : IVec S100000 32)
    (a4 : FVec Ideal S384x32 .f32) (a5 : FVec Ideal S2x32x32 .f32) (a6 a7 a8 : FVec Ideal S3x32 .f32)
    (a9 : FVec Ideal S32x2 .f32) (a10 : FVec Ideal S2 .f32)
    (h : Cert.Pre_finite_inputs.fn (F := Ideal) a0 a1 a2 a3 a4 a5 a6 a7 a8 a9 a10 = fun _ => 1#1) :
    (∀ i, IsReal (a0 i)) ∧ (∀ i, IsReal (a2 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) := by
  have h0 := congrFun h ValueIdx.ix0
  dsimp only [fn, fn_part1, fn_part2, Idealize.ShloMosaic.andi] at h0
  simp only [IntOp.andi_eq_one] at h0
  obtain ⟨⟨⟨⟨⟨⟨⟨⟨e0, e2⟩, e4⟩, e5⟩, e6⟩, e7⟩, e8⟩, e9⟩, e10⟩ := h0
  exact ⟨isReal_of_all_abs_lt_inf a0 _ _ _ _ e0, isReal_of_all_abs_lt_inf a2 _ _ _ _ e2,
    isReal_of_all_abs_lt_inf a4 _ _ _ _ e4, isReal_of_all_abs_lt_inf a5 _ _ _ _ e5,
    isReal_of_all_abs_lt_inf a6 _ _ _ _ e6, isReal_of_all_abs_lt_inf a7 _ _ _ _ e7,
    isReal_of_all_abs_lt_inf a8 _ _ _ _ e8, isReal_of_all_abs_lt_inf a9 _ _ _ _ e9,
    isReal_of_all_abs_lt_inf a10 _ _ _ _ e10⟩

end Cert.Net

end
-- ==== Proof.LibRowGatherScatter.lean ====
/-
  Gathering table rows along an index list, and scatter-adding rows (or scalars) back along one, read at an index.

  A rows gather of an [N, C] table at E start indices (an [E, 1] integer array) returns at (e, k) the table's
  entry (r, k) where r is the e-th start index read as a signed integer and clamped into [0, N − 1].  A rows
  scatter-add of [E, C] updates into an [N, C] operand leaves at (n, k) the operand's entry plus the sum of the
  updates (e, k) over the edges e whose index, read signed and NOT clamped, is exactly n; the rank-one version
  scatters E scalars into N cells the same way.  All three are stated for the dimension numbers jax emits for
  x[idx] and for segment_sum, with the shapes' extents as parameters.
-/
import Idealize.ShloMosaic.PureOps.Ideal
import Idealize.ShloMosaic.Lib.ValueIdx

noncomputable section

open scoped BigOperators

namespace Cert.Lib.RowOps

open Idealize.ShloMosaic Idealize.ShloMosaic.ValueIdx

/-- The dimension numbers of a rows gather: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The rows gather at (e, k): the table at the e-th start index, read signed and clamped into [0, N − 1], column k. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
        + (rowGatherDims N E C wf).offCoord (ix2 e k) 1 = _
    rw [GatherDims.batchCoord_eq_zero _ _ _ List.not_mem_nil]
    have hstart : (rowGatherDims N E C wf).start (ix2 e k) idx 1 = 0 := by
      unfold GatherDims.start
      rw [dif_neg (show (1 : Fin 2) ∉ ([0] : List (Fin 2)) by decide)]
    have hmem : (1 : Fin 2) ∈ (rowGatherDims N E C wf).sKept :=
      (GatherDims.mem_sKept _ _).mpr ⟨(show (1 : Fin 2) ∉ ([0] : List (Fin 2)) by decide), List.not_mem_nil⟩
    have hoff : (rowGatherDims N E C wf).offCoord (ix2 e k) 1 = k.val := by
      unfold GatherDims.offCoord
      rw [dif_pos hmem]
      rfl
    rw [hstart, hoff]
    simp

/-- An update index lands at operand index i exactly when, on every axis, the signed start plus the window
    coordinate is the coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hf a
      rw [← hf]
      have := (h a).1
      simp only [Int.toNat_of_nonneg this]
    · intro hall
      funext a
      refine Fin.ext ?_
      show (d.start j idx a + (d.window j a : Int)).toNat = (i a).val
      rw [hall a]
      exact Int.toNat_natCast _
  · next h =>
    constructor
    · intro hf
      exact absurd hf (by simp)
    · intro hall
      exfalso
      apply h
      intro a
      rw [hall a]
      exact ⟨Int.natCast_nonneg _, by exact_mod_cast (i a).isLt⟩

/-- The dimension numbers of a rows scatter: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window of update (e, c) starts at the e-th index, read signed. -/
theorem rowScatter_start0 :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rowScatter_start1 : (rowScatterDims N E C wf).start (ix2 e c) idx 1 = 0 := by
  unfold ScatterDims.start
  rw [dif_neg (show (1 : Fin 2) ∉ ([0] : List (Fin 2)) by decide)]

/-- The row axis is an inserted axis: the window coordinate there is 0. -/
theorem rowScatter_window0 : (rowScatterDims N E C wf).window (ix2 e c) 0 = 0 := by
  unfold ScatterDims.window
  have h0 : (0 : Fin 2) ∉ (rowScatterDims N E C wf).sKept :=
    (show (0 : Fin 2) ∉ (List.finRange 2).filter (· ∉ ([0] : List (Fin 2))) by decide)
  rw [dif_neg h0]

/-- On the column axis the window coordinate of update (e, c) is c. -/
theorem rowScatter_window1 : (rowScatterDims N E C wf).window (ix2 e c) 1 = c.val := by
  unfold ScatterDims.window
  have h1 : (1 : Fin 2) ∈ (rowScatterDims N E C wf).sKept :=
    (show (1 : Fin 2) ∈ (List.finRange 2).filter (· ∉ ([0] : List (Fin 2))) by decide)
  rw [dif_pos h1]
  rfl

/-- An update (e, c) of the rows scatter lands at (n, k) exactly when its index, read signed, is n and c = k. -/
theorem rowScatter_resultIdx?_iff (n : Fin N) (k : Fin C) :
    (rowScatterDims N E C wf).resultIdx? (ix2 e c) idx = some (ix2 n k)
      ↔ (idx (ix2 e (0 : Fin 1))).toInt = (n.val : Int) ∧ c = k := by
  rw [resultIdx?_eq_some_iff, Fin.forall_fin_two, rowScatter_start0, rowScatter_start1, rowScatter_window0,
    rowScatter_window1]
  show (idx (ix2 e (0 : Fin 1))).toInt + ((0 : Nat) : Int) = (n.val : Int) ∧ (0 : Int) + (c.val : Int) = (k.val : Int) ↔ _
  constructor
  · rintro ⟨h0, h1⟩
    exact ⟨by simpa using h0, Fin.ext (by omega)⟩
  · rintro ⟨h0, rfl⟩
    exact ⟨by simpa using h0, by simp⟩

end Rows

/-- The rows scatter-add at (n, k): the operand there plus the updates (e, k) of the edges whose index is n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  refine congrArg (x (ix2 n k) + ·) ?_
  rw [Finset.sum_filter, Finset.sum_filter, sum_idx2]
  refine Finset.sum_congr rfl (fun e _ => ?_)
  simp only [rowScatter_resultIdx?_iff]
  by_cases hn : (idx (ix2 e (0 : Fin 1))).toInt = (n.val : Int)
  · simp [hn]
  · simp [hn]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at the e-th index, read signed. -/
theorem vecScatter_start0 :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem vecScatter_window0 : (vecScatterDims N E wf).window (ix1 e) 0 = 0 := by
  unfold ScatterDims.window
  have h0 : (0 : Fin 1) ∉ (vecScatterDims N E wf).sKept :=
    (show (0 : Fin 1) ∉ (List.finRange 1).filter (· ∉ ([0] : List (Fin 1))) by decide)
  rw [dif_neg h0]

/-- An update e of the scalar scatter lands at n exactly when its index, read signed, is n. -/
theorem vecScatter_resultIdx?_iff (n : Fin N) :
    (vecScatterDims N E wf).resultIdx? (ix1 e) idx = some (ix1 n)
      ↔ (idx (ix2 e (0 : Fin 1))).toInt = (n.val : Int) := by
  rw [resultIdx?_eq_some_iff, Fin.forall_fin_one, vecScatter_start0, vecScatter_window0]
  show (idx (ix2 e (0 : Fin 1))).toInt + ((0 : Nat) : Int) = (n.val : Int) ↔ _
  simp

end Vec

/-- The scalar scatter-add at n: the operand there plus the updates of the edges whose index is n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  rw [Finset.sum_filter, Finset.sum_filter, sum_idx1]
  refine Finset.sum_congr rfl (fun e _ => ?_)
  simp only [vecScatter_resultIdx?_iff]

end Cert.Lib.RowOps

end
-- ==== Proof.LibGcnDeg.lean ====
/-
  The in-degree of a node as a scatter-add of ones, and the reciprocal square root of the degree guarded at zero.

  Edge e is counted at node n exactly when the e-th entry of the target list, read as a signed integer, is n.
  Scatter-adding a one per edge into an array of zeros therefore leaves at node n the NUMBER of edges counted there:
  a natural number, read as a real and then as an extended real.  The node factor of a symmetric-normalised graph
  convolution is

      dinv(n) = 1 / √deg(n)   if deg(n) > 0,        0   otherwise,

  computed as a select on the comparison deg(n) > 0 between the reciprocal square root and zero.  For a count c ≥ 0
  this is the non-negative real (√c)⁻¹ when c > 0 and the real 0 when c = 0: the guard keeps the reciprocal square
  root away from its pole at zero, so the factor is always a non-negative REAL — never an infinity.
-/
import Idealize.ShloMosaic.PureOps.Ideal
import Idealize.ShloMosaic.PureOps.Ideal.Laws
import Idealize.ShloMosaic.Lib.ValueIdx
import proofs.«177080_j35828617183700_2_alg».proof.Proof.LibRowGatherScatter

noncomputable section

open scoped BigOperators

namespace Cert.Lib.GcnDeg

open Idealize.ShloMosaic Idealize.ShloMosaic.ValueIdx Cert.Lib.RowOps

/-- A sum of ones over a finite set is the number of its elements. -/
theorem sum_one_eq_card {ι : Type*} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

/-- The edges counted at node n: those whose target entry, read signed, is n. -/
abbrev inEdges {N E w : Nat} (idx : IVec ⟨2, ![E, 1]⟩ w) (n : Fin N) : Finset (Fin E) :=
  Finset.univ.filter (fun e : Fin E => (idx (ix2 e (0 : Fin 1))).toInt = (n.val : Int))

/-- Scatter-adding ones into zeros along the target list leaves at node n the number of edges counted at n. -/
theorem degree_apply {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N) :
    Ideal.hostScatterAdd (vecScatterDims N E wf) z idx o (ix1 n) = (((inEdges idx n).card : ℝ) : EReal) := by
  rw [vecScatterAdd_apply, hz, zero_add]
  simp only [ho]
  exact sum_one_eq_card _

/-- The reciprocal square root of a non-negative real, guarded by "the argument is positive" with zero otherwise,
    is a non-negative real. -/
theorem guarded_rsqrt_nonneg_real {c : ℝ} (hc : 0 ≤ c) :
    ∃ r : ℝ, 0 ≤ r ∧ Scalar.select (Ideal.cmp .ogt (c : EReal) 0) (Ideal.rsqrt (c : EReal)) 0 = (r : EReal) := by
  by_cases h : 0 < c
  · refine ⟨(Real.sqrt c)⁻¹, inv_nonneg.mpr (Real.sqrt_nonneg c), ?_⟩
    have hcmp : Ideal.cmp .ogt (c : EReal) 0 = 1#1 := by
      show BitVec.ofBool (decide ((0 : EReal) < (c : EReal))) = 1#1
      rw [decide_eq_true (by exact_mod_cast h)]
      rfl
    rw [hcmp, select_one, Ideal.rsqrt_coe, if_neg (not_lt.mpr hc), if_neg h.ne']
  · have hc0 : c = 0 := le_antisymm (not_lt.mp h) hc
    subst hc0
    refine ⟨0, le_refl _, ?_⟩
    have hcmp : Ideal.cmp .ogt ((0 : ℝ) : EReal) 0 = 0#1 := by
      show BitVec.ofBool (decide ((0 : EReal) < ((0 : ℝ) : EReal))) = 0#1
      rw [decide_eq_false (by simp)]
      rfl
    rw [hcmp, select_zero]
    rfl

/-- The node factor: the guarded reciprocal square root of the degree, as the operations compute it, is a
    non-negative real at every node. -/
theorem dinv_nonneg_real {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N) :
    ∃ r : ℝ, 0 ≤ r ∧
      Scalar.select (Ideal.cmp .ogt (Ideal.hostScatterAdd (vecScatterDims N E wf) z idx o (ix1 n)) 0)
        (Ideal.rsqrt (Ideal.hostScatterAdd (vecScatterDims N E wf) z idx o (ix1 n))) 0 = (r : EReal) := by
  rw [degree_apply wf z hz idx o ho n]
  exact guarded_rsqrt_nonneg_real (Nat.cast_nonneg _)

end Cert.Lib.GcnDeg

end
-- ==== Proof.Net.Real.lean ====
/-
  Realness is preserved by every stage of one layer of the network.

  At the exact instance a float is an extended real. Sums, differences, products and maxima of reals are reals; so
  are a quotient by a real that is not zero and the reciprocal square root of a positive real. Each stage of a layer
  is built from these: a row of a matrix product, a value picked out of an array, an operand plus finitely many
  updates, the degree factors (the degree of a node that has a loop is a count that is at least one), the
  normalisation by a variance that is not negative plus a positive epsilon, and the pooled mean whose divisor is at
  least one. Each lemma takes "every entry is a real" of the arrays it reads and gives a real at each index.
-/
import proofs.«177080_j35828617183700_2_alg».proof.Proof.LibIsReal
import proofs.«177080_j35828617183700_2_alg».proof.Proof.LibIdealReal
import proofs.«177080_j35828617183700_2_alg».proof.Proof.LibRowGatherScatter
import proofs.«177080_j35828617183700_2_alg».proof.Proof.LibGcnDeg
import proofs.«177080_j35828617183700_2_alg».proof.Proof.LibGraphConvNorm
import Idealize.ShloMosaic.PureOps.Ideal
import Idealize.ShloMosaic.PureOps.Ideal.Laws
import Idealize.ShloMosaic.Lib.ValueIdx

open scoped BigOperators

noncomputable section

namespace Cert.Net

open Idealize.ShloMosaic Idealize.ShloMosaic.ValueIdx Cert.Alg Cert.Lib.RowOps Cert.Lib.GcnDeg

/-! ## Three binary32 words -/

/-- The word 0x3727C5AC: exponent field 110, fraction 2606508, so (2²³ + 2606508) · 2^(110 − 127 − 23)
    = 10995116 · 2⁻⁴⁰. -/
theorem ofBits_bnEps : Ideal.ofBits .f32 0x3727C5AC#32 = (((10995116 : ℝ) / 2 ^ 40 : ℝ) : EReal) := by
  simp [Ideal.ofBits, Ideal.ieee, -EReal.coe_mul]; norm_num

/-- The epsilon of the normalisation is a real. -/
theorem bnEps_isReal : IsReal (Ideal.ofBits .f32 0x3727C5AC#32) := ⟨_, ofBits_bnEps⟩

/-- The epsilon of the normalisation is positive. -/
theorem bnEps_pos : 0 < Ideal.ofBits .f32 0x3727C5AC#32 := by
  rw [ofBits_bnEps]
  exact_mod_cast (by positivity : (0 : ℝ) < 10995116 / 2 ^ 40)

/-- The word 0x3F800000: exponent field 127, fraction 0, so 2²³ · 2^(127 − 127 − 23) = 1. -/
theorem ofBits_one_f32 : Ideal.ofBits .f32 0x3F800000#32 = 1 := by
  simp [Ideal.ofBits, Ideal.ieee, -EReal.coe_mul]; norm_num

/-- The word 1.0 is a real. -/
theorem one_f32_isReal : IsReal (Ideal.ofBits .f32 0x3F800000#32) := by rw [ofBits_one_f32]; exact IsReal.one

/-- The zero word is a real. -/
theorem zero_f32_isReal : IsReal (Ideal.ofBits .f32 0x00000000#32) := by
  rw [Cert.IdealReal.ofBits_zero]; exact IsReal.zero

/-! ## A row of a matrix product -/

/-- A dot product of two real families over a finite index type is a real. -/
theorem dot_isReal {κ : Type*} [Fintype κ] (h W : κ → EReal) (hh : ∀ k, IsReal (h k)) (hW : ∀ k, IsReal (W k)) :
    IsReal (∑ k, h k * W k) :=
  IsReal.sum_univ _ fun k => IsReal.mul (hh k) (hW k)

/-- A real accumulator plus a dot product of two real families is a real. -/
theorem acc_add_dot_isReal {κ : Type*} [Fintype κ] {acc : EReal} (hacc : IsReal acc) (h W : κ → EReal)
    (hh : ∀ k, IsReal (h k)) (hW : ∀ k, IsReal (W k)) : IsReal (acc + ∑ k, h k * W k) :=
  IsReal.add hacc (dot_isReal h W hh hW)

/-- Entry (i, j) of a product of two real matrices, accumulated from zero, is a real. -/
theorem matmul_entry_isReal {ι κ ο : Type*} [Fintype κ] (h : ι → κ → EReal) (W : κ → ο → EReal)
    (hh : ∀ i k, IsReal (h i k)) (hW : ∀ k j, IsReal (W k j)) (i : ι) (j : ο) :
    IsReal (0 + ∑ k, h i k * W k j) :=
  acc_add_dot_isReal IsReal.zero _ _ (hh i) (fun k => hW k j)

/-! ## A value picked out of an array -/

/-- Reading a real array at any computed position gives a real. -/
theorem pick_isReal {ι κ : Type*} (x : ι → EReal) (hx : ∀ i, IsReal (x i)) (f : κ → ι) (j : κ) : IsReal (x (f j)) :=
  hx (f j)

/-- Every entry of a gather from a real array is a real, whatever the start indices. -/
theorem gather_isReal {s si t : Shape} {w : Nat} (d : GatherDims s si t) (x : s.Idx → EReal) (hx : ∀ i, IsReal (x i))
    (idx : IVec si w) (j : t.Idx) : IsReal (Host.gather d x idx j) :=
  hx (d.operandIdx j idx)

/-! ## An operand plus a finite sum of updates -/

/-- A real plus finitely many reals is a real. -/
theorem add_sum_isReal {ι : Type*} {a : EReal} (ha : IsReal a) (s : Finset ι) (f : ι → EReal)
    (hf : ∀ e, IsReal (f e)) : IsReal (a + ∑ e ∈ s, f e) :=
  IsReal.add ha (IsReal.sum s f fun e _ => hf e)

/-- Every entry of a scatter-add of real updates into a real operand is a real, whatever the indices. -/
theorem scatterAdd_isReal {s si su : Shape} {w : Nat} (d : ScatterDims s si su) (x : s.Idx → EReal)
    (hx : ∀ i, IsReal (x i)) (idx : IVec si w) (upd : su.Idx → EReal) (hupd : ∀ j, IsReal (upd j)) (i : s.Idx) :
    IsReal (Ideal.hostScatterAdd d x idx upd i) :=
  add_sum_isReal (hx i) _ upd hupd

/-- The rows scatter-add read at (n, k), in the form "operand plus the updates of the edges counted at n". -/
theorem rowScatterAdd_isReal {N E C w : Nat}
    (x : (⟨2, ![N, C]⟩ : Shape).Idx → EReal) (hx : ∀ i, IsReal (x i)) (idx : IVec ⟨2, ![E, 1]⟩ w)
    (upd : (⟨2, ![E, C]⟩ : Shape).Idx → EReal) (hupd : ∀ j, IsReal (upd j)) (n : Fin N) (k : Fin C) :
    IsReal (x (ix2 n k) + ∑ e ∈ Finset.univ.filter (fun e : Fin E => (idx (ix2 e (0 : Fin 1))).toInt = (n.val : Int)),
      upd (ix2 e k)) :=
  add_sum_isReal (hx _) _ _ fun e => hupd _

/-- The scalar scatter-add read at n, in the form "operand plus the updates of the edges counted at n". -/
theorem vecScatterAdd_isReal {N E w : Nat}
    (x : (⟨1, ![N]⟩ : Shape).Idx → EReal) (hx : ∀ i, IsReal (x i)) (idx : IVec ⟨2, ![E, 1]⟩ w)
    (upd : (⟨1, ![E]⟩ : Shape).Idx → EReal) (hupd : ∀ j, IsReal (upd j)) (n : Fin N) :
    IsReal (x (ix1 n) + ∑ e ∈ Finset.univ.filter (fun e : Fin E => (idx (ix2 e (0 : Fin 1))).toInt = (n.val : Int)),
      upd (ix1 e)) :=
  add_sum_isReal (hx _) _ _ fun e => hupd _

/-! ## The degree and its factors -/

/-- A node at which at least one edge is counted has a degree that is a real and at least one. -/
theorem degree_ge_one {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N)
    (hself : ∃ e : Fin E, (idx (ix2 e (0 : Fin 1))).toInt = (n.val : Int)) :
    ∃ d : ℝ, 1 ≤ d ∧ Ideal.hostScatterAdd (vecScatterDims N E wf) z idx o (ix1 n) = (d : EReal) := by
  refine ⟨((inEdges idx n).card : ℝ), ?_, degree_apply wf z hz idx o ho n⟩
  obtain ⟨e, he⟩ := hself
  have hmem : e ∈ inEdges idx n := Finset.mem_filter.mpr ⟨Finset.mem_univ e, he⟩
  exact_mod_cast Finset.card_pos.mpr ⟨e, hmem⟩

/-- The reciprocal square root of a real that is at least one is a real. -/
theorem rsqrt_isReal_of_ge_one {x : EReal} (hx : ∃ d : ℝ, 1 ≤ d ∧ x = (d : EReal)) : IsReal (Ideal.rsqrt x) := by
  obtain ⟨d, hd, rfl⟩ := hx
  exact IsReal.rsqrt_pos (IsReal.coe d) (by exact_mod_cast (lt_of_lt_of_le one_pos hd))

/-- A real divided by a real that is at least one is a real. -/
theorem div_isReal_of_ge_one {a x : EReal} (ha : IsReal a) (hx : ∃ d : ℝ, 1 ≤ d ∧ x = (d : EReal)) :
    IsReal (Ideal.div a x) := by
  obtain ⟨d, hd, rfl⟩ := hx
  exact IsReal.div_coe ha (lt_of_lt_of_le one_pos hd).ne'

/-- Both degree factors of a node at which an edge is counted — the reciprocal square root of the degree and a real
    over the degree — are reals. -/
theorem degree_factors_isReal {N E w : Nat}
    (wf : ScatterDims.WF ⟨1, ![N]⟩ ⟨2, ![E, 1]⟩ ⟨1, ![E]⟩ [] [0] [0] 1)
    (z : (⟨1, ![N]⟩ : Shape).Idx → EReal) (hz : ∀ j, z j = 0) (idx : IVec ⟨2, ![E, 1]⟩ w)
    (o : (⟨1, ![E]⟩ : Shape).Idx → EReal) (ho : ∀ j, o j = 1) (n : Fin N)
    (hself : ∃ e : Fin E, (idx (ix2 e (0 : Fin 1))).toInt = (n.val : Int)) {a : EReal} (ha : IsReal a) :
    IsReal (Ideal.rsqrt (Ideal.hostScatterAdd (vecScatterDims N E wf) z idx o (ix1 n)))
      ∧ IsReal (Ideal.div a (Ideal.hostScatterAdd (vecScatterDims N E wf) z idx o (ix1 n))) :=
  ⟨rsqrt_isReal_of_ge_one (degree_ge_one wf z hz idx o ho n hself),
    div_isReal_of_ge_one ha (degree_ge_one wf z hz idx o ho n hself)⟩

/-! ## The aggregate scaled and shifted -/

/-- A real times a real plus a real is a real. -/
theorem scale_shift_isReal {a c b : EReal} (ha : IsReal a) (hc : IsReal c) (hb : IsReal b) : IsReal (a * c + b) :=
  IsReal.add (IsReal.mul ha hc) hb

/-! ## Normalisation and rectifier -/

/-- (z − mean) · rsqrt(var + eps) · g + beta, then the maximum with zero, is a real when z, mean, g, beta are reals and
    var is a real that is not negative. -/
theorem bnApply_isReal {z mean var g beta : EReal} (hz : IsReal z) (hm : IsReal mean) (hv : IsReal var) (hv0 : 0 ≤ var)
    (hg : IsReal g) (hb : IsReal beta) :
    IsReal (max (((z - mean) * Ideal.rsqrt (var + Ideal.ofBits .f32 0x3727C5AC#32)) * g + beta) 0) :=
  Cert.Gnn.normRect_isReal hz hm hv hv0 bnEps_isReal bnEps_pos hg hb

/-- The same with the zero of the rectifier written as the zero word. -/
theorem bnApply_isReal' {z mean var g beta : EReal} (hz : IsReal z) (hm : IsReal mean) (hv : IsReal var) (hv0 : 0 ≤ var)
    (hg : IsReal g) (hb : IsReal beta) :
    IsReal (max (((z - mean) * Ideal.rsqrt (var + Ideal.ofBits .f32 0x3727C5AC#32)) * g + beta)
      (Ideal.ofBits .f32 0x00000000#32)) := by
  rw [Cert.IdealReal.ofBits_zero]
  exact bnApply_isReal hz hm hv hv0 hg hb

/-! ## The pooled mean -/

/-- A real divided by the maximum of a real count and one is a real: the divisor is at least one. -/
theorem div_max_one_isReal {s cnt : EReal} (hs : IsReal s) (hc : IsReal cnt) : IsReal (Ideal.div s (max cnt 1)) := by
  obtain ⟨c, rfl⟩ := hc
  refine div_isReal_of_ge_one hs ⟨max c 1, le_max_right c 1, ?_⟩
  rw [← EReal.coe_one, Cert.IdealReal.coe_max']

/-- The same with the one written as the word 1.0. -/
theorem div_max_one_isReal' {s cnt : EReal} (hs : IsReal s) (hc : IsReal cnt) :
    IsReal (Ideal.div s (max cnt (Ideal.ofBits .f32 0x3F800000#32))) := by
  rw [ofBits_one_f32]
  exact div_max_one_isReal hs hc

end Cert.Net

end
-- ==== Proof.KI.GlueReal.lean ====
/-
  Realness through the host operations between the kernels.

  Before the first layer the host builds, from the edge list with one loop appended per node, the in-degree of every
  node (a scatter-add of ones into zeros along the target list), its reciprocal square root, the product of the two
  end points' factors per edge, and one over the degree. Position 3200000 + n of the target list is n itself (the
  appended part is 0, 1, 2, …), so every node is counted at least once: the degree is a real that is at least one,
  and both factors are reals with no assumption on the data. The other stretches only gather, broadcast, multiply,
  add and scatter-add reals, and each of these keeps reals real.
-/
import proofs.«177080_j35828617183700_2_alg».proof.Proof.Gen.KernelIdeal.Launch
import proofs.«177080_j35828617183700_2_alg».proof.Proof.Net.Real
import Idealize.ShloMosaic.Lib.StableHlo.Run
import Idealize.ShloMosaic.Lib.Pipeline.Value
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Alg Cert.Net

/-! ## Each host operation keeps reals real -/

section Pointwise

variable {s t u si : Shape} {w : Nat}

theorem isReal_mulf (x y : FVec Ideal s .f32) (hx : ∀ i, IsReal (x i)) (hy : ∀ i, IsReal (y i)) :
    ∀ i, IsReal (mulf x y i) := fun i => IsReal.mul (hx i) (hy i)

theorem isReal_addf (x y : FVec Ideal s .f32) (hx : ∀ i, IsReal (x i)) (hy : ∀ i, IsReal (y i)) :
    ∀ i, IsReal (addf x y i) := fun i => IsReal.add (hx i) (hy i)

theorem isReal_broadcastInDim (dims : Fin s.rank → Fin t.rank) (h : s.BroadcastsInDim t dims) (x : s.Idx → EReal)
    (hx : ∀ i, IsReal (x i)) : ∀ j, IsReal (broadcastInDim t dims h x j) := fun j => hx _

theorem isReal_shapeCast (x : s.Idx → EReal) (h : s.ShapeCasts t) (hx : ∀ i, IsReal (x i)) :
    ∀ j, IsReal (shapeCast t x h j) := fun j => hx _

theorem isReal_extractStridedSlice (off : Fin s.rank → Nat) (x : s.Idx → EReal) (h : s.Slices off t)
    (hx : ∀ i, IsReal (x i)) : ∀ j, IsReal (extractStridedSlice t off x h j) := fun j => hx _

theorem isReal_hostGather (d : GatherDims s si t) (x : FVec Ideal s .f32) (idx : IVec si w) (hx : ∀ i, IsReal (x i)) :
    ∀ j, IsReal (Host.gather d x idx j) := fun j => hx _

theorem isReal_hostScatterAdd (d : ScatterDims s si u) (x : FVec Ideal s .f32) (idx : IVec si w) (upd : FVec Ideal u .f32)
    (hx : ∀ i, IsReal (x i)) (hupd : ∀ j, IsReal (upd j)) : ∀ i, IsReal (Host.scatterAdd d x idx upd i) :=
  fun i => scatterAdd_isReal d x hx idx upd hupd i

theorem isReal_constant_zero : ∀ i, IsReal (constant (F := Ideal) S_ .f32 0x00000000#32 i) := fun _ => zero_f32_isReal

theorem isReal_constant_one : ∀ i, IsReal (constant (F := Ideal) S_ .f32 0x3F800000#32 i) := fun _ => one_f32_isReal

theorem isReal_hostDivf_of_ge_one (x y : FVec Ideal s .f32) (hx : ∀ i, IsReal (x i))
    (hy : ∀ i, ∃ d : ℝ, 1 ≤ d ∧ y i = (d : EReal)) : ∀ i, IsReal (Host.divf x y i) :=
  fun i => div_isReal_of_ge_one (hx i) (hy i)

theorem isReal_hostRsqrt_of_ge_one (y : FVec Ideal s .f32) (hy : ∀ i, ∃ d : ℝ, 1 ≤ d ∧ y i = (d : EReal)) :
    ∀ i, IsReal (Host.rsqrt y i) :=
  fun i => rsqrt_isReal_of_ge_one (hy i)

end Pointwise

/-- One step of pushing "every entry is a real" through a term: reads the operation at the head of the term and applies
    that operation's lemma; at a buffer of the valuation, looks for the hypothesis. -/
elab "real_step" : tactic => Lean.Elab.Tactic.withMainContext do
  let t ← Lean.instantiateMVars (← (← Lean.Elab.Tactic.getMainGoal).getType)
  let .forallE _ _ b _ := t | throwError "real_step: the goal is not a ∀"
  let stx ← match b.appArg!.getAppFn.constName? with
    | some ``Idealize.ShloMosaic.addf => `(tactic| apply isReal_addf)
    | some ``Idealize.ShloMosaic.mulf => `(tactic| apply isReal_mulf)
    | some ``Idealize.ShloMosaic.broadcastInDim => `(tactic| apply isReal_broadcastInDim)
    | some ``Idealize.ShloMosaic.shapeCast => `(tactic| apply isReal_shapeCast)
    | some ``Idealize.ShloMosaic.extractStridedSlice => `(tactic| apply isReal_extractStridedSlice)
    | some ``Idealize.ShloMosaic.Host.gather => `(tactic| apply isReal_hostGather)
    | some ``Idealize.ShloMosaic.Host.scatterAdd => `(tactic| apply isReal_hostScatterAdd)
    | some ``Idealize.ShloMosaic.constant => `(tactic| first | exact isReal_constant_zero | exact isReal_constant_one)
    | _ => `(tactic| first | assumption | (intro i; show IsReal (shapeCast _ _ _ i); revert i))
  Lean.Elab.Tactic.evalTactic stx

/-- Pushes "every entry is a real" through a term built from the operations above, down to the hypotheses in scope. -/
macro "push_real" : tactic => `(tactic| repeat' real_step)

/-! ## The degree -/

/-- A natural number below 2³¹, written as a 32-bit word and read signed, is itself. -/
theorem toInt_ofNat_small (n : ℕ) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- The target list with the loops appended, read as a column at position 3200000 + n, is n. -/
theorem target_at_loop (hb : S3300000.BroadcastsInDim S3300000x1 (![0] : Fin 1 → Fin S3300000x1.rank))
    (hc : Shape.Concatenates [S3200000, S100000] S3300000 0) (a : IVec S3200000 32) (n : Fin 100000) :
    (broadcastInDim S3300000x1 ![0] hb
        (concatenate S3300000 0 [⟨S3200000, a⟩, ⟨S100000, iotaInDim S100000 32 0⟩] hc)
        (ix2 (⟨3200000 + n.val, by have := n.isLt; omega⟩ : Fin 3300000) (0 : Fin 1))).toInt = (n.val : Int) := by
  have hn := n.isLt
  rw [broadcastInDim_apply ![0] hb _ _ (ix1 (⟨3200000 + n.val, by omega⟩ : Fin 3300000))
    (fun a => by match a with | ⟨0, _⟩ => rfl)]
  rw [concatenate_pair_apply_right (0 : Fin S3300000.rank) a (iotaInDim S100000 32 0) hc _ rfl rfl (ix1 n)
    (fun b hb' => absurd (Subsingleton.elim _ _) hb')
    (by show n.val + 3200000 = 3200000 + n.val; omega)]
  show (BitVec.ofNat 32 n.val).toInt = (n.val : Int)
  exact toInt_ofNat_small n.val (by omega)

/-- Some position of the target list holds n: the loop of node n. -/
theorem target_has_loop (hb : S3300000.BroadcastsInDim S3300000x1 (![0] : Fin 1 → Fin S3300000x1.rank))
    (hc : Shape.Concatenates [S3200000, S100000] S3300000 0) (a : IVec S3200000 32) (n : Fin 100000) :
    ∃ e : Fin 3300000, ((broadcastInDim S3300000x1 ![0] hb
        (concatenate S3300000 0 [⟨S3200000, a⟩, ⟨S100000, iotaInDim S100000 32 0⟩] hc) : IVec ⟨2, ![3300000, 1]⟩ 32)
        (ix2 e (0 : Fin 1))).toInt = (n.val : Int) :=
  ⟨_, target_at_loop hb hc a n⟩

/-- The zero word broadcast is zero everywhere, the word 1.0 broadcast is one everywhere. -/
theorem splat_zero_one (hz : S_.BroadcastsInDim S100000 (![] : Fin 0 → Fin S100000.rank))
    (ho : S_.BroadcastsInDim S3300000 (![] : Fin 0 → Fin S3300000.rank)) :
    (∀ j, broadcastInDim S100000 ![] hz (constant (F := Ideal) S_ .f32 0x00000000#32) j = (0 : EReal))
    ∧ (∀ j, broadcastInDim S3300000 ![] ho (constant (F := Ideal) S_ .f32 0x3F800000#32) j = (1 : EReal)) :=
  ⟨fun j => Cert.IdealReal.ofBits_zero, fun j => ofBits_one_f32⟩

/-- The degree's scatter has the dimension numbers of a scalar scatter-add. -/
theorem scatterDeg_eq : scatter_S100000_S3300000x1_S3300000_n_0_0_1
    = Cert.Lib.RowOps.vecScatterDims 100000 3300000 scatter_S100000_S3300000x1_S3300000_n_0_0_1_wf := rfl

/-- At the exact instance the host's accumulating scatter is the exact sum. -/
theorem hostScatterAdd_deg (z : FVec Ideal S100000 .f32) (idx : IVec S3300000x1 32) (o : FVec Ideal S3300000 .f32) (j : S100000.Idx) :
    Host.scatterAdd (F := Ideal) scatter_S100000_S3300000x1_S3300000_n_0_0_1 z idx o j
      = Ideal.hostScatterAdd scatter_S100000_S3300000x1_S3300000_n_0_0_1 z idx o j := rfl

set_option maxHeartbeats 50000 in
theorem deg_ge_one_sum (hz : S_.BroadcastsInDim S100000 (![] : Fin 0 → Fin S100000.rank))
    (hb : S3300000.BroadcastsInDim S3300000x1 (![0] : Fin 1 → Fin S3300000x1.rank))
    (ho : S_.BroadcastsInDim S3300000 (![] : Fin 0 → Fin S3300000.rank))
    (hc : Shape.Concatenates [S3200000, S100000] S3300000 0) (a : IVec S3200000 32) (n : Fin 100000)
    (hzero : ∀ j, broadcastInDim S100000 ![] hz (constant (F := Ideal) S_ .f32 0x00000000#32) j = (0 : EReal))
    (hone : ∀ j, broadcastInDim S3300000 ![] ho (constant (F := Ideal) S_ .f32 0x3F800000#32) j = (1 : EReal))
    (hself : ∃ e : Fin 3300000, ((broadcastInDim S3300000x1 ![0] hb
        (concatenate S3300000 0 [⟨S3200000, a⟩, ⟨S100000, iotaInDim S100000 32 0⟩] hc) : IVec ⟨2, ![3300000, 1]⟩ 32)
        (ix2 e (0 : Fin 1))).toInt = (n.val : Int)) :
    ∃ d : ℝ, 1 ≤ d ∧
      Ideal.hostScatterAdd (Cert.Lib.RowOps.vecScatterDims 100000 3300000 scatter_S100000_S3300000x1_S3300000_n_0_0_1_wf)
        (broadcastInDim S100000 ![] hz (constant (F := Ideal) S_ .f32 0x00000000#32))
        (broadcastInDim S3300000x1 ![0] hb
          (concatenate S3300000 0 [⟨S3200000, a⟩, ⟨S100000, iotaInDim S100000 32 0⟩] hc))
        (broadcastInDim S3300000 ![] ho (constant (F := Ideal) S_ .f32 0x3F800000#32)) (ix1 n) = (d : EReal) :=
  degree_ge_one (N := 100000) (E := 3300000) (w := 32) scatter_S100000_S3300000x1_S3300000_n_0_0_1_wf
    _ hzero _ _ hone n hself

set_option maxHeartbeats 50000 in
theorem deg_ge_one_transport (z : FVec Ideal S100000 .f32) (idx : IVec S3300000x1 32) (o : FVec Ideal S3300000 .f32) (n : Fin 100000)
    (h : ∃ d : ℝ, 1 ≤ d ∧ Ideal.hostScatterAdd (Cert.Lib.RowOps.vecScatterDims 100000 3300000 scatter_S100000_S3300000x1_S3300000_n_0_0_1_wf) z idx o (ix1 n) = (d : EReal)) :
    ∃ d : ℝ, 1 ≤ d ∧ Host.scatterAdd (F := Ideal) scatter_S100000_S3300000x1_S3300000_n_0_0_1 z idx o (ix1 n) = (d : EReal) := by
  rw [hostScatterAdd_deg, scatterDeg_eq]
  exact h

/-- The in-degree with loops of every node is a real that is at least one. -/
theorem deg_ge_one (hz : S_.BroadcastsInDim S100000 (![] : Fin 0 → Fin S100000.rank))
    (hb : S3300000.BroadcastsInDim S3300000x1 (![0] : Fin 1 → Fin S3300000x1.rank))
    (ho : S_.BroadcastsInDim S3300000 (![] : Fin 0 → Fin S3300000.rank))
    (hc : Shape.Concatenates [S3200000, S100000] S3300000 0) (a : IVec S3200000 32) (i : S100000.Idx) :
    ∃ d : ℝ, 1 ≤ d ∧
      Host.scatterAdd (F := Ideal) scatter_S100000_S3300000x1_S3300000_n_0_0_1
        (broadcastInDim S100000 ![] hz (constant S_ .f32 0x00000000#32))
        (broadcastInDim S3300000x1 ![0] hb
          (concatenate S3300000 0 [⟨S3200000, a⟩, ⟨S100000, iotaInDim S100000 32 0⟩] hc))
        (broadcastInDim S3300000 ![] ho (constant S_ .f32 0x3F800000#32)) i = (d : EReal) := by
  rw [eq_ix1 i]
  exact deg_ge_one_transport _ _ _ (i 0)
    (deg_ge_one_sum hz hb ho hc a (i 0) (splat_zero_one hz ho).1 (splat_zero_one hz ho).2 (target_has_loop hb hc a (i 0)))

/-! ## Before the first layer -/

set_option maxHeartbeats 4000000 in
/-- One over the in-degree is a real at every node, whatever the buffers held. -/
theorem hostOps0_v28_isReal (W : Valuation τ sig (Elt Ideal)) :
    ∀ i, IsReal ((StableHlo.after (hostOps0 (F := Ideal)) W (Proc.devRef .tc main_v28) : FVec Ideal S100000 .f32) i) := by
  dsimp only [hostOps0]
  after_results
  apply isReal_hostDivf_of_ge_one
  · push_real
  · exact fun i => deg_ge_one _ _ _ _ _ i

set_option maxHeartbeats 4000000 in
/-- The product of the end points' factors is a real at every edge, whatever the buffers held. -/
theorem hostOps0_v26_isReal (W : Valuation τ sig (Elt Ideal)) :
    ∀ i, IsReal ((StableHlo.after (hostOps0 (F := Ideal)) W (Proc.devRef .tc main_v26) : FVec Ideal S3300000 .f32) i) := by
  dsimp only [hostOps0]
  after_results_simp
  apply isReal_mulf
  · apply isReal_hostGather
    apply isReal_hostRsqrt_of_ge_one
    exact fun i => deg_ge_one _ _ _ _ _ i
  · apply isReal_hostGather
    apply isReal_hostRsqrt_of_ge_one
    exact fun i => deg_ge_one _ _ _ _ _ i

/-! ## Between a layer's product and its statistics

The rows of the product are gathered along the source list, scaled by the edge factor, scatter-added along the target
list into zeros, scaled by one over the degree and shifted by the layer's bias row. -/

set_option maxHeartbeats 4000000 in
/-- Layer 0: the aggregate, scaled and shifted, is real when the product, the two factors and the biases are. -/
theorem hostOps1_v54_isReal (W : Valuation τ sig (Elt Ideal))
    (hz : ∀ i, IsReal ((W (Proc.devRef .tc main_v33) : FVec Ideal S100000x32 .f32) i))
    (h26 : ∀ i, IsReal ((W (Proc.devRef .tc main_v26) : FVec Ideal S3300000 .f32) i))
    (h28 : ∀ i, IsReal ((W (Proc.devRef .tc main_v28) : FVec Ideal S100000 .f32) i))
    (hb : ∀ i, IsReal ((W (Proc.devRef .tc main_arg6) : FVec Ideal S3x32 .f32) i)) :
    ∀ i, IsReal ((StableHlo.after (hostOps1 (F := Ideal)) W (Proc.devRef .tc main_v54) : FVec Ideal S100000x32 .f32) i) := by
  dsimp only [hostOps1]
  after_results_simp
  push_real

set_option maxHeartbeats 4000000 in
/-- Layer 1: the same. -/
theorem hostOps4_v84_isReal (W : Valuation τ sig (Elt Ideal))
    (hz : ∀ i, IsReal ((W (Proc.devRef .tc main_v63) : FVec Ideal S100000x32 .f32) i))
    (h26 : ∀ i, IsReal ((W (Proc.devRef .tc main_v26) : FVec Ideal S3300000 .f32) i))
    (h28 : ∀ i, IsReal ((W (Proc.devRef .tc main_v28) : FVec Ideal S100000 .f32) i))
    (hb : ∀ i, IsReal ((W (Proc.devRef .tc main_arg6) : FVec Ideal S3x32 .f32) i)) :
    ∀ i, IsReal ((StableHlo.after (hostOps4 (F := Ideal)) W (Proc.devRef .tc main_v84) : FVec Ideal S100000x32 .f32) i) := by
  dsimp only [hostOps4]
  after_results_simp
  push_real

set_option maxHeartbeats 4000000 in
/-- Layer 2: the same. -/
theorem hostOps7_v114_isReal (W : Valuation τ sig (Elt Ideal))
    (hz : ∀ i, IsReal ((W (Proc.devRef .tc main_v93) : FVec Ideal S100000x32 .f32) i))
    (h26 : ∀ i, IsReal ((W (Proc.devRef .tc main_v26) : FVec Ideal S3300000 .f32) i))
    (h28 : ∀ i, IsReal ((W (Proc.devRef .tc main_v28) : FVec Ideal S100000 .f32) i))
    (hb : ∀ i, IsReal ((W (Proc.devRef .tc main_arg6) : FVec Ideal S3x32 .f32) i)) :
    ∀ i, IsReal ((StableHlo.after (hostOps7 (F := Ideal)) W (Proc.devRef .tc main_v114) : FVec Ideal S100000x32 .f32) i) := by
  dsimp only [hostOps7]
  after_results_simp
  push_real

/-! ## Before the head -/

set_option maxHeartbeats 4000000 in
/-- The pooled sums are real when the last layer's output is. -/
theorem hostOps9_v125_isReal (W : Valuation τ sig (Elt Ideal))
    (hh : ∀ i, IsReal ((W (Proc.devRef .tc main_v122) : FVec Ideal S100000x32 .f32) i)) :
    ∀ i, IsReal ((StableHlo.after (hostOps9 (F := Ideal)) W (Proc.devRef .tc main_v125) : FVec Ideal S100x32 .f32) i) := by
  dsimp only [hostOps9]
  after_results
  push_real

set_option maxHeartbeats 4000000 in
/-- The node counts per graph are real, whatever the buffers held. -/
theorem hostOps9_v130_isReal (W : Valuation τ sig (Elt Ideal)) :
    ∀ i, IsReal ((StableHlo.after (hostOps9 (F := Ideal)) W (Proc.devRef .tc main_v130) : FVec Ideal S100x1 .f32) i) := by
  dsimp only [hostOps9]
  after_results
  push_real

end Cert.KernelIdeal.Hand

end
-- ==== Proof.Bridge.RealChain.lean ====
/-
  Every entry of the three arrays the batch statistics are taken of is a real.

  Under the finiteness precondition the arguments are reals. The degree factors are reals with no assumption. A row
  of a product of real matrices is a real; gathering, scaling, scatter-adding and shifting reals gives reals; the
  column mean and variance of real data are reals and the variance is not negative, so normalising by them and
  rectifying gives reals again. Going through the three layers in order gives the claim for each layer's
  pre-activation array.
-/
import proofs.«177080_j35828617183700_2_alg».proof.Defs
import proofs.«177080_j35828617183700_2_alg».proof.Proof.Net.Finite
import proofs.«177080_j35828617183700_2_alg».proof.Proof.Net.BnStats
import proofs.«177080_j35828617183700_2_alg».proof.Proof.Net.Real
import proofs.«177080_j35828617183700_2_alg».proof.Proof.Bridge.Sides
import proofs.«177080_j35828617183700_2_alg».proof.Proof.Bridge.KernelNorm
import proofs.«177080_j35828617183700_2_alg».proof.Proof.KI.GlueReal
import proofs.«177080_j35828617183700_2_alg».proof.Proof.KI.Val0
import proofs.«177080_j35828617183700_2_alg».proof.Proof.KI.Val1
import proofs.«177080_j35828617183700_2_alg».proof.Proof.KI.Val3
import proofs.«177080_j35828617183700_2_alg».proof.Proof.KI.Val4
import proofs.«177080_j35828617183700_2_alg».proof.Proof.KI.Val6

set_option maxRecDepth 16384

open scoped BigOperators

noncomputable section

namespace Cert.Bridge

open Idealize.ShloMosaic Idealize.ShloMosaic.TcCoe Idealize.ShloMosaic.ValueIdx
open Idealize.SL.Sem
open Cert.KernelIdeal Cert.KernelIdeal.Gen Cert.KernelIdeal.Hand
open Cert.Alg Cert.Net

/-- Realness moves along an equality of arrays. -/
theorem real_of_eq {s : Shape} {x y : FVec Ideal s .f32} (e : x = y) (hy : ∀ i, IsReal (y i)) : ∀ i, IsReal (x i) :=
  e ▸ hy

/-! ## The two weight matrices the host slices out before the first layer -/

set_option maxHeartbeats 4000000 in
/-- The first slice of the stacked weights is real when the stack is. -/
theorem hostOps0_v30_isReal (W : Valuation τ sig (Elt Ideal)) (h5 : ∀ i, IsReal (k_arg5 W i)) :
    ∀ i, IsReal ((StableHlo.after (hostOps0 (F := Ideal)) W (Proc.devRef .tc main_v30) : FVec Ideal S32x32 .f32) i) := by
  dsimp only [hostOps0]
  after_results_simp
  push_real

set_option maxHeartbeats 4000000 in
/-- The second slice of the stacked weights is real when the stack is. -/
theorem hostOps0_v32_isReal (W : Valuation τ sig (Elt Ideal)) (h5 : ∀ i, IsReal (k_arg5 W i)) :
    ∀ i, IsReal ((StableHlo.after (hostOps0 (F := Ideal)) W (Proc.devRef .tc main_v32) : FVec Ideal S32x32 .f32) i) := by
  dsimp only [hostOps0]
  after_results_simp
  push_real

variable (m : (ℓ : Loc Cert.KernelIdeal.nD Cert.KernelIdeal.τ Cert.KernelIdeal.sig) → Buf (Elt Ideal) ℓ) (c : Dev Cert.KernelIdeal.nD)

/-! ## Before the first layer -/

theorem u1_v26_real : ∀ i, IsReal (k_v26 (U1 (F := Ideal) m c) i) := hostOps0_v26_isReal (launchK m c)

theorem u1_v28_real : ∀ i, IsReal (k_v28 (U1 (F := Ideal) m c) i) := hostOps0_v28_isReal (launchK m c)

theorem u1_v30_real (h5 : ∀ i, IsReal (k_arg5 (launchK m c) i)) : ∀ i, IsReal (k_v30 (U1 (F := Ideal) m c) i) :=
  hostOps0_v30_isReal (launchK m c) h5

theorem u1_v32_real (h5 : ∀ i, IsReal (k_arg5 (launchK m c) i)) : ∀ i, IsReal (k_v32 (U1 (F := Ideal) m c) i) :=
  hostOps0_v32_isReal (launchK m c) h5

/-! ## Layer 0 -/

/-- Layer 0's product, entry by entry, from the launch contents. -/
theorem kdot0 (p : Fin 100000) (q : Fin 32) :
    k_v33 (U2 (F := Ideal) m c) (ix2 p q) = ∑ k : Fin 384, k_arg0 (launchK m c) (ix2 p k) * k_arg4 (launchK m c) (ix2 k q) := by
  have h1 : k_v33 (U2 (F := Ideal) m c) = out0 (T1 (F := Ideal) m) c := fresh_v33 m c
  have h2 : feat0 (T1 (F := Ideal) m) c = k_arg0 (launchK m c) := keep_arg0_1 m c
  have h3 : wt0 (T1 (F := Ideal) m) c = k_arg4 (launchK m c) := keep_arg4_1 m c
  rw [h1, val0, h2, h3]

/-- Layer 0's product of real features and real weights is real. -/
theorem dot0_real (h0 : ∀ i, IsReal (k_arg0 (launchK m c) i)) (h4 : ∀ i, IsReal (k_arg4 (launchK m c) i)) :
    ∀ i, IsReal (k_v33 (U2 (F := Ideal) m c) i) := by
  intro i
  obtain ⟨p, q, rfl⟩ : ∃ (p : Fin 100000) (q : Fin 32), i = ix2 p q := ⟨i 0, i 1, eq_ix2 i⟩
  rw [kdot0]
  exact dot_isReal _ _ (fun k => h0 _) (fun k => h4 _)

/-- Layer 0's aggregate, scaled and shifted, of a real product is real. -/
theorem glue0_real (hz : ∀ i, IsReal (k_v33 (U2 (F := Ideal) m c) i)) (h6 : ∀ i, IsReal (k_arg6 (launchK m c) i)) :
    ∀ i, IsReal (k_v54 (U3 (F := Ideal) m c) i) := by
  have e26 : k_v26 (U2 (F := Ideal) m c) = k_v26 (U1 (F := Ideal) m c) := keep_v26_2 m c
  have e28 : k_v28 (U2 (F := Ideal) m c) = k_v28 (U1 (F := Ideal) m c) := keep_v28_2 m c
  have e6 : k_arg6 (U2 (F := Ideal) m c) = k_arg6 (launchK m c) := keep_arg6_2 m c
  exact hostOps1_v54_isReal (U2 (F := Ideal) m c) hz (real_of_eq e26 (u1_v26_real m c)) (real_of_eq e28 (u1_v28_real m c))
    (real_of_eq e6 h6)

/-- Layer 0's statistics rows: for real pre-activations the column mean and variance are reals and the variance is not
    negative. -/
theorem stats0_real (h : ∀ i, IsReal (k_v54 (U3 (F := Ideal) m c) i)) (q : Fin 32) :
    IsReal (k_v55_0 (U4 (F := Ideal) m c) (ix2 (0 : Fin 1) q)) ∧ IsReal (k_v55_1 (U4 (F := Ideal) m c) (ix2 (0 : Fin 1) q))
      ∧ 0 ≤ k_v55_1 (U4 (F := Ideal) m c) (ix2 (0 : Fin 1) q) := by
  have hm := val1_mean (T3 (F := Ideal) m) c q
  have hv := val1_var (T3 (F := Ideal) m) c q
  have e0 : k_v55_0 (U4 (F := Ideal) m c) = (dat1 (F := Ideal) (T3 m) c).arrAt 1 cfg1.N := fresh_v55_0 m c
  have e1 : k_v55_1 (U4 (F := Ideal) m c) = (dat1 (F := Ideal) (T3 m) c).arrAt 2 cfg1.N := fresh_v55_1 m c
  obtain ⟨s1, s2, s3⟩ := statsK_isReal (col1 (T3 (F := Ideal) m) c q) rowOf1 (fun _ _ => rfl) (fun p => h (ix2 p q))
  rw [e0, e1, hm, hv]
  exact ⟨s1, s2, s3⟩

/-- Layer 0's normalisation and rectifier keeps reals real. -/
theorem norm0_real (hz : ∀ i, IsReal (k_v54 (U3 (F := Ideal) m c) i))
    (hst : ∀ q : Fin 32, IsReal (k_v55_0 (U4 (F := Ideal) m c) (ix2 (0 : Fin 1) q))
      ∧ IsReal (k_v55_1 (U4 (F := Ideal) m c) (ix2 (0 : Fin 1) q)) ∧ 0 ≤ k_v55_1 (U4 (F := Ideal) m c) (ix2 (0 : Fin 1) q))
    (h7 : ∀ i, IsReal (k_arg7 (launchK m c) i)) (h8 : ∀ i, IsReal (k_arg8 (launchK m c) i)) :
    ∀ i, IsReal (k_v62 (U6 (F := Ideal) m c) i) := by
  intro i
  obtain ⟨p, q, rfl⟩ : ∃ (p : Fin 100000) (q : Fin 32), i = ix2 p q := ⟨i 0, i 1, eq_ix2 i⟩
  rw [kernel_A0]
  obtain ⟨hm, hv, hv0⟩ := hst q
  exact bnApply_isReal' (hz _) hm hv hv0 (h7 _) (h8 _)

/-! ## Layer 1 -/

/-- Layer 1's product, entry by entry. -/
theorem kdot1 (p : Fin 100000) (q : Fin 32) :
    k_v63 (U7 (F := Ideal) m c) (ix2 p q)
      = ∑ k : Fin 32, k_v62 (U6 (F := Ideal) m c) (ix2 p k) * k_v30 (U1 (F := Ideal) m c) (ix2 k q) := by
  have h1 : k_v63 (U7 (F := Ideal) m c) = out3 (T6 (F := Ideal) m) c := fresh_v63 m c
  have h2 : feat3 (T6 (F := Ideal) m) c = k_v62 (U6 (F := Ideal) m c) := rfl
  have h3 : wt3 (T6 (F := Ideal) m) c = k_v30 (U1 (F := Ideal) m c) := keep_v30_6 m c
  rw [h1, val3, h2, h3]

/-- Layer 1's product of real activations and real weights is real. -/
theorem dot1_real (hh : ∀ i, IsReal (k_v62 (U6 (F := Ideal) m c) i)) (hw : ∀ i, IsReal (k_v30 (U1 (F := Ideal) m c) i)) :
    ∀ i, IsReal (k_v63 (U7 (F := Ideal) m c) i) := by
  intro i
  obtain ⟨p, q, rfl⟩ : ∃ (p : Fin 100000) (q : Fin 32), i = ix2 p q := ⟨i 0, i 1, eq_ix2 i⟩
  rw [kdot1]
  exact dot_isReal _ _ (fun k => hh _) (fun k => hw _)

/-- Layer 1's aggregate, scaled and shifted, of a real product is real. -/
theorem glue1_real (hz : ∀ i, IsReal (k_v63 (U7 (F := Ideal) m c) i)) (h6 : ∀ i, IsReal (k_arg6 (launchK m c) i)) :
    ∀ i, IsReal (k_v84 (U8 (F := Ideal) m c) i) := by
  have e26 : k_v26 (U7 (F := Ideal) m c) = k_v26 (U1 (F := Ideal) m c) := keep_v26_7 m c
  have e28 : k_v28 (U7 (F := Ideal) m c) = k_v28 (U1 (F := Ideal) m c) := keep_v28_7 m c
  have e6 : k_arg6 (U7 (F := Ideal) m c) = k_arg6 (launchK m c) := keep_arg6_7 m c
  exact hostOps4_v84_isReal (U7 (F := Ideal) m c) hz (real_of_eq e26 (u1_v26_real m c)) (real_of_eq e28 (u1_v28_real m c))
    (real_of_eq e6 h6)

/-- Layer 1's statistics rows: for real pre-activations the column mean and variance are reals and the variance is not
    negative. -/
theorem stats1_real (h : ∀ i, IsReal (k_v84 (U8 (F := Ideal) m c) i)) (q : Fin 32) :
    IsReal (k_v85_0 (U9 (F := Ideal) m c) (ix2 (0 : Fin 1) q)) ∧ IsReal (k_v85_1 (U9 (F := Ideal) m c) (ix2 (0 : Fin 1) q))
      ∧ 0 ≤ k_v85_1 (U9 (F := Ideal) m c) (ix2 (0 : Fin 1) q) := by
  have hm := val4_mean (T8 (F := Ideal) m) c q
  have hv := val4_var (T8 (F := Ideal) m) c q
  have e0 : k_v85_0 (U9 (F := Ideal) m c) = (dat4 (F := Ideal) (T8 m) c).arrAt 1 cfg4.N := fresh_v85_0 m c
  have e1 : k_v85_1 (U9 (F := Ideal) m c) = (dat4 (F := Ideal) (T8 m) c).arrAt 2 cfg4.N := fresh_v85_1 m c
  obtain ⟨s1, s2, s3⟩ := statsK_isReal (col4 (T8 (F := Ideal) m) c q) rowOf4 (fun _ _ => rfl) (fun p => h (ix2 p q))
  rw [e0, e1, hm, hv]
  exact ⟨s1, s2, s3⟩

/-- Layer 1's normalisation and rectifier keeps reals real. -/
theorem norm1_real (hz : ∀ i, IsReal (k_v84 (U8 (F := Ideal) m c) i))
    (hst : ∀ q : Fin 32, IsReal (k_v85_0 (U9 (F := Ideal) m c) (ix2 (0 : Fin 1) q))
      ∧ IsReal (k_v85_1 (U9 (F := Ideal) m c) (ix2 (0 : Fin 1) q)) ∧ 0 ≤ k_v85_1 (U9 (F := Ideal) m c) (ix2 (0 : Fin 1) q))
    (h7 : ∀ i, IsReal (k_arg7 (launchK m c) i)) (h8 : ∀ i, IsReal (k_arg8 (launchK m c) i)) :
    ∀ i, IsReal (k_v92 (U11 (F := Ideal) m c) i) := by
  intro i
  obtain ⟨p, q, rfl⟩ : ∃ (p : Fin 100000) (q : Fin 32), i = ix2 p q := ⟨i 0, i 1, eq_ix2 i⟩
  rw [kernel_A1]
  obtain ⟨hm, hv, hv0⟩ := hst q
  exact bnApply_isReal' (hz _) hm hv hv0 (h7 _) (h8 _)

/-! ## Layer 2 -/

/-- Layer 2's product, entry by entry. -/
theorem kdot2 (p : Fin 100000) (q : Fin 32) :
    k_v93 (U12 (F := Ideal) m c) (ix2 p q)
      = ∑ k : Fin 32, k_v92 (U11 (F := Ideal) m c) (ix2 p k) * k_v32 (U1 (F := Ideal) m c) (ix2 k q) := by
  have h1 : k_v93 (U12 (F := Ideal) m c) = out6 (T11 (F := Ideal) m) c := fresh_v93 m c
  have h2 : feat6 (T11 (F := Ideal) m) c = k_v92 (U11 (F := Ideal) m c) := rfl
  have h3 : wt6 (T11 (F := Ideal) m) c = k_v32 (U1 (F := Ideal) m c) := keep_v32_11 m c
  rw [h1, val6, h2, h3]

/-- Layer 2's product of real activations and real weights is real. -/
theorem dot2_real (hh : ∀ i, IsReal (k_v92 (U11 (F := Ideal) m c) i)) (hw : ∀ i, IsReal (k_v32 (U1 (F := Ideal) m c) i)) :
    ∀ i, IsReal (k_v93 (U12 (F := Ideal) m c) i) := by
  intro i
  obtain ⟨p, q, rfl⟩ : ∃ (p : Fin 100000) (q : Fin 32), i = ix2 p q := ⟨i 0, i 1, eq_ix2 i⟩
  rw [kdot2]
  exact dot_isReal _ _ (fun k => hh _) (fun k => hw _)

/-- Layer 2's aggregate, scaled and shifted, of a real product is real. -/
theorem glue2_real (hz : ∀ i, IsReal (k_v93 (U12 (F := Ideal) m c) i)) (h6 : ∀ i, IsReal (k_arg6 (launchK m c) i)) :
    ∀ i, IsReal (k_v114 (U13 (F := Ideal) m c) i) := by
  have e26 : k_v26 (U12 (F := Ideal) m c) = k_v26 (U1 (F := Ideal) m c) := keep_v26_12 m c
  have e28 : k_v28 (U12 (F := Ideal) m c) = k_v28 (U1 (F := Ideal) m c) := keep_v28_12 m c
  have e6 : k_arg6 (U12 (F := Ideal) m c) = k_arg6 (launchK m c) := keep_arg6_12 m c
  exact hostOps7_v114_isReal (U12 (F := Ideal) m c) hz (real_of_eq e26 (u1_v26_real m c)) (real_of_eq e28 (u1_v28_real m c))
    (real_of_eq e6 h6)

/-! ## Under the finiteness precondition -/

section Pre

variable [Cert.Pre_finite_inputs.Facts] (hpre : Cert.Pre_KernelIdeal m)
include hpre

/-- The float arguments the layers read are real at launch. -/
theorem launch_args_real :
    (∀ i, IsReal (k_arg0 (launchK m c) i)) ∧ (∀ i, IsReal (k_arg4 (launchK m c) i)) ∧ (∀ i, IsReal (k_arg5 (launchK m c) i))
      ∧ (∀ i, IsReal (k_arg6 (launchK m c) i)) ∧ (∀ i, IsReal (k_arg7 (launchK m c) i)) ∧ (∀ i, IsReal (k_arg8 (launchK m c) i)) := by
  have h := Cert.Net.finite_inputs_isReal _ _ _ _ _ _ _ _ _ _ _ (hpre c)
  exact ⟨h.1, h.2.2.1, h.2.2.2.1, h.2.2.2.2.1, h.2.2.2.2.2.1, h.2.2.2.2.2.2.1⟩

/-- Layer 0's pre-activations are real. -/
theorem real_zb0 : ∀ i, IsReal (k_v54 (U3 (F := Ideal) m c) i) := by
  obtain ⟨h0, h4, h5, h6, h7, h8⟩ := launch_args_real m c hpre
  exact glue0_real m c (dot0_real m c h0 h4) h6

/-- Layer 0's output is real. -/
theorem real_h0 : ∀ i, IsReal (k_v62 (U6 (F := Ideal) m c) i) := by
  obtain ⟨h0, h4, h5, h6, h7, h8⟩ := launch_args_real m c hpre
  exact norm0_real m c (real_zb0 m c hpre) (stats0_real m c (real_zb0 m c hpre)) h7 h8

/-- Layer 1's pre-activations are real. -/
theorem real_zb1 : ∀ i, IsReal (k_v84 (U8 (F := Ideal) m c) i) := by
  obtain ⟨h0, h4, h5, h6, h7, h8⟩ := launch_args_real m c hpre
  exact glue1_real m c (dot1_real m c (real_h0 m c hpre) (u1_v30_real m c h5)) h6

/-- Layer 1's output is real. -/
theorem real_h1 : ∀ i, IsReal (k_v92 (U11 (F := Ideal) m c) i) := by
  obtain ⟨h0, h4, h5, h6, h7, h8⟩ := launch_args_real m c hpre
  exact norm1_real m c (real_zb1 m c hpre) (stats1_real m c (real_zb1 m c hpre)) h7 h8

/-- Layer 2's pre-activations are real. -/
theorem real_zb2 : ∀ i, IsReal (k_v114 (U13 (F := Ideal) m c) i) := by
  obtain ⟨h0, h4, h5, h6, h7, h8⟩ := launch_args_real m c hpre
  exact glue2_real m c (dot2_real m c (real_h1 m c hpre) (u1_v32_real m c h5)) h6

end Pre

end Cert.Bridge

end
-- ==== Proof.Bridge.Main.lean ====
/-
  The two programs' results are equal. Stage by stage along the network: the lists, the normalisation and the weights agree; a layer's
  product agrees because both are the whole product of agreeing factors; the aggregated features agree because the same operations are
  applied to agreeing arrays; on real data — the inputs are finite, the degrees are at least one, sums and products of reals are real —
  the one-pass statistics are the two-pass statistics; the normalised and rectified activations agree; after three layers the pooled
  sums, the graph sizes and the head agree.
-/
import proofs.«177080_j35828617183700_2_alg».proof.Defs
import proofs.«177080_j35828617183700_2_alg».proof.Proof.Bridge.StageGlue
import proofs.«177080_j35828617183700_2_alg».proof.Proof.Bridge.StageDot
import proofs.«177080_j35828617183700_2_alg».proof.Proof.Bridge.StageStats
import proofs.«177080_j35828617183700_2_alg».proof.Proof.Bridge.StageNorm
import proofs.«177080_j35828617183700_2_alg».proof.Proof.Bridge.RealChain

set_option maxRecDepth 1000000

noncomputable section

namespace Cert.Bridge

open Idealize.ShloMosaic Idealize.ShloMosaic.TcCoe Idealize.ShloMosaic.ValueIdx Cert.ReferenceIdeal.RefRun

/-- From launch memories that agree on the arguments, the kernel program's result array — what its last region leaves — is the
    reference's result. -/
theorem result_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    k_v132 (Cert.KernelIdeal.Hand.U18 (F := Ideal) m c) = arr_main_v183 (afterHd (StableHlo.launchContents m' c)) := by
  obtain ⟨h0, h1, -, h3, h4, h5, h6, h7, h8, h9, h10⟩ := hag
  have a0 : k_arg0 (launchK m c) = arr_main_arg0 (StableHlo.launchContents m' c) := h0.symm
  have a1 : k_arg1 (launchK m c) = StableHlo.launchContents m' c (Proc.devRef .tc Cert.ReferenceIdeal.main_arg1) := h1.symm
  have a3 : k_arg3 (launchK m c) = StableHlo.launchContents m' c (Proc.devRef .tc Cert.ReferenceIdeal.main_arg3) := h3.symm
  have a4 : k_arg4 (launchK m c) = arr_main_arg4 (StableHlo.launchContents m' c) := h4.symm
  have a5 : k_arg5 (launchK m c) = arr_main_arg5 (StableHlo.launchContents m' c) := h5.symm
  have a6 : k_arg6 (launchK m c) = arr_main_arg6 (StableHlo.launchContents m' c) := h6.symm
  have a7 : k_arg7 (launchK m c) = arr_main_arg7 (StableHlo.launchContents m' c) := h7.symm
  have a8 : k_arg8 (launchK m c) = arr_main_arg8 (StableHlo.launchContents m' c) := h8.symm
  have a9 : k_arg9 (launchK m c) = arr_main_arg9 (StableHlo.launchContents m' c) := h9.symm
  have a10 : k_arg10 (launchK m c) = arr_main_arg10 (StableHlo.launchContents m' c) := h10.symm
  generalize StableHlo.launchContents m' c = V' at a0 a1 a3 a4 a5 a6 a7 a8 a9 a10 ⊢
  have gd := stage_G0_dst m c V' a1 a5
  have gs := stage_G0_src m c V' a1 a5
  have gn := stage_G0_norm m c V' a1 a5
  have gi := stage_G0_invdeg m c V' a1 a5
  have gw1 := stage_G0_w1 m c V' a1 a5
  have gw2 := stage_G0_w2 m c V' a1 a5
  have l0 := stage_L0 m c V' a0 a4
  have g1 := stage_G1 m c V' l0 gn gs gd gi a6
  have s0 := stage_St0 m c V' g1 (real_zb0 m c hpre)
  have n0 := stage_A0 m c V' g1 s0.1 s0.2 a7 a8
  have l1 := stage_L1 m c V' n0 gw1
  have g2 := stage_G2 m c V' l1 gn gs gd gi a6
  have s1 := stage_St1 m c V' g2 (real_zb1 m c hpre)
  have n1 := stage_A1 m c V' g2 s1.1 s1.2 a7 a8
  have l2 := stage_L2 m c V' n1 gw2
  have g3 := stage_G3 m c V' l2 gn gs gd gi a6
  have s2 := stage_St2 m c V' g3 (real_zb2 m c hpre)
  have n2 := stage_A2 m c V' g3 s2.1 s2.2 a7 a8
  have ps := stage_Pl_sums m c V' n2 a3
  have pc := stage_Pl_cnt m c V' a3
  exact stage_Hd m c V' ps pc a9 a10

end Cert.Bridge

end
-- ==== Proof.lean ====
/-
  A three-layer graph network — per layer a dense product, a mean aggregation over the edges with self loops, training-mode batch
  normalisation and a rectifier; then mean pooling per graph and a dense head — computed by ten kernel regions among stretches of
  host operations, against the same network written with whole-array operations. The three programs run to the end, fault nowhere
  and leave their inputs as they found them; the idealized kernel program is the printed one read at the exact instance (nothing was
  rewritten); and on finite inputs the two idealized programs end with equal results as extended reals: the blocked products are the
  whole products, the one-pass variance from accumulated sums and sums of squares is the two-pass variance on real data and is not
  negative, the normalisation and the head are the same formulas, and the aggregation between them is the same operations on both sides.
-/
import proofs.«177080_j35828617183700_2_alg».proof.Defs
import proofs.«177080_j35828617183700_2_alg».proof.Proof.Gen.Kernel
import proofs.«177080_j35828617183700_2_alg».proof.Proof.Gen.KernelIdeal
import proofs.«177080_j35828617183700_2_alg».proof.Proof.Gen.ReferenceIdeal
import proofs.«177080_j35828617183700_2_alg».proof.Proof.Gen.Pre_finite_inputs
import proofs.«177080_j35828617183700_2_alg».proof.Proof.K.Frame
import proofs.«177080_j35828617183700_2_alg».proof.Proof.KI.Frame
import proofs.«177080_j35828617183700_2_alg».proof.Proof.RefFrame
import proofs.«177080_j35828617183700_2_alg».proof.Proof.Bridge.Main
import Idealize.ShloMosaic.Adequacy
import Idealize.ShloMosaic.Init

noncomputable section

namespace Cert.Proof

open Idealize.ShloMosaic Idealize.SL.Sem

section Claims
variable [hK : Cert.Kernel.Facts] [hKI : Cert.KernelIdeal.Facts] [hR : Cert.ReferenceIdeal.Facts] [hP : Cert.Pre_finite_inputs.Facts]

/-- The word-level program's frame: the ten regions' segment records under the conditional run. -/
theorem frame_k : Cert.frame_Kernel := fun m ρ _ => Cert.Kernel.Hand.frame m ρ
/-- The idealized program's frame, the same text at the exact instance. -/
theorem frame_ki : Cert.frame_KernelIdeal := fun m ρ _ => Cert.KernelIdeal.Hand.frame m ρ

/-- From memories agreeing on the arguments both idealized programs run to the end; the kernel program's result array is what its last
    region leaves, the reference's is its operations' term of the arguments, and the two are one array (the stage-by-stage bridge). -/
theorem algebraic : Cert.algebraic_KernelIdeal_ReferenceIdeal := by
  intro m ρ m' ρ' hpre hagree
  refine ⟨fun c => Cert.Bridge.k_v132 (Cert.KernelIdeal.Hand.U18 (F := Ideal) m c),
    Cert.KernelIdeal.Hand.run_main (F := Ideal) m ρ, ?_⟩
  refine (θ_run (Cert.ReferenceIdeal.defs (F := Ideal)) _ _).mono (fun r h c => ⟨(h c).1.trans ?_, (h c).2⟩)
    (Cert.ReferenceIdeal.RefRun.run (F := Ideal) m' ρ')
  rw [Cert.ReferenceIdeal.RefRun.after_ops_stages]
  exact (Cert.Bridge.result_eq m m' hpre c (hagree c)).symm

end Claims

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri Cert.Pre_finite_inputs.Gen.facts, trivial, algebraic⟩

end Cert.Proof

end
